-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part6 {F : FTy → Type} [FloatOps F] (main_arg23 : FVec F S64x10 .f32) (main_arg24 : FVec F S10 .f32) (main_v98 : IVec S_ 1) (main_v101 : IVec S10 1) (main_c_39 : IVec S_ 1) : IVec S_ 1 :=
  let main_v102 : IVec S_ 1 := (fun x v => Host.reduce IntOp.andi x v reducesTo_S10_S_d0 h_S_) main_v101 main_c_39
  let main_v103 : IVec S_ 1 := andi main_v98 main_v102
  let main_v104 : FVec F S64x10 .f32 := Host.absf main_arg23
  let main_cst_40 : FVec F S_ .f32 := constant S_ .f32 0x7F800000#32
  let main_v105 : FVec F S64x10 .f32 := broadcastInDim S64x10 ![] bcast_S_S64x10 main_cst_40
  let main_v106 : IVec S64x10 1 := cmpf .olt main_v104 main_v105
  let main_c_41 : IVec S_ 1 := constantI S_ 1 1#1
  let main_v107 : IVec S_ 1 := (fun x v => Host.reduce IntOp.andi x v reducesTo_S64x10_S_d0_1 h_S_) main_v106 main_c_41
  let main_v108 : IVec S_ 1 := andi main_v103 main_v107
  let main_v109 : FVec F S10 .f32 := Host.absf main_arg24
  let main_cst_42 : FVec F S_ .f32 := constant S_ .f32 0x7F800000#32
  let main_v110 : FVec F S10 .f32 := broadcastInDim S10 ![] bcast_S_S10 main_cst_42
  let main_v111 : IVec S10 1 := cmpf .olt main_v109 main_v110
  let main_c_43 : IVec S_ 1 := constantI S_ 1 1#1
  let main_v112 : IVec S_ 1 := (fun x v => Host.reduce IntOp.andi x v reducesTo_S10_S_d0 h_S_) main_v111 main_c_43
  let main_v113 : IVec S_ 1 := andi main_v108 main_v112
  main_v113

def fn_part5 {F : FTy → Type} [FloatOps F] (main_arg20 : FVec F S10 .f32) (main_arg21 : FVec F S64x10 .f32) (main_arg22 : FVec F S10 .f32) (main_arg23 : FVec F S64x10 .f32) (main_arg24 : FVec F S10 .f32) (main_v83 : IVec S_ 1) (main_v84 : FVec F S64x10 .f32) (main_cst_32 : FVec F S_ .f32) : IVec S_ 1 :=
  let main_v85 : FVec F S64x10 .f32 := broadcastInDim S64x10 ![] bcast_S_S64x10 main_cst_32
  let main_v86 : IVec S64x10 1 := cmpf .olt main_v84 main_v85
  let main_c_33 : IVec S_ 1 := constantI S_ 1 1#1
  let main_v87 : IVec S_ 1 := (fun x v => Host.reduce IntOp.andi x v reducesTo_S64x10_S_d0_1 h_S_) main_v86 main_c_33
  let main_v88 : IVec S_ 1 := andi main_v83 main_v87
  let main_v89 : FVec F S10 .f32 := Host.absf main_arg20
  let main_cst_34 : FVec F S_ .f32 := constant S_ .f32 0x7F800000#32
  let main_v90 : FVec F S10 .f32 := broadcastInDim S10 ![] bcast_S_S10 main_cst_34
  let main_v91 : IVec S10 1 := cmpf .olt main_v89 main_v90
  let main_c_35 : IVec S_ 1 := constantI S_ 1 1#1
  let main_v92 : IVec S_ 1 := (fun x v => Host.reduce IntOp.andi x v reducesTo_S10_S_d0 h_S_) main_v91 main_c_35
  let main_v93 : IVec S_ 1 := andi main_v88 main_v92
  let main_v94 : FVec F S64x10 .f32 := Host.absf main_arg21
  let main_cst_36 : FVec F S_ .f32 := constant S_ .f32 0x7F800000#32
  let main_v95 : FVec F S64x10 .f32 := broadcastInDim S64x10 ![] bcast_S_S64x10 main_cst_36
  let main_v96 : IVec S64x10 1 := cmpf .olt main_v94 main_v95
  let main_c_37 : IVec S_ 1 := constantI S_ 1 1#1
  let main_v97 : IVec S_ 1 := (fun x v => Host.reduce IntOp.andi x v reducesTo_S64x10_S_d0_1 h_S_) main_v96 main_c_37
  let main_v98 : IVec S_ 1 := andi main_v93 main_v97
  let main_v99 : FVec F S10 .f32 := Host.absf main_arg22
  let main_cst_38 : FVec F S_ .f32 := constant S_ .f32 0x7F800000#32
  let main_v100 : FVec F S10 .f32 := broadcastInDim S10 ![] bcast_S_S10 main_cst_38
  let main_v101 : IVec S10 1 := cmpf .olt main_v99 main_v100
  let main_c_39 : IVec S_ 1 := constantI S_ 1 1#1
  fn_part6 (F := F) main_arg23 main_arg24 main_v98 main_v101 main_c_39

def fn_part4 {F : FTy → Type} [FloatOps F] (main_arg16 : FVec F S64 .f32) (main_arg17 : FVec F S64 .f32) (main_arg18 : FVec F S64 .f32) (main_arg19 : FVec F S64x10 .f32) (main_arg20 : FVec F S10 .f32) (main_arg21 : FVec F S64x10 .f32) (main_arg22 : FVec F S10 .f32) (main_arg23 : FVec F S64x10 .f32) (main_arg24 : FVec F S10 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x10 .f32 := Host.absf main_arg19
  let main_cst_32 : FVec F S_ .f32 := constant S_ .f32 0x7F800000#32
  fn_part5 (F := F) main_arg20 main_arg21 main_arg22 main_arg23 main_arg24 main_v83 main_v84 main_cst_32

def fn_part3 {F : FTy → Type} [FloatOps F] (main_arg13 : FVec F S64 .f32) (main_arg14 : FVec F S64 .f32) (main_arg15 : FVec F S64x64 .f32) (main_arg16 : FVec F S64 .f32) (main_arg17 : FVec F S64 .f32) (main_arg18 : FVec F S64 .f32) (main_arg19 : FVec F S64x10 .f32) (main_arg20 : FVec F S10 .f32) (main_arg21 : FVec F S64x10 .f32) (main_arg22 : FVec F S10 .f32) (main_arg23 : FVec F S64x10 .f32) (main_arg24 : FVec F S10 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg15
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg16 main_arg17 main_arg18 main_arg19 main_arg20 main_arg21 main_arg22 main_arg23 main_arg24 main_v63 main_v67

def fn_part2 {F : FTy → Type} [FloatOps F] (main_arg9 : FVec F S64 .f32) (main_arg10 : FVec F S64 .f32) (main_arg11 : FVec F S64x64 .f32) (main_arg12 : FVec F S64 .f32) (main_arg13 : FVec F S64 .f32) (main_arg14 : FVec F S64 .f32) (main_arg15 : FVec F S64x64 .f32) (main_arg16 : FVec F S64 .f32) (main_arg17 : FVec F S64 .f32) (main_arg18 : FVec F S64 .f32) (main_arg19 : FVec F S64x10 .f32) (main_arg20 : FVec F S10 .f32) (main_arg21 : FVec F S64x10 .f32) (main_arg22 : FVec F S10 .f32) (main_arg23 : FVec F S64x10 .f32) (main_arg24 : FVec F S10 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_arg19 main_arg20 main_arg21 main_arg22 main_arg23 main_arg24 main_v48 main_v49 main_v50

def fn_part1 {F : FTy → Type} [FloatOps F] (main_arg6 : FVec F S64 .f32) (main_arg7 : FVec F S64x64 .f32) (main_arg8 : FVec F S64 .f32) (main_arg9 : FVec F S64 .f32) (main_arg10 : FVec F S64 .f32) (main_arg11 : FVec F S64x64 .f32) (main_arg12 : FVec F S64 .f32) (main_arg13 : FVec F S64 .f32) (main_arg14 : FVec F S64 .f32) (main_arg15 : FVec F S64x64 .f32) (main_arg16 : FVec F S64 .f32) (main_arg17 : FVec F S64 .f32) (main_arg18 : FVec F S64 .f32) (main_arg19 : FVec F S64x10 .f32) (main_arg20 : FVec F S10 .f32) (main_arg21 : FVec F S64x10 .f32) (main_arg22 : FVec F S10 .f32) (main_arg23 : FVec F S64x10 .f32) (main_arg24 : FVec F S10 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S100000x64 .f32) (main_arg1 : IVec S2x1600000 32) (main_arg2 : IVec S100000 32) (main_arg3 : FVec F S64x64 .f32) (main_arg4 : FVec F S64 .f32) (main_arg5 : FVec F S64 .f32) (main_arg6 : FVec F S64 .f32) (main_arg7 : FVec F S64x64 .f32) (main_arg8 : FVec F S64 .f32) (main_arg9 : FVec F S64 .f32) (main_arg10 : FVec F S64 .f32) (main_arg11 : FVec F S64x64 .f32) (main_arg12 : FVec F S64 .f32) (main_arg13 : FVec F S64 .f32) (main_arg14 : FVec F S64 .f32) (main_arg15 : FVec F S64x64 .f32) (main_arg16 : FVec F S64 .f32) (main_arg17 : FVec F S64 .f32) (main_arg18 : FVec F S64 .f32) (main_arg19 : FVec F S64x10 .f32) (main_arg20 : FVec F S10 .f32) (main_arg21 : FVec F S64x10 .f32) (main_arg22 : FVec F S10 .f32) (main_arg23 : FVec F S64x10 .f32) (main_arg24 : FVec F S10 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S10000x64 : Shape := ⟨2, ![10000, 64]⟩
abbrev S1000x10 : Shape := ⟨2, ![1000, 10]⟩
abbrev S1000x64 : Shape := ⟨2, ![1000, 64]⟩
abbrev S100000x1 : Shape := ⟨2, ![100000, 1]⟩
abbrev S1x10 : Shape := ⟨2, ![1, 10]⟩

abbrev nBuf : Space → Nat
  | .hbm => 142
  | .vmem => 68
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x64, .f32⟩
  | 4 => ⟨S64, .f32⟩
  | 5 => ⟨S64, .f32⟩
  | 6 => ⟨S64, .f32⟩
  | 7 => ⟨S64x64, .f32⟩
  | 8 => ⟨S64, .f32⟩
  | 9 => ⟨S64, .f32⟩
  | 10 => ⟨S64, .f32⟩
  | 11 => ⟨S64x64, .f32⟩
  | 12 => ⟨S64, .f32⟩
  | 13 => ⟨S64, .f32⟩
  | 14 => ⟨S64, .f32⟩
  | 15 => ⟨S64x64, .f32⟩
  | 16 => ⟨S64, .f32⟩
  | 17 => ⟨S64, .f32⟩
  | 18 => ⟨S64, .f32⟩
  | 19 => ⟨S64x10, .f32⟩
  | 20 => ⟨S10, .f32⟩
  | 21 => ⟨S64x10, .f32⟩
  | 22 => ⟨S10, .f32⟩
  | 23 => ⟨S64x10, .f32⟩
  | 24 => ⟨S10, .f32⟩
  | 25 => ⟨S1x1600000, .i32⟩
  | 26 => ⟨S1600000, .i32⟩
  | 27 => ⟨S1x1600000, .i32⟩
  | 28 => ⟨S1600000, .i32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000x64, .f32⟩
  | 38 => ⟨S_, .f32⟩
  | 39 => ⟨S100000x64, .f32⟩
  | 40 => ⟨S1600000x1, .i32⟩
  | 41 => ⟨S100000x64, .f32⟩
  | 42 => ⟨S1x64, .f32⟩
  | 43 => ⟨S1x64, .f32⟩
  | 44 => ⟨S1x64, .f32⟩
  | 45 => ⟨S1x64, .f32⟩
  | 46 => ⟨S1x64, .f32⟩
  | 47 => ⟨S1x64, .f32⟩
  | 48 => ⟨S100000x64, .f32⟩
  | 49 => ⟨S1x64, .f32⟩
  | 50 => ⟨S1x64, .f32⟩
  | 51 => ⟨S_, .f32⟩
  | 52 => ⟨S1x64, .f32⟩
  | 53 => ⟨S1x64, .f32⟩
  | 54 => ⟨S_, .f32⟩
  | 55 => ⟨S1x64, .f32⟩
  | 56 => ⟨S1x64, .f32⟩
  | 57 => ⟨S1x64, .f32⟩
  | 58 => ⟨S1x64, .f32⟩
  | 59 => ⟨S100000x64, .f32⟩
  | 60 => ⟨S1x64, .f32⟩
  | 61 => ⟨S1x64, .f32⟩
  | 62 => ⟨S_, .f32⟩
  | 63 => ⟨S1x64, .f32⟩
  | 64 => ⟨S1x64, .f32⟩
  | 65 => ⟨S_, .f32⟩
  | 66 => ⟨S1x64, .f32⟩
  | 67 => ⟨S1x64, .f32⟩
  | 68 => ⟨S1x64, .f32⟩
  | 69 => ⟨S1x64, .f32⟩
  | 70 => ⟨S100000x64, .f32⟩
  | 71 => ⟨S_, .i32⟩
  | 72 => ⟨S1600000, .i32⟩
  | 73 => ⟨S1600000, .i1⟩
  | 74 => ⟨S_, .i32⟩
  | 75 => ⟨S1600000, .i32⟩
  | 76 => ⟨S1600000, .i32⟩
  | 77 => ⟨S1600000, .i32⟩
  | 78 => ⟨S1600000x1, .i32⟩
  | 79 => ⟨S1600000x64, .f32⟩
  | 80 => ⟨S_, .f32⟩
  | 81 => ⟨S100000x64, .f32⟩
  | 82 => ⟨S1600000x1, .i32⟩
  | 83 => ⟨S100000x64, .f32⟩
  | 84 => ⟨S1x64, .f32⟩
  | 85 => ⟨S1x64, .f32⟩
  | 86 => ⟨S1x64, .f32⟩
  | 87 => ⟨S1x64, .f32⟩
  | 88 => ⟨S1x64, .f32⟩
  | 89 => ⟨S1x64, .f32⟩
  | 90 => ⟨S100000x64, .f32⟩
  | 91 => ⟨S1x64, .f32⟩
  | 92 => ⟨S1x64, .f32⟩
  | 93 => ⟨S_, .f32⟩
  | 94 => ⟨S1x64, .f32⟩
  | 95 => ⟨S1x64, .f32⟩
  | 96 => ⟨S_, .f32⟩
  | 97 => ⟨S1x64, .f32⟩
  | 98 => ⟨S1x64, .f32⟩
  | 99 => ⟨S1x64, .f32⟩
  | 100 => ⟨S1x64, .f32⟩
  | 101 => ⟨S100000x64, .f32⟩
  | 102 => ⟨S1x64, .f32⟩
  | 103 => ⟨S1x64, .f32⟩
  | 104 => ⟨S_, .f32⟩
  | 105 => ⟨S1x64, .f32⟩
  | 106 => ⟨S1x64, .f32⟩
  | 107 => ⟨S_, .f32⟩
  | 108 => ⟨S1x64, .f32⟩
  | 109 => ⟨S1x64, .f32⟩
  | 110 => ⟨S1x64, .f32⟩
  | 111 => ⟨S1x64, .f32⟩
  | 112 => ⟨S100000x64, .f32⟩
  | 113 => ⟨S_, .f32⟩
  | 114 => ⟨S1000x10, .f32⟩
  | 115 => ⟨S_, .f32⟩
  | 116 => ⟨S1000x64, .f32⟩
  | 117 => ⟨S100000x1, .i32⟩
  | 118 => ⟨S1000x64, .f32⟩
  | 119 => ⟨S1000x10, .f32⟩
  | 120 => ⟨S1000x10, .f32⟩
  | 121 => ⟨S1x10, .f32⟩
  | 122 => ⟨S1000x10, .f32⟩
  | 123 => ⟨S1000x10, .f32⟩
  | 124 => ⟨S_, .f32⟩
  | 125 => ⟨S1000x64, .f32⟩
  | 126 => ⟨S100000x1, .i32⟩
  | 127 => ⟨S1000x64, .f32⟩
  | _ => ⟨S100000x64, .f32⟩

abbrev hbmTy0_1 (i : Nat) : BufTy := match i % 128 with
  | 0 => ⟨S1000x10, .f32⟩
  | 1 => ⟨S1000x10, .f32⟩
  | 2 => ⟨S1x10, .f32⟩
  | 3 => ⟨S1000x10, .f32⟩
  | 4 => ⟨S1000x10, .f32⟩
  | 5 => ⟨S_, .f32⟩
  | 6 => ⟨S1000x64, .f32⟩
  | 7 => ⟨S100000x1, .i32⟩
  | 8 => ⟨S1000x64, .f32⟩
  | 9 => ⟨S1000x10, .f32⟩
  | 10 => ⟨S1000x10, .f32⟩
  | 11 => ⟨S1x10, .f32⟩
  | 12 => ⟨S1000x10, .f32⟩
  | 13 => ⟨S1000x10, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S1x64, .f32⟩
  | .local _ .vmem, ⟨6, _⟩ => ⟨S10000x64, .f32⟩
  | .local _ .vmem, ⟨7, _⟩ => ⟨S10000x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | .local _ .vmem, ⟨14, _⟩ => ⟨S1x64, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | .local _ .vmem, ⟨18, _⟩ => ⟨S64x64, .f32⟩
  | .local _ .vmem, ⟨19, _⟩ => ⟨S1x64, .f32⟩
  | .local _ .vmem, ⟨20, _⟩ => ⟨S10000x64, .f32⟩
  | .local _ .vmem, ⟨21, _⟩ => ⟨S10000x64, .f32⟩
  | .local _ .vmem, ⟨22, _⟩ => ⟨S1x64, .f32⟩
  | .local _ .vmem, ⟨23, _⟩ => ⟨S1x64, .f32⟩
  | .local _ .vmem, ⟨24, _⟩ => ⟨S1x64, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | .local _ .vmem, ⟨28, _⟩ => ⟨S1x64, .f32⟩
  | .local _ .vmem, ⟨29, _⟩ => ⟨S1x64, .f32⟩
  | .local _ .vmem, ⟨30, _⟩ => ⟨S1x64, .f32⟩
  | .local _ .vmem, ⟨31, _⟩ => ⟨S1x64, .f32⟩
  | .local _ .vmem, ⟨32, _⟩ => ⟨S10000x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S10000x64, .f32⟩
  | .local _ .vmem, ⟨38, _⟩ => ⟨S64x64, .f32⟩
  | .local _ .vmem, ⟨39, _⟩ => ⟨S1x64, .f32⟩
  | .local _ .vmem, ⟨40, _⟩ => ⟨S10000x64, .f32⟩
  | .local _ .vmem, ⟨41, _⟩ => ⟨S10000x64, .f32⟩
  | .local _ .vmem, ⟨42, _⟩ => ⟨S1x64, .f32⟩
  | .local _ .vmem, ⟨43, _⟩ => ⟨S1x64, .f32⟩
  | .local _ .vmem, ⟨44, _⟩ => ⟨S1x64, .f32⟩
  | .local _ .vmem, ⟨45, _⟩ => ⟨S1x64, .f32⟩
  | .local _ .vmem, ⟨46, _⟩ => ⟨S10000x64, .f32⟩
  | .local _ .vmem, ⟨47, _⟩ => ⟨S10000x64, .f32⟩
  | .local _ .vmem, ⟨48, _⟩ => ⟨S1x64, .f32⟩
  | .local _ .vmem, ⟨49, _⟩ => ⟨S1x64, .f32⟩
  | .local _ .vmem, ⟨50, _⟩ => ⟨S1x64, .f32⟩
  | .local _ .vmem, ⟨51, _⟩ => ⟨S1x64, .f32⟩
  | .local _ .vmem, ⟨52, _⟩ => ⟨S64x64, .f32⟩
  | .local _ .vmem, ⟨53, _⟩ => ⟨S1x64, .f32⟩
  | .local _ .vmem, ⟨54, _⟩ => ⟨S10000x64, .f32⟩
  | .local _ .vmem, ⟨55, _⟩ => ⟨S10000x64, .f32⟩
  | .local _ .vmem, ⟨56, _⟩ => ⟨S1x64, .f32⟩
  | .local _ .vmem, ⟨57, _⟩ => ⟨S1x64, .f32⟩
  | .local _ .vmem, ⟨58, _⟩ => ⟨S1x64, .f32⟩
  | .local _ .vmem, ⟨59, _⟩ => ⟨S1x64, .f32⟩
  | .local _ .vmem, ⟨60, _⟩ => ⟨S10000x64, .f32⟩
  | .local _ .vmem, ⟨61, _⟩ => ⟨S10000x64, .f32⟩
  | .local _ .vmem, ⟨62, _⟩ => ⟨S1x64, .f32⟩
  | .local _ .vmem, ⟨63, _⟩ => ⟨S1x64, .f32⟩
  | .local _ .vmem, ⟨64, _⟩ => ⟨S1x64, .f32⟩
  | .local _ .vmem, ⟨65, _⟩ => ⟨S1x64, .f32⟩
  | .local _ .vmem, ⟨66, _⟩ => ⟨S10000x64, .f32⟩
  | .local _ .vmem, ⟨67, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_c : Ref sig .tc := ⟨.hbm, 29, rfl⟩
abbrev main_v4 : Ref sig .tc := ⟨.hbm, 30, rfl⟩
abbrev main_v5 : Ref sig .tc := ⟨.hbm, 31, rfl⟩
abbrev main_c_0 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20_0 : Ref sig .tc := ⟨.hbm, 48, rfl⟩
abbrev main_v20_1 : Ref sig .tc := ⟨.hbm, 49, rfl⟩
abbrev main_v20_2 : Ref sig .tc := ⟨.hbm, 50, rfl⟩
abbrev main_cst_1 : Ref sig .tc := ⟨.hbm, 51, rfl⟩
abbrev main_v21 : Ref sig .tc := ⟨.hbm, 52, rfl⟩
abbrev main_v22 : Ref sig .tc := ⟨.hbm, 53, rfl⟩
abbrev main_cst_2 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27_0 : Ref sig .tc := ⟨.hbm, 59, rfl⟩
abbrev main_v27_1 : Ref sig .tc := ⟨.hbm, 60, rfl⟩
abbrev main_v27_2 : Ref sig .tc := ⟨.hbm, 61, rfl⟩
abbrev main_cst_3 : Ref sig .tc := ⟨.hbm, 62, rfl⟩
abbrev main_v28 : Ref sig .tc := ⟨.hbm, 63, rfl⟩
abbrev main_v29 : Ref sig .tc := ⟨.hbm, 64, rfl⟩
abbrev main_cst_4 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_c_5 : Ref sig .tc := ⟨.hbm, 71, rfl⟩
abbrev main_v35 : Ref sig .tc := ⟨.hbm, 72, rfl⟩
abbrev main_v36 : Ref sig .tc := ⟨.hbm, 73, rfl⟩
abbrev main_c_6 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_cst_7 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51_0 : Ref sig .tc := ⟨.hbm, 90, rfl⟩
abbrev main_v51_1 : Ref sig .tc := ⟨.hbm, 91, rfl⟩
abbrev main_v51_2 : Ref sig .tc := ⟨.hbm, 92, rfl⟩
abbrev main_cst_8 : Ref sig .tc := ⟨.hbm, 93, rfl⟩
abbrev main_v52 : Ref sig .tc := ⟨.hbm, 94, rfl⟩
abbrev main_v53 : Ref sig .tc := ⟨.hbm, 95, rfl⟩
abbrev main_cst_9 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58_0 : Ref sig .tc := ⟨.hbm, 101, rfl⟩
abbrev main_v58_1 : Ref sig .tc := ⟨.hbm, 102, rfl⟩
abbrev main_v58_2 : Ref sig .tc := ⟨.hbm, 103, rfl⟩
abbrev main_cst_10 : Ref sig .tc := ⟨.hbm, 104, rfl⟩
abbrev main_v59 : Ref sig .tc := ⟨.hbm, 105, rfl⟩
abbrev main_v60 : Ref sig .tc := ⟨.hbm, 106, rfl⟩
abbrev main_cst_11 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_cst_12 : Ref sig .tc := ⟨.hbm, 113, rfl⟩
abbrev main_v66 : Ref sig .tc := ⟨.hbm, 114, rfl⟩
abbrev main_cst_13 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_cst_14 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_cst_15 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc1_stg9_0 : Ref sig .tc := ⟨.vmem, 23, rfl⟩
abbrev cc1_scratch0 : Ref sig .tc := ⟨.vmem, 24, rfl⟩
abbrev cc1_scratch1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg2_0 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg5_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg4_1 : Ref sig .tc := ⟨.vmem, 41, rfl⟩
abbrev cc3_stg5_0 : Ref sig .tc := ⟨.vmem, 42, rfl⟩
abbrev cc3_stg6_0 : Ref sig .tc := ⟨.vmem, 43, rfl⟩
abbrev cc3_scratch0 : Ref sig .tc := ⟨.vmem, 44, rfl⟩
abbrev cc3_scratch1 : Ref sig .tc := ⟨.vmem, 45, rfl⟩
abbrev cc4_stg0_0 : Ref sig .tc := ⟨.vmem, 46, rfl⟩
abbrev cc4_stg0_1 : Ref sig .tc := ⟨.vmem, 47, rfl⟩
abbrev cc4_stg1_0 : Ref sig .tc := ⟨.vmem, 48, rfl⟩
abbrev cc4_stg2_0 : Ref sig .tc := ⟨.vmem, 49, rfl⟩
abbrev cc4_stg3_0 : Ref sig .tc := ⟨.vmem, 50, rfl⟩
abbrev cc4_stg4_0 : Ref sig .tc := ⟨.vmem, 51, rfl⟩
abbrev cc4_stg5_0 : Ref sig .tc := ⟨.vmem, 52, rfl⟩
abbrev cc4_stg6_0 : Ref sig .tc := ⟨.vmem, 53, rfl⟩
abbrev cc4_stg7_0 : Ref sig .tc := ⟨.vmem, 54, rfl⟩
abbrev cc4_stg7_1 : Ref sig .tc := ⟨.vmem, 55, rfl⟩
abbrev cc4_stg8_0 : Ref sig .tc := ⟨.vmem, 56, rfl⟩
abbrev cc4_stg9_0 : Ref sig .tc := ⟨.vmem, 57, rfl⟩
abbrev cc4_scratch0 : Ref sig .tc := ⟨.vmem, 58, rfl⟩
abbrev cc4_scratch1 : Ref sig .tc := ⟨.vmem, 59, rfl⟩
abbrev cc5_stg0_0 : Ref sig .tc := ⟨.vmem, 60, rfl⟩
abbrev cc5_stg0_1 : Ref sig .tc := ⟨.vmem, 61, rfl⟩
abbrev cc5_stg1_0 : Ref sig .tc := ⟨.vmem, 62, rfl⟩
abbrev cc5_stg2_0 : Ref sig .tc := ⟨.vmem, 63, rfl⟩
abbrev cc5_stg3_0 : Ref sig .tc := ⟨.vmem, 64, rfl⟩
abbrev cc5_stg4_0 : Ref sig .tc := ⟨.vmem, 65, rfl⟩
abbrev cc5_stg5_0 : Ref sig .tc := ⟨.vmem, 66, rfl⟩
abbrev cc5_stg5_1 : Ref sig .tc := ⟨.vmem, 67, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc1_sem8_0 : DmaSem sig := 20
abbrev cc1_sem9_0 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem4_1 : DmaSem sig := 37
abbrev cc3_sem5_0 : DmaSem sig := 38
abbrev cc3_sem6_0 : DmaSem sig := 39
abbrev cc4_sem0_0 : DmaSem sig := 40
abbrev cc4_sem0_1 : DmaSem sig := 41
abbrev cc4_sem1_0 : DmaSem sig := 42
abbrev cc4_sem2_0 : DmaSem sig := 43
abbrev cc4_sem3_0 : DmaSem sig := 44
abbrev cc4_sem4_0 : DmaSem sig := 45
abbrev cc4_sem5_0 : DmaSem sig := 46
abbrev cc4_sem6_0 : DmaSem sig := 47
abbrev cc4_sem7_0 : DmaSem sig := 48
abbrev cc4_sem7_1 : DmaSem sig := 49
abbrev cc4_sem8_0 : DmaSem sig := 50
abbrev cc4_sem9_0 : DmaSem sig := 51
abbrev cc5_sem0_0 : DmaSem sig := 52
abbrev cc5_sem0_1 : DmaSem sig := 53
abbrev cc5_sem1_0 : DmaSem sig := 54
abbrev cc5_sem2_0 : DmaSem sig := 55
abbrev cc5_sem3_0 : DmaSem sig := 56
abbrev cc5_sem4_0 : DmaSem sig := 57
abbrev cc5_sem5_0 : DmaSem sig := 58
abbrev cc5_sem5_1 : DmaSem sig := 59

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v31 : BitVec 1 := Scalar.cmpi .eq arg0 c9_i32
  let v32 : BitVec 32 := Scalar.extui v31
  let c0_i32_20 : BitVec 32 := 0#32
  let v33 : BitVec 1 := Scalar.cmpi .ne v32 c0_i32_20
  v33

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v50 : BitVec 1 := Scalar.cmpi .eq arg0 c9_i32
  let v51 : BitVec 32 := Scalar.extui v50
  let c0_i32_28 : BitVec 32 := 0#32
  let v52 : BitVec 1 := Scalar.cmpi .ne v51 c0_i32_28
  v52

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def k3_cond2 (i : grid3.Coords) : BitVec 1 :=
  let arg0 : BitVec 32 := BitVec.ofNat 32 (i 0).val
  let c9_i32 : BitVec 32 := 9#32
  let v32 : BitVec 1 := Scalar.cmpi .eq arg0 c9_i32
  let v33 : BitVec 32 := Scalar.extui v32
  let c0_i32_20 : BitVec 32 := 0#32
  let v34 : BitVec 1 := Scalar.cmpi .ne v33 c0_i32_20
  v34

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v50 : BitVec 1 := Scalar.cmpi .eq arg0 c9_i32
  let v51 : BitVec 32 := Scalar.extui v50
  let c0_i32_28 : BitVec 32 := 0#32
  let v52 : BitVec 1 := Scalar.cmpi .ne v51 c0_i32_28
  v52

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S10000x64 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 1 → Memref sig .tc .vmem S1x64 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x64 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  broadcasts_S1x64_S10000x64 : S1x64.Broadcasts S10000x64
  reduces_S10000x64_S64 : S10000x64.Reduces [0] S64
  bcast_S_S1x64 : S_.BroadcastsInDim S1x64 (![] : Fin 0 → Fin S1x64.rank)
  bcast_S_S1000x10 : S_.BroadcastsInDim S1000x10 (![] : Fin 0 → Fin S1000x10.rank)
  bcast_S_S1000x64 : S_.BroadcastsInDim S1000x64 (![] : Fin 0 → Fin S1000x64.rank)
  bcast_S100000_S100000x1_0 : S100000.BroadcastsInDim S100000x1 (![0] : Fin 1 → Fin S100000x1.rank)
  bcast_S10_S1x10_1 : S10.BroadcastsInDim S1x10 (![1] : Fin 1 → Fin S1x10.rank)
  bcast_S1x10_S1000x10_0_1 : S1x10.BroadcastsInDim S1000x10 (![0, 1] : Fin 2 → Fin S1000x10.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  scatter_S1000x64_S100000x1_S100000x64_1_0_0_1_wf : ScatterDims.WF S1000x64 S100000x1 S100000x64 [1] [0] [0] 1
  dot_S1000x64_S64x10_S1000x10_1_0_0_1_n_n_wf : DotDims.WF S1000x64 S64x10 S1000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x64.size a ≤ S100000x64.size a
  hwx0_4 : ∀ i : grid0.Coords, EltTy.bits .f32 = 32 ∨ (Rect.block (s := S100000x64) S10000x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x64.size a ≤ S100000x64.size a
  hwx1_7 : ∀ i : grid1.Coords, EltTy.bits .f32 = 32 ∨ (Rect.block (s := S100000x64) S10000x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x64.size a ≤ S100000x64.size a
  hwx3_4 : ∀ i : grid3.Coords, EltTy.bits .f32 = 32 ∨ (Rect.block (s := S100000x64) S10000x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x64.size a ≤ S64x64.size a
  hwx4_5 : ∀ i : grid4.Coords, EltTy.bits .f32 = 32 ∨ (Rect.block (s := S64x64) S64x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x64.size a ≤ S1x64.size a
  hwx4_6 : ∀ i : grid4.Coords, EltTy.bits .f32 = 32 ∨ (Rect.block (s := S1x64) S1x64.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S10000x64.size a ≤ S100000x64.size a
  hwx4_7 : ∀ i : grid4.Coords, EltTy.bits .f32 = 32 ∨ (Rect.block (s := S100000x64) S10000x64.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x64.size a ≤ S1x64.size a
  hwx4_8 : ∀ i : grid4.Coords, EltTy.bits .f32 = 32 ∨ (Rect.block (s := S1x64) S1x64.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S1x64.size a ≤ S1x64.size a
  hwx4_9 : ∀ i : grid4.Coords, EltTy.bits .f32 = 32 ∨ (Rect.block (s := S1x64) S1x64.size (cc4_transform_9 i) (hinb4_9 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x64.size a ≤ S100000x64.size a
  hwx5_5 : ∀ i : grid5.Coords, EltTy.bits .f32 = 32 ∨ (Rect.block (s := S100000x64) S10000x64.size (cc5_transform_5 i) (hinb5_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S1000x64_S100000x1_S100000x64_1_0_0_1 : ScatterDims S1000x64 S100000x1 S100000x64 where
  updateWindowDims := [1]
  insertedWindowDims := [0]
  scatterDimsToOperandDims := [0]
  indexVectorDim := 1
  wf := scatter_S1000x64_S100000x1_S100000x64_1_0_0_1_wf
def dot_S1000x64_S64x10_S1000x10_1_0_0_1_n_n : DotDims S1000x64 S64x10 S1000x10 where
  lhsContracting := [1]
  rhsContracting := [0]
  lhsNonContracting := [0]
  rhsNonContracting := [1]
  lhsBatch := []
  rhsBatch := []
  wf := dot_S1000x64_S64x10_S1000x10_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20_0) S10000x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v20_1) S1x64.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20_2) S1x64.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v20_0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v17) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v27_0) S10000x64.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v27_1) S1x64.size cc1_transform_8 reads1_8 true true 1 stage1_8 sem1_8
    hrank1 hreads1_8 hinb1_8 nbuf1_8 (Memref.isWhole_whole _) hwx1_8 hstage1_8

abbrev win1_9 : Pipeline.Window sig grid1 :=
  Pipeline.Window.ofSpec (Memref.whole main_v27_2) S1x64.size cc1_transform_9 reads1_9 true true 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev idle1 : Fin 10 → grid1.Coords → Bool := fun | 0 => fun _ => false | 1 => fun _ => false | 2 => fun _ => false | 3 => fun _ => false | 4 => fun _ => false | 5 => fun _ => false | 6 => fun _ => false | 7 => fun _ => false | 8 => fun i => !(k1_cond2 i == 1#1) | 9 => fun i => !(k1_cond2 i == 1#1) | ⟨_ + 10, h⟩ => absurd h (Nat.not_lt.2 (Nat.le_add_left _ _))

abbrev win2_0 : Pipeline.Window sig grid2 :=
  Pipeline.Window.ofSpec (Memref.whole main_v27_0) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v33) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v18) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v19) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v34) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v34) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v45) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v51_0) S10000x64.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v51_1) S1x64.size cc3_transform_5 reads3_5 true true 1 stage3_5 sem3_5
    hrank3 hreads3_5 hinb3_5 nbuf3_5 (Memref.isWhole_whole _) hwx3_5 hstage3_5

abbrev win3_6 : Pipeline.Window sig grid3 :=
  Pipeline.Window.ofSpec (Memref.whole main_v51_2) S1x64.size cc3_transform_6 reads3_6 true true 1 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev idle3 : Fin 7 → grid3.Coords → Bool := fun | 0 => fun _ => false | 1 => fun _ => false | 2 => fun _ => false | 3 => fun _ => false | 4 => fun _ => false | 5 => fun i => !(k3_cond2 i == 1#1) | 6 => fun i => !(k3_cond2 i == 1#1) | ⟨_ + 7, h⟩ => absurd h (Nat.not_lt.2 (Nat.le_add_left _ _))

abbrev win4_0 : Pipeline.Window sig grid4 :=
  Pipeline.Window.ofSpec (Memref.whole main_v51_0) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v53) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v57) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v46) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v47) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg15) S64x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v48) S1x64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v58_0) S10000x64.size cc4_transform_7 reads4_7 true false 2 stage4_7 sem4_7
    hrank4 hreads4_7 hinb4_7 nbuf4_7 (Memref.isWhole_whole _) hwx4_7 hstage4_7

abbrev win4_8 : Pipeline.Window sig grid4 :=
  Pipeline.Window.ofSpec (Memref.whole main_v58_1) S1x64.size cc4_transform_8 reads4_8 true true 1 stage4_8 sem4_8
    hrank4 hreads4_8 hinb4_8 nbuf4_8 (Memref.isWhole_whole _) hwx4_8 hstage4_8

abbrev win4_9 : Pipeline.Window sig grid4 :=
  Pipeline.Window.ofSpec (Memref.whole main_v58_2) S1x64.size cc4_transform_9 reads4_9 true true 1 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev idle4 : Fin 10 → grid4.Coords → Bool := fun | 0 => fun _ => false | 1 => fun _ => false | 2 => fun _ => false | 3 => fun _ => false | 4 => fun _ => false | 5 => fun _ => false | 6 => fun _ => false | 7 => fun _ => false | 8 => fun i => !(k4_cond2 i == 1#1) | 9 => fun i => !(k4_cond2 i == 1#1) | ⟨_ + 10, h⟩ => absurd h (Nat.not_lt.2 (Nat.le_add_left _ _))

abbrev win5_0 : Pipeline.Window sig grid5 :=
  Pipeline.Window.ofSpec (Memref.whole main_v58_0) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v60) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v64) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v49) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v50) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v65) S10000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S1000x10 : Shape := ⟨2, ![1000, 10]⟩
abbrev S1000x64 : Shape := ⟨2, ![1000, 64]⟩
abbrev S100000x1 : Shape := ⟨2, ![100000, 1]⟩
abbrev S1x10 : Shape := ⟨2, ![1, 10]⟩

abbrev nBuf : Space → Nat
  | .hbm => 290
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x64, .f32⟩
  | 4 => ⟨S64, .f32⟩
  | 5 => ⟨S64, .f32⟩
  | 6 => ⟨S64, .f32⟩
  | 7 => ⟨S64x64, .f32⟩
  | 8 => ⟨S64, .f32⟩
  | 9 => ⟨S64, .f32⟩
  | 10 => ⟨S64, .f32⟩
  | 11 => ⟨S64x64, .f32⟩
  | 12 => ⟨S64, .f32⟩
  | 13 => ⟨S64, .f32⟩
  | 14 => ⟨S64, .f32⟩
  | 15 => ⟨S64x64, .f32⟩
  | 16 => ⟨S64, .f32⟩
  | 17 => ⟨S64, .f32⟩
  | 18 => ⟨S64, .f32⟩
  | 19 => ⟨S64x10, .f32⟩
  | 20 => ⟨S10, .f32⟩
  | 21 => ⟨S64x10, .f32⟩
  | 22 => ⟨S10, .f32⟩
  | 23 => ⟨S64x10, .f32⟩
  | 24 => ⟨S10, .f32⟩
  | 25 => ⟨S1x1600000, .i32⟩
  | 26 => ⟨S1600000, .i32⟩
  | 27 => ⟨S1x1600000, .i32⟩
  | 28 => ⟨S1600000, .i32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000x64, .f32⟩
  | 38 => ⟨S_, .f32⟩
  | 39 => ⟨S100000x64, .f32⟩
  | 40 => ⟨S1600000x1, .i32⟩
  | 41 => ⟨S100000x64, .f32⟩
  | 42 => ⟨S100000x64, .f32⟩
  | 43 => ⟨S100000x64, .f32⟩
  | 44 => ⟨S1x64, .f32⟩
  | 45 => ⟨S100000x64, .f32⟩
  | 46 => ⟨S100000x64, .f32⟩
  | 47 => ⟨S_, .f32⟩
  | 48 => ⟨S64, .f32⟩
  | 49 => ⟨S_, .f32⟩
  | 50 => ⟨S64, .f32⟩
  | 51 => ⟨S64, .f32⟩
  | 52 => ⟨S_, .i32⟩
  | 53 => ⟨S_, .f32⟩
  | 54 => ⟨S64, .f32⟩
  | 55 => ⟨S1x64, .f32⟩
  | 56 => ⟨S_, .f32⟩
  | 57 => ⟨S1x64, .f32⟩
  | 58 => ⟨S1x64, .f32⟩
  | 59 => ⟨S100000x64, .f32⟩
  | 60 => ⟨S100000x64, .f32⟩
  | 61 => ⟨S100000x64, .f32⟩
  | 62 => ⟨S_, .f32⟩
  | 63 => ⟨S_, .f32⟩
  | 64 => ⟨S_, .f32⟩
  | 65 => ⟨S_, .f32⟩
  | 66 => ⟨S64, .f32⟩
  | 67 => ⟨S64, .f32⟩
  | 68 => ⟨S64, .f32⟩
  | 69 => ⟨S_, .f32⟩
  | 70 => ⟨S_, .i1⟩
  | 71 => ⟨S_, .f32⟩
  | 72 => ⟨S_, .f32⟩
  | 73 => ⟨S64, .f32⟩
  | 74 => ⟨S64, .f32⟩
  | 75 => ⟨S1x64, .f32⟩
  | 76 => ⟨S100000x64, .f32⟩
  | 77 => ⟨S100000x64, .f32⟩
  | 78 => ⟨S1x64, .f32⟩
  | 79 => ⟨S100000x64, .f32⟩
  | 80 => ⟨S100000x64, .f32⟩
  | 81 => ⟨S_, .f32⟩
  | 82 => ⟨S64, .f32⟩
  | 83 => ⟨S64, .f32⟩
  | 84 => ⟨S64, .f32⟩
  | 85 => ⟨S1x64, .f32⟩
  | 86 => ⟨S100000x64, .f32⟩
  | 87 => ⟨S100000x64, .f32⟩
  | 88 => ⟨S1x64, .f32⟩
  | 89 => ⟨S100000x64, .f32⟩
  | 90 => ⟨S100000x64, .f32⟩
  | 91 => ⟨S_, .f32⟩
  | 92 => ⟨S100000x64, .f32⟩
  | 93 => ⟨S100000x64, .f32⟩
  | 94 => ⟨S100000x64, .f32⟩
  | 95 => ⟨S1x64, .f32⟩
  | 96 => ⟨S100000x64, .f32⟩
  | 97 => ⟨S100000x64, .f32⟩
  | 98 => ⟨S_, .f32⟩
  | 99 => ⟨S64, .f32⟩
  | 100 => ⟨S_, .f32⟩
  | 101 => ⟨S64, .f32⟩
  | 102 => ⟨S64, .f32⟩
  | 103 => ⟨S_, .i32⟩
  | 104 => ⟨S_, .f32⟩
  | 105 => ⟨S64, .f32⟩
  | 106 => ⟨S1x64, .f32⟩
  | 107 => ⟨S_, .f32⟩
  | 108 => ⟨S1x64, .f32⟩
  | 109 => ⟨S1x64, .f32⟩
  | 110 => ⟨S100000x64, .f32⟩
  | 111 => ⟨S100000x64, .f32⟩
  | 112 => ⟨S100000x64, .f32⟩
  | 113 => ⟨S_, .f32⟩
  | 114 => ⟨S_, .f32⟩
  | 115 => ⟨S_, .f32⟩
  | 116 => ⟨S_, .f32⟩
  | 117 => ⟨S64, .f32⟩
  | 118 => ⟨S64, .f32⟩
  | 119 => ⟨S64, .f32⟩
  | 120 => ⟨S_, .f32⟩
  | 121 => ⟨S_, .i1⟩
  | 122 => ⟨S_, .f32⟩
  | 123 => ⟨S_, .f32⟩
  | 124 => ⟨S64, .f32⟩
  | 125 => ⟨S64, .f32⟩
  | 126 => ⟨S1x64, .f32⟩
  | 127 => ⟨S100000x64, .f32⟩
  | _ => ⟨S100000x64, .f32⟩

abbrev hbmTy0_1 (i : Nat) : BufTy := match i % 128 with
  | 0 => ⟨S100000x64, .f32⟩
  | 1 => ⟨S1x64, .f32⟩
  | 2 => ⟨S100000x64, .f32⟩
  | 3 => ⟨S100000x64, .f32⟩
  | 4 => ⟨S_, .f32⟩
  | 5 => ⟨S64, .f32⟩
  | 6 => ⟨S64, .f32⟩
  | 7 => ⟨S64, .f32⟩
  | 8 => ⟨S1x64, .f32⟩
  | 9 => ⟨S100000x64, .f32⟩
  | 10 => ⟨S100000x64, .f32⟩
  | 11 => ⟨S1x64, .f32⟩
  | 12 => ⟨S100000x64, .f32⟩
  | 13 => ⟨S100000x64, .f32⟩
  | 14 => ⟨S_, .f32⟩
  | 15 => ⟨S100000x64, .f32⟩
  | 16 => ⟨S100000x64, .f32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000x64, .f32⟩
  | 26 => ⟨S_, .f32⟩
  | 27 => ⟨S100000x64, .f32⟩
  | 28 => ⟨S1600000x1, .i32⟩
  | 29 => ⟨S100000x64, .f32⟩
  | 30 => ⟨S100000x64, .f32⟩
  | 31 => ⟨S100000x64, .f32⟩
  | 32 => ⟨S1x64, .f32⟩
  | 33 => ⟨S100000x64, .f32⟩
  | 34 => ⟨S100000x64, .f32⟩
  | 35 => ⟨S_, .f32⟩
  | 36 => ⟨S64, .f32⟩
  | 37 => ⟨S_, .f32⟩
  | 38 => ⟨S64, .f32⟩
  | 39 => ⟨S64, .f32⟩
  | 40 => ⟨S_, .i32⟩
  | 41 => ⟨S_, .f32⟩
  | 42 => ⟨S64, .f32⟩
  | 43 => ⟨S1x64, .f32⟩
  | 44 => ⟨S_, .f32⟩
  | 45 => ⟨S1x64, .f32⟩
  | 46 => ⟨S1x64, .f32⟩
  | 47 => ⟨S100000x64, .f32⟩
  | 48 => ⟨S100000x64, .f32⟩
  | 49 => ⟨S100000x64, .f32⟩
  | 50 => ⟨S_, .f32⟩
  | 51 => ⟨S_, .f32⟩
  | 52 => ⟨S_, .f32⟩
  | 53 => ⟨S_, .f32⟩
  | 54 => ⟨S64, .f32⟩
  | 55 => ⟨S64, .f32⟩
  | 56 => ⟨S64, .f32⟩
  | 57 => ⟨S_, .f32⟩
  | 58 => ⟨S_, .i1⟩
  | 59 => ⟨S_, .f32⟩
  | 60 => ⟨S_, .f32⟩
  | 61 => ⟨S64, .f32⟩
  | 62 => ⟨S64, .f32⟩
  | 63 => ⟨S1x64, .f32⟩
  | 64 => ⟨S100000x64, .f32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S64, .f32⟩
  | 71 => ⟨S64, .f32⟩
  | 72 => ⟨S64, .f32⟩
  | 73 => ⟨S1x64, .f32⟩
  | 74 => ⟨S100000x64, .f32⟩
  | 75 => ⟨S100000x64, .f32⟩
  | 76 => ⟨S1x64, .f32⟩
  | 77 => ⟨S100000x64, .f32⟩
  | 78 => ⟨S100000x64, .f32⟩
  | 79 => ⟨S_, .f32⟩
  | 80 => ⟨S100000x64, .f32⟩
  | 81 => ⟨S100000x64, .f32⟩
  | 82 => ⟨S100000x64, .f32⟩
  | 83 => ⟨S1x64, .f32⟩
  | 84 => ⟨S100000x64, .f32⟩
  | 85 => ⟨S100000x64, .f32⟩
  | 86 => ⟨S_, .f32⟩
  | 87 => ⟨S64, .f32⟩
  | 88 => ⟨S_, .f32⟩
  | 89 => ⟨S64, .f32⟩
  | 90 => ⟨S64, .f32⟩
  | 91 => ⟨S_, .i32⟩
  | 92 => ⟨S_, .f32⟩
  | 93 => ⟨S64, .f32⟩
  | 94 => ⟨S1x64, .f32⟩
  | 95 => ⟨S_, .f32⟩
  | 96 => ⟨S1x64, .f32⟩
  | 97 => ⟨S1x64, .f32⟩
  | 98 => ⟨S100000x64, .f32⟩
  | 99 => ⟨S100000x64, .f32⟩
  | 100 => ⟨S100000x64, .f32⟩
  | 101 => ⟨S_, .f32⟩
  | 102 => ⟨S_, .f32⟩
  | 103 => ⟨S_, .f32⟩
  | 104 => ⟨S_, .f32⟩
  | 105 => ⟨S64, .f32⟩
  | 106 => ⟨S64, .f32⟩
  | 107 => ⟨S64, .f32⟩
  | 108 => ⟨S_, .f32⟩
  | 109 => ⟨S_, .i1⟩
  | 110 => ⟨S_, .f32⟩
  | 111 => ⟨S_, .f32⟩
  | 112 => ⟨S64, .f32⟩
  | 113 => ⟨S64, .f32⟩
  | 114 => ⟨S1x64, .f32⟩
  | 115 => ⟨S100000x64, .f32⟩
  | 116 => ⟨S100000x64, .f32⟩
  | 117 => ⟨S1x64, .f32⟩
  | 118 => ⟨S100000x64, .f32⟩
  | 119 => ⟨S100000x64, .f32⟩
  | 120 => ⟨S_, .f32⟩
  | 121 => ⟨S64, .f32⟩
  | 122 => ⟨S64, .f32⟩
  | 123 => ⟨S64, .f32⟩
  | 124 => ⟨S1x64, .f32⟩
  | 125 => ⟨S100000x64, .f32⟩
  | 126 => ⟨S100000x64, .f32⟩
  | 127 => ⟨S1x64, .f32⟩
  | _ => ⟨S100000x64, .f32⟩

abbrev hbmTy0_2 (i : Nat) : BufTy := match i % 128 with
  | 0 => ⟨S100000x64, .f32⟩
  | 1 => ⟨S100000x64, .f32⟩
  | 2 => ⟨S_, .f32⟩
  | 3 => ⟨S100000x64, .f32⟩
  | 4 => ⟨S100000x64, .f32⟩
  | 5 => ⟨S_, .f32⟩
  | 6 => ⟨S1000x10, .f32⟩
  | 7 => ⟨S_, .f32⟩
  | 8 => ⟨S1000x64, .f32⟩
  | 9 => ⟨S100000x1, .i32⟩
  | 10 => ⟨S1000x64, .f32⟩
  | 11 => ⟨S1000x10, .f32⟩
  | 12 => ⟨S1000x10, .f32⟩
  | 13 => ⟨S1x10, .f32⟩
  | 14 => ⟨S1000x10, .f32⟩
  | 15 => ⟨S1000x10, .f32⟩
  | 16 => ⟨S_, .f32⟩
  | 17 => ⟨S1000x64, .f32⟩
  | 18 => ⟨S100000x1, .i32⟩
  | 19 => ⟨S1000x64, .f32⟩
  | 20 => ⟨S1000x10, .f32⟩
  | 21 => ⟨S1000x10, .f32⟩
  | 22 => ⟨S1x10, .f32⟩
  | 23 => ⟨S1000x10, .f32⟩
  | 24 => ⟨S1000x10, .f32⟩
  | 25 => ⟨S_, .f32⟩
  | 26 => ⟨S1000x64, .f32⟩
  | 27 => ⟨S100000x1, .i32⟩
  | 28 => ⟨S1000x64, .f32⟩
  | 29 => ⟨S1000x10, .f32⟩
  | 30 => ⟨S1000x10, .f32⟩
  | 31 => ⟨S1x10, .f32⟩
  | 32 => ⟨S1000x10, .f32⟩
  | 33 => ⟨S1000x10, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_c : Ref sig .tc := ⟨.hbm, 29, rfl⟩
abbrev main_v4 : Ref sig .tc := ⟨.hbm, 30, rfl⟩
abbrev main_v5 : Ref sig .tc := ⟨.hbm, 31, rfl⟩
abbrev main_c_0 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_cst_1 : Ref sig .tc := ⟨.hbm, 47, rfl⟩
abbrev main_v19 : Ref sig .tc := ⟨.hbm, 48, rfl⟩
abbrev main_cst_2 : Ref sig .tc := ⟨.hbm, 49, rfl⟩
abbrev main_v20 : Ref sig .tc := ⟨.hbm, 50, rfl⟩
abbrev main_v21 : Ref sig .tc := ⟨.hbm, 51, rfl⟩
abbrev main_c_3 : Ref sig .tc := ⟨.hbm, 52, rfl⟩
abbrev main_call0_cst : Ref sig .tc := ⟨.hbm, 53, rfl⟩
abbrev main_call0_v0 : Ref sig .tc := ⟨.hbm, 54, rfl⟩
abbrev main_call0_v1 : Ref sig .tc := ⟨.hbm, 55, rfl⟩
abbrev main_call0_cst_0 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_call0_v5 : Ref sig .tc := ⟨.hbm, 60, rfl⟩
abbrev main_call0_v6 : Ref sig .tc := ⟨.hbm, 61, rfl⟩
abbrev main_call0_v7 : Ref sig .tc := ⟨.hbm, 62, rfl⟩
abbrev main_call0_cst_1 : Ref sig .tc := ⟨.hbm, 63, rfl⟩
abbrev main_call0_v8 : Ref sig .tc := ⟨.hbm, 64, rfl⟩
abbrev main_call0_cst_2 : Ref sig .tc := ⟨.hbm, 65, rfl⟩
abbrev main_call0_v9 : Ref sig .tc := ⟨.hbm, 66, rfl⟩
abbrev main_call0_v10 : Ref sig .tc := ⟨.hbm, 67, rfl⟩
abbrev main_call0_v11 : Ref sig .tc := ⟨.hbm, 68, rfl⟩
abbrev main_call0_cst_3 : Ref sig .tc := ⟨.hbm, 69, rfl⟩
abbrev main_call0_v12 : Ref sig .tc := ⟨.hbm, 70, rfl⟩
abbrev main_call0_cst_4 : Ref sig .tc := ⟨.hbm, 71, rfl⟩
abbrev main_call0_call0_v0 : Ref sig .tc := ⟨.hbm, 72, rfl⟩
abbrev main_call0_call0_v1 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_cst_4 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_call1_cst : Ref sig .tc := ⟨.hbm, 91, rfl⟩
abbrev main_call1_v0 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_cst_5 : Ref sig .tc := ⟨.hbm, 98, rfl⟩
abbrev main_v43 : Ref sig .tc := ⟨.hbm, 99, rfl⟩
abbrev main_cst_6 : Ref sig .tc := ⟨.hbm, 100, rfl⟩
abbrev main_v44 : Ref sig .tc := ⟨.hbm, 101, rfl⟩
abbrev main_v45 : Ref sig .tc := ⟨.hbm, 102, rfl⟩
abbrev main_c_7 : Ref sig .tc := ⟨.hbm, 103, rfl⟩
abbrev main_call2_cst : Ref sig .tc := ⟨.hbm, 104, rfl⟩
abbrev main_call2_v0 : Ref sig .tc := ⟨.hbm, 105, rfl⟩
abbrev main_call2_v1 : Ref sig .tc := ⟨.hbm, 106, rfl⟩
abbrev main_call2_cst_0 : Ref sig .tc := ⟨.hbm, 107, rfl⟩
abbrev main_call2_v2 : Ref sig .tc := ⟨.hbm, 108, rfl⟩
abbrev main_call2_v3 : Ref sig .tc := ⟨.hbm, 109, rfl⟩
abbrev main_call2_v4 : Ref sig .tc := ⟨.hbm, 110, rfl⟩
abbrev main_call2_v5 : Ref sig .tc := ⟨.hbm, 111, rfl⟩
abbrev main_call2_v6 : Ref sig .tc := ⟨.hbm, 112, rfl⟩
abbrev main_call2_v7 : Ref sig .tc := ⟨.hbm, 113, rfl⟩
abbrev main_call2_cst_1 : Ref sig .tc := ⟨.hbm, 114, rfl⟩
abbrev main_call2_v8 : Ref sig .tc := ⟨.hbm, 115, rfl⟩
abbrev main_call2_cst_2 : Ref sig .tc := ⟨.hbm, 116, rfl⟩
abbrev main_call2_v9 : Ref sig .tc := ⟨.hbm, 117, rfl⟩
abbrev main_call2_v10 : Ref sig .tc := ⟨.hbm, 118, rfl⟩
abbrev main_call2_v11 : Ref sig .tc := ⟨.hbm, 119, rfl⟩
abbrev main_call2_cst_3 : Ref sig .tc := ⟨.hbm, 120, rfl⟩
abbrev main_call2_v12 : Ref sig .tc := ⟨.hbm, 121, rfl⟩
abbrev main_call2_cst_4 : Ref sig .tc := ⟨.hbm, 122, rfl⟩
abbrev main_call2_call0_v0 : Ref sig .tc := ⟨.hbm, 123, rfl⟩
abbrev main_call2_call0_v1 : Ref sig .tc := ⟨.hbm, 124, rfl⟩
abbrev main_v46 : Ref sig .tc := ⟨.hbm, 125, rfl⟩
abbrev main_v47 : Ref sig .tc := ⟨.hbm, 126, rfl⟩
abbrev main_v48 : Ref sig .tc := ⟨.hbm, 127, rfl⟩
abbrev main_v49 : Ref sig .tc := ⟨.hbm, 128, rfl⟩
abbrev main_v50 : Ref sig .tc := ⟨.hbm, 129, rfl⟩
abbrev main_v51 : Ref sig .tc := ⟨.hbm, 130, rfl⟩
abbrev main_v52 : Ref sig .tc := ⟨.hbm, 131, rfl⟩
abbrev main_cst_8 : Ref sig .tc := ⟨.hbm, 132, rfl⟩
abbrev main_v53 : Ref sig .tc := ⟨.hbm, 133, rfl⟩
abbrev main_v54 : Ref sig .tc := ⟨.hbm, 134, rfl⟩
abbrev main_v55 : Ref sig .tc := ⟨.hbm, 135, rfl⟩
abbrev main_v56 : Ref sig .tc := ⟨.hbm, 136, rfl⟩
abbrev main_v57 : Ref sig .tc := ⟨.hbm, 137, rfl⟩
abbrev main_v58 : Ref sig .tc := ⟨.hbm, 138, rfl⟩
abbrev main_v59 : Ref sig .tc := ⟨.hbm, 139, rfl⟩
abbrev main_v60 : Ref sig .tc := ⟨.hbm, 140, rfl⟩
abbrev main_v61 : Ref sig .tc := ⟨.hbm, 141, rfl⟩
abbrev main_call3_cst : Ref sig .tc := ⟨.hbm, 142, rfl⟩
abbrev main_call3_v0 : Ref sig .tc := ⟨.hbm, 143, rfl⟩
abbrev main_v62 : Ref sig .tc := ⟨.hbm, 144, rfl⟩
abbrev main_c_9 : Ref sig .tc := ⟨.hbm, 145, rfl⟩
abbrev main_v63 : Ref sig .tc := ⟨.hbm, 146, rfl⟩
abbrev main_v64 : Ref sig .tc := ⟨.hbm, 147, rfl⟩
abbrev main_c_10 : Ref sig .tc := ⟨.hbm, 148, rfl⟩
abbrev main_v65 : Ref sig .tc := ⟨.hbm, 149, rfl⟩
abbrev main_v66 : Ref sig .tc := ⟨.hbm, 150, rfl⟩
abbrev main_v67 : Ref sig .tc := ⟨.hbm, 151, rfl⟩
abbrev main_v68 : Ref sig .tc := ⟨.hbm, 152, rfl⟩
abbrev main_v69 : Ref sig .tc := ⟨.hbm, 153, rfl⟩
abbrev main_cst_11 : Ref sig .tc := ⟨.hbm, 154, rfl⟩
abbrev main_v70 : Ref sig .tc := ⟨.hbm, 155, rfl⟩
abbrev main_v71 : Ref sig .tc := ⟨.hbm, 156, rfl⟩
abbrev main_v72 : Ref sig .tc := ⟨.hbm, 157, rfl⟩
abbrev main_v73 : Ref sig .tc := ⟨.hbm, 158, rfl⟩
abbrev main_v74 : Ref sig .tc := ⟨.hbm, 159, rfl⟩
abbrev main_v75 : Ref sig .tc := ⟨.hbm, 160, rfl⟩
abbrev main_v76 : Ref sig .tc := ⟨.hbm, 161, rfl⟩
abbrev main_v77 : Ref sig .tc := ⟨.hbm, 162, rfl⟩
abbrev main_cst_12 : Ref sig .tc := ⟨.hbm, 163, rfl⟩
abbrev main_v78 : Ref sig .tc := ⟨.hbm, 164, rfl⟩
abbrev main_cst_13 : Ref sig .tc := ⟨.hbm, 165, rfl⟩
abbrev main_v79 : Ref sig .tc := ⟨.hbm, 166, rfl⟩
abbrev main_v80 : Ref sig .tc := ⟨.hbm, 167, rfl⟩
abbrev main_c_14 : Ref sig .tc := ⟨.hbm, 168, rfl⟩
abbrev main_call4_cst : Ref sig .tc := ⟨.hbm, 169, rfl⟩
abbrev main_call4_v0 : Ref sig .tc := ⟨.hbm, 170, rfl⟩
abbrev main_call4_v1 : Ref sig .tc := ⟨.hbm, 171, rfl⟩
abbrev main_call4_cst_0 : Ref sig .tc := ⟨.hbm, 172, rfl⟩
abbrev main_call4_v2 : Ref sig .tc := ⟨.hbm, 173, rfl⟩
abbrev main_call4_v3 : Ref sig .tc := ⟨.hbm, 174, rfl⟩
abbrev main_call4_v4 : Ref sig .tc := ⟨.hbm, 175, rfl⟩
abbrev main_call4_v5 : Ref sig .tc := ⟨.hbm, 176, rfl⟩
abbrev main_call4_v6 : Ref sig .tc := ⟨.hbm, 177, rfl⟩
abbrev main_call4_v7 : Ref sig .tc := ⟨.hbm, 178, rfl⟩
abbrev main_call4_cst_1 : Ref sig .tc := ⟨.hbm, 179, rfl⟩
abbrev main_call4_v8 : Ref sig .tc := ⟨.hbm, 180, rfl⟩
abbrev main_call4_cst_2 : Ref sig .tc := ⟨.hbm, 181, rfl⟩
abbrev main_call4_v9 : Ref sig .tc := ⟨.hbm, 182, rfl⟩
abbrev main_call4_v10 : Ref sig .tc := ⟨.hbm, 183, rfl⟩
abbrev main_call4_v11 : Ref sig .tc := ⟨.hbm, 184, rfl⟩
abbrev main_call4_cst_3 : Ref sig .tc := ⟨.hbm, 185, rfl⟩
abbrev main_call4_v12 : Ref sig .tc := ⟨.hbm, 186, rfl⟩
abbrev main_call4_cst_4 : Ref sig .tc := ⟨.hbm, 187, rfl⟩
abbrev main_call4_call0_v0 : Ref sig .tc := ⟨.hbm, 188, rfl⟩
abbrev main_call4_call0_v1 : Ref sig .tc := ⟨.hbm, 189, rfl⟩
abbrev main_v81 : Ref sig .tc := ⟨.hbm, 190, rfl⟩
abbrev main_v82 : Ref sig .tc := ⟨.hbm, 191, rfl⟩
abbrev main_v83 : Ref sig .tc := ⟨.hbm, 192, rfl⟩
abbrev main_v84 : Ref sig .tc := ⟨.hbm, 193, rfl⟩
abbrev main_v85 : Ref sig .tc := ⟨.hbm, 194, rfl⟩
abbrev main_v86 : Ref sig .tc := ⟨.hbm, 195, rfl⟩
abbrev main_v87 : Ref sig .tc := ⟨.hbm, 196, rfl⟩
abbrev main_cst_15 : Ref sig .tc := ⟨.hbm, 197, rfl⟩
abbrev main_v88 : Ref sig .tc := ⟨.hbm, 198, rfl⟩
abbrev main_v89 : Ref sig .tc := ⟨.hbm, 199, rfl⟩
abbrev main_v90 : Ref sig .tc := ⟨.hbm, 200, rfl⟩
abbrev main_v91 : Ref sig .tc := ⟨.hbm, 201, rfl⟩
abbrev main_v92 : Ref sig .tc := ⟨.hbm, 202, rfl⟩
abbrev main_v93 : Ref sig .tc := ⟨.hbm, 203, rfl⟩
abbrev main_v94 : Ref sig .tc := ⟨.hbm, 204, rfl⟩
abbrev main_v95 : Ref sig .tc := ⟨.hbm, 205, rfl⟩
abbrev main_v96 : Ref sig .tc := ⟨.hbm, 206, rfl⟩
abbrev main_call5_cst : Ref sig .tc := ⟨.hbm, 207, rfl⟩
abbrev main_call5_v0 : Ref sig .tc := ⟨.hbm, 208, rfl⟩
abbrev main_v97 : Ref sig .tc := ⟨.hbm, 209, rfl⟩
abbrev main_v98 : Ref sig .tc := ⟨.hbm, 210, rfl⟩
abbrev main_v99 : Ref sig .tc := ⟨.hbm, 211, rfl⟩
abbrev main_v100 : Ref sig .tc := ⟨.hbm, 212, rfl⟩
abbrev main_v101 : Ref sig .tc := ⟨.hbm, 213, rfl⟩
abbrev main_cst_16 : Ref sig .tc := ⟨.hbm, 214, rfl⟩
abbrev main_v102 : Ref sig .tc := ⟨.hbm, 215, rfl⟩
abbrev main_cst_17 : Ref sig .tc := ⟨.hbm, 216, rfl⟩
abbrev main_v103 : Ref sig .tc := ⟨.hbm, 217, rfl⟩
abbrev main_v104 : Ref sig .tc := ⟨.hbm, 218, rfl⟩
abbrev main_c_18 : Ref sig .tc := ⟨.hbm, 219, rfl⟩
abbrev main_call6_cst : Ref sig .tc := ⟨.hbm, 220, rfl⟩
abbrev main_call6_v0 : Ref sig .tc := ⟨.hbm, 221, rfl⟩
abbrev main_call6_v1 : Ref sig .tc := ⟨.hbm, 222, rfl⟩
abbrev main_call6_cst_0 : Ref sig .tc := ⟨.hbm, 223, rfl⟩
abbrev main_call6_v2 : Ref sig .tc := ⟨.hbm, 224, rfl⟩
abbrev main_call6_v3 : Ref sig .tc := ⟨.hbm, 225, rfl⟩
abbrev main_call6_v4 : Ref sig .tc := ⟨.hbm, 226, rfl⟩
abbrev main_call6_v5 : Ref sig .tc := ⟨.hbm, 227, rfl⟩
abbrev main_call6_v6 : Ref sig .tc := ⟨.hbm, 228, rfl⟩
abbrev main_call6_v7 : Ref sig .tc := ⟨.hbm, 229, rfl⟩
abbrev main_call6_cst_1 : Ref sig .tc := ⟨.hbm, 230, rfl⟩
abbrev main_call6_v8 : Ref sig .tc := ⟨.hbm, 231, rfl⟩
abbrev main_call6_cst_2 : Ref sig .tc := ⟨.hbm, 232, rfl⟩
abbrev main_call6_v9 : Ref sig .tc := ⟨.hbm, 233, rfl⟩
abbrev main_call6_v10 : Ref sig .tc := ⟨.hbm, 234, rfl⟩
abbrev main_call6_v11 : Ref sig .tc := ⟨.hbm, 235, rfl⟩
abbrev main_call6_cst_3 : Ref sig .tc := ⟨.hbm, 236, rfl⟩
abbrev main_call6_v12 : Ref sig .tc := ⟨.hbm, 237, rfl⟩
abbrev main_call6_cst_4 : Ref sig .tc := ⟨.hbm, 238, rfl⟩
abbrev main_call6_call0_v0 : Ref sig .tc := ⟨.hbm, 239, rfl⟩
abbrev main_call6_call0_v1 : Ref sig .tc := ⟨.hbm, 240, rfl⟩
abbrev main_v105 : Ref sig .tc := ⟨.hbm, 241, rfl⟩
abbrev main_v106 : Ref sig .tc := ⟨.hbm, 242, rfl⟩
abbrev main_v107 : Ref sig .tc := ⟨.hbm, 243, rfl⟩
abbrev main_v108 : Ref sig .tc := ⟨.hbm, 244, rfl⟩
abbrev main_v109 : Ref sig .tc := ⟨.hbm, 245, rfl⟩
abbrev main_v110 : Ref sig .tc := ⟨.hbm, 246, rfl⟩
abbrev main_v111 : Ref sig .tc := ⟨.hbm, 247, rfl⟩
abbrev main_cst_19 : Ref sig .tc := ⟨.hbm, 248, rfl⟩
abbrev main_v112 : Ref sig .tc := ⟨.hbm, 249, rfl⟩
abbrev main_v113 : Ref sig .tc := ⟨.hbm, 250, rfl⟩
abbrev main_v114 : Ref sig .tc := ⟨.hbm, 251, rfl⟩
abbrev main_v115 : Ref sig .tc := ⟨.hbm, 252, rfl⟩
abbrev main_v116 : Ref sig .tc := ⟨.hbm, 253, rfl⟩
abbrev main_v117 : Ref sig .tc := ⟨.hbm, 254, rfl⟩
abbrev main_v118 : Ref sig .tc := ⟨.hbm, 255, rfl⟩
abbrev main_v119 : Ref sig .tc := ⟨.hbm, 256, rfl⟩
abbrev main_v120 : Ref sig .tc := ⟨.hbm, 257, rfl⟩
abbrev main_call7_cst : Ref sig .tc := ⟨.hbm, 258, rfl⟩
abbrev main_call7_v0 : Ref sig .tc := ⟨.hbm, 259, rfl⟩
abbrev main_v121 : Ref sig .tc := ⟨.hbm, 260, rfl⟩
abbrev main_cst_20 : Ref sig .tc := ⟨.hbm, 261, rfl⟩
abbrev main_v122 : Ref sig .tc := ⟨.hbm, 262, rfl⟩
abbrev main_cst_21 : Ref sig .tc := ⟨.hbm, 263, rfl⟩
abbrev main_v123 : Ref sig .tc := ⟨.hbm, 264, rfl⟩
abbrev main_v124 : Ref sig .tc := ⟨.hbm, 265, rfl⟩
abbrev main_v125 : Ref sig .tc := ⟨.hbm, 266, rfl⟩
abbrev main_v126 : Ref sig .tc := ⟨.hbm, 267, rfl⟩
abbrev main_v127 : Ref sig .tc := ⟨.hbm, 268, rfl⟩
abbrev main_v128 : Ref sig .tc := ⟨.hbm, 269, rfl⟩
abbrev main_v129 : Ref sig .tc := ⟨.hbm, 270, rfl⟩
abbrev main_v130 : Ref sig .tc := ⟨.hbm, 271, rfl⟩
abbrev main_cst_22 : Ref sig .tc := ⟨.hbm, 272, rfl⟩
abbrev main_v131 : Ref sig .tc := ⟨.hbm, 273, rfl⟩
abbrev main_v132 : Ref sig .tc := ⟨.hbm, 274, rfl⟩
abbrev main_v133 : Ref sig .tc := ⟨.hbm, 275, rfl⟩
abbrev main_v134 : Ref sig .tc := ⟨.hbm, 276, rfl⟩
abbrev main_v135 : Ref sig .tc := ⟨.hbm, 277, rfl⟩
abbrev main_v136 : Ref sig .tc := ⟨.hbm, 278, rfl⟩
abbrev main_v137 : Ref sig .tc := ⟨.hbm, 279, rfl⟩
abbrev main_v138 : Ref sig .tc := ⟨.hbm, 280, rfl⟩
abbrev main_cst_23 : Ref sig .tc := ⟨.hbm, 281, rfl⟩
abbrev main_v139 : Ref sig .tc := ⟨.hbm, 282, rfl⟩
abbrev main_v140 : Ref sig .tc := ⟨.hbm, 283, rfl⟩
abbrev main_v141 : Ref sig .tc := ⟨.hbm, 284, rfl⟩
abbrev main_v142 : Ref sig .tc := ⟨.hbm, 285, rfl⟩
abbrev main_v143 : Ref sig .tc := ⟨.hbm, 286, rfl⟩
abbrev main_v144 : Ref sig .tc := ⟨.hbm, 287, rfl⟩
abbrev main_v145 : Ref sig .tc := ⟨.hbm, 288, rfl⟩
abbrev main_v146 : Ref sig .tc := ⟨.hbm, 289, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S_S1000x10 : S_.BroadcastsInDim S1000x10 (![] : Fin 0 → Fin S1000x10.rank)
  bcast_S_S1000x64 : S_.BroadcastsInDim S1000x64 (![] : Fin 0 → Fin S1000x64.rank)
  bcast_S100000_S100000x1_0 : S100000.BroadcastsInDim S100000x1 (![0] : Fin 1 → Fin S100000x1.rank)
  bcast_S10_S1x10_1 : S10.BroadcastsInDim S1x10 (![1] : Fin 1 → Fin S1x10.rank)
  bcast_S1x10_S1000x10_0_1 : S1x10.BroadcastsInDim S1000x10 (![0, 1] : Fin 2 → Fin S1000x10.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S1000x64_S100000x1_S100000x64_1_0_0_1_wf : ScatterDims.WF S1000x64 S100000x1 S100000x64 [1] [0] [0] 1
  dot_S1000x64_S64x10_S1000x10_1_0_0_1_n_n_wf : DotDims.WF S1000x64 S64x10 S1000x10 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S1000x64_S100000x1_S100000x64_1_0_0_1 : ScatterDims S1000x64 S100000x1 S100000x64 where
  updateWindowDims := [1]
  insertedWindowDims := [0]
  scatterDimsToOperandDims := [0]
  indexVectorDim := 1
  wf := scatter_S1000x64_S100000x1_S100000x64_1_0_0_1_wf
def dot_S1000x64_S64x10_S1000x10_1_0_0_1_n_n : DotDims S1000x64 S64x10 S1000x10 where
  lhsContracting := [1]
  rhsContracting := [0]
  lhsNonContracting := [0]
  rhsNonContracting := [1]
  lhsBatch := []
  rhsBatch := []
  wf := dot_S1000x64_S64x10_S1000x10_1_0_0_1_n_n_wf

class Facts : Prop extends Facts₀ where

variable [Facts]
-- ==== Proof.Pass3Body.lean ====
/- The proof data and the body obligations of the two pointwise regions of `KernelIdeal`'s @main (the third pass of each
   layer): per row block, the batch-normalised, scaled, shifted rows clamped at zero. Stated at any contents `V` of the
   unscoped buffers at the region's entry. -/
import proofs.«152416_j10892037062711_1_alg».proof.Proof.Gen.KernelIdeal.Launch
import proofs.«152416_j10892037062711_1_alg».proof.Proof.Gen.KernelIdeal.Skeleton
import proofs.«152416_j10892037062711_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Pass3

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the pointwise pass (normalise, scale, shift, clamp at zero), at the entry contents `V` -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The whole row block and the whole parameter row, as rectangles. -/
abbrev rBlk2 : Rect S10000x64 := Rect.unit (s := S10000x64) ![0, 0] S10000x64.size inb_S10000x64_S10000x64_0_0
abbrev rRow2 : Rect S1x64 := Rect.unit (s := S1x64) ![0, 0] S1x64.size inb_S1x64_S1x64_0_0

/-- The output window's staging buffer after the body, from the five input blocks (the row block `x0`, the mean row `x1`,
    the variance row `x2`, the scale row `x3`, the shift row `x4`): its one store, of the pointwise payload. -/
def out2_5 (x0 : Vec F S10000x64 .f32) (x1 x2 x3 x4 : Vec F S1x64 .f32) : Vec F S10000x64 .f32 :=
  View.canon [⟨rBlk2, k2_pay1 (View.ld x0 rBlk2) (View.ld x2 rRow2) (View.ld x3 rRow2) (View.ld x1 rRow2) (View.ld x4 rRow2)⟩]

/-- The one store covers the buffer. -/
theorem cover2_5 (p0 : Vec F S10000x64 .f32) (y : S10000x64.Idx) :
    ∃ pc ∈ ([⟨rBlk2, p0⟩] : List (View.Piece (Elt F) S10000x64 .f32)), y ∈ pc.1.set :=
  View.cover_of_tiled [⟨rBlk2, p0⟩] S10000x64.size (by rfl) y

set_option maxHeartbeats 1000000 in
/-- The body on whole staging memrefs, the inputs' at read contents `x0 … x4` and the output's at anything, runs to the
    continuation holding the inputs' as they were and the output's at `out2_5` of them. -/
theorem sound_kernel2 (c : Dev nD) (E : Set ℕ) (i : grid2.Coords)
    (arg1 : Memref sig .tc .vmem S10000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S10000x64 .f32) (harg6 : arg6.IsWhole)
    (x0 : Vec F S10000x64 .f32) (x1 x2 x3 x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__pass3_kernel i arg1 harg1 arg2 harg2 arg3 harg3 arg4 harg4 arg5 harg5 arg6 harg6) K := by
  simp only [cc2__pass3_kernel_eq_skeleton]; unfold cc2__pass3_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- The proof data of pipeline 2 on core `c`: the arrays as the region finds them; after the body at point `t` each
    input's buffer at its block and the output's at `out2_5` of the input blocks; the invariant the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! # Region 5: the pointwise pass (normalise, scale, shift, clamp at zero), at the entry contents `V` -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds its block at every point, fetched there or not. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds its block at every point, fetched there or not. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's staging buffer holds its block at every point, fetched there or not. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's staging buffer holds its block at every point, fetched there or not. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- The whole row block and the whole parameter row, as rectangles. -/
abbrev rBlk5 : Rect S10000x64 := Rect.unit (s := S10000x64) ![0, 0] S10000x64.size inb_S10000x64_S10000x64_0_0
abbrev rRow5 : Rect S1x64 := Rect.unit (s := S1x64) ![0, 0] S1x64.size inb_S1x64_S1x64_0_0

/-- The output window's staging buffer after the body, from the five input blocks (the row block `x0`, the mean row `x1`,
    the variance row `x2`, the scale row `x3`, the shift row `x4`): its one store, of the pointwise payload. -/
def out5_5 (x0 : Vec F S10000x64 .f32) (x1 x2 x3 x4 : Vec F S1x64 .f32) : Vec F S10000x64 .f32 :=
  View.canon [⟨rBlk5, k5_pay1 (View.ld x0 rBlk5) (View.ld x2 rRow5) (View.ld x3 rRow5) (View.ld x1 rRow5) (View.ld x4 rRow5)⟩]

/-- The one store covers the buffer. -/
theorem cover5_5 (p0 : Vec F S10000x64 .f32) (y : S10000x64.Idx) :
    ∃ pc ∈ ([⟨rBlk5, p0⟩] : List (View.Piece (Elt F) S10000x64 .f32)), y ∈ pc.1.set :=
  View.cover_of_tiled [⟨rBlk5, p0⟩] S10000x64.size (by rfl) y

set_option maxHeartbeats 1000000 in
/-- The body on whole staging memrefs, the inputs' at read contents `x0 … x4` and the output's at anything, runs to the
    continuation holding the inputs' as they were and the output's at `out5_5` of them. -/
theorem sound_kernel5 (c : Dev nD) (E : Set ℕ) (i : grid5.Coords)
    (arg1 : Memref sig .tc .vmem S10000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S10000x64 .f32) (harg6 : arg6.IsWhole)
    (x0 : Vec F S10000x64 .f32) (x1 x2 x3 x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E (cc5__pass3_kernel i arg1 harg1 arg2 harg2 arg3 harg3 arg4 harg4 arg5 harg5 arg6 harg6) K := by
  simp only [cc5__pass3_kernel_eq_skeleton]; unfold cc5__pass3_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-- The proof data of pipeline 5 on core `c`: the arrays as the region finds them; after the body at point `t` each
    input's buffer at its block and the output's at `out5_5` of the input blocks; the invariant the scoped rest and the
    generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) :
    (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks, so the body's triple applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Pass3

end
-- ==== Proof.Pass3Region.lean ====
/- The two pointwise regions of `KernelIdeal`'s @main as segment records: each entered from every unscoped buffer at the
   contents before it, left at the contents after it, its output array at what its write-backs leave. -/
import proofs.«152416_j10892037062711_1_alg».proof.Proof.Pass3Body
import proofs.«152416_j10892037062711_1_alg».proof.Proof.Gen.KernelIdeal.Regions

set_option maxRecDepth 16384

noncomputable section

namespace Cert.KernelIdeal.Pass3

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)

variable (m : (ℓ : Loc nD τ sig) → Buf (Elt F) ℓ) (outs : Outs (F := F))
variable (L : GSem nD τ sig → Finset Unit) (lv : GSem nD τ sig → Unit → ℕ)

/-! # Region 2 as a segment -/

/-- The unscoped buffers as region 2 finds them, read at the TensorCore's references. -/
abbrev Vin2 : (c : Dev nD) → (b : Ref sig .tc) → Buf (Elt F) ((c : Thread nD τ).loc b) := fun c b => V5 m outs c b

/-- Region 2's output array is `main_v34` (its window 5), and none of its input arrays is. -/
theorem arrRef2_5 : Pipeline.arrRef spec2 5 = main_v34 := by decide
theorem arrRef2_in : ∀ w : Fin cfg2.W, w ≠ 5 → Pipeline.arrRef spec2 w ∉ ([main_v34] : List (Ref sig .tc)) := by decide

/-- The contents region 2 leaves in `main_v34`: what its write-backs leave of the body's stores, block by block. -/
def left2 (c : Dev nD) : Buf (Elt F) ((c : Thread nD τ).loc main_v34) := (dat2 (Vin2 m outs) c).arrAt 5 cfg2.N

section
variable (pdats : (p : Fin 6) → (c : Dev nD) → Dat τ (Elt F) Unit ℕ (UR sig nD τ) ℕ (cfgs p) c)
  (hp : ∀ c, pdats 2 c = dat2 (Vin2 m outs) c)
  (houts : ∀ c, outs 6 main_v34 c = left2 m outs c)

include hp houts in
/-- At region 2's exit each of its arrays holds what the pipeline leaves: an input array its entry contents, the output
    array the unknown `outs 6 main_v34`, which is therefore what the write-backs leave. -/
theorem hF2 (c : Dev nD) (w : Fin cfg2.W) : (pdats 2 c).arrAt w cfg2.N = V6 m outs c (Pipeline.arrRef spec2 w) := by
  rw [hp c]
  by_cases hw : w = 5
  · subst hw
    rw [show V6 m outs c (Pipeline.arrRef spec2 5) = outs 6 main_v34 c from Function.update_self _ _ _]
    rw [houts c]; rfl
  · have hin : (cfg2.win w).isOut = false := by
      revert w; decide
    rw [(dat2 (Vin2 m outs) c).arrAt_in w hin _, A_eq2]
    exact (V6_of m outs c _ (arrRef2_in w hw)).symm

theorem hrest2 (c : Dev nD) : ∀ b, b ∉ Finset.univ.image (Pipeline.arrRef spec2) → V6 m outs c b = V5 m outs c b :=
  fun b hb => V6_of m outs c b fun hmem => hb (Finset.mem_image.mpr ⟨5, Finset.mem_univ _, by
    rw [arrRef2_5]; exact (List.mem_singleton.mp hmem).symm⟩)

set_option backward.isDefEq.respectTransparency.types false in
/-- REGION 2 over the thread state: entered from every unscoped buffer at the contents before it beside `R`, left at the
    contents after it beside `R`. Its arrays split out of the unscoped buffers and put back at the exit contents; the
    generator register into the invariant and out; nothing owed; no semaphore of the kernel's own. -/
def reg2 : Pipeline.RegionSeg (pcfgs (F := F)) adm pdats () defs₀ Variants.none L lv 2 where
  win := launch2.win.to₀
  block_pos := launch2.block_pos
  stage_whole := launch2.stage_whole
  K := PEmpty
  osem k := k.elim
  ho := Pipeline.OwnSemFacts.none _
  hbody c := by rw [hp c]; exact (body_obligation2 (Vin2 m outs) c).loose
  hwaits := Pipeline.hwaits_of_owed_zero _ _ _ _ L lv 2 fun c _ => by rw [hp c]; rfl
  pre c := iprop(StableHlo.held (c : Thread nD τ) (Pipeline.ucRefs τ sig) (V5 m outs c) ∗ R c)
  post c := iprop(StableHlo.held (c : Thread nD τ) (Pipeline.ucRefs τ sig) (V6 m outs c) ∗ R c)
  X c := iprop(∃ r, prngReg c r)
  Y c := iprop(∃ r, prngReg c r)
  Z c := Pipeline.unscopedRest (Ix := Unit) (Name := ℕ) (U := UR sig nD τ) (Lvl := ℕ) spec2 c (Vin2 m outs c)
  hentry c := by
    rw [Pipeline.ownSems0_none]
    have hsplit := Pipeline.arrays_of_unscopedBufs (p := 2) (pcfgs (F := F)) adm pdats launch2.win launch2.arr_whole c
      ((pdats 2 c).share_full fun _ => by rw [hp c]; rfl) (Vin2 m outs c) fun w => by rw [hp c]; rfl
    rw [Pipeline.unscopedBufs_held] at hsplit
    rw [hp c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 2 c).Φ 0 = Pipeline.ΦA spec2 c from by rw [hp c]; rfl]; unfold Pipeline.ΦA
    iintro ⟨Hp, -, Hr⟩
    isplitl [Hr]; · iexact Hr
    iexact Hp
  hout c := by
    rw [Pipeline.ownSems0_none, show (pdats 2 c).Φ (Fin.last _) = Pipeline.ΦA spec2 c from by rw [hp c]; rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c pdats ((pdats 2 c).share_full fun _ => by rw [hp c]; rfl)
      (Vin2 m outs c) (fun b => V6 m outs c b) ((pdats 2 c).arrAt · cfg2.N) (hF2 m outs pdats hp houts c) (hrest2 m outs c)
    rw [Pipeline.unscopedBufs_held] at hjoin
    rw [hp c] at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The region's record is entered from and left at the thread states the conditional frame names, the rest states being `R`. -/
theorem reg2_pre (c : Dev nD) :
    iprop(StableHlo.held (c : Thread nD τ) (Pipeline.ucRefs τ sig) (V5 m outs c) ∗ R (F := F) c) ⊢ (reg2 m outs L lv pdats hp houts).pre c := .rfl
theorem reg2_post (c : Dev nD) :
    (reg2 m outs L lv pdats hp houts).post c ⊢ iprop(StableHlo.held (c : Thread nD τ) (Pipeline.ucRefs τ sig) (V6 m outs c) ∗ R (F := F) c) := .rfl
end

/-! # Region 5 as a segment -/

/-- The unscoped buffers as region 5 finds them, read at the TensorCore's references. -/
abbrev Vin5 : (c : Dev nD) → (b : Ref sig .tc) → Buf (Elt F) ((c : Thread nD τ).loc b) := fun c b => V11 m outs c b

/-- Region 5's output array is `main_v65` (its window 5), and none of its input arrays is. -/
theorem arrRef5_5 : Pipeline.arrRef spec5 5 = main_v65 := by decide
theorem arrRef5_in : ∀ w : Fin cfg5.W, w ≠ 5 → Pipeline.arrRef spec5 w ∉ ([main_v65] : List (Ref sig .tc)) := by decide

/-- The contents region 5 leaves in `main_v65`: what its write-backs leave of the body's stores, block by block. -/
def left5 (c : Dev nD) : Buf (Elt F) ((c : Thread nD τ).loc main_v65) := (dat5 (Vin5 m outs) c).arrAt 5 cfg5.N

section
variable (pdats : (p : Fin 6) → (c : Dev nD) → Dat τ (Elt F) Unit ℕ (UR sig nD τ) ℕ (cfgs p) c)
  (hp : ∀ c, pdats 5 c = dat5 (Vin5 m outs) c)
  (houts : ∀ c, outs 12 main_v65 c = left5 m outs c)

include hp houts in
/-- At region 5's exit each of its arrays holds what the pipeline leaves: an input array its entry contents, the output
    array the unknown `outs 12 main_v65`, which is therefore what the write-backs leave. -/
theorem hF5 (c : Dev nD) (w : Fin cfg5.W) : (pdats 5 c).arrAt w cfg5.N = V12 m outs c (Pipeline.arrRef spec5 w) := by
  rw [hp c]
  by_cases hw : w = 5
  · subst hw
    rw [show V12 m outs c (Pipeline.arrRef spec5 5) = outs 12 main_v65 c from Function.update_self _ _ _]
    rw [houts c]; rfl
  · have hin : (cfg5.win w).isOut = false := by
      revert w; decide
    rw [(dat5 (Vin5 m outs) c).arrAt_in w hin _, A_eq5]
    exact (V12_of m outs c _ (arrRef5_in w hw)).symm

theorem hrest5 (c : Dev nD) : ∀ b, b ∉ Finset.univ.image (Pipeline.arrRef spec5) → V12 m outs c b = V11 m outs c b :=
  fun b hb => V12_of m outs c b fun hmem => hb (Finset.mem_image.mpr ⟨5, Finset.mem_univ _, by
    rw [arrRef5_5]; exact (List.mem_singleton.mp hmem).symm⟩)

set_option backward.isDefEq.respectTransparency.types false in
/-- REGION 5 over the thread state: entered from every unscoped buffer at the contents before it beside `R`, left at the
    contents after it beside `R`. Its arrays split out of the unscoped buffers and put back at the exit contents; the
    generator register into the invariant and out; nothing owed; no semaphore of the kernel's own. -/
def reg5 : Pipeline.RegionSeg (pcfgs (F := F)) adm pdats () defs₀ Variants.none L lv 5 where
  win := launch5.win.to₀
  block_pos := launch5.block_pos
  stage_whole := launch5.stage_whole
  K := PEmpty
  osem k := k.elim
  ho := Pipeline.OwnSemFacts.none _
  hbody c := by rw [hp c]; exact (body_obligation5 (Vin5 m outs) c).loose
  hwaits := Pipeline.hwaits_of_owed_zero _ _ _ _ L lv 5 fun c _ => by rw [hp c]; rfl
  pre c := iprop(StableHlo.held (c : Thread nD τ) (Pipeline.ucRefs τ sig) (V11 m outs c) ∗ R c)
  post c := iprop(StableHlo.held (c : Thread nD τ) (Pipeline.ucRefs τ sig) (V12 m outs c) ∗ R c)
  X c := iprop(∃ r, prngReg c r)
  Y c := iprop(∃ r, prngReg c r)
  Z c := Pipeline.unscopedRest (Ix := Unit) (Name := ℕ) (U := UR sig nD τ) (Lvl := ℕ) spec5 c (Vin5 m outs c)
  hentry c := by
    rw [Pipeline.ownSems0_none]
    have hsplit := Pipeline.arrays_of_unscopedBufs (p := 5) (pcfgs (F := F)) adm pdats launch5.win launch5.arr_whole c
      ((pdats 5 c).share_full fun _ => by rw [hp c]; rfl) (Vin5 m outs c) fun w => by rw [hp c]; rfl
    rw [Pipeline.unscopedBufs_held] at hsplit
    rw [hp c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 5 c).Φ 0 = Pipeline.ΦA spec5 c from by rw [hp c]; rfl]; unfold Pipeline.ΦA
    iintro ⟨Hp, -, Hr⟩
    isplitl [Hr]; · iexact Hr
    iexact Hp
  hout c := by
    rw [Pipeline.ownSems0_none, show (pdats 5 c).Φ (Fin.last _) = Pipeline.ΦA spec5 c from by rw [hp c]; rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c pdats ((pdats 5 c).share_full fun _ => by rw [hp c]; rfl)
      (Vin5 m outs c) (fun b => V12 m outs c b) ((pdats 5 c).arrAt · cfg5.N) (hF5 m outs pdats hp houts c) (hrest5 m outs c)
    rw [Pipeline.unscopedBufs_held] at hjoin
    rw [hp c] at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The region's record is entered from and left at the thread states the conditional frame names, the rest states being `R`. -/
theorem reg5_pre (c : Dev nD) :
    iprop(StableHlo.held (c : Thread nD τ) (Pipeline.ucRefs τ sig) (V11 m outs c) ∗ R (F := F) c) ⊢ (reg5 m outs L lv pdats hp houts).pre c := .rfl
theorem reg5_post (c : Dev nD) :
    (reg5 m outs L lv pdats hp houts).post c ⊢ iprop(StableHlo.held (c : Thread nD τ) (Pipeline.ucRefs τ sig) (V12 m outs c) ∗ R (F := F) c) := .rfl
end

end Cert.KernelIdeal.Pass3

end
-- ==== Proof.FrameAssembly.lean ====
/- @main of `KernelIdeal` as a run of its seven host stretches and six kernel regions: from one segment record per region,
   every unscoped buffer ends at the last valuation of the chain — so each argument ends as launched and the result
   holds what the chain computes. The two pointwise regions' records are supplied here; the four accumulating regions'
   are taken as given. -/
import proofs.«152416_j10892037062711_1_alg».proof.Proof.Pass3Region

set_option maxRecDepth 16384

noncomputable section

namespace Cert.KernelIdeal.Assembly

open Cert.KernelIdeal.Gen Cert.KernelIdeal.Pass3
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

/-- An unscoped TensorCore reference is among those the thread states hold. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN, given the regions' records: for any user algebra, level assignment, launch dues and ghost resources, any rest
    states `E` the launch makes on every core at once and that end owing nothing, any contents `outs` the regions leave and
    any proof data, GIVEN per region a segment record entered from the thread state before it and left at the one after
    it: every weakly fair execution of @main from memory `m` with zero counters terminates, and in every final memory
    every unscoped buffer of every core holds the last valuation `V13 m outs c` of the chain. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 6) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 7 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE6 : ∀ c : Dev nD, E 6 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V11 m outs c) ∗ E 5 c) ⊢ R5.pre c)
    (hpost5 : ∀ c : Dev nD, R5.post c ⊢ iprop(StableHlo.held (c : Thread nD τ) (Pipeline.ucRefs τ sig) (V12 m outs c) ∗ E 6 c)) :
    θ_run defs (onTc (τ := τ) (main (F := F))) ⟨m, fun _ => 0, ρ⟩ (fun r => ∀ c : Dev nD,
      ∀ b ∈ Pipeline.ucRefs τ sig, r.2.mem ((c.tc : Thread nD τ).1, b) = V13 m outs c b) := by
  refine Pipeline.θ_run_regions_kit_dev (pcfgs (F := F)) adm pdats ι cellOf_inj EP defs₀ 𝒱₀ L lv m ρ main
    (segs m outs 𝒱₀ L lv E ι pdats R0 R1 R2 R3 R4 R5)
    (fun c Q => by
      rewrite [main_chain c, Seg.run_eq_chain,
        show (segs m outs 𝒱₀ L lv E ι pdats R0 R1 R2 R3 R4 R5 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V13 m outs c))
    (hch := fun c => ⟨.rfl, hpre0 c, hpost0 c, hpre1 c, hpost1 c, hpre2 c, hpost2 c, hpre3 c, hpost3 c, hpre4 c, hpost4 c, hpre5 c, hpost5 c, sep_mono .rfl (hE6 c)⟩)
    (hinit := ?_) (QY := fun c s => ∀ b ∈ Pipeline.ucRefs τ sig, s.mem ((c.tc : Thread nD τ).1, b) = V13 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V13 m outs c) s') $$ [Hh HSI]
    · isplitl [Hh] <;> iassumption
    icases Hr with ⟨%h, HSI⟩
    imodintro
    isplitr
    · ipureintro; exact h
    · iexact HSI

/-- What the run's post says of the arguments and of the result: each argument's buffer as launched (no host stretch
    writes one, no region may change one), the result's at the last valuation. -/
theorem post_of_all (outs : Outs (F := F)) (s : MemSt nD τ sig (Elt F)) (c : Dev nD)
    (h : ∀ b ∈ Pipeline.ucRefs τ sig, s.mem ((c.tc : Thread nD τ).1, b) = V13 m outs c b) :
    (s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13)
      ∧ s.mem ((c.tc : Thread nD τ).loc main_arg14) = m ((c.tc : Thread nD τ).loc main_arg14)
      ∧ s.mem ((c.tc : Thread nD τ).loc main_arg15) = m ((c.tc : Thread nD τ).loc main_arg15)
      ∧ s.mem ((c.tc : Thread nD τ).loc main_arg16) = m ((c.tc : Thread nD τ).loc main_arg16)
      ∧ s.mem ((c.tc : Thread nD τ).loc main_arg17) = m ((c.tc : Thread nD τ).loc main_arg17)
      ∧ s.mem ((c.tc : Thread nD τ).loc main_arg18) = m ((c.tc : Thread nD τ).loc main_arg18)
      ∧ s.mem ((c.tc : Thread nD τ).loc main_arg19) = m ((c.tc : Thread nD τ).loc main_arg19)
      ∧ s.mem ((c.tc : Thread nD τ).loc main_arg20) = m ((c.tc : Thread nD τ).loc main_arg20)
      ∧ s.mem ((c.tc : Thread nD τ).loc main_arg21) = m ((c.tc : Thread nD τ).loc main_arg21)
      ∧ s.mem ((c.tc : Thread nD τ).loc main_arg22) = m ((c.tc : Thread nD τ).loc main_arg22)
      ∧ s.mem ((c.tc : Thread nD τ).loc main_arg23) = m ((c.tc : Thread nD τ).loc main_arg23)
      ∧ s.mem ((c.tc : Thread nD τ).loc main_arg24) = m ((c.tc : Thread nD τ).loc main_arg24))
    ∧ s.mem ((c.tc : Thread nD τ).loc main_v90) = V13 m outs c main_v90 :=
  ⟨⟨(h _ (mem_uc main_arg0 (by decide))).trans (V13_main_arg0 m outs c),
    (h _ (mem_uc main_arg1 (by decide))).trans (V13_main_arg1 m outs c),
    (h _ (mem_uc main_arg2 (by decide))).trans (V13_main_arg2 m outs c),
    (h _ (mem_uc main_arg3 (by decide))).trans (V13_main_arg3 m outs c),
    (h _ (mem_uc main_arg4 (by decide))).trans (V13_main_arg4 m outs c),
    (h _ (mem_uc main_arg5 (by decide))).trans (V13_main_arg5 m outs c),
    (h _ (mem_uc main_arg6 (by decide))).trans (V13_main_arg6 m outs c),
    (h _ (mem_uc main_arg7 (by decide))).trans (V13_main_arg7 m outs c),
    (h _ (mem_uc main_arg8 (by decide))).trans (V13_main_arg8 m outs c),
    (h _ (mem_uc main_arg9 (by decide))).trans (V13_main_arg9 m outs c),
    (h _ (mem_uc main_arg10 (by decide))).trans (V13_main_arg10 m outs c),
    (h _ (mem_uc main_arg11 (by decide))).trans (V13_main_arg11 m outs c),
    (h _ (mem_uc main_arg12 (by decide))).trans (V13_main_arg12 m outs c),
    (h _ (mem_uc main_arg13 (by decide))).trans (V13_main_arg13 m outs c),
    (h _ (mem_uc main_arg14 (by decide))).trans (V13_main_arg14 m outs c),
    (h _ (mem_uc main_arg15 (by decide))).trans (V13_main_arg15 m outs c),
    (h _ (mem_uc main_arg16 (by decide))).trans (V13_main_arg16 m outs c),
    (h _ (mem_uc main_arg17 (by decide))).trans (V13_main_arg17 m outs c),
    (h _ (mem_uc main_arg18 (by decide))).trans (V13_main_arg18 m outs c),
    (h _ (mem_uc main_arg19 (by decide))).trans (V13_main_arg19 m outs c),
    (h _ (mem_uc main_arg20 (by decide))).trans (V13_main_arg20 m outs c),
    (h _ (mem_uc main_arg21 (by decide))).trans (V13_main_arg21 m outs c),
    (h _ (mem_uc main_arg22 (by decide))).trans (V13_main_arg22 m outs c),
    (h _ (mem_uc main_arg23 (by decide))).trans (V13_main_arg23 m outs c),
    (h _ (mem_uc main_arg24 (by decide))).trans (V13_main_arg24 m outs c)⟩,
    h _ (mem_uc main_v90 (by decide))⟩

/-! ## At the plain user algebra: nothing owed, no level, the generator register riding along -/

section Concrete

local notation "𝕄" => MT nD τ sig Unit (Elt F) ℕ (UR sig nD τ) ℕ

/-- No core owes another anything: no level is assigned. -/
abbrev L₀ : GSem nD τ sig → Finset Unit := fun _ => ∅
abbrev lv₀ : GSem nD τ sig → Unit → ℕ := fun _ _ => 0
/-- The rest state between any two items: the generator register at some state, nothing owed. -/
abbrev E₀ : Fin 7 → Dev nD → sProp 𝕄 := fun _ c => R (F := F) c

variable (ρ : Dev nD → PrngReg) (outs : Outs (F := F))
  (pdats : (p : Fin 6) → (c : Dev nD) → Dat τ (Elt F) Unit ℕ (UR sig nD τ) ℕ (cfgs p) c)
  (hp2 : ∀ c, pdats 2 c = dat2 (Vin2 m outs) c) (hp5 : ∀ c, pdats 5 c = dat5 (Vin5 m outs) c)
  (houts6 : ∀ c, outs 6 main_v34 c = left2 m outs c) (houts12 : ∀ c, outs 12 main_v65 c = left5 m outs c)
  (R0 : RegionSeg (pcfgs (F := F)) adm pdats () defs₀ Variants.none L₀ lv₀ 0)
  (hpre0 : ∀ c : Dev nD, iprop(StableHlo.held (c : Thread nD τ) (Pipeline.ucRefs τ sig) (V1 m c) ∗ R (F := F) c) ⊢ R0.pre c)
  (hpost0 : ∀ c : Dev nD, R0.post c ⊢ iprop(StableHlo.held (c : Thread nD τ) (Pipeline.ucRefs τ sig) (V2 m outs c) ∗ R (F := F) c))
  (R1 : RegionSeg (pcfgs (F := F)) adm pdats () defs₀ Variants.none L₀ lv₀ 1)
  (hpre1 : ∀ c : Dev nD, iprop(StableHlo.held (c : Thread nD τ) (Pipeline.ucRefs τ sig) (V3 m outs c) ∗ R (F := F) c) ⊢ R1.pre c)
  (hpost1 : ∀ c : Dev nD, R1.post c ⊢ iprop(StableHlo.held (c : Thread nD τ) (Pipeline.ucRefs τ sig) (V4 m outs c) ∗ R (F := F) c))
  (R3 : RegionSeg (pcfgs (F := F)) adm pdats () defs₀ Variants.none L₀ lv₀ 3)
  (hpre3 : ∀ c : Dev nD, iprop(StableHlo.held (c : Thread nD τ) (Pipeline.ucRefs τ sig) (V7 m outs c) ∗ R (F := F) c) ⊢ R3.pre c)
  (hpost3 : ∀ c : Dev nD, R3.post c ⊢ iprop(StableHlo.held (c : Thread nD τ) (Pipeline.ucRefs τ sig) (V8 m outs c) ∗ R (F := F) c))
  (R4 : RegionSeg (pcfgs (F := F)) adm pdats () defs₀ Variants.none L₀ lv₀ 4)
  (hpre4 : ∀ c : Dev nD, iprop(StableHlo.held (c : Thread nD τ) (Pipeline.ucRefs τ sig) (V9 m outs c) ∗ R (F := F) c) ⊢ R4.pre c)
  (hpost4 : ∀ c : Dev nD, R4.post c ⊢ iprop(StableHlo.held (c : Thread nD τ) (Pipeline.ucRefs τ sig) (V10 m outs c) ∗ R (F := F) c))

include hp2 hp5 houts6 houts12 hpre0 hpost0 hpre1 hpost1 hpre3 hpost3 hpre4 hpost4 in
/-- The run from the four accumulating regions' records: the two pointwise regions' are this development's. -/
theorem run_of_regions : θ_run defs (onTc (τ := τ) (main (F := F))) ⟨m, fun _ => 0, ρ⟩ (fun r => ∀ c : Dev nD,
      ∀ b ∈ Pipeline.ucRefs τ sig, r.2.mem ((c.tc : Thread nD τ).1, b) = V13 m outs c b) :=
  run_cond m (EP := emb₁) (ι := ()) (𝒱₀ := Variants.none) (L := L₀) (lv := lv₀) (hL := fun _ _ => rfl) (ρ := ρ) (outs := outs) (pdats := pdats)
    (O₀ := 0) (G := fun _ => iprop(emp)) (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := E₀)
    (hE0 := by
      refine Pipeline.initEach L₀ lv₀ fun c => ?_
      iintro ⟨⟨-, HO, -, Hp, -⟩, -⟩
      imodintro
      isplitl [Hp]; · iexists _; iexact Hp
      iexists ∅; iexact HO)
    (hE6 := fun c => by iintro ⟨-, H⟩; iexact H)
    (R0 := R0) (hpre0 := hpre0) (hpost0 := hpost0) (R1 := R1) (hpre1 := hpre1) (hpost1 := hpost1)
    (R2 := reg2 m outs L₀ lv₀ pdats hp2 houts6) (hpre2 := fun _ => .rfl) (hpost2 := fun _ => .rfl)
    (R3 := R3) (hpre3 := hpre3) (hpost3 := hpost3) (R4 := R4) (hpre4 := hpre4) (hpost4 := hpost4)
    (R5 := reg5 m outs L₀ lv₀ pdats hp5 houts12) (hpre5 := fun _ => .rfl) (hpost5 := fun _ => .rfl)

include hp2 hp5 houts6 houts12 hpre0 hpost0 hpre1 hpost1 hpre3 hpost3 hpre4 hpost4 in
/-- THE FRAME with the result named: every argument ends as launched, and the result's buffer holds the last valuation. -/
theorem result_of_regions : θ_run defs (onTc (τ := τ) (main (F := F))) ⟨m, fun _ => 0, ρ⟩ (fun r => ∀ c : Dev nD,
      (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)
        ∧ r.2.mem ((c.tc : Thread nD τ).loc main_arg15) = m ((c.tc : Thread nD τ).loc main_arg15)
        ∧ r.2.mem ((c.tc : Thread nD τ).loc main_arg16) = m ((c.tc : Thread nD τ).loc main_arg16)
        ∧ r.2.mem ((c.tc : Thread nD τ).loc main_arg17) = m ((c.tc : Thread nD τ).loc main_arg17)
        ∧ r.2.mem ((c.tc : Thread nD τ).loc main_arg18) = m ((c.tc : Thread nD τ).loc main_arg18)
        ∧ r.2.mem ((c.tc : Thread nD τ).loc main_arg19) = m ((c.tc : Thread nD τ).loc main_arg19)
        ∧ r.2.mem ((c.tc : Thread nD τ).loc main_arg20) = m ((c.tc : Thread nD τ).loc main_arg20)
        ∧ r.2.mem ((c.tc : Thread nD τ).loc main_arg21) = m ((c.tc : Thread nD τ).loc main_arg21)
        ∧ r.2.mem ((c.tc : Thread nD τ).loc main_arg22) = m ((c.tc : Thread nD τ).loc main_arg22)
        ∧ r.2.mem ((c.tc : Thread nD τ).loc main_arg23) = m ((c.tc : Thread nD τ).loc main_arg23)
        ∧ r.2.mem ((c.tc : Thread nD τ).loc main_arg24) = m ((c.tc : Thread nD τ).loc main_arg24))
      ∧ r.2.mem ((c.tc : Thread nD τ).loc main_v90) = V13 m outs c main_v90) :=
  (θ_run defs _ _).mono (fun r h c => post_of_all m outs r.2 c (h c))
    (run_of_regions m ρ outs pdats hp2 hp5 houts6 houts12 R0 hpre0 hpost0 R1 hpre1 hpost1 R3 hpre3 hpost3 R4 hpre4 hpost4)

include hp2 hp5 houts6 houts12 hpre0 hpost0 hpre1 hpost1 hpre3 hpost3 hpre4 hpost4 in
/-- THE FRAME: every weakly fair execution of @main terminates and every argument ends as launched. -/
theorem frame_of_regions : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun r h c => (post_of_all m outs r.2 c (h c)).1)
    (run_of_regions m ρ outs pdats hp2 hp5 houts6 houts12 R0 hpre0 hpost0 R1 hpre1 hpost1 R3 hpre3 hpost3 R4 hpre4 hpost4)

end Concrete

end Cert.KernelIdeal.Assembly

end
-- ==== Proof.Stages.lean ====
/- The contents the six regions of `KernelIdeal`'s @main leave, and every pipeline's proof data, stage by stage along @main:
   each region's arrays at what its write-backs leave from the contents it is entered at, those contents being the chain's
   valuation before it — which reads only what EARLIER regions leave, so the definition goes region by region. The four
   accumulating regions' proof data are parameters (functions of the entry contents); the two pointwise regions' are
   this development's. -/
import proofs.«152416_j10892037062711_1_alg».proof.Proof.Pass3Region

set_option maxRecDepth 16384

noncomputable section

namespace Cert.KernelIdeal.Stages

open Cert.KernelIdeal.Gen Cert.KernelIdeal.Pass3
open Idealize.ShloMosaic Idealize.ShloMosaic.TcCoe
open Idealize.SL Idealize.SL.RA Idealize.SL.BI
open Idealize.SL.Sem
open Idealize.ShloMosaic.Rounds
open Idealize.ShloMosaic.Pipeline (Dat)

variable {F : FTy → Type} [FloatOps F]

/-- Contents of a core's unscoped buffers read at the TensorCore's references: what a region's proof data take. -/
abbrev VTy (F : FTy → Type) : Type := (c : Dev nD) → (b : Ref sig .tc) → Buf (Elt F) ((c : Thread nD τ).loc b)
/-- A valuation per core, read so. -/
abbrev rd (W : Dev nD → Valuation τ sig (Elt F)) : VTy F := fun c b => W c b

variable (m : (ℓ : Loc nD τ sig) → Buf (Elt F) ℓ)
variable (d0 : (Dev nD → Valuation τ sig (Elt F)) → (c : Dev nD) → Dat τ (Elt F) Unit ℕ (UR sig nD τ) ℕ cfg0 c)
  (d1 : (Dev nD → Valuation τ sig (Elt F)) → (c : Dev nD) → Dat τ (Elt F) Unit ℕ (UR sig nD τ) ℕ cfg1 c)
  (d3 : (Dev nD → Valuation τ sig (Elt F)) → (c : Dev nD) → Dat τ (Elt F) Unit ℕ (UR sig nD τ) ℕ cfg3 c)
  (d4 : (Dev nD → Valuation τ sig (Elt F)) → (c : Dev nD) → Dat τ (Elt F) Unit ℕ (UR sig nD τ) ℕ cfg4 c)

/-- After region 0: its arrays at what its write-backs leave from the contents after the first host stretch. -/
def o2 (c : Dev nD) : Valuation τ sig (Elt F) :=
  Pipeline.withArrays spec0 c (V1 m c) fun w => (d0 (V1 m) c).arrAt w cfg0.N
def outs2 : Outs (F := F) := fun _ r c => o2 m d0 c r
/-- After region 1. -/
def o4 (c : Dev nD) : Valuation τ sig (Elt F) :=
  Pipeline.withArrays spec1 c (V3 m (outs2 m d0) c) fun w => (d1 (V3 m (outs2 m d0)) c).arrAt w cfg1.N
def outs4 : Outs (F := F) := fun J r c => match J with
  | 2 => o2 m d0 c r | _ => o4 m d0 d1 c r
/-- After region 2. -/
def o6 (c : Dev nD) : Valuation τ sig (Elt F) :=
  Pipeline.withArrays spec2 c (V5 m (outs4 m d0 d1) c) fun w => (dat2 (rd (V5 m (outs4 m d0 d1))) c).arrAt w cfg2.N
def outs6 : Outs (F := F) := fun J r c => match J with
  | 2 => o2 m d0 c r | 4 => o4 m d0 d1 c r | _ => o6 m d0 d1 c r
/-- After region 3. -/
def o8 (c : Dev nD) : Valuation τ sig (Elt F) :=
  Pipeline.withArrays spec3 c (V7 m (outs6 m d0 d1) c) fun w => (d3 (V7 m (outs6 m d0 d1)) c).arrAt w cfg3.N
def outs8 : Outs (F := F) := fun J r c => match J with
  | 2 => o2 m d0 c r | 4 => o4 m d0 d1 c r | 6 => o6 m d0 d1 c r | _ => o8 m d0 d1 d3 c r
/-- After region 4. -/
def o10 (c : Dev nD) : Valuation τ sig (Elt F) :=
  Pipeline.withArrays spec4 c (V9 m (outs8 m d0 d1 d3) c) fun w => (d4 (V9 m (outs8 m d0 d1 d3)) c).arrAt w cfg4.N
def outs10 : Outs (F := F) := fun J r c => match J with
  | 2 => o2 m d0 c r | 4 => o4 m d0 d1 c r | 6 => o6 m d0 d1 c r | 8 => o8 m d0 d1 d3 c r | _ => o10 m d0 d1 d3 d4 c r
/-- After region 5. -/
def o12 (c : Dev nD) : Valuation τ sig (Elt F) :=
  Pipeline.withArrays spec5 c (V11 m (outs10 m d0 d1 d3 d4) c) fun w => (dat5 (rd (V11 m (outs10 m d0 d1 d3 d4))) c).arrAt w cfg5.N
/-- What the regions leave, all six. -/
def outs : Outs (F := F) := fun J r c => match J with
  | 2 => o2 m d0 c r | 4 => o4 m d0 d1 c r | 6 => o6 m d0 d1 c r | 8 => o8 m d0 d1 d3 c r | 10 => o10 m d0 d1 d3 d4 c r
  | _ => o12 m d0 d1 d3 d4 c r

/-- A region's entry valuation reads only what earlier regions leave. -/
theorem V3_outs (c : Dev nD) : V3 m (outs m d0 d1 d3 d4) c = V3 m (outs2 m d0) c := rfl
theorem V5_outs (c : Dev nD) : V5 m (outs m d0 d1 d3 d4) c = V5 m (outs4 m d0 d1) c := rfl
theorem V7_outs (c : Dev nD) : V7 m (outs m d0 d1 d3 d4) c = V7 m (outs6 m d0 d1) c := rfl
theorem V9_outs (c : Dev nD) : V9 m (outs m d0 d1 d3 d4) c = V9 m (outs8 m d0 d1 d3) c := rfl
theorem V11_outs (c : Dev nD) : V11 m (outs m d0 d1 d3 d4) c = V11 m (outs10 m d0 d1 d3 d4) c := rfl

/-- Every pipeline's proof data, each at its region's entry contents. -/
def pdats : (p : Fin 6) → (c : Dev nD) → Dat τ (Elt F) Unit ℕ (UR sig nD τ) ℕ (cfgs p) c
  | ⟨0, _⟩ => fun c => d0 (V1 m) c
  | ⟨1, _⟩ => fun c => d1 (V3 m (outs m d0 d1 d3 d4)) c
  | ⟨2, _⟩ => fun c => dat2 (Vin2 m (outs m d0 d1 d3 d4)) c
  | ⟨3, _⟩ => fun c => d3 (V7 m (outs m d0 d1 d3 d4)) c
  | ⟨4, _⟩ => fun c => d4 (V9 m (outs m d0 d1 d3 d4)) c
  | ⟨5, _⟩ => fun c => dat5 (Vin5 m (outs m d0 d1 d3 d4)) c

theorem pdats_0 (c : Dev nD) : pdats m d0 d1 d3 d4 0 c = d0 (V1 m) c := rfl
theorem pdats_1 (c : Dev nD) : pdats m d0 d1 d3 d4 1 c = d1 (V3 m (outs m d0 d1 d3 d4)) c := rfl
theorem pdats_2 (c : Dev nD) : pdats m d0 d1 d3 d4 2 c = dat2 (Vin2 m (outs m d0 d1 d3 d4)) c := rfl
theorem pdats_3 (c : Dev nD) : pdats m d0 d1 d3 d4 3 c = d3 (V7 m (outs m d0 d1 d3 d4)) c := rfl
theorem pdats_4 (c : Dev nD) : pdats m d0 d1 d3 d4 4 c = d4 (V9 m (outs m d0 d1 d3 d4)) c := rfl
theorem pdats_5 (c : Dev nD) : pdats m d0 d1 d3 d4 5 c = dat5 (Vin5 m (outs m d0 d1 d3 d4)) c := rfl

/-- What region K leaves in each of its arrays is what its proof data's write-backs leave. -/
theorem outs2_arr (c : Dev nD) (w : Fin cfg0.W) :
    outs m d0 d1 d3 d4 2 (Pipeline.arrRef spec0 w) c = (pdats m d0 d1 d3 d4 0 c).arrAt w cfg0.N :=
  Pipeline.withArrays_arr spec0 launch0.win.arr_inj c (V1 m c) (fun w => (d0 (V1 m) c).arrAt w cfg0.N) w
theorem outs4_arr (c : Dev nD) (w : Fin cfg1.W) :
    outs m d0 d1 d3 d4 4 (Pipeline.arrRef spec1 w) c = (pdats m d0 d1 d3 d4 1 c).arrAt w cfg1.N :=
  Pipeline.withArrays_arr spec1 launch1.win.arr_inj c (V3 m (outs2 m d0) c) (fun w => (d1 (V3 m (outs2 m d0)) c).arrAt w cfg1.N) w
theorem outs6_arr (c : Dev nD) (w : Fin cfg2.W) :
    outs m d0 d1 d3 d4 6 (Pipeline.arrRef spec2 w) c = (pdats m d0 d1 d3 d4 2 c).arrAt w cfg2.N :=
  Pipeline.withArrays_arr spec2 launch2.win.arr_inj c (V5 m (outs4 m d0 d1) c) (fun w => (dat2 (rd (V5 m (outs4 m d0 d1))) c).arrAt w cfg2.N) w
theorem outs8_arr (c : Dev nD) (w : Fin cfg3.W) :
    outs m d0 d1 d3 d4 8 (Pipeline.arrRef spec3 w) c = (pdats m d0 d1 d3 d4 3 c).arrAt w cfg3.N :=
  Pipeline.withArrays_arr spec3 launch3.win.arr_inj c (V7 m (outs6 m d0 d1) c) (fun w => (d3 (V7 m (outs6 m d0 d1)) c).arrAt w cfg3.N) w
theorem outs10_arr (c : Dev nD) (w : Fin cfg4.W) :
    outs m d0 d1 d3 d4 10 (Pipeline.arrRef spec4 w) c = (pdats m d0 d1 d3 d4 4 c).arrAt w cfg4.N :=
  Pipeline.withArrays_arr spec4 launch4.win.arr_inj c (V9 m (outs8 m d0 d1 d3) c) (fun w => (d4 (V9 m (outs8 m d0 d1 d3)) c).arrAt w cfg4.N) w
theorem outs12_arr (c : Dev nD) (w : Fin cfg5.W) :
    outs m d0 d1 d3 d4 12 (Pipeline.arrRef spec5 w) c = (pdats m d0 d1 d3 d4 5 c).arrAt w cfg5.N :=
  Pipeline.withArrays_arr spec5 launch5.win.arr_inj c (V11 m (outs10 m d0 d1 d3 d4) c) (fun w => (dat5 (rd (V11 m (outs10 m d0 d1 d3 d4))) c).arrAt w cfg5.N) w

/-- In particular the pointwise regions' output arrays. -/
theorem houts6 (c : Dev nD) : outs m d0 d1 d3 d4 6 main_v34 c = left2 m (outs m d0 d1 d3 d4) c := outs6_arr m d0 d1 d3 d4 c 5
theorem houts12 (c : Dev nD) : outs m d0 d1 d3 d4 12 main_v65 c = left5 m (outs m d0 d1 d3 d4) c := outs12_arr m d0 d1 d3 d4 c 5

end Cert.KernelIdeal.Stages

end
-- ==== Proof.StageArrays.lean ====
/- What each accumulating region of `KernelIdeal`'s @main leaves, read against the chain of valuations: at the region's exit
   every array of its pipeline holds what the pipeline leaves (an input its entry contents, an output the contents the chain
   records for it), and every other buffer is untouched. -/
import proofs.«152416_j10892037062711_1_alg».proof.Proof.Stages

set_option maxRecDepth 16384

noncomputable section

namespace Cert.KernelIdeal.Stages

open Cert.KernelIdeal.Gen Cert.KernelIdeal.Pass3
open Idealize.ShloMosaic Idealize.ShloMosaic.TcCoe
open Idealize.SL Idealize.SL.RA Idealize.SL.BI
open Idealize.SL.Sem
open Idealize.ShloMosaic.Rounds
open Idealize.ShloMosaic.Pipeline (Dat)

variable {F : FTy → Type} [FloatOps F]
variable (m : (ℓ : Loc nD τ sig) → Buf (Elt F) ℓ)

/-! ### Region 0 -/

/-- The valuation after region 0 at each of its three output arrays is what the region leaves there. -/
theorem V2_at0 (outs : Outs (F := F)) (c : Dev nD) : V2 m outs c main_v20_0 = outs 2 main_v20_0 c :=
  (Function.update_of_ne (StableHlo.devRef_ne_of_ne (by decide) : (Proc.devRef .tc main_v20_0 : DevRef τ sig) ≠ Proc.devRef .tc main_v20_2) _ _).trans
    ((Function.update_of_ne (StableHlo.devRef_ne_of_ne (by decide) : (Proc.devRef .tc main_v20_0 : DevRef τ sig) ≠ Proc.devRef .tc main_v20_1) _ _).trans (Function.update_self _ _ _))
theorem V2_at1 (outs : Outs (F := F)) (c : Dev nD) : V2 m outs c main_v20_1 = outs 2 main_v20_1 c :=
  (Function.update_of_ne (StableHlo.devRef_ne_of_ne (by decide) : (Proc.devRef .tc main_v20_1 : DevRef τ sig) ≠ Proc.devRef .tc main_v20_2) _ _).trans (Function.update_self _ _ _)
theorem V2_at2 (outs : Outs (F := F)) (c : Dev nD) : V2 m outs c main_v20_2 = outs 2 main_v20_2 c :=
  Function.update_self _ _ _
theorem V2_at (outs : Outs (F := F)) (c : Dev nD) (r : Ref sig .tc) (hr : r ∈ ([main_v20_0, main_v20_1, main_v20_2] : List (Ref sig .tc))) :
    V2 m outs c r = outs 2 r c := by
  simp only [List.mem_cons, List.not_mem_nil, or_false] at hr
  rcases hr with rfl | rfl | rfl
  · exact V2_at0 m outs c
  · exact V2_at1 m outs c
  · exact V2_at2 m outs c

/-- Region 0's output windows' arrays are these three, and no input window's array is one of them. -/
theorem arrRef0_of_out : ∀ w : Fin cfg0.W, (cfg0.win w).isOut = true → Pipeline.arrRef spec0 w ∈ ([main_v20_0, main_v20_1, main_v20_2] : List (Ref sig .tc)) := by decide
theorem arrRef0_of_in : ∀ w : Fin cfg0.W, (cfg0.win w).isOut = false → Pipeline.arrRef spec0 w ∉ ([main_v20_0, main_v20_1, main_v20_2] : List (Ref sig .tc)) := by decide
theorem arrRef0_outs : ∀ r ∈ ([main_v20_0, main_v20_1, main_v20_2] : List (Ref sig .tc)), ∃ w : Fin cfg0.W, Pipeline.arrRef spec0 w = r := by decide

section
variable (outs : Outs (F := F)) (D : (c : Dev nD) → Dat τ (Elt F) Unit ℕ (UR sig nD τ) ℕ cfg0 c)
  (hA : ∀ c w, (D c).A w = V1 m c (Proc.devRef .tc (Pipeline.arrRef spec0 w)))
  (houts : ∀ c w, outs 2 (Pipeline.arrRef spec0 w) c = (D c).arrAt w cfg0.N)

include hA houts in
/-- At region 0's exit each of its arrays holds what the pipeline leaves: an input array its entry contents, an output
    array what the region leaves there. -/
theorem hWarr0 (c : Dev nD) (w : Fin cfg0.W) :
    (D c).arrAt w cfg0.N = V2 m outs c (Proc.devRef .tc (Pipeline.arrRef spec0 w)) := by
  cases hout : (cfg0.win w).isOut
  · exact ((D c).arrAt_in w hout _).trans ((hA c w).trans (V2_of m outs c _ (arrRef0_of_in w hout)).symm)
  · exact (houts c w).symm.trans (V2_at m outs c _ (arrRef0_of_out w hout)).symm
end

/-- Off region 0's arrays the valuation after it is the valuation before it. -/
theorem hWrest0 (outs : Outs (F := F)) (c : Dev nD) (b : Ref sig .tc) (hb : b ∉ Finset.univ.image (Pipeline.arrRef spec0)) :
    V2 m outs c (Proc.devRef .tc b) = V1 m c (Proc.devRef .tc b) :=
  V2_of m outs c b fun hmem => by
    obtain ⟨w, hw⟩ := arrRef0_outs b hmem
    exact hb (Finset.mem_image.mpr ⟨w, Finset.mem_univ _, hw⟩)

/-! ### Region 1 -/

/-- The valuation after region 1 at each of its three output arrays is what the region leaves there. -/
theorem V4_at0 (outs : Outs (F := F)) (c : Dev nD) : V4 m outs c main_v27_0 = outs 4 main_v27_0 c :=
  (Function.update_of_ne (StableHlo.devRef_ne_of_ne (by decide) : (Proc.devRef .tc main_v27_0 : DevRef τ sig) ≠ Proc.devRef .tc main_v27_2) _ _).trans
    ((Function.update_of_ne (StableHlo.devRef_ne_of_ne (by decide) : (Proc.devRef .tc main_v27_0 : DevRef τ sig) ≠ Proc.devRef .tc main_v27_1) _ _).trans (Function.update_self _ _ _))
theorem V4_at1 (outs : Outs (F := F)) (c : Dev nD) : V4 m outs c main_v27_1 = outs 4 main_v27_1 c :=
  (Function.update_of_ne (StableHlo.devRef_ne_of_ne (by decide) : (Proc.devRef .tc main_v27_1 : DevRef τ sig) ≠ Proc.devRef .tc main_v27_2) _ _).trans (Function.update_self _ _ _)
theorem V4_at2 (outs : Outs (F := F)) (c : Dev nD) : V4 m outs c main_v27_2 = outs 4 main_v27_2 c :=
  Function.update_self _ _ _
theorem V4_at (outs : Outs (F := F)) (c : Dev nD) (r : Ref sig .tc) (hr : r ∈ ([main_v27_0, main_v27_1, main_v27_2] : List (Ref sig .tc))) :
    V4 m outs c r = outs 4 r c := by
  simp only [List.mem_cons, List.not_mem_nil, or_false] at hr
  rcases hr with rfl | rfl | rfl
  · exact V4_at0 m outs c
  · exact V4_at1 m outs c
  · exact V4_at2 m outs c

/-- Region 1's output windows' arrays are these three, and no input window's array is one of them. -/
theorem arrRef1_of_out : ∀ w : Fin cfg1.W, (cfg1.win w).isOut = true → Pipeline.arrRef spec1 w ∈ ([main_v27_0, main_v27_1, main_v27_2] : List (Ref sig .tc)) := by decide
theorem arrRef1_of_in : ∀ w : Fin cfg1.W, (cfg1.win w).isOut = false → Pipeline.arrRef spec1 w ∉ ([main_v27_0, main_v27_1, main_v27_2] : List (Ref sig .tc)) := by decide
theorem arrRef1_outs : ∀ r ∈ ([main_v27_0, main_v27_1, main_v27_2] : List (Ref sig .tc)), ∃ w : Fin cfg1.W, Pipeline.arrRef spec1 w = r := by decide

section
variable (outs : Outs (F := F)) (D : (c : Dev nD) → Dat τ (Elt F) Unit ℕ (UR sig nD τ) ℕ cfg1 c)
  (hA : ∀ c w, (D c).A w = V3 m outs c (Proc.devRef .tc (Pipeline.arrRef spec1 w)))
  (houts : ∀ c w, outs 4 (Pipeline.arrRef spec1 w) c = (D c).arrAt w cfg1.N)

include hA houts in
/-- At region 1's exit each of its arrays holds what the pipeline leaves: an input array its entry contents, an output
    array what the region leaves there. -/
theorem hWarr1 (c : Dev nD) (w : Fin cfg1.W) :
    (D c).arrAt w cfg1.N = V4 m outs c (Proc.devRef .tc (Pipeline.arrRef spec1 w)) := by
  cases hout : (cfg1.win w).isOut
  · exact ((D c).arrAt_in w hout _).trans ((hA c w).trans (V4_of m outs c _ (arrRef1_of_in w hout)).symm)
  · exact (houts c w).symm.trans (V4_at m outs c _ (arrRef1_of_out w hout)).symm
end

/-- Off region 1's arrays the valuation after it is the valuation before it. -/
theorem hWrest1 (outs : Outs (F := F)) (c : Dev nD) (b : Ref sig .tc) (hb : b ∉ Finset.univ.image (Pipeline.arrRef spec1)) :
    V4 m outs c (Proc.devRef .tc b) = V3 m outs c (Proc.devRef .tc b) :=
  V4_of m outs c b fun hmem => by
    obtain ⟨w, hw⟩ := arrRef1_outs b hmem
    exact hb (Finset.mem_image.mpr ⟨w, Finset.mem_univ _, hw⟩)

/-! ### Region 3 -/

/-- The valuation after region 3 at each of its three output arrays is what the region leaves there. -/
theorem V8_at0 (outs : Outs (F := F)) (c : Dev nD) : V8 m outs c main_v51_0 = outs 8 main_v51_0 c :=
  (Function.update_of_ne (StableHlo.devRef_ne_of_ne (by decide) : (Proc.devRef .tc main_v51_0 : DevRef τ sig) ≠ Proc.devRef .tc main_v51_2) _ _).trans
    ((Function.update_of_ne (StableHlo.devRef_ne_of_ne (by decide) : (Proc.devRef .tc main_v51_0 : DevRef τ sig) ≠ Proc.devRef .tc main_v51_1) _ _).trans (Function.update_self _ _ _))
theorem V8_at1 (outs : Outs (F := F)) (c : Dev nD) : V8 m outs c main_v51_1 = outs 8 main_v51_1 c :=
  (Function.update_of_ne (StableHlo.devRef_ne_of_ne (by decide) : (Proc.devRef .tc main_v51_1 : DevRef τ sig) ≠ Proc.devRef .tc main_v51_2) _ _).trans (Function.update_self _ _ _)
theorem V8_at2 (outs : Outs (F := F)) (c : Dev nD) : V8 m outs c main_v51_2 = outs 8 main_v51_2 c :=
  Function.update_self _ _ _
theorem V8_at (outs : Outs (F := F)) (c : Dev nD) (r : Ref sig .tc) (hr : r ∈ ([main_v51_0, main_v51_1, main_v51_2] : List (Ref sig .tc))) :
    V8 m outs c r = outs 8 r c := by
  simp only [List.mem_cons, List.not_mem_nil, or_false] at hr
  rcases hr with rfl | rfl | rfl
  · exact V8_at0 m outs c
  · exact V8_at1 m outs c
  · exact V8_at2 m outs c

/-- Region 3's output windows' arrays are these three, and no input window's array is one of them. -/
theorem arrRef3_of_out : ∀ w : Fin cfg3.W, (cfg3.win w).isOut = true → Pipeline.arrRef spec3 w ∈ ([main_v51_0, main_v51_1, main_v51_2] : List (Ref sig .tc)) := by decide
theorem arrRef3_of_in : ∀ w : Fin cfg3.W, (cfg3.win w).isOut = false → Pipeline.arrRef spec3 w ∉ ([main_v51_0, main_v51_1, main_v51_2] : List (Ref sig .tc)) := by decide
theorem arrRef3_outs : ∀ r ∈ ([main_v51_0, main_v51_1, main_v51_2] : List (Ref sig .tc)), ∃ w : Fin cfg3.W, Pipeline.arrRef spec3 w = r := by decide

section
variable (outs : Outs (F := F)) (D : (c : Dev nD) → Dat τ (Elt F) Unit ℕ (UR sig nD τ) ℕ cfg3 c)
  (hA : ∀ c w, (D c).A w = V7 m outs c (Proc.devRef .tc (Pipeline.arrRef spec3 w)))
  (houts : ∀ c w, outs 8 (Pipeline.arrRef spec3 w) c = (D c).arrAt w cfg3.N)

include hA houts in
/-- At region 3's exit each of its arrays holds what the pipeline leaves: an input array its entry contents, an output
    array what the region leaves there. -/
theorem hWarr3 (c : Dev nD) (w : Fin cfg3.W) :
    (D c).arrAt w cfg3.N = V8 m outs c (Proc.devRef .tc (Pipeline.arrRef spec3 w)) := by
  cases hout : (cfg3.win w).isOut
  · exact ((D c).arrAt_in w hout _).trans ((hA c w).trans (V8_of m outs c _ (arrRef3_of_in w hout)).symm)
  · exact (houts c w).symm.trans (V8_at m outs c _ (arrRef3_of_out w hout)).symm
end

/-- Off region 3's arrays the valuation after it is the valuation before it. -/
theorem hWrest3 (outs : Outs (F := F)) (c : Dev nD) (b : Ref sig .tc) (hb : b ∉ Finset.univ.image (Pipeline.arrRef spec3)) :
    V8 m outs c (Proc.devRef .tc b) = V7 m outs c (Proc.devRef .tc b) :=
  V8_of m outs c b fun hmem => by
    obtain ⟨w, hw⟩ := arrRef3_outs b hmem
    exact hb (Finset.mem_image.mpr ⟨w, Finset.mem_univ _, hw⟩)

/-! ### Region 4 -/

/-- The valuation after region 4 at each of its three output arrays is what the region leaves there. -/
theorem V10_at0 (outs : Outs (F := F)) (c : Dev nD) : V10 m outs c main_v58_0 = outs 10 main_v58_0 c :=
  (Function.update_of_ne (StableHlo.devRef_ne_of_ne (by decide) : (Proc.devRef .tc main_v58_0 : DevRef τ sig) ≠ Proc.devRef .tc main_v58_2) _ _).trans
    ((Function.update_of_ne (StableHlo.devRef_ne_of_ne (by decide) : (Proc.devRef .tc main_v58_0 : DevRef τ sig) ≠ Proc.devRef .tc main_v58_1) _ _).trans (Function.update_self _ _ _))
theorem V10_at1 (outs : Outs (F := F)) (c : Dev nD) : V10 m outs c main_v58_1 = outs 10 main_v58_1 c :=
  (Function.update_of_ne (StableHlo.devRef_ne_of_ne (by decide) : (Proc.devRef .tc main_v58_1 : DevRef τ sig) ≠ Proc.devRef .tc main_v58_2) _ _).trans (Function.update_self _ _ _)
theorem V10_at2 (outs : Outs (F := F)) (c : Dev nD) : V10 m outs c main_v58_2 = outs 10 main_v58_2 c :=
  Function.update_self _ _ _
theorem V10_at (outs : Outs (F := F)) (c : Dev nD) (r : Ref sig .tc) (hr : r ∈ ([main_v58_0, main_v58_1, main_v58_2] : List (Ref sig .tc))) :
    V10 m outs c r = outs 10 r c := by
  simp only [List.mem_cons, List.not_mem_nil, or_false] at hr
  rcases hr with rfl | rfl | rfl
  · exact V10_at0 m outs c
  · exact V10_at1 m outs c
  · exact V10_at2 m outs c

/-- Region 4's output windows' arrays are these three, and no input window's array is one of them. -/
theorem arrRef4_of_out : ∀ w : Fin cfg4.W, (cfg4.win w).isOut = true → Pipeline.arrRef spec4 w ∈ ([main_v58_0, main_v58_1, main_v58_2] : List (Ref sig .tc)) := by decide
theorem arrRef4_of_in : ∀ w : Fin cfg4.W, (cfg4.win w).isOut = false → Pipeline.arrRef spec4 w ∉ ([main_v58_0, main_v58_1, main_v58_2] : List (Ref sig .tc)) := by decide
theorem arrRef4_outs : ∀ r ∈ ([main_v58_0, main_v58_1, main_v58_2] : List (Ref sig .tc)), ∃ w : Fin cfg4.W, Pipeline.arrRef spec4 w = r := by decide

section
variable (outs : Outs (F := F)) (D : (c : Dev nD) → Dat τ (Elt F) Unit ℕ (UR sig nD τ) ℕ cfg4 c)
  (hA : ∀ c w, (D c).A w = V9 m outs c (Proc.devRef .tc (Pipeline.arrRef spec4 w)))
  (houts : ∀ c w, outs 10 (Pipeline.arrRef spec4 w) c = (D c).arrAt w cfg4.N)

include hA houts in
/-- At region 4's exit each of its arrays holds what the pipeline leaves: an input array its entry contents, an output
    array what the region leaves there. -/
theorem hWarr4 (c : Dev nD) (w : Fin cfg4.W) :
    (D c).arrAt w cfg4.N = V10 m outs c (Proc.devRef .tc (Pipeline.arrRef spec4 w)) := by
  cases hout : (cfg4.win w).isOut
  · exact ((D c).arrAt_in w hout _).trans ((hA c w).trans (V10_of m outs c _ (arrRef4_of_in w hout)).symm)
  · exact (houts c w).symm.trans (V10_at m outs c _ (arrRef4_of_out w hout)).symm
end

/-- Off region 4's arrays the valuation after it is the valuation before it. -/
theorem hWrest4 (outs : Outs (F := F)) (c : Dev nD) (b : Ref sig .tc) (hb : b ∉ Finset.univ.image (Pipeline.arrRef spec4)) :
    V10 m outs c (Proc.devRef .tc b) = V9 m outs c (Proc.devRef .tc b) :=
  V10_of m outs c b fun hmem => by
    obtain ⟨w, hw⟩ := arrRef4_outs b hmem
    exact hb (Finset.mem_image.mpr ⟨w, Finset.mem_univ _, hw⟩)

end Cert.KernelIdeal.Stages

end
-- ==== Proof.Pass1Body.lean ====
import proofs.«152416_j10892037062711_1_alg».proof.Proof.Gen.KernelIdeal.Launch
import proofs.«152416_j10892037062711_1_alg».proof.Proof.Gen.KernelIdeal.Skeleton
import proofs.«152416_j10892037062711_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Pass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]
variable {Ix : Type} [DecidableEq Ix] {U : Type} [URA U] {Lvl : Type} [Preorder Lvl]

local notation "𝕄" => MT nD τ sig Ix (Elt F) ℕ U Lvl

/-! ## Whole-rectangle loads and stores of a whole memref -/

/-- The offsets of a whole-block access, however the zeros are spelt. -/
theorem off00 : (![0, 0] : Fin 2 → ℕ) = fun _ => 0 := by funext a; fin_cases a <;> rfl

/-- A load through the rectangle of the memref's own sizes at zero offsets reads the contents the memref is owned at. -/
theorem readAt_unit_unread {κ : Kind} {sp : Space} {s : Shape} {e : EltTy} {Val : EltTy → Type} {m : Memref sig κ sp s e} (hm : m.IsWhole)
    {off : Fin s.rank → ℕ} (h : off = fun _ => 0) (inb : ∀ a, off a + s.size a ≤ s.size a) (x : s.Idx → Val e) :
    m.view.readAt Val (Rect.unit off s.size inb).toLoadRect (hm.unread x) = x := by
  have hx := hm.read_unread x
  generalize hm.unread x = f at hx ⊢
  obtain ⟨b, rfl, rfl, rfl, hm'⟩ := hm; cases hm'
  subst hx
  simp only [Memref.view_whole, View.read_whole]
  exact Memref.readAt_unit_zero Val b h inb f

/-- A store through that rectangle reads back as the value stored, whatever the buffer held. -/
theorem read_writes_unit_zero {κ : Kind} {sp : Space} {s : Shape} {e : EltTy} {Val : EltTy → Type} (v : View sig κ sp s e) (f : v.ty.Contents Val)
    {off : Fin s.rank → ℕ} (h : off = fun _ => 0) (inb : ∀ a, off a + s.size a ≤ s.size a) (w : (Rect.unit off s.size inb).shape.Idx → Val e) :
    v.read Val (v.writes Val f [⟨Rect.unit off s.size inb, w⟩]) = w := by
  subst h; exact View.read_writes_whole v f w

/-- The same with earlier stores underneath: the last store covers the memref. -/
theorem read_writes_unit_zero_cons {κ : Kind} {sp : Space} {s : Shape} {e : EltTy} {Val : EltTy → Type} (v : View sig κ sp s e) (f : v.ty.Contents Val)
    {off : Fin s.rank → ℕ} (h : off = fun _ => 0) (inb : ∀ a, off a + s.size a ≤ s.size a) (w : (Rect.unit off s.size inb).shape.Idx → Val e)
    (L : List (View.Piece Val s e)) :
    v.read Val (v.writes Val f (⟨Rect.unit off s.size inb, w⟩ :: L)) = w := by
  subst h; funext y
  have h := View.read_writes_cons_emb v f (Rect.whole s) w L y
  rwa [Rect.emb_whole_apply] at h

/-! ## Region 0: the body's two conditionals, and its triple in each of the three cases the grid meets -/

/-- The condition of the first conditional: the grid coordinate is 0. -/
abbrev cond0_1 (i : grid0.Coords) : Prop := (Scalar.cmpi .ne (Scalar.extui (Scalar.cmpi .eq (BitVec.ofNat 32 (i 0).val) 0#32)) 0#32) = 1#1
/-- The condition of the second conditional: the grid coordinate is 9. -/
abbrev cond0_2 (i : grid0.Coords) : Prop := k0_cond2 i = 1#1

set_option maxHeartbeats 1000000 in
/-- A MIDDLE point (neither conditional taken): with the inputs' staging memrefs at their blocks and the two scratch rows
    at `s1`, `s2`, the body stores the block's affine image into the big output window and adds the block's column sums
    (of the image, of its square) to the scratch rows; the two small output windows are not touched. -/
theorem body0_mid (𝒱₀ : Variants) (c : Dev nD) (i : grid0.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S10000x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole)
    (hc1 : ¬cond0_1 i) (hc2 : ¬cond0_2 i)
    (x1 x2 : Vec F S10000x64 .f32) (x3 : Vec F S64x64 .f32) (x4 : Vec F S1x64 .f32) (s1 s2 : Vec F S1x64 .f32)
    (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d)
        ∗ owns (c : Thread nD τ) arg8 fullShare s1 ∗ owns (c : Thread nD τ) arg9 fullShare s2
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (k0_pay3 x1 x2 x3 x4)
            ∗ owns (c : Thread nD τ) arg8 fullShare (k0_pay4 x1 x2 x3 x4 s1) ∗ owns (c : Thread nD τ) arg9 fullShare (k0_pay5 x1 x2 x3 x4 s2)) -∗ K ⟨⟩))
      ⊢ wp frame (wpE (defs₀ (F := F)) 𝒱₀ c none) E (cc0__pass1_kernel i arg1 harg1 arg2 harg2 arg3 harg3 arg4 harg4 arg5 harg5 arg6 harg6 arg7 harg7 arg8 harg8 arg9 harg9) K := by
  simp only [cc0__pass1_kernel_eq_skeleton]; unfold cc0__pass1_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%d5, %f5, -, H5⟩, ⟨%f8, %hf8, H8⟩, ⟨%f9, %hf9, H9⟩, Hk⟩
  obtain rfl := harg1.eq_unread hf1; obtain rfl := harg2.eq_unread hf2; obtain rfl := harg3.eq_unread hf3; obtain rfl := harg4.eq_unread hf4
  obtain rfl := harg8.eq_unread hf8; obtain rfl := harg9.eq_unread hf9
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    rw [read_writes_unit_zero _ _ off00, readAt_unit_unread harg1 off00, readAt_unit_unread harg2 off00, readAt_unit_unread harg3 off00, readAt_unit_unread harg4 off00]
  isplitl [H8]
  · iexists _; isplitr
    swap; · iexact H8
    ipureintro
    rw [read_writes_unit_zero _ _ off00, readAt_unit_unread harg1 off00, readAt_unit_unread harg2 off00, readAt_unit_unread harg3 off00, readAt_unit_unread harg4 off00, readAt_unit_unread harg8 off00]
  · iexists _; isplitr
    swap; · iexact H9
    ipureintro
    rw [read_writes_unit_zero _ _ off00, readAt_unit_unread harg1 off00, readAt_unit_unread harg2 off00, readAt_unit_unread harg3 off00, readAt_unit_unread harg4 off00, readAt_unit_unread harg9 off00]

set_option maxHeartbeats 1000000 in
/-- The FIRST point (the first conditional taken, the second not): the scratch rows, found at anything, are zeroed and then
    take the block's column sums; otherwise as a middle point. -/
theorem body0_first (𝒱₀ : Variants) (c : Dev nD) (i : grid0.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S10000x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole)
    (hc1 : cond0_1 i) (hc2 : ¬cond0_2 i)
    (x1 x2 : Vec F S10000x64 .f32) (x3 : Vec F S64x64 .f32) (x4 : Vec F S1x64 .f32)
    (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d)
        ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (k0_pay3 x1 x2 x3 x4)
            ∗ owns (c : Thread nD τ) arg8 fullShare (k0_pay4 x1 x2 x3 x4 k0_pay1) ∗ owns (c : Thread nD τ) arg9 fullShare (k0_pay5 x1 x2 x3 x4 k0_pay2)) -∗ K ⟨⟩))
      ⊢ wp frame (wpE (defs₀ (F := F)) 𝒱₀ c none) E (cc0__pass1_kernel i arg1 harg1 arg2 harg2 arg3 harg3 arg4 harg4 arg5 harg5 arg6 harg6 arg7 harg7 arg8 harg8 arg9 harg9) K := by
  simp only [cc0__pass1_kernel_eq_skeleton]; unfold cc0__pass1_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%d5, %f5, -, H5⟩, ⟨%d8, %f8, -, H8⟩, ⟨%d9, %f9, -, H9⟩, Hk⟩
  obtain rfl := harg1.eq_unread hf1; obtain rfl := harg2.eq_unread hf2; obtain rfl := harg3.eq_unread hf3; obtain rfl := harg4.eq_unread hf4
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    rw [read_writes_unit_zero _ _ off00, readAt_unit_unread harg1 off00, readAt_unit_unread harg2 off00, readAt_unit_unread harg3 off00, readAt_unit_unread harg4 off00]
  isplitl [H8]
  · iexists _; isplitr
    swap; · iexact H8
    ipureintro
    sl_unfold_run_names
    rw [read_writes_unit_zero_cons _ _ off00, readAt_unit_unread harg1 off00, readAt_unit_unread harg2 off00, readAt_unit_unread harg3 off00, readAt_unit_unread harg4 off00, View.readCov_cons_toLoadRect]
  · iexists _; isplitr
    swap; · iexact H9
    ipureintro
    sl_unfold_run_names
    rw [read_writes_unit_zero_cons _ _ off00, readAt_unit_unread harg1 off00, readAt_unit_unread harg2 off00, readAt_unit_unread harg3 off00, readAt_unit_unread harg4 off00, View.readCov_cons_toLoadRect]

set_option maxHeartbeats 1000000 in
/-- The LAST point (the first conditional not taken, the second taken): as a middle point, and then the two scratch rows —
    now holding the sums over every block — are copied into the two small output windows. -/
theorem body0_last (𝒱₀ : Variants) (c : Dev nD) (i : grid0.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S10000x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole)
    (hc1 : ¬cond0_1 i) (hc2 : cond0_2 i)
    (x1 x2 : Vec F S10000x64 .f32) (x3 : Vec F S64x64 .f32) (x4 : Vec F S1x64 .f32) (s1 s2 : Vec F S1x64 .f32)
    (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d)
        ∗ (∃ d, owns (c : Thread nD τ) arg6 fullShare d) ∗ (∃ d, owns (c : Thread nD τ) arg7 fullShare d)
        ∗ owns (c : Thread nD τ) arg8 fullShare s1 ∗ owns (c : Thread nD τ) arg9 fullShare s2
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (k0_pay3 x1 x2 x3 x4)
            ∗ owns (c : Thread nD τ) arg6 fullShare (k0_pay4 x1 x2 x3 x4 s1) ∗ owns (c : Thread nD τ) arg7 fullShare (k0_pay5 x1 x2 x3 x4 s2)
            ∗ owns (c : Thread nD τ) arg8 fullShare (k0_pay4 x1 x2 x3 x4 s1) ∗ owns (c : Thread nD τ) arg9 fullShare (k0_pay5 x1 x2 x3 x4 s2)) -∗ K ⟨⟩))
      ⊢ wp frame (wpE (defs₀ (F := F)) 𝒱₀ c none) E (cc0__pass1_kernel i arg1 harg1 arg2 harg2 arg3 harg3 arg4 harg4 arg5 harg5 arg6 harg6 arg7 harg7 arg8 harg8 arg9 harg9) K := by
  simp only [cc0__pass1_kernel_eq_skeleton]; unfold cc0__pass1_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  obtain rfl := harg1.eq_unread hf1; obtain rfl := harg2.eq_unread hf2; obtain rfl := harg3.eq_unread hf3; obtain rfl := harg4.eq_unread hf4
  obtain rfl := harg8.eq_unread hf8; obtain rfl := harg9.eq_unread hf9
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    rw [read_writes_unit_zero _ _ off00, readAt_unit_unread harg1 off00, readAt_unit_unread harg2 off00, readAt_unit_unread harg3 off00, readAt_unit_unread harg4 off00]
  isplitl [H6]
  · iexists _; isplitr
    swap; · iexact H6
    ipureintro
    sl_unfold_run_names
    rw [read_writes_unit_zero _ _ off00, View.readCov_cons_toLoadRect, readAt_unit_unread harg1 off00, readAt_unit_unread harg2 off00, readAt_unit_unread harg3 off00, readAt_unit_unread harg4 off00, readAt_unit_unread harg8 off00]
  isplitl [H7]
  · iexists _; isplitr
    swap; · iexact H7
    ipureintro
    sl_unfold_run_names
    rw [read_writes_unit_zero _ _ off00, View.readCov_cons_toLoadRect, readAt_unit_unread harg1 off00, readAt_unit_unread harg2 off00, readAt_unit_unread harg3 off00, readAt_unit_unread harg4 off00, readAt_unit_unread harg9 off00]
  isplitl [H8]
  · iexists _; isplitr
    swap; · iexact H8
    ipureintro
    sl_unfold_run_names
    rw [read_writes_unit_zero _ _ off00, readAt_unit_unread harg1 off00, readAt_unit_unread harg2 off00, readAt_unit_unread harg3 off00, readAt_unit_unread harg4 off00, readAt_unit_unread harg8 off00]
  · iexists _; isplitr
    swap; · iexact H9
    ipureintro
    sl_unfold_run_names
    rw [read_writes_unit_zero _ _ off00, readAt_unit_unread harg1 off00, readAt_unit_unread harg2 off00, readAt_unit_unread harg3 off00, readAt_unit_unread harg4 off00, readAt_unit_unread harg9 off00]

/-! ## Region 3: the body's two conditionals, and its triple in each of the three cases the grid meets -/

/-- The condition of the first conditional: the grid coordinate is 0. -/
abbrev cond3_1 (i : grid3.Coords) : Prop := (Scalar.cmpi .ne (Scalar.extui (Scalar.cmpi .eq (BitVec.ofNat 32 (i 0).val) 0#32)) 0#32) = 1#1
/-- The condition of the second conditional: the grid coordinate is 9. -/
abbrev cond3_2 (i : grid3.Coords) : Prop := k3_cond2 i = 1#1

set_option maxHeartbeats 1000000 in
/-- A MIDDLE point (neither conditional taken): with the inputs' staging memrefs at their blocks and the two scratch rows
    at `s1`, `s2`, the body stores the block's affine image into the big output window and adds the block's column sums
    (of the image, of its square) to the scratch rows; the two small output windows are not touched. -/
theorem body3_mid (𝒱₀ : Variants) (c : Dev nD) (i : grid3.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S10000x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole)
    (hc1 : ¬cond3_1 i) (hc2 : ¬cond3_2 i)
    (x1 x2 : Vec F S10000x64 .f32) (x3 : Vec F S64x64 .f32) (x4 : Vec F S1x64 .f32) (s1 s2 : Vec F S1x64 .f32)
    (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d)
        ∗ owns (c : Thread nD τ) arg8 fullShare s1 ∗ owns (c : Thread nD τ) arg9 fullShare s2
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (k3_pay3 x1 x2 x3 x4)
            ∗ owns (c : Thread nD τ) arg8 fullShare (k3_pay4 x1 x2 x3 x4 s1) ∗ owns (c : Thread nD τ) arg9 fullShare (k3_pay5 x1 x2 x3 x4 s2)) -∗ K ⟨⟩))
      ⊢ wp frame (wpE (defs₀ (F := F)) 𝒱₀ c none) E (cc3__pass1_kernel i arg1 harg1 arg2 harg2 arg3 harg3 arg4 harg4 arg5 harg5 arg6 harg6 arg7 harg7 arg8 harg8 arg9 harg9) K := by
  simp only [cc3__pass1_kernel_eq_skeleton]; unfold cc3__pass1_kernel_skel
  simp only [k3_part1_eq_skeleton]; unfold k3_part1_skel
  unfold owns
  iintro ⟨⟨%f1, %hf1, H1⟩, ⟨%f2, %hf2, H2⟩, ⟨%f3, %hf3, H3⟩, ⟨%f4, %hf4, H4⟩, ⟨%d5, %f5, -, H5⟩, ⟨%f8, %hf8, H8⟩, ⟨%f9, %hf9, H9⟩, Hk⟩
  obtain rfl := harg1.eq_unread hf1; obtain rfl := harg2.eq_unread hf2; obtain rfl := harg3.eq_unread hf3; obtain rfl := harg4.eq_unread hf4
  obtain rfl := harg8.eq_unread hf8; obtain rfl := harg9.eq_unread hf9
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    rw [read_writes_unit_zero _ _ off00, readAt_unit_unread harg1 off00, readAt_unit_unread harg2 off00, readAt_unit_unread harg3 off00, readAt_unit_unread harg4 off00]
  isplitl [H8]
  · iexists _; isplitr
    swap; · iexact H8
    ipureintro
    rw [read_writes_unit_zero _ _ off00, readAt_unit_unread harg1 off00, readAt_unit_unread harg2 off00, readAt_unit_unread harg3 off00, readAt_unit_unread harg4 off00, readAt_unit_unread harg8 off00]
  · iexists _; isplitr
    swap; · iexact H9
    ipureintro
    rw [read_writes_unit_zero _ _ off00, readAt_unit_unread harg1 off00, readAt_unit_unread harg2 off00, readAt_unit_unread harg3 off00, readAt_unit_unread harg4 off00, readAt_unit_unread harg9 off00]

set_option maxHeartbeats 1000000 in
/-- The FIRST point (the first conditional taken, the second not): the scratch rows, found at anything, are zeroed and then
    take the block's column sums; otherwise as a middle point. -/
theorem body3_first (𝒱₀ : Variants) (c : Dev nD) (i : grid3.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S10000x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole)
    (hc1 : cond3_1 i) (hc2 : ¬cond3_2 i)
    (x1 x2 : Vec F S10000x64 .f32) (x3 : Vec F S64x64 .f32) (x4 : Vec F S1x64 .f32)
    (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d)
        ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (k3_pay3 x1 x2 x3 x4)
            ∗ owns (c : Thread nD τ) arg8 fullShare (k3_pay4 x1 x2 x3 x4 k3_pay1) ∗ owns (c : Thread nD τ) arg9 fullShare (k3_pay5 x1 x2 x3 x4 k3_pay2)) -∗ K ⟨⟩))
      ⊢ wp frame (wpE (defs₀ (F := F)) 𝒱₀ c none) E (cc3__pass1_kernel i arg1 harg1 arg2 harg2 arg3 harg3 arg4 harg4 arg5 harg5 arg6 harg6 arg7 harg7 arg8 harg8 arg9 harg9) K := by
  simp only [cc3__pass1_kernel_eq_skeleton]; unfold cc3__pass1_kernel_skel
  simp only [k3_part1_eq_skeleton]; unfold k3_part1_skel
  unfold owns
  iintro ⟨⟨%f1, %hf1, H1⟩, ⟨%f2, %hf2, H2⟩, ⟨%f3, %hf3, H3⟩, ⟨%f4, %hf4, H4⟩, ⟨%d5, %f5, -, H5⟩, ⟨%d8, %f8, -, H8⟩, ⟨%d9, %f9, -, H9⟩, Hk⟩
  obtain rfl := harg1.eq_unread hf1; obtain rfl := harg2.eq_unread hf2; obtain rfl := harg3.eq_unread hf3; obtain rfl := harg4.eq_unread hf4
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    rw [read_writes_unit_zero _ _ off00, readAt_unit_unread harg1 off00, readAt_unit_unread harg2 off00, readAt_unit_unread harg3 off00, readAt_unit_unread harg4 off00]
  isplitl [H8]
  · iexists _; isplitr
    swap; · iexact H8
    ipureintro
    sl_unfold_run_names
    rw [read_writes_unit_zero_cons _ _ off00, readAt_unit_unread harg1 off00, readAt_unit_unread harg2 off00, readAt_unit_unread harg3 off00, readAt_unit_unread harg4 off00, View.readCov_cons_toLoadRect]
  · iexists _; isplitr
    swap; · iexact H9
    ipureintro
    sl_unfold_run_names
    rw [read_writes_unit_zero_cons _ _ off00, readAt_unit_unread harg1 off00, readAt_unit_unread harg2 off00, readAt_unit_unread harg3 off00, readAt_unit_unread harg4 off00, View.readCov_cons_toLoadRect]

set_option maxHeartbeats 1000000 in
/-- The LAST point (the first conditional not taken, the second taken): as a middle point, and then the two scratch rows —
    now holding the sums over every block — are copied into the two small output windows. -/
theorem body3_last (𝒱₀ : Variants) (c : Dev nD) (i : grid3.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S10000x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole)
    (hc1 : ¬cond3_1 i) (hc2 : cond3_2 i)
    (x1 x2 : Vec F S10000x64 .f32) (x3 : Vec F S64x64 .f32) (x4 : Vec F S1x64 .f32) (s1 s2 : Vec F S1x64 .f32)
    (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d)
        ∗ (∃ d, owns (c : Thread nD τ) arg6 fullShare d) ∗ (∃ d, owns (c : Thread nD τ) arg7 fullShare d)
        ∗ owns (c : Thread nD τ) arg8 fullShare s1 ∗ owns (c : Thread nD τ) arg9 fullShare s2
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (k3_pay3 x1 x2 x3 x4)
            ∗ owns (c : Thread nD τ) arg6 fullShare (k3_pay4 x1 x2 x3 x4 s1) ∗ owns (c : Thread nD τ) arg7 fullShare (k3_pay5 x1 x2 x3 x4 s2)
            ∗ owns (c : Thread nD τ) arg8 fullShare (k3_pay4 x1 x2 x3 x4 s1) ∗ owns (c : Thread nD τ) arg9 fullShare (k3_pay5 x1 x2 x3 x4 s2)) -∗ K ⟨⟩))
      ⊢ wp frame (wpE (defs₀ (F := F)) 𝒱₀ c none) E (cc3__pass1_kernel i arg1 harg1 arg2 harg2 arg3 harg3 arg4 harg4 arg5 harg5 arg6 harg6 arg7 harg7 arg8 harg8 arg9 harg9) K := by
  simp only [cc3__pass1_kernel_eq_skeleton]; unfold cc3__pass1_kernel_skel
  simp only [k3_part1_eq_skeleton]; unfold k3_part1_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  obtain rfl := harg1.eq_unread hf1; obtain rfl := harg2.eq_unread hf2; obtain rfl := harg3.eq_unread hf3; obtain rfl := harg4.eq_unread hf4
  obtain rfl := harg8.eq_unread hf8; obtain rfl := harg9.eq_unread hf9
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    rw [read_writes_unit_zero _ _ off00, readAt_unit_unread harg1 off00, readAt_unit_unread harg2 off00, readAt_unit_unread harg3 off00, readAt_unit_unread harg4 off00]
  isplitl [H6]
  · iexists _; isplitr
    swap; · iexact H6
    ipureintro
    sl_unfold_run_names
    rw [read_writes_unit_zero _ _ off00, View.readCov_cons_toLoadRect, readAt_unit_unread harg1 off00, readAt_unit_unread harg2 off00, readAt_unit_unread harg3 off00, readAt_unit_unread harg4 off00, readAt_unit_unread harg8 off00]
  isplitl [H7]
  · iexists _; isplitr
    swap; · iexact H7
    ipureintro
    sl_unfold_run_names
    rw [read_writes_unit_zero _ _ off00, View.readCov_cons_toLoadRect, readAt_unit_unread harg1 off00, readAt_unit_unread harg2 off00, readAt_unit_unread harg3 off00, readAt_unit_unread harg4 off00, readAt_unit_unread harg9 off00]
  isplitl [H8]
  · iexists _; isplitr
    swap; · iexact H8
    ipureintro
    sl_unfold_run_names
    rw [read_writes_unit_zero _ _ off00, readAt_unit_unread harg1 off00, readAt_unit_unread harg2 off00, readAt_unit_unread harg3 off00, readAt_unit_unread harg4 off00, readAt_unit_unread harg8 off00]
  · iexists _; isplitr
    swap; · iexact H9
    ipureintro
    sl_unfold_run_names
    rw [read_writes_unit_zero _ _ off00, readAt_unit_unread harg1 off00, readAt_unit_unread harg2 off00, readAt_unit_unread harg3 off00, readAt_unit_unread harg4 off00, readAt_unit_unread harg9 off00]

end Cert.KernelIdeal.Pass

end
-- ==== Proof.Pass1Dat.lean ====
import proofs.«152416_j10892037062711_1_alg».proof.Proof.Gen.KernelIdeal.Launch
import proofs.«152416_j10892037062711_1_alg».proof.Proof.Gen.KernelIdeal.Skeleton
import proofs.«152416_j10892037062711_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«152416_j10892037062711_1_alg».proof.Proof.Pass1Body

set_option maxRecDepth 16384

noncomputable section

namespace Cert.KernelIdeal.Pass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]
variable {Ix : Type} [DecidableEq Ix] {U : Type} [URA U] {Lvl : Type} [Preorder Lvl]

local notation "𝕄" => MT nD τ sig Ix (Elt F) ℕ U Lvl

/-! ## Region 0: the proof data over an arbitrary entry valuation -/

section Region0

variable (W : Dev nD → Valuation τ sig (Elt F))

/-- The entry valuation read at a TensorCore reference of core `c`. -/
abbrev VA0 (c : Dev nD) (b : Ref sig .tc) : Buf (Elt F) ((c : Thread nD τ).loc b) := W c (Proc.devRef .tc b)

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (VA0 W c (Pipeline.arrRef spec0 w))

/-- The affine image of block `t`: what the body stores into the big output window there. -/
def img0 (c : Dev nD) (t : Fin cfg0.N) : Vec F S10000x64 .f32 :=
  k0_pay3 (iblk0 W c 0 t) (iblk0 W c 1 t) (iblk0 W c 2 t) (iblk0 W c 3 t)

/-- THE ACCUMULATION. The two scratch rows before point `n`: zero rows before the first point; after point `n` the rows
    before it plus the column sums of block `n`'s image and of its square. -/
def acc0 (c : Dev nD) : (n : ℕ) → n ≤ cfg0.N → Vec F S1x64 .f32 × Vec F S1x64 .f32
  | 0, _ => (k0_pay1, k0_pay2)
  | n + 1, hn =>
    (k0_pay4 (iblk0 W c 0 ⟨n, Nat.lt_of_succ_le hn⟩) (iblk0 W c 1 ⟨n, Nat.lt_of_succ_le hn⟩) (iblk0 W c 2 ⟨n, Nat.lt_of_succ_le hn⟩) (iblk0 W c 3 ⟨n, Nat.lt_of_succ_le hn⟩) (acc0 c n (Nat.le_of_succ_le hn)).1,
     k0_pay5 (iblk0 W c 0 ⟨n, Nat.lt_of_succ_le hn⟩) (iblk0 W c 1 ⟨n, Nat.lt_of_succ_le hn⟩) (iblk0 W c 2 ⟨n, Nat.lt_of_succ_le hn⟩) (iblk0 W c 3 ⟨n, Nat.lt_of_succ_le hn⟩) (acc0 c n (Nat.le_of_succ_le hn)).2)

theorem acc0_zero (c : Dev nD) (h : 0 ≤ cfg0.N) : acc0 W c 0 h = (k0_pay1, k0_pay2) := rfl

theorem acc0_succ (c : Dev nD) (n : ℕ) (hn : n + 1 ≤ cfg0.N) :
    acc0 W c (n + 1) hn =
      (k0_pay4 (iblk0 W c 0 ⟨n, Nat.lt_of_succ_le hn⟩) (iblk0 W c 1 ⟨n, Nat.lt_of_succ_le hn⟩) (iblk0 W c 2 ⟨n, Nat.lt_of_succ_le hn⟩) (iblk0 W c 3 ⟨n, Nat.lt_of_succ_le hn⟩) (acc0 W c n (Nat.le_of_succ_le hn)).1,
       k0_pay5 (iblk0 W c 0 ⟨n, Nat.lt_of_succ_le hn⟩) (iblk0 W c 1 ⟨n, Nat.lt_of_succ_le hn⟩) (iblk0 W c 2 ⟨n, Nat.lt_of_succ_le hn⟩) (iblk0 W c 3 ⟨n, Nat.lt_of_succ_le hn⟩) (acc0 W c n (Nat.le_of_succ_le hn)).2) := rfl

/-! ### The conditions over the grid, and where the small output windows are idle -/

/-- The first conditional is taken at the first point only. -/
theorem hcond0_1 : ∀ t : Fin cfg0.N, cond0_1 (grid0.coords t) ↔ t.val = 0 :=
  (by decide +kernel : ∀ t : Fin grid0.N, cond0_1 (grid0.coords t) ↔ t.val = 0)
/-- The second conditional is taken at the last point only. -/
theorem hcond0_2 : ∀ t : Fin cfg0.N, cond0_2 (grid0.coords t) ↔ t.val = 9 :=
  (by decide +kernel : ∀ t : Fin grid0.N, cond0_2 (grid0.coords t) ↔ t.val = 9)

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
theorem live0_4 : ∀ t : Fin cfg0.N, cfg0.idle 4 (grid0.coords t) = false := by decide +kernel
/-- Away from the last point the two small output windows are idle and not written back. -/
theorem idle0_5 : ∀ t : Fin cfg0.N, ¬cond0_2 (grid0.coords t) → cfg0.idle 5 (grid0.coords t) = true := by decide +kernel
theorem idle0_6 : ∀ t : Fin cfg0.N, ¬cond0_2 (grid0.coords t) → cfg0.idle 6 (grid0.coords t) = true := by decide +kernel
theorem noFlush0_5 : ∀ t : Fin cfg0.N, ¬cond0_2 (grid0.coords t) → (cfg0.win 5).flush t = false := by decide +kernel
theorem noFlush0_6 : ∀ t : Fin cfg0.N, ¬cond0_2 (grid0.coords t) → (cfg0.win 6).flush t = false := by decide +kernel
/-- At the last point they are live. -/
theorem live0_5 : ∀ t : Fin cfg0.N, cond0_2 (grid0.coords t) → cfg0.idle 5 (grid0.coords t) = false := by decide +kernel
theorem live0_6 : ∀ t : Fin cfg0.N, cond0_2 (grid0.coords t) → cfg0.idle 6 (grid0.coords t) = false := by decide +kernel

/-! ### The staging and scratch memrefs -/

abbrev ms0_0 (t : Fin cfg0.N) : Memref sig .tc .vmem S10000x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S10000x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x64 .f32 := win0_6.stage (cfg0.slots t 6)
abbrev hs0_6 (t : Fin cfg0.N) : (ms0_6 t).IsWhole := hstage0_6 ((cfg0.slots t 6).cast nbuf0_6)
/-- The two scratch rows: whole scoped buffers of the kernel's own, passed beside the windows. -/
abbrev scM0_0 : Memref sig .tc .vmem S1x64 .f32 := Memref.whole cc0_scratch0
abbrev scM0_1 : Memref sig .tc .vmem S1x64 .f32 := Memref.whole cc0_scratch1

/-- The scoped rest with the two scratch rows as memrefs owned at some contents. -/
theorem scopedRest0_owns (c : Dev nD) :
    (Pipeline.scopedRest (Ix := Ix) (Name := ℕ) (U := U) (Lvl := Lvl) (Val := Elt F) spec0 c : sProp 𝕄)
      = iprop(iprop((∃ d, owns (c : Thread nD τ) scM0_0 fullShare d) ∗ (∃ d, owns (c : Thread nD τ) scM0_1 fullShare d))
          ∗ Pipeline.scopedRestBut (Ix := Ix) (Name := ℕ) (U := U) (Lvl := Lvl) (Val := Elt F) spec0 c [cc0_scratch0, cc0_scratch1]) := by
  rw [scopedRest0_split]; simp only [scM0_0, scM0_1, owns_whole]; try rfl

/-! ### The invariant -/

/-- The region invariant before position `n`: before the first point the scoped rest (the scratch rows at anything); afterwards
    the two scratch rows at the accumulation so far, beside the rest of the scoped rest. -/
def PhiS0 (c : Dev nD) : (n : ℕ) → n ≤ cfg0.N → sProp 𝕄
  | 0, _ => Pipeline.scopedRest (Ix := Ix) (Name := ℕ) (U := U) (Lvl := Lvl) (Val := Elt F) spec0 c
  | n + 1, hn => iprop(iprop(owns (c : Thread nD τ) scM0_0 fullShare (acc0 W c (n + 1) hn).1 ∗ owns (c : Thread nD τ) scM0_1 fullShare (acc0 W c (n + 1) hn).2)
      ∗ Pipeline.scopedRestBut (Ix := Ix) (Name := ℕ) (U := U) (Lvl := Lvl) (Val := Elt F) spec0 c [cc0_scratch0, cc0_scratch1])

/-! ### The proof data -/

/-- The proof data of region 0 on core `c`: the arrays as the region finds them; after the body at point `t` each input's buffer
    at its block, the big output's at the block's image, the two small outputs' at the accumulation through `t`; the invariant
    `PhiS0`; nothing owed; full shares. -/
def dat0 (c : Dev nD) : Dat τ (Elt F) Ix ℕ U Lvl cfg0 c where
  A w := VA0 W c (Pipeline.arrRef spec0 w)
  after w t := match w with
    | ⟨0, _⟩ => iblk0 W c 0 t
    | ⟨1, _⟩ => iblk0 W c 1 t
    | ⟨2, _⟩ => iblk0 W c 2 t
    | ⟨3, _⟩ => iblk0 W c 3 t
    | ⟨4, _⟩ => img0 W c t
    | ⟨5, _⟩ => (acc0 W c (t.val + 1) t.isLt).1
    | ⟨6, _⟩ => (acc0 W c (t.val + 1) t.isLt).2
  Φ t := PhiS0 W c t.val (Nat.le_of_lt_succ t.isLt)
  q _ := fullShare
  owed _ := 0

end Region0

section Region0b

variable (W : Dev nD → Valuation τ sig (Elt F))

/-- The proof data's arrays are the entry contents. -/
theorem A0_eq (c : Dev nD) (w : Fin cfg0.W) : (dat0 (Ix := Ix) (U := U) (Lvl := Lvl) W c).A w = VA0 W c (Pipeline.arrRef spec0 w) := by
  dsimp only [dat0]

/-- What the body leaves, window by window. -/
theorem after0_0 (c : Dev nD) (t : Fin cfg0.N) : (dat0 (Ix := Ix) (U := U) (Lvl := Lvl) W c).after 0 t = iblk0 W c 0 t := by dsimp only [dat0]
theorem after0_1 (c : Dev nD) (t : Fin cfg0.N) : (dat0 (Ix := Ix) (U := U) (Lvl := Lvl) W c).after 1 t = iblk0 W c 1 t := by dsimp only [dat0]
theorem after0_2 (c : Dev nD) (t : Fin cfg0.N) : (dat0 (Ix := Ix) (U := U) (Lvl := Lvl) W c).after 2 t = iblk0 W c 2 t := by dsimp only [dat0]
theorem after0_3 (c : Dev nD) (t : Fin cfg0.N) : (dat0 (Ix := Ix) (U := U) (Lvl := Lvl) W c).after 3 t = iblk0 W c 3 t := by dsimp only [dat0]
theorem after0_4 (c : Dev nD) (t : Fin cfg0.N) : (dat0 (Ix := Ix) (U := U) (Lvl := Lvl) W c).after 4 t = img0 W c t := by dsimp only [dat0]
theorem after0_5 (c : Dev nD) (t : Fin cfg0.N) : (dat0 (Ix := Ix) (U := U) (Lvl := Lvl) W c).after 5 t = (acc0 W c (t.val + 1) t.isLt).1 := by dsimp only [dat0]
theorem after0_6 (c : Dev nD) (t : Fin cfg0.N) : (dat0 (Ix := Ix) (U := U) (Lvl := Lvl) W c).after 6 t = (acc0 W c (t.val + 1) t.isLt).2 := by dsimp only [dat0]

/-- Input window 0's current staging buffer holds its block at every point, fetched there or not. -/
theorem before0_0 (c : Dev nD) (t : Fin cfg0.N) (d) : (dat0 (Ix := Ix) (U := U) (Lvl := Lvl) W c).before 0 t d = iblk0 W c 0 t :=
  ((dat0 (Ix := Ix) (U := U) (Lvl := Lvl) W c).before_in_eq_fetched 0 rfl (fun _ => rfl) (fun _ _ _ => rfl)
      (fun t => by rw [after0_0]; unfold Dat.blockOf iblk0; rw [A0_eq]; try rfl) t d).trans
    (by unfold Dat.fetched Dat.blockOf iblk0; rw [A0_eq]; try rfl)
/-- Input window 1's current staging buffer holds its block at every point, fetched there or not. -/
theorem before0_1 (c : Dev nD) (t : Fin cfg0.N) (d) : (dat0 (Ix := Ix) (U := U) (Lvl := Lvl) W c).before 1 t d = iblk0 W c 1 t :=
  ((dat0 (Ix := Ix) (U := U) (Lvl := Lvl) W c).before_in_eq_fetched 1 rfl (fun _ => rfl) (fun _ _ _ => rfl)
      (fun t => by rw [after0_1]; unfold Dat.blockOf iblk0; rw [A0_eq]; try rfl) t d).trans
    (by unfold Dat.fetched Dat.blockOf iblk0; rw [A0_eq]; try rfl)
/-- Input window 2's current staging buffer holds its block at every point, fetched there or not. -/
theorem before0_2 (c : Dev nD) (t : Fin cfg0.N) (d) : (dat0 (Ix := Ix) (U := U) (Lvl := Lvl) W c).before 2 t d = iblk0 W c 2 t :=
  ((dat0 (Ix := Ix) (U := U) (Lvl := Lvl) W c).before_in_eq_fetched 2 rfl (fun _ => rfl) (fun _ _ _ => rfl)
      (fun t => by rw [after0_2]; unfold Dat.blockOf iblk0; rw [A0_eq]; try rfl) t d).trans
    (by unfold Dat.fetched Dat.blockOf iblk0; rw [A0_eq]; try rfl)
/-- Input window 3's current staging buffer holds its block at every point, fetched there or not. -/
theorem before0_3 (c : Dev nD) (t : Fin cfg0.N) (d) : (dat0 (Ix := Ix) (U := U) (Lvl := Lvl) W c).before 3 t d = iblk0 W c 3 t :=
  ((dat0 (Ix := Ix) (U := U) (Lvl := Lvl) W c).before_in_eq_fetched 3 rfl (fun _ => rfl) (fun _ _ _ => rfl)
      (fun t => by rw [after0_3]; unfold Dat.blockOf iblk0; rw [A0_eq]; try rfl) t d).trans
    (by unfold Dat.fetched Dat.blockOf iblk0; rw [A0_eq]; try rfl)

/-- The invariant at a point's start, restated at the point's number. -/
theorem Phi0_castSucc (c : Dev nD) (t : Fin cfg0.N) : (dat0 (Ix := Ix) (U := U) (Lvl := Lvl) W c).Φ t.castSucc = PhiS0 W c t.val (Nat.le_of_lt t.isLt) := by
  dsimp only [dat0]; simp only [Fin.coe_castSucc]

/-! ### The body obligation -/

/-- What the body is called with at point `t`, the windows one by one, -/
def bodyPre0 (ι : Ix) (c : Dev nD) (t : Fin cfg0.N) : sProp 𝕄 :=
  iprop((dat0 (Ix := Ix) (U := U) (Lvl := Lvl) W c).Φ t.castSucc ∗ (dat0 (Ix := Ix) (U := U) (Lvl := Lvl) W c).owesAt ι t.castSucc
    ∗ (∃ d, owns (c : Thread nD τ) (ms0_0 t) fullShare ((dat0 (Ix := Ix) (U := U) (Lvl := Lvl) W c).before 0 t d))
    ∗ (∃ d, owns (c : Thread nD τ) (ms0_1 t) fullShare ((dat0 (Ix := Ix) (U := U) (Lvl := Lvl) W c).before 1 t d))
    ∗ (∃ d, owns (c : Thread nD τ) (ms0_2 t) fullShare ((dat0 (Ix := Ix) (U := U) (Lvl := Lvl) W c).before 2 t d))
    ∗ (∃ d, owns (c : Thread nD τ) (ms0_3 t) fullShare ((dat0 (Ix := Ix) (U := U) (Lvl := Lvl) W c).before 3 t d))
    ∗ (∃ d, owns (c : Thread nD τ) (ms0_4 t) fullShare ((dat0 (Ix := Ix) (U := U) (Lvl := Lvl) W c).before 4 t d))
    ∗ (∃ d, owns (c : Thread nD τ) (ms0_5 t) fullShare ((dat0 (Ix := Ix) (U := U) (Lvl := Lvl) W c).before 5 t d))
    ∗ (∃ d, owns (c : Thread nD τ) (ms0_6 t) fullShare ((dat0 (Ix := Ix) (U := U) (Lvl := Lvl) W c).before 6 t d)))

/-- and what it returns. -/
def bodyPost0 (ι : Ix) (c : Dev nD) (t : Fin cfg0.N) : sProp 𝕄 :=
  iprop((dat0 (Ix := Ix) (U := U) (Lvl := Lvl) W c).Φ t.succ ∗ (dat0 (Ix := Ix) (U := U) (Lvl := Lvl) W c).owesAt ι t.succ
    ∗ (dat0 (Ix := Ix) (U := U) (Lvl := Lvl) W c).leavesExact 0 t
    ∗ (dat0 (Ix := Ix) (U := U) (Lvl := Lvl) W c).leavesExact 1 t
    ∗ (dat0 (Ix := Ix) (U := U) (Lvl := Lvl) W c).leavesExact 2 t
    ∗ (dat0 (Ix := Ix) (U := U) (Lvl := Lvl) W c).leavesExact 3 t
    ∗ (dat0 (Ix := Ix) (U := U) (Lvl := Lvl) W c).leavesExact 4 t
    ∗ (dat0 (Ix := Ix) (U := U) (Lvl := Lvl) W c).leavesExact 5 t
    ∗ (dat0 (Ix := Ix) (U := U) (Lvl := Lvl) W c).leavesExact 6 t)

set_option maxHeartbeats 4000000 in
/-- The body at any point: the inputs' memrefs hold their blocks; the point's number says which of the three cases it is in; the
    invariant hands the body the scratch rows at the accumulation so far (at anything at the first point) and takes them back
    one block further; at the last point the small output windows receive the rows. -/
theorem sound_body0 (𝒱₀ : Variants) (ι : Ix) (c : Dev nD) (t : Fin cfg0.N) :
    (bodyPre0 (U := U) (Lvl := Lvl) W ι c t : sProp 𝕄) ⊢ wp frame (wpE (defs₀ (F := F)) 𝒱₀ c none) Set.univ (bodyAt0 t) (fun _ => bodyPost0 (U := U) (Lvl := Lvl) W ι c t) := by
  obtain ⟨n, hn⟩ := t
  have hN : n < 10 := lt_of_lt_of_eq hn (show cfg0.N = 10 from N_0)
  unfold bodyPre0 bodyPost0 bodyAt0
  simp only [before0_0, before0_1, before0_2, before0_3]
  rw [show (dat0 (Ix := Ix) (U := U) (Lvl := Lvl) W c).owesAt ι (Fin.succ ⟨n, hn⟩) = (dat0 (Ix := Ix) (U := U) (Lvl := Lvl) W c).owesAt ι (Fin.castSucc ⟨n, hn⟩) from rfl]
  rw [show (dat0 (Ix := Ix) (U := U) (Lvl := Lvl) W c).Φ (Fin.succ ⟨n, hn⟩) = PhiS0 W c (n + 1) hn from rfl, Phi0_castSucc]
  rw [show (dat0 (Ix := Ix) (U := U) (Lvl := Lvl) W c).leavesExact 0 ⟨n, hn⟩ = owns (c : Thread nD τ) (ms0_0 ⟨n, hn⟩) fullShare ((dat0 (Ix := Ix) (U := U) (Lvl := Lvl) W c).after 0 ⟨n, hn⟩) from by
    unfold Dat.leavesExact; rw [live0_0 ⟨n, hn⟩], after0_0]
  rw [show (dat0 (Ix := Ix) (U := U) (Lvl := Lvl) W c).leavesExact 1 ⟨n, hn⟩ = owns (c : Thread nD τ) (ms0_1 ⟨n, hn⟩) fullShare ((dat0 (Ix := Ix) (U := U) (Lvl := Lvl) W c).after 1 ⟨n, hn⟩) from by
    unfold Dat.leavesExact; rw [live0_1 ⟨n, hn⟩], after0_1]
  rw [show (dat0 (Ix := Ix) (U := U) (Lvl := Lvl) W c).leavesExact 2 ⟨n, hn⟩ = owns (c : Thread nD τ) (ms0_2 ⟨n, hn⟩) fullShare ((dat0 (Ix := Ix) (U := U) (Lvl := Lvl) W c).after 2 ⟨n, hn⟩) from by
    unfold Dat.leavesExact; rw [live0_2 ⟨n, hn⟩], after0_2]
  rw [show (dat0 (Ix := Ix) (U := U) (Lvl := Lvl) W c).leavesExact 3 ⟨n, hn⟩ = owns (c : Thread nD τ) (ms0_3 ⟨n, hn⟩) fullShare ((dat0 (Ix := Ix) (U := U) (Lvl := Lvl) W c).after 3 ⟨n, hn⟩) from by
    unfold Dat.leavesExact; rw [live0_3 ⟨n, hn⟩], after0_3]
  rw [show (dat0 (Ix := Ix) (U := U) (Lvl := Lvl) W c).leavesExact 4 ⟨n, hn⟩ = owns (c : Thread nD τ) (ms0_4 ⟨n, hn⟩) fullShare ((dat0 (Ix := Ix) (U := U) (Lvl := Lvl) W c).after 4 ⟨n, hn⟩) from by
    unfold Dat.leavesExact; rw [live0_4 ⟨n, hn⟩], after0_4]
  rcases n with _ | n
  · -- the first point
    have hc1 : cond0_1 (grid0.coords ⟨0, hn⟩) := (hcond0_1 ⟨0, hn⟩).mpr rfl
    have hc2 : ¬cond0_2 (grid0.coords ⟨0, hn⟩) := fun h => (fun h => by (try dsimp only at h); omega) ((hcond0_2 ⟨0, hn⟩).mp h)
    rw [Dat.leavesExact_idle (dat0 (Ix := Ix) (U := U) (Lvl := Lvl) W c) 5 ⟨0, hn⟩ (idle0_5 _ hc2) (noFlush0_5 _ hc2), Dat.leavesExact_idle (dat0 (Ix := Ix) (U := U) (Lvl := Lvl) W c) 6 ⟨0, hn⟩ (idle0_6 _ hc2) (noFlush0_6 _ hc2)]
    rw [show PhiS0 W c (0 + 1) hn = iprop(iprop(owns (c : Thread nD τ) scM0_0 fullShare (acc0 W c (0 + 1) hn).1 ∗ owns (c : Thread nD τ) scM0_1 fullShare (acc0 W c (0 + 1) hn).2)
      ∗ Pipeline.scopedRestBut (Ix := Ix) (Name := ℕ) (U := U) (Lvl := Lvl) (Val := Elt F) spec0 c [cc0_scratch0, cc0_scratch1]) from rfl, acc0_succ, acc0_zero]
    rw [show PhiS0 (Ix := Ix) (U := U) (Lvl := Lvl) W c (Fin.val (⟨0, hn⟩ : Fin cfg0.N)) (Nat.le_of_lt hn) = Pipeline.scopedRest (Ix := Ix) (Name := ℕ) (U := U) (Lvl := Lvl) (Val := Elt F) spec0 c from rfl, scopedRest0_owns]
    iintro ⟨⟨⟨HS0, HS1⟩, Hrest⟩, Ho, ⟨%d0, H0⟩, ⟨%d1, H1⟩, ⟨%d2, H2⟩, ⟨%d3, H3⟩, ⟨%d4, H4⟩, H5, H6⟩
    iapply (body0_first 𝒱₀ c (grid0.coords ⟨0, hn⟩) _ _ _ _ _ _ _ _ _ _ _ _ _ _ _ _ _ _ hc1 hc2 (iblk0 W c 0 ⟨0, hn⟩) (iblk0 W c 1 ⟨0, hn⟩) (iblk0 W c 2 ⟨0, hn⟩) (iblk0 W c 3 ⟨0, hn⟩) Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, H4, HS0, HS1⟩
    isplitl [HS0 HS1 Hrest]
    · isplitr [Hrest]
      · isplitl [HS0]; · iexact HS0
        iexact HS1
      iexact Hrest
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [show PhiS0 W c (n + 1 + 1) hn = iprop(iprop(owns (c : Thread nD τ) scM0_0 fullShare (acc0 W c (n + 1 + 1) hn).1 ∗ owns (c : Thread nD τ) scM0_1 fullShare (acc0 W c (n + 1 + 1) hn).2)
      ∗ Pipeline.scopedRestBut (Ix := Ix) (Name := ℕ) (U := U) (Lvl := Lvl) (Val := Elt F) spec0 c [cc0_scratch0, cc0_scratch1]) from rfl, acc0_succ]
    rw [show PhiS0 (Ix := Ix) (U := U) (Lvl := Lvl) W c (Fin.val (⟨n + 1, hn⟩ : Fin cfg0.N)) (Nat.le_of_lt hn) = iprop(iprop(owns (c : Thread nD τ) scM0_0 fullShare (acc0 W c (n + 1) (Nat.le_of_lt hn)).1 ∗ owns (c : Thread nD τ) scM0_1 fullShare (acc0 W c (n + 1) (Nat.le_of_lt hn)).2)
      ∗ Pipeline.scopedRestBut (Ix := Ix) (Name := ℕ) (U := U) (Lvl := Lvl) (Val := Elt F) spec0 c [cc0_scratch0, cc0_scratch1]) from rfl]
    have hc1 : ¬cond0_1 (grid0.coords ⟨n + 1, hn⟩) := fun h => (fun h => by (try dsimp only at h); omega) ((hcond0_1 ⟨n + 1, hn⟩).mp h)
    by_cases h9 : n + 1 = 9
    · -- the last point
      have hc2 : cond0_2 (grid0.coords ⟨n + 1, hn⟩) := (hcond0_2 ⟨n + 1, hn⟩).mpr h9
      rw [show (dat0 (Ix := Ix) (U := U) (Lvl := Lvl) W c).leavesExact 5 ⟨n + 1, hn⟩ = owns (c : Thread nD τ) (ms0_5 ⟨n + 1, hn⟩) fullShare ((dat0 (Ix := Ix) (U := U) (Lvl := Lvl) W c).after 5 ⟨n + 1, hn⟩) from by
        unfold Dat.leavesExact; rw [live0_5 ⟨n + 1, hn⟩ hc2], after0_5]
      rw [show (dat0 (Ix := Ix) (U := U) (Lvl := Lvl) W c).leavesExact 6 ⟨n + 1, hn⟩ = owns (c : Thread nD τ) (ms0_6 ⟨n + 1, hn⟩) fullShare ((dat0 (Ix := Ix) (U := U) (Lvl := Lvl) W c).after 6 ⟨n + 1, hn⟩) from by
        unfold Dat.leavesExact; rw [live0_6 ⟨n + 1, hn⟩ hc2], after0_6]
      rw [acc0_succ W c (n + 1) hn]
      iintro ⟨⟨⟨HS0, HS1⟩, Hrest⟩, Ho, ⟨%d0, H0⟩, ⟨%d1, H1⟩, ⟨%d2, H2⟩, ⟨%d3, H3⟩, ⟨%d4, H4⟩, ⟨%d5, H5⟩, ⟨%d6, H6⟩⟩
      iapply (body0_last 𝒱₀ c (grid0.coords ⟨n + 1, hn⟩) _ _ _ _ _ _ _ _ _ _ _ _ _ _ _ _ _ _ hc1 hc2 (iblk0 W c 0 ⟨n + 1, hn⟩) (iblk0 W c 1 ⟨n + 1, hn⟩) (iblk0 W c 2 ⟨n + 1, hn⟩) (iblk0 W c 3 ⟨n + 1, hn⟩) _ _ Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 Hrest]
      · isplitr [Hrest]
        · isplitl [HS0]; · iexact HS0
          iexact HS1
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · -- a middle point
      have hc2 : ¬cond0_2 (grid0.coords ⟨n + 1, hn⟩) := fun h => h9 ((hcond0_2 ⟨n + 1, hn⟩).mp h)
      rw [Dat.leavesExact_idle (dat0 (Ix := Ix) (U := U) (Lvl := Lvl) W c) 5 ⟨n + 1, hn⟩ (idle0_5 _ hc2) (noFlush0_5 _ hc2), Dat.leavesExact_idle (dat0 (Ix := Ix) (U := U) (Lvl := Lvl) W c) 6 ⟨n + 1, hn⟩ (idle0_6 _ hc2) (noFlush0_6 _ hc2)]
      iintro ⟨⟨⟨HS0, HS1⟩, Hrest⟩, Ho, ⟨%d0, H0⟩, ⟨%d1, H1⟩, ⟨%d2, H2⟩, ⟨%d3, H3⟩, ⟨%d4, H4⟩, H5, H6⟩
      iapply (body0_mid 𝒱₀ c (grid0.coords ⟨n + 1, hn⟩) _ _ _ _ _ _ _ _ _ _ _ _ _ _ _ _ _ _ hc1 hc2 (iblk0 W c 0 ⟨n + 1, hn⟩) (iblk0 W c 1 ⟨n + 1, hn⟩) (iblk0 W c 2 ⟨n + 1, hn⟩) (iblk0 W c 3 ⟨n + 1, hn⟩) _ _ Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 Hrest]
      · isplitr [Hrest]
        · isplitl [HS0]; · iexact HS0
          iexact HS1
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation0 (𝒱₀ : Variants) (ι : Ix) (c : Dev nD) : BodyObligation (dat0 (Ix := Ix) (U := U) (Lvl := Lvl) W c) (defs₀ (F := F)) 𝒱₀ ι Set.univ := fun t => by
  rw [bigSep_W0, bigSep_W0]
  exact sound_body0 (U := U) (Lvl := Lvl) W 𝒱₀ ι c t

end Region0b

/-! ## Region 3: the proof data over an arbitrary entry valuation -/

section Region3

variable (W : Dev nD → Valuation τ sig (Elt F))

/-- The entry valuation read at a TensorCore reference of core `c`. -/
abbrev VA3 (c : Dev nD) (b : Ref sig .tc) : Buf (Elt F) ((c : Thread nD τ).loc b) := W c (Proc.devRef .tc b)

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (VA3 W c (Pipeline.arrRef spec3 w))

/-- The affine image of block `t`: what the body stores into the big output window there. -/
def img3 (c : Dev nD) (t : Fin cfg3.N) : Vec F S10000x64 .f32 :=
  k3_pay3 (iblk3 W c 0 t) (iblk3 W c 1 t) (iblk3 W c 2 t) (iblk3 W c 3 t)

/-- THE ACCUMULATION. The two scratch rows before point `n`: zero rows before the first point; after point `n` the rows
    before it plus the column sums of block `n`'s image and of its square. -/
def acc3 (c : Dev nD) : (n : ℕ) → n ≤ cfg3.N → Vec F S1x64 .f32 × Vec F S1x64 .f32
  | 0, _ => (k3_pay1, k3_pay2)
  | n + 1, hn =>
    (k3_pay4 (iblk3 W c 0 ⟨n, Nat.lt_of_succ_le hn⟩) (iblk3 W c 1 ⟨n, Nat.lt_of_succ_le hn⟩) (iblk3 W c 2 ⟨n, Nat.lt_of_succ_le hn⟩) (iblk3 W c 3 ⟨n, Nat.lt_of_succ_le hn⟩) (acc3 c n (Nat.le_of_succ_le hn)).1,
     k3_pay5 (iblk3 W c 0 ⟨n, Nat.lt_of_succ_le hn⟩) (iblk3 W c 1 ⟨n, Nat.lt_of_succ_le hn⟩) (iblk3 W c 2 ⟨n, Nat.lt_of_succ_le hn⟩) (iblk3 W c 3 ⟨n, Nat.lt_of_succ_le hn⟩) (acc3 c n (Nat.le_of_succ_le hn)).2)

theorem acc3_zero (c : Dev nD) (h : 0 ≤ cfg3.N) : acc3 W c 0 h = (k3_pay1, k3_pay2) := rfl

theorem acc3_succ (c : Dev nD) (n : ℕ) (hn : n + 1 ≤ cfg3.N) :
    acc3 W c (n + 1) hn =
      (k3_pay4 (iblk3 W c 0 ⟨n, Nat.lt_of_succ_le hn⟩) (iblk3 W c 1 ⟨n, Nat.lt_of_succ_le hn⟩) (iblk3 W c 2 ⟨n, Nat.lt_of_succ_le hn⟩) (iblk3 W c 3 ⟨n, Nat.lt_of_succ_le hn⟩) (acc3 W c n (Nat.le_of_succ_le hn)).1,
       k3_pay5 (iblk3 W c 0 ⟨n, Nat.lt_of_succ_le hn⟩) (iblk3 W c 1 ⟨n, Nat.lt_of_succ_le hn⟩) (iblk3 W c 2 ⟨n, Nat.lt_of_succ_le hn⟩) (iblk3 W c 3 ⟨n, Nat.lt_of_succ_le hn⟩) (acc3 W c n (Nat.le_of_succ_le hn)).2) := rfl

/-! ### The conditions over the grid, and where the small output windows are idle -/

/-- The first conditional is taken at the first point only. -/
theorem hcond3_1 : ∀ t : Fin cfg3.N, cond3_1 (grid3.coords t) ↔ t.val = 0 :=
  (by decide +kernel : ∀ t : Fin grid3.N, cond3_1 (grid3.coords t) ↔ t.val = 0)
/-- The second conditional is taken at the last point only. -/
theorem hcond3_2 : ∀ t : Fin cfg3.N, cond3_2 (grid3.coords t) ↔ t.val = 9 :=
  (by decide +kernel : ∀ t : Fin grid3.N, cond3_2 (grid3.coords t) ↔ t.val = 9)

theorem live3_0 : ∀ t : Fin cfg3.N, cfg3.idle 0 (grid3.coords t) = false := by decide +kernel
theorem live3_1 : ∀ t : Fin cfg3.N, cfg3.idle 1 (grid3.coords t) = false := by decide +kernel
theorem live3_2 : ∀ t : Fin cfg3.N, cfg3.idle 2 (grid3.coords t) = false := by decide +kernel
theorem live3_3 : ∀ t : Fin cfg3.N, cfg3.idle 3 (grid3.coords t) = false := by decide +kernel
theorem live3_4 : ∀ t : Fin cfg3.N, cfg3.idle 4 (grid3.coords t) = false := by decide +kernel
/-- Away from the last point the two small output windows are idle and not written back. -/
theorem idle3_5 : ∀ t : Fin cfg3.N, ¬cond3_2 (grid3.coords t) → cfg3.idle 5 (grid3.coords t) = true := by decide +kernel
theorem idle3_6 : ∀ t : Fin cfg3.N, ¬cond3_2 (grid3.coords t) → cfg3.idle 6 (grid3.coords t) = true := by decide +kernel
theorem noFlush3_5 : ∀ t : Fin cfg3.N, ¬cond3_2 (grid3.coords t) → (cfg3.win 5).flush t = false := by decide +kernel
theorem noFlush3_6 : ∀ t : Fin cfg3.N, ¬cond3_2 (grid3.coords t) → (cfg3.win 6).flush t = false := by decide +kernel
/-- At the last point they are live. -/
theorem live3_5 : ∀ t : Fin cfg3.N, cond3_2 (grid3.coords t) → cfg3.idle 5 (grid3.coords t) = false := by decide +kernel
theorem live3_6 : ∀ t : Fin cfg3.N, cond3_2 (grid3.coords t) → cfg3.idle 6 (grid3.coords t) = false := by decide +kernel

/-! ### The staging and scratch memrefs -/

abbrev ms3_0 (t : Fin cfg3.N) : Memref sig .tc .vmem S10000x64 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S10000x64 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S64x64 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x64 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S10000x64 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1x64 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S1x64 .f32 := win3_6.stage (cfg3.slots t 6)
abbrev hs3_6 (t : Fin cfg3.N) : (ms3_6 t).IsWhole := hstage3_6 ((cfg3.slots t 6).cast nbuf3_6)
/-- The two scratch rows: whole scoped buffers of the kernel's own, passed beside the windows. -/
abbrev scM3_0 : Memref sig .tc .vmem S1x64 .f32 := Memref.whole cc3_scratch0
abbrev scM3_1 : Memref sig .tc .vmem S1x64 .f32 := Memref.whole cc3_scratch1

/-- The scoped rest with the two scratch rows as memrefs owned at some contents. -/
theorem scopedRest3_owns (c : Dev nD) :
    (Pipeline.scopedRest (Ix := Ix) (Name := ℕ) (U := U) (Lvl := Lvl) (Val := Elt F) spec3 c : sProp 𝕄)
      = iprop(iprop((∃ d, owns (c : Thread nD τ) scM3_0 fullShare d) ∗ (∃ d, owns (c : Thread nD τ) scM3_1 fullShare d))
          ∗ Pipeline.scopedRestBut (Ix := Ix) (Name := ℕ) (U := U) (Lvl := Lvl) (Val := Elt F) spec3 c [cc3_scratch0, cc3_scratch1]) := by
  rw [scopedRest3_split]; simp only [scM3_0, scM3_1, owns_whole]; try rfl

/-! ### The invariant -/

/-- The region invariant before position `n`: before the first point the scoped rest (the scratch rows at anything); afterwards
    the two scratch rows at the accumulation so far, beside the rest of the scoped rest. -/
def PhiS3 (c : Dev nD) : (n : ℕ) → n ≤ cfg3.N → sProp 𝕄
  | 0, _ => Pipeline.scopedRest (Ix := Ix) (Name := ℕ) (U := U) (Lvl := Lvl) (Val := Elt F) spec3 c
  | n + 1, hn => iprop(iprop(owns (c : Thread nD τ) scM3_0 fullShare (acc3 W c (n + 1) hn).1 ∗ owns (c : Thread nD τ) scM3_1 fullShare (acc3 W c (n + 1) hn).2)
      ∗ Pipeline.scopedRestBut (Ix := Ix) (Name := ℕ) (U := U) (Lvl := Lvl) (Val := Elt F) spec3 c [cc3_scratch0, cc3_scratch1])

/-! ### The proof data -/

/-- The proof data of region 3 on core `c`: the arrays as the region finds them; after the body at point `t` each input's buffer
    at its block, the big output's at the block's image, the two small outputs' at the accumulation through `t`; the invariant
    `PhiS3`; nothing owed; full shares. -/
def dat3 (c : Dev nD) : Dat τ (Elt F) Ix ℕ U Lvl cfg3 c where
  A w := VA3 W c (Pipeline.arrRef spec3 w)
  after w t := match w with
    | ⟨0, _⟩ => iblk3 W c 0 t
    | ⟨1, _⟩ => iblk3 W c 1 t
    | ⟨2, _⟩ => iblk3 W c 2 t
    | ⟨3, _⟩ => iblk3 W c 3 t
    | ⟨4, _⟩ => img3 W c t
    | ⟨5, _⟩ => (acc3 W c (t.val + 1) t.isLt).1
    | ⟨6, _⟩ => (acc3 W c (t.val + 1) t.isLt).2
  Φ t := PhiS3 W c t.val (Nat.le_of_lt_succ t.isLt)
  q _ := fullShare
  owed _ := 0

end Region3

section Region3_b

variable (W : Dev nD → Valuation τ sig (Elt F))

/-- The proof data's arrays are the entry contents. -/
theorem A3_eq (c : Dev nD) (w : Fin cfg3.W) : (dat3 (Ix := Ix) (U := U) (Lvl := Lvl) W c).A w = VA3 W c (Pipeline.arrRef spec3 w) := by
  dsimp only [dat3]

/-- What the body leaves, window by window. -/
theorem after3_0 (c : Dev nD) (t : Fin cfg3.N) : (dat3 (Ix := Ix) (U := U) (Lvl := Lvl) W c).after 0 t = iblk3 W c 0 t := by dsimp only [dat3]
theorem after3_1 (c : Dev nD) (t : Fin cfg3.N) : (dat3 (Ix := Ix) (U := U) (Lvl := Lvl) W c).after 1 t = iblk3 W c 1 t := by dsimp only [dat3]
theorem after3_2 (c : Dev nD) (t : Fin cfg3.N) : (dat3 (Ix := Ix) (U := U) (Lvl := Lvl) W c).after 2 t = iblk3 W c 2 t := by dsimp only [dat3]
theorem after3_3 (c : Dev nD) (t : Fin cfg3.N) : (dat3 (Ix := Ix) (U := U) (Lvl := Lvl) W c).after 3 t = iblk3 W c 3 t := by dsimp only [dat3]
theorem after3_4 (c : Dev nD) (t : Fin cfg3.N) : (dat3 (Ix := Ix) (U := U) (Lvl := Lvl) W c).after 4 t = img3 W c t := by dsimp only [dat3]
theorem after3_5 (c : Dev nD) (t : Fin cfg3.N) : (dat3 (Ix := Ix) (U := U) (Lvl := Lvl) W c).after 5 t = (acc3 W c (t.val + 1) t.isLt).1 := by dsimp only [dat3]
theorem after3_6 (c : Dev nD) (t : Fin cfg3.N) : (dat3 (Ix := Ix) (U := U) (Lvl := Lvl) W c).after 6 t = (acc3 W c (t.val + 1) t.isLt).2 := by dsimp only [dat3]

/-- Input window 0's current staging buffer holds its block at every point, fetched there or not. -/
theorem before3_0 (c : Dev nD) (t : Fin cfg3.N) (d) : (dat3 (Ix := Ix) (U := U) (Lvl := Lvl) W c).before 0 t d = iblk3 W c 0 t :=
  ((dat3 (Ix := Ix) (U := U) (Lvl := Lvl) W c).before_in_eq_fetched 0 rfl (fun _ => rfl) (fun _ _ _ => rfl)
      (fun t => by rw [after3_0]; unfold Dat.blockOf iblk3; rw [A3_eq]; try rfl) t d).trans
    (by unfold Dat.fetched Dat.blockOf iblk3; rw [A3_eq]; try rfl)
/-- Input window 1's current staging buffer holds its block at every point, fetched there or not. -/
theorem before3_1 (c : Dev nD) (t : Fin cfg3.N) (d) : (dat3 (Ix := Ix) (U := U) (Lvl := Lvl) W c).before 1 t d = iblk3 W c 1 t :=
  ((dat3 (Ix := Ix) (U := U) (Lvl := Lvl) W c).before_in_eq_fetched 1 rfl (fun _ => rfl) (fun _ _ _ => rfl)
      (fun t => by rw [after3_1]; unfold Dat.blockOf iblk3; rw [A3_eq]; try rfl) t d).trans
    (by unfold Dat.fetched Dat.blockOf iblk3; rw [A3_eq]; try rfl)
/-- Input window 2's current staging buffer holds its block at every point, fetched there or not. -/
theorem before3_2 (c : Dev nD) (t : Fin cfg3.N) (d) : (dat3 (Ix := Ix) (U := U) (Lvl := Lvl) W c).before 2 t d = iblk3 W c 2 t :=
  ((dat3 (Ix := Ix) (U := U) (Lvl := Lvl) W c).before_in_eq_fetched 2 rfl (fun _ => rfl) (fun _ _ _ => rfl)
      (fun t => by rw [after3_2]; unfold Dat.blockOf iblk3; rw [A3_eq]; try rfl) t d).trans
    (by unfold Dat.fetched Dat.blockOf iblk3; rw [A3_eq]; try rfl)
/-- Input window 3's current staging buffer holds its block at every point, fetched there or not. -/
theorem before3_3 (c : Dev nD) (t : Fin cfg3.N) (d) : (dat3 (Ix := Ix) (U := U) (Lvl := Lvl) W c).before 3 t d = iblk3 W c 3 t :=
  ((dat3 (Ix := Ix) (U := U) (Lvl := Lvl) W c).before_in_eq_fetched 3 rfl (fun _ => rfl) (fun _ _ _ => rfl)
      (fun t => by rw [after3_3]; unfold Dat.blockOf iblk3; rw [A3_eq]; try rfl) t d).trans
    (by unfold Dat.fetched Dat.blockOf iblk3; rw [A3_eq]; try rfl)

/-- The invariant at a point's start, restated at the point's number. -/
theorem Phi3_castSucc (c : Dev nD) (t : Fin cfg3.N) : (dat3 (Ix := Ix) (U := U) (Lvl := Lvl) W c).Φ t.castSucc = PhiS3 W c t.val (Nat.le_of_lt t.isLt) := by
  dsimp only [dat3]; simp only [Fin.coe_castSucc]

/-! ### The body obligation -/

/-- What the body is called with at point `t`, the windows one by one, -/
def bodyPre3 (ι : Ix) (c : Dev nD) (t : Fin cfg3.N) : sProp 𝕄 :=
  iprop((dat3 (Ix := Ix) (U := U) (Lvl := Lvl) W c).Φ t.castSucc ∗ (dat3 (Ix := Ix) (U := U) (Lvl := Lvl) W c).owesAt ι t.castSucc
    ∗ (∃ d, owns (c : Thread nD τ) (ms3_0 t) fullShare ((dat3 (Ix := Ix) (U := U) (Lvl := Lvl) W c).before 0 t d))
    ∗ (∃ d, owns (c : Thread nD τ) (ms3_1 t) fullShare ((dat3 (Ix := Ix) (U := U) (Lvl := Lvl) W c).before 1 t d))
    ∗ (∃ d, owns (c : Thread nD τ) (ms3_2 t) fullShare ((dat3 (Ix := Ix) (U := U) (Lvl := Lvl) W c).before 2 t d))
    ∗ (∃ d, owns (c : Thread nD τ) (ms3_3 t) fullShare ((dat3 (Ix := Ix) (U := U) (Lvl := Lvl) W c).before 3 t d))
    ∗ (∃ d, owns (c : Thread nD τ) (ms3_4 t) fullShare ((dat3 (Ix := Ix) (U := U) (Lvl := Lvl) W c).before 4 t d))
    ∗ (∃ d, owns (c : Thread nD τ) (ms3_5 t) fullShare ((dat3 (Ix := Ix) (U := U) (Lvl := Lvl) W c).before 5 t d))
    ∗ (∃ d, owns (c : Thread nD τ) (ms3_6 t) fullShare ((dat3 (Ix := Ix) (U := U) (Lvl := Lvl) W c).before 6 t d)))

/-- and what it returns. -/
def bodyPost3 (ι : Ix) (c : Dev nD) (t : Fin cfg3.N) : sProp 𝕄 :=
  iprop((dat3 (Ix := Ix) (U := U) (Lvl := Lvl) W c).Φ t.succ ∗ (dat3 (Ix := Ix) (U := U) (Lvl := Lvl) W c).owesAt ι t.succ
    ∗ (dat3 (Ix := Ix) (U := U) (Lvl := Lvl) W c).leavesExact 0 t
    ∗ (dat3 (Ix := Ix) (U := U) (Lvl := Lvl) W c).leavesExact 1 t
    ∗ (dat3 (Ix := Ix) (U := U) (Lvl := Lvl) W c).leavesExact 2 t
    ∗ (dat3 (Ix := Ix) (U := U) (Lvl := Lvl) W c).leavesExact 3 t
    ∗ (dat3 (Ix := Ix) (U := U) (Lvl := Lvl) W c).leavesExact 4 t
    ∗ (dat3 (Ix := Ix) (U := U) (Lvl := Lvl) W c).leavesExact 5 t
    ∗ (dat3 (Ix := Ix) (U := U) (Lvl := Lvl) W c).leavesExact 6 t)

set_option maxHeartbeats 4000000 in
/-- The body at any point: the inputs' memrefs hold their blocks; the point's number says which of the three cases it is in; the
    invariant hands the body the scratch rows at the accumulation so far (at anything at the first point) and takes them back
    one block further; at the last point the small output windows receive the rows. -/
theorem sound_body3 (𝒱₀ : Variants) (ι : Ix) (c : Dev nD) (t : Fin cfg3.N) :
    (bodyPre3 (U := U) (Lvl := Lvl) W ι c t : sProp 𝕄) ⊢ wp frame (wpE (defs₀ (F := F)) 𝒱₀ c none) Set.univ (bodyAt3 t) (fun _ => bodyPost3 (U := U) (Lvl := Lvl) W ι c t) := by
  obtain ⟨n, hn⟩ := t
  have hN : n < 10 := lt_of_lt_of_eq hn (show cfg3.N = 10 from N_3)
  unfold bodyPre3 bodyPost3 bodyAt3
  simp only [before3_0, before3_1, before3_2, before3_3]
  rw [show (dat3 (Ix := Ix) (U := U) (Lvl := Lvl) W c).owesAt ι (Fin.succ ⟨n, hn⟩) = (dat3 (Ix := Ix) (U := U) (Lvl := Lvl) W c).owesAt ι (Fin.castSucc ⟨n, hn⟩) from rfl]
  rw [show (dat3 (Ix := Ix) (U := U) (Lvl := Lvl) W c).Φ (Fin.succ ⟨n, hn⟩) = PhiS3 W c (n + 1) hn from rfl, Phi3_castSucc]
  rw [show (dat3 (Ix := Ix) (U := U) (Lvl := Lvl) W c).leavesExact 0 ⟨n, hn⟩ = owns (c : Thread nD τ) (ms3_0 ⟨n, hn⟩) fullShare ((dat3 (Ix := Ix) (U := U) (Lvl := Lvl) W c).after 0 ⟨n, hn⟩) from by
    unfold Dat.leavesExact; rw [live3_0 ⟨n, hn⟩], after3_0]
  rw [show (dat3 (Ix := Ix) (U := U) (Lvl := Lvl) W c).leavesExact 1 ⟨n, hn⟩ = owns (c : Thread nD τ) (ms3_1 ⟨n, hn⟩) fullShare ((dat3 (Ix := Ix) (U := U) (Lvl := Lvl) W c).after 1 ⟨n, hn⟩) from by
    unfold Dat.leavesExact; rw [live3_1 ⟨n, hn⟩], after3_1]
  rw [show (dat3 (Ix := Ix) (U := U) (Lvl := Lvl) W c).leavesExact 2 ⟨n, hn⟩ = owns (c : Thread nD τ) (ms3_2 ⟨n, hn⟩) fullShare ((dat3 (Ix := Ix) (U := U) (Lvl := Lvl) W c).after 2 ⟨n, hn⟩) from by
    unfold Dat.leavesExact; rw [live3_2 ⟨n, hn⟩], after3_2]
  rw [show (dat3 (Ix := Ix) (U := U) (Lvl := Lvl) W c).leavesExact 3 ⟨n, hn⟩ = owns (c : Thread nD τ) (ms3_3 ⟨n, hn⟩) fullShare ((dat3 (Ix := Ix) (U := U) (Lvl := Lvl) W c).after 3 ⟨n, hn⟩) from by
    unfold Dat.leavesExact; rw [live3_3 ⟨n, hn⟩], after3_3]
  rw [show (dat3 (Ix := Ix) (U := U) (Lvl := Lvl) W c).leavesExact 4 ⟨n, hn⟩ = owns (c : Thread nD τ) (ms3_4 ⟨n, hn⟩) fullShare ((dat3 (Ix := Ix) (U := U) (Lvl := Lvl) W c).after 4 ⟨n, hn⟩) from by
    unfold Dat.leavesExact; rw [live3_4 ⟨n, hn⟩], after3_4]
  rcases n with _ | n
  · -- the first point
    have hc1 : cond3_1 (grid3.coords ⟨0, hn⟩) := (hcond3_1 ⟨0, hn⟩).mpr rfl
    have hc2 : ¬cond3_2 (grid3.coords ⟨0, hn⟩) := fun h => (fun h => by (try dsimp only at h); omega) ((hcond3_2 ⟨0, hn⟩).mp h)
    rw [Dat.leavesExact_idle (dat3 (Ix := Ix) (U := U) (Lvl := Lvl) W c) 5 ⟨0, hn⟩ (idle3_5 _ hc2) (noFlush3_5 _ hc2), Dat.leavesExact_idle (dat3 (Ix := Ix) (U := U) (Lvl := Lvl) W c) 6 ⟨0, hn⟩ (idle3_6 _ hc2) (noFlush3_6 _ hc2)]
    rw [show PhiS3 W c (0 + 1) hn = iprop(iprop(owns (c : Thread nD τ) scM3_0 fullShare (acc3 W c (0 + 1) hn).1 ∗ owns (c : Thread nD τ) scM3_1 fullShare (acc3 W c (0 + 1) hn).2)
      ∗ Pipeline.scopedRestBut (Ix := Ix) (Name := ℕ) (U := U) (Lvl := Lvl) (Val := Elt F) spec3 c [cc3_scratch0, cc3_scratch1]) from rfl, acc3_succ, acc3_zero]
    rw [show PhiS3 (Ix := Ix) (U := U) (Lvl := Lvl) W c (Fin.val (⟨0, hn⟩ : Fin cfg3.N)) (Nat.le_of_lt hn) = Pipeline.scopedRest (Ix := Ix) (Name := ℕ) (U := U) (Lvl := Lvl) (Val := Elt F) spec3 c from rfl, scopedRest3_owns]
    iintro ⟨⟨⟨HS0, HS1⟩, Hrest⟩, Ho, ⟨%d0, H0⟩, ⟨%d1, H1⟩, ⟨%d2, H2⟩, ⟨%d3, H3⟩, ⟨%d4, H4⟩, H5, H6⟩
    iapply (body3_first 𝒱₀ c (grid3.coords ⟨0, hn⟩) _ _ _ _ _ _ _ _ _ _ _ _ _ _ _ _ _ _ hc1 hc2 (iblk3 W c 0 ⟨0, hn⟩) (iblk3 W c 1 ⟨0, hn⟩) (iblk3 W c 2 ⟨0, hn⟩) (iblk3 W c 3 ⟨0, hn⟩) Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, H4, HS0, HS1⟩
    isplitl [HS0 HS1 Hrest]
    · isplitr [Hrest]
      · isplitl [HS0]; · iexact HS0
        iexact HS1
      iexact Hrest
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [show PhiS3 W c (n + 1 + 1) hn = iprop(iprop(owns (c : Thread nD τ) scM3_0 fullShare (acc3 W c (n + 1 + 1) hn).1 ∗ owns (c : Thread nD τ) scM3_1 fullShare (acc3 W c (n + 1 + 1) hn).2)
      ∗ Pipeline.scopedRestBut (Ix := Ix) (Name := ℕ) (U := U) (Lvl := Lvl) (Val := Elt F) spec3 c [cc3_scratch0, cc3_scratch1]) from rfl, acc3_succ]
    rw [show PhiS3 (Ix := Ix) (U := U) (Lvl := Lvl) W c (Fin.val (⟨n + 1, hn⟩ : Fin cfg3.N)) (Nat.le_of_lt hn) = iprop(iprop(owns (c : Thread nD τ) scM3_0 fullShare (acc3 W c (n + 1) (Nat.le_of_lt hn)).1 ∗ owns (c : Thread nD τ) scM3_1 fullShare (acc3 W c (n + 1) (Nat.le_of_lt hn)).2)
      ∗ Pipeline.scopedRestBut (Ix := Ix) (Name := ℕ) (U := U) (Lvl := Lvl) (Val := Elt F) spec3 c [cc3_scratch0, cc3_scratch1]) from rfl]
    have hc1 : ¬cond3_1 (grid3.coords ⟨n + 1, hn⟩) := fun h => (fun h => by (try dsimp only at h); omega) ((hcond3_1 ⟨n + 1, hn⟩).mp h)
    by_cases h9 : n + 1 = 9
    · -- the last point
      have hc2 : cond3_2 (grid3.coords ⟨n + 1, hn⟩) := (hcond3_2 ⟨n + 1, hn⟩).mpr h9
      rw [show (dat3 (Ix := Ix) (U := U) (Lvl := Lvl) W c).leavesExact 5 ⟨n + 1, hn⟩ = owns (c : Thread nD τ) (ms3_5 ⟨n + 1, hn⟩) fullShare ((dat3 (Ix := Ix) (U := U) (Lvl := Lvl) W c).after 5 ⟨n + 1, hn⟩) from by
        unfold Dat.leavesExact; rw [live3_5 ⟨n + 1, hn⟩ hc2], after3_5]
      rw [show (dat3 (Ix := Ix) (U := U) (Lvl := Lvl) W c).leavesExact 6 ⟨n + 1, hn⟩ = owns (c : Thread nD τ) (ms3_6 ⟨n + 1, hn⟩) fullShare ((dat3 (Ix := Ix) (U := U) (Lvl := Lvl) W c).after 6 ⟨n + 1, hn⟩) from by
        unfold Dat.leavesExact; rw [live3_6 ⟨n + 1, hn⟩ hc2], after3_6]
      rw [acc3_succ W c (n + 1) hn]
      iintro ⟨⟨⟨HS0, HS1⟩, Hrest⟩, Ho, ⟨%d0, H0⟩, ⟨%d1, H1⟩, ⟨%d2, H2⟩, ⟨%d3, H3⟩, ⟨%d4, H4⟩, ⟨%d5, H5⟩, ⟨%d6, H6⟩⟩
      iapply (body3_last 𝒱₀ c (grid3.coords ⟨n + 1, hn⟩) _ _ _ _ _ _ _ _ _ _ _ _ _ _ _ _ _ _ hc1 hc2 (iblk3 W c 0 ⟨n + 1, hn⟩) (iblk3 W c 1 ⟨n + 1, hn⟩) (iblk3 W c 2 ⟨n + 1, hn⟩) (iblk3 W c 3 ⟨n + 1, hn⟩) _ _ Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 Hrest]
      · isplitr [Hrest]
        · isplitl [HS0]; · iexact HS0
          iexact HS1
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · -- a middle point
      have hc2 : ¬cond3_2 (grid3.coords ⟨n + 1, hn⟩) := fun h => h9 ((hcond3_2 ⟨n + 1, hn⟩).mp h)
      rw [Dat.leavesExact_idle (dat3 (Ix := Ix) (U := U) (Lvl := Lvl) W c) 5 ⟨n + 1, hn⟩ (idle3_5 _ hc2) (noFlush3_5 _ hc2), Dat.leavesExact_idle (dat3 (Ix := Ix) (U := U) (Lvl := Lvl) W c) 6 ⟨n + 1, hn⟩ (idle3_6 _ hc2) (noFlush3_6 _ hc2)]
      iintro ⟨⟨⟨HS0, HS1⟩, Hrest⟩, Ho, ⟨%d0, H0⟩, ⟨%d1, H1⟩, ⟨%d2, H2⟩, ⟨%d3, H3⟩, ⟨%d4, H4⟩, H5, H6⟩
      iapply (body3_mid 𝒱₀ c (grid3.coords ⟨n + 1, hn⟩) _ _ _ _ _ _ _ _ _ _ _ _ _ _ _ _ _ _ hc1 hc2 (iblk3 W c 0 ⟨n + 1, hn⟩) (iblk3 W c 1 ⟨n + 1, hn⟩) (iblk3 W c 2 ⟨n + 1, hn⟩) (iblk3 W c 3 ⟨n + 1, hn⟩) _ _ Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 Hrest]
      · isplitr [Hrest]
        · isplitl [HS0]; · iexact HS0
          iexact HS1
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation3 (𝒱₀ : Variants) (ι : Ix) (c : Dev nD) : BodyObligation (dat3 (Ix := Ix) (U := U) (Lvl := Lvl) W c) (defs₀ (F := F)) 𝒱₀ ι Set.univ := fun t => by
  rw [bigSep_W3, bigSep_W3]
  exact sound_body3 (U := U) (Lvl := Lvl) W 𝒱₀ ι c t

end Region3_b

end Cert.KernelIdeal.Pass

end
-- ==== Proof.Pass1Region.lean ====
import proofs.«152416_j10892037062711_1_alg».proof.Proof.Gen.KernelIdeal.Launch
import proofs.«152416_j10892037062711_1_alg».proof.Proof.Gen.KernelIdeal.Skeleton
import proofs.«152416_j10892037062711_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«152416_j10892037062711_1_alg».proof.Proof.Pass1Dat
import proofs.«152416_j10892037062711_1_alg».proof.Proof.Gen.KernelIdeal.Regions
import Idealize.ShloMosaic.Lib.Pipeline.Regions
import Idealize.ShloMosaic.Lib.Pipeline.RegionsLoop

set_option maxRecDepth 16384

noncomputable section

namespace Cert.KernelIdeal.Pass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)
open Cert.KernelIdeal.Gen

variable {F : FTy → Type} [FloatOps F]
variable {Ix : Type} [DecidableEq Ix] {U : Type} [URA U] {Lvl : Type} [Preorder Lvl]

local notation "𝕄" => MT nD τ sig Ix (Elt F) ℕ U Lvl

/-! ## The core's debt as a pipeline point's, for proof data that owes nothing -/

theorem owesAt_of_owes {cfg : Pipeline.Cfg sig Λ₀} {c : Dev nD} (dat : Dat τ (Elt F) Ix ℕ U Lvl cfg c) (ι : Ix) (t : Fin (cfg.N + 1))
    (h0 : dat.owed t = 0) (hr : dat.recorded t = Set.univ) :
    iprop(∃ Wd, owes (c : Thread nD τ) (0 : CellTallies nD τ sig Ix) Wd) ⊢ (dat.owesAt ι t : sProp 𝕄) := by
  unfold Pipeline.Dat.owesAt Pipeline.owesWithin Pipeline.Dat.bound; rw [h0, hr]
  iintro ⟨%Wd, HO⟩; iexists Wd; isplitr; · ipureintro; exact fun _ _ => Or.inl trivial
  iexact HO

theorem owes_of_owesAt {cfg : Pipeline.Cfg sig Λ₀} {c : Dev nD} (dat : Dat τ (Elt F) Ix ℕ U Lvl cfg c) (ι : Ix) (t : Fin (cfg.N + 1))
    (h0 : dat.owed t = 0) :
    (dat.owesAt ι t : sProp 𝕄) ⊢ iprop(∃ Wd, owes (c : Thread nD τ) (0 : CellTallies nD τ sig Ix) Wd) := by
  unfold Pipeline.Dat.owesAt Pipeline.owesWithin; rw [h0]
  iintro ⟨%Wd, -, HO⟩; iexists Wd; iexact HO

/-! ## Region 0 as a segment -/

section Region0_c

variable (W Wout : Dev nD → Valuation τ sig (Elt F))
variable (pdats : (p : Fin 6) → (c : Dev nD) → Dat τ (Elt F) Ix ℕ U Lvl (cfgs p) c)
variable (ι : Ix) (𝒱₀ : Variants) (L : GSem nD τ sig → Finset Ix) (lv : GSem nD τ sig → Ix → Lvl)

/-- After any point but the first the invariant holds the scratch rows at the accumulation. -/
theorem PhiS_pos0 (c : Dev nD) (n : ℕ) (h : n ≤ cfg0.N) (hz : n ≠ 0) :
    PhiS0 (Ix := Ix) (U := U) (Lvl := Lvl) W c n h
      = iprop(iprop(owns (c : Thread nD τ) scM0_0 fullShare (acc0 W c n h).1 ∗ owns (c : Thread nD τ) scM0_1 fullShare (acc0 W c n h).2)
        ∗ Pipeline.scopedRestBut (Ix := Ix) (Name := ℕ) (U := U) (Lvl := Lvl) (Val := Elt F) spec0 c [cc0_scratch0, cc0_scratch1]) := by
  cases n with
  | zero => exact absurd rfl hz
  | succ n => rfl

-- the library's entry and exit lemmas are stated over the family's configuration at the pipeline's index: unifying it with
-- the region's own takes unfolding plain definitions in a metavariable's type
set_option backward.isDefEq.respectTransparency.types false in
set_option maxHeartbeats 4000000 in
/-- REGION 0: entered from the unscoped buffers held at `W c` beside the rest state `Rst c` (the core owing nothing, and a rest `G c`), left with them held at `Wout c` — any valuation that
    has the region's arrays at their final contents and agrees with `W c` elsewhere — beside `Rst c`. The windows' arrays go into
    the pipeline; every other unscoped buffer and `G c` bypass the region; the invariant takes the scoped rest and gives it back. -/
def R0 (Rst G : Dev nD → sProp 𝕄)
    (hRin : ∀ c : Dev nD, Rst c ⊢ iprop((∃ Wd, owes (c : Thread nD τ) (0 : CellTallies nD τ sig Ix) Wd) ∗ G c))
    (hRout : ∀ c : Dev nD, iprop((∃ Wd, owes (c : Thread nD τ) (0 : CellTallies nD τ sig Ix) Wd) ∗ G c) ⊢ Rst c)
    (h0 : ∀ c, pdats 0 c = dat0 W c)
    (hWarr : ∀ c w, (dat0 (Ix := Ix) (U := U) (Lvl := Lvl) W c).arrAt w cfg0.N = VA0 Wout c (Pipeline.arrRef spec0 w))
    (hWrest : ∀ c b, b ∉ Finset.univ.image (Pipeline.arrRef spec0) → VA0 Wout c b = VA0 W c b) :
    RegionSeg (pcfgs (F := F)) adm pdats ι defs₀ 𝒱₀ L lv 0 where
  win := launch0.win.to₀
  block_pos := launch0.block_pos
  stage_whole := launch0.stage_whole
  K := PEmpty
  osem k := k.elim
  ho := Pipeline.OwnSemFacts.none _
  hbody c := by rw [h0 c]; exact (body_obligation0 W 𝒱₀ ι c).loose
  hwaits := Pipeline.hwaits_of_owed_zero _ _ _ _ L lv 0 fun c t => by rw [h0 c]; rfl
  pre c := iprop(StableHlo.held (c : Thread nD τ) (Pipeline.ucRefs τ sig) (W c) ∗ Rst c)
  post c := iprop(StableHlo.held (c : Thread nD τ) (Pipeline.ucRefs τ sig) (Wout c) ∗ Rst c)
  X _ := iprop(emp)
  Y _ := iprop(emp)
  Z c := iprop(Pipeline.unscopedRest (Ix := Ix) (Name := ℕ) (U := U) (Lvl := Lvl) spec0 c (VA0 W c) ∗ G c)
  hentry c := by
    rw [show StableHlo.held (c : Thread nD τ) (Pipeline.ucRefs τ sig) (W c) = unscopedBufs (Ix := Ix) (Name := ℕ) (U := U) (Lvl := Lvl) c (VA0 W c) from (Pipeline.unscopedBufs_held c (W c)).symm,
      Pipeline.ownSems0_none]
    have hsplit := Pipeline.arrays_of_unscopedBufs (p := 0) (pcfgs (F := F)) adm pdats launch0.win launch0.arr_whole c
      ((pdats 0 c).share_full fun w => by rw [h0 c]; rfl) (VA0 W c) (fun w => by rw [h0 c]; exact A0_eq W c w)
    have hr := hRin c
    iintro ⟨⟨Hub, HR⟩, -, -⟩
    ihave HR2 := hr $$ HR
    icases HR2 with ⟨HO, HG⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owesAt_of_owes (pdats 0 c) ι 0 (by rw [h0 c]; rfl) (by rw [h0 c]; rfl)); iexact HO
    isplitr; · iempintro
    isplitl [Hrest]; · iexact Hrest
    iexact HG
  hin c := by
    rw [h0 c, show (dat0 (Ix := Ix) (U := U) (Lvl := Lvl) W c).Φ 0 = Pipeline.scopedRest (Ix := Ix) (Name := ℕ) (U := U) (Lvl := Lvl) (Val := Elt F) spec0 c from rfl]
    iintro ⟨-, -, Hr⟩; iexact Hr
  hout c := by
    rw [h0 c, Pipeline.ownSems0_none]
    change PhiS0 (Ix := Ix) (U := U) (Lvl := Lvl) W c cfg0.N (Nat.le_refl _)
      ⊢ iprop(emp ∗ emp ∗ Pipeline.scopedRest (Ix := Ix) (Name := ℕ) (U := U) (Lvl := Lvl) (Val := Elt F) spec0 c)
    rw [PhiS_pos0 W c _ _ (by have : cfg0.N = 10 := N_0; omega), scopedRest0_owns]
    iintro ⟨⟨HS0, HS1⟩, Hrest⟩
    isplitr; · iempintro
    isplitr; · iempintro
    isplitr [Hrest]
    · isplitl [HS0]; · iexists _; iexact HS0
      iexists _; iexact HS1
    iexact Hrest
  hexit c := by
    have hjoin := Pipeline.unscopedBufs_of_arrays (pcfgs (F := F)) adm (p := 0) launch0.win launch0.arr_whole c pdats
      ((pdats 0 c).share_full fun w => by rw [h0 c]; rfl) (VA0 W c) (VA0 Wout c) (fun w => (pdats 0 c).arrAt w cfg0.N)
      (fun w => by rw [h0 c]; exact hWarr c w) (hWrest c)
    rw [show StableHlo.held (c : Thread nD τ) (Pipeline.ucRefs τ sig) (Wout c) = unscopedBufs (Ix := Ix) (Name := ℕ) (U := U) (Lvl := Lvl) c (VA0 Wout c) from (Pipeline.unscopedBufs_held c (Wout c)).symm]
    iintro ⟨Ha, HO, -, ⟨Hrest, HG⟩⟩
    imodintro
    isplitl [Ha Hrest]
    · iapply hjoin
      isplitl [Ha]; · iexact Ha
      iexact Hrest
    iapply (hRout c)
    isplitl [HO]; · iapply (owes_of_owesAt (pdats 0 c) ι _ (by rw [h0 c]; rfl)); iexact HO
    iexact HG

end Region0_c

/-! ## Region 3 as a segment -/

section Region3_c

variable (W Wout : Dev nD → Valuation τ sig (Elt F))
variable (pdats : (p : Fin 6) → (c : Dev nD) → Dat τ (Elt F) Ix ℕ U Lvl (cfgs p) c)
variable (ι : Ix) (𝒱₀ : Variants) (L : GSem nD τ sig → Finset Ix) (lv : GSem nD τ sig → Ix → Lvl)

/-- After any point but the first the invariant holds the scratch rows at the accumulation. -/
theorem PhiS_pos3 (c : Dev nD) (n : ℕ) (h : n ≤ cfg3.N) (hz : n ≠ 0) :
    PhiS3 (Ix := Ix) (U := U) (Lvl := Lvl) W c n h
      = iprop(iprop(owns (c : Thread nD τ) scM3_0 fullShare (acc3 W c n h).1 ∗ owns (c : Thread nD τ) scM3_1 fullShare (acc3 W c n h).2)
        ∗ Pipeline.scopedRestBut (Ix := Ix) (Name := ℕ) (U := U) (Lvl := Lvl) (Val := Elt F) spec3 c [cc3_scratch0, cc3_scratch1]) := by
  cases n with
  | zero => exact absurd rfl hz
  | succ n => rfl

-- the library's entry and exit lemmas are stated over the family's configuration at the pipeline's index: unifying it with
-- the region's own takes unfolding plain definitions in a metavariable's type
set_option backward.isDefEq.respectTransparency.types false in
set_option maxHeartbeats 4000000 in
/-- REGION 3: entered from the unscoped buffers held at `W c` beside the rest state `Rst c` (the core owing nothing, and a rest `G c`), left with them held at `Wout c` — any valuation that
    has the region's arrays at their final contents and agrees with `W c` elsewhere — beside `Rst c`. The windows' arrays go into
    the pipeline; every other unscoped buffer and `G c` bypass the region; the invariant takes the scoped rest and gives it back. -/
def R3 (Rst G : Dev nD → sProp 𝕄)
    (hRin : ∀ c : Dev nD, Rst c ⊢ iprop((∃ Wd, owes (c : Thread nD τ) (0 : CellTallies nD τ sig Ix) Wd) ∗ G c))
    (hRout : ∀ c : Dev nD, iprop((∃ Wd, owes (c : Thread nD τ) (0 : CellTallies nD τ sig Ix) Wd) ∗ G c) ⊢ Rst c)
    (h0 : ∀ c, pdats 3 c = dat3 W c)
    (hWarr : ∀ c w, (dat3 (Ix := Ix) (U := U) (Lvl := Lvl) W c).arrAt w cfg3.N = VA3 Wout c (Pipeline.arrRef spec3 w))
    (hWrest : ∀ c b, b ∉ Finset.univ.image (Pipeline.arrRef spec3) → VA3 Wout c b = VA3 W c b) :
    RegionSeg (pcfgs (F := F)) adm pdats ι defs₀ 𝒱₀ L lv 3 where
  win := launch3.win.to₀
  block_pos := launch3.block_pos
  stage_whole := launch3.stage_whole
  K := PEmpty
  osem k := k.elim
  ho := Pipeline.OwnSemFacts.none _
  hbody c := by rw [h0 c]; exact (body_obligation3 W 𝒱₀ ι c).loose
  hwaits := Pipeline.hwaits_of_owed_zero _ _ _ _ L lv 3 fun c t => by rw [h0 c]; rfl
  pre c := iprop(StableHlo.held (c : Thread nD τ) (Pipeline.ucRefs τ sig) (W c) ∗ Rst c)
  post c := iprop(StableHlo.held (c : Thread nD τ) (Pipeline.ucRefs τ sig) (Wout c) ∗ Rst c)
  X _ := iprop(emp)
  Y _ := iprop(emp)
  Z c := iprop(Pipeline.unscopedRest (Ix := Ix) (Name := ℕ) (U := U) (Lvl := Lvl) spec3 c (VA3 W c) ∗ G c)
  hentry c := by
    rw [show StableHlo.held (c : Thread nD τ) (Pipeline.ucRefs τ sig) (W c) = unscopedBufs (Ix := Ix) (Name := ℕ) (U := U) (Lvl := Lvl) c (VA3 W c) from (Pipeline.unscopedBufs_held c (W c)).symm,
      Pipeline.ownSems0_none]
    have hsplit := Pipeline.arrays_of_unscopedBufs (p := 3) (pcfgs (F := F)) adm pdats launch3.win launch3.arr_whole c
      ((pdats 3 c).share_full fun w => by rw [h0 c]; rfl) (VA3 W c) (fun w => by rw [h0 c]; exact A3_eq W c w)
    have hr := hRin c
    iintro ⟨⟨Hub, HR⟩, -, -⟩
    ihave HR2 := hr $$ HR
    icases HR2 with ⟨HO, HG⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owesAt_of_owes (pdats 3 c) ι 0 (by rw [h0 c]; rfl) (by rw [h0 c]; rfl)); iexact HO
    isplitr; · iempintro
    isplitl [Hrest]; · iexact Hrest
    iexact HG
  hin c := by
    rw [h0 c, show (dat3 (Ix := Ix) (U := U) (Lvl := Lvl) W c).Φ 0 = Pipeline.scopedRest (Ix := Ix) (Name := ℕ) (U := U) (Lvl := Lvl) (Val := Elt F) spec3 c from rfl]
    iintro ⟨-, -, Hr⟩; iexact Hr
  hout c := by
    rw [h0 c, Pipeline.ownSems0_none]
    change PhiS3 (Ix := Ix) (U := U) (Lvl := Lvl) W c cfg3.N (Nat.le_refl _)
      ⊢ iprop(emp ∗ emp ∗ Pipeline.scopedRest (Ix := Ix) (Name := ℕ) (U := U) (Lvl := Lvl) (Val := Elt F) spec3 c)
    rw [PhiS_pos3 W c _ _ (by have : cfg3.N = 10 := N_3; omega), scopedRest3_owns]
    iintro ⟨⟨HS0, HS1⟩, Hrest⟩
    isplitr; · iempintro
    isplitr; · iempintro
    isplitr [Hrest]
    · isplitl [HS0]; · iexists _; iexact HS0
      iexists _; iexact HS1
    iexact Hrest
  hexit c := by
    have hjoin := Pipeline.unscopedBufs_of_arrays (pcfgs (F := F)) adm (p := 3) launch3.win launch3.arr_whole c pdats
      ((pdats 3 c).share_full fun w => by rw [h0 c]; rfl) (VA3 W c) (VA3 Wout c) (fun w => (pdats 3 c).arrAt w cfg3.N)
      (fun w => by rw [h0 c]; exact hWarr c w) (hWrest c)
    rw [show StableHlo.held (c : Thread nD τ) (Pipeline.ucRefs τ sig) (Wout c) = unscopedBufs (Ix := Ix) (Name := ℕ) (U := U) (Lvl := Lvl) c (VA3 Wout c) from (Pipeline.unscopedBufs_held c (Wout c)).symm]
    iintro ⟨Ha, HO, -, ⟨Hrest, HG⟩⟩
    imodintro
    isplitl [Ha Hrest]
    · iapply hjoin
      isplitl [Ha]; · iexact Ha
      iexact Hrest
    iapply (hRout c)
    isplitl [HO]; · iapply (owes_of_owesAt (pdats 3 c) ι _ (by rw [h0 c]; rfl)); iexact HO
    iexact HG

end Region3_c

end Cert.KernelIdeal.Pass

end
-- ==== Proof.Pass2Body.lean ====
import proofs.«152416_j10892037062711_1_alg».proof.Proof.Gen.KernelIdeal.Launch
import proofs.«152416_j10892037062711_1_alg».proof.Proof.Gen.KernelIdeal.Skeleton
import proofs.«152416_j10892037062711_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«152416_j10892037062711_1_alg».proof.Proof.Pass1Body

set_option maxRecDepth 16384

noncomputable section

namespace Cert.KernelIdeal.Pass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]
variable {Ix : Type} [DecidableEq Ix] {U : Type} [URA U] {Lvl : Type} [Preorder Lvl]

local notation "𝕄" => MT nD τ sig Ix (Elt F) ℕ U Lvl

/-! ## Region 1: the body's two conditionals, and its triple in each of the three cases the grid meets -/

/-- The condition of the first conditional: the grid coordinate is 0. -/
abbrev cond1_1 (i : grid1.Coords) : Prop := (Scalar.cmpi .ne (Scalar.extui (Scalar.cmpi .eq (BitVec.ofNat 32 (i 0).val) 0#32)) 0#32) = 1#1
/-- The condition of the second conditional: the grid coordinate is 9. -/
abbrev cond1_2 (i : grid1.Coords) : Prop := k1_cond2 i = 1#1

set_option maxHeartbeats 1000000 in
/-- A MIDDLE point (neither conditional taken): with the inputs' staging memrefs at their contents and the two scratch rows at
    `s1`, `s2`, the body stores the block's image (normalise, rectify, multiply, add the bias) into the big output window and
    adds the image's column sums (of it, of its square) to the scratch rows; the two small output windows are not touched. -/
theorem body1_mid (𝒱₀ : Variants) (c : Dev nD) (i : grid1.Coords)
    (arg1 : Memref sig .tc .vmem S10000x64 .f32) (harg1 : arg1.IsWhole)
    (arg2 : Memref sig .tc .vmem S1x64 .f32) (harg2 : arg2.IsWhole)
    (arg3 : Memref sig .tc .vmem S1x64 .f32) (harg3 : arg3.IsWhole)
    (arg4 : Memref sig .tc .vmem S1x64 .f32) (harg4 : arg4.IsWhole)
    (arg5 : Memref sig .tc .vmem S1x64 .f32) (harg5 : arg5.IsWhole)
    (arg6 : Memref sig .tc .vmem S64x64 .f32) (harg6 : arg6.IsWhole)
    (arg7 : Memref sig .tc .vmem S1x64 .f32) (harg7 : arg7.IsWhole)
    (arg8 : Memref sig .tc .vmem S10000x64 .f32) (harg8 : arg8.IsWhole)
    (arg9 : Memref sig .tc .vmem S1x64 .f32) (harg9 : arg9.IsWhole)
    (arg10 : Memref sig .tc .vmem S1x64 .f32) (harg10 : arg10.IsWhole)
    (arg11 : Memref sig .tc .vmem S1x64 .f32) (harg11 : arg11.IsWhole)
    (arg12 : Memref sig .tc .vmem S1x64 .f32) (harg12 : arg12.IsWhole)
    (hc1 : ¬cond1_1 i) (hc2 : ¬cond1_2 i)
    (x1 : Vec F S10000x64 .f32) (x2 x3 x4 x5 : Vec F S1x64 .f32) (x6 : Vec F S64x64 .f32) (x7 : Vec F S1x64 .f32) (s1 s2 : Vec F S1x64 .f32)
    (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ owns (c : Thread nD τ) arg11 fullShare s1 ∗ owns (c : Thread nD τ) arg12 fullShare s2
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (k1_pay5 x1 x3 x4 x2 x5 x6 x7) ∗ owns (c : Thread nD τ) arg11 fullShare (k1_pay1 (k1_pay5 x1 x3 x4 x2 x5 x6 x7) s1) ∗ owns (c : Thread nD τ) arg12 fullShare (k1_pay2 (k1_pay5 x1 x3 x4 x2 x5 x6 x7) s2)) -∗ K ⟨⟩))
      ⊢ wp frame (wpE (defs₀ (F := F)) 𝒱₀ c none) E (cc1__pass2_kernel i arg1 harg1 arg2 harg2 arg3 harg3 arg4 harg4 arg5 harg5 arg6 harg6 arg7 harg7 arg8 harg8 arg9 harg9 arg10 harg10 arg11 harg11 arg12 harg12) K := by
  simp only [cc1__pass2_kernel_eq_skeleton]; unfold cc1__pass2_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f11, %hf11, H11⟩, ⟨%f12, %hf12, H12⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  obtain rfl := harg11.eq_unread hf11; obtain rfl := harg12.eq_unread hf12
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    sl_unfold_run_names
    rw [read_writes_unit_zero _ _ off00, readAt_unit_unread harg1 off00, readAt_unit_unread harg2 off00, readAt_unit_unread harg3 off00, readAt_unit_unread harg4 off00, readAt_unit_unread harg5 off00, readAt_unit_unread harg6 off00, readAt_unit_unread harg7 off00]
  isplitl [H11]
  · iexists _; isplitr
    swap; · iexact H11
    ipureintro
    sl_unfold_run_names
    rw [read_writes_unit_zero _ _ off00, readAt_unit_unread harg1 off00, readAt_unit_unread harg2 off00, readAt_unit_unread harg3 off00, readAt_unit_unread harg4 off00, readAt_unit_unread harg5 off00, readAt_unit_unread harg6 off00, readAt_unit_unread harg7 off00, readAt_unit_unread harg11 off00]
  · iexists _; isplitr
    swap; · iexact H12
    ipureintro
    sl_unfold_run_names
    rw [read_writes_unit_zero _ _ off00, readAt_unit_unread harg1 off00, readAt_unit_unread harg2 off00, readAt_unit_unread harg3 off00, readAt_unit_unread harg4 off00, readAt_unit_unread harg5 off00, readAt_unit_unread harg6 off00, readAt_unit_unread harg7 off00, readAt_unit_unread harg12 off00]

set_option maxHeartbeats 1000000 in
/-- The FIRST point (the first conditional taken, the second not): the scratch rows, found at anything, are zeroed and then
    take the image's column sums; otherwise as a middle point. -/
theorem body1_first (𝒱₀ : Variants) (c : Dev nD) (i : grid1.Coords)
    (arg1 : Memref sig .tc .vmem S10000x64 .f32) (harg1 : arg1.IsWhole)
    (arg2 : Memref sig .tc .vmem S1x64 .f32) (harg2 : arg2.IsWhole)
    (arg3 : Memref sig .tc .vmem S1x64 .f32) (harg3 : arg3.IsWhole)
    (arg4 : Memref sig .tc .vmem S1x64 .f32) (harg4 : arg4.IsWhole)
    (arg5 : Memref sig .tc .vmem S1x64 .f32) (harg5 : arg5.IsWhole)
    (arg6 : Memref sig .tc .vmem S64x64 .f32) (harg6 : arg6.IsWhole)
    (arg7 : Memref sig .tc .vmem S1x64 .f32) (harg7 : arg7.IsWhole)
    (arg8 : Memref sig .tc .vmem S10000x64 .f32) (harg8 : arg8.IsWhole)
    (arg9 : Memref sig .tc .vmem S1x64 .f32) (harg9 : arg9.IsWhole)
    (arg10 : Memref sig .tc .vmem S1x64 .f32) (harg10 : arg10.IsWhole)
    (arg11 : Memref sig .tc .vmem S1x64 .f32) (harg11 : arg11.IsWhole)
    (arg12 : Memref sig .tc .vmem S1x64 .f32) (harg12 : arg12.IsWhole)
    (hc1 : cond1_1 i) (hc2 : ¬cond1_2 i)
    (x1 : Vec F S10000x64 .f32) (x2 x3 x4 x5 : Vec F S1x64 .f32) (x6 : Vec F S64x64 .f32) (x7 : Vec F S1x64 .f32)
    (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg11 fullShare d) ∗ (∃ d, owns (c : Thread nD τ) arg12 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (k1_pay5 x1 x3 x4 x2 x5 x6 x7) ∗ owns (c : Thread nD τ) arg11 fullShare (k1_pay1 (k1_pay5 x1 x3 x4 x2 x5 x6 x7) k1_pay3) ∗ owns (c : Thread nD τ) arg12 fullShare (k1_pay2 (k1_pay5 x1 x3 x4 x2 x5 x6 x7) k1_pay4)) -∗ K ⟨⟩))
      ⊢ wp frame (wpE (defs₀ (F := F)) 𝒱₀ c none) E (cc1__pass2_kernel i arg1 harg1 arg2 harg2 arg3 harg3 arg4 harg4 arg5 harg5 arg6 harg6 arg7 harg7 arg8 harg8 arg9 harg9 arg10 harg10 arg11 harg11 arg12 harg12) K := by
  simp only [cc1__pass2_kernel_eq_skeleton]; unfold cc1__pass2_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d11, %f11, -, H11⟩, ⟨%d12, %f12, -, H12⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    sl_unfold_run_names
    rw [read_writes_unit_zero _ _ off00, readAt_unit_unread harg1 off00, readAt_unit_unread harg2 off00, readAt_unit_unread harg3 off00, readAt_unit_unread harg4 off00, readAt_unit_unread harg5 off00, readAt_unit_unread harg6 off00, readAt_unit_unread harg7 off00]
  isplitl [H11]
  · iexists _; isplitr
    swap; · iexact H11
    ipureintro
    sl_unfold_run_names
    rw [read_writes_unit_zero_cons _ _ off00, readAt_unit_unread harg1 off00, readAt_unit_unread harg2 off00, readAt_unit_unread harg3 off00, readAt_unit_unread harg4 off00, readAt_unit_unread harg5 off00, readAt_unit_unread harg6 off00, readAt_unit_unread harg7 off00, View.readCov_cons_toLoadRect]
  · iexists _; isplitr
    swap; · iexact H12
    ipureintro
    sl_unfold_run_names
    rw [read_writes_unit_zero_cons _ _ off00, readAt_unit_unread harg1 off00, readAt_unit_unread harg2 off00, readAt_unit_unread harg3 off00, readAt_unit_unread harg4 off00, readAt_unit_unread harg5 off00, readAt_unit_unread harg6 off00, readAt_unit_unread harg7 off00, View.readCov_cons_toLoadRect]

set_option maxHeartbeats 1000000 in
/-- The LAST point (the first conditional not taken, the second taken): as a middle point, and then the two scratch rows —
    now holding the sums over every block — are copied into the two small output windows. -/
theorem body1_last (𝒱₀ : Variants) (c : Dev nD) (i : grid1.Coords)
    (arg1 : Memref sig .tc .vmem S10000x64 .f32) (harg1 : arg1.IsWhole)
    (arg2 : Memref sig .tc .vmem S1x64 .f32) (harg2 : arg2.IsWhole)
    (arg3 : Memref sig .tc .vmem S1x64 .f32) (harg3 : arg3.IsWhole)
    (arg4 : Memref sig .tc .vmem S1x64 .f32) (harg4 : arg4.IsWhole)
    (arg5 : Memref sig .tc .vmem S1x64 .f32) (harg5 : arg5.IsWhole)
    (arg6 : Memref sig .tc .vmem S64x64 .f32) (harg6 : arg6.IsWhole)
    (arg7 : Memref sig .tc .vmem S1x64 .f32) (harg7 : arg7.IsWhole)
    (arg8 : Memref sig .tc .vmem S10000x64 .f32) (harg8 : arg8.IsWhole)
    (arg9 : Memref sig .tc .vmem S1x64 .f32) (harg9 : arg9.IsWhole)
    (arg10 : Memref sig .tc .vmem S1x64 .f32) (harg10 : arg10.IsWhole)
    (arg11 : Memref sig .tc .vmem S1x64 .f32) (harg11 : arg11.IsWhole)
    (arg12 : Memref sig .tc .vmem S1x64 .f32) (harg12 : arg12.IsWhole)
    (hc1 : ¬cond1_1 i) (hc2 : cond1_2 i)
    (x1 : Vec F S10000x64 .f32) (x2 x3 x4 x5 : Vec F S1x64 .f32) (x6 : Vec F S64x64 .f32) (x7 : Vec F S1x64 .f32) (s1 s2 : Vec F S1x64 .f32)
    (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d)
        ∗ owns (c : Thread nD τ) arg11 fullShare s1 ∗ owns (c : Thread nD τ) arg12 fullShare s2
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (k1_pay5 x1 x3 x4 x2 x5 x6 x7) ∗ owns (c : Thread nD τ) arg9 fullShare (k1_pay1 (k1_pay5 x1 x3 x4 x2 x5 x6 x7) s1) ∗ owns (c : Thread nD τ) arg10 fullShare (k1_pay2 (k1_pay5 x1 x3 x4 x2 x5 x6 x7) s2)
            ∗ owns (c : Thread nD τ) arg11 fullShare (k1_pay1 (k1_pay5 x1 x3 x4 x2 x5 x6 x7) s1) ∗ owns (c : Thread nD τ) arg12 fullShare (k1_pay2 (k1_pay5 x1 x3 x4 x2 x5 x6 x7) s2)) -∗ K ⟨⟩))
      ⊢ wp frame (wpE (defs₀ (F := F)) 𝒱₀ c none) E (cc1__pass2_kernel i arg1 harg1 arg2 harg2 arg3 harg3 arg4 harg4 arg5 harg5 arg6 harg6 arg7 harg7 arg8 harg8 arg9 harg9 arg10 harg10 arg11 harg11 arg12 harg12) K := by
  simp only [cc1__pass2_kernel_eq_skeleton]; unfold cc1__pass2_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, ⟨%f12, %hf12, H12⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  obtain rfl := harg11.eq_unread hf11; obtain rfl := harg12.eq_unread hf12
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    sl_unfold_run_names
    rw [read_writes_unit_zero _ _ off00, readAt_unit_unread harg1 off00, readAt_unit_unread harg2 off00, readAt_unit_unread harg3 off00, readAt_unit_unread harg4 off00, readAt_unit_unread harg5 off00, readAt_unit_unread harg6 off00, readAt_unit_unread harg7 off00]
  isplitl [H9]
  · iexists _; isplitr
    swap; · iexact H9
    ipureintro
    sl_unfold_run_names
    rw [read_writes_unit_zero _ _ off00, View.readCov_cons_toLoadRect, readAt_unit_unread harg1 off00, readAt_unit_unread harg2 off00, readAt_unit_unread harg3 off00, readAt_unit_unread harg4 off00, readAt_unit_unread harg5 off00, readAt_unit_unread harg6 off00, readAt_unit_unread harg7 off00, readAt_unit_unread harg11 off00]
  isplitl [H10]
  · iexists _; isplitr
    swap; · iexact H10
    ipureintro
    sl_unfold_run_names
    rw [read_writes_unit_zero _ _ off00, View.readCov_cons_toLoadRect, readAt_unit_unread harg1 off00, readAt_unit_unread harg2 off00, readAt_unit_unread harg3 off00, readAt_unit_unread harg4 off00, readAt_unit_unread harg5 off00, readAt_unit_unread harg6 off00, readAt_unit_unread harg7 off00, readAt_unit_unread harg12 off00]
  isplitl [H11]
  · iexists _; isplitr
    swap; · iexact H11
    ipureintro
    sl_unfold_run_names
    rw [read_writes_unit_zero _ _ off00, readAt_unit_unread harg1 off00, readAt_unit_unread harg2 off00, readAt_unit_unread harg3 off00, readAt_unit_unread harg4 off00, readAt_unit_unread harg5 off00, readAt_unit_unread harg6 off00, readAt_unit_unread harg7 off00, readAt_unit_unread harg11 off00]
  · iexists _; isplitr
    swap; · iexact H12
    ipureintro
    sl_unfold_run_names
    rw [read_writes_unit_zero _ _ off00, readAt_unit_unread harg1 off00, readAt_unit_unread harg2 off00, readAt_unit_unread harg3 off00, readAt_unit_unread harg4 off00, readAt_unit_unread harg5 off00, readAt_unit_unread harg6 off00, readAt_unit_unread harg7 off00, readAt_unit_unread harg12 off00]

/-! ## Region 4: the body's two conditionals, and its triple in each of the three cases the grid meets -/

/-- The condition of the first conditional: the grid coordinate is 0. -/
abbrev cond4_1 (i : grid4.Coords) : Prop := (Scalar.cmpi .ne (Scalar.extui (Scalar.cmpi .eq (BitVec.ofNat 32 (i 0).val) 0#32)) 0#32) = 1#1
/-- The condition of the second conditional: the grid coordinate is 9. -/
abbrev cond4_2 (i : grid4.Coords) : Prop := k4_cond2 i = 1#1

set_option maxHeartbeats 1000000 in
/-- A MIDDLE point (neither conditional taken): with the inputs' staging memrefs at their contents and the two scratch rows at
    `s1`, `s2`, the body stores the block's image (normalise, rectify, multiply, add the bias) into the big output window and
    adds the image's column sums (of it, of its square) to the scratch rows; the two small output windows are not touched. -/
theorem body4_mid (𝒱₀ : Variants) (c : Dev nD) (i : grid4.Coords)
    (arg1 : Memref sig .tc .vmem S10000x64 .f32) (harg1 : arg1.IsWhole)
    (arg2 : Memref sig .tc .vmem S1x64 .f32) (harg2 : arg2.IsWhole)
    (arg3 : Memref sig .tc .vmem S1x64 .f32) (harg3 : arg3.IsWhole)
    (arg4 : Memref sig .tc .vmem S1x64 .f32) (harg4 : arg4.IsWhole)
    (arg5 : Memref sig .tc .vmem S1x64 .f32) (harg5 : arg5.IsWhole)
    (arg6 : Memref sig .tc .vmem S64x64 .f32) (harg6 : arg6.IsWhole)
    (arg7 : Memref sig .tc .vmem S1x64 .f32) (harg7 : arg7.IsWhole)
    (arg8 : Memref sig .tc .vmem S10000x64 .f32) (harg8 : arg8.IsWhole)
    (arg9 : Memref sig .tc .vmem S1x64 .f32) (harg9 : arg9.IsWhole)
    (arg10 : Memref sig .tc .vmem S1x64 .f32) (harg10 : arg10.IsWhole)
    (arg11 : Memref sig .tc .vmem S1x64 .f32) (harg11 : arg11.IsWhole)
    (arg12 : Memref sig .tc .vmem S1x64 .f32) (harg12 : arg12.IsWhole)
    (hc1 : ¬cond4_1 i) (hc2 : ¬cond4_2 i)
    (x1 : Vec F S10000x64 .f32) (x2 x3 x4 x5 : Vec F S1x64 .f32) (x6 : Vec F S64x64 .f32) (x7 : Vec F S1x64 .f32) (s1 s2 : Vec F S1x64 .f32)
    (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ owns (c : Thread nD τ) arg11 fullShare s1 ∗ owns (c : Thread nD τ) arg12 fullShare s2
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (k4_pay5 x1 x3 x4 x2 x5 x6 x7) ∗ owns (c : Thread nD τ) arg11 fullShare (k4_pay1 (k4_pay5 x1 x3 x4 x2 x5 x6 x7) s1) ∗ owns (c : Thread nD τ) arg12 fullShare (k4_pay2 (k4_pay5 x1 x3 x4 x2 x5 x6 x7) s2)) -∗ K ⟨⟩))
      ⊢ wp frame (wpE (defs₀ (F := F)) 𝒱₀ c none) E (cc4__pass2_kernel i arg1 harg1 arg2 harg2 arg3 harg3 arg4 harg4 arg5 harg5 arg6 harg6 arg7 harg7 arg8 harg8 arg9 harg9 arg10 harg10 arg11 harg11 arg12 harg12) K := by
  simp only [cc4__pass2_kernel_eq_skeleton]; unfold cc4__pass2_kernel_skel
  simp only [k4_part1_eq_skeleton]; unfold k4_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f11, %hf11, H11⟩, ⟨%f12, %hf12, H12⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  obtain rfl := harg11.eq_unread hf11; obtain rfl := harg12.eq_unread hf12
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    sl_unfold_run_names
    rw [read_writes_unit_zero _ _ off00, readAt_unit_unread harg1 off00, readAt_unit_unread harg2 off00, readAt_unit_unread harg3 off00, readAt_unit_unread harg4 off00, readAt_unit_unread harg5 off00, readAt_unit_unread harg6 off00, readAt_unit_unread harg7 off00]
  isplitl [H11]
  · iexists _; isplitr
    swap; · iexact H11
    ipureintro
    sl_unfold_run_names
    rw [read_writes_unit_zero _ _ off00, readAt_unit_unread harg1 off00, readAt_unit_unread harg2 off00, readAt_unit_unread harg3 off00, readAt_unit_unread harg4 off00, readAt_unit_unread harg5 off00, readAt_unit_unread harg6 off00, readAt_unit_unread harg7 off00, readAt_unit_unread harg11 off00]
  · iexists _; isplitr
    swap; · iexact H12
    ipureintro
    sl_unfold_run_names
    rw [read_writes_unit_zero _ _ off00, readAt_unit_unread harg1 off00, readAt_unit_unread harg2 off00, readAt_unit_unread harg3 off00, readAt_unit_unread harg4 off00, readAt_unit_unread harg5 off00, readAt_unit_unread harg6 off00, readAt_unit_unread harg7 off00, readAt_unit_unread harg12 off00]

set_option maxHeartbeats 1000000 in
/-- The FIRST point (the first conditional taken, the second not): the scratch rows, found at anything, are zeroed and then
    take the image's column sums; otherwise as a middle point. -/
theorem body4_first (𝒱₀ : Variants) (c : Dev nD) (i : grid4.Coords)
    (arg1 : Memref sig .tc .vmem S10000x64 .f32) (harg1 : arg1.IsWhole)
    (arg2 : Memref sig .tc .vmem S1x64 .f32) (harg2 : arg2.IsWhole)
    (arg3 : Memref sig .tc .vmem S1x64 .f32) (harg3 : arg3.IsWhole)
    (arg4 : Memref sig .tc .vmem S1x64 .f32) (harg4 : arg4.IsWhole)
    (arg5 : Memref sig .tc .vmem S1x64 .f32) (harg5 : arg5.IsWhole)
    (arg6 : Memref sig .tc .vmem S64x64 .f32) (harg6 : arg6.IsWhole)
    (arg7 : Memref sig .tc .vmem S1x64 .f32) (harg7 : arg7.IsWhole)
    (arg8 : Memref sig .tc .vmem S10000x64 .f32) (harg8 : arg8.IsWhole)
    (arg9 : Memref sig .tc .vmem S1x64 .f32) (harg9 : arg9.IsWhole)
    (arg10 : Memref sig .tc .vmem S1x64 .f32) (harg10 : arg10.IsWhole)
    (arg11 : Memref sig .tc .vmem S1x64 .f32) (harg11 : arg11.IsWhole)
    (arg12 : Memref sig .tc .vmem S1x64 .f32) (harg12 : arg12.IsWhole)
    (hc1 : cond4_1 i) (hc2 : ¬cond4_2 i)
    (x1 : Vec F S10000x64 .f32) (x2 x3 x4 x5 : Vec F S1x64 .f32) (x6 : Vec F S64x64 .f32) (x7 : Vec F S1x64 .f32)
    (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg11 fullShare d) ∗ (∃ d, owns (c : Thread nD τ) arg12 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (k4_pay5 x1 x3 x4 x2 x5 x6 x7) ∗ owns (c : Thread nD τ) arg11 fullShare (k4_pay1 (k4_pay5 x1 x3 x4 x2 x5 x6 x7) k4_pay3) ∗ owns (c : Thread nD τ) arg12 fullShare (k4_pay2 (k4_pay5 x1 x3 x4 x2 x5 x6 x7) k4_pay4)) -∗ K ⟨⟩))
      ⊢ wp frame (wpE (defs₀ (F := F)) 𝒱₀ c none) E (cc4__pass2_kernel i arg1 harg1 arg2 harg2 arg3 harg3 arg4 harg4 arg5 harg5 arg6 harg6 arg7 harg7 arg8 harg8 arg9 harg9 arg10 harg10 arg11 harg11 arg12 harg12) K := by
  simp only [cc4__pass2_kernel_eq_skeleton]; unfold cc4__pass2_kernel_skel
  simp only [k4_part1_eq_skeleton]; unfold k4_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d11, %f11, -, H11⟩, ⟨%d12, %f12, -, H12⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    sl_unfold_run_names
    rw [read_writes_unit_zero _ _ off00, readAt_unit_unread harg1 off00, readAt_unit_unread harg2 off00, readAt_unit_unread harg3 off00, readAt_unit_unread harg4 off00, readAt_unit_unread harg5 off00, readAt_unit_unread harg6 off00, readAt_unit_unread harg7 off00]
  isplitl [H11]
  · iexists _; isplitr
    swap; · iexact H11
    ipureintro
    sl_unfold_run_names
    rw [read_writes_unit_zero_cons _ _ off00, readAt_unit_unread harg1 off00, readAt_unit_unread harg2 off00, readAt_unit_unread harg3 off00, readAt_unit_unread harg4 off00, readAt_unit_unread harg5 off00, readAt_unit_unread harg6 off00, readAt_unit_unread harg7 off00, View.readCov_cons_toLoadRect]
  · iexists _; isplitr
    swap; · iexact H12
    ipureintro
    sl_unfold_run_names
    rw [read_writes_unit_zero_cons _ _ off00, readAt_unit_unread harg1 off00, readAt_unit_unread harg2 off00, readAt_unit_unread harg3 off00, readAt_unit_unread harg4 off00, readAt_unit_unread harg5 off00, readAt_unit_unread harg6 off00, readAt_unit_unread harg7 off00, View.readCov_cons_toLoadRect]

set_option maxHeartbeats 1000000 in
/-- The LAST point (the first conditional not taken, the second taken): as a middle point, and then the two scratch rows —
    now holding the sums over every block — are copied into the two small output windows. -/
theorem body4_last (𝒱₀ : Variants) (c : Dev nD) (i : grid4.Coords)
    (arg1 : Memref sig .tc .vmem S10000x64 .f32) (harg1 : arg1.IsWhole)
    (arg2 : Memref sig .tc .vmem S1x64 .f32) (harg2 : arg2.IsWhole)
    (arg3 : Memref sig .tc .vmem S1x64 .f32) (harg3 : arg3.IsWhole)
    (arg4 : Memref sig .tc .vmem S1x64 .f32) (harg4 : arg4.IsWhole)
    (arg5 : Memref sig .tc .vmem S1x64 .f32) (harg5 : arg5.IsWhole)
    (arg6 : Memref sig .tc .vmem S64x64 .f32) (harg6 : arg6.IsWhole)
    (arg7 : Memref sig .tc .vmem S1x64 .f32) (harg7 : arg7.IsWhole)
    (arg8 : Memref sig .tc .vmem S10000x64 .f32) (harg8 : arg8.IsWhole)
    (arg9 : Memref sig .tc .vmem S1x64 .f32) (harg9 : arg9.IsWhole)
    (arg10 : Memref sig .tc .vmem S1x64 .f32) (harg10 : arg10.IsWhole)
    (arg11 : Memref sig .tc .vmem S1x64 .f32) (harg11 : arg11.IsWhole)
    (arg12 : Memref sig .tc .vmem S1x64 .f32) (harg12 : arg12.IsWhole)
    (hc1 : ¬cond4_1 i) (hc2 : cond4_2 i)
    (x1 : Vec F S10000x64 .f32) (x2 x3 x4 x5 : Vec F S1x64 .f32) (x6 : Vec F S64x64 .f32) (x7 : Vec F S1x64 .f32) (s1 s2 : Vec F S1x64 .f32)
    (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d)
        ∗ owns (c : Thread nD τ) arg11 fullShare s1 ∗ owns (c : Thread nD τ) arg12 fullShare s2
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (k4_pay5 x1 x3 x4 x2 x5 x6 x7) ∗ owns (c : Thread nD τ) arg9 fullShare (k4_pay1 (k4_pay5 x1 x3 x4 x2 x5 x6 x7) s1) ∗ owns (c : Thread nD τ) arg10 fullShare (k4_pay2 (k4_pay5 x1 x3 x4 x2 x5 x6 x7) s2)
            ∗ owns (c : Thread nD τ) arg11 fullShare (k4_pay1 (k4_pay5 x1 x3 x4 x2 x5 x6 x7) s1) ∗ owns (c : Thread nD τ) arg12 fullShare (k4_pay2 (k4_pay5 x1 x3 x4 x2 x5 x6 x7) s2)) -∗ K ⟨⟩))
      ⊢ wp frame (wpE (defs₀ (F := F)) 𝒱₀ c none) E (cc4__pass2_kernel i arg1 harg1 arg2 harg2 arg3 harg3 arg4 harg4 arg5 harg5 arg6 harg6 arg7 harg7 arg8 harg8 arg9 harg9 arg10 harg10 arg11 harg11 arg12 harg12) K := by
  simp only [cc4__pass2_kernel_eq_skeleton]; unfold cc4__pass2_kernel_skel
  simp only [k4_part1_eq_skeleton]; unfold k4_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, ⟨%f12, %hf12, H12⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  obtain rfl := harg11.eq_unread hf11; obtain rfl := harg12.eq_unread hf12
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    sl_unfold_run_names
    rw [read_writes_unit_zero _ _ off00, readAt_unit_unread harg1 off00, readAt_unit_unread harg2 off00, readAt_unit_unread harg3 off00, readAt_unit_unread harg4 off00, readAt_unit_unread harg5 off00, readAt_unit_unread harg6 off00, readAt_unit_unread harg7 off00]
  isplitl [H9]
  · iexists _; isplitr
    swap; · iexact H9
    ipureintro
    sl_unfold_run_names
    rw [read_writes_unit_zero _ _ off00, View.readCov_cons_toLoadRect, readAt_unit_unread harg1 off00, readAt_unit_unread harg2 off00, readAt_unit_unread harg3 off00, readAt_unit_unread harg4 off00, readAt_unit_unread harg5 off00, readAt_unit_unread harg6 off00, readAt_unit_unread harg7 off00, readAt_unit_unread harg11 off00]
  isplitl [H10]
  · iexists _; isplitr
    swap; · iexact H10
    ipureintro
    sl_unfold_run_names
    rw [read_writes_unit_zero _ _ off00, View.readCov_cons_toLoadRect, readAt_unit_unread harg1 off00, readAt_unit_unread harg2 off00, readAt_unit_unread harg3 off00, readAt_unit_unread harg4 off00, readAt_unit_unread harg5 off00, readAt_unit_unread harg6 off00, readAt_unit_unread harg7 off00, readAt_unit_unread harg12 off00]
  isplitl [H11]
  · iexists _; isplitr
    swap; · iexact H11
    ipureintro
    sl_unfold_run_names
    rw [read_writes_unit_zero _ _ off00, readAt_unit_unread harg1 off00, readAt_unit_unread harg2 off00, readAt_unit_unread harg3 off00, readAt_unit_unread harg4 off00, readAt_unit_unread harg5 off00, readAt_unit_unread harg6 off00, readAt_unit_unread harg7 off00, readAt_unit_unread harg11 off00]
  · iexists _; isplitr
    swap; · iexact H12
    ipureintro
    sl_unfold_run_names
    rw [read_writes_unit_zero _ _ off00, readAt_unit_unread harg1 off00, readAt_unit_unread harg2 off00, readAt_unit_unread harg3 off00, readAt_unit_unread harg4 off00, readAt_unit_unread harg5 off00, readAt_unit_unread harg6 off00, readAt_unit_unread harg7 off00, readAt_unit_unread harg12 off00]

end Cert.KernelIdeal.Pass

end
-- ==== Proof.Pass2Dat.lean ====
import proofs.«152416_j10892037062711_1_alg».proof.Proof.Gen.KernelIdeal.Launch
import proofs.«152416_j10892037062711_1_alg».proof.Proof.Gen.KernelIdeal.Skeleton
import proofs.«152416_j10892037062711_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«152416_j10892037062711_1_alg».proof.Proof.Pass2Body

set_option maxRecDepth 16384

noncomputable section

namespace Cert.KernelIdeal.Pass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]
variable {Ix : Type} [DecidableEq Ix] {U : Type} [URA U] {Lvl : Type} [Preorder Lvl]

local notation "𝕄" => MT nD τ sig Ix (Elt F) ℕ U Lvl

/-! ## Region 1: the proof data over an arbitrary entry valuation -/

section Region1

variable (W : Dev nD → Valuation τ sig (Elt F))

/-- The entry valuation read at a TensorCore reference of core `c`. -/
abbrev VA1 (c : Dev nD) (b : Ref sig .tc) : Buf (Elt F) ((c : Thread nD τ).loc b) := W c (Proc.devRef .tc b)

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (VA1 W c (Pipeline.arrRef spec1 w))

/-- The image of block `t` (normalised by the statistics rows, rectified, multiplied by the weights, the bias added): what the
    body stores into the big output window there. -/
def img1 (c : Dev nD) (t : Fin cfg1.N) : Vec F S10000x64 .f32 :=
  (k1_pay5 (iblk1 W c 0 t) (iblk1 W c 2 t) (iblk1 W c 3 t) (iblk1 W c 1 t) (iblk1 W c 4 t) (iblk1 W c 5 t) (iblk1 W c 6 t))

/-- THE ACCUMULATION. The two scratch rows before point `n`: zero rows before the first point; after point `n` the rows
    before it plus the column sums of block `n`'s image and of its square. -/
def acc1 (c : Dev nD) : (n : ℕ) → n ≤ cfg1.N → Vec F S1x64 .f32 × Vec F S1x64 .f32
  | 0, _ => (k1_pay3, k1_pay4)
  | n + 1, hn =>
    (k1_pay1 (img1 W c ⟨n, Nat.lt_of_succ_le hn⟩) (acc1 c n (Nat.le_of_succ_le hn)).1,
     k1_pay2 (img1 W c ⟨n, Nat.lt_of_succ_le hn⟩) (acc1 c n (Nat.le_of_succ_le hn)).2)

theorem acc1_zero (c : Dev nD) (h : 0 ≤ cfg1.N) : acc1 W c 0 h = (k1_pay3, k1_pay4) := rfl

theorem acc1_succ (c : Dev nD) (n : ℕ) (hn : n + 1 ≤ cfg1.N) :
    acc1 W c (n + 1) hn =
      (k1_pay1 (img1 W c ⟨n, Nat.lt_of_succ_le hn⟩) (acc1 W c n (Nat.le_of_succ_le hn)).1,
       k1_pay2 (img1 W c ⟨n, Nat.lt_of_succ_le hn⟩) (acc1 W c n (Nat.le_of_succ_le hn)).2) := rfl

/-! ### The conditions over the grid, and where the small output windows are idle -/

/-- The first conditional is taken at the first point only. -/
theorem hcond1_1 : ∀ t : Fin cfg1.N, cond1_1 (grid1.coords t) ↔ t.val = 0 :=
  (by decide +kernel : ∀ t : Fin grid1.N, cond1_1 (grid1.coords t) ↔ t.val = 0)
/-- The second conditional is taken at the last point only. -/
theorem hcond1_2 : ∀ t : Fin cfg1.N, cond1_2 (grid1.coords t) ↔ t.val = 9 :=
  (by decide +kernel : ∀ t : Fin grid1.N, cond1_2 (grid1.coords t) ↔ t.val = 9)

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
theorem live1_4 : ∀ t : Fin cfg1.N, cfg1.idle 4 (grid1.coords t) = false := by decide +kernel
theorem live1_5 : ∀ t : Fin cfg1.N, cfg1.idle 5 (grid1.coords t) = false := by decide +kernel
theorem live1_6 : ∀ t : Fin cfg1.N, cfg1.idle 6 (grid1.coords t) = false := by decide +kernel
theorem live1_7 : ∀ t : Fin cfg1.N, cfg1.idle 7 (grid1.coords t) = false := by decide +kernel
/-- Away from the last point the two small output windows are idle and not written back. -/
theorem idle1_8 : ∀ t : Fin cfg1.N, ¬cond1_2 (grid1.coords t) → cfg1.idle 8 (grid1.coords t) = true := by decide +kernel
theorem idle1_9 : ∀ t : Fin cfg1.N, ¬cond1_2 (grid1.coords t) → cfg1.idle 9 (grid1.coords t) = true := by decide +kernel
theorem noFlush1_8 : ∀ t : Fin cfg1.N, ¬cond1_2 (grid1.coords t) → (cfg1.win 8).flush t = false := by decide +kernel
theorem noFlush1_9 : ∀ t : Fin cfg1.N, ¬cond1_2 (grid1.coords t) → (cfg1.win 9).flush t = false := by decide +kernel
/-- At the last point they are live. -/
theorem live1_8 : ∀ t : Fin cfg1.N, cond1_2 (grid1.coords t) → cfg1.idle 8 (grid1.coords t) = false := by decide +kernel
theorem live1_9 : ∀ t : Fin cfg1.N, cond1_2 (grid1.coords t) → cfg1.idle 9 (grid1.coords t) = false := by decide +kernel

/-! ### The staging and scratch memrefs -/

abbrev ms1_0 (t : Fin cfg1.N) : Memref sig .tc .vmem S10000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S64x64 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x64 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S10000x64 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x64 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x64 .f32 := win1_9.stage (cfg1.slots t 9)
abbrev hs1_9 (t : Fin cfg1.N) : (ms1_9 t).IsWhole := hstage1_9 ((cfg1.slots t 9).cast nbuf1_9)
/-- The two scratch rows: whole scoped buffers of the kernel's own, passed beside the windows. -/
abbrev scM1_0 : Memref sig .tc .vmem S1x64 .f32 := Memref.whole cc1_scratch0
abbrev scM1_1 : Memref sig .tc .vmem S1x64 .f32 := Memref.whole cc1_scratch1

/-- The scoped rest with the two scratch rows as memrefs owned at some contents. -/
theorem scopedRest1_owns (c : Dev nD) :
    (Pipeline.scopedRest (Ix := Ix) (Name := ℕ) (U := U) (Lvl := Lvl) (Val := Elt F) spec1 c : sProp 𝕄)
      = iprop(iprop((∃ d, owns (c : Thread nD τ) scM1_0 fullShare d) ∗ (∃ d, owns (c : Thread nD τ) scM1_1 fullShare d))
          ∗ Pipeline.scopedRestBut (Ix := Ix) (Name := ℕ) (U := U) (Lvl := Lvl) (Val := Elt F) spec1 c [cc1_scratch0, cc1_scratch1]) := by
  rw [scopedRest1_split]; simp only [scM1_0, scM1_1, owns_whole]; try rfl

/-! ### The invariant -/

/-- The region invariant before position `n`: before the first point the scoped rest (the scratch rows at anything); afterwards
    the two scratch rows at the accumulation so far, beside the rest of the scoped rest. -/
def PhiS1 (c : Dev nD) : (n : ℕ) → n ≤ cfg1.N → sProp 𝕄
  | 0, _ => Pipeline.scopedRest (Ix := Ix) (Name := ℕ) (U := U) (Lvl := Lvl) (Val := Elt F) spec1 c
  | n + 1, hn => iprop(iprop(owns (c : Thread nD τ) scM1_0 fullShare (acc1 W c (n + 1) hn).1 ∗ owns (c : Thread nD τ) scM1_1 fullShare (acc1 W c (n + 1) hn).2)
      ∗ Pipeline.scopedRestBut (Ix := Ix) (Name := ℕ) (U := U) (Lvl := Lvl) (Val := Elt F) spec1 c [cc1_scratch0, cc1_scratch1])

/-! ### The proof data -/

/-- The proof data of region 1 on core `c`: the arrays as the region finds them; after the body at point `t` each input's buffer
    at its block, the big output's at the block's image, the two small outputs' at the accumulation through `t`; the invariant
    `PhiS1`; nothing owed; full shares. -/
def dat1 (c : Dev nD) : Dat τ (Elt F) Ix ℕ U Lvl cfg1 c where
  A w := VA1 W c (Pipeline.arrRef spec1 w)
  after w t := match w with
    | ⟨0, _⟩ => iblk1 W c 0 t
    | ⟨1, _⟩ => iblk1 W c 1 t
    | ⟨2, _⟩ => iblk1 W c 2 t
    | ⟨3, _⟩ => iblk1 W c 3 t
    | ⟨4, _⟩ => iblk1 W c 4 t
    | ⟨5, _⟩ => iblk1 W c 5 t
    | ⟨6, _⟩ => iblk1 W c 6 t
    | ⟨7, _⟩ => img1 W c t
    | ⟨8, _⟩ => (acc1 W c (t.val + 1) t.isLt).1
    | ⟨9, _⟩ => (acc1 W c (t.val + 1) t.isLt).2
  Φ t := PhiS1 W c t.val (Nat.le_of_lt_succ t.isLt)
  q _ := fullShare
  owed _ := 0

end Region1

section Region1_b

variable (W : Dev nD → Valuation τ sig (Elt F))

/-- The proof data's arrays are the entry contents. -/
theorem A1_eq (c : Dev nD) (w : Fin cfg1.W) : (dat1 (Ix := Ix) (U := U) (Lvl := Lvl) W c).A w = VA1 W c (Pipeline.arrRef spec1 w) := by
  dsimp only [dat1]

/-- What the body leaves, window by window. -/
theorem after1_0 (c : Dev nD) (t : Fin cfg1.N) : (dat1 (Ix := Ix) (U := U) (Lvl := Lvl) W c).after 0 t = iblk1 W c 0 t := by dsimp only [dat1]
theorem after1_1 (c : Dev nD) (t : Fin cfg1.N) : (dat1 (Ix := Ix) (U := U) (Lvl := Lvl) W c).after 1 t = iblk1 W c 1 t := by dsimp only [dat1]
theorem after1_2 (c : Dev nD) (t : Fin cfg1.N) : (dat1 (Ix := Ix) (U := U) (Lvl := Lvl) W c).after 2 t = iblk1 W c 2 t := by dsimp only [dat1]
theorem after1_3 (c : Dev nD) (t : Fin cfg1.N) : (dat1 (Ix := Ix) (U := U) (Lvl := Lvl) W c).after 3 t = iblk1 W c 3 t := by dsimp only [dat1]
theorem after1_4 (c : Dev nD) (t : Fin cfg1.N) : (dat1 (Ix := Ix) (U := U) (Lvl := Lvl) W c).after 4 t = iblk1 W c 4 t := by dsimp only [dat1]
theorem after1_5 (c : Dev nD) (t : Fin cfg1.N) : (dat1 (Ix := Ix) (U := U) (Lvl := Lvl) W c).after 5 t = iblk1 W c 5 t := by dsimp only [dat1]
theorem after1_6 (c : Dev nD) (t : Fin cfg1.N) : (dat1 (Ix := Ix) (U := U) (Lvl := Lvl) W c).after 6 t = iblk1 W c 6 t := by dsimp only [dat1]
theorem after1_7 (c : Dev nD) (t : Fin cfg1.N) : (dat1 (Ix := Ix) (U := U) (Lvl := Lvl) W c).after 7 t = img1 W c t := by dsimp only [dat1]
theorem after1_8 (c : Dev nD) (t : Fin cfg1.N) : (dat1 (Ix := Ix) (U := U) (Lvl := Lvl) W c).after 8 t = (acc1 W c (t.val + 1) t.isLt).1 := by dsimp only [dat1]
theorem after1_9 (c : Dev nD) (t : Fin cfg1.N) : (dat1 (Ix := Ix) (U := U) (Lvl := Lvl) W c).after 9 t = (acc1 W c (t.val + 1) t.isLt).2 := by dsimp only [dat1]

/-- Input window 0's current staging buffer holds its block at every point, fetched there or not. -/
theorem before1_0 (c : Dev nD) (t : Fin cfg1.N) (d) : (dat1 (Ix := Ix) (U := U) (Lvl := Lvl) W c).before 0 t d = iblk1 W c 0 t :=
  ((dat1 (Ix := Ix) (U := U) (Lvl := Lvl) W c).before_in_eq_fetched 0 rfl (fun _ => rfl) (fun _ _ _ => rfl)
      (fun t => by rw [after1_0]; unfold Dat.blockOf iblk1; rw [A1_eq]; try rfl) t d).trans
    (by unfold Dat.fetched Dat.blockOf iblk1; rw [A1_eq]; try rfl)
/-- Input window 1's current staging buffer holds its block at every point, fetched there or not. -/
theorem before1_1 (c : Dev nD) (t : Fin cfg1.N) (d) : (dat1 (Ix := Ix) (U := U) (Lvl := Lvl) W c).before 1 t d = iblk1 W c 1 t :=
  ((dat1 (Ix := Ix) (U := U) (Lvl := Lvl) W c).before_in_eq_fetched 1 rfl (fun _ => rfl) (fun _ _ _ => rfl)
      (fun t => by rw [after1_1]; unfold Dat.blockOf iblk1; rw [A1_eq]; try rfl) t d).trans
    (by unfold Dat.fetched Dat.blockOf iblk1; rw [A1_eq]; try rfl)
/-- Input window 2's current staging buffer holds its block at every point, fetched there or not. -/
theorem before1_2 (c : Dev nD) (t : Fin cfg1.N) (d) : (dat1 (Ix := Ix) (U := U) (Lvl := Lvl) W c).before 2 t d = iblk1 W c 2 t :=
  ((dat1 (Ix := Ix) (U := U) (Lvl := Lvl) W c).before_in_eq_fetched 2 rfl (fun _ => rfl) (fun _ _ _ => rfl)
      (fun t => by rw [after1_2]; unfold Dat.blockOf iblk1; rw [A1_eq]; try rfl) t d).trans
    (by unfold Dat.fetched Dat.blockOf iblk1; rw [A1_eq]; try rfl)
/-- Input window 3's current staging buffer holds its block at every point, fetched there or not. -/
theorem before1_3 (c : Dev nD) (t : Fin cfg1.N) (d) : (dat1 (Ix := Ix) (U := U) (Lvl := Lvl) W c).before 3 t d = iblk1 W c 3 t :=
  ((dat1 (Ix := Ix) (U := U) (Lvl := Lvl) W c).before_in_eq_fetched 3 rfl (fun _ => rfl) (fun _ _ _ => rfl)
      (fun t => by rw [after1_3]; unfold Dat.blockOf iblk1; rw [A1_eq]; try rfl) t d).trans
    (by unfold Dat.fetched Dat.blockOf iblk1; rw [A1_eq]; try rfl)
/-- Input window 4's current staging buffer holds its block at every point, fetched there or not. -/
theorem before1_4 (c : Dev nD) (t : Fin cfg1.N) (d) : (dat1 (Ix := Ix) (U := U) (Lvl := Lvl) W c).before 4 t d = iblk1 W c 4 t :=
  ((dat1 (Ix := Ix) (U := U) (Lvl := Lvl) W c).before_in_eq_fetched 4 rfl (fun _ => rfl) (fun _ _ _ => rfl)
      (fun t => by rw [after1_4]; unfold Dat.blockOf iblk1; rw [A1_eq]; try rfl) t d).trans
    (by unfold Dat.fetched Dat.blockOf iblk1; rw [A1_eq]; try rfl)
/-- Input window 5's current staging buffer holds its block at every point, fetched there or not. -/
theorem before1_5 (c : Dev nD) (t : Fin cfg1.N) (d) : (dat1 (Ix := Ix) (U := U) (Lvl := Lvl) W c).before 5 t d = iblk1 W c 5 t :=
  ((dat1 (Ix := Ix) (U := U) (Lvl := Lvl) W c).before_in_eq_fetched 5 rfl (fun _ => rfl) (fun _ _ _ => rfl)
      (fun t => by rw [after1_5]; unfold Dat.blockOf iblk1; rw [A1_eq]; try rfl) t d).trans
    (by unfold Dat.fetched Dat.blockOf iblk1; rw [A1_eq]; try rfl)
/-- Input window 6's current staging buffer holds its block at every point, fetched there or not. -/
theorem before1_6 (c : Dev nD) (t : Fin cfg1.N) (d) : (dat1 (Ix := Ix) (U := U) (Lvl := Lvl) W c).before 6 t d = iblk1 W c 6 t :=
  ((dat1 (Ix := Ix) (U := U) (Lvl := Lvl) W c).before_in_eq_fetched 6 rfl (fun _ => rfl) (fun _ _ _ => rfl)
      (fun t => by rw [after1_6]; unfold Dat.blockOf iblk1; rw [A1_eq]; try rfl) t d).trans
    (by unfold Dat.fetched Dat.blockOf iblk1; rw [A1_eq]; try rfl)

/-- The invariant at a point's start, restated at the point's number. -/
theorem Phi1_castSucc (c : Dev nD) (t : Fin cfg1.N) : (dat1 (Ix := Ix) (U := U) (Lvl := Lvl) W c).Φ t.castSucc = PhiS1 W c t.val (Nat.le_of_lt t.isLt) := by
  dsimp only [dat1]; simp only [Fin.coe_castSucc]

/-! ### The body obligation -/

/-- What the body is called with at point `t`, the windows one by one, -/
def bodyPre1 (ι : Ix) (c : Dev nD) (t : Fin cfg1.N) : sProp 𝕄 :=
  iprop((dat1 (Ix := Ix) (U := U) (Lvl := Lvl) W c).Φ t.castSucc ∗ (dat1 (Ix := Ix) (U := U) (Lvl := Lvl) W c).owesAt ι t.castSucc
    ∗ (∃ d, owns (c : Thread nD τ) (ms1_0 t) fullShare ((dat1 (Ix := Ix) (U := U) (Lvl := Lvl) W c).before 0 t d))
    ∗ (∃ d, owns (c : Thread nD τ) (ms1_1 t) fullShare ((dat1 (Ix := Ix) (U := U) (Lvl := Lvl) W c).before 1 t d))
    ∗ (∃ d, owns (c : Thread nD τ) (ms1_2 t) fullShare ((dat1 (Ix := Ix) (U := U) (Lvl := Lvl) W c).before 2 t d))
    ∗ (∃ d, owns (c : Thread nD τ) (ms1_3 t) fullShare ((dat1 (Ix := Ix) (U := U) (Lvl := Lvl) W c).before 3 t d))
    ∗ (∃ d, owns (c : Thread nD τ) (ms1_4 t) fullShare ((dat1 (Ix := Ix) (U := U) (Lvl := Lvl) W c).before 4 t d))
    ∗ (∃ d, owns (c : Thread nD τ) (ms1_5 t) fullShare ((dat1 (Ix := Ix) (U := U) (Lvl := Lvl) W c).before 5 t d))
    ∗ (∃ d, owns (c : Thread nD τ) (ms1_6 t) fullShare ((dat1 (Ix := Ix) (U := U) (Lvl := Lvl) W c).before 6 t d))
    ∗ (∃ d, owns (c : Thread nD τ) (ms1_7 t) fullShare ((dat1 (Ix := Ix) (U := U) (Lvl := Lvl) W c).before 7 t d))
    ∗ (∃ d, owns (c : Thread nD τ) (ms1_8 t) fullShare ((dat1 (Ix := Ix) (U := U) (Lvl := Lvl) W c).before 8 t d))
    ∗ (∃ d, owns (c : Thread nD τ) (ms1_9 t) fullShare ((dat1 (Ix := Ix) (U := U) (Lvl := Lvl) W c).before 9 t d)))

/-- and what it returns. -/
def bodyPost1 (ι : Ix) (c : Dev nD) (t : Fin cfg1.N) : sProp 𝕄 :=
  iprop((dat1 (Ix := Ix) (U := U) (Lvl := Lvl) W c).Φ t.succ ∗ (dat1 (Ix := Ix) (U := U) (Lvl := Lvl) W c).owesAt ι t.succ
    ∗ (dat1 (Ix := Ix) (U := U) (Lvl := Lvl) W c).leavesExact 0 t
    ∗ (dat1 (Ix := Ix) (U := U) (Lvl := Lvl) W c).leavesExact 1 t
    ∗ (dat1 (Ix := Ix) (U := U) (Lvl := Lvl) W c).leavesExact 2 t
    ∗ (dat1 (Ix := Ix) (U := U) (Lvl := Lvl) W c).leavesExact 3 t
    ∗ (dat1 (Ix := Ix) (U := U) (Lvl := Lvl) W c).leavesExact 4 t
    ∗ (dat1 (Ix := Ix) (U := U) (Lvl := Lvl) W c).leavesExact 5 t
    ∗ (dat1 (Ix := Ix) (U := U) (Lvl := Lvl) W c).leavesExact 6 t
    ∗ (dat1 (Ix := Ix) (U := U) (Lvl := Lvl) W c).leavesExact 7 t
    ∗ (dat1 (Ix := Ix) (U := U) (Lvl := Lvl) W c).leavesExact 8 t
    ∗ (dat1 (Ix := Ix) (U := U) (Lvl := Lvl) W c).leavesExact 9 t)

set_option maxHeartbeats 4000000 in
/-- The body at any point: the inputs' memrefs hold their blocks; the point's number says which of the three cases it is in; the
    invariant hands the body the scratch rows at the accumulation so far (at anything at the first point) and takes them back
    one block further; at the last point the small output windows receive the rows. -/
theorem sound_body1 (𝒱₀ : Variants) (ι : Ix) (c : Dev nD) (t : Fin cfg1.N) :
    (bodyPre1 (U := U) (Lvl := Lvl) W ι c t : sProp 𝕄) ⊢ wp frame (wpE (defs₀ (F := F)) 𝒱₀ c none) Set.univ (bodyAt1 t) (fun _ => bodyPost1 (U := U) (Lvl := Lvl) W ι c t) := by
  obtain ⟨n, hn⟩ := t
  have hN : n < 10 := lt_of_lt_of_eq hn (show cfg1.N = 10 from N_1)
  unfold bodyPre1 bodyPost1 bodyAt1
  simp only [before1_0, before1_1, before1_2, before1_3, before1_4, before1_5, before1_6]
  rw [show (dat1 (Ix := Ix) (U := U) (Lvl := Lvl) W c).owesAt ι (Fin.succ ⟨n, hn⟩) = (dat1 (Ix := Ix) (U := U) (Lvl := Lvl) W c).owesAt ι (Fin.castSucc ⟨n, hn⟩) from rfl]
  rw [show (dat1 (Ix := Ix) (U := U) (Lvl := Lvl) W c).Φ (Fin.succ ⟨n, hn⟩) = PhiS1 W c (n + 1) hn from rfl, Phi1_castSucc]
  rw [show (dat1 (Ix := Ix) (U := U) (Lvl := Lvl) W c).leavesExact 0 ⟨n, hn⟩ = owns (c : Thread nD τ) (ms1_0 ⟨n, hn⟩) fullShare ((dat1 (Ix := Ix) (U := U) (Lvl := Lvl) W c).after 0 ⟨n, hn⟩) from by
    unfold Dat.leavesExact; rw [live1_0 ⟨n, hn⟩], after1_0]
  rw [show (dat1 (Ix := Ix) (U := U) (Lvl := Lvl) W c).leavesExact 1 ⟨n, hn⟩ = owns (c : Thread nD τ) (ms1_1 ⟨n, hn⟩) fullShare ((dat1 (Ix := Ix) (U := U) (Lvl := Lvl) W c).after 1 ⟨n, hn⟩) from by
    unfold Dat.leavesExact; rw [live1_1 ⟨n, hn⟩], after1_1]
  rw [show (dat1 (Ix := Ix) (U := U) (Lvl := Lvl) W c).leavesExact 2 ⟨n, hn⟩ = owns (c : Thread nD τ) (ms1_2 ⟨n, hn⟩) fullShare ((dat1 (Ix := Ix) (U := U) (Lvl := Lvl) W c).after 2 ⟨n, hn⟩) from by
    unfold Dat.leavesExact; rw [live1_2 ⟨n, hn⟩], after1_2]
  rw [show (dat1 (Ix := Ix) (U := U) (Lvl := Lvl) W c).leavesExact 3 ⟨n, hn⟩ = owns (c : Thread nD τ) (ms1_3 ⟨n, hn⟩) fullShare ((dat1 (Ix := Ix) (U := U) (Lvl := Lvl) W c).after 3 ⟨n, hn⟩) from by
    unfold Dat.leavesExact; rw [live1_3 ⟨n, hn⟩], after1_3]
  rw [show (dat1 (Ix := Ix) (U := U) (Lvl := Lvl) W c).leavesExact 4 ⟨n, hn⟩ = owns (c : Thread nD τ) (ms1_4 ⟨n, hn⟩) fullShare ((dat1 (Ix := Ix) (U := U) (Lvl := Lvl) W c).after 4 ⟨n, hn⟩) from by
    unfold Dat.leavesExact; rw [live1_4 ⟨n, hn⟩], after1_4]
  rw [show (dat1 (Ix := Ix) (U := U) (Lvl := Lvl) W c).leavesExact 5 ⟨n, hn⟩ = owns (c : Thread nD τ) (ms1_5 ⟨n, hn⟩) fullShare ((dat1 (Ix := Ix) (U := U) (Lvl := Lvl) W c).after 5 ⟨n, hn⟩) from by
    unfold Dat.leavesExact; rw [live1_5 ⟨n, hn⟩], after1_5]
  rw [show (dat1 (Ix := Ix) (U := U) (Lvl := Lvl) W c).leavesExact 6 ⟨n, hn⟩ = owns (c : Thread nD τ) (ms1_6 ⟨n, hn⟩) fullShare ((dat1 (Ix := Ix) (U := U) (Lvl := Lvl) W c).after 6 ⟨n, hn⟩) from by
    unfold Dat.leavesExact; rw [live1_6 ⟨n, hn⟩], after1_6]
  rw [show (dat1 (Ix := Ix) (U := U) (Lvl := Lvl) W c).leavesExact 7 ⟨n, hn⟩ = owns (c : Thread nD τ) (ms1_7 ⟨n, hn⟩) fullShare ((dat1 (Ix := Ix) (U := U) (Lvl := Lvl) W c).after 7 ⟨n, hn⟩) from by
    unfold Dat.leavesExact; rw [live1_7 ⟨n, hn⟩], after1_7]
  rcases n with _ | n
  · -- the first point
    have hc1 : cond1_1 (grid1.coords ⟨0, hn⟩) := (hcond1_1 ⟨0, hn⟩).mpr rfl
    have hc2 : ¬cond1_2 (grid1.coords ⟨0, hn⟩) := fun h => (fun h => by (try dsimp only at h); omega) ((hcond1_2 ⟨0, hn⟩).mp h)
    rw [Dat.leavesExact_idle (dat1 (Ix := Ix) (U := U) (Lvl := Lvl) W c) 8 ⟨0, hn⟩ (idle1_8 _ hc2) (noFlush1_8 _ hc2), Dat.leavesExact_idle (dat1 (Ix := Ix) (U := U) (Lvl := Lvl) W c) 9 ⟨0, hn⟩ (idle1_9 _ hc2) (noFlush1_9 _ hc2)]
    rw [show PhiS1 W c (0 + 1) hn = iprop(iprop(owns (c : Thread nD τ) scM1_0 fullShare (acc1 W c (0 + 1) hn).1 ∗ owns (c : Thread nD τ) scM1_1 fullShare (acc1 W c (0 + 1) hn).2)
      ∗ Pipeline.scopedRestBut (Ix := Ix) (Name := ℕ) (U := U) (Lvl := Lvl) (Val := Elt F) spec1 c [cc1_scratch0, cc1_scratch1]) from rfl, acc1_succ, acc1_zero]
    rw [show PhiS1 (Ix := Ix) (U := U) (Lvl := Lvl) W c (Fin.val (⟨0, hn⟩ : Fin cfg1.N)) (Nat.le_of_lt hn) = Pipeline.scopedRest (Ix := Ix) (Name := ℕ) (U := U) (Lvl := Lvl) (Val := Elt F) spec1 c from rfl, scopedRest1_owns]
    unfold img1
    iintro ⟨⟨⟨HS0, HS1⟩, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
    iapply (body1_first 𝒱₀ c (grid1.coords ⟨0, hn⟩) _ _ _ _ _ _ _ _ _ _ _ _ _ _ _ _ _ _ _ _ _ _ _ _ hc1 hc2 (iblk1 W c 0 ⟨0, hn⟩) (iblk1 W c 1 ⟨0, hn⟩) (iblk1 W c 2 ⟨0, hn⟩) (iblk1 W c 3 ⟨0, hn⟩) (iblk1 W c 4 ⟨0, hn⟩) (iblk1 W c 5 ⟨0, hn⟩) (iblk1 W c 6 ⟨0, hn⟩) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hrest]
    · isplitr [Hrest]
      · isplitl [HS0]; · iexact HS0
        iexact HS1
      iexact Hrest
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [show PhiS1 W c (n + 1 + 1) hn = iprop(iprop(owns (c : Thread nD τ) scM1_0 fullShare (acc1 W c (n + 1 + 1) hn).1 ∗ owns (c : Thread nD τ) scM1_1 fullShare (acc1 W c (n + 1 + 1) hn).2)
      ∗ Pipeline.scopedRestBut (Ix := Ix) (Name := ℕ) (U := U) (Lvl := Lvl) (Val := Elt F) spec1 c [cc1_scratch0, cc1_scratch1]) from rfl, acc1_succ]
    rw [show PhiS1 (Ix := Ix) (U := U) (Lvl := Lvl) W c (Fin.val (⟨n + 1, hn⟩ : Fin cfg1.N)) (Nat.le_of_lt hn) = iprop(iprop(owns (c : Thread nD τ) scM1_0 fullShare (acc1 W c (n + 1) (Nat.le_of_lt hn)).1 ∗ owns (c : Thread nD τ) scM1_1 fullShare (acc1 W c (n + 1) (Nat.le_of_lt hn)).2)
      ∗ Pipeline.scopedRestBut (Ix := Ix) (Name := ℕ) (U := U) (Lvl := Lvl) (Val := Elt F) spec1 c [cc1_scratch0, cc1_scratch1]) from rfl]
    have hc1 : ¬cond1_1 (grid1.coords ⟨n + 1, hn⟩) := fun h => (fun h => by (try dsimp only at h); omega) ((hcond1_1 ⟨n + 1, hn⟩).mp h)
    by_cases h9 : n + 1 = 9
    · -- the last point
      have hc2 : cond1_2 (grid1.coords ⟨n + 1, hn⟩) := (hcond1_2 ⟨n + 1, hn⟩).mpr h9
      rw [show (dat1 (Ix := Ix) (U := U) (Lvl := Lvl) W c).leavesExact 8 ⟨n + 1, hn⟩ = owns (c : Thread nD τ) (ms1_8 ⟨n + 1, hn⟩) fullShare ((dat1 (Ix := Ix) (U := U) (Lvl := Lvl) W c).after 8 ⟨n + 1, hn⟩) from by
        unfold Dat.leavesExact; rw [live1_8 ⟨n + 1, hn⟩ hc2], after1_8]
      rw [show (dat1 (Ix := Ix) (U := U) (Lvl := Lvl) W c).leavesExact 9 ⟨n + 1, hn⟩ = owns (c : Thread nD τ) (ms1_9 ⟨n + 1, hn⟩) fullShare ((dat1 (Ix := Ix) (U := U) (Lvl := Lvl) W c).after 9 ⟨n + 1, hn⟩) from by
        unfold Dat.leavesExact; rw [live1_9 ⟨n + 1, hn⟩ hc2], after1_9]
      rw [acc1_succ W c (n + 1) hn]
      unfold img1
      iintro ⟨⟨⟨HS0, HS1⟩, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (body1_last 𝒱₀ c (grid1.coords ⟨n + 1, hn⟩) _ _ _ _ _ _ _ _ _ _ _ _ _ _ _ _ _ _ _ _ _ _ _ _ hc1 hc2 (iblk1 W c 0 ⟨n + 1, hn⟩) (iblk1 W c 1 ⟨n + 1, hn⟩) (iblk1 W c 2 ⟨n + 1, hn⟩) (iblk1 W c 3 ⟨n + 1, hn⟩) (iblk1 W c 4 ⟨n + 1, hn⟩) (iblk1 W c 5 ⟨n + 1, hn⟩) (iblk1 W c 6 ⟨n + 1, hn⟩) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS0]; · iexact HS0
      isplitl [HS1]; · iexact HS1
      iintro ⟨H0, H1, H2, H3, H4, H5, H6, H7, H8, H9, HS0, HS1⟩
      isplitl [HS0 HS1 Hrest]
      · isplitr [Hrest]
        · isplitl [HS0]; · iexact HS0
          iexact HS1
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · -- a middle point
      have hc2 : ¬cond1_2 (grid1.coords ⟨n + 1, hn⟩) := fun h => h9 ((hcond1_2 ⟨n + 1, hn⟩).mp h)
      rw [Dat.leavesExact_idle (dat1 (Ix := Ix) (U := U) (Lvl := Lvl) W c) 8 ⟨n + 1, hn⟩ (idle1_8 _ hc2) (noFlush1_8 _ hc2), Dat.leavesExact_idle (dat1 (Ix := Ix) (U := U) (Lvl := Lvl) W c) 9 ⟨n + 1, hn⟩ (idle1_9 _ hc2) (noFlush1_9 _ hc2)]
      unfold img1
      iintro ⟨⟨⟨HS0, HS1⟩, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
      iapply (body1_mid 𝒱₀ c (grid1.coords ⟨n + 1, hn⟩) _ _ _ _ _ _ _ _ _ _ _ _ _ _ _ _ _ _ _ _ _ _ _ _ hc1 hc2 (iblk1 W c 0 ⟨n + 1, hn⟩) (iblk1 W c 1 ⟨n + 1, hn⟩) (iblk1 W c 2 ⟨n + 1, hn⟩) (iblk1 W c 3 ⟨n + 1, hn⟩) (iblk1 W c 4 ⟨n + 1, hn⟩) (iblk1 W c 5 ⟨n + 1, hn⟩) (iblk1 W c 6 ⟨n + 1, hn⟩) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨H0, H1, H2, H3, H4, H5, H6, H7, HS0, HS1⟩
      isplitl [HS0 HS1 Hrest]
      · isplitr [Hrest]
        · isplitl [HS0]; · iexact HS0
          iexact HS1
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

/-- The library's body obligation, at every point. -/
theorem body_obligation1 (𝒱₀ : Variants) (ι : Ix) (c : Dev nD) : BodyObligation (dat1 (Ix := Ix) (U := U) (Lvl := Lvl) W c) (defs₀ (F := F)) 𝒱₀ ι Set.univ := fun t => by
  rw [bigSep_W1, bigSep_W1]
  exact sound_body1 (U := U) (Lvl := Lvl) W 𝒱₀ ι c t

end Region1_b

/-! ## Region 4: the proof data over an arbitrary entry valuation -/

section Region4

variable (W : Dev nD → Valuation τ sig (Elt F))

/-- The entry valuation read at a TensorCore reference of core `c`. -/
abbrev VA4 (c : Dev nD) (b : Ref sig .tc) : Buf (Elt F) ((c : Thread nD τ).loc b) := W c (Proc.devRef .tc b)

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (VA4 W c (Pipeline.arrRef spec4 w))

/-- The image of block `t` (normalised by the statistics rows, rectified, multiplied by the weights, the bias added): what the
    body stores into the big output window there. -/
def img4 (c : Dev nD) (t : Fin cfg4.N) : Vec F S10000x64 .f32 :=
  (k4_pay5 (iblk4 W c 0 t) (iblk4 W c 2 t) (iblk4 W c 3 t) (iblk4 W c 1 t) (iblk4 W c 4 t) (iblk4 W c 5 t) (iblk4 W c 6 t))

/-- THE ACCUMULATION. The two scratch rows before point `n`: zero rows before the first point; after point `n` the rows
    before it plus the column sums of block `n`'s image and of its square. -/
def acc4 (c : Dev nD) : (n : ℕ) → n ≤ cfg4.N → Vec F S1x64 .f32 × Vec F S1x64 .f32
  | 0, _ => (k4_pay3, k4_pay4)
  | n + 1, hn =>
    (k4_pay1 (img4 W c ⟨n, Nat.lt_of_succ_le hn⟩) (acc4 c n (Nat.le_of_succ_le hn)).1,
     k4_pay2 (img4 W c ⟨n, Nat.lt_of_succ_le hn⟩) (acc4 c n (Nat.le_of_succ_le hn)).2)

theorem acc4_zero (c : Dev nD) (h : 0 ≤ cfg4.N) : acc4 W c 0 h = (k4_pay3, k4_pay4) := rfl

theorem acc4_succ (c : Dev nD) (n : ℕ) (hn : n + 1 ≤ cfg4.N) :
    acc4 W c (n + 1) hn =
      (k4_pay1 (img4 W c ⟨n, Nat.lt_of_succ_le hn⟩) (acc4 W c n (Nat.le_of_succ_le hn)).1,
       k4_pay2 (img4 W c ⟨n, Nat.lt_of_succ_le hn⟩) (acc4 W c n (Nat.le_of_succ_le hn)).2) := rfl

/-! ### The conditions over the grid, and where the small output windows are idle -/

/-- The first conditional is taken at the first point only. -/
theorem hcond4_1 : ∀ t : Fin cfg4.N, cond4_1 (grid4.coords t) ↔ t.val = 0 :=
  (by decide +kernel : ∀ t : Fin grid4.N, cond4_1 (grid4.coords t) ↔ t.val = 0)
/-- The second conditional is taken at the last point only. -/
theorem hcond4_2 : ∀ t : Fin cfg4.N, cond4_2 (grid4.coords t) ↔ t.val = 9 :=
  (by decide +kernel : ∀ t : Fin grid4.N, cond4_2 (grid4.coords t) ↔ t.val = 9)

theorem live4_0 : ∀ t : Fin cfg4.N, cfg4.idle 0 (grid4.coords t) = false := by decide +kernel
theorem live4_1 : ∀ t : Fin cfg4.N, cfg4.idle 1 (grid4.coords t) = false := by decide +kernel
theorem live4_2 : ∀ t : Fin cfg4.N, cfg4.idle 2 (grid4.coords t) = false := by decide +kernel
theorem live4_3 : ∀ t : Fin cfg4.N, cfg4.idle 3 (grid4.coords t) = false := by decide +kernel
theorem live4_4 : ∀ t : Fin cfg4.N, cfg4.idle 4 (grid4.coords t) = false := by decide +kernel
theorem live4_5 : ∀ t : Fin cfg4.N, cfg4.idle 5 (grid4.coords t) = false := by decide +kernel
theorem live4_6 : ∀ t : Fin cfg4.N, cfg4.idle 6 (grid4.coords t) = false := by decide +kernel
theorem live4_7 : ∀ t : Fin cfg4.N, cfg4.idle 7 (grid4.coords t) = false := by decide +kernel
/-- Away from the last point the two small output windows are idle and not written back. -/
theorem idle4_8 : ∀ t : Fin cfg4.N, ¬cond4_2 (grid4.coords t) → cfg4.idle 8 (grid4.coords t) = true := by decide +kernel
theorem idle4_9 : ∀ t : Fin cfg4.N, ¬cond4_2 (grid4.coords t) → cfg4.idle 9 (grid4.coords t) = true := by decide +kernel
theorem noFlush4_8 : ∀ t : Fin cfg4.N, ¬cond4_2 (grid4.coords t) → (cfg4.win 8).flush t = false := by decide +kernel
theorem noFlush4_9 : ∀ t : Fin cfg4.N, ¬cond4_2 (grid4.coords t) → (cfg4.win 9).flush t = false := by decide +kernel
/-- At the last point they are live. -/
theorem live4_8 : ∀ t : Fin cfg4.N, cond4_2 (grid4.coords t) → cfg4.idle 8 (grid4.coords t) = false := by decide +kernel
theorem live4_9 : ∀ t : Fin cfg4.N, cond4_2 (grid4.coords t) → cfg4.idle 9 (grid4.coords t) = false := by decide +kernel

/-! ### The staging and scratch memrefs -/

abbrev ms4_0 (t : Fin cfg4.N) : Memref sig .tc .vmem S10000x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x64 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x64 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x64 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x64 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S64x64 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1x64 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S10000x64 .f32 := win4_7.stage (cfg4.slots t 7)
abbrev hs4_7 (t : Fin cfg4.N) : (ms4_7 t).IsWhole := hstage4_7 ((cfg4.slots t 7).cast nbuf4_7)
abbrev ms4_8 (t : Fin cfg4.N) : Memref sig .tc .vmem S1x64 .f32 := win4_8.stage (cfg4.slots t 8)
abbrev hs4_8 (t : Fin cfg4.N) : (ms4_8 t).IsWhole := hstage4_8 ((cfg4.slots t 8).cast nbuf4_8)
abbrev ms4_9 (t : Fin cfg4.N) : Memref sig .tc .vmem S1x64 .f32 := win4_9.stage (cfg4.slots t 9)
abbrev hs4_9 (t : Fin cfg4.N) : (ms4_9 t).IsWhole := hstage4_9 ((cfg4.slots t 9).cast nbuf4_9)
/-- The two scratch rows: whole scoped buffers of the kernel's own, passed beside the windows. -/
abbrev scM4_0 : Memref sig .tc .vmem S1x64 .f32 := Memref.whole cc4_scratch0
abbrev scM4_1 : Memref sig .tc .vmem S1x64 .f32 := Memref.whole cc4_scratch1

/-- The scoped rest with the two scratch rows as memrefs owned at some contents. -/
theorem scopedRest4_owns (c : Dev nD) :
    (Pipeline.scopedRest (Ix := Ix) (Name := ℕ) (U := U) (Lvl := Lvl) (Val := Elt F) spec4 c : sProp 𝕄)
      = iprop(iprop((∃ d, owns (c : Thread nD τ) scM4_0 fullShare d) ∗ (∃ d, owns (c : Thread nD τ) scM4_1 fullShare d))
          ∗ Pipeline.scopedRestBut (Ix := Ix) (Name := ℕ) (U := U) (Lvl := Lvl) (Val := Elt F) spec4 c [cc4_scratch0, cc4_scratch1]) := by
  rw [scopedRest4_split]; simp only [scM4_0, scM4_1, owns_whole]; try rfl

/-! ### The invariant -/

/-- The region invariant before position `n`: before the first point the scoped rest (the scratch rows at anything); afterwards
    the two scratch rows at the accumulation so far, beside the rest of the scoped rest. -/
def PhiS4 (c : Dev nD) : (n : ℕ) → n ≤ cfg4.N → sProp 𝕄
  | 0, _ => Pipeline.scopedRest (Ix := Ix) (Name := ℕ) (U := U) (Lvl := Lvl) (Val := Elt F) spec4 c
  | n + 1, hn => iprop(iprop(owns (c : Thread nD τ) scM4_0 fullShare (acc4 W c (n + 1) hn).1 ∗ owns (c : Thread nD τ) scM4_1 fullShare (acc4 W c (n + 1) hn).2)
      ∗ Pipeline.scopedRestBut (Ix := Ix) (Name := ℕ) (U := U) (Lvl := Lvl) (Val := Elt F) spec4 c [cc4_scratch0, cc4_scratch1])

/-! ### The proof data -/

/-- The proof data of region 4 on core `c`: the arrays as the region finds them; after the body at point `t` each input's buffer
    at its block, the big output's at the block's image, the two small outputs' at the accumulation through `t`; the invariant
    `PhiS4`; nothing owed; full shares. -/
def dat4 (c : Dev nD) : Dat τ (Elt F) Ix ℕ U Lvl cfg4 c where
  A w := VA4 W c (Pipeline.arrRef spec4 w)
  after w t := match w with
    | ⟨0, _⟩ => iblk4 W c 0 t
    | ⟨1, _⟩ => iblk4 W c 1 t
    | ⟨2, _⟩ => iblk4 W c 2 t
    | ⟨3, _⟩ => iblk4 W c 3 t
    | ⟨4, _⟩ => iblk4 W c 4 t
    | ⟨5, _⟩ => iblk4 W c 5 t
    | ⟨6, _⟩ => iblk4 W c 6 t
    | ⟨7, _⟩ => img4 W c t
    | ⟨8, _⟩ => (acc4 W c (t.val + 1) t.isLt).1
    | ⟨9, _⟩ => (acc4 W c (t.val + 1) t.isLt).2
  Φ t := PhiS4 W c t.val (Nat.le_of_lt_succ t.isLt)
  q _ := fullShare
  owed _ := 0

end Region4

section Region4_b

variable (W : Dev nD → Valuation τ sig (Elt F))

/-- The proof data's arrays are the entry contents. -/
theorem A4_eq (c : Dev nD) (w : Fin cfg4.W) : (dat4 (Ix := Ix) (U := U) (Lvl := Lvl) W c).A w = VA4 W c (Pipeline.arrRef spec4 w) := by
  dsimp only [dat4]

/-- What the body leaves, window by window. -/
theorem after4_0 (c : Dev nD) (t : Fin cfg4.N) : (dat4 (Ix := Ix) (U := U) (Lvl := Lvl) W c).after 0 t = iblk4 W c 0 t := by dsimp only [dat4]
theorem after4_1 (c : Dev nD) (t : Fin cfg4.N) : (dat4 (Ix := Ix) (U := U) (Lvl := Lvl) W c).after 1 t = iblk4 W c 1 t := by dsimp only [dat4]
theorem after4_2 (c : Dev nD) (t : Fin cfg4.N) : (dat4 (Ix := Ix) (U := U) (Lvl := Lvl) W c).after 2 t = iblk4 W c 2 t := by dsimp only [dat4]
theorem after4_3 (c : Dev nD) (t : Fin cfg4.N) : (dat4 (Ix := Ix) (U := U) (Lvl := Lvl) W c).after 3 t = iblk4 W c 3 t := by dsimp only [dat4]
theorem after4_4 (c : Dev nD) (t : Fin cfg4.N) : (dat4 (Ix := Ix) (U := U) (Lvl := Lvl) W c).after 4 t = iblk4 W c 4 t := by dsimp only [dat4]
theorem after4_5 (c : Dev nD) (t : Fin cfg4.N) : (dat4 (Ix := Ix) (U := U) (Lvl := Lvl) W c).after 5 t = iblk4 W c 5 t := by dsimp only [dat4]
theorem after4_6 (c : Dev nD) (t : Fin cfg4.N) : (dat4 (Ix := Ix) (U := U) (Lvl := Lvl) W c).after 6 t = iblk4 W c 6 t := by dsimp only [dat4]
theorem after4_7 (c : Dev nD) (t : Fin cfg4.N) : (dat4 (Ix := Ix) (U := U) (Lvl := Lvl) W c).after 7 t = img4 W c t := by dsimp only [dat4]
theorem after4_8 (c : Dev nD) (t : Fin cfg4.N) : (dat4 (Ix := Ix) (U := U) (Lvl := Lvl) W c).after 8 t = (acc4 W c (t.val + 1) t.isLt).1 := by dsimp only [dat4]
theorem after4_9 (c : Dev nD) (t : Fin cfg4.N) : (dat4 (Ix := Ix) (U := U) (Lvl := Lvl) W c).after 9 t = (acc4 W c (t.val + 1) t.isLt).2 := by dsimp only [dat4]

/-- Input window 0's current staging buffer holds its block at every point, fetched there or not. -/
theorem before4_0 (c : Dev nD) (t : Fin cfg4.N) (d) : (dat4 (Ix := Ix) (U := U) (Lvl := Lvl) W c).before 0 t d = iblk4 W c 0 t :=
  ((dat4 (Ix := Ix) (U := U) (Lvl := Lvl) W c).before_in_eq_fetched 0 rfl (fun _ => rfl) (fun _ _ _ => rfl)
      (fun t => by rw [after4_0]; unfold Dat.blockOf iblk4; rw [A4_eq]; try rfl) t d).trans
    (by unfold Dat.fetched Dat.blockOf iblk4; rw [A4_eq]; try rfl)
/-- Input window 1's current staging buffer holds its block at every point, fetched there or not. -/
theorem before4_1 (c : Dev nD) (t : Fin cfg4.N) (d) : (dat4 (Ix := Ix) (U := U) (Lvl := Lvl) W c).before 1 t d = iblk4 W c 1 t :=
  ((dat4 (Ix := Ix) (U := U) (Lvl := Lvl) W c).before_in_eq_fetched 1 rfl (fun _ => rfl) (fun _ _ _ => rfl)
      (fun t => by rw [after4_1]; unfold Dat.blockOf iblk4; rw [A4_eq]; try rfl) t d).trans
    (by unfold Dat.fetched Dat.blockOf iblk4; rw [A4_eq]; try rfl)
/-- Input window 2's current staging buffer holds its block at every point, fetched there or not. -/
theorem before4_2 (c : Dev nD) (t : Fin cfg4.N) (d) : (dat4 (Ix := Ix) (U := U) (Lvl := Lvl) W c).before 2 t d = iblk4 W c 2 t :=
  ((dat4 (Ix := Ix) (U := U) (Lvl := Lvl) W c).before_in_eq_fetched 2 rfl (fun _ => rfl) (fun _ _ _ => rfl)
      (fun t => by rw [after4_2]; unfold Dat.blockOf iblk4; rw [A4_eq]; try rfl) t d).trans
    (by unfold Dat.fetched Dat.blockOf iblk4; rw [A4_eq]; try rfl)
/-- Input window 3's current staging buffer holds its block at every point, fetched there or not. -/
theorem before4_3 (c : Dev nD) (t : Fin cfg4.N) (d) : (dat4 (Ix := Ix) (U := U) (Lvl := Lvl) W c).before 3 t d = iblk4 W c 3 t :=
  ((dat4 (Ix := Ix) (U := U) (Lvl := Lvl) W c).before_in_eq_fetched 3 rfl (fun _ => rfl) (fun _ _ _ => rfl)
      (fun t => by rw [after4_3]; unfold Dat.blockOf iblk4; rw [A4_eq]; try rfl) t d).trans
    (by unfold Dat.fetched Dat.blockOf iblk4; rw [A4_eq]; try rfl)
/-- Input window 4's current staging buffer holds its block at every point, fetched there or not. -/
theorem before4_4 (c : Dev nD) (t : Fin cfg4.N) (d) : (dat4 (Ix := Ix) (U := U) (Lvl := Lvl) W c).before 4 t d = iblk4 W c 4 t :=
  ((dat4 (Ix := Ix) (U := U) (Lvl := Lvl) W c).before_in_eq_fetched 4 rfl (fun _ => rfl) (fun _ _ _ => rfl)
      (fun t => by rw [after4_4]; unfold Dat.blockOf iblk4; rw [A4_eq]; try rfl) t d).trans
    (by unfold Dat.fetched Dat.blockOf iblk4; rw [A4_eq]; try rfl)
/-- Input window 5's current staging buffer holds its block at every point, fetched there or not. -/
theorem before4_5 (c : Dev nD) (t : Fin cfg4.N) (d) : (dat4 (Ix := Ix) (U := U) (Lvl := Lvl) W c).before 5 t d = iblk4 W c 5 t :=
  ((dat4 (Ix := Ix) (U := U) (Lvl := Lvl) W c).before_in_eq_fetched 5 rfl (fun _ => rfl) (fun _ _ _ => rfl)
      (fun t => by rw [after4_5]; unfold Dat.blockOf iblk4; rw [A4_eq]; try rfl) t d).trans
    (by unfold Dat.fetched Dat.blockOf iblk4; rw [A4_eq]; try rfl)
/-- Input window 6's current staging buffer holds its block at every point, fetched there or not. -/
theorem before4_6 (c : Dev nD) (t : Fin cfg4.N) (d) : (dat4 (Ix := Ix) (U := U) (Lvl := Lvl) W c).before 6 t d = iblk4 W c 6 t :=
  ((dat4 (Ix := Ix) (U := U) (Lvl := Lvl) W c).before_in_eq_fetched 6 rfl (fun _ => rfl) (fun _ _ _ => rfl)
      (fun t => by rw [after4_6]; unfold Dat.blockOf iblk4; rw [A4_eq]; try rfl) t d).trans
    (by unfold Dat.fetched Dat.blockOf iblk4; rw [A4_eq]; try rfl)

/-- The invariant at a point's start, restated at the point's number. -/
theorem Phi4_castSucc (c : Dev nD) (t : Fin cfg4.N) : (dat4 (Ix := Ix) (U := U) (Lvl := Lvl) W c).Φ t.castSucc = PhiS4 W c t.val (Nat.le_of_lt t.isLt) := by
  dsimp only [dat4]; simp only [Fin.coe_castSucc]

/-! ### The body obligation -/

/-- What the body is called with at point `t`, the windows one by one, -/
def bodyPre4 (ι : Ix) (c : Dev nD) (t : Fin cfg4.N) : sProp 𝕄 :=
  iprop((dat4 (Ix := Ix) (U := U) (Lvl := Lvl) W c).Φ t.castSucc ∗ (dat4 (Ix := Ix) (U := U) (Lvl := Lvl) W c).owesAt ι t.castSucc
    ∗ (∃ d, owns (c : Thread nD τ) (ms4_0 t) fullShare ((dat4 (Ix := Ix) (U := U) (Lvl := Lvl) W c).before 0 t d))
    ∗ (∃ d, owns (c : Thread nD τ) (ms4_1 t) fullShare ((dat4 (Ix := Ix) (U := U) (Lvl := Lvl) W c).before 1 t d))
    ∗ (∃ d, owns (c : Thread nD τ) (ms4_2 t) fullShare ((dat4 (Ix := Ix) (U := U) (Lvl := Lvl) W c).before 2 t d))
    ∗ (∃ d, owns (c : Thread nD τ) (ms4_3 t) fullShare ((dat4 (Ix := Ix) (U := U) (Lvl := Lvl) W c).before 3 t d))
    ∗ (∃ d, owns (c : Thread nD τ) (ms4_4 t) fullShare ((dat4 (Ix := Ix) (U := U) (Lvl := Lvl) W c).before 4 t d))
    ∗ (∃ d, owns (c : Thread nD τ) (ms4_5 t) fullShare ((dat4 (Ix := Ix) (U := U) (Lvl := Lvl) W c).before 5 t d))
    ∗ (∃ d, owns (c : Thread nD τ) (ms4_6 t) fullShare ((dat4 (Ix := Ix) (U := U) (Lvl := Lvl) W c).before 6 t d))
    ∗ (∃ d, owns (c : Thread nD τ) (ms4_7 t) fullShare ((dat4 (Ix := Ix) (U := U) (Lvl := Lvl) W c).before 7 t d))
    ∗ (∃ d, owns (c : Thread nD τ) (ms4_8 t) fullShare ((dat4 (Ix := Ix) (U := U) (Lvl := Lvl) W c).before 8 t d))
    ∗ (∃ d, owns (c : Thread nD τ) (ms4_9 t) fullShare ((dat4 (Ix := Ix) (U := U) (Lvl := Lvl) W c).before 9 t d)))

/-- and what it returns. -/
def bodyPost4 (ι : Ix) (c : Dev nD) (t : Fin cfg4.N) : sProp 𝕄 :=
  iprop((dat4 (Ix := Ix) (U := U) (Lvl := Lvl) W c).Φ t.succ ∗ (dat4 (Ix := Ix) (U := U) (Lvl := Lvl) W c).owesAt ι t.succ
    ∗ (dat4 (Ix := Ix) (U := U) (Lvl := Lvl) W c).leavesExact 0 t
    ∗ (dat4 (Ix := Ix) (U := U) (Lvl := Lvl) W c).leavesExact 1 t
    ∗ (dat4 (Ix := Ix) (U := U) (Lvl := Lvl) W c).leavesExact 2 t
    ∗ (dat4 (Ix := Ix) (U := U) (Lvl := Lvl) W c).leavesExact 3 t
    ∗ (dat4 (Ix := Ix) (U := U) (Lvl := Lvl) W c).leavesExact 4 t
    ∗ (dat4 (Ix := Ix) (U := U) (Lvl := Lvl) W c).leavesExact 5 t
    ∗ (dat4 (Ix := Ix) (U := U) (Lvl := Lvl) W c).leavesExact 6 t
    ∗ (dat4 (Ix := Ix) (U := U) (Lvl := Lvl) W c).leavesExact 7 t
    ∗ (dat4 (Ix := Ix) (U := U) (Lvl := Lvl) W c).leavesExact 8 t
    ∗ (dat4 (Ix := Ix) (U := U) (Lvl := Lvl) W c).leavesExact 9 t)

set_option maxHeartbeats 4000000 in
/-- The body at any point: the inputs' memrefs hold their blocks; the point's number says which of the three cases it is in; the
    invariant hands the body the scratch rows at the accumulation so far (at anything at the first point) and takes them back
    one block further; at the last point the small output windows receive the rows. -/
theorem sound_body4 (𝒱₀ : Variants) (ι : Ix) (c : Dev nD) (t : Fin cfg4.N) :
    (bodyPre4 (U := U) (Lvl := Lvl) W ι c t : sProp 𝕄) ⊢ wp frame (wpE (defs₀ (F := F)) 𝒱₀ c none) Set.univ (bodyAt4 t) (fun _ => bodyPost4 (U := U) (Lvl := Lvl) W ι c t) := by
  obtain ⟨n, hn⟩ := t
  have hN : n < 10 := lt_of_lt_of_eq hn (show cfg4.N = 10 from N_4)
  unfold bodyPre4 bodyPost4 bodyAt4
  simp only [before4_0, before4_1, before4_2, before4_3, before4_4, before4_5, before4_6]
  rw [show (dat4 (Ix := Ix) (U := U) (Lvl := Lvl) W c).owesAt ι (Fin.succ ⟨n, hn⟩) = (dat4 (Ix := Ix) (U := U) (Lvl := Lvl) W c).owesAt ι (Fin.castSucc ⟨n, hn⟩) from rfl]
  rw [show (dat4 (Ix := Ix) (U := U) (Lvl := Lvl) W c).Φ (Fin.succ ⟨n, hn⟩) = PhiS4 W c (n + 1) hn from rfl, Phi4_castSucc]
  rw [show (dat4 (Ix := Ix) (U := U) (Lvl := Lvl) W c).leavesExact 0 ⟨n, hn⟩ = owns (c : Thread nD τ) (ms4_0 ⟨n, hn⟩) fullShare ((dat4 (Ix := Ix) (U := U) (Lvl := Lvl) W c).after 0 ⟨n, hn⟩) from by
    unfold Dat.leavesExact; rw [live4_0 ⟨n, hn⟩], after4_0]
  rw [show (dat4 (Ix := Ix) (U := U) (Lvl := Lvl) W c).leavesExact 1 ⟨n, hn⟩ = owns (c : Thread nD τ) (ms4_1 ⟨n, hn⟩) fullShare ((dat4 (Ix := Ix) (U := U) (Lvl := Lvl) W c).after 1 ⟨n, hn⟩) from by
    unfold Dat.leavesExact; rw [live4_1 ⟨n, hn⟩], after4_1]
  rw [show (dat4 (Ix := Ix) (U := U) (Lvl := Lvl) W c).leavesExact 2 ⟨n, hn⟩ = owns (c : Thread nD τ) (ms4_2 ⟨n, hn⟩) fullShare ((dat4 (Ix := Ix) (U := U) (Lvl := Lvl) W c).after 2 ⟨n, hn⟩) from by
    unfold Dat.leavesExact; rw [live4_2 ⟨n, hn⟩], after4_2]
  rw [show (dat4 (Ix := Ix) (U := U) (Lvl := Lvl) W c).leavesExact 3 ⟨n, hn⟩ = owns (c : Thread nD τ) (ms4_3 ⟨n, hn⟩) fullShare ((dat4 (Ix := Ix) (U := U) (Lvl := Lvl) W c).after 3 ⟨n, hn⟩) from by
    unfold Dat.leavesExact; rw [live4_3 ⟨n, hn⟩], after4_3]
  rw [show (dat4 (Ix := Ix) (U := U) (Lvl := Lvl) W c).leavesExact 4 ⟨n, hn⟩ = owns (c : Thread nD τ) (ms4_4 ⟨n, hn⟩) fullShare ((dat4 (Ix := Ix) (U := U) (Lvl := Lvl) W c).after 4 ⟨n, hn⟩) from by
    unfold Dat.leavesExact; rw [live4_4 ⟨n, hn⟩], after4_4]
  rw [show (dat4 (Ix := Ix) (U := U) (Lvl := Lvl) W c).leavesExact 5 ⟨n, hn⟩ = owns (c : Thread nD τ) (ms4_5 ⟨n, hn⟩) fullShare ((dat4 (Ix := Ix) (U := U) (Lvl := Lvl) W c).after 5 ⟨n, hn⟩) from by
    unfold Dat.leavesExact; rw [live4_5 ⟨n, hn⟩], after4_5]
  rw [show (dat4 (Ix := Ix) (U := U) (Lvl := Lvl) W c).leavesExact 6 ⟨n, hn⟩ = owns (c : Thread nD τ) (ms4_6 ⟨n, hn⟩) fullShare ((dat4 (Ix := Ix) (U := U) (Lvl := Lvl) W c).after 6 ⟨n, hn⟩) from by
    unfold Dat.leavesExact; rw [live4_6 ⟨n, hn⟩], after4_6]
  rw [show (dat4 (Ix := Ix) (U := U) (Lvl := Lvl) W c).leavesExact 7 ⟨n, hn⟩ = owns (c : Thread nD τ) (ms4_7 ⟨n, hn⟩) fullShare ((dat4 (Ix := Ix) (U := U) (Lvl := Lvl) W c).after 7 ⟨n, hn⟩) from by
    unfold Dat.leavesExact; rw [live4_7 ⟨n, hn⟩], after4_7]
  rcases n with _ | n
  · -- the first point
    have hc1 : cond4_1 (grid4.coords ⟨0, hn⟩) := (hcond4_1 ⟨0, hn⟩).mpr rfl
    have hc2 : ¬cond4_2 (grid4.coords ⟨0, hn⟩) := fun h => (fun h => by (try dsimp only at h); omega) ((hcond4_2 ⟨0, hn⟩).mp h)
    rw [Dat.leavesExact_idle (dat4 (Ix := Ix) (U := U) (Lvl := Lvl) W c) 8 ⟨0, hn⟩ (idle4_8 _ hc2) (noFlush4_8 _ hc2), Dat.leavesExact_idle (dat4 (Ix := Ix) (U := U) (Lvl := Lvl) W c) 9 ⟨0, hn⟩ (idle4_9 _ hc2) (noFlush4_9 _ hc2)]
    rw [show PhiS4 W c (0 + 1) hn = iprop(iprop(owns (c : Thread nD τ) scM4_0 fullShare (acc4 W c (0 + 1) hn).1 ∗ owns (c : Thread nD τ) scM4_1 fullShare (acc4 W c (0 + 1) hn).2)
      ∗ Pipeline.scopedRestBut (Ix := Ix) (Name := ℕ) (U := U) (Lvl := Lvl) (Val := Elt F) spec4 c [cc4_scratch0, cc4_scratch1]) from rfl, acc4_succ, acc4_zero]
    rw [show PhiS4 (Ix := Ix) (U := U) (Lvl := Lvl) W c (Fin.val (⟨0, hn⟩ : Fin cfg4.N)) (Nat.le_of_lt hn) = Pipeline.scopedRest (Ix := Ix) (Name := ℕ) (U := U) (Lvl := Lvl) (Val := Elt F) spec4 c from rfl, scopedRest4_owns]
    unfold img4
    iintro ⟨⟨⟨HS0, HS1⟩, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
    iapply (body4_first 𝒱₀ c (grid4.coords ⟨0, hn⟩) _ _ _ _ _ _ _ _ _ _ _ _ _ _ _ _ _ _ _ _ _ _ _ _ hc1 hc2 (iblk4 W c 0 ⟨0, hn⟩) (iblk4 W c 1 ⟨0, hn⟩) (iblk4 W c 2 ⟨0, hn⟩) (iblk4 W c 3 ⟨0, hn⟩) (iblk4 W c 4 ⟨0, hn⟩) (iblk4 W c 5 ⟨0, hn⟩) (iblk4 W c 6 ⟨0, hn⟩) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hrest]
    · isplitr [Hrest]
      · isplitl [HS0]; · iexact HS0
        iexact HS1
      iexact Hrest
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [show PhiS4 W c (n + 1 + 1) hn = iprop(iprop(owns (c : Thread nD τ) scM4_0 fullShare (acc4 W c (n + 1 + 1) hn).1 ∗ owns (c : Thread nD τ) scM4_1 fullShare (acc4 W c (n + 1 + 1) hn).2)
      ∗ Pipeline.scopedRestBut (Ix := Ix) (Name := ℕ) (U := U) (Lvl := Lvl) (Val := Elt F) spec4 c [cc4_scratch0, cc4_scratch1]) from rfl, acc4_succ]
    rw [show PhiS4 (Ix := Ix) (U := U) (Lvl := Lvl) W c (Fin.val (⟨n + 1, hn⟩ : Fin cfg4.N)) (Nat.le_of_lt hn) = iprop(iprop(owns (c : Thread nD τ) scM4_0 fullShare (acc4 W c (n + 1) (Nat.le_of_lt hn)).1 ∗ owns (c : Thread nD τ) scM4_1 fullShare (acc4 W c (n + 1) (Nat.le_of_lt hn)).2)
      ∗ Pipeline.scopedRestBut (Ix := Ix) (Name := ℕ) (U := U) (Lvl := Lvl) (Val := Elt F) spec4 c [cc4_scratch0, cc4_scratch1]) from rfl]
    have hc1 : ¬cond4_1 (grid4.coords ⟨n + 1, hn⟩) := fun h => (fun h => by (try dsimp only at h); omega) ((hcond4_1 ⟨n + 1, hn⟩).mp h)
    by_cases h9 : n + 1 = 9
    · -- the last point
      have hc2 : cond4_2 (grid4.coords ⟨n + 1, hn⟩) := (hcond4_2 ⟨n + 1, hn⟩).mpr h9
      rw [show (dat4 (Ix := Ix) (U := U) (Lvl := Lvl) W c).leavesExact 8 ⟨n + 1, hn⟩ = owns (c : Thread nD τ) (ms4_8 ⟨n + 1, hn⟩) fullShare ((dat4 (Ix := Ix) (U := U) (Lvl := Lvl) W c).after 8 ⟨n + 1, hn⟩) from by
        unfold Dat.leavesExact; rw [live4_8 ⟨n + 1, hn⟩ hc2], after4_8]
      rw [show (dat4 (Ix := Ix) (U := U) (Lvl := Lvl) W c).leavesExact 9 ⟨n + 1, hn⟩ = owns (c : Thread nD τ) (ms4_9 ⟨n + 1, hn⟩) fullShare ((dat4 (Ix := Ix) (U := U) (Lvl := Lvl) W c).after 9 ⟨n + 1, hn⟩) from by
        unfold Dat.leavesExact; rw [live4_9 ⟨n + 1, hn⟩ hc2], after4_9]
      rw [acc4_succ W c (n + 1) hn]
      unfold img4
      iintro ⟨⟨⟨HS0, HS1⟩, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (body4_last 𝒱₀ c (grid4.coords ⟨n + 1, hn⟩) _ _ _ _ _ _ _ _ _ _ _ _ _ _ _ _ _ _ _ _ _ _ _ _ hc1 hc2 (iblk4 W c 0 ⟨n + 1, hn⟩) (iblk4 W c 1 ⟨n + 1, hn⟩) (iblk4 W c 2 ⟨n + 1, hn⟩) (iblk4 W c 3 ⟨n + 1, hn⟩) (iblk4 W c 4 ⟨n + 1, hn⟩) (iblk4 W c 5 ⟨n + 1, hn⟩) (iblk4 W c 6 ⟨n + 1, hn⟩) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS0]; · iexact HS0
      isplitl [HS1]; · iexact HS1
      iintro ⟨H0, H1, H2, H3, H4, H5, H6, H7, H8, H9, HS0, HS1⟩
      isplitl [HS0 HS1 Hrest]
      · isplitr [Hrest]
        · isplitl [HS0]; · iexact HS0
          iexact HS1
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · -- a middle point
      have hc2 : ¬cond4_2 (grid4.coords ⟨n + 1, hn⟩) := fun h => h9 ((hcond4_2 ⟨n + 1, hn⟩).mp h)
      rw [Dat.leavesExact_idle (dat4 (Ix := Ix) (U := U) (Lvl := Lvl) W c) 8 ⟨n + 1, hn⟩ (idle4_8 _ hc2) (noFlush4_8 _ hc2), Dat.leavesExact_idle (dat4 (Ix := Ix) (U := U) (Lvl := Lvl) W c) 9 ⟨n + 1, hn⟩ (idle4_9 _ hc2) (noFlush4_9 _ hc2)]
      unfold img4
      iintro ⟨⟨⟨HS0, HS1⟩, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
      iapply (body4_mid 𝒱₀ c (grid4.coords ⟨n + 1, hn⟩) _ _ _ _ _ _ _ _ _ _ _ _ _ _ _ _ _ _ _ _ _ _ _ _ hc1 hc2 (iblk4 W c 0 ⟨n + 1, hn⟩) (iblk4 W c 1 ⟨n + 1, hn⟩) (iblk4 W c 2 ⟨n + 1, hn⟩) (iblk4 W c 3 ⟨n + 1, hn⟩) (iblk4 W c 4 ⟨n + 1, hn⟩) (iblk4 W c 5 ⟨n + 1, hn⟩) (iblk4 W c 6 ⟨n + 1, hn⟩) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨H0, H1, H2, H3, H4, H5, H6, H7, HS0, HS1⟩
      isplitl [HS0 HS1 Hrest]
      · isplitr [Hrest]
        · isplitl [HS0]; · iexact HS0
          iexact HS1
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

/-- The library's body obligation, at every point. -/
theorem body_obligation4 (𝒱₀ : Variants) (ι : Ix) (c : Dev nD) : BodyObligation (dat4 (Ix := Ix) (U := U) (Lvl := Lvl) W c) (defs₀ (F := F)) 𝒱₀ ι Set.univ := fun t => by
  rw [bigSep_W4, bigSep_W4]
  exact sound_body4 (U := U) (Lvl := Lvl) W 𝒱₀ ι c t

end Region4_b

end Cert.KernelIdeal.Pass

end
-- ==== Proof.Pass2Region.lean ====
import proofs.«152416_j10892037062711_1_alg».proof.Proof.Gen.KernelIdeal.Launch
import proofs.«152416_j10892037062711_1_alg».proof.Proof.Gen.KernelIdeal.Skeleton
import proofs.«152416_j10892037062711_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«152416_j10892037062711_1_alg».proof.Proof.Pass2Dat
import proofs.«152416_j10892037062711_1_alg».proof.Proof.Pass1Region

set_option maxRecDepth 16384

noncomputable section

namespace Cert.KernelIdeal.Pass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)
open Cert.KernelIdeal.Gen

variable {F : FTy → Type} [FloatOps F]
variable {Ix : Type} [DecidableEq Ix] {U : Type} [URA U] {Lvl : Type} [Preorder Lvl]

local notation "𝕄" => MT nD τ sig Ix (Elt F) ℕ U Lvl

/-! ## Region 1 as a segment -/

section Region1_c

variable (W Wout : Dev nD → Valuation τ sig (Elt F))
variable (pdats : (p : Fin 6) → (c : Dev nD) → Dat τ (Elt F) Ix ℕ U Lvl (cfgs p) c)
variable (ι : Ix) (𝒱₀ : Variants) (L : GSem nD τ sig → Finset Ix) (lv : GSem nD τ sig → Ix → Lvl)

/-- After any point but the first the invariant holds the scratch rows at the accumulation. -/
theorem PhiS_pos1 (c : Dev nD) (n : ℕ) (h : n ≤ cfg1.N) (hz : n ≠ 0) :
    PhiS1 (Ix := Ix) (U := U) (Lvl := Lvl) W c n h
      = iprop(iprop(owns (c : Thread nD τ) scM1_0 fullShare (acc1 W c n h).1 ∗ owns (c : Thread nD τ) scM1_1 fullShare (acc1 W c n h).2)
        ∗ Pipeline.scopedRestBut (Ix := Ix) (Name := ℕ) (U := U) (Lvl := Lvl) (Val := Elt F) spec1 c [cc1_scratch0, cc1_scratch1]) := by
  cases n with
  | zero => exact absurd rfl hz
  | succ n => rfl

-- the library's entry and exit lemmas are stated over the family's configuration at the pipeline's index: unifying it with
-- the region's own takes unfolding plain definitions in a metavariable's type
set_option backward.isDefEq.respectTransparency.types false in
set_option maxHeartbeats 4000000 in
/-- REGION 1: entered from the unscoped buffers held at `W c` beside the rest state `Rst c` (the core owing nothing, and a rest `G c`), left with them held at `Wout c` — any valuation that
    has the region's arrays at their final contents and agrees with `W c` elsewhere — beside `Rst c`. The windows' arrays go into
    the pipeline; every other unscoped buffer and `G c` bypass the region; the invariant takes the scoped rest and gives it back. -/
def R1 (Rst G : Dev nD → sProp 𝕄)
    (hRin : ∀ c : Dev nD, Rst c ⊢ iprop((∃ Wd, owes (c : Thread nD τ) (0 : CellTallies nD τ sig Ix) Wd) ∗ G c))
    (hRout : ∀ c : Dev nD, iprop((∃ Wd, owes (c : Thread nD τ) (0 : CellTallies nD τ sig Ix) Wd) ∗ G c) ⊢ Rst c)
    (h0 : ∀ c, pdats 1 c = dat1 W c)
    (hWarr : ∀ c w, (dat1 (Ix := Ix) (U := U) (Lvl := Lvl) W c).arrAt w cfg1.N = VA1 Wout c (Pipeline.arrRef spec1 w))
    (hWrest : ∀ c b, b ∉ Finset.univ.image (Pipeline.arrRef spec1) → VA1 Wout c b = VA1 W c b) :
    RegionSeg (pcfgs (F := F)) adm pdats ι defs₀ 𝒱₀ L lv 1 where
  win := launch1.win.to₀
  block_pos := launch1.block_pos
  stage_whole := launch1.stage_whole
  K := PEmpty
  osem k := k.elim
  ho := Pipeline.OwnSemFacts.none _
  hbody c := by rw [h0 c]; exact (body_obligation1 W 𝒱₀ ι c).loose
  hwaits := Pipeline.hwaits_of_owed_zero _ _ _ _ L lv 1 fun c t => by rw [h0 c]; rfl
  pre c := iprop(StableHlo.held (c : Thread nD τ) (Pipeline.ucRefs τ sig) (W c) ∗ Rst c)
  post c := iprop(StableHlo.held (c : Thread nD τ) (Pipeline.ucRefs τ sig) (Wout c) ∗ Rst c)
  X _ := iprop(emp)
  Y _ := iprop(emp)
  Z c := iprop(Pipeline.unscopedRest (Ix := Ix) (Name := ℕ) (U := U) (Lvl := Lvl) spec1 c (VA1 W c) ∗ G c)
  hentry c := by
    rw [show StableHlo.held (c : Thread nD τ) (Pipeline.ucRefs τ sig) (W c) = unscopedBufs (Ix := Ix) (Name := ℕ) (U := U) (Lvl := Lvl) c (VA1 W c) from (Pipeline.unscopedBufs_held c (W c)).symm,
      Pipeline.ownSems0_none]
    have hsplit := Pipeline.arrays_of_unscopedBufs (p := 1) (pcfgs (F := F)) adm pdats launch1.win launch1.arr_whole c
      ((pdats 1 c).share_full fun w => by rw [h0 c]; rfl) (VA1 W c) (fun w => by rw [h0 c]; exact A1_eq W c w)
    have hr := hRin c
    iintro ⟨⟨Hub, HR⟩, -, -⟩
    ihave HR2 := hr $$ HR
    icases HR2 with ⟨HO, HG⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owesAt_of_owes (pdats 1 c) ι 0 (by rw [h0 c]; rfl) (by rw [h0 c]; rfl)); iexact HO
    isplitr; · iempintro
    isplitl [Hrest]; · iexact Hrest
    iexact HG
  hin c := by
    rw [h0 c, show (dat1 (Ix := Ix) (U := U) (Lvl := Lvl) W c).Φ 0 = Pipeline.scopedRest (Ix := Ix) (Name := ℕ) (U := U) (Lvl := Lvl) (Val := Elt F) spec1 c from rfl]
    iintro ⟨-, -, Hr⟩; iexact Hr
  hout c := by
    rw [h0 c, Pipeline.ownSems0_none]
    change PhiS1 (Ix := Ix) (U := U) (Lvl := Lvl) W c cfg1.N (Nat.le_refl _)
      ⊢ iprop(emp ∗ emp ∗ Pipeline.scopedRest (Ix := Ix) (Name := ℕ) (U := U) (Lvl := Lvl) (Val := Elt F) spec1 c)
    rw [PhiS_pos1 W c _ _ (by have : cfg1.N = 10 := N_1; omega), scopedRest1_owns]
    iintro ⟨⟨HS0, HS1⟩, Hrest⟩
    isplitr; · iempintro
    isplitr; · iempintro
    isplitr [Hrest]
    · isplitl [HS0]; · iexists _; iexact HS0
      iexists _; iexact HS1
    iexact Hrest
  hexit c := by
    have hjoin := Pipeline.unscopedBufs_of_arrays (pcfgs (F := F)) adm (p := 1) launch1.win launch1.arr_whole c pdats
      ((pdats 1 c).share_full fun w => by rw [h0 c]; rfl) (VA1 W c) (VA1 Wout c) (fun w => (pdats 1 c).arrAt w cfg1.N)
      (fun w => by rw [h0 c]; exact hWarr c w) (hWrest c)
    rw [show StableHlo.held (c : Thread nD τ) (Pipeline.ucRefs τ sig) (Wout c) = unscopedBufs (Ix := Ix) (Name := ℕ) (U := U) (Lvl := Lvl) c (VA1 Wout c) from (Pipeline.unscopedBufs_held c (Wout c)).symm]
    iintro ⟨Ha, HO, -, ⟨Hrest, HG⟩⟩
    imodintro
    isplitl [Ha Hrest]
    · iapply hjoin
      isplitl [Ha]; · iexact Ha
      iexact Hrest
    iapply (hRout c)
    isplitl [HO]; · iapply (owes_of_owesAt (pdats 1 c) ι _ (by rw [h0 c]; rfl)); iexact HO
    iexact HG

end Region1_c

/-! ## Region 4 as a segment -/

section Region4_c

variable (W Wout : Dev nD → Valuation τ sig (Elt F))
variable (pdats : (p : Fin 6) → (c : Dev nD) → Dat τ (Elt F) Ix ℕ U Lvl (cfgs p) c)
variable (ι : Ix) (𝒱₀ : Variants) (L : GSem nD τ sig → Finset Ix) (lv : GSem nD τ sig → Ix → Lvl)

/-- After any point but the first the invariant holds the scratch rows at the accumulation. -/
theorem PhiS_pos4 (c : Dev nD) (n : ℕ) (h : n ≤ cfg4.N) (hz : n ≠ 0) :
    PhiS4 (Ix := Ix) (U := U) (Lvl := Lvl) W c n h
      = iprop(iprop(owns (c : Thread nD τ) scM4_0 fullShare (acc4 W c n h).1 ∗ owns (c : Thread nD τ) scM4_1 fullShare (acc4 W c n h).2)
        ∗ Pipeline.scopedRestBut (Ix := Ix) (Name := ℕ) (U := U) (Lvl := Lvl) (Val := Elt F) spec4 c [cc4_scratch0, cc4_scratch1]) := by
  cases n with
  | zero => exact absurd rfl hz
  | succ n => rfl

-- the library's entry and exit lemmas are stated over the family's configuration at the pipeline's index: unifying it with
-- the region's own takes unfolding plain definitions in a metavariable's type
set_option backward.isDefEq.respectTransparency.types false in
set_option maxHeartbeats 4000000 in
/-- REGION 4: entered from the unscoped buffers held at `W c` beside the rest state `Rst c` (the core owing nothing, and a rest `G c`), left with them held at `Wout c` — any valuation that
    has the region's arrays at their final contents and agrees with `W c` elsewhere — beside `Rst c`. The windows' arrays go into
    the pipeline; every other unscoped buffer and `G c` bypass the region; the invariant takes the scoped rest and gives it back. -/
def R4 (Rst G : Dev nD → sProp 𝕄)
    (hRin : ∀ c : Dev nD, Rst c ⊢ iprop((∃ Wd, owes (c : Thread nD τ) (0 : CellTallies nD τ sig Ix) Wd) ∗ G c))
    (hRout : ∀ c : Dev nD, iprop((∃ Wd, owes (c : Thread nD τ) (0 : CellTallies nD τ sig Ix) Wd) ∗ G c) ⊢ Rst c)
    (h0 : ∀ c, pdats 4 c = dat4 W c)
    (hWarr : ∀ c w, (dat4 (Ix := Ix) (U := U) (Lvl := Lvl) W c).arrAt w cfg4.N = VA4 Wout c (Pipeline.arrRef spec4 w))
    (hWrest : ∀ c b, b ∉ Finset.univ.image (Pipeline.arrRef spec4) → VA4 Wout c b = VA4 W c b) :
    RegionSeg (pcfgs (F := F)) adm pdats ι defs₀ 𝒱₀ L lv 4 where
  win := launch4.win.to₀
  block_pos := launch4.block_pos
  stage_whole := launch4.stage_whole
  K := PEmpty
  osem k := k.elim
  ho := Pipeline.OwnSemFacts.none _
  hbody c := by rw [h0 c]; exact (body_obligation4 W 𝒱₀ ι c).loose
  hwaits := Pipeline.hwaits_of_owed_zero _ _ _ _ L lv 4 fun c t => by rw [h0 c]; rfl
  pre c := iprop(StableHlo.held (c : Thread nD τ) (Pipeline.ucRefs τ sig) (W c) ∗ Rst c)
  post c := iprop(StableHlo.held (c : Thread nD τ) (Pipeline.ucRefs τ sig) (Wout c) ∗ Rst c)
  X _ := iprop(emp)
  Y _ := iprop(emp)
  Z c := iprop(Pipeline.unscopedRest (Ix := Ix) (Name := ℕ) (U := U) (Lvl := Lvl) spec4 c (VA4 W c) ∗ G c)
  hentry c := by
    rw [show StableHlo.held (c : Thread nD τ) (Pipeline.ucRefs τ sig) (W c) = unscopedBufs (Ix := Ix) (Name := ℕ) (U := U) (Lvl := Lvl) c (VA4 W c) from (Pipeline.unscopedBufs_held c (W c)).symm,
      Pipeline.ownSems0_none]
    have hsplit := Pipeline.arrays_of_unscopedBufs (p := 4) (pcfgs (F := F)) adm pdats launch4.win launch4.arr_whole c
      ((pdats 4 c).share_full fun w => by rw [h0 c]; rfl) (VA4 W c) (fun w => by rw [h0 c]; exact A4_eq W c w)
    have hr := hRin c
    iintro ⟨⟨Hub, HR⟩, -, -⟩
    ihave HR2 := hr $$ HR
    icases HR2 with ⟨HO, HG⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owesAt_of_owes (pdats 4 c) ι 0 (by rw [h0 c]; rfl) (by rw [h0 c]; rfl)); iexact HO
    isplitr; · iempintro
    isplitl [Hrest]; · iexact Hrest
    iexact HG
  hin c := by
    rw [h0 c, show (dat4 (Ix := Ix) (U := U) (Lvl := Lvl) W c).Φ 0 = Pipeline.scopedRest (Ix := Ix) (Name := ℕ) (U := U) (Lvl := Lvl) (Val := Elt F) spec4 c from rfl]
    iintro ⟨-, -, Hr⟩; iexact Hr
  hout c := by
    rw [h0 c, Pipeline.ownSems0_none]
    change PhiS4 (Ix := Ix) (U := U) (Lvl := Lvl) W c cfg4.N (Nat.le_refl _)
      ⊢ iprop(emp ∗ emp ∗ Pipeline.scopedRest (Ix := Ix) (Name := ℕ) (U := U) (Lvl := Lvl) (Val := Elt F) spec4 c)
    rw [PhiS_pos4 W c _ _ (by have : cfg4.N = 10 := N_4; omega), scopedRest4_owns]
    iintro ⟨⟨HS0, HS1⟩, Hrest⟩
    isplitr; · iempintro
    isplitr; · iempintro
    isplitr [Hrest]
    · isplitl [HS0]; · iexists _; iexact HS0
      iexists _; iexact HS1
    iexact Hrest
  hexit c := by
    have hjoin := Pipeline.unscopedBufs_of_arrays (pcfgs (F := F)) adm (p := 4) launch4.win launch4.arr_whole c pdats
      ((pdats 4 c).share_full fun w => by rw [h0 c]; rfl) (VA4 W c) (VA4 Wout c) (fun w => (pdats 4 c).arrAt w cfg4.N)
      (fun w => by rw [h0 c]; exact hWarr c w) (hWrest c)
    rw [show StableHlo.held (c : Thread nD τ) (Pipeline.ucRefs τ sig) (Wout c) = unscopedBufs (Ix := Ix) (Name := ℕ) (U := U) (Lvl := Lvl) c (VA4 Wout c) from (Pipeline.unscopedBufs_held c (Wout c)).symm]
    iintro ⟨Ha, HO, -, ⟨Hrest, HG⟩⟩
    imodintro
    isplitl [Ha Hrest]
    · iapply hjoin
      isplitl [Ha]; · iexact Ha
      iexact Hrest
    iapply (hRout c)
    isplitl [HO]; · iapply (owes_of_owesAt (pdats 4 c) ι _ (by rw [h0 c]; rfl)); iexact HO
    iexact HG

end Region4_c

end Cert.KernelIdeal.Pass

end
-- ==== Proof.Frame.lean ====
/- The frame of `KernelIdeal` with no hypothesis left: the six regions' records over the stage-by-stage contents and proof data,
   so that every weakly fair execution of @main terminates, every argument ends as launched, and the result's buffer
   holds the last valuation of the chain. -/
import proofs.«152416_j10892037062711_1_alg».proof.Proof.FrameAssembly
import proofs.«152416_j10892037062711_1_alg».proof.Proof.StageArrays
import proofs.«152416_j10892037062711_1_alg».proof.Proof.Pass1Region
import proofs.«152416_j10892037062711_1_alg».proof.Proof.Pass2Region

set_option maxRecDepth 16384

noncomputable section

namespace Cert.KernelIdeal.Assembly

open Cert.KernelIdeal.Gen Cert.KernelIdeal.Pass3 Cert.KernelIdeal.Stages
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

/-- The four accumulating regions' proof data as functions of the entry contents, at the plain user algebra. -/
abbrev D0 : (Dev nD → Valuation τ sig (Elt F)) → (c : Dev nD) → Dat τ (Elt F) Unit ℕ (UR sig nD τ) ℕ cfg0 c :=
  fun W c => Pass.dat0 (Ix := Unit) (U := UR sig nD τ) (Lvl := ℕ) W c
abbrev D1 : (Dev nD → Valuation τ sig (Elt F)) → (c : Dev nD) → Dat τ (Elt F) Unit ℕ (UR sig nD τ) ℕ cfg1 c :=
  fun W c => Pass.dat1 (Ix := Unit) (U := UR sig nD τ) (Lvl := ℕ) W c
abbrev D3 : (Dev nD → Valuation τ sig (Elt F)) → (c : Dev nD) → Dat τ (Elt F) Unit ℕ (UR sig nD τ) ℕ cfg3 c :=
  fun W c => Pass.dat3 (Ix := Unit) (U := UR sig nD τ) (Lvl := ℕ) W c
abbrev D4 : (Dev nD → Valuation τ sig (Elt F)) → (c : Dev nD) → Dat τ (Elt F) Unit ℕ (UR sig nD τ) ℕ cfg4 c :=
  fun W c => Pass.dat4 (Ix := Unit) (U := UR sig nD τ) (Lvl := ℕ) W c

variable (m : (ℓ : Loc nD τ sig) → Buf (Elt F) ℓ)

/-- What the regions leave and every pipeline's proof data, along @main. -/
abbrev OUTS : Outs (F := F) := Stages.outs m D0 D1 D3 D4
abbrev PD : (p : Fin 6) → (c : Dev nD) → Dat τ (Elt F) Unit ℕ (UR sig nD τ) ℕ (cfgs p) c := Stages.pdats m D0 D1 D3 D4

/-- The generator register at some state: the part of the rest state an accumulating region carries past its pipeline. -/
abbrev Gp (c : Dev nD) : sProp 𝕄 := iprop(∃ r, prngReg c r)
theorem hRin (c : Dev nD) : R (F := F) c ⊢ iprop((∃ Wd, owes (c : Thread nD τ) (0 : CellTallies nD τ sig Unit) Wd) ∗ Gp (F := F) c) := by
  iintro ⟨Hp, Ho⟩
  isplitl [Ho]; · iexact Ho
  iexact Hp
theorem hRout (c : Dev nD) : iprop((∃ Wd, owes (c : Thread nD τ) (0 : CellTallies nD τ sig Unit) Wd) ∗ Gp (F := F) c) ⊢ R (F := F) c := by
  iintro ⟨Ho, Hp⟩
  isplitl [Hp]; · iexact Hp
  iexact Ho

set_option backward.isDefEq.respectTransparency.types false in
/-- Region 0's record over the chain's valuations before and after it. -/
def reg0 : RegionSeg (pcfgs (F := F)) adm (PD m) () defs₀ Variants.none L₀ lv₀ 0 :=
  Pass.R0 (V1 m) (V2 m (OUTS m)) (PD m) () Variants.none L₀ lv₀ (fun c => R (F := F) c) (fun c => Gp (F := F) c) hRin hRout
    (fun _ => rfl)
    (fun c w => Stages.hWarr0 m (OUTS m) (fun c => D0 (V1 m) c) (fun c w => Pass.A0_eq (V1 m) c w)
      (fun c w => Stages.outs2_arr m D0 D1 D3 D4 c w) c w)
    (fun c b hb => Stages.hWrest0 m (OUTS m) c b hb)

set_option backward.isDefEq.respectTransparency.types false in
/-- Region 1's record over the chain's valuations before and after it. -/
def reg1 : RegionSeg (pcfgs (F := F)) adm (PD m) () defs₀ Variants.none L₀ lv₀ 1 :=
  Pass.R1 (V3 m (OUTS m)) (V4 m (OUTS m)) (PD m) () Variants.none L₀ lv₀ (fun c => R (F := F) c) (fun c => Gp (F := F) c) hRin hRout
    (fun _ => rfl)
    (fun c w => Stages.hWarr1 m (OUTS m) (fun c => D1 (V3 m (OUTS m)) c) (fun c w => Pass.A1_eq (V3 m (OUTS m)) c w)
      (fun c w => Stages.outs4_arr m D0 D1 D3 D4 c w) c w)
    (fun c b hb => Stages.hWrest1 m (OUTS m) c b hb)

set_option backward.isDefEq.respectTransparency.types false in
/-- Region 3's record over the chain's valuations before and after it. -/
def reg3 : RegionSeg (pcfgs (F := F)) adm (PD m) () defs₀ Variants.none L₀ lv₀ 3 :=
  Pass.R3 (V7 m (OUTS m)) (V8 m (OUTS m)) (PD m) () Variants.none L₀ lv₀ (fun c => R (F := F) c) (fun c => Gp (F := F) c) hRin hRout
    (fun _ => rfl)
    (fun c w => Stages.hWarr3 m (OUTS m) (fun c => D3 (V7 m (OUTS m)) c) (fun c w => Pass.A3_eq (V7 m (OUTS m)) c w)
      (fun c w => Stages.outs8_arr m D0 D1 D3 D4 c w) c w)
    (fun c b hb => Stages.hWrest3 m (OUTS m) c b hb)

set_option backward.isDefEq.respectTransparency.types false in
/-- Region 4's record over the chain's valuations before and after it. -/
def reg4 : RegionSeg (pcfgs (F := F)) adm (PD m) () defs₀ Variants.none L₀ lv₀ 4 :=
  Pass.R4 (V9 m (OUTS m)) (V10 m (OUTS m)) (PD m) () Variants.none L₀ lv₀ (fun c => R (F := F) c) (fun c => Gp (F := F) c) hRin hRout
    (fun _ => rfl)
    (fun c w => Stages.hWarr4 m (OUTS m) (fun c => D4 (V9 m (OUTS m)) c) (fun c w => Pass.A4_eq (V9 m (OUTS m)) c w)
      (fun c w => Stages.outs10_arr m D0 D1 D3 D4 c w) c w)
    (fun c b hb => Stages.hWrest4 m (OUTS m) c b hb)

variable (ρ : Dev nD → PrngReg)

/-- THE RUN: every unscoped buffer ends at the last valuation of the chain. -/
theorem run : θ_run defs (onTc (τ := τ) (main (F := F))) ⟨m, fun _ => 0, ρ⟩ (fun r => ∀ c : Dev nD,
      ∀ b ∈ Pipeline.ucRefs τ sig, r.2.mem ((c.tc : Thread nD τ).1, b) = V13 m (OUTS m) c b) :=
  run_of_regions m ρ (OUTS m) (PD m) (fun _ => rfl) (fun _ => rfl) (Stages.houts6 m D0 D1 D3 D4) (Stages.houts12 m D0 D1 D3 D4)
    (reg0 m) (fun _ => .rfl) (fun _ => .rfl) (reg1 m) (fun _ => .rfl) (fun _ => .rfl)
    (reg3 m) (fun _ => .rfl) (fun _ => .rfl) (reg4 m) (fun _ => .rfl) (fun _ => .rfl)

/-- THE FRAME with the result named. -/
theorem result : θ_run defs (onTc (τ := τ) (main (F := F))) ⟨m, fun _ => 0, ρ⟩ (fun r => ∀ c : Dev nD,
      (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)
        ∧ r.2.mem ((c.tc : Thread nD τ).loc main_arg15) = m ((c.tc : Thread nD τ).loc main_arg15)
        ∧ r.2.mem ((c.tc : Thread nD τ).loc main_arg16) = m ((c.tc : Thread nD τ).loc main_arg16)
        ∧ r.2.mem ((c.tc : Thread nD τ).loc main_arg17) = m ((c.tc : Thread nD τ).loc main_arg17)
        ∧ r.2.mem ((c.tc : Thread nD τ).loc main_arg18) = m ((c.tc : Thread nD τ).loc main_arg18)
        ∧ r.2.mem ((c.tc : Thread nD τ).loc main_arg19) = m ((c.tc : Thread nD τ).loc main_arg19)
        ∧ r.2.mem ((c.tc : Thread nD τ).loc main_arg20) = m ((c.tc : Thread nD τ).loc main_arg20)
        ∧ r.2.mem ((c.tc : Thread nD τ).loc main_arg21) = m ((c.tc : Thread nD τ).loc main_arg21)
        ∧ r.2.mem ((c.tc : Thread nD τ).loc main_arg22) = m ((c.tc : Thread nD τ).loc main_arg22)
        ∧ r.2.mem ((c.tc : Thread nD τ).loc main_arg23) = m ((c.tc : Thread nD τ).loc main_arg23)
        ∧ r.2.mem ((c.tc : Thread nD τ).loc main_arg24) = m ((c.tc : Thread nD τ).loc main_arg24))
      ∧ r.2.mem ((c.tc : Thread nD τ).loc main_v90) = V13 m (OUTS m) c main_v90) :=
  (θ_run defs _ _).mono (fun r h c => post_of_all m (OUTS m) r.2 c (h c)) (run m ρ)

/-- THE FRAME: every weakly fair execution of @main terminates and every argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun r h c => (post_of_all m (OUTS m) r.2 c (h c)).1) (run m ρ)

end Cert.KernelIdeal.Assembly

end
-- ==== Proof.Pass3BodyW.lean ====
/- The proof data and the body obligations of the two pointwise regions of `Kernel`'s @main (the third pass of each
   layer): per row block, the batch-normalised, scaled, shifted rows clamped at zero. Stated at any contents `V` of the
   unscoped buffers at the region's entry. -/
import proofs.«152416_j10892037062711_1_alg».proof.Proof.Gen.Kernel.Launch
import proofs.«152416_j10892037062711_1_alg».proof.Proof.Gen.Kernel.Skeleton
import proofs.«152416_j10892037062711_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Pass3

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the pointwise pass (normalise, scale, shift, clamp at zero), at the entry contents `V` -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The whole row block and the whole parameter row, as rectangles. -/
abbrev rBlk2 : Rect S10000x64 := Rect.unit (s := S10000x64) ![0, 0] S10000x64.size inb_S10000x64_S10000x64_0_0
abbrev rRow2 : Rect S1x64 := Rect.unit (s := S1x64) ![0, 0] S1x64.size inb_S1x64_S1x64_0_0

/-- The output window's staging buffer after the body, from the five input blocks (the row block `x0`, the mean row `x1`,
    the variance row `x2`, the scale row `x3`, the shift row `x4`): its one store, of the pointwise payload. -/
def out2_5 (x0 : Vec F S10000x64 .f32) (x1 x2 x3 x4 : Vec F S1x64 .f32) : Vec F S10000x64 .f32 :=
  View.canon [⟨rBlk2, k2_pay1 (View.ld x0 rBlk2) (View.ld x2 rRow2) (View.ld x3 rRow2) (View.ld x1 rRow2) (View.ld x4 rRow2)⟩]

/-- The one store covers the buffer. -/
theorem cover2_5 (p0 : Vec F S10000x64 .f32) (y : S10000x64.Idx) :
    ∃ pc ∈ ([⟨rBlk2, p0⟩] : List (View.Piece (Elt F) S10000x64 .f32)), y ∈ pc.1.set :=
  View.cover_of_tiled [⟨rBlk2, p0⟩] S10000x64.size (by rfl) y

set_option maxHeartbeats 1000000 in
/-- The body on whole staging memrefs, the inputs' at read contents `x0 … x4` and the output's at anything, runs to the
    continuation holding the inputs' as they were and the output's at `out2_5` of them. -/
theorem sound_kernel2 (c : Dev nD) (E : Set ℕ) (i : grid2.Coords)
    (arg1 : Memref sig .tc .vmem S10000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S10000x64 .f32) (harg6 : arg6.IsWhole)
    (x0 : Vec F S10000x64 .f32) (x1 x2 x3 x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__pass3_kernel i arg1 harg1 arg2 harg2 arg3 harg3 arg4 harg4 arg5 harg5 arg6 harg6) K := by
  simp only [cc2__pass3_kernel_eq_skeleton]; unfold cc2__pass3_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- The proof data of pipeline 2 on core `c`: the arrays as the region finds them; after the body at point `t` each
    input's buffer at its block and the output's at `out2_5` of the input blocks; the invariant the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! # Region 5: the pointwise pass (normalise, scale, shift, clamp at zero), at the entry contents `V` -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds its block at every point, fetched there or not. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds its block at every point, fetched there or not. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's staging buffer holds its block at every point, fetched there or not. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's staging buffer holds its block at every point, fetched there or not. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- The whole row block and the whole parameter row, as rectangles. -/
abbrev rBlk5 : Rect S10000x64 := Rect.unit (s := S10000x64) ![0, 0] S10000x64.size inb_S10000x64_S10000x64_0_0
abbrev rRow5 : Rect S1x64 := Rect.unit (s := S1x64) ![0, 0] S1x64.size inb_S1x64_S1x64_0_0

/-- The output window's staging buffer after the body, from the five input blocks (the row block `x0`, the mean row `x1`,
    the variance row `x2`, the scale row `x3`, the shift row `x4`): its one store, of the pointwise payload. -/
def out5_5 (x0 : Vec F S10000x64 .f32) (x1 x2 x3 x4 : Vec F S1x64 .f32) : Vec F S10000x64 .f32 :=
  View.canon [⟨rBlk5, k5_pay1 (View.ld x0 rBlk5) (View.ld x2 rRow5) (View.ld x3 rRow5) (View.ld x1 rRow5) (View.ld x4 rRow5)⟩]

/-- The one store covers the buffer. -/
theorem cover5_5 (p0 : Vec F S10000x64 .f32) (y : S10000x64.Idx) :
    ∃ pc ∈ ([⟨rBlk5, p0⟩] : List (View.Piece (Elt F) S10000x64 .f32)), y ∈ pc.1.set :=
  View.cover_of_tiled [⟨rBlk5, p0⟩] S10000x64.size (by rfl) y

set_option maxHeartbeats 1000000 in
/-- The body on whole staging memrefs, the inputs' at read contents `x0 … x4` and the output's at anything, runs to the
    continuation holding the inputs' as they were and the output's at `out5_5` of them. -/
theorem sound_kernel5 (c : Dev nD) (E : Set ℕ) (i : grid5.Coords)
    (arg1 : Memref sig .tc .vmem S10000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S10000x64 .f32) (harg6 : arg6.IsWhole)
    (x0 : Vec F S10000x64 .f32) (x1 x2 x3 x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E (cc5__pass3_kernel i arg1 harg1 arg2 harg2 arg3 harg3 arg4 harg4 arg5 harg5 arg6 harg6) K := by
  simp only [cc5__pass3_kernel_eq_skeleton]; unfold cc5__pass3_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-- The proof data of pipeline 5 on core `c`: the arrays as the region finds them; after the body at point `t` each
    input's buffer at its block and the output's at `out5_5` of the input blocks; the invariant the scoped rest and the
    generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) :
    (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks, so the body's triple applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Pass3

end
-- ==== Proof.Pass3RegionW.lean ====
/- The two pointwise regions of `Kernel`'s @main as segment records: each entered from every unscoped buffer at the
   contents before it, left at the contents after it, its output array at what its write-backs leave. -/
import proofs.«152416_j10892037062711_1_alg».proof.Proof.Pass3BodyW
import proofs.«152416_j10892037062711_1_alg».proof.Proof.Gen.Kernel.Regions

set_option maxRecDepth 16384

noncomputable section

namespace Cert.Kernel.Pass3

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)

variable (m : (ℓ : Loc nD τ sig) → Buf (Elt F) ℓ) (outs : Outs (F := F))
variable (L : GSem nD τ sig → Finset Unit) (lv : GSem nD τ sig → Unit → ℕ)

/-! # Region 2 as a segment -/

/-- The unscoped buffers as region 2 finds them, read at the TensorCore's references. -/
abbrev Vin2 : (c : Dev nD) → (b : Ref sig .tc) → Buf (Elt F) ((c : Thread nD τ).loc b) := fun c b => V5 m outs c b

/-- Region 2's output array is `main_v34` (its window 5), and none of its input arrays is. -/
theorem arrRef2_5 : Pipeline.arrRef spec2 5 = main_v34 := by decide
theorem arrRef2_in : ∀ w : Fin cfg2.W, w ≠ 5 → Pipeline.arrRef spec2 w ∉ ([main_v34] : List (Ref sig .tc)) := by decide

/-- The contents region 2 leaves in `main_v34`: what its write-backs leave of the body's stores, block by block. -/
def left2 (c : Dev nD) : Buf (Elt F) ((c : Thread nD τ).loc main_v34) := (dat2 (Vin2 m outs) c).arrAt 5 cfg2.N

section
variable (pdats : (p : Fin 6) → (c : Dev nD) → Dat τ (Elt F) Unit ℕ (UR sig nD τ) ℕ (cfgs p) c)
  (hp : ∀ c, pdats 2 c = dat2 (Vin2 m outs) c)
  (houts : ∀ c, outs 6 main_v34 c = left2 m outs c)

include hp houts in
/-- At region 2's exit each of its arrays holds what the pipeline leaves: an input array its entry contents, the output
    array the unknown `outs 6 main_v34`, which is therefore what the write-backs leave. -/
theorem hF2 (c : Dev nD) (w : Fin cfg2.W) : (pdats 2 c).arrAt w cfg2.N = V6 m outs c (Pipeline.arrRef spec2 w) := by
  rw [hp c]
  by_cases hw : w = 5
  · subst hw
    rw [show V6 m outs c (Pipeline.arrRef spec2 5) = outs 6 main_v34 c from Function.update_self _ _ _]
    rw [houts c]; rfl
  · have hin : (cfg2.win w).isOut = false := by
      revert w; decide
    rw [(dat2 (Vin2 m outs) c).arrAt_in w hin _, A_eq2]
    exact (V6_of m outs c _ (arrRef2_in w hw)).symm

theorem hrest2 (c : Dev nD) : ∀ b, b ∉ Finset.univ.image (Pipeline.arrRef spec2) → V6 m outs c b = V5 m outs c b :=
  fun b hb => V6_of m outs c b fun hmem => hb (Finset.mem_image.mpr ⟨5, Finset.mem_univ _, by
    rw [arrRef2_5]; exact (List.mem_singleton.mp hmem).symm⟩)

set_option backward.isDefEq.respectTransparency.types false in
/-- REGION 2 over the thread state: entered from every unscoped buffer at the contents before it beside `R`, left at the
    contents after it beside `R`. Its arrays split out of the unscoped buffers and put back at the exit contents; the
    generator register into the invariant and out; nothing owed; no semaphore of the kernel's own. -/
def reg2 : Pipeline.RegionSeg (pcfgs (F := F)) adm pdats () defs₀ Variants.none L lv 2 where
  win := launch2.win.to₀
  block_pos := launch2.block_pos
  stage_whole := launch2.stage_whole
  K := PEmpty
  osem k := k.elim
  ho := Pipeline.OwnSemFacts.none _
  hbody c := by rw [hp c]; exact (body_obligation2 (Vin2 m outs) c).loose
  hwaits := Pipeline.hwaits_of_owed_zero _ _ _ _ L lv 2 fun c _ => by rw [hp c]; rfl
  pre c := iprop(StableHlo.held (c : Thread nD τ) (Pipeline.ucRefs τ sig) (V5 m outs c) ∗ R c)
  post c := iprop(StableHlo.held (c : Thread nD τ) (Pipeline.ucRefs τ sig) (V6 m outs c) ∗ R c)
  X c := iprop(∃ r, prngReg c r)
  Y c := iprop(∃ r, prngReg c r)
  Z c := Pipeline.unscopedRest (Ix := Unit) (Name := ℕ) (U := UR sig nD τ) (Lvl := ℕ) spec2 c (Vin2 m outs c)
  hentry c := by
    rw [Pipeline.ownSems0_none]
    have hsplit := Pipeline.arrays_of_unscopedBufs (p := 2) (pcfgs (F := F)) adm pdats launch2.win launch2.arr_whole c
      ((pdats 2 c).share_full fun _ => by rw [hp c]; rfl) (Vin2 m outs c) fun w => by rw [hp c]; rfl
    rw [Pipeline.unscopedBufs_held] at hsplit
    rw [hp c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 2 c).Φ 0 = Pipeline.ΦA spec2 c from by rw [hp c]; rfl]; unfold Pipeline.ΦA
    iintro ⟨Hp, -, Hr⟩
    isplitl [Hr]; · iexact Hr
    iexact Hp
  hout c := by
    rw [Pipeline.ownSems0_none, show (pdats 2 c).Φ (Fin.last _) = Pipeline.ΦA spec2 c from by rw [hp c]; rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c pdats ((pdats 2 c).share_full fun _ => by rw [hp c]; rfl)
      (Vin2 m outs c) (fun b => V6 m outs c b) ((pdats 2 c).arrAt · cfg2.N) (hF2 m outs pdats hp houts c) (hrest2 m outs c)
    rw [Pipeline.unscopedBufs_held] at hjoin
    rw [hp c] at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The region's record is entered from and left at the thread states the conditional frame names, the rest states being `R`. -/
theorem reg2_pre (c : Dev nD) :
    iprop(StableHlo.held (c : Thread nD τ) (Pipeline.ucRefs τ sig) (V5 m outs c) ∗ R (F := F) c) ⊢ (reg2 m outs L lv pdats hp houts).pre c := .rfl
theorem reg2_post (c : Dev nD) :
    (reg2 m outs L lv pdats hp houts).post c ⊢ iprop(StableHlo.held (c : Thread nD τ) (Pipeline.ucRefs τ sig) (V6 m outs c) ∗ R (F := F) c) := .rfl
end

/-! # Region 5 as a segment -/

/-- The unscoped buffers as region 5 finds them, read at the TensorCore's references. -/
abbrev Vin5 : (c : Dev nD) → (b : Ref sig .tc) → Buf (Elt F) ((c : Thread nD τ).loc b) := fun c b => V11 m outs c b

/-- Region 5's output array is `main_v65` (its window 5), and none of its input arrays is. -/
theorem arrRef5_5 : Pipeline.arrRef spec5 5 = main_v65 := by decide
theorem arrRef5_in : ∀ w : Fin cfg5.W, w ≠ 5 → Pipeline.arrRef spec5 w ∉ ([main_v65] : List (Ref sig .tc)) := by decide

/-- The contents region 5 leaves in `main_v65`: what its write-backs leave of the body's stores, block by block. -/
def left5 (c : Dev nD) : Buf (Elt F) ((c : Thread nD τ).loc main_v65) := (dat5 (Vin5 m outs) c).arrAt 5 cfg5.N

section
variable (pdats : (p : Fin 6) → (c : Dev nD) → Dat τ (Elt F) Unit ℕ (UR sig nD τ) ℕ (cfgs p) c)
  (hp : ∀ c, pdats 5 c = dat5 (Vin5 m outs) c)
  (houts : ∀ c, outs 12 main_v65 c = left5 m outs c)

include hp houts in
/-- At region 5's exit each of its arrays holds what the pipeline leaves: an input array its entry contents, the output
    array the unknown `outs 12 main_v65`, which is therefore what the write-backs leave. -/
theorem hF5 (c : Dev nD) (w : Fin cfg5.W) : (pdats 5 c).arrAt w cfg5.N = V12 m outs c (Pipeline.arrRef spec5 w) := by
  rw [hp c]
  by_cases hw : w = 5
  · subst hw
    rw [show V12 m outs c (Pipeline.arrRef spec5 5) = outs 12 main_v65 c from Function.update_self _ _ _]
    rw [houts c]; rfl
  · have hin : (cfg5.win w).isOut = false := by
      revert w; decide
    rw [(dat5 (Vin5 m outs) c).arrAt_in w hin _, A_eq5]
    exact (V12_of m outs c _ (arrRef5_in w hw)).symm

theorem hrest5 (c : Dev nD) : ∀ b, b ∉ Finset.univ.image (Pipeline.arrRef spec5) → V12 m outs c b = V11 m outs c b :=
  fun b hb => V12_of m outs c b fun hmem => hb (Finset.mem_image.mpr ⟨5, Finset.mem_univ _, by
    rw [arrRef5_5]; exact (List.mem_singleton.mp hmem).symm⟩)

set_option backward.isDefEq.respectTransparency.types false in
/-- REGION 5 over the thread state: entered from every unscoped buffer at the contents before it beside `R`, left at the
    contents after it beside `R`. Its arrays split out of the unscoped buffers and put back at the exit contents; the
    generator register into the invariant and out; nothing owed; no semaphore of the kernel's own. -/
def reg5 : Pipeline.RegionSeg (pcfgs (F := F)) adm pdats () defs₀ Variants.none L lv 5 where
  win := launch5.win.to₀
  block_pos := launch5.block_pos
  stage_whole := launch5.stage_whole
  K := PEmpty
  osem k := k.elim
  ho := Pipeline.OwnSemFacts.none _
  hbody c := by rw [hp c]; exact (body_obligation5 (Vin5 m outs) c).loose
  hwaits := Pipeline.hwaits_of_owed_zero _ _ _ _ L lv 5 fun c _ => by rw [hp c]; rfl
  pre c := iprop(StableHlo.held (c : Thread nD τ) (Pipeline.ucRefs τ sig) (V11 m outs c) ∗ R c)
  post c := iprop(StableHlo.held (c : Thread nD τ) (Pipeline.ucRefs τ sig) (V12 m outs c) ∗ R c)
  X c := iprop(∃ r, prngReg c r)
  Y c := iprop(∃ r, prngReg c r)
  Z c := Pipeline.unscopedRest (Ix := Unit) (Name := ℕ) (U := UR sig nD τ) (Lvl := ℕ) spec5 c (Vin5 m outs c)
  hentry c := by
    rw [Pipeline.ownSems0_none]
    have hsplit := Pipeline.arrays_of_unscopedBufs (p := 5) (pcfgs (F := F)) adm pdats launch5.win launch5.arr_whole c
      ((pdats 5 c).share_full fun _ => by rw [hp c]; rfl) (Vin5 m outs c) fun w => by rw [hp c]; rfl
    rw [Pipeline.unscopedBufs_held] at hsplit
    rw [hp c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 5 c).Φ 0 = Pipeline.ΦA spec5 c from by rw [hp c]; rfl]; unfold Pipeline.ΦA
    iintro ⟨Hp, -, Hr⟩
    isplitl [Hr]; · iexact Hr
    iexact Hp
  hout c := by
    rw [Pipeline.ownSems0_none, show (pdats 5 c).Φ (Fin.last _) = Pipeline.ΦA spec5 c from by rw [hp c]; rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c pdats ((pdats 5 c).share_full fun _ => by rw [hp c]; rfl)
      (Vin5 m outs c) (fun b => V12 m outs c b) ((pdats 5 c).arrAt · cfg5.N) (hF5 m outs pdats hp houts c) (hrest5 m outs c)
    rw [Pipeline.unscopedBufs_held] at hjoin
    rw [hp c] at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The region's record is entered from and left at the thread states the conditional frame names, the rest states being `R`. -/
theorem reg5_pre (c : Dev nD) :
    iprop(StableHlo.held (c : Thread nD τ) (Pipeline.ucRefs τ sig) (V11 m outs c) ∗ R (F := F) c) ⊢ (reg5 m outs L lv pdats hp houts).pre c := .rfl
theorem reg5_post (c : Dev nD) :
    (reg5 m outs L lv pdats hp houts).post c ⊢ iprop(StableHlo.held (c : Thread nD τ) (Pipeline.ucRefs τ sig) (V12 m outs c) ∗ R (F := F) c) := .rfl
end

end Cert.Kernel.Pass3

end
-- ==== Proof.FrameAssemblyW.lean ====
/- @main of `Kernel` as a run of its seven host stretches and six kernel regions: from one segment record per region,
   every unscoped buffer ends at the last valuation of the chain — so each argument ends as launched and the result
   holds what the chain computes. The two pointwise regions' records are supplied here; the four accumulating regions'
   are taken as given. -/
import proofs.«152416_j10892037062711_1_alg».proof.Proof.Pass3RegionW

set_option maxRecDepth 16384

noncomputable section

namespace Cert.Kernel.Assembly

open Cert.Kernel.Gen Cert.Kernel.Pass3
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

/-- An unscoped TensorCore reference is among those the thread states hold. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN, given the regions' records: for any user algebra, level assignment, launch dues and ghost resources, any rest
    states `E` the launch makes on every core at once and that end owing nothing, any contents `outs` the regions leave and
    any proof data, GIVEN per region a segment record entered from the thread state before it and left at the one after
    it: every weakly fair execution of @main from memory `m` with zero counters terminates, and in every final memory
    every unscoped buffer of every core holds the last valuation `V13 m outs c` of the chain. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 6) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 7 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE6 : ∀ c : Dev nD, E 6 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V11 m outs c) ∗ E 5 c) ⊢ R5.pre c)
    (hpost5 : ∀ c : Dev nD, R5.post c ⊢ iprop(StableHlo.held (c : Thread nD τ) (Pipeline.ucRefs τ sig) (V12 m outs c) ∗ E 6 c)) :
    θ_run defs (onTc (τ := τ) (main (F := F))) ⟨m, fun _ => 0, ρ⟩ (fun r => ∀ c : Dev nD,
      ∀ b ∈ Pipeline.ucRefs τ sig, r.2.mem ((c.tc : Thread nD τ).1, b) = V13 m outs c b) := by
  refine Pipeline.θ_run_regions_kit_dev (pcfgs (F := F)) adm pdats ι cellOf_inj EP defs₀ 𝒱₀ L lv m ρ main
    (segs m outs 𝒱₀ L lv E ι pdats R0 R1 R2 R3 R4 R5)
    (fun c Q => by
      rewrite [main_chain c, Seg.run_eq_chain,
        show (segs m outs 𝒱₀ L lv E ι pdats R0 R1 R2 R3 R4 R5 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V13 m outs c))
    (hch := fun c => ⟨.rfl, hpre0 c, hpost0 c, hpre1 c, hpost1 c, hpre2 c, hpost2 c, hpre3 c, hpost3 c, hpre4 c, hpost4 c, hpre5 c, hpost5 c, sep_mono .rfl (hE6 c)⟩)
    (hinit := ?_) (QY := fun c s => ∀ b ∈ Pipeline.ucRefs τ sig, s.mem ((c.tc : Thread nD τ).1, b) = V13 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V13 m outs c) s') $$ [Hh HSI]
    · isplitl [Hh] <;> iassumption
    icases Hr with ⟨%h, HSI⟩
    imodintro
    isplitr
    · ipureintro; exact h
    · iexact HSI

/-- What the run's post says of the arguments and of the result: each argument's buffer as launched (no host stretch
    writes one, no region may change one), the result's at the last valuation. -/
theorem post_of_all (outs : Outs (F := F)) (s : MemSt nD τ sig (Elt F)) (c : Dev nD)
    (h : ∀ b ∈ Pipeline.ucRefs τ sig, s.mem ((c.tc : Thread nD τ).1, b) = V13 m outs c b) :
    (s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13)
      ∧ s.mem ((c.tc : Thread nD τ).loc main_arg14) = m ((c.tc : Thread nD τ).loc main_arg14)
      ∧ s.mem ((c.tc : Thread nD τ).loc main_arg15) = m ((c.tc : Thread nD τ).loc main_arg15)
      ∧ s.mem ((c.tc : Thread nD τ).loc main_arg16) = m ((c.tc : Thread nD τ).loc main_arg16)
      ∧ s.mem ((c.tc : Thread nD τ).loc main_arg17) = m ((c.tc : Thread nD τ).loc main_arg17)
      ∧ s.mem ((c.tc : Thread nD τ).loc main_arg18) = m ((c.tc : Thread nD τ).loc main_arg18)
      ∧ s.mem ((c.tc : Thread nD τ).loc main_arg19) = m ((c.tc : Thread nD τ).loc main_arg19)
      ∧ s.mem ((c.tc : Thread nD τ).loc main_arg20) = m ((c.tc : Thread nD τ).loc main_arg20)
      ∧ s.mem ((c.tc : Thread nD τ).loc main_arg21) = m ((c.tc : Thread nD τ).loc main_arg21)
      ∧ s.mem ((c.tc : Thread nD τ).loc main_arg22) = m ((c.tc : Thread nD τ).loc main_arg22)
      ∧ s.mem ((c.tc : Thread nD τ).loc main_arg23) = m ((c.tc : Thread nD τ).loc main_arg23)
      ∧ s.mem ((c.tc : Thread nD τ).loc main_arg24) = m ((c.tc : Thread nD τ).loc main_arg24))
    ∧ s.mem ((c.tc : Thread nD τ).loc main_v90) = V13 m outs c main_v90 :=
  ⟨⟨(h _ (mem_uc main_arg0 (by decide))).trans (V13_main_arg0 m outs c),
    (h _ (mem_uc main_arg1 (by decide))).trans (V13_main_arg1 m outs c),
    (h _ (mem_uc main_arg2 (by decide))).trans (V13_main_arg2 m outs c),
    (h _ (mem_uc main_arg3 (by decide))).trans (V13_main_arg3 m outs c),
    (h _ (mem_uc main_arg4 (by decide))).trans (V13_main_arg4 m outs c),
    (h _ (mem_uc main_arg5 (by decide))).trans (V13_main_arg5 m outs c),
    (h _ (mem_uc main_arg6 (by decide))).trans (V13_main_arg6 m outs c),
    (h _ (mem_uc main_arg7 (by decide))).trans (V13_main_arg7 m outs c),
    (h _ (mem_uc main_arg8 (by decide))).trans (V13_main_arg8 m outs c),
    (h _ (mem_uc main_arg9 (by decide))).trans (V13_main_arg9 m outs c),
    (h _ (mem_uc main_arg10 (by decide))).trans (V13_main_arg10 m outs c),
    (h _ (mem_uc main_arg11 (by decide))).trans (V13_main_arg11 m outs c),
    (h _ (mem_uc main_arg12 (by decide))).trans (V13_main_arg12 m outs c),
    (h _ (mem_uc main_arg13 (by decide))).trans (V13_main_arg13 m outs c),
    (h _ (mem_uc main_arg14 (by decide))).trans (V13_main_arg14 m outs c),
    (h _ (mem_uc main_arg15 (by decide))).trans (V13_main_arg15 m outs c),
    (h _ (mem_uc main_arg16 (by decide))).trans (V13_main_arg16 m outs c),
    (h _ (mem_uc main_arg17 (by decide))).trans (V13_main_arg17 m outs c),
    (h _ (mem_uc main_arg18 (by decide))).trans (V13_main_arg18 m outs c),
    (h _ (mem_uc main_arg19 (by decide))).trans (V13_main_arg19 m outs c),
    (h _ (mem_uc main_arg20 (by decide))).trans (V13_main_arg20 m outs c),
    (h _ (mem_uc main_arg21 (by decide))).trans (V13_main_arg21 m outs c),
    (h _ (mem_uc main_arg22 (by decide))).trans (V13_main_arg22 m outs c),
    (h _ (mem_uc main_arg23 (by decide))).trans (V13_main_arg23 m outs c),
    (h _ (mem_uc main_arg24 (by decide))).trans (V13_main_arg24 m outs c)⟩,
    h _ (mem_uc main_v90 (by decide))⟩

/-! ## At the plain user algebra: nothing owed, no level, the generator register riding along -/

section Concrete

local notation "𝕄" => MT nD τ sig Unit (Elt F) ℕ (UR sig nD τ) ℕ

/-- No core owes another anything: no level is assigned. -/
abbrev L₀ : GSem nD τ sig → Finset Unit := fun _ => ∅
abbrev lv₀ : GSem nD τ sig → Unit → ℕ := fun _ _ => 0
/-- The rest state between any two items: the generator register at some state, nothing owed. -/
abbrev E₀ : Fin 7 → Dev nD → sProp 𝕄 := fun _ c => R (F := F) c

variable (ρ : Dev nD → PrngReg) (outs : Outs (F := F))
  (pdats : (p : Fin 6) → (c : Dev nD) → Dat τ (Elt F) Unit ℕ (UR sig nD τ) ℕ (cfgs p) c)
  (hp2 : ∀ c, pdats 2 c = dat2 (Vin2 m outs) c) (hp5 : ∀ c, pdats 5 c = dat5 (Vin5 m outs) c)
  (houts6 : ∀ c, outs 6 main_v34 c = left2 m outs c) (houts12 : ∀ c, outs 12 main_v65 c = left5 m outs c)
  (R0 : RegionSeg (pcfgs (F := F)) adm pdats () defs₀ Variants.none L₀ lv₀ 0)
  (hpre0 : ∀ c : Dev nD, iprop(StableHlo.held (c : Thread nD τ) (Pipeline.ucRefs τ sig) (V1 m c) ∗ R (F := F) c) ⊢ R0.pre c)
  (hpost0 : ∀ c : Dev nD, R0.post c ⊢ iprop(StableHlo.held (c : Thread nD τ) (Pipeline.ucRefs τ sig) (V2 m outs c) ∗ R (F := F) c))
  (R1 : RegionSeg (pcfgs (F := F)) adm pdats () defs₀ Variants.none L₀ lv₀ 1)
  (hpre1 : ∀ c : Dev nD, iprop(StableHlo.held (c : Thread nD τ) (Pipeline.ucRefs τ sig) (V3 m outs c) ∗ R (F := F) c) ⊢ R1.pre c)
  (hpost1 : ∀ c : Dev nD, R1.post c ⊢ iprop(StableHlo.held (c : Thread nD τ) (Pipeline.ucRefs τ sig) (V4 m outs c) ∗ R (F := F) c))
  (R3 : RegionSeg (pcfgs (F := F)) adm pdats () defs₀ Variants.none L₀ lv₀ 3)
  (hpre3 : ∀ c : Dev nD, iprop(StableHlo.held (c : Thread nD τ) (Pipeline.ucRefs τ sig) (V7 m outs c) ∗ R (F := F) c) ⊢ R3.pre c)
  (hpost3 : ∀ c : Dev nD, R3.post c ⊢ iprop(StableHlo.held (c : Thread nD τ) (Pipeline.ucRefs τ sig) (V8 m outs c) ∗ R (F := F) c))
  (R4 : RegionSeg (pcfgs (F := F)) adm pdats () defs₀ Variants.none L₀ lv₀ 4)
  (hpre4 : ∀ c : Dev nD, iprop(StableHlo.held (c : Thread nD τ) (Pipeline.ucRefs τ sig) (V9 m outs c) ∗ R (F := F) c) ⊢ R4.pre c)
  (hpost4 : ∀ c : Dev nD, R4.post c ⊢ iprop(StableHlo.held (c : Thread nD τ) (Pipeline.ucRefs τ sig) (V10 m outs c) ∗ R (F := F) c))

include hp2 hp5 houts6 houts12 hpre0 hpost0 hpre1 hpost1 hpre3 hpost3 hpre4 hpost4 in
/-- The run from the four accumulating regions' records: the two pointwise regions' are this development's. -/
theorem run_of_regions : θ_run defs (onTc (τ := τ) (main (F := F))) ⟨m, fun _ => 0, ρ⟩ (fun r => ∀ c : Dev nD,
      ∀ b ∈ Pipeline.ucRefs τ sig, r.2.mem ((c.tc : Thread nD τ).1, b) = V13 m outs c b) :=
  run_cond m (EP := emb₁) (ι := ()) (𝒱₀ := Variants.none) (L := L₀) (lv := lv₀) (hL := fun _ _ => rfl) (ρ := ρ) (outs := outs) (pdats := pdats)
    (O₀ := 0) (G := fun _ => iprop(emp)) (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := E₀)
    (hE0 := by
      refine Pipeline.initEach L₀ lv₀ fun c => ?_
      iintro ⟨⟨-, HO, -, Hp, -⟩, -⟩
      imodintro
      isplitl [Hp]; · iexists _; iexact Hp
      iexists ∅; iexact HO)
    (hE6 := fun c => by iintro ⟨-, H⟩; iexact H)
    (R0 := R0) (hpre0 := hpre0) (hpost0 := hpost0) (R1 := R1) (hpre1 := hpre1) (hpost1 := hpost1)
    (R2 := reg2 m outs L₀ lv₀ pdats hp2 houts6) (hpre2 := fun _ => .rfl) (hpost2 := fun _ => .rfl)
    (R3 := R3) (hpre3 := hpre3) (hpost3 := hpost3) (R4 := R4) (hpre4 := hpre4) (hpost4 := hpost4)
    (R5 := reg5 m outs L₀ lv₀ pdats hp5 houts12) (hpre5 := fun _ => .rfl) (hpost5 := fun _ => .rfl)

include hp2 hp5 houts6 houts12 hpre0 hpost0 hpre1 hpost1 hpre3 hpost3 hpre4 hpost4 in
/-- THE FRAME with the result named: every argument ends as launched, and the result's buffer holds the last valuation. -/
theorem result_of_regions : θ_run defs (onTc (τ := τ) (main (F := F))) ⟨m, fun _ => 0, ρ⟩ (fun r => ∀ c : Dev nD,
      (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)
        ∧ r.2.mem ((c.tc : Thread nD τ).loc main_arg15) = m ((c.tc : Thread nD τ).loc main_arg15)
        ∧ r.2.mem ((c.tc : Thread nD τ).loc main_arg16) = m ((c.tc : Thread nD τ).loc main_arg16)
        ∧ r.2.mem ((c.tc : Thread nD τ).loc main_arg17) = m ((c.tc : Thread nD τ).loc main_arg17)
        ∧ r.2.mem ((c.tc : Thread nD τ).loc main_arg18) = m ((c.tc : Thread nD τ).loc main_arg18)
        ∧ r.2.mem ((c.tc : Thread nD τ).loc main_arg19) = m ((c.tc : Thread nD τ).loc main_arg19)
        ∧ r.2.mem ((c.tc : Thread nD τ).loc main_arg20) = m ((c.tc : Thread nD τ).loc main_arg20)
        ∧ r.2.mem ((c.tc : Thread nD τ).loc main_arg21) = m ((c.tc : Thread nD τ).loc main_arg21)
        ∧ r.2.mem ((c.tc : Thread nD τ).loc main_arg22) = m ((c.tc : Thread nD τ).loc main_arg22)
        ∧ r.2.mem ((c.tc : Thread nD τ).loc main_arg23) = m ((c.tc : Thread nD τ).loc main_arg23)
        ∧ r.2.mem ((c.tc : Thread nD τ).loc main_arg24) = m ((c.tc : Thread nD τ).loc main_arg24))
      ∧ r.2.mem ((c.tc : Thread nD τ).loc main_v90) = V13 m outs c main_v90) :=
  (θ_run defs _ _).mono (fun r h c => post_of_all m outs r.2 c (h c))
    (run_of_regions m ρ outs pdats hp2 hp5 houts6 houts12 R0 hpre0 hpost0 R1 hpre1 hpost1 R3 hpre3 hpost3 R4 hpre4 hpost4)

include hp2 hp5 houts6 houts12 hpre0 hpost0 hpre1 hpost1 hpre3 hpost3 hpre4 hpost4 in
/-- THE FRAME: every weakly fair execution of @main terminates and every argument ends as launched. -/
theorem frame_of_regions : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun r h c => (post_of_all m outs r.2 c (h c)).1)
    (run_of_regions m ρ outs pdats hp2 hp5 houts6 houts12 R0 hpre0 hpost0 R1 hpre1 hpost1 R3 hpre3 hpost3 R4 hpre4 hpost4)

end Concrete

end Cert.Kernel.Assembly

end
-- ==== Proof.StagesW.lean ====
/- The contents the six regions of `Kernel`'s @main leave, and every pipeline's proof data, stage by stage along @main:
   each region's arrays at what its write-backs leave from the contents it is entered at, those contents being the chain's
   valuation before it — which reads only what EARLIER regions leave, so the definition goes region by region. The four
   accumulating regions' proof data are parameters (functions of the entry contents); the two pointwise regions' are
   this development's. -/
import proofs.«152416_j10892037062711_1_alg».proof.Proof.Pass3RegionW

set_option maxRecDepth 16384

noncomputable section

namespace Cert.Kernel.Stages

open Cert.Kernel.Gen Cert.Kernel.Pass3
open Idealize.ShloMosaic Idealize.ShloMosaic.TcCoe
open Idealize.SL Idealize.SL.RA Idealize.SL.BI
open Idealize.SL.Sem
open Idealize.ShloMosaic.Rounds
open Idealize.ShloMosaic.Pipeline (Dat)

variable {F : FTy → Type} [FloatOps F]

/-- Contents of a core's unscoped buffers read at the TensorCore's references: what a region's proof data take. -/
abbrev VTy (F : FTy → Type) : Type := (c : Dev nD) → (b : Ref sig .tc) → Buf (Elt F) ((c : Thread nD τ).loc b)
/-- A valuation per core, read so. -/
abbrev rd (W : Dev nD → Valuation τ sig (Elt F)) : VTy F := fun c b => W c b

variable (m : (ℓ : Loc nD τ sig) → Buf (Elt F) ℓ)
variable (d0 : (Dev nD → Valuation τ sig (Elt F)) → (c : Dev nD) → Dat τ (Elt F) Unit ℕ (UR sig nD τ) ℕ cfg0 c)
  (d1 : (Dev nD → Valuation τ sig (Elt F)) → (c : Dev nD) → Dat τ (Elt F) Unit ℕ (UR sig nD τ) ℕ cfg1 c)
  (d3 : (Dev nD → Valuation τ sig (Elt F)) → (c : Dev nD) → Dat τ (Elt F) Unit ℕ (UR sig nD τ) ℕ cfg3 c)
  (d4 : (Dev nD → Valuation τ sig (Elt F)) → (c : Dev nD) → Dat τ (Elt F) Unit ℕ (UR sig nD τ) ℕ cfg4 c)

/-- After region 0: its arrays at what its write-backs leave from the contents after the first host stretch. -/
def o2 (c : Dev nD) : Valuation τ sig (Elt F) :=
  Pipeline.withArrays spec0 c (V1 m c) fun w => (d0 (V1 m) c).arrAt w cfg0.N
def outs2 : Outs (F := F) := fun _ r c => o2 m d0 c r
/-- After region 1. -/
def o4 (c : Dev nD) : Valuation τ sig (Elt F) :=
  Pipeline.withArrays spec1 c (V3 m (outs2 m d0) c) fun w => (d1 (V3 m (outs2 m d0)) c).arrAt w cfg1.N
def outs4 : Outs (F := F) := fun J r c => match J with
  | 2 => o2 m d0 c r | _ => o4 m d0 d1 c r
/-- After region 2. -/
def o6 (c : Dev nD) : Valuation τ sig (Elt F) :=
  Pipeline.withArrays spec2 c (V5 m (outs4 m d0 d1) c) fun w => (dat2 (rd (V5 m (outs4 m d0 d1))) c).arrAt w cfg2.N
def outs6 : Outs (F := F) := fun J r c => match J with
  | 2 => o2 m d0 c r | 4 => o4 m d0 d1 c r | _ => o6 m d0 d1 c r
/-- After region 3. -/
def o8 (c : Dev nD) : Valuation τ sig (Elt F) :=
  Pipeline.withArrays spec3 c (V7 m (outs6 m d0 d1) c) fun w => (d3 (V7 m (outs6 m d0 d1)) c).arrAt w cfg3.N
def outs8 : Outs (F := F) := fun J r c => match J with
  | 2 => o2 m d0 c r | 4 => o4 m d0 d1 c r | 6 => o6 m d0 d1 c r | _ => o8 m d0 d1 d3 c r
/-- After region 4. -/
def o10 (c : Dev nD) : Valuation τ sig (Elt F) :=
  Pipeline.withArrays spec4 c (V9 m (outs8 m d0 d1 d3) c) fun w => (d4 (V9 m (outs8 m d0 d1 d3)) c).arrAt w cfg4.N
def outs10 : Outs (F := F) := fun J r c => match J with
  | 2 => o2 m d0 c r | 4 => o4 m d0 d1 c r | 6 => o6 m d0 d1 c r | 8 => o8 m d0 d1 d3 c r | _ => o10 m d0 d1 d3 d4 c r
/-- After region 5. -/
def o12 (c : Dev nD) : Valuation τ sig (Elt F) :=
  Pipeline.withArrays spec5 c (V11 m (outs10 m d0 d1 d3 d4) c) fun w => (dat5 (rd (V11 m (outs10 m d0 d1 d3 d4))) c).arrAt w cfg5.N
/-- What the regions leave, all six. -/
def outs : Outs (F := F) := fun J r c => match J with
  | 2 => o2 m d0 c r | 4 => o4 m d0 d1 c r | 6 => o6 m d0 d1 c r | 8 => o8 m d0 d1 d3 c r | 10 => o10 m d0 d1 d3 d4 c r
  | _ => o12 m d0 d1 d3 d4 c r

/-- A region's entry valuation reads only what earlier regions leave. -/
theorem V3_outs (c : Dev nD) : V3 m (outs m d0 d1 d3 d4) c = V3 m (outs2 m d0) c := rfl
theorem V5_outs (c : Dev nD) : V5 m (outs m d0 d1 d3 d4) c = V5 m (outs4 m d0 d1) c := rfl
theorem V7_outs (c : Dev nD) : V7 m (outs m d0 d1 d3 d4) c = V7 m (outs6 m d0 d1) c := rfl
theorem V9_outs (c : Dev nD) : V9 m (outs m d0 d1 d3 d4) c = V9 m (outs8 m d0 d1 d3) c := rfl
theorem V11_outs (c : Dev nD) : V11 m (outs m d0 d1 d3 d4) c = V11 m (outs10 m d0 d1 d3 d4) c := rfl

/-- Every pipeline's proof data, each at its region's entry contents. -/
def pdats : (p : Fin 6) → (c : Dev nD) → Dat τ (Elt F) Unit ℕ (UR sig nD τ) ℕ (cfgs p) c
  | ⟨0, _⟩ => fun c => d0 (V1 m) c
  | ⟨1, _⟩ => fun c => d1 (V3 m (outs m d0 d1 d3 d4)) c
  | ⟨2, _⟩ => fun c => dat2 (Vin2 m (outs m d0 d1 d3 d4)) c
  | ⟨3, _⟩ => fun c => d3 (V7 m (outs m d0 d1 d3 d4)) c
  | ⟨4, _⟩ => fun c => d4 (V9 m (outs m d0 d1 d3 d4)) c
  | ⟨5, _⟩ => fun c => dat5 (Vin5 m (outs m d0 d1 d3 d4)) c

theorem pdats_0 (c : Dev nD) : pdats m d0 d1 d3 d4 0 c = d0 (V1 m) c := rfl
theorem pdats_1 (c : Dev nD) : pdats m d0 d1 d3 d4 1 c = d1 (V3 m (outs m d0 d1 d3 d4)) c := rfl
theorem pdats_2 (c : Dev nD) : pdats m d0 d1 d3 d4 2 c = dat2 (Vin2 m (outs m d0 d1 d3 d4)) c := rfl
theorem pdats_3 (c : Dev nD) : pdats m d0 d1 d3 d4 3 c = d3 (V7 m (outs m d0 d1 d3 d4)) c := rfl
theorem pdats_4 (c : Dev nD) : pdats m d0 d1 d3 d4 4 c = d4 (V9 m (outs m d0 d1 d3 d4)) c := rfl
theorem pdats_5 (c : Dev nD) : pdats m d0 d1 d3 d4 5 c = dat5 (Vin5 m (outs m d0 d1 d3 d4)) c := rfl

/-- What region K leaves in each of its arrays is what its proof data's write-backs leave. -/
theorem outs2_arr (c : Dev nD) (w : Fin cfg0.W) :
    outs m d0 d1 d3 d4 2 (Pipeline.arrRef spec0 w) c = (pdats m d0 d1 d3 d4 0 c).arrAt w cfg0.N :=
  Pipeline.withArrays_arr spec0 launch0.win.arr_inj c (V1 m c) (fun w => (d0 (V1 m) c).arrAt w cfg0.N) w
theorem outs4_arr (c : Dev nD) (w : Fin cfg1.W) :
    outs m d0 d1 d3 d4 4 (Pipeline.arrRef spec1 w) c = (pdats m d0 d1 d3 d4 1 c).arrAt w cfg1.N :=
  Pipeline.withArrays_arr spec1 launch1.win.arr_inj c (V3 m (outs2 m d0) c) (fun w => (d1 (V3 m (outs2 m d0)) c).arrAt w cfg1.N) w
theorem outs6_arr (c : Dev nD) (w : Fin cfg2.W) :
    outs m d0 d1 d3 d4 6 (Pipeline.arrRef spec2 w) c = (pdats m d0 d1 d3 d4 2 c).arrAt w cfg2.N :=
  Pipeline.withArrays_arr spec2 launch2.win.arr_inj c (V5 m (outs4 m d0 d1) c) (fun w => (dat2 (rd (V5 m (outs4 m d0 d1))) c).arrAt w cfg2.N) w
theorem outs8_arr (c : Dev nD) (w : Fin cfg3.W) :
    outs m d0 d1 d3 d4 8 (Pipeline.arrRef spec3 w) c = (pdats m d0 d1 d3 d4 3 c).arrAt w cfg3.N :=
  Pipeline.withArrays_arr spec3 launch3.win.arr_inj c (V7 m (outs6 m d0 d1) c) (fun w => (d3 (V7 m (outs6 m d0 d1)) c).arrAt w cfg3.N) w
theorem outs10_arr (c : Dev nD) (w : Fin cfg4.W) :
    outs m d0 d1 d3 d4 10 (Pipeline.arrRef spec4 w) c = (pdats m d0 d1 d3 d4 4 c).arrAt w cfg4.N :=
  Pipeline.withArrays_arr spec4 launch4.win.arr_inj c (V9 m (outs8 m d0 d1 d3) c) (fun w => (d4 (V9 m (outs8 m d0 d1 d3)) c).arrAt w cfg4.N) w
theorem outs12_arr (c : Dev nD) (w : Fin cfg5.W) :
    outs m d0 d1 d3 d4 12 (Pipeline.arrRef spec5 w) c = (pdats m d0 d1 d3 d4 5 c).arrAt w cfg5.N :=
  Pipeline.withArrays_arr spec5 launch5.win.arr_inj c (V11 m (outs10 m d0 d1 d3 d4) c) (fun w => (dat5 (rd (V11 m (outs10 m d0 d1 d3 d4))) c).arrAt w cfg5.N) w

/-- In particular the pointwise regions' output arrays. -/
theorem houts6 (c : Dev nD) : outs m d0 d1 d3 d4 6 main_v34 c = left2 m (outs m d0 d1 d3 d4) c := outs6_arr m d0 d1 d3 d4 c 5
theorem houts12 (c : Dev nD) : outs m d0 d1 d3 d4 12 main_v65 c = left5 m (outs m d0 d1 d3 d4) c := outs12_arr m d0 d1 d3 d4 c 5

end Cert.Kernel.Stages

end
-- ==== Proof.StageArraysW.lean ====
/- What each accumulating region of `Kernel`'s @main leaves, read against the chain of valuations: at the region's exit
   every array of its pipeline holds what the pipeline leaves (an input its entry contents, an output the contents the chain
   records for it), and every other buffer is untouched. -/
import proofs.«152416_j10892037062711_1_alg».proof.Proof.StagesW

set_option maxRecDepth 16384

noncomputable section

namespace Cert.Kernel.Stages

open Cert.Kernel.Gen Cert.Kernel.Pass3
open Idealize.ShloMosaic Idealize.ShloMosaic.TcCoe
open Idealize.SL Idealize.SL.RA Idealize.SL.BI
open Idealize.SL.Sem
open Idealize.ShloMosaic.Rounds
open Idealize.ShloMosaic.Pipeline (Dat)

variable {F : FTy → Type} [FloatOps F]
variable (m : (ℓ : Loc nD τ sig) → Buf (Elt F) ℓ)

/-! ### Region 0 -/

/-- The valuation after region 0 at each of its three output arrays is what the region leaves there. -/
theorem V2_at0 (outs : Outs (F := F)) (c : Dev nD) : V2 m outs c main_v20_0 = outs 2 main_v20_0 c :=
  (Function.update_of_ne (StableHlo.devRef_ne_of_ne (by decide) : (Proc.devRef .tc main_v20_0 : DevRef τ sig) ≠ Proc.devRef .tc main_v20_2) _ _).trans
    ((Function.update_of_ne (StableHlo.devRef_ne_of_ne (by decide) : (Proc.devRef .tc main_v20_0 : DevRef τ sig) ≠ Proc.devRef .tc main_v20_1) _ _).trans (Function.update_self _ _ _))
theorem V2_at1 (outs : Outs (F := F)) (c : Dev nD) : V2 m outs c main_v20_1 = outs 2 main_v20_1 c :=
  (Function.update_of_ne (StableHlo.devRef_ne_of_ne (by decide) : (Proc.devRef .tc main_v20_1 : DevRef τ sig) ≠ Proc.devRef .tc main_v20_2) _ _).trans (Function.update_self _ _ _)
theorem V2_at2 (outs : Outs (F := F)) (c : Dev nD) : V2 m outs c main_v20_2 = outs 2 main_v20_2 c :=
  Function.update_self _ _ _
theorem V2_at (outs : Outs (F := F)) (c : Dev nD) (r : Ref sig .tc) (hr : r ∈ ([main_v20_0, main_v20_1, main_v20_2] : List (Ref sig .tc))) :
    V2 m outs c r = outs 2 r c := by
  simp only [List.mem_cons, List.not_mem_nil, or_false] at hr
  rcases hr with rfl | rfl | rfl
  · exact V2_at0 m outs c
  · exact V2_at1 m outs c
  · exact V2_at2 m outs c

/-- Region 0's output windows' arrays are these three, and no input window's array is one of them. -/
theorem arrRef0_of_out : ∀ w : Fin cfg0.W, (cfg0.win w).isOut = true → Pipeline.arrRef spec0 w ∈ ([main_v20_0, main_v20_1, main_v20_2] : List (Ref sig .tc)) := by decide
theorem arrRef0_of_in : ∀ w : Fin cfg0.W, (cfg0.win w).isOut = false → Pipeline.arrRef spec0 w ∉ ([main_v20_0, main_v20_1, main_v20_2] : List (Ref sig .tc)) := by decide
theorem arrRef0_outs : ∀ r ∈ ([main_v20_0, main_v20_1, main_v20_2] : List (Ref sig .tc)), ∃ w : Fin cfg0.W, Pipeline.arrRef spec0 w = r := by decide

section
variable (outs : Outs (F := F)) (D : (c : Dev nD) → Dat τ (Elt F) Unit ℕ (UR sig nD τ) ℕ cfg0 c)
  (hA : ∀ c w, (D c).A w = V1 m c (Proc.devRef .tc (Pipeline.arrRef spec0 w)))
  (houts : ∀ c w, outs 2 (Pipeline.arrRef spec0 w) c = (D c).arrAt w cfg0.N)

include hA houts in
/-- At region 0's exit each of its arrays holds what the pipeline leaves: an input array its entry contents, an output
    array what the region leaves there. -/
theorem hWarr0 (c : Dev nD) (w : Fin cfg0.W) :
    (D c).arrAt w cfg0.N = V2 m outs c (Proc.devRef .tc (Pipeline.arrRef spec0 w)) := by
  cases hout : (cfg0.win w).isOut
  · exact ((D c).arrAt_in w hout _).trans ((hA c w).trans (V2_of m outs c _ (arrRef0_of_in w hout)).symm)
  · exact (houts c w).symm.trans (V2_at m outs c _ (arrRef0_of_out w hout)).symm
end

/-- Off region 0's arrays the valuation after it is the valuation before it. -/
theorem hWrest0 (outs : Outs (F := F)) (c : Dev nD) (b : Ref sig .tc) (hb : b ∉ Finset.univ.image (Pipeline.arrRef spec0)) :
    V2 m outs c (Proc.devRef .tc b) = V1 m c (Proc.devRef .tc b) :=
  V2_of m outs c b fun hmem => by
    obtain ⟨w, hw⟩ := arrRef0_outs b hmem
    exact hb (Finset.mem_image.mpr ⟨w, Finset.mem_univ _, hw⟩)

/-! ### Region 1 -/

/-- The valuation after region 1 at each of its three output arrays is what the region leaves there. -/
theorem V4_at0 (outs : Outs (F := F)) (c : Dev nD) : V4 m outs c main_v27_0 = outs 4 main_v27_0 c :=
  (Function.update_of_ne (StableHlo.devRef_ne_of_ne (by decide) : (Proc.devRef .tc main_v27_0 : DevRef τ sig) ≠ Proc.devRef .tc main_v27_2) _ _).trans
    ((Function.update_of_ne (StableHlo.devRef_ne_of_ne (by decide) : (Proc.devRef .tc main_v27_0 : DevRef τ sig) ≠ Proc.devRef .tc main_v27_1) _ _).trans (Function.update_self _ _ _))
theorem V4_at1 (outs : Outs (F := F)) (c : Dev nD) : V4 m outs c main_v27_1 = outs 4 main_v27_1 c :=
  (Function.update_of_ne (StableHlo.devRef_ne_of_ne (by decide) : (Proc.devRef .tc main_v27_1 : DevRef τ sig) ≠ Proc.devRef .tc main_v27_2) _ _).trans (Function.update_self _ _ _)
theorem V4_at2 (outs : Outs (F := F)) (c : Dev nD) : V4 m outs c main_v27_2 = outs 4 main_v27_2 c :=
  Function.update_self _ _ _
theorem V4_at (outs : Outs (F := F)) (c : Dev nD) (r : Ref sig .tc) (hr : r ∈ ([main_v27_0, main_v27_1, main_v27_2] : List (Ref sig .tc))) :
    V4 m outs c r = outs 4 r c := by
  simp only [List.mem_cons, List.not_mem_nil, or_false] at hr
  rcases hr with rfl | rfl | rfl
  · exact V4_at0 m outs c
  · exact V4_at1 m outs c
  · exact V4_at2 m outs c

/-- Region 1's output windows' arrays are these three, and no input window's array is one of them. -/
theorem arrRef1_of_out : ∀ w : Fin cfg1.W, (cfg1.win w).isOut = true → Pipeline.arrRef spec1 w ∈ ([main_v27_0, main_v27_1, main_v27_2] : List (Ref sig .tc)) := by decide
theorem arrRef1_of_in : ∀ w : Fin cfg1.W, (cfg1.win w).isOut = false → Pipeline.arrRef spec1 w ∉ ([main_v27_0, main_v27_1, main_v27_2] : List (Ref sig .tc)) := by decide
theorem arrRef1_outs : ∀ r ∈ ([main_v27_0, main_v27_1, main_v27_2] : List (Ref sig .tc)), ∃ w : Fin cfg1.W, Pipeline.arrRef spec1 w = r := by decide

section
variable (outs : Outs (F := F)) (D : (c : Dev nD) → Dat τ (Elt F) Unit ℕ (UR sig nD τ) ℕ cfg1 c)
  (hA : ∀ c w, (D c).A w = V3 m outs c (Proc.devRef .tc (Pipeline.arrRef spec1 w)))
  (houts : ∀ c w, outs 4 (Pipeline.arrRef spec1 w) c = (D c).arrAt w cfg1.N)

include hA houts in
/-- At region 1's exit each of its arrays holds what the pipeline leaves: an input array its entry contents, an output
    array what the region leaves there. -/
theorem hWarr1 (c : Dev nD) (w : Fin cfg1.W) :
    (D c).arrAt w cfg1.N = V4 m outs c (Proc.devRef .tc (Pipeline.arrRef spec1 w)) := by
  cases hout : (cfg1.win w).isOut
  · exact ((D c).arrAt_in w hout _).trans ((hA c w).trans (V4_of m outs c _ (arrRef1_of_in w hout)).symm)
  · exact (houts c w).symm.trans (V4_at m outs c _ (arrRef1_of_out w hout)).symm
end

/-- Off region 1's arrays the valuation after it is the valuation before it. -/
theorem hWrest1 (outs : Outs (F := F)) (c : Dev nD) (b : Ref sig .tc) (hb : b ∉ Finset.univ.image (Pipeline.arrRef spec1)) :
    V4 m outs c (Proc.devRef .tc b) = V3 m outs c (Proc.devRef .tc b) :=
  V4_of m outs c b fun hmem => by
    obtain ⟨w, hw⟩ := arrRef1_outs b hmem
    exact hb (Finset.mem_image.mpr ⟨w, Finset.mem_univ _, hw⟩)

/-! ### Region 3 -/

/-- The valuation after region 3 at each of its three output arrays is what the region leaves there. -/
theorem V8_at0 (outs : Outs (F := F)) (c : Dev nD) : V8 m outs c main_v51_0 = outs 8 main_v51_0 c :=
  (Function.update_of_ne (StableHlo.devRef_ne_of_ne (by decide) : (Proc.devRef .tc main_v51_0 : DevRef τ sig) ≠ Proc.devRef .tc main_v51_2) _ _).trans
    ((Function.update_of_ne (StableHlo.devRef_ne_of_ne (by decide) : (Proc.devRef .tc main_v51_0 : DevRef τ sig) ≠ Proc.devRef .tc main_v51_1) _ _).trans (Function.update_self _ _ _))
theorem V8_at1 (outs : Outs (F := F)) (c : Dev nD) : V8 m outs c main_v51_1 = outs 8 main_v51_1 c :=
  (Function.update_of_ne (StableHlo.devRef_ne_of_ne (by decide) : (Proc.devRef .tc main_v51_1 : DevRef τ sig) ≠ Proc.devRef .tc main_v51_2) _ _).trans (Function.update_self _ _ _)
theorem V8_at2 (outs : Outs (F := F)) (c : Dev nD) : V8 m outs c main_v51_2 = outs 8 main_v51_2 c :=
  Function.update_self _ _ _
theorem V8_at (outs : Outs (F := F)) (c : Dev nD) (r : Ref sig .tc) (hr : r ∈ ([main_v51_0, main_v51_1, main_v51_2] : List (Ref sig .tc))) :
    V8 m outs c r = outs 8 r c := by
  simp only [List.mem_cons, List.not_mem_nil, or_false] at hr
  rcases hr with rfl | rfl | rfl
  · exact V8_at0 m outs c
  · exact V8_at1 m outs c
  · exact V8_at2 m outs c

/-- Region 3's output windows' arrays are these three, and no input window's array is one of them. -/
theorem arrRef3_of_out : ∀ w : Fin cfg3.W, (cfg3.win w).isOut = true → Pipeline.arrRef spec3 w ∈ ([main_v51_0, main_v51_1, main_v51_2] : List (Ref sig .tc)) := by decide
theorem arrRef3_of_in : ∀ w : Fin cfg3.W, (cfg3.win w).isOut = false → Pipeline.arrRef spec3 w ∉ ([main_v51_0, main_v51_1, main_v51_2] : List (Ref sig .tc)) := by decide
theorem arrRef3_outs : ∀ r ∈ ([main_v51_0, main_v51_1, main_v51_2] : List (Ref sig .tc)), ∃ w : Fin cfg3.W, Pipeline.arrRef spec3 w = r := by decide

section
variable (outs : Outs (F := F)) (D : (c : Dev nD) → Dat τ (Elt F) Unit ℕ (UR sig nD τ) ℕ cfg3 c)
  (hA : ∀ c w, (D c).A w = V7 m outs c (Proc.devRef .tc (Pipeline.arrRef spec3 w)))
  (houts : ∀ c w, outs 8 (Pipeline.arrRef spec3 w) c = (D c).arrAt w cfg3.N)

include hA houts in
/-- At region 3's exit each of its arrays holds what the pipeline leaves: an input array its entry contents, an output
    array what the region leaves there. -/
theorem hWarr3 (c : Dev nD) (w : Fin cfg3.W) :
    (D c).arrAt w cfg3.N = V8 m outs c (Proc.devRef .tc (Pipeline.arrRef spec3 w)) := by
  cases hout : (cfg3.win w).isOut
  · exact ((D c).arrAt_in w hout _).trans ((hA c w).trans (V8_of m outs c _ (arrRef3_of_in w hout)).symm)
  · exact (houts c w).symm.trans (V8_at m outs c _ (arrRef3_of_out w hout)).symm
end

/-- Off region 3's arrays the valuation after it is the valuation before it. -/
theorem hWrest3 (outs : Outs (F := F)) (c : Dev nD) (b : Ref sig .tc) (hb : b ∉ Finset.univ.image (Pipeline.arrRef spec3)) :
    V8 m outs c (Proc.devRef .tc b) = V7 m outs c (Proc.devRef .tc b) :=
  V8_of m outs c b fun hmem => by
    obtain ⟨w, hw⟩ := arrRef3_outs b hmem
    exact hb (Finset.mem_image.mpr ⟨w, Finset.mem_univ _, hw⟩)

/-! ### Region 4 -/

/-- The valuation after region 4 at each of its three output arrays is what the region leaves there. -/
theorem V10_at0 (outs : Outs (F := F)) (c : Dev nD) : V10 m outs c main_v58_0 = outs 10 main_v58_0 c :=
  (Function.update_of_ne (StableHlo.devRef_ne_of_ne (by decide) : (Proc.devRef .tc main_v58_0 : DevRef τ sig) ≠ Proc.devRef .tc main_v58_2) _ _).trans
    ((Function.update_of_ne (StableHlo.devRef_ne_of_ne (by decide) : (Proc.devRef .tc main_v58_0 : DevRef τ sig) ≠ Proc.devRef .tc main_v58_1) _ _).trans (Function.update_self _ _ _))
theorem V10_at1 (outs : Outs (F := F)) (c : Dev nD) : V10 m outs c main_v58_1 = outs 10 main_v58_1 c :=
  (Function.update_of_ne (StableHlo.devRef_ne_of_ne (by decide) : (Proc.devRef .tc main_v58_1 : DevRef τ sig) ≠ Proc.devRef .tc main_v58_2) _ _).trans (Function.update_self _ _ _)
theorem V10_at2 (outs : Outs (F := F)) (c : Dev nD) : V10 m outs c main_v58_2 = outs 10 main_v58_2 c :=
  Function.update_self _ _ _
theorem V10_at (outs : Outs (F := F)) (c : Dev nD) (r : Ref sig .tc) (hr : r ∈ ([main_v58_0, main_v58_1, main_v58_2] : List (Ref sig .tc))) :
    V10 m outs c r = outs 10 r c := by
  simp only [List.mem_cons, List.not_mem_nil, or_false] at hr
  rcases hr with rfl | rfl | rfl
  · exact V10_at0 m outs c
  · exact V10_at1 m outs c
  · exact V10_at2 m outs c

/-- Region 4's output windows' arrays are these three, and no input window's array is one of them. -/
theorem arrRef4_of_out : ∀ w : Fin cfg4.W, (cfg4.win w).isOut = true → Pipeline.arrRef spec4 w ∈ ([main_v58_0, main_v58_1, main_v58_2] : List (Ref sig .tc)) := by decide
theorem arrRef4_of_in : ∀ w : Fin cfg4.W, (cfg4.win w).isOut = false → Pipeline.arrRef spec4 w ∉ ([main_v58_0, main_v58_1, main_v58_2] : List (Ref sig .tc)) := by decide
theorem arrRef4_outs : ∀ r ∈ ([main_v58_0, main_v58_1, main_v58_2] : List (Ref sig .tc)), ∃ w : Fin cfg4.W, Pipeline.arrRef spec4 w = r := by decide

section
variable (outs : Outs (F := F)) (D : (c : Dev nD) → Dat τ (Elt F) Unit ℕ (UR sig nD τ) ℕ cfg4 c)
  (hA : ∀ c w, (D c).A w = V9 m outs c (Proc.devRef .tc (Pipeline.arrRef spec4 w)))
  (houts : ∀ c w, outs 10 (Pipeline.arrRef spec4 w) c = (D c).arrAt w cfg4.N)

include hA houts in
/-- At region 4's exit each of its arrays holds what the pipeline leaves: an input array its entry contents, an output
    array what the region leaves there. -/
theorem hWarr4 (c : Dev nD) (w : Fin cfg4.W) :
    (D c).arrAt w cfg4.N = V10 m outs c (Proc.devRef .tc (Pipeline.arrRef spec4 w)) := by
  cases hout : (cfg4.win w).isOut
  · exact ((D c).arrAt_in w hout _).trans ((hA c w).trans (V10_of m outs c _ (arrRef4_of_in w hout)).symm)
  · exact (houts c w).symm.trans (V10_at m outs c _ (arrRef4_of_out w hout)).symm
end

/-- Off region 4's arrays the valuation after it is the valuation before it. -/
theorem hWrest4 (outs : Outs (F := F)) (c : Dev nD) (b : Ref sig .tc) (hb : b ∉ Finset.univ.image (Pipeline.arrRef spec4)) :
    V10 m outs c (Proc.devRef .tc b) = V9 m outs c (Proc.devRef .tc b) :=
  V10_of m outs c b fun hmem => by
    obtain ⟨w, hw⟩ := arrRef4_outs b hmem
    exact hb (Finset.mem_image.mpr ⟨w, Finset.mem_univ _, hw⟩)

end Cert.Kernel.Stages

end
-- ==== Proof.Pass1BodyW.lean ====
import proofs.«152416_j10892037062711_1_alg».proof.Proof.Gen.Kernel.Launch
import proofs.«152416_j10892037062711_1_alg».proof.Proof.Gen.Kernel.Skeleton
import proofs.«152416_j10892037062711_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Pass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]
variable {Ix : Type} [DecidableEq Ix] {U : Type} [URA U] {Lvl : Type} [Preorder Lvl]

local notation "𝕄" => MT nD τ sig Ix (Elt F) ℕ U Lvl

/-! ## Whole-rectangle loads and stores of a whole memref -/

/-- The offsets of a whole-block access, however the zeros are spelt. -/
theorem off00 : (![0, 0] : Fin 2 → ℕ) = fun _ => 0 := by funext a; fin_cases a <;> rfl

/-- A load through the rectangle of the memref's own sizes at zero offsets reads the contents the memref is owned at. -/
theorem readAt_unit_unread {κ : Kind} {sp : Space} {s : Shape} {e : EltTy} {Val : EltTy → Type} {m : Memref sig κ sp s e} (hm : m.IsWhole)
    {off : Fin s.rank → ℕ} (h : off = fun _ => 0) (inb : ∀ a, off a + s.size a ≤ s.size a) (x : s.Idx → Val e) :
    m.view.readAt Val (Rect.unit off s.size inb).toLoadRect (hm.unread x) = x := by
  have hx := hm.read_unread x
  generalize hm.unread x = f at hx ⊢
  obtain ⟨b, rfl, rfl, rfl, hm'⟩ := hm; cases hm'
  subst hx
  simp only [Memref.view_whole, View.read_whole]
  exact Memref.readAt_unit_zero Val b h inb f

/-- A store through that rectangle reads back as the value stored, whatever the buffer held. -/
theorem read_writes_unit_zero {κ : Kind} {sp : Space} {s : Shape} {e : EltTy} {Val : EltTy → Type} (v : View sig κ sp s e) (f : v.ty.Contents Val)
    {off : Fin s.rank → ℕ} (h : off = fun _ => 0) (inb : ∀ a, off a + s.size a ≤ s.size a) (w : (Rect.unit off s.size inb).shape.Idx → Val e) :
    v.read Val (v.writes Val f [⟨Rect.unit off s.size inb, w⟩]) = w := by
  subst h; exact View.read_writes_whole v f w

/-- The same with earlier stores underneath: the last store covers the memref. -/
theorem read_writes_unit_zero_cons {κ : Kind} {sp : Space} {s : Shape} {e : EltTy} {Val : EltTy → Type} (v : View sig κ sp s e) (f : v.ty.Contents Val)
    {off : Fin s.rank → ℕ} (h : off = fun _ => 0) (inb : ∀ a, off a + s.size a ≤ s.size a) (w : (Rect.unit off s.size inb).shape.Idx → Val e)
    (L : List (View.Piece Val s e)) :
    v.read Val (v.writes Val f (⟨Rect.unit off s.size inb, w⟩ :: L)) = w := by
  subst h; funext y
  have h := View.read_writes_cons_emb v f (Rect.whole s) w L y
  rwa [Rect.emb_whole_apply] at h

/-! ## Region 0: the body's two conditionals, and its triple in each of the three cases the grid meets -/

/-- The condition of the first conditional: the grid coordinate is 0. -/
abbrev cond0_1 (i : grid0.Coords) : Prop := (Scalar.cmpi .ne (Scalar.extui (Scalar.cmpi .eq (BitVec.ofNat 32 (i 0).val) 0#32)) 0#32) = 1#1
/-- The condition of the second conditional: the grid coordinate is 9. -/
abbrev cond0_2 (i : grid0.Coords) : Prop := k0_cond2 i = 1#1

set_option maxHeartbeats 1000000 in
/-- A MIDDLE point (neither conditional taken): with the inputs' staging memrefs at their blocks and the two scratch rows
    at `s1`, `s2`, the body stores the block's affine image into the big output window and adds the block's column sums
    (of the image, of its square) to the scratch rows; the two small output windows are not touched. -/
theorem body0_mid (𝒱₀ : Variants) (c : Dev nD) (i : grid0.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S10000x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole)
    (hc1 : ¬cond0_1 i) (hc2 : ¬cond0_2 i)
    (x1 x2 : Vec F S10000x64 .f32) (x3 : Vec F S64x64 .f32) (x4 : Vec F S1x64 .f32) (s1 s2 : Vec F S1x64 .f32)
    (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d)
        ∗ owns (c : Thread nD τ) arg8 fullShare s1 ∗ owns (c : Thread nD τ) arg9 fullShare s2
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (k0_pay3 x1 x2 x3 x4)
            ∗ owns (c : Thread nD τ) arg8 fullShare (k0_pay4 x1 x2 x3 x4 s1) ∗ owns (c : Thread nD τ) arg9 fullShare (k0_pay5 x1 x2 x3 x4 s2)) -∗ K ⟨⟩))
      ⊢ wp frame (wpE (defs₀ (F := F)) 𝒱₀ c none) E (cc0__pass1_kernel i arg1 harg1 arg2 harg2 arg3 harg3 arg4 harg4 arg5 harg5 arg6 harg6 arg7 harg7 arg8 harg8 arg9 harg9) K := by
  simp only [cc0__pass1_kernel_eq_skeleton]; unfold cc0__pass1_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%d5, %f5, -, H5⟩, ⟨%f8, %hf8, H8⟩, ⟨%f9, %hf9, H9⟩, Hk⟩
  obtain rfl := harg1.eq_unread hf1; obtain rfl := harg2.eq_unread hf2; obtain rfl := harg3.eq_unread hf3; obtain rfl := harg4.eq_unread hf4
  obtain rfl := harg8.eq_unread hf8; obtain rfl := harg9.eq_unread hf9
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    rw [read_writes_unit_zero _ _ off00, readAt_unit_unread harg1 off00, readAt_unit_unread harg2 off00, readAt_unit_unread harg3 off00, readAt_unit_unread harg4 off00]
  isplitl [H8]
  · iexists _; isplitr
    swap; · iexact H8
    ipureintro
    rw [read_writes_unit_zero _ _ off00, readAt_unit_unread harg1 off00, readAt_unit_unread harg2 off00, readAt_unit_unread harg3 off00, readAt_unit_unread harg4 off00, readAt_unit_unread harg8 off00]
  · iexists _; isplitr
    swap; · iexact H9
    ipureintro
    rw [read_writes_unit_zero _ _ off00, readAt_unit_unread harg1 off00, readAt_unit_unread harg2 off00, readAt_unit_unread harg3 off00, readAt_unit_unread harg4 off00, readAt_unit_unread harg9 off00]

set_option maxHeartbeats 1000000 in
/-- The FIRST point (the first conditional taken, the second not): the scratch rows, found at anything, are zeroed and then
    take the block's column sums; otherwise as a middle point. -/
theorem body0_first (𝒱₀ : Variants) (c : Dev nD) (i : grid0.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S10000x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole)
    (hc1 : cond0_1 i) (hc2 : ¬cond0_2 i)
    (x1 x2 : Vec F S10000x64 .f32) (x3 : Vec F S64x64 .f32) (x4 : Vec F S1x64 .f32)
    (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d)
        ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (k0_pay3 x1 x2 x3 x4)
            ∗ owns (c : Thread nD τ) arg8 fullShare (k0_pay4 x1 x2 x3 x4 k0_pay1) ∗ owns (c : Thread nD τ) arg9 fullShare (k0_pay5 x1 x2 x3 x4 k0_pay2)) -∗ K ⟨⟩))
      ⊢ wp frame (wpE (defs₀ (F := F)) 𝒱₀ c none) E (cc0__pass1_kernel i arg1 harg1 arg2 harg2 arg3 harg3 arg4 harg4 arg5 harg5 arg6 harg6 arg7 harg7 arg8 harg8 arg9 harg9) K := by
  simp only [cc0__pass1_kernel_eq_skeleton]; unfold cc0__pass1_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%d5, %f5, -, H5⟩, ⟨%d8, %f8, -, H8⟩, ⟨%d9, %f9, -, H9⟩, Hk⟩
  obtain rfl := harg1.eq_unread hf1; obtain rfl := harg2.eq_unread hf2; obtain rfl := harg3.eq_unread hf3; obtain rfl := harg4.eq_unread hf4
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    rw [read_writes_unit_zero _ _ off00, readAt_unit_unread harg1 off00, readAt_unit_unread harg2 off00, readAt_unit_unread harg3 off00, readAt_unit_unread harg4 off00]
  isplitl [H8]
  · iexists _; isplitr
    swap; · iexact H8
    ipureintro
    sl_unfold_run_names
    rw [read_writes_unit_zero_cons _ _ off00, readAt_unit_unread harg1 off00, readAt_unit_unread harg2 off00, readAt_unit_unread harg3 off00, readAt_unit_unread harg4 off00, View.readCov_cons_toLoadRect]
  · iexists _; isplitr
    swap; · iexact H9
    ipureintro
    sl_unfold_run_names
    rw [read_writes_unit_zero_cons _ _ off00, readAt_unit_unread harg1 off00, readAt_unit_unread harg2 off00, readAt_unit_unread harg3 off00, readAt_unit_unread harg4 off00, View.readCov_cons_toLoadRect]

set_option maxHeartbeats 1000000 in
/-- The LAST point (the first conditional not taken, the second taken): as a middle point, and then the two scratch rows —
    now holding the sums over every block — are copied into the two small output windows. -/
theorem body0_last (𝒱₀ : Variants) (c : Dev nD) (i : grid0.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S10000x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole)
    (hc1 : ¬cond0_1 i) (hc2 : cond0_2 i)
    (x1 x2 : Vec F S10000x64 .f32) (x3 : Vec F S64x64 .f32) (x4 : Vec F S1x64 .f32) (s1 s2 : Vec F S1x64 .f32)
    (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d)
        ∗ (∃ d, owns (c : Thread nD τ) arg6 fullShare d) ∗ (∃ d, owns (c : Thread nD τ) arg7 fullShare d)
        ∗ owns (c : Thread nD τ) arg8 fullShare s1 ∗ owns (c : Thread nD τ) arg9 fullShare s2
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (k0_pay3 x1 x2 x3 x4)
            ∗ owns (c : Thread nD τ) arg6 fullShare (k0_pay4 x1 x2 x3 x4 s1) ∗ owns (c : Thread nD τ) arg7 fullShare (k0_pay5 x1 x2 x3 x4 s2)
            ∗ owns (c : Thread nD τ) arg8 fullShare (k0_pay4 x1 x2 x3 x4 s1) ∗ owns (c : Thread nD τ) arg9 fullShare (k0_pay5 x1 x2 x3 x4 s2)) -∗ K ⟨⟩))
      ⊢ wp frame (wpE (defs₀ (F := F)) 𝒱₀ c none) E (cc0__pass1_kernel i arg1 harg1 arg2 harg2 arg3 harg3 arg4 harg4 arg5 harg5 arg6 harg6 arg7 harg7 arg8 harg8 arg9 harg9) K := by
  simp only [cc0__pass1_kernel_eq_skeleton]; unfold cc0__pass1_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  obtain rfl := harg1.eq_unread hf1; obtain rfl := harg2.eq_unread hf2; obtain rfl := harg3.eq_unread hf3; obtain rfl := harg4.eq_unread hf4
  obtain rfl := harg8.eq_unread hf8; obtain rfl := harg9.eq_unread hf9
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    rw [read_writes_unit_zero _ _ off00, readAt_unit_unread harg1 off00, readAt_unit_unread harg2 off00, readAt_unit_unread harg3 off00, readAt_unit_unread harg4 off00]
  isplitl [H6]
  · iexists _; isplitr
    swap; · iexact H6
    ipureintro
    sl_unfold_run_names
    rw [read_writes_unit_zero _ _ off00, View.readCov_cons_toLoadRect, readAt_unit_unread harg1 off00, readAt_unit_unread harg2 off00, readAt_unit_unread harg3 off00, readAt_unit_unread harg4 off00, readAt_unit_unread harg8 off00]
  isplitl [H7]
  · iexists _; isplitr
    swap; · iexact H7
    ipureintro
    sl_unfold_run_names
    rw [read_writes_unit_zero _ _ off00, View.readCov_cons_toLoadRect, readAt_unit_unread harg1 off00, readAt_unit_unread harg2 off00, readAt_unit_unread harg3 off00, readAt_unit_unread harg4 off00, readAt_unit_unread harg9 off00]
  isplitl [H8]
  · iexists _; isplitr
    swap; · iexact H8
    ipureintro
    sl_unfold_run_names
    rw [read_writes_unit_zero _ _ off00, readAt_unit_unread harg1 off00, readAt_unit_unread harg2 off00, readAt_unit_unread harg3 off00, readAt_unit_unread harg4 off00, readAt_unit_unread harg8 off00]
  · iexists _; isplitr
    swap; · iexact H9
    ipureintro
    sl_unfold_run_names
    rw [read_writes_unit_zero _ _ off00, readAt_unit_unread harg1 off00, readAt_unit_unread harg2 off00, readAt_unit_unread harg3 off00, readAt_unit_unread harg4 off00, readAt_unit_unread harg9 off00]

/-! ## Region 3: the body's two conditionals, and its triple in each of the three cases the grid meets -/

/-- The condition of the first conditional: the grid coordinate is 0. -/
abbrev cond3_1 (i : grid3.Coords) : Prop := (Scalar.cmpi .ne (Scalar.extui (Scalar.cmpi .eq (BitVec.ofNat 32 (i 0).val) 0#32)) 0#32) = 1#1
/-- The condition of the second conditional: the grid coordinate is 9. -/
abbrev cond3_2 (i : grid3.Coords) : Prop := k3_cond2 i = 1#1

set_option maxHeartbeats 1000000 in
/-- A MIDDLE point (neither conditional taken): with the inputs' staging memrefs at their blocks and the two scratch rows
    at `s1`, `s2`, the body stores the block's affine image into the big output window and adds the block's column sums
    (of the image, of its square) to the scratch rows; the two small output windows are not touched. -/
theorem body3_mid (𝒱₀ : Variants) (c : Dev nD) (i : grid3.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S10000x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole)
    (hc1 : ¬cond3_1 i) (hc2 : ¬cond3_2 i)
    (x1 x2 : Vec F S10000x64 .f32) (x3 : Vec F S64x64 .f32) (x4 : Vec F S1x64 .f32) (s1 s2 : Vec F S1x64 .f32)
    (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d)
        ∗ owns (c : Thread nD τ) arg8 fullShare s1 ∗ owns (c : Thread nD τ) arg9 fullShare s2
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (k3_pay3 x1 x2 x3 x4)
            ∗ owns (c : Thread nD τ) arg8 fullShare (k3_pay4 x1 x2 x3 x4 s1) ∗ owns (c : Thread nD τ) arg9 fullShare (k3_pay5 x1 x2 x3 x4 s2)) -∗ K ⟨⟩))
      ⊢ wp frame (wpE (defs₀ (F := F)) 𝒱₀ c none) E (cc3__pass1_kernel i arg1 harg1 arg2 harg2 arg3 harg3 arg4 harg4 arg5 harg5 arg6 harg6 arg7 harg7 arg8 harg8 arg9 harg9) K := by
  simp only [cc3__pass1_kernel_eq_skeleton]; unfold cc3__pass1_kernel_skel
  simp only [k3_part1_eq_skeleton]; unfold k3_part1_skel
  unfold owns
  iintro ⟨⟨%f1, %hf1, H1⟩, ⟨%f2, %hf2, H2⟩, ⟨%f3, %hf3, H3⟩, ⟨%f4, %hf4, H4⟩, ⟨%d5, %f5, -, H5⟩, ⟨%f8, %hf8, H8⟩, ⟨%f9, %hf9, H9⟩, Hk⟩
  obtain rfl := harg1.eq_unread hf1; obtain rfl := harg2.eq_unread hf2; obtain rfl := harg3.eq_unread hf3; obtain rfl := harg4.eq_unread hf4
  obtain rfl := harg8.eq_unread hf8; obtain rfl := harg9.eq_unread hf9
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    rw [read_writes_unit_zero _ _ off00, readAt_unit_unread harg1 off00, readAt_unit_unread harg2 off00, readAt_unit_unread harg3 off00, readAt_unit_unread harg4 off00]
  isplitl [H8]
  · iexists _; isplitr
    swap; · iexact H8
    ipureintro
    rw [read_writes_unit_zero _ _ off00, readAt_unit_unread harg1 off00, readAt_unit_unread harg2 off00, readAt_unit_unread harg3 off00, readAt_unit_unread harg4 off00, readAt_unit_unread harg8 off00]
  · iexists _; isplitr
    swap; · iexact H9
    ipureintro
    rw [read_writes_unit_zero _ _ off00, readAt_unit_unread harg1 off00, readAt_unit_unread harg2 off00, readAt_unit_unread harg3 off00, readAt_unit_unread harg4 off00, readAt_unit_unread harg9 off00]

set_option maxHeartbeats 1000000 in
/-- The FIRST point (the first conditional taken, the second not): the scratch rows, found at anything, are zeroed and then
    take the block's column sums; otherwise as a middle point. -/
theorem body3_first (𝒱₀ : Variants) (c : Dev nD) (i : grid3.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S10000x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole)
    (hc1 : cond3_1 i) (hc2 : ¬cond3_2 i)
    (x1 x2 : Vec F S10000x64 .f32) (x3 : Vec F S64x64 .f32) (x4 : Vec F S1x64 .f32)
    (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d)
        ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (k3_pay3 x1 x2 x3 x4)
            ∗ owns (c : Thread nD τ) arg8 fullShare (k3_pay4 x1 x2 x3 x4 k3_pay1) ∗ owns (c : Thread nD τ) arg9 fullShare (k3_pay5 x1 x2 x3 x4 k3_pay2)) -∗ K ⟨⟩))
      ⊢ wp frame (wpE (defs₀ (F := F)) 𝒱₀ c none) E (cc3__pass1_kernel i arg1 harg1 arg2 harg2 arg3 harg3 arg4 harg4 arg5 harg5 arg6 harg6 arg7 harg7 arg8 harg8 arg9 harg9) K := by
  simp only [cc3__pass1_kernel_eq_skeleton]; unfold cc3__pass1_kernel_skel
  simp only [k3_part1_eq_skeleton]; unfold k3_part1_skel
  unfold owns
  iintro ⟨⟨%f1, %hf1, H1⟩, ⟨%f2, %hf2, H2⟩, ⟨%f3, %hf3, H3⟩, ⟨%f4, %hf4, H4⟩, ⟨%d5, %f5, -, H5⟩, ⟨%d8, %f8, -, H8⟩, ⟨%d9, %f9, -, H9⟩, Hk⟩
  obtain rfl := harg1.eq_unread hf1; obtain rfl := harg2.eq_unread hf2; obtain rfl := harg3.eq_unread hf3; obtain rfl := harg4.eq_unread hf4
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    rw [read_writes_unit_zero _ _ off00, readAt_unit_unread harg1 off00, readAt_unit_unread harg2 off00, readAt_unit_unread harg3 off00, readAt_unit_unread harg4 off00]
  isplitl [H8]
  · iexists _; isplitr
    swap; · iexact H8
    ipureintro
    sl_unfold_run_names
    rw [read_writes_unit_zero_cons _ _ off00, readAt_unit_unread harg1 off00, readAt_unit_unread harg2 off00, readAt_unit_unread harg3 off00, readAt_unit_unread harg4 off00, View.readCov_cons_toLoadRect]
  · iexists _; isplitr
    swap; · iexact H9
    ipureintro
    sl_unfold_run_names
    rw [read_writes_unit_zero_cons _ _ off00, readAt_unit_unread harg1 off00, readAt_unit_unread harg2 off00, readAt_unit_unread harg3 off00, readAt_unit_unread harg4 off00, View.readCov_cons_toLoadRect]

set_option maxHeartbeats 1000000 in
/-- The LAST point (the first conditional not taken, the second taken): as a middle point, and then the two scratch rows —
    now holding the sums over every block — are copied into the two small output windows. -/
theorem body3_last (𝒱₀ : Variants) (c : Dev nD) (i : grid3.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S10000x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole)
    (hc1 : ¬cond3_1 i) (hc2 : cond3_2 i)
    (x1 x2 : Vec F S10000x64 .f32) (x3 : Vec F S64x64 .f32) (x4 : Vec F S1x64 .f32) (s1 s2 : Vec F S1x64 .f32)
    (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d)
        ∗ (∃ d, owns (c : Thread nD τ) arg6 fullShare d) ∗ (∃ d, owns (c : Thread nD τ) arg7 fullShare d)
        ∗ owns (c : Thread nD τ) arg8 fullShare s1 ∗ owns (c : Thread nD τ) arg9 fullShare s2
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (k3_pay3 x1 x2 x3 x4)
            ∗ owns (c : Thread nD τ) arg6 fullShare (k3_pay4 x1 x2 x3 x4 s1) ∗ owns (c : Thread nD τ) arg7 fullShare (k3_pay5 x1 x2 x3 x4 s2)
            ∗ owns (c : Thread nD τ) arg8 fullShare (k3_pay4 x1 x2 x3 x4 s1) ∗ owns (c : Thread nD τ) arg9 fullShare (k3_pay5 x1 x2 x3 x4 s2)) -∗ K ⟨⟩))
      ⊢ wp frame (wpE (defs₀ (F := F)) 𝒱₀ c none) E (cc3__pass1_kernel i arg1 harg1 arg2 harg2 arg3 harg3 arg4 harg4 arg5 harg5 arg6 harg6 arg7 harg7 arg8 harg8 arg9 harg9) K := by
  simp only [cc3__pass1_kernel_eq_skeleton]; unfold cc3__pass1_kernel_skel
  simp only [k3_part1_eq_skeleton]; unfold k3_part1_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  obtain rfl := harg1.eq_unread hf1; obtain rfl := harg2.eq_unread hf2; obtain rfl := harg3.eq_unread hf3; obtain rfl := harg4.eq_unread hf4
  obtain rfl := harg8.eq_unread hf8; obtain rfl := harg9.eq_unread hf9
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    rw [read_writes_unit_zero _ _ off00, readAt_unit_unread harg1 off00, readAt_unit_unread harg2 off00, readAt_unit_unread harg3 off00, readAt_unit_unread harg4 off00]
  isplitl [H6]
  · iexists _; isplitr
    swap; · iexact H6
    ipureintro
    sl_unfold_run_names
    rw [read_writes_unit_zero _ _ off00, View.readCov_cons_toLoadRect, readAt_unit_unread harg1 off00, readAt_unit_unread harg2 off00, readAt_unit_unread harg3 off00, readAt_unit_unread harg4 off00, readAt_unit_unread harg8 off00]
  isplitl [H7]
  · iexists _; isplitr
    swap; · iexact H7
    ipureintro
    sl_unfold_run_names
    rw [read_writes_unit_zero _ _ off00, View.readCov_cons_toLoadRect, readAt_unit_unread harg1 off00, readAt_unit_unread harg2 off00, readAt_unit_unread harg3 off00, readAt_unit_unread harg4 off00, readAt_unit_unread harg9 off00]
  isplitl [H8]
  · iexists _; isplitr
    swap; · iexact H8
    ipureintro
    sl_unfold_run_names
    rw [read_writes_unit_zero _ _ off00, readAt_unit_unread harg1 off00, readAt_unit_unread harg2 off00, readAt_unit_unread harg3 off00, readAt_unit_unread harg4 off00, readAt_unit_unread harg8 off00]
  · iexists _; isplitr
    swap; · iexact H9
    ipureintro
    sl_unfold_run_names
    rw [read_writes_unit_zero _ _ off00, readAt_unit_unread harg1 off00, readAt_unit_unread harg2 off00, readAt_unit_unread harg3 off00, readAt_unit_unread harg4 off00, readAt_unit_unread harg9 off00]

end Cert.Kernel.Pass

end
-- ==== Proof.Pass1DatW.lean ====
import proofs.«152416_j10892037062711_1_alg».proof.Proof.Gen.Kernel.Launch
import proofs.«152416_j10892037062711_1_alg».proof.Proof.Gen.Kernel.Skeleton
import proofs.«152416_j10892037062711_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«152416_j10892037062711_1_alg».proof.Proof.Pass1BodyW

set_option maxRecDepth 16384

noncomputable section

namespace Cert.Kernel.Pass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]
variable {Ix : Type} [DecidableEq Ix] {U : Type} [URA U] {Lvl : Type} [Preorder Lvl]

local notation "𝕄" => MT nD τ sig Ix (Elt F) ℕ U Lvl

/-! ## Region 0: the proof data over an arbitrary entry valuation -/

section Region0

variable (W : Dev nD → Valuation τ sig (Elt F))

/-- The entry valuation read at a TensorCore reference of core `c`. -/
abbrev VA0 (c : Dev nD) (b : Ref sig .tc) : Buf (Elt F) ((c : Thread nD τ).loc b) := W c (Proc.devRef .tc b)

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (VA0 W c (Pipeline.arrRef spec0 w))

/-- The affine image of block `t`: what the body stores into the big output window there. -/
def img0 (c : Dev nD) (t : Fin cfg0.N) : Vec F S10000x64 .f32 :=
  k0_pay3 (iblk0 W c 0 t) (iblk0 W c 1 t) (iblk0 W c 2 t) (iblk0 W c 3 t)

/-- THE ACCUMULATION. The two scratch rows before point `n`: zero rows before the first point; after point `n` the rows
    before it plus the column sums of block `n`'s image and of its square. -/
def acc0 (c : Dev nD) : (n : ℕ) → n ≤ cfg0.N → Vec F S1x64 .f32 × Vec F S1x64 .f32
  | 0, _ => (k0_pay1, k0_pay2)
  | n + 1, hn =>
    (k0_pay4 (iblk0 W c 0 ⟨n, Nat.lt_of_succ_le hn⟩) (iblk0 W c 1 ⟨n, Nat.lt_of_succ_le hn⟩) (iblk0 W c 2 ⟨n, Nat.lt_of_succ_le hn⟩) (iblk0 W c 3 ⟨n, Nat.lt_of_succ_le hn⟩) (acc0 c n (Nat.le_of_succ_le hn)).1,
     k0_pay5 (iblk0 W c 0 ⟨n, Nat.lt_of_succ_le hn⟩) (iblk0 W c 1 ⟨n, Nat.lt_of_succ_le hn⟩) (iblk0 W c 2 ⟨n, Nat.lt_of_succ_le hn⟩) (iblk0 W c 3 ⟨n, Nat.lt_of_succ_le hn⟩) (acc0 c n (Nat.le_of_succ_le hn)).2)

theorem acc0_zero (c : Dev nD) (h : 0 ≤ cfg0.N) : acc0 W c 0 h = (k0_pay1, k0_pay2) := rfl

theorem acc0_succ (c : Dev nD) (n : ℕ) (hn : n + 1 ≤ cfg0.N) :
    acc0 W c (n + 1) hn =
      (k0_pay4 (iblk0 W c 0 ⟨n, Nat.lt_of_succ_le hn⟩) (iblk0 W c 1 ⟨n, Nat.lt_of_succ_le hn⟩) (iblk0 W c 2 ⟨n, Nat.lt_of_succ_le hn⟩) (iblk0 W c 3 ⟨n, Nat.lt_of_succ_le hn⟩) (acc0 W c n (Nat.le_of_succ_le hn)).1,
       k0_pay5 (iblk0 W c 0 ⟨n, Nat.lt_of_succ_le hn⟩) (iblk0 W c 1 ⟨n, Nat.lt_of_succ_le hn⟩) (iblk0 W c 2 ⟨n, Nat.lt_of_succ_le hn⟩) (iblk0 W c 3 ⟨n, Nat.lt_of_succ_le hn⟩) (acc0 W c n (Nat.le_of_succ_le hn)).2) := rfl

/-! ### The conditions over the grid, and where the small output windows are idle -/

/-- The first conditional is taken at the first point only. -/
theorem hcond0_1 : ∀ t : Fin cfg0.N, cond0_1 (grid0.coords t) ↔ t.val = 0 :=
  (by decide +kernel : ∀ t : Fin grid0.N, cond0_1 (grid0.coords t) ↔ t.val = 0)
/-- The second conditional is taken at the last point only. -/
theorem hcond0_2 : ∀ t : Fin cfg0.N, cond0_2 (grid0.coords t) ↔ t.val = 9 :=
  (by decide +kernel : ∀ t : Fin grid0.N, cond0_2 (grid0.coords t) ↔ t.val = 9)

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
theorem live0_4 : ∀ t : Fin cfg0.N, cfg0.idle 4 (grid0.coords t) = false := by decide +kernel
/-- Away from the last point the two small output windows are idle and not written back. -/
theorem idle0_5 : ∀ t : Fin cfg0.N, ¬cond0_2 (grid0.coords t) → cfg0.idle 5 (grid0.coords t) = true := by decide +kernel
theorem idle0_6 : ∀ t : Fin cfg0.N, ¬cond0_2 (grid0.coords t) → cfg0.idle 6 (grid0.coords t) = true := by decide +kernel
theorem noFlush0_5 : ∀ t : Fin cfg0.N, ¬cond0_2 (grid0.coords t) → (cfg0.win 5).flush t = false := by decide +kernel
theorem noFlush0_6 : ∀ t : Fin cfg0.N, ¬cond0_2 (grid0.coords t) → (cfg0.win 6).flush t = false := by decide +kernel
/-- At the last point they are live. -/
theorem live0_5 : ∀ t : Fin cfg0.N, cond0_2 (grid0.coords t) → cfg0.idle 5 (grid0.coords t) = false := by decide +kernel
theorem live0_6 : ∀ t : Fin cfg0.N, cond0_2 (grid0.coords t) → cfg0.idle 6 (grid0.coords t) = false := by decide +kernel

/-! ### The staging and scratch memrefs -/

abbrev ms0_0 (t : Fin cfg0.N) : Memref sig .tc .vmem S10000x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S10000x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x64 .f32 := win0_6.stage (cfg0.slots t 6)
abbrev hs0_6 (t : Fin cfg0.N) : (ms0_6 t).IsWhole := hstage0_6 ((cfg0.slots t 6).cast nbuf0_6)
/-- The two scratch rows: whole scoped buffers of the kernel's own, passed beside the windows. -/
abbrev scM0_0 : Memref sig .tc .vmem S1x64 .f32 := Memref.whole cc0_scratch0
abbrev scM0_1 : Memref sig .tc .vmem S1x64 .f32 := Memref.whole cc0_scratch1

/-- The scoped rest with the two scratch rows as memrefs owned at some contents. -/
theorem scopedRest0_owns (c : Dev nD) :
    (Pipeline.scopedRest (Ix := Ix) (Name := ℕ) (U := U) (Lvl := Lvl) (Val := Elt F) spec0 c : sProp 𝕄)
      = iprop(iprop((∃ d, owns (c : Thread nD τ) scM0_0 fullShare d) ∗ (∃ d, owns (c : Thread nD τ) scM0_1 fullShare d))
          ∗ Pipeline.scopedRestBut (Ix := Ix) (Name := ℕ) (U := U) (Lvl := Lvl) (Val := Elt F) spec0 c [cc0_scratch0, cc0_scratch1]) := by
  rw [scopedRest0_split]; simp only [scM0_0, scM0_1, owns_whole]; try rfl

/-! ### The invariant -/

/-- The region invariant before position `n`: before the first point the scoped rest (the scratch rows at anything); afterwards
    the two scratch rows at the accumulation so far, beside the rest of the scoped rest. -/
def PhiS0 (c : Dev nD) : (n : ℕ) → n ≤ cfg0.N → sProp 𝕄
  | 0, _ => Pipeline.scopedRest (Ix := Ix) (Name := ℕ) (U := U) (Lvl := Lvl) (Val := Elt F) spec0 c
  | n + 1, hn => iprop(iprop(owns (c : Thread nD τ) scM0_0 fullShare (acc0 W c (n + 1) hn).1 ∗ owns (c : Thread nD τ) scM0_1 fullShare (acc0 W c (n + 1) hn).2)
      ∗ Pipeline.scopedRestBut (Ix := Ix) (Name := ℕ) (U := U) (Lvl := Lvl) (Val := Elt F) spec0 c [cc0_scratch0, cc0_scratch1])

/-! ### The proof data -/

/-- The proof data of region 0 on core `c`: the arrays as the region finds them; after the body at point `t` each input's buffer
    at its block, the big output's at the block's image, the two small outputs' at the accumulation through `t`; the invariant
    `PhiS0`; nothing owed; full shares. -/
def dat0 (c : Dev nD) : Dat τ (Elt F) Ix ℕ U Lvl cfg0 c where
  A w := VA0 W c (Pipeline.arrRef spec0 w)
  after w t := match w with
    | ⟨0, _⟩ => iblk0 W c 0 t
    | ⟨1, _⟩ => iblk0 W c 1 t
    | ⟨2, _⟩ => iblk0 W c 2 t
    | ⟨3, _⟩ => iblk0 W c 3 t
    | ⟨4, _⟩ => img0 W c t
    | ⟨5, _⟩ => (acc0 W c (t.val + 1) t.isLt).1
    | ⟨6, _⟩ => (acc0 W c (t.val + 1) t.isLt).2
  Φ t := PhiS0 W c t.val (Nat.le_of_lt_succ t.isLt)
  q _ := fullShare
  owed _ := 0

end Region0

section Region0b

variable (W : Dev nD → Valuation τ sig (Elt F))

/-- The proof data's arrays are the entry contents. -/
theorem A0_eq (c : Dev nD) (w : Fin cfg0.W) : (dat0 (Ix := Ix) (U := U) (Lvl := Lvl) W c).A w = VA0 W c (Pipeline.arrRef spec0 w) := by
  dsimp only [dat0]

/-- What the body leaves, window by window. -/
theorem after0_0 (c : Dev nD) (t : Fin cfg0.N) : (dat0 (Ix := Ix) (U := U) (Lvl := Lvl) W c).after 0 t = iblk0 W c 0 t := by dsimp only [dat0]
theorem after0_1 (c : Dev nD) (t : Fin cfg0.N) : (dat0 (Ix := Ix) (U := U) (Lvl := Lvl) W c).after 1 t = iblk0 W c 1 t := by dsimp only [dat0]
theorem after0_2 (c : Dev nD) (t : Fin cfg0.N) : (dat0 (Ix := Ix) (U := U) (Lvl := Lvl) W c).after 2 t = iblk0 W c 2 t := by dsimp only [dat0]
theorem after0_3 (c : Dev nD) (t : Fin cfg0.N) : (dat0 (Ix := Ix) (U := U) (Lvl := Lvl) W c).after 3 t = iblk0 W c 3 t := by dsimp only [dat0]
theorem after0_4 (c : Dev nD) (t : Fin cfg0.N) : (dat0 (Ix := Ix) (U := U) (Lvl := Lvl) W c).after 4 t = img0 W c t := by dsimp only [dat0]
theorem after0_5 (c : Dev nD) (t : Fin cfg0.N) : (dat0 (Ix := Ix) (U := U) (Lvl := Lvl) W c).after 5 t = (acc0 W c (t.val + 1) t.isLt).1 := by dsimp only [dat0]
theorem after0_6 (c : Dev nD) (t : Fin cfg0.N) : (dat0 (Ix := Ix) (U := U) (Lvl := Lvl) W c).after 6 t = (acc0 W c (t.val + 1) t.isLt).2 := by dsimp only [dat0]

/-- Input window 0's current staging buffer holds its block at every point, fetched there or not. -/
theorem before0_0 (c : Dev nD) (t : Fin cfg0.N) (d) : (dat0 (Ix := Ix) (U := U) (Lvl := Lvl) W c).before 0 t d = iblk0 W c 0 t :=
  ((dat0 (Ix := Ix) (U := U) (Lvl := Lvl) W c).before_in_eq_fetched 0 rfl (fun _ => rfl) (fun _ _ _ => rfl)
      (fun t => by rw [after0_0]; unfold Dat.blockOf iblk0; rw [A0_eq]; try rfl) t d).trans
    (by unfold Dat.fetched Dat.blockOf iblk0; rw [A0_eq]; try rfl)
/-- Input window 1's current staging buffer holds its block at every point, fetched there or not. -/
theorem before0_1 (c : Dev nD) (t : Fin cfg0.N) (d) : (dat0 (Ix := Ix) (U := U) (Lvl := Lvl) W c).before 1 t d = iblk0 W c 1 t :=
  ((dat0 (Ix := Ix) (U := U) (Lvl := Lvl) W c).before_in_eq_fetched 1 rfl (fun _ => rfl) (fun _ _ _ => rfl)
      (fun t => by rw [after0_1]; unfold Dat.blockOf iblk0; rw [A0_eq]; try rfl) t d).trans
    (by unfold Dat.fetched Dat.blockOf iblk0; rw [A0_eq]; try rfl)
/-- Input window 2's current staging buffer holds its block at every point, fetched there or not. -/
theorem before0_2 (c : Dev nD) (t : Fin cfg0.N) (d) : (dat0 (Ix := Ix) (U := U) (Lvl := Lvl) W c).before 2 t d = iblk0 W c 2 t :=
  ((dat0 (Ix := Ix) (U := U) (Lvl := Lvl) W c).before_in_eq_fetched 2 rfl (fun _ => rfl) (fun _ _ _ => rfl)
      (fun t => by rw [after0_2]; unfold Dat.blockOf iblk0; rw [A0_eq]; try rfl) t d).trans
    (by unfold Dat.fetched Dat.blockOf iblk0; rw [A0_eq]; try rfl)
/-- Input window 3's current staging buffer holds its block at every point, fetched there or not. -/
theorem before0_3 (c : Dev nD) (t : Fin cfg0.N) (d) : (dat0 (Ix := Ix) (U := U) (Lvl := Lvl) W c).before 3 t d = iblk0 W c 3 t :=
  ((dat0 (Ix := Ix) (U := U) (Lvl := Lvl) W c).before_in_eq_fetched 3 rfl (fun _ => rfl) (fun _ _ _ => rfl)
      (fun t => by rw [after0_3]; unfold Dat.blockOf iblk0; rw [A0_eq]; try rfl) t d).trans
    (by unfold Dat.fetched Dat.blockOf iblk0; rw [A0_eq]; try rfl)

/-- The invariant at a point's start, restated at the point's number. -/
theorem Phi0_castSucc (c : Dev nD) (t : Fin cfg0.N) : (dat0 (Ix := Ix) (U := U) (Lvl := Lvl) W c).Φ t.castSucc = PhiS0 W c t.val (Nat.le_of_lt t.isLt) := by
  dsimp only [dat0]; simp only [Fin.coe_castSucc]

/-! ### The body obligation -/

/-- What the body is called with at point `t`, the windows one by one, -/
def bodyPre0 (ι : Ix) (c : Dev nD) (t : Fin cfg0.N) : sProp 𝕄 :=
  iprop((dat0 (Ix := Ix) (U := U) (Lvl := Lvl) W c).Φ t.castSucc ∗ (dat0 (Ix := Ix) (U := U) (Lvl := Lvl) W c).owesAt ι t.castSucc
    ∗ (∃ d, owns (c : Thread nD τ) (ms0_0 t) fullShare ((dat0 (Ix := Ix) (U := U) (Lvl := Lvl) W c).before 0 t d))
    ∗ (∃ d, owns (c : Thread nD τ) (ms0_1 t) fullShare ((dat0 (Ix := Ix) (U := U) (Lvl := Lvl) W c).before 1 t d))
    ∗ (∃ d, owns (c : Thread nD τ) (ms0_2 t) fullShare ((dat0 (Ix := Ix) (U := U) (Lvl := Lvl) W c).before 2 t d))
    ∗ (∃ d, owns (c : Thread nD τ) (ms0_3 t) fullShare ((dat0 (Ix := Ix) (U := U) (Lvl := Lvl) W c).before 3 t d))
    ∗ (∃ d, owns (c : Thread nD τ) (ms0_4 t) fullShare ((dat0 (Ix := Ix) (U := U) (Lvl := Lvl) W c).before 4 t d))
    ∗ (∃ d, owns (c : Thread nD τ) (ms0_5 t) fullShare ((dat0 (Ix := Ix) (U := U) (Lvl := Lvl) W c).before 5 t d))
    ∗ (∃ d, owns (c : Thread nD τ) (ms0_6 t) fullShare ((dat0 (Ix := Ix) (U := U) (Lvl := Lvl) W c).before 6 t d)))

/-- and what it returns. -/
def bodyPost0 (ι : Ix) (c : Dev nD) (t : Fin cfg0.N) : sProp 𝕄 :=
  iprop((dat0 (Ix := Ix) (U := U) (Lvl := Lvl) W c).Φ t.succ ∗ (dat0 (Ix := Ix) (U := U) (Lvl := Lvl) W c).owesAt ι t.succ
    ∗ (dat0 (Ix := Ix) (U := U) (Lvl := Lvl) W c).leavesExact 0 t
    ∗ (dat0 (Ix := Ix) (U := U) (Lvl := Lvl) W c).leavesExact 1 t
    ∗ (dat0 (Ix := Ix) (U := U) (Lvl := Lvl) W c).leavesExact 2 t
    ∗ (dat0 (Ix := Ix) (U := U) (Lvl := Lvl) W c).leavesExact 3 t
    ∗ (dat0 (Ix := Ix) (U := U) (Lvl := Lvl) W c).leavesExact 4 t
    ∗ (dat0 (Ix := Ix) (U := U) (Lvl := Lvl) W c).leavesExact 5 t
    ∗ (dat0 (Ix := Ix) (U := U) (Lvl := Lvl) W c).leavesExact 6 t)

set_option maxHeartbeats 4000000 in
/-- The body at any point: the inputs' memrefs hold their blocks; the point's number says which of the three cases it is in; the
    invariant hands the body the scratch rows at the accumulation so far (at anything at the first point) and takes them back
    one block further; at the last point the small output windows receive the rows. -/
theorem sound_body0 (𝒱₀ : Variants) (ι : Ix) (c : Dev nD) (t : Fin cfg0.N) :
    (bodyPre0 (U := U) (Lvl := Lvl) W ι c t : sProp 𝕄) ⊢ wp frame (wpE (defs₀ (F := F)) 𝒱₀ c none) Set.univ (bodyAt0 t) (fun _ => bodyPost0 (U := U) (Lvl := Lvl) W ι c t) := by
  obtain ⟨n, hn⟩ := t
  have hN : n < 10 := lt_of_lt_of_eq hn (show cfg0.N = 10 from N_0)
  unfold bodyPre0 bodyPost0 bodyAt0
  simp only [before0_0, before0_1, before0_2, before0_3]
  rw [show (dat0 (Ix := Ix) (U := U) (Lvl := Lvl) W c).owesAt ι (Fin.succ ⟨n, hn⟩) = (dat0 (Ix := Ix) (U := U) (Lvl := Lvl) W c).owesAt ι (Fin.castSucc ⟨n, hn⟩) from rfl]
  rw [show (dat0 (Ix := Ix) (U := U) (Lvl := Lvl) W c).Φ (Fin.succ ⟨n, hn⟩) = PhiS0 W c (n + 1) hn from rfl, Phi0_castSucc]
  rw [show (dat0 (Ix := Ix) (U := U) (Lvl := Lvl) W c).leavesExact 0 ⟨n, hn⟩ = owns (c : Thread nD τ) (ms0_0 ⟨n, hn⟩) fullShare ((dat0 (Ix := Ix) (U := U) (Lvl := Lvl) W c).after 0 ⟨n, hn⟩) from by
    unfold Dat.leavesExact; rw [live0_0 ⟨n, hn⟩], after0_0]
  rw [show (dat0 (Ix := Ix) (U := U) (Lvl := Lvl) W c).leavesExact 1 ⟨n, hn⟩ = owns (c : Thread nD τ) (ms0_1 ⟨n, hn⟩) fullShare ((dat0 (Ix := Ix) (U := U) (Lvl := Lvl) W c).after 1 ⟨n, hn⟩) from by
    unfold Dat.leavesExact; rw [live0_1 ⟨n, hn⟩], after0_1]
  rw [show (dat0 (Ix := Ix) (U := U) (Lvl := Lvl) W c).leavesExact 2 ⟨n, hn⟩ = owns (c : Thread nD τ) (ms0_2 ⟨n, hn⟩) fullShare ((dat0 (Ix := Ix) (U := U) (Lvl := Lvl) W c).after 2 ⟨n, hn⟩) from by
    unfold Dat.leavesExact; rw [live0_2 ⟨n, hn⟩], after0_2]
  rw [show (dat0 (Ix := Ix) (U := U) (Lvl := Lvl) W c).leavesExact 3 ⟨n, hn⟩ = owns (c : Thread nD τ) (ms0_3 ⟨n, hn⟩) fullShare ((dat0 (Ix := Ix) (U := U) (Lvl := Lvl) W c).after 3 ⟨n, hn⟩) from by
    unfold Dat.leavesExact; rw [live0_3 ⟨n, hn⟩], after0_3]
  rw [show (dat0 (Ix := Ix) (U := U) (Lvl := Lvl) W c).leavesExact 4 ⟨n, hn⟩ = owns (c : Thread nD τ) (ms0_4 ⟨n, hn⟩) fullShare ((dat0 (Ix := Ix) (U := U) (Lvl := Lvl) W c).after 4 ⟨n, hn⟩) from by
    unfold Dat.leavesExact; rw [live0_4 ⟨n, hn⟩], after0_4]
  rcases n with _ | n
  · -- the first point
    have hc1 : cond0_1 (grid0.coords ⟨0, hn⟩) := (hcond0_1 ⟨0, hn⟩).mpr rfl
    have hc2 : ¬cond0_2 (grid0.coords ⟨0, hn⟩) := fun h => (fun h => by (try dsimp only at h); omega) ((hcond0_2 ⟨0, hn⟩).mp h)
    rw [Dat.leavesExact_idle (dat0 (Ix := Ix) (U := U) (Lvl := Lvl) W c) 5 ⟨0, hn⟩ (idle0_5 _ hc2) (noFlush0_5 _ hc2), Dat.leavesExact_idle (dat0 (Ix := Ix) (U := U) (Lvl := Lvl) W c) 6 ⟨0, hn⟩ (idle0_6 _ hc2) (noFlush0_6 _ hc2)]
    rw [show PhiS0 W c (0 + 1) hn = iprop(iprop(owns (c : Thread nD τ) scM0_0 fullShare (acc0 W c (0 + 1) hn).1 ∗ owns (c : Thread nD τ) scM0_1 fullShare (acc0 W c (0 + 1) hn).2)
      ∗ Pipeline.scopedRestBut (Ix := Ix) (Name := ℕ) (U := U) (Lvl := Lvl) (Val := Elt F) spec0 c [cc0_scratch0, cc0_scratch1]) from rfl, acc0_succ, acc0_zero]
    rw [show PhiS0 (Ix := Ix) (U := U) (Lvl := Lvl) W c (Fin.val (⟨0, hn⟩ : Fin cfg0.N)) (Nat.le_of_lt hn) = Pipeline.scopedRest (Ix := Ix) (Name := ℕ) (U := U) (Lvl := Lvl) (Val := Elt F) spec0 c from rfl, scopedRest0_owns]
    iintro ⟨⟨⟨HS0, HS1⟩, Hrest⟩, Ho, ⟨%d0, H0⟩, ⟨%d1, H1⟩, ⟨%d2, H2⟩, ⟨%d3, H3⟩, ⟨%d4, H4⟩, H5, H6⟩
    iapply (body0_first 𝒱₀ c (grid0.coords ⟨0, hn⟩) _ _ _ _ _ _ _ _ _ _ _ _ _ _ _ _ _ _ hc1 hc2 (iblk0 W c 0 ⟨0, hn⟩) (iblk0 W c 1 ⟨0, hn⟩) (iblk0 W c 2 ⟨0, hn⟩) (iblk0 W c 3 ⟨0, hn⟩) Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, H4, HS0, HS1⟩
    isplitl [HS0 HS1 Hrest]
    · isplitr [Hrest]
      · isplitl [HS0]; · iexact HS0
        iexact HS1
      iexact Hrest
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [show PhiS0 W c (n + 1 + 1) hn = iprop(iprop(owns (c : Thread nD τ) scM0_0 fullShare (acc0 W c (n + 1 + 1) hn).1 ∗ owns (c : Thread nD τ) scM0_1 fullShare (acc0 W c (n + 1 + 1) hn).2)
      ∗ Pipeline.scopedRestBut (Ix := Ix) (Name := ℕ) (U := U) (Lvl := Lvl) (Val := Elt F) spec0 c [cc0_scratch0, cc0_scratch1]) from rfl, acc0_succ]
    rw [show PhiS0 (Ix := Ix) (U := U) (Lvl := Lvl) W c (Fin.val (⟨n + 1, hn⟩ : Fin cfg0.N)) (Nat.le_of_lt hn) = iprop(iprop(owns (c : Thread nD τ) scM0_0 fullShare (acc0 W c (n + 1) (Nat.le_of_lt hn)).1 ∗ owns (c : Thread nD τ) scM0_1 fullShare (acc0 W c (n + 1) (Nat.le_of_lt hn)).2)
      ∗ Pipeline.scopedRestBut (Ix := Ix) (Name := ℕ) (U := U) (Lvl := Lvl) (Val := Elt F) spec0 c [cc0_scratch0, cc0_scratch1]) from rfl]
    have hc1 : ¬cond0_1 (grid0.coords ⟨n + 1, hn⟩) := fun h => (fun h => by (try dsimp only at h); omega) ((hcond0_1 ⟨n + 1, hn⟩).mp h)
    by_cases h9 : n + 1 = 9
    · -- the last point
      have hc2 : cond0_2 (grid0.coords ⟨n + 1, hn⟩) := (hcond0_2 ⟨n + 1, hn⟩).mpr h9
      rw [show (dat0 (Ix := Ix) (U := U) (Lvl := Lvl) W c).leavesExact 5 ⟨n + 1, hn⟩ = owns (c : Thread nD τ) (ms0_5 ⟨n + 1, hn⟩) fullShare ((dat0 (Ix := Ix) (U := U) (Lvl := Lvl) W c).after 5 ⟨n + 1, hn⟩) from by
        unfold Dat.leavesExact; rw [live0_5 ⟨n + 1, hn⟩ hc2], after0_5]
      rw [show (dat0 (Ix := Ix) (U := U) (Lvl := Lvl) W c).leavesExact 6 ⟨n + 1, hn⟩ = owns (c : Thread nD τ) (ms0_6 ⟨n + 1, hn⟩) fullShare ((dat0 (Ix := Ix) (U := U) (Lvl := Lvl) W c).after 6 ⟨n + 1, hn⟩) from by
        unfold Dat.leavesExact; rw [live0_6 ⟨n + 1, hn⟩ hc2], after0_6]
      rw [acc0_succ W c (n + 1) hn]
      iintro ⟨⟨⟨HS0, HS1⟩, Hrest⟩, Ho, ⟨%d0, H0⟩, ⟨%d1, H1⟩, ⟨%d2, H2⟩, ⟨%d3, H3⟩, ⟨%d4, H4⟩, ⟨%d5, H5⟩, ⟨%d6, H6⟩⟩
      iapply (body0_last 𝒱₀ c (grid0.coords ⟨n + 1, hn⟩) _ _ _ _ _ _ _ _ _ _ _ _ _ _ _ _ _ _ hc1 hc2 (iblk0 W c 0 ⟨n + 1, hn⟩) (iblk0 W c 1 ⟨n + 1, hn⟩) (iblk0 W c 2 ⟨n + 1, hn⟩) (iblk0 W c 3 ⟨n + 1, hn⟩) _ _ Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 Hrest]
      · isplitr [Hrest]
        · isplitl [HS0]; · iexact HS0
          iexact HS1
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · -- a middle point
      have hc2 : ¬cond0_2 (grid0.coords ⟨n + 1, hn⟩) := fun h => h9 ((hcond0_2 ⟨n + 1, hn⟩).mp h)
      rw [Dat.leavesExact_idle (dat0 (Ix := Ix) (U := U) (Lvl := Lvl) W c) 5 ⟨n + 1, hn⟩ (idle0_5 _ hc2) (noFlush0_5 _ hc2), Dat.leavesExact_idle (dat0 (Ix := Ix) (U := U) (Lvl := Lvl) W c) 6 ⟨n + 1, hn⟩ (idle0_6 _ hc2) (noFlush0_6 _ hc2)]
      iintro ⟨⟨⟨HS0, HS1⟩, Hrest⟩, Ho, ⟨%d0, H0⟩, ⟨%d1, H1⟩, ⟨%d2, H2⟩, ⟨%d3, H3⟩, ⟨%d4, H4⟩, H5, H6⟩
      iapply (body0_mid 𝒱₀ c (grid0.coords ⟨n + 1, hn⟩) _ _ _ _ _ _ _ _ _ _ _ _ _ _ _ _ _ _ hc1 hc2 (iblk0 W c 0 ⟨n + 1, hn⟩) (iblk0 W c 1 ⟨n + 1, hn⟩) (iblk0 W c 2 ⟨n + 1, hn⟩) (iblk0 W c 3 ⟨n + 1, hn⟩) _ _ Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 Hrest]
      · isplitr [Hrest]
        · isplitl [HS0]; · iexact HS0
          iexact HS1
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation0 (𝒱₀ : Variants) (ι : Ix) (c : Dev nD) : BodyObligation (dat0 (Ix := Ix) (U := U) (Lvl := Lvl) W c) (defs₀ (F := F)) 𝒱₀ ι Set.univ := fun t => by
  rw [bigSep_W0, bigSep_W0]
  exact sound_body0 (U := U) (Lvl := Lvl) W 𝒱₀ ι c t

end Region0b

/-! ## Region 3: the proof data over an arbitrary entry valuation -/

section Region3

variable (W : Dev nD → Valuation τ sig (Elt F))

/-- The entry valuation read at a TensorCore reference of core `c`. -/
abbrev VA3 (c : Dev nD) (b : Ref sig .tc) : Buf (Elt F) ((c : Thread nD τ).loc b) := W c (Proc.devRef .tc b)

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (VA3 W c (Pipeline.arrRef spec3 w))

/-- The affine image of block `t`: what the body stores into the big output window there. -/
def img3 (c : Dev nD) (t : Fin cfg3.N) : Vec F S10000x64 .f32 :=
  k3_pay3 (iblk3 W c 0 t) (iblk3 W c 1 t) (iblk3 W c 2 t) (iblk3 W c 3 t)

/-- THE ACCUMULATION. The two scratch rows before point `n`: zero rows before the first point; after point `n` the rows
    before it plus the column sums of block `n`'s image and of its square. -/
def acc3 (c : Dev nD) : (n : ℕ) → n ≤ cfg3.N → Vec F S1x64 .f32 × Vec F S1x64 .f32
  | 0, _ => (k3_pay1, k3_pay2)
  | n + 1, hn =>
    (k3_pay4 (iblk3 W c 0 ⟨n, Nat.lt_of_succ_le hn⟩) (iblk3 W c 1 ⟨n, Nat.lt_of_succ_le hn⟩) (iblk3 W c 2 ⟨n, Nat.lt_of_succ_le hn⟩) (iblk3 W c 3 ⟨n, Nat.lt_of_succ_le hn⟩) (acc3 c n (Nat.le_of_succ_le hn)).1,
     k3_pay5 (iblk3 W c 0 ⟨n, Nat.lt_of_succ_le hn⟩) (iblk3 W c 1 ⟨n, Nat.lt_of_succ_le hn⟩) (iblk3 W c 2 ⟨n, Nat.lt_of_succ_le hn⟩) (iblk3 W c 3 ⟨n, Nat.lt_of_succ_le hn⟩) (acc3 c n (Nat.le_of_succ_le hn)).2)

theorem acc3_zero (c : Dev nD) (h : 0 ≤ cfg3.N) : acc3 W c 0 h = (k3_pay1, k3_pay2) := rfl

theorem acc3_succ (c : Dev nD) (n : ℕ) (hn : n + 1 ≤ cfg3.N) :
    acc3 W c (n + 1) hn =
      (k3_pay4 (iblk3 W c 0 ⟨n, Nat.lt_of_succ_le hn⟩) (iblk3 W c 1 ⟨n, Nat.lt_of_succ_le hn⟩) (iblk3 W c 2 ⟨n, Nat.lt_of_succ_le hn⟩) (iblk3 W c 3 ⟨n, Nat.lt_of_succ_le hn⟩) (acc3 W c n (Nat.le_of_succ_le hn)).1,
       k3_pay5 (iblk3 W c 0 ⟨n, Nat.lt_of_succ_le hn⟩) (iblk3 W c 1 ⟨n, Nat.lt_of_succ_le hn⟩) (iblk3 W c 2 ⟨n, Nat.lt_of_succ_le hn⟩) (iblk3 W c 3 ⟨n, Nat.lt_of_succ_le hn⟩) (acc3 W c n (Nat.le_of_succ_le hn)).2) := rfl

/-! ### The conditions over the grid, and where the small output windows are idle -/

/-- The first conditional is taken at the first point only. -/
theorem hcond3_1 : ∀ t : Fin cfg3.N, cond3_1 (grid3.coords t) ↔ t.val = 0 :=
  (by decide +kernel : ∀ t : Fin grid3.N, cond3_1 (grid3.coords t) ↔ t.val = 0)
/-- The second conditional is taken at the last point only. -/
theorem hcond3_2 : ∀ t : Fin cfg3.N, cond3_2 (grid3.coords t) ↔ t.val = 9 :=
  (by decide +kernel : ∀ t : Fin grid3.N, cond3_2 (grid3.coords t) ↔ t.val = 9)

theorem live3_0 : ∀ t : Fin cfg3.N, cfg3.idle 0 (grid3.coords t) = false := by decide +kernel
theorem live3_1 : ∀ t : Fin cfg3.N, cfg3.idle 1 (grid3.coords t) = false := by decide +kernel
theorem live3_2 : ∀ t : Fin cfg3.N, cfg3.idle 2 (grid3.coords t) = false := by decide +kernel
theorem live3_3 : ∀ t : Fin cfg3.N, cfg3.idle 3 (grid3.coords t) = false := by decide +kernel
theorem live3_4 : ∀ t : Fin cfg3.N, cfg3.idle 4 (grid3.coords t) = false := by decide +kernel
/-- Away from the last point the two small output windows are idle and not written back. -/
theorem idle3_5 : ∀ t : Fin cfg3.N, ¬cond3_2 (grid3.coords t) → cfg3.idle 5 (grid3.coords t) = true := by decide +kernel
theorem idle3_6 : ∀ t : Fin cfg3.N, ¬cond3_2 (grid3.coords t) → cfg3.idle 6 (grid3.coords t) = true := by decide +kernel
theorem noFlush3_5 : ∀ t : Fin cfg3.N, ¬cond3_2 (grid3.coords t) → (cfg3.win 5).flush t = false := by decide +kernel
theorem noFlush3_6 : ∀ t : Fin cfg3.N, ¬cond3_2 (grid3.coords t) → (cfg3.win 6).flush t = false := by decide +kernel
/-- At the last point they are live. -/
theorem live3_5 : ∀ t : Fin cfg3.N, cond3_2 (grid3.coords t) → cfg3.idle 5 (grid3.coords t) = false := by decide +kernel
theorem live3_6 : ∀ t : Fin cfg3.N, cond3_2 (grid3.coords t) → cfg3.idle 6 (grid3.coords t) = false := by decide +kernel

/-! ### The staging and scratch memrefs -/

abbrev ms3_0 (t : Fin cfg3.N) : Memref sig .tc .vmem S10000x64 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S10000x64 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S64x64 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x64 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S10000x64 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1x64 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S1x64 .f32 := win3_6.stage (cfg3.slots t 6)
abbrev hs3_6 (t : Fin cfg3.N) : (ms3_6 t).IsWhole := hstage3_6 ((cfg3.slots t 6).cast nbuf3_6)
/-- The two scratch rows: whole scoped buffers of the kernel's own, passed beside the windows. -/
abbrev scM3_0 : Memref sig .tc .vmem S1x64 .f32 := Memref.whole cc3_scratch0
abbrev scM3_1 : Memref sig .tc .vmem S1x64 .f32 := Memref.whole cc3_scratch1

/-- The scoped rest with the two scratch rows as memrefs owned at some contents. -/
theorem scopedRest3_owns (c : Dev nD) :
    (Pipeline.scopedRest (Ix := Ix) (Name := ℕ) (U := U) (Lvl := Lvl) (Val := Elt F) spec3 c : sProp 𝕄)
      = iprop(iprop((∃ d, owns (c : Thread nD τ) scM3_0 fullShare d) ∗ (∃ d, owns (c : Thread nD τ) scM3_1 fullShare d))
          ∗ Pipeline.scopedRestBut (Ix := Ix) (Name := ℕ) (U := U) (Lvl := Lvl) (Val := Elt F) spec3 c [cc3_scratch0, cc3_scratch1]) := by
  rw [scopedRest3_split]; simp only [scM3_0, scM3_1, owns_whole]; try rfl

/-! ### The invariant -/

/-- The region invariant before position `n`: before the first point the scoped rest (the scratch rows at anything); afterwards
    the two scratch rows at the accumulation so far, beside the rest of the scoped rest. -/
def PhiS3 (c : Dev nD) : (n : ℕ) → n ≤ cfg3.N → sProp 𝕄
  | 0, _ => Pipeline.scopedRest (Ix := Ix) (Name := ℕ) (U := U) (Lvl := Lvl) (Val := Elt F) spec3 c
  | n + 1, hn => iprop(iprop(owns (c : Thread nD τ) scM3_0 fullShare (acc3 W c (n + 1) hn).1 ∗ owns (c : Thread nD τ) scM3_1 fullShare (acc3 W c (n + 1) hn).2)
      ∗ Pipeline.scopedRestBut (Ix := Ix) (Name := ℕ) (U := U) (Lvl := Lvl) (Val := Elt F) spec3 c [cc3_scratch0, cc3_scratch1])

/-! ### The proof data -/

/-- The proof data of region 3 on core `c`: the arrays as the region finds them; after the body at point `t` each input's buffer
    at its block, the big output's at the block's image, the two small outputs' at the accumulation through `t`; the invariant
    `PhiS3`; nothing owed; full shares. -/
def dat3 (c : Dev nD) : Dat τ (Elt F) Ix ℕ U Lvl cfg3 c where
  A w := VA3 W c (Pipeline.arrRef spec3 w)
  after w t := match w with
    | ⟨0, _⟩ => iblk3 W c 0 t
    | ⟨1, _⟩ => iblk3 W c 1 t
    | ⟨2, _⟩ => iblk3 W c 2 t
    | ⟨3, _⟩ => iblk3 W c 3 t
    | ⟨4, _⟩ => img3 W c t
    | ⟨5, _⟩ => (acc3 W c (t.val + 1) t.isLt).1
    | ⟨6, _⟩ => (acc3 W c (t.val + 1) t.isLt).2
  Φ t := PhiS3 W c t.val (Nat.le_of_lt_succ t.isLt)
  q _ := fullShare
  owed _ := 0

end Region3

section Region3_b

variable (W : Dev nD → Valuation τ sig (Elt F))

/-- The proof data's arrays are the entry contents. -/
theorem A3_eq (c : Dev nD) (w : Fin cfg3.W) : (dat3 (Ix := Ix) (U := U) (Lvl := Lvl) W c).A w = VA3 W c (Pipeline.arrRef spec3 w) := by
  dsimp only [dat3]

/-- What the body leaves, window by window. -/
theorem after3_0 (c : Dev nD) (t : Fin cfg3.N) : (dat3 (Ix := Ix) (U := U) (Lvl := Lvl) W c).after 0 t = iblk3 W c 0 t := by dsimp only [dat3]
theorem after3_1 (c : Dev nD) (t : Fin cfg3.N) : (dat3 (Ix := Ix) (U := U) (Lvl := Lvl) W c).after 1 t = iblk3 W c 1 t := by dsimp only [dat3]
theorem after3_2 (c : Dev nD) (t : Fin cfg3.N) : (dat3 (Ix := Ix) (U := U) (Lvl := Lvl) W c).after 2 t = iblk3 W c 2 t := by dsimp only [dat3]
theorem after3_3 (c : Dev nD) (t : Fin cfg3.N) : (dat3 (Ix := Ix) (U := U) (Lvl := Lvl) W c).after 3 t = iblk3 W c 3 t := by dsimp only [dat3]
theorem after3_4 (c : Dev nD) (t : Fin cfg3.N) : (dat3 (Ix := Ix) (U := U) (Lvl := Lvl) W c).after 4 t = img3 W c t := by dsimp only [dat3]
theorem after3_5 (c : Dev nD) (t : Fin cfg3.N) : (dat3 (Ix := Ix) (U := U) (Lvl := Lvl) W c).after 5 t = (acc3 W c (t.val + 1) t.isLt).1 := by dsimp only [dat3]
theorem after3_6 (c : Dev nD) (t : Fin cfg3.N) : (dat3 (Ix := Ix) (U := U) (Lvl := Lvl) W c).after 6 t = (acc3 W c (t.val + 1) t.isLt).2 := by dsimp only [dat3]

/-- Input window 0's current staging buffer holds its block at every point, fetched there or not. -/
theorem before3_0 (c : Dev nD) (t : Fin cfg3.N) (d) : (dat3 (Ix := Ix) (U := U) (Lvl := Lvl) W c).before 0 t d = iblk3 W c 0 t :=
  ((dat3 (Ix := Ix) (U := U) (Lvl := Lvl) W c).before_in_eq_fetched 0 rfl (fun _ => rfl) (fun _ _ _ => rfl)
      (fun t => by rw [after3_0]; unfold Dat.blockOf iblk3; rw [A3_eq]; try rfl) t d).trans
    (by unfold Dat.fetched Dat.blockOf iblk3; rw [A3_eq]; try rfl)
/-- Input window 1's current staging buffer holds its block at every point, fetched there or not. -/
theorem before3_1 (c : Dev nD) (t : Fin cfg3.N) (d) : (dat3 (Ix := Ix) (U := U) (Lvl := Lvl) W c).before 1 t d = iblk3 W c 1 t :=
  ((dat3 (Ix := Ix) (U := U) (Lvl := Lvl) W c).before_in_eq_fetched 1 rfl (fun _ => rfl) (fun _ _ _ => rfl)
      (fun t => by rw [after3_1]; unfold Dat.blockOf iblk3; rw [A3_eq]; try rfl) t d).trans
    (by unfold Dat.fetched Dat.blockOf iblk3; rw [A3_eq]; try rfl)
/-- Input window 2's current staging buffer holds its block at every point, fetched there or not. -/
theorem before3_2 (c : Dev nD) (t : Fin cfg3.N) (d) : (dat3 (Ix := Ix) (U := U) (Lvl := Lvl) W c).before 2 t d = iblk3 W c 2 t :=
  ((dat3 (Ix := Ix) (U := U) (Lvl := Lvl) W c).before_in_eq_fetched 2 rfl (fun _ => rfl) (fun _ _ _ => rfl)
      (fun t => by rw [after3_2]; unfold Dat.blockOf iblk3; rw [A3_eq]; try rfl) t d).trans
    (by unfold Dat.fetched Dat.blockOf iblk3; rw [A3_eq]; try rfl)
/-- Input window 3's current staging buffer holds its block at every point, fetched there or not. -/
theorem before3_3 (c : Dev nD) (t : Fin cfg3.N) (d) : (dat3 (Ix := Ix) (U := U) (Lvl := Lvl) W c).before 3 t d = iblk3 W c 3 t :=
  ((dat3 (Ix := Ix) (U := U) (Lvl := Lvl) W c).before_in_eq_fetched 3 rfl (fun _ => rfl) (fun _ _ _ => rfl)
      (fun t => by rw [after3_3]; unfold Dat.blockOf iblk3; rw [A3_eq]; try rfl) t d).trans
    (by unfold Dat.fetched Dat.blockOf iblk3; rw [A3_eq]; try rfl)

/-- The invariant at a point's start, restated at the point's number. -/
theorem Phi3_castSucc (c : Dev nD) (t : Fin cfg3.N) : (dat3 (Ix := Ix) (U := U) (Lvl := Lvl) W c).Φ t.castSucc = PhiS3 W c t.val (Nat.le_of_lt t.isLt) := by
  dsimp only [dat3]; simp only [Fin.coe_castSucc]

/-! ### The body obligation -/

/-- What the body is called with at point `t`, the windows one by one, -/
def bodyPre3 (ι : Ix) (c : Dev nD) (t : Fin cfg3.N) : sProp 𝕄 :=
  iprop((dat3 (Ix := Ix) (U := U) (Lvl := Lvl) W c).Φ t.castSucc ∗ (dat3 (Ix := Ix) (U := U) (Lvl := Lvl) W c).owesAt ι t.castSucc
    ∗ (∃ d, owns (c : Thread nD τ) (ms3_0 t) fullShare ((dat3 (Ix := Ix) (U := U) (Lvl := Lvl) W c).before 0 t d))
    ∗ (∃ d, owns (c : Thread nD τ) (ms3_1 t) fullShare ((dat3 (Ix := Ix) (U := U) (Lvl := Lvl) W c).before 1 t d))
    ∗ (∃ d, owns (c : Thread nD τ) (ms3_2 t) fullShare ((dat3 (Ix := Ix) (U := U) (Lvl := Lvl) W c).before 2 t d))
    ∗ (∃ d, owns (c : Thread nD τ) (ms3_3 t) fullShare ((dat3 (Ix := Ix) (U := U) (Lvl := Lvl) W c).before 3 t d))
    ∗ (∃ d, owns (c : Thread nD τ) (ms3_4 t) fullShare ((dat3 (Ix := Ix) (U := U) (Lvl := Lvl) W c).before 4 t d))
    ∗ (∃ d, owns (c : Thread nD τ) (ms3_5 t) fullShare ((dat3 (Ix := Ix) (U := U) (Lvl := Lvl) W c).before 5 t d))
    ∗ (∃ d, owns (c : Thread nD τ) (ms3_6 t) fullShare ((dat3 (Ix := Ix) (U := U) (Lvl := Lvl) W c).before 6 t d)))

/-- and what it returns. -/
def bodyPost3 (ι : Ix) (c : Dev nD) (t : Fin cfg3.N) : sProp 𝕄 :=
  iprop((dat3 (Ix := Ix) (U := U) (Lvl := Lvl) W c).Φ t.succ ∗ (dat3 (Ix := Ix) (U := U) (Lvl := Lvl) W c).owesAt ι t.succ
    ∗ (dat3 (Ix := Ix) (U := U) (Lvl := Lvl) W c).leavesExact 0 t
    ∗ (dat3 (Ix := Ix) (U := U) (Lvl := Lvl) W c).leavesExact 1 t
    ∗ (dat3 (Ix := Ix) (U := U) (Lvl := Lvl) W c).leavesExact 2 t
    ∗ (dat3 (Ix := Ix) (U := U) (Lvl := Lvl) W c).leavesExact 3 t
    ∗ (dat3 (Ix := Ix) (U := U) (Lvl := Lvl) W c).leavesExact 4 t
    ∗ (dat3 (Ix := Ix) (U := U) (Lvl := Lvl) W c).leavesExact 5 t
    ∗ (dat3 (Ix := Ix) (U := U) (Lvl := Lvl) W c).leavesExact 6 t)

set_option maxHeartbeats 4000000 in
/-- The body at any point: the inputs' memrefs hold their blocks; the point's number says which of the three cases it is in; the
    invariant hands the body the scratch rows at the accumulation so far (at anything at the first point) and takes them back
    one block further; at the last point the small output windows receive the rows. -/
theorem sound_body3 (𝒱₀ : Variants) (ι : Ix) (c : Dev nD) (t : Fin cfg3.N) :
    (bodyPre3 (U := U) (Lvl := Lvl) W ι c t : sProp 𝕄) ⊢ wp frame (wpE (defs₀ (F := F)) 𝒱₀ c none) Set.univ (bodyAt3 t) (fun _ => bodyPost3 (U := U) (Lvl := Lvl) W ι c t) := by
  obtain ⟨n, hn⟩ := t
  have hN : n < 10 := lt_of_lt_of_eq hn (show cfg3.N = 10 from N_3)
  unfold bodyPre3 bodyPost3 bodyAt3
  simp only [before3_0, before3_1, before3_2, before3_3]
  rw [show (dat3 (Ix := Ix) (U := U) (Lvl := Lvl) W c).owesAt ι (Fin.succ ⟨n, hn⟩) = (dat3 (Ix := Ix) (U := U) (Lvl := Lvl) W c).owesAt ι (Fin.castSucc ⟨n, hn⟩) from rfl]
  rw [show (dat3 (Ix := Ix) (U := U) (Lvl := Lvl) W c).Φ (Fin.succ ⟨n, hn⟩) = PhiS3 W c (n + 1) hn from rfl, Phi3_castSucc]
  rw [show (dat3 (Ix := Ix) (U := U) (Lvl := Lvl) W c).leavesExact 0 ⟨n, hn⟩ = owns (c : Thread nD τ) (ms3_0 ⟨n, hn⟩) fullShare ((dat3 (Ix := Ix) (U := U) (Lvl := Lvl) W c).after 0 ⟨n, hn⟩) from by
    unfold Dat.leavesExact; rw [live3_0 ⟨n, hn⟩], after3_0]
  rw [show (dat3 (Ix := Ix) (U := U) (Lvl := Lvl) W c).leavesExact 1 ⟨n, hn⟩ = owns (c : Thread nD τ) (ms3_1 ⟨n, hn⟩) fullShare ((dat3 (Ix := Ix) (U := U) (Lvl := Lvl) W c).after 1 ⟨n, hn⟩) from by
    unfold Dat.leavesExact; rw [live3_1 ⟨n, hn⟩], after3_1]
  rw [show (dat3 (Ix := Ix) (U := U) (Lvl := Lvl) W c).leavesExact 2 ⟨n, hn⟩ = owns (c : Thread nD τ) (ms3_2 ⟨n, hn⟩) fullShare ((dat3 (Ix := Ix) (U := U) (Lvl := Lvl) W c).after 2 ⟨n, hn⟩) from by
    unfold Dat.leavesExact; rw [live3_2 ⟨n, hn⟩], after3_2]
  rw [show (dat3 (Ix := Ix) (U := U) (Lvl := Lvl) W c).leavesExact 3 ⟨n, hn⟩ = owns (c : Thread nD τ) (ms3_3 ⟨n, hn⟩) fullShare ((dat3 (Ix := Ix) (U := U) (Lvl := Lvl) W c).after 3 ⟨n, hn⟩) from by
    unfold Dat.leavesExact; rw [live3_3 ⟨n, hn⟩], after3_3]
  rw [show (dat3 (Ix := Ix) (U := U) (Lvl := Lvl) W c).leavesExact 4 ⟨n, hn⟩ = owns (c : Thread nD τ) (ms3_4 ⟨n, hn⟩) fullShare ((dat3 (Ix := Ix) (U := U) (Lvl := Lvl) W c).after 4 ⟨n, hn⟩) from by
    unfold Dat.leavesExact; rw [live3_4 ⟨n, hn⟩], after3_4]
  rcases n with _ | n
  · -- the first point
    have hc1 : cond3_1 (grid3.coords ⟨0, hn⟩) := (hcond3_1 ⟨0, hn⟩).mpr rfl
    have hc2 : ¬cond3_2 (grid3.coords ⟨0, hn⟩) := fun h => (fun h => by (try dsimp only at h); omega) ((hcond3_2 ⟨0, hn⟩).mp h)
    rw [Dat.leavesExact_idle (dat3 (Ix := Ix) (U := U) (Lvl := Lvl) W c) 5 ⟨0, hn⟩ (idle3_5 _ hc2) (noFlush3_5 _ hc2), Dat.leavesExact_idle (dat3 (Ix := Ix) (U := U) (Lvl := Lvl) W c) 6 ⟨0, hn⟩ (idle3_6 _ hc2) (noFlush3_6 _ hc2)]
    rw [show PhiS3 W c (0 + 1) hn = iprop(iprop(owns (c : Thread nD τ) scM3_0 fullShare (acc3 W c (0 + 1) hn).1 ∗ owns (c : Thread nD τ) scM3_1 fullShare (acc3 W c (0 + 1) hn).2)
      ∗ Pipeline.scopedRestBut (Ix := Ix) (Name := ℕ) (U := U) (Lvl := Lvl) (Val := Elt F) spec3 c [cc3_scratch0, cc3_scratch1]) from rfl, acc3_succ, acc3_zero]
    rw [show PhiS3 (Ix := Ix) (U := U) (Lvl := Lvl) W c (Fin.val (⟨0, hn⟩ : Fin cfg3.N)) (Nat.le_of_lt hn) = Pipeline.scopedRest (Ix := Ix) (Name := ℕ) (U := U) (Lvl := Lvl) (Val := Elt F) spec3 c from rfl, scopedRest3_owns]
    iintro ⟨⟨⟨HS0, HS1⟩, Hrest⟩, Ho, ⟨%d0, H0⟩, ⟨%d1, H1⟩, ⟨%d2, H2⟩, ⟨%d3, H3⟩, ⟨%d4, H4⟩, H5, H6⟩
    iapply (body3_first 𝒱₀ c (grid3.coords ⟨0, hn⟩) _ _ _ _ _ _ _ _ _ _ _ _ _ _ _ _ _ _ hc1 hc2 (iblk3 W c 0 ⟨0, hn⟩) (iblk3 W c 1 ⟨0, hn⟩) (iblk3 W c 2 ⟨0, hn⟩) (iblk3 W c 3 ⟨0, hn⟩) Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, H4, HS0, HS1⟩
    isplitl [HS0 HS1 Hrest]
    · isplitr [Hrest]
      · isplitl [HS0]; · iexact HS0
        iexact HS1
      iexact Hrest
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [show PhiS3 W c (n + 1 + 1) hn = iprop(iprop(owns (c : Thread nD τ) scM3_0 fullShare (acc3 W c (n + 1 + 1) hn).1 ∗ owns (c : Thread nD τ) scM3_1 fullShare (acc3 W c (n + 1 + 1) hn).2)
      ∗ Pipeline.scopedRestBut (Ix := Ix) (Name := ℕ) (U := U) (Lvl := Lvl) (Val := Elt F) spec3 c [cc3_scratch0, cc3_scratch1]) from rfl, acc3_succ]
    rw [show PhiS3 (Ix := Ix) (U := U) (Lvl := Lvl) W c (Fin.val (⟨n + 1, hn⟩ : Fin cfg3.N)) (Nat.le_of_lt hn) = iprop(iprop(owns (c : Thread nD τ) scM3_0 fullShare (acc3 W c (n + 1) (Nat.le_of_lt hn)).1 ∗ owns (c : Thread nD τ) scM3_1 fullShare (acc3 W c (n + 1) (Nat.le_of_lt hn)).2)
      ∗ Pipeline.scopedRestBut (Ix := Ix) (Name := ℕ) (U := U) (Lvl := Lvl) (Val := Elt F) spec3 c [cc3_scratch0, cc3_scratch1]) from rfl]
    have hc1 : ¬cond3_1 (grid3.coords ⟨n + 1, hn⟩) := fun h => (fun h => by (try dsimp only at h); omega) ((hcond3_1 ⟨n + 1, hn⟩).mp h)
    by_cases h9 : n + 1 = 9
    · -- the last point
      have hc2 : cond3_2 (grid3.coords ⟨n + 1, hn⟩) := (hcond3_2 ⟨n + 1, hn⟩).mpr h9
      rw [show (dat3 (Ix := Ix) (U := U) (Lvl := Lvl) W c).leavesExact 5 ⟨n + 1, hn⟩ = owns (c : Thread nD τ) (ms3_5 ⟨n + 1, hn⟩) fullShare ((dat3 (Ix := Ix) (U := U) (Lvl := Lvl) W c).after 5 ⟨n + 1, hn⟩) from by
        unfold Dat.leavesExact; rw [live3_5 ⟨n + 1, hn⟩ hc2], after3_5]
      rw [show (dat3 (Ix := Ix) (U := U) (Lvl := Lvl) W c).leavesExact 6 ⟨n + 1, hn⟩ = owns (c : Thread nD τ) (ms3_6 ⟨n + 1, hn⟩) fullShare ((dat3 (Ix := Ix) (U := U) (Lvl := Lvl) W c).after 6 ⟨n + 1, hn⟩) from by
        unfold Dat.leavesExact; rw [live3_6 ⟨n + 1, hn⟩ hc2], after3_6]
      rw [acc3_succ W c (n + 1) hn]
      iintro ⟨⟨⟨HS0, HS1⟩, Hrest⟩, Ho, ⟨%d0, H0⟩, ⟨%d1, H1⟩, ⟨%d2, H2⟩, ⟨%d3, H3⟩, ⟨%d4, H4⟩, ⟨%d5, H5⟩, ⟨%d6, H6⟩⟩
      iapply (body3_last 𝒱₀ c (grid3.coords ⟨n + 1, hn⟩) _ _ _ _ _ _ _ _ _ _ _ _ _ _ _ _ _ _ hc1 hc2 (iblk3 W c 0 ⟨n + 1, hn⟩) (iblk3 W c 1 ⟨n + 1, hn⟩) (iblk3 W c 2 ⟨n + 1, hn⟩) (iblk3 W c 3 ⟨n + 1, hn⟩) _ _ Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 Hrest]
      · isplitr [Hrest]
        · isplitl [HS0]; · iexact HS0
          iexact HS1
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · -- a middle point
      have hc2 : ¬cond3_2 (grid3.coords ⟨n + 1, hn⟩) := fun h => h9 ((hcond3_2 ⟨n + 1, hn⟩).mp h)
      rw [Dat.leavesExact_idle (dat3 (Ix := Ix) (U := U) (Lvl := Lvl) W c) 5 ⟨n + 1, hn⟩ (idle3_5 _ hc2) (noFlush3_5 _ hc2), Dat.leavesExact_idle (dat3 (Ix := Ix) (U := U) (Lvl := Lvl) W c) 6 ⟨n + 1, hn⟩ (idle3_6 _ hc2) (noFlush3_6 _ hc2)]
      iintro ⟨⟨⟨HS0, HS1⟩, Hrest⟩, Ho, ⟨%d0, H0⟩, ⟨%d1, H1⟩, ⟨%d2, H2⟩, ⟨%d3, H3⟩, ⟨%d4, H4⟩, H5, H6⟩
      iapply (body3_mid 𝒱₀ c (grid3.coords ⟨n + 1, hn⟩) _ _ _ _ _ _ _ _ _ _ _ _ _ _ _ _ _ _ hc1 hc2 (iblk3 W c 0 ⟨n + 1, hn⟩) (iblk3 W c 1 ⟨n + 1, hn⟩) (iblk3 W c 2 ⟨n + 1, hn⟩) (iblk3 W c 3 ⟨n + 1, hn⟩) _ _ Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 Hrest]
      · isplitr [Hrest]
        · isplitl [HS0]; · iexact HS0
          iexact HS1
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation3 (𝒱₀ : Variants) (ι : Ix) (c : Dev nD) : BodyObligation (dat3 (Ix := Ix) (U := U) (Lvl := Lvl) W c) (defs₀ (F := F)) 𝒱₀ ι Set.univ := fun t => by
  rw [bigSep_W3, bigSep_W3]
  exact sound_body3 (U := U) (Lvl := Lvl) W 𝒱₀ ι c t

end Region3_b

end Cert.Kernel.Pass

end
-- ==== Proof.Pass1RegionW.lean ====
import proofs.«152416_j10892037062711_1_alg».proof.Proof.Gen.Kernel.Launch
import proofs.«152416_j10892037062711_1_alg».proof.Proof.Gen.Kernel.Skeleton
import proofs.«152416_j10892037062711_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«152416_j10892037062711_1_alg».proof.Proof.Pass1DatW
import proofs.«152416_j10892037062711_1_alg».proof.Proof.Gen.Kernel.Regions
import Idealize.ShloMosaic.Lib.Pipeline.Regions
import Idealize.ShloMosaic.Lib.Pipeline.RegionsLoop

set_option maxRecDepth 16384

noncomputable section

namespace Cert.Kernel.Pass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)
open Cert.Kernel.Gen

variable {F : FTy → Type} [FloatOps F]
variable {Ix : Type} [DecidableEq Ix] {U : Type} [URA U] {Lvl : Type} [Preorder Lvl]

local notation "𝕄" => MT nD τ sig Ix (Elt F) ℕ U Lvl

/-! ## The core's debt as a pipeline point's, for proof data that owes nothing -/

theorem owesAt_of_owes {cfg : Pipeline.Cfg sig Λ₀} {c : Dev nD} (dat : Dat τ (Elt F) Ix ℕ U Lvl cfg c) (ι : Ix) (t : Fin (cfg.N + 1))
    (h0 : dat.owed t = 0) (hr : dat.recorded t = Set.univ) :
    iprop(∃ Wd, owes (c : Thread nD τ) (0 : CellTallies nD τ sig Ix) Wd) ⊢ (dat.owesAt ι t : sProp 𝕄) := by
  unfold Pipeline.Dat.owesAt Pipeline.owesWithin Pipeline.Dat.bound; rw [h0, hr]
  iintro ⟨%Wd, HO⟩; iexists Wd; isplitr; · ipureintro; exact fun _ _ => Or.inl trivial
  iexact HO

theorem owes_of_owesAt {cfg : Pipeline.Cfg sig Λ₀} {c : Dev nD} (dat : Dat τ (Elt F) Ix ℕ U Lvl cfg c) (ι : Ix) (t : Fin (cfg.N + 1))
    (h0 : dat.owed t = 0) :
    (dat.owesAt ι t : sProp 𝕄) ⊢ iprop(∃ Wd, owes (c : Thread nD τ) (0 : CellTallies nD τ sig Ix) Wd) := by
  unfold Pipeline.Dat.owesAt Pipeline.owesWithin; rw [h0]
  iintro ⟨%Wd, -, HO⟩; iexists Wd; iexact HO

/-! ## Region 0 as a segment -/

section Region0_c

variable (W Wout : Dev nD → Valuation τ sig (Elt F))
variable (pdats : (p : Fin 6) → (c : Dev nD) → Dat τ (Elt F) Ix ℕ U Lvl (cfgs p) c)
variable (ι : Ix) (𝒱₀ : Variants) (L : GSem nD τ sig → Finset Ix) (lv : GSem nD τ sig → Ix → Lvl)

/-- After any point but the first the invariant holds the scratch rows at the accumulation. -/
theorem PhiS_pos0 (c : Dev nD) (n : ℕ) (h : n ≤ cfg0.N) (hz : n ≠ 0) :
    PhiS0 (Ix := Ix) (U := U) (Lvl := Lvl) W c n h
      = iprop(iprop(owns (c : Thread nD τ) scM0_0 fullShare (acc0 W c n h).1 ∗ owns (c : Thread nD τ) scM0_1 fullShare (acc0 W c n h).2)
        ∗ Pipeline.scopedRestBut (Ix := Ix) (Name := ℕ) (U := U) (Lvl := Lvl) (Val := Elt F) spec0 c [cc0_scratch0, cc0_scratch1]) := by
  cases n with
  | zero => exact absurd rfl hz
  | succ n => rfl

-- the library's entry and exit lemmas are stated over the family's configuration at the pipeline's index: unifying it with
-- the region's own takes unfolding plain definitions in a metavariable's type
set_option backward.isDefEq.respectTransparency.types false in
set_option maxHeartbeats 4000000 in
/-- REGION 0: entered from the unscoped buffers held at `W c` beside the rest state `Rst c` (the core owing nothing, and a rest `G c`), left with them held at `Wout c` — any valuation that
    has the region's arrays at their final contents and agrees with `W c` elsewhere — beside `Rst c`. The windows' arrays go into
    the pipeline; every other unscoped buffer and `G c` bypass the region; the invariant takes the scoped rest and gives it back. -/
def R0 (Rst G : Dev nD → sProp 𝕄)
    (hRin : ∀ c : Dev nD, Rst c ⊢ iprop((∃ Wd, owes (c : Thread nD τ) (0 : CellTallies nD τ sig Ix) Wd) ∗ G c))
    (hRout : ∀ c : Dev nD, iprop((∃ Wd, owes (c : Thread nD τ) (0 : CellTallies nD τ sig Ix) Wd) ∗ G c) ⊢ Rst c)
    (h0 : ∀ c, pdats 0 c = dat0 W c)
    (hWarr : ∀ c w, (dat0 (Ix := Ix) (U := U) (Lvl := Lvl) W c).arrAt w cfg0.N = VA0 Wout c (Pipeline.arrRef spec0 w))
    (hWrest : ∀ c b, b ∉ Finset.univ.image (Pipeline.arrRef spec0) → VA0 Wout c b = VA0 W c b) :
    RegionSeg (pcfgs (F := F)) adm pdats ι defs₀ 𝒱₀ L lv 0 where
  win := launch0.win.to₀
  block_pos := launch0.block_pos
  stage_whole := launch0.stage_whole
  K := PEmpty
  osem k := k.elim
  ho := Pipeline.OwnSemFacts.none _
  hbody c := by rw [h0 c]; exact (body_obligation0 W 𝒱₀ ι c).loose
  hwaits := Pipeline.hwaits_of_owed_zero _ _ _ _ L lv 0 fun c t => by rw [h0 c]; rfl
  pre c := iprop(StableHlo.held (c : Thread nD τ) (Pipeline.ucRefs τ sig) (W c) ∗ Rst c)
  post c := iprop(StableHlo.held (c : Thread nD τ) (Pipeline.ucRefs τ sig) (Wout c) ∗ Rst c)
  X _ := iprop(emp)
  Y _ := iprop(emp)
  Z c := iprop(Pipeline.unscopedRest (Ix := Ix) (Name := ℕ) (U := U) (Lvl := Lvl) spec0 c (VA0 W c) ∗ G c)
  hentry c := by
    rw [show StableHlo.held (c : Thread nD τ) (Pipeline.ucRefs τ sig) (W c) = unscopedBufs (Ix := Ix) (Name := ℕ) (U := U) (Lvl := Lvl) c (VA0 W c) from (Pipeline.unscopedBufs_held c (W c)).symm,
      Pipeline.ownSems0_none]
    have hsplit := Pipeline.arrays_of_unscopedBufs (p := 0) (pcfgs (F := F)) adm pdats launch0.win launch0.arr_whole c
      ((pdats 0 c).share_full fun w => by rw [h0 c]; rfl) (VA0 W c) (fun w => by rw [h0 c]; exact A0_eq W c w)
    have hr := hRin c
    iintro ⟨⟨Hub, HR⟩, -, -⟩
    ihave HR2 := hr $$ HR
    icases HR2 with ⟨HO, HG⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owesAt_of_owes (pdats 0 c) ι 0 (by rw [h0 c]; rfl) (by rw [h0 c]; rfl)); iexact HO
    isplitr; · iempintro
    isplitl [Hrest]; · iexact Hrest
    iexact HG
  hin c := by
    rw [h0 c, show (dat0 (Ix := Ix) (U := U) (Lvl := Lvl) W c).Φ 0 = Pipeline.scopedRest (Ix := Ix) (Name := ℕ) (U := U) (Lvl := Lvl) (Val := Elt F) spec0 c from rfl]
    iintro ⟨-, -, Hr⟩; iexact Hr
  hout c := by
    rw [h0 c, Pipeline.ownSems0_none]
    change PhiS0 (Ix := Ix) (U := U) (Lvl := Lvl) W c cfg0.N (Nat.le_refl _)
      ⊢ iprop(emp ∗ emp ∗ Pipeline.scopedRest (Ix := Ix) (Name := ℕ) (U := U) (Lvl := Lvl) (Val := Elt F) spec0 c)
    rw [PhiS_pos0 W c _ _ (by have : cfg0.N = 10 := N_0; omega), scopedRest0_owns]
    iintro ⟨⟨HS0, HS1⟩, Hrest⟩
    isplitr; · iempintro
    isplitr; · iempintro
    isplitr [Hrest]
    · isplitl [HS0]; · iexists _; iexact HS0
      iexists _; iexact HS1
    iexact Hrest
  hexit c := by
    have hjoin := Pipeline.unscopedBufs_of_arrays (pcfgs (F := F)) adm (p := 0) launch0.win launch0.arr_whole c pdats
      ((pdats 0 c).share_full fun w => by rw [h0 c]; rfl) (VA0 W c) (VA0 Wout c) (fun w => (pdats 0 c).arrAt w cfg0.N)
      (fun w => by rw [h0 c]; exact hWarr c w) (hWrest c)
    rw [show StableHlo.held (c : Thread nD τ) (Pipeline.ucRefs τ sig) (Wout c) = unscopedBufs (Ix := Ix) (Name := ℕ) (U := U) (Lvl := Lvl) c (VA0 Wout c) from (Pipeline.unscopedBufs_held c (Wout c)).symm]
    iintro ⟨Ha, HO, -, ⟨Hrest, HG⟩⟩
    imodintro
    isplitl [Ha Hrest]
    · iapply hjoin
      isplitl [Ha]; · iexact Ha
      iexact Hrest
    iapply (hRout c)
    isplitl [HO]; · iapply (owes_of_owesAt (pdats 0 c) ι _ (by rw [h0 c]; rfl)); iexact HO
    iexact HG

end Region0_c

/-! ## Region 3 as a segment -/

section Region3_c

variable (W Wout : Dev nD → Valuation τ sig (Elt F))
variable (pdats : (p : Fin 6) → (c : Dev nD) → Dat τ (Elt F) Ix ℕ U Lvl (cfgs p) c)
variable (ι : Ix) (𝒱₀ : Variants) (L : GSem nD τ sig → Finset Ix) (lv : GSem nD τ sig → Ix → Lvl)

/-- After any point but the first the invariant holds the scratch rows at the accumulation. -/
theorem PhiS_pos3 (c : Dev nD) (n : ℕ) (h : n ≤ cfg3.N) (hz : n ≠ 0) :
    PhiS3 (Ix := Ix) (U := U) (Lvl := Lvl) W c n h
      = iprop(iprop(owns (c : Thread nD τ) scM3_0 fullShare (acc3 W c n h).1 ∗ owns (c : Thread nD τ) scM3_1 fullShare (acc3 W c n h).2)
        ∗ Pipeline.scopedRestBut (Ix := Ix) (Name := ℕ) (U := U) (Lvl := Lvl) (Val := Elt F) spec3 c [cc3_scratch0, cc3_scratch1]) := by
  cases n with
  | zero => exact absurd rfl hz
  | succ n => rfl

-- the library's entry and exit lemmas are stated over the family's configuration at the pipeline's index: unifying it with
-- the region's own takes unfolding plain definitions in a metavariable's type
set_option backward.isDefEq.respectTransparency.types false in
set_option maxHeartbeats 4000000 in
/-- REGION 3: entered from the unscoped buffers held at `W c` beside the rest state `Rst c` (the core owing nothing, and a rest `G c`), left with them held at `Wout c` — any valuation that
    has the region's arrays at their final contents and agrees with `W c` elsewhere — beside `Rst c`. The windows' arrays go into
    the pipeline; every other unscoped buffer and `G c` bypass the region; the invariant takes the scoped rest and gives it back. -/
def R3 (Rst G : Dev nD → sProp 𝕄)
    (hRin : ∀ c : Dev nD, Rst c ⊢ iprop((∃ Wd, owes (c : Thread nD τ) (0 : CellTallies nD τ sig Ix) Wd) ∗ G c))
    (hRout : ∀ c : Dev nD, iprop((∃ Wd, owes (c : Thread nD τ) (0 : CellTallies nD τ sig Ix) Wd) ∗ G c) ⊢ Rst c)
    (h0 : ∀ c, pdats 3 c = dat3 W c)
    (hWarr : ∀ c w, (dat3 (Ix := Ix) (U := U) (Lvl := Lvl) W c).arrAt w cfg3.N = VA3 Wout c (Pipeline.arrRef spec3 w))
    (hWrest : ∀ c b, b ∉ Finset.univ.image (Pipeline.arrRef spec3) → VA3 Wout c b = VA3 W c b) :
    RegionSeg (pcfgs (F := F)) adm pdats ι defs₀ 𝒱₀ L lv 3 where
  win := launch3.win.to₀
  block_pos := launch3.block_pos
  stage_whole := launch3.stage_whole
  K := PEmpty
  osem k := k.elim
  ho := Pipeline.OwnSemFacts.none _
  hbody c := by rw [h0 c]; exact (body_obligation3 W 𝒱₀ ι c).loose
  hwaits := Pipeline.hwaits_of_owed_zero _ _ _ _ L lv 3 fun c t => by rw [h0 c]; rfl
  pre c := iprop(StableHlo.held (c : Thread nD τ) (Pipeline.ucRefs τ sig) (W c) ∗ Rst c)
  post c := iprop(StableHlo.held (c : Thread nD τ) (Pipeline.ucRefs τ sig) (Wout c) ∗ Rst c)
  X _ := iprop(emp)
  Y _ := iprop(emp)
  Z c := iprop(Pipeline.unscopedRest (Ix := Ix) (Name := ℕ) (U := U) (Lvl := Lvl) spec3 c (VA3 W c) ∗ G c)
  hentry c := by
    rw [show StableHlo.held (c : Thread nD τ) (Pipeline.ucRefs τ sig) (W c) = unscopedBufs (Ix := Ix) (Name := ℕ) (U := U) (Lvl := Lvl) c (VA3 W c) from (Pipeline.unscopedBufs_held c (W c)).symm,
      Pipeline.ownSems0_none]
    have hsplit := Pipeline.arrays_of_unscopedBufs (p := 3) (pcfgs (F := F)) adm pdats launch3.win launch3.arr_whole c
      ((pdats 3 c).share_full fun w => by rw [h0 c]; rfl) (VA3 W c) (fun w => by rw [h0 c]; exact A3_eq W c w)
    have hr := hRin c
    iintro ⟨⟨Hub, HR⟩, -, -⟩
    ihave HR2 := hr $$ HR
    icases HR2 with ⟨HO, HG⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owesAt_of_owes (pdats 3 c) ι 0 (by rw [h0 c]; rfl) (by rw [h0 c]; rfl)); iexact HO
    isplitr; · iempintro
    isplitl [Hrest]; · iexact Hrest
    iexact HG
  hin c := by
    rw [h0 c, show (dat3 (Ix := Ix) (U := U) (Lvl := Lvl) W c).Φ 0 = Pipeline.scopedRest (Ix := Ix) (Name := ℕ) (U := U) (Lvl := Lvl) (Val := Elt F) spec3 c from rfl]
    iintro ⟨-, -, Hr⟩; iexact Hr
  hout c := by
    rw [h0 c, Pipeline.ownSems0_none]
    change PhiS3 (Ix := Ix) (U := U) (Lvl := Lvl) W c cfg3.N (Nat.le_refl _)
      ⊢ iprop(emp ∗ emp ∗ Pipeline.scopedRest (Ix := Ix) (Name := ℕ) (U := U) (Lvl := Lvl) (Val := Elt F) spec3 c)
    rw [PhiS_pos3 W c _ _ (by have : cfg3.N = 10 := N_3; omega), scopedRest3_owns]
    iintro ⟨⟨HS0, HS1⟩, Hrest⟩
    isplitr; · iempintro
    isplitr; · iempintro
    isplitr [Hrest]
    · isplitl [HS0]; · iexists _; iexact HS0
      iexists _; iexact HS1
    iexact Hrest
  hexit c := by
    have hjoin := Pipeline.unscopedBufs_of_arrays (pcfgs (F := F)) adm (p := 3) launch3.win launch3.arr_whole c pdats
      ((pdats 3 c).share_full fun w => by rw [h0 c]; rfl) (VA3 W c) (VA3 Wout c) (fun w => (pdats 3 c).arrAt w cfg3.N)
      (fun w => by rw [h0 c]; exact hWarr c w) (hWrest c)
    rw [show StableHlo.held (c : Thread nD τ) (Pipeline.ucRefs τ sig) (Wout c) = unscopedBufs (Ix := Ix) (Name := ℕ) (U := U) (Lvl := Lvl) c (VA3 Wout c) from (Pipeline.unscopedBufs_held c (Wout c)).symm]
    iintro ⟨Ha, HO, -, ⟨Hrest, HG⟩⟩
    imodintro
    isplitl [Ha Hrest]
    · iapply hjoin
      isplitl [Ha]; · iexact Ha
      iexact Hrest
    iapply (hRout c)
    isplitl [HO]; · iapply (owes_of_owesAt (pdats 3 c) ι _ (by rw [h0 c]; rfl)); iexact HO
    iexact HG

end Region3_c

end Cert.Kernel.Pass

end
-- ==== Proof.Pass2BodyW.lean ====
import proofs.«152416_j10892037062711_1_alg».proof.Proof.Gen.Kernel.Launch
import proofs.«152416_j10892037062711_1_alg».proof.Proof.Gen.Kernel.Skeleton
import proofs.«152416_j10892037062711_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«152416_j10892037062711_1_alg».proof.Proof.Pass1BodyW

set_option maxRecDepth 16384

noncomputable section

namespace Cert.Kernel.Pass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]
variable {Ix : Type} [DecidableEq Ix] {U : Type} [URA U] {Lvl : Type} [Preorder Lvl]

local notation "𝕄" => MT nD τ sig Ix (Elt F) ℕ U Lvl

/-! ## Region 1: the body's two conditionals, and its triple in each of the three cases the grid meets -/

/-- The condition of the first conditional: the grid coordinate is 0. -/
abbrev cond1_1 (i : grid1.Coords) : Prop := (Scalar.cmpi .ne (Scalar.extui (Scalar.cmpi .eq (BitVec.ofNat 32 (i 0).val) 0#32)) 0#32) = 1#1
/-- The condition of the second conditional: the grid coordinate is 9. -/
abbrev cond1_2 (i : grid1.Coords) : Prop := k1_cond2 i = 1#1

set_option maxHeartbeats 1000000 in
/-- A MIDDLE point (neither conditional taken): with the inputs' staging memrefs at their contents and the two scratch rows at
    `s1`, `s2`, the body stores the block's image (normalise, rectify, multiply, add the bias) into the big output window and
    adds the image's column sums (of it, of its square) to the scratch rows; the two small output windows are not touched. -/
theorem body1_mid (𝒱₀ : Variants) (c : Dev nD) (i : grid1.Coords)
    (arg1 : Memref sig .tc .vmem S10000x64 .f32) (harg1 : arg1.IsWhole)
    (arg2 : Memref sig .tc .vmem S1x64 .f32) (harg2 : arg2.IsWhole)
    (arg3 : Memref sig .tc .vmem S1x64 .f32) (harg3 : arg3.IsWhole)
    (arg4 : Memref sig .tc .vmem S1x64 .f32) (harg4 : arg4.IsWhole)
    (arg5 : Memref sig .tc .vmem S1x64 .f32) (harg5 : arg5.IsWhole)
    (arg6 : Memref sig .tc .vmem S64x64 .f32) (harg6 : arg6.IsWhole)
    (arg7 : Memref sig .tc .vmem S1x64 .f32) (harg7 : arg7.IsWhole)
    (arg8 : Memref sig .tc .vmem S10000x64 .f32) (harg8 : arg8.IsWhole)
    (arg9 : Memref sig .tc .vmem S1x64 .f32) (harg9 : arg9.IsWhole)
    (arg10 : Memref sig .tc .vmem S1x64 .f32) (harg10 : arg10.IsWhole)
    (arg11 : Memref sig .tc .vmem S1x64 .f32) (harg11 : arg11.IsWhole)
    (arg12 : Memref sig .tc .vmem S1x64 .f32) (harg12 : arg12.IsWhole)
    (hc1 : ¬cond1_1 i) (hc2 : ¬cond1_2 i)
    (x1 : Vec F S10000x64 .f32) (x2 x3 x4 x5 : Vec F S1x64 .f32) (x6 : Vec F S64x64 .f32) (x7 : Vec F S1x64 .f32) (s1 s2 : Vec F S1x64 .f32)
    (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ owns (c : Thread nD τ) arg11 fullShare s1 ∗ owns (c : Thread nD τ) arg12 fullShare s2
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (k1_pay5 x1 x3 x4 x2 x5 x6 x7) ∗ owns (c : Thread nD τ) arg11 fullShare (k1_pay1 (k1_pay5 x1 x3 x4 x2 x5 x6 x7) s1) ∗ owns (c : Thread nD τ) arg12 fullShare (k1_pay2 (k1_pay5 x1 x3 x4 x2 x5 x6 x7) s2)) -∗ K ⟨⟩))
      ⊢ wp frame (wpE (defs₀ (F := F)) 𝒱₀ c none) E (cc1__pass2_kernel i arg1 harg1 arg2 harg2 arg3 harg3 arg4 harg4 arg5 harg5 arg6 harg6 arg7 harg7 arg8 harg8 arg9 harg9 arg10 harg10 arg11 harg11 arg12 harg12) K := by
  simp only [cc1__pass2_kernel_eq_skeleton]; unfold cc1__pass2_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f11, %hf11, H11⟩, ⟨%f12, %hf12, H12⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  obtain rfl := harg11.eq_unread hf11; obtain rfl := harg12.eq_unread hf12
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    sl_unfold_run_names
    rw [read_writes_unit_zero _ _ off00, readAt_unit_unread harg1 off00, readAt_unit_unread harg2 off00, readAt_unit_unread harg3 off00, readAt_unit_unread harg4 off00, readAt_unit_unread harg5 off00, readAt_unit_unread harg6 off00, readAt_unit_unread harg7 off00]
  isplitl [H11]
  · iexists _; isplitr
    swap; · iexact H11
    ipureintro
    sl_unfold_run_names
    rw [read_writes_unit_zero _ _ off00, readAt_unit_unread harg1 off00, readAt_unit_unread harg2 off00, readAt_unit_unread harg3 off00, readAt_unit_unread harg4 off00, readAt_unit_unread harg5 off00, readAt_unit_unread harg6 off00, readAt_unit_unread harg7 off00, readAt_unit_unread harg11 off00]
  · iexists _; isplitr
    swap; · iexact H12
    ipureintro
    sl_unfold_run_names
    rw [read_writes_unit_zero _ _ off00, readAt_unit_unread harg1 off00, readAt_unit_unread harg2 off00, readAt_unit_unread harg3 off00, readAt_unit_unread harg4 off00, readAt_unit_unread harg5 off00, readAt_unit_unread harg6 off00, readAt_unit_unread harg7 off00, readAt_unit_unread harg12 off00]

set_option maxHeartbeats 1000000 in
/-- The FIRST point (the first conditional taken, the second not): the scratch rows, found at anything, are zeroed and then
    take the image's column sums; otherwise as a middle point. -/
theorem body1_first (𝒱₀ : Variants) (c : Dev nD) (i : grid1.Coords)
    (arg1 : Memref sig .tc .vmem S10000x64 .f32) (harg1 : arg1.IsWhole)
    (arg2 : Memref sig .tc .vmem S1x64 .f32) (harg2 : arg2.IsWhole)
    (arg3 : Memref sig .tc .vmem S1x64 .f32) (harg3 : arg3.IsWhole)
    (arg4 : Memref sig .tc .vmem S1x64 .f32) (harg4 : arg4.IsWhole)
    (arg5 : Memref sig .tc .vmem S1x64 .f32) (harg5 : arg5.IsWhole)
    (arg6 : Memref sig .tc .vmem S64x64 .f32) (harg6 : arg6.IsWhole)
    (arg7 : Memref sig .tc .vmem S1x64 .f32) (harg7 : arg7.IsWhole)
    (arg8 : Memref sig .tc .vmem S10000x64 .f32) (harg8 : arg8.IsWhole)
    (arg9 : Memref sig .tc .vmem S1x64 .f32) (harg9 : arg9.IsWhole)
    (arg10 : Memref sig .tc .vmem S1x64 .f32) (harg10 : arg10.IsWhole)
    (arg11 : Memref sig .tc .vmem S1x64 .f32) (harg11 : arg11.IsWhole)
    (arg12 : Memref sig .tc .vmem S1x64 .f32) (harg12 : arg12.IsWhole)
    (hc1 : cond1_1 i) (hc2 : ¬cond1_2 i)
    (x1 : Vec F S10000x64 .f32) (x2 x3 x4 x5 : Vec F S1x64 .f32) (x6 : Vec F S64x64 .f32) (x7 : Vec F S1x64 .f32)
    (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg11 fullShare d) ∗ (∃ d, owns (c : Thread nD τ) arg12 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (k1_pay5 x1 x3 x4 x2 x5 x6 x7) ∗ owns (c : Thread nD τ) arg11 fullShare (k1_pay1 (k1_pay5 x1 x3 x4 x2 x5 x6 x7) k1_pay3) ∗ owns (c : Thread nD τ) arg12 fullShare (k1_pay2 (k1_pay5 x1 x3 x4 x2 x5 x6 x7) k1_pay4)) -∗ K ⟨⟩))
      ⊢ wp frame (wpE (defs₀ (F := F)) 𝒱₀ c none) E (cc1__pass2_kernel i arg1 harg1 arg2 harg2 arg3 harg3 arg4 harg4 arg5 harg5 arg6 harg6 arg7 harg7 arg8 harg8 arg9 harg9 arg10 harg10 arg11 harg11 arg12 harg12) K := by
  simp only [cc1__pass2_kernel_eq_skeleton]; unfold cc1__pass2_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d11, %f11, -, H11⟩, ⟨%d12, %f12, -, H12⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    sl_unfold_run_names
    rw [read_writes_unit_zero _ _ off00, readAt_unit_unread harg1 off00, readAt_unit_unread harg2 off00, readAt_unit_unread harg3 off00, readAt_unit_unread harg4 off00, readAt_unit_unread harg5 off00, readAt_unit_unread harg6 off00, readAt_unit_unread harg7 off00]
  isplitl [H11]
  · iexists _; isplitr
    swap; · iexact H11
    ipureintro
    sl_unfold_run_names
    rw [read_writes_unit_zero_cons _ _ off00, readAt_unit_unread harg1 off00, readAt_unit_unread harg2 off00, readAt_unit_unread harg3 off00, readAt_unit_unread harg4 off00, readAt_unit_unread harg5 off00, readAt_unit_unread harg6 off00, readAt_unit_unread harg7 off00, View.readCov_cons_toLoadRect]
  · iexists _; isplitr
    swap; · iexact H12
    ipureintro
    sl_unfold_run_names
    rw [read_writes_unit_zero_cons _ _ off00, readAt_unit_unread harg1 off00, readAt_unit_unread harg2 off00, readAt_unit_unread harg3 off00, readAt_unit_unread harg4 off00, readAt_unit_unread harg5 off00, readAt_unit_unread harg6 off00, readAt_unit_unread harg7 off00, View.readCov_cons_toLoadRect]

set_option maxHeartbeats 1000000 in
/-- The LAST point (the first conditional not taken, the second taken): as a middle point, and then the two scratch rows —
    now holding the sums over every block — are copied into the two small output windows. -/
theorem body1_last (𝒱₀ : Variants) (c : Dev nD) (i : grid1.Coords)
    (arg1 : Memref sig .tc .vmem S10000x64 .f32) (harg1 : arg1.IsWhole)
    (arg2 : Memref sig .tc .vmem S1x64 .f32) (harg2 : arg2.IsWhole)
    (arg3 : Memref sig .tc .vmem S1x64 .f32) (harg3 : arg3.IsWhole)
    (arg4 : Memref sig .tc .vmem S1x64 .f32) (harg4 : arg4.IsWhole)
    (arg5 : Memref sig .tc .vmem S1x64 .f32) (harg5 : arg5.IsWhole)
    (arg6 : Memref sig .tc .vmem S64x64 .f32) (harg6 : arg6.IsWhole)
    (arg7 : Memref sig .tc .vmem S1x64 .f32) (harg7 : arg7.IsWhole)
    (arg8 : Memref sig .tc .vmem S10000x64 .f32) (harg8 : arg8.IsWhole)
    (arg9 : Memref sig .tc .vmem S1x64 .f32) (harg9 : arg9.IsWhole)
    (arg10 : Memref sig .tc .vmem S1x64 .f32) (harg10 : arg10.IsWhole)
    (arg11 : Memref sig .tc .vmem S1x64 .f32) (harg11 : arg11.IsWhole)
    (arg12 : Memref sig .tc .vmem S1x64 .f32) (harg12 : arg12.IsWhole)
    (hc1 : ¬cond1_1 i) (hc2 : cond1_2 i)
    (x1 : Vec F S10000x64 .f32) (x2 x3 x4 x5 : Vec F S1x64 .f32) (x6 : Vec F S64x64 .f32) (x7 : Vec F S1x64 .f32) (s1 s2 : Vec F S1x64 .f32)
    (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d)
        ∗ owns (c : Thread nD τ) arg11 fullShare s1 ∗ owns (c : Thread nD τ) arg12 fullShare s2
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (k1_pay5 x1 x3 x4 x2 x5 x6 x7) ∗ owns (c : Thread nD τ) arg9 fullShare (k1_pay1 (k1_pay5 x1 x3 x4 x2 x5 x6 x7) s1) ∗ owns (c : Thread nD τ) arg10 fullShare (k1_pay2 (k1_pay5 x1 x3 x4 x2 x5 x6 x7) s2)
            ∗ owns (c : Thread nD τ) arg11 fullShare (k1_pay1 (k1_pay5 x1 x3 x4 x2 x5 x6 x7) s1) ∗ owns (c : Thread nD τ) arg12 fullShare (k1_pay2 (k1_pay5 x1 x3 x4 x2 x5 x6 x7) s2)) -∗ K ⟨⟩))
      ⊢ wp frame (wpE (defs₀ (F := F)) 𝒱₀ c none) E (cc1__pass2_kernel i arg1 harg1 arg2 harg2 arg3 harg3 arg4 harg4 arg5 harg5 arg6 harg6 arg7 harg7 arg8 harg8 arg9 harg9 arg10 harg10 arg11 harg11 arg12 harg12) K := by
  simp only [cc1__pass2_kernel_eq_skeleton]; unfold cc1__pass2_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, ⟨%f12, %hf12, H12⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  obtain rfl := harg11.eq_unread hf11; obtain rfl := harg12.eq_unread hf12
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    sl_unfold_run_names
    rw [read_writes_unit_zero _ _ off00, readAt_unit_unread harg1 off00, readAt_unit_unread harg2 off00, readAt_unit_unread harg3 off00, readAt_unit_unread harg4 off00, readAt_unit_unread harg5 off00, readAt_unit_unread harg6 off00, readAt_unit_unread harg7 off00]
  isplitl [H9]
  · iexists _; isplitr
    swap; · iexact H9
    ipureintro
    sl_unfold_run_names
    rw [read_writes_unit_zero _ _ off00, View.readCov_cons_toLoadRect, readAt_unit_unread harg1 off00, readAt_unit_unread harg2 off00, readAt_unit_unread harg3 off00, readAt_unit_unread harg4 off00, readAt_unit_unread harg5 off00, readAt_unit_unread harg6 off00, readAt_unit_unread harg7 off00, readAt_unit_unread harg11 off00]
  isplitl [H10]
  · iexists _; isplitr
    swap; · iexact H10
    ipureintro
    sl_unfold_run_names
    rw [read_writes_unit_zero _ _ off00, View.readCov_cons_toLoadRect, readAt_unit_unread harg1 off00, readAt_unit_unread harg2 off00, readAt_unit_unread harg3 off00, readAt_unit_unread harg4 off00, readAt_unit_unread harg5 off00, readAt_unit_unread harg6 off00, readAt_unit_unread harg7 off00, readAt_unit_unread harg12 off00]
  isplitl [H11]
  · iexists _; isplitr
    swap; · iexact H11
    ipureintro
    sl_unfold_run_names
    rw [read_writes_unit_zero _ _ off00, readAt_unit_unread harg1 off00, readAt_unit_unread harg2 off00, readAt_unit_unread harg3 off00, readAt_unit_unread harg4 off00, readAt_unit_unread harg5 off00, readAt_unit_unread harg6 off00, readAt_unit_unread harg7 off00, readAt_unit_unread harg11 off00]
  · iexists _; isplitr
    swap; · iexact H12
    ipureintro
    sl_unfold_run_names
    rw [read_writes_unit_zero _ _ off00, readAt_unit_unread harg1 off00, readAt_unit_unread harg2 off00, readAt_unit_unread harg3 off00, readAt_unit_unread harg4 off00, readAt_unit_unread harg5 off00, readAt_unit_unread harg6 off00, readAt_unit_unread harg7 off00, readAt_unit_unread harg12 off00]

/-! ## Region 4: the body's two conditionals, and its triple in each of the three cases the grid meets -/

/-- The condition of the first conditional: the grid coordinate is 0. -/
abbrev cond4_1 (i : grid4.Coords) : Prop := (Scalar.cmpi .ne (Scalar.extui (Scalar.cmpi .eq (BitVec.ofNat 32 (i 0).val) 0#32)) 0#32) = 1#1
/-- The condition of the second conditional: the grid coordinate is 9. -/
abbrev cond4_2 (i : grid4.Coords) : Prop := k4_cond2 i = 1#1

set_option maxHeartbeats 1000000 in
/-- A MIDDLE point (neither conditional taken): with the inputs' staging memrefs at their contents and the two scratch rows at
    `s1`, `s2`, the body stores the block's image (normalise, rectify, multiply, add the bias) into the big output window and
    adds the image's column sums (of it, of its square) to the scratch rows; the two small output windows are not touched. -/
theorem body4_mid (𝒱₀ : Variants) (c : Dev nD) (i : grid4.Coords)
    (arg1 : Memref sig .tc .vmem S10000x64 .f32) (harg1 : arg1.IsWhole)
    (arg2 : Memref sig .tc .vmem S1x64 .f32) (harg2 : arg2.IsWhole)
    (arg3 : Memref sig .tc .vmem S1x64 .f32) (harg3 : arg3.IsWhole)
    (arg4 : Memref sig .tc .vmem S1x64 .f32) (harg4 : arg4.IsWhole)
    (arg5 : Memref sig .tc .vmem S1x64 .f32) (harg5 : arg5.IsWhole)
    (arg6 : Memref sig .tc .vmem S64x64 .f32) (harg6 : arg6.IsWhole)
    (arg7 : Memref sig .tc .vmem S1x64 .f32) (harg7 : arg7.IsWhole)
    (arg8 : Memref sig .tc .vmem S10000x64 .f32) (harg8 : arg8.IsWhole)
    (arg9 : Memref sig .tc .vmem S1x64 .f32) (harg9 : arg9.IsWhole)
    (arg10 : Memref sig .tc .vmem S1x64 .f32) (harg10 : arg10.IsWhole)
    (arg11 : Memref sig .tc .vmem S1x64 .f32) (harg11 : arg11.IsWhole)
    (arg12 : Memref sig .tc .vmem S1x64 .f32) (harg12 : arg12.IsWhole)
    (hc1 : ¬cond4_1 i) (hc2 : ¬cond4_2 i)
    (x1 : Vec F S10000x64 .f32) (x2 x3 x4 x5 : Vec F S1x64 .f32) (x6 : Vec F S64x64 .f32) (x7 : Vec F S1x64 .f32) (s1 s2 : Vec F S1x64 .f32)
    (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ owns (c : Thread nD τ) arg11 fullShare s1 ∗ owns (c : Thread nD τ) arg12 fullShare s2
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (k4_pay5 x1 x3 x4 x2 x5 x6 x7) ∗ owns (c : Thread nD τ) arg11 fullShare (k4_pay1 (k4_pay5 x1 x3 x4 x2 x5 x6 x7) s1) ∗ owns (c : Thread nD τ) arg12 fullShare (k4_pay2 (k4_pay5 x1 x3 x4 x2 x5 x6 x7) s2)) -∗ K ⟨⟩))
      ⊢ wp frame (wpE (defs₀ (F := F)) 𝒱₀ c none) E (cc4__pass2_kernel i arg1 harg1 arg2 harg2 arg3 harg3 arg4 harg4 arg5 harg5 arg6 harg6 arg7 harg7 arg8 harg8 arg9 harg9 arg10 harg10 arg11 harg11 arg12 harg12) K := by
  simp only [cc4__pass2_kernel_eq_skeleton]; unfold cc4__pass2_kernel_skel
  simp only [k4_part1_eq_skeleton]; unfold k4_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f11, %hf11, H11⟩, ⟨%f12, %hf12, H12⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  obtain rfl := harg11.eq_unread hf11; obtain rfl := harg12.eq_unread hf12
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    sl_unfold_run_names
    rw [read_writes_unit_zero _ _ off00, readAt_unit_unread harg1 off00, readAt_unit_unread harg2 off00, readAt_unit_unread harg3 off00, readAt_unit_unread harg4 off00, readAt_unit_unread harg5 off00, readAt_unit_unread harg6 off00, readAt_unit_unread harg7 off00]
  isplitl [H11]
  · iexists _; isplitr
    swap; · iexact H11
    ipureintro
    sl_unfold_run_names
    rw [read_writes_unit_zero _ _ off00, readAt_unit_unread harg1 off00, readAt_unit_unread harg2 off00, readAt_unit_unread harg3 off00, readAt_unit_unread harg4 off00, readAt_unit_unread harg5 off00, readAt_unit_unread harg6 off00, readAt_unit_unread harg7 off00, readAt_unit_unread harg11 off00]
  · iexists _; isplitr
    swap; · iexact H12
    ipureintro
    sl_unfold_run_names
    rw [read_writes_unit_zero _ _ off00, readAt_unit_unread harg1 off00, readAt_unit_unread harg2 off00, readAt_unit_unread harg3 off00, readAt_unit_unread harg4 off00, readAt_unit_unread harg5 off00, readAt_unit_unread harg6 off00, readAt_unit_unread harg7 off00, readAt_unit_unread harg12 off00]

set_option maxHeartbeats 1000000 in
/-- The FIRST point (the first conditional taken, the second not): the scratch rows, found at anything, are zeroed and then
    take the image's column sums; otherwise as a middle point. -/
theorem body4_first (𝒱₀ : Variants) (c : Dev nD) (i : grid4.Coords)
    (arg1 : Memref sig .tc .vmem S10000x64 .f32) (harg1 : arg1.IsWhole)
    (arg2 : Memref sig .tc .vmem S1x64 .f32) (harg2 : arg2.IsWhole)
    (arg3 : Memref sig .tc .vmem S1x64 .f32) (harg3 : arg3.IsWhole)
    (arg4 : Memref sig .tc .vmem S1x64 .f32) (harg4 : arg4.IsWhole)
    (arg5 : Memref sig .tc .vmem S1x64 .f32) (harg5 : arg5.IsWhole)
    (arg6 : Memref sig .tc .vmem S64x64 .f32) (harg6 : arg6.IsWhole)
    (arg7 : Memref sig .tc .vmem S1x64 .f32) (harg7 : arg7.IsWhole)
    (arg8 : Memref sig .tc .vmem S10000x64 .f32) (harg8 : arg8.IsWhole)
    (arg9 : Memref sig .tc .vmem S1x64 .f32) (harg9 : arg9.IsWhole)
    (arg10 : Memref sig .tc .vmem S1x64 .f32) (harg10 : arg10.IsWhole)
    (arg11 : Memref sig .tc .vmem S1x64 .f32) (harg11 : arg11.IsWhole)
    (arg12 : Memref sig .tc .vmem S1x64 .f32) (harg12 : arg12.IsWhole)
    (hc1 : cond4_1 i) (hc2 : ¬cond4_2 i)
    (x1 : Vec F S10000x64 .f32) (x2 x3 x4 x5 : Vec F S1x64 .f32) (x6 : Vec F S64x64 .f32) (x7 : Vec F S1x64 .f32)
    (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg11 fullShare d) ∗ (∃ d, owns (c : Thread nD τ) arg12 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (k4_pay5 x1 x3 x4 x2 x5 x6 x7) ∗ owns (c : Thread nD τ) arg11 fullShare (k4_pay1 (k4_pay5 x1 x3 x4 x2 x5 x6 x7) k4_pay3) ∗ owns (c : Thread nD τ) arg12 fullShare (k4_pay2 (k4_pay5 x1 x3 x4 x2 x5 x6 x7) k4_pay4)) -∗ K ⟨⟩))
      ⊢ wp frame (wpE (defs₀ (F := F)) 𝒱₀ c none) E (cc4__pass2_kernel i arg1 harg1 arg2 harg2 arg3 harg3 arg4 harg4 arg5 harg5 arg6 harg6 arg7 harg7 arg8 harg8 arg9 harg9 arg10 harg10 arg11 harg11 arg12 harg12) K := by
  simp only [cc4__pass2_kernel_eq_skeleton]; unfold cc4__pass2_kernel_skel
  simp only [k4_part1_eq_skeleton]; unfold k4_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d11, %f11, -, H11⟩, ⟨%d12, %f12, -, H12⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    sl_unfold_run_names
    rw [read_writes_unit_zero _ _ off00, readAt_unit_unread harg1 off00, readAt_unit_unread harg2 off00, readAt_unit_unread harg3 off00, readAt_unit_unread harg4 off00, readAt_unit_unread harg5 off00, readAt_unit_unread harg6 off00, readAt_unit_unread harg7 off00]
  isplitl [H11]
  · iexists _; isplitr
    swap; · iexact H11
    ipureintro
    sl_unfold_run_names
    rw [read_writes_unit_zero_cons _ _ off00, readAt_unit_unread harg1 off00, readAt_unit_unread harg2 off00, readAt_unit_unread harg3 off00, readAt_unit_unread harg4 off00, readAt_unit_unread harg5 off00, readAt_unit_unread harg6 off00, readAt_unit_unread harg7 off00, View.readCov_cons_toLoadRect]
  · iexists _; isplitr
    swap; · iexact H12
    ipureintro
    sl_unfold_run_names
    rw [read_writes_unit_zero_cons _ _ off00, readAt_unit_unread harg1 off00, readAt_unit_unread harg2 off00, readAt_unit_unread harg3 off00, readAt_unit_unread harg4 off00, readAt_unit_unread harg5 off00, readAt_unit_unread harg6 off00, readAt_unit_unread harg7 off00, View.readCov_cons_toLoadRect]

set_option maxHeartbeats 1000000 in
/-- The LAST point (the first conditional not taken, the second taken): as a middle point, and then the two scratch rows —
    now holding the sums over every block — are copied into the two small output windows. -/
theorem body4_last (𝒱₀ : Variants) (c : Dev nD) (i : grid4.Coords)
    (arg1 : Memref sig .tc .vmem S10000x64 .f32) (harg1 : arg1.IsWhole)
    (arg2 : Memref sig .tc .vmem S1x64 .f32) (harg2 : arg2.IsWhole)
    (arg3 : Memref sig .tc .vmem S1x64 .f32) (harg3 : arg3.IsWhole)
    (arg4 : Memref sig .tc .vmem S1x64 .f32) (harg4 : arg4.IsWhole)
    (arg5 : Memref sig .tc .vmem S1x64 .f32) (harg5 : arg5.IsWhole)
    (arg6 : Memref sig .tc .vmem S64x64 .f32) (harg6 : arg6.IsWhole)
    (arg7 : Memref sig .tc .vmem S1x64 .f32) (harg7 : arg7.IsWhole)
    (arg8 : Memref sig .tc .vmem S10000x64 .f32) (harg8 : arg8.IsWhole)
    (arg9 : Memref sig .tc .vmem S1x64 .f32) (harg9 : arg9.IsWhole)
    (arg10 : Memref sig .tc .vmem S1x64 .f32) (harg10 : arg10.IsWhole)
    (arg11 : Memref sig .tc .vmem S1x64 .f32) (harg11 : arg11.IsWhole)
    (arg12 : Memref sig .tc .vmem S1x64 .f32) (harg12 : arg12.IsWhole)
    (hc1 : ¬cond4_1 i) (hc2 : cond4_2 i)
    (x1 : Vec F S10000x64 .f32) (x2 x3 x4 x5 : Vec F S1x64 .f32) (x6 : Vec F S64x64 .f32) (x7 : Vec F S1x64 .f32) (s1 s2 : Vec F S1x64 .f32)
    (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d)
        ∗ owns (c : Thread nD τ) arg11 fullShare s1 ∗ owns (c : Thread nD τ) arg12 fullShare s2
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (k4_pay5 x1 x3 x4 x2 x5 x6 x7) ∗ owns (c : Thread nD τ) arg9 fullShare (k4_pay1 (k4_pay5 x1 x3 x4 x2 x5 x6 x7) s1) ∗ owns (c : Thread nD τ) arg10 fullShare (k4_pay2 (k4_pay5 x1 x3 x4 x2 x5 x6 x7) s2)
            ∗ owns (c : Thread nD τ) arg11 fullShare (k4_pay1 (k4_pay5 x1 x3 x4 x2 x5 x6 x7) s1) ∗ owns (c : Thread nD τ) arg12 fullShare (k4_pay2 (k4_pay5 x1 x3 x4 x2 x5 x6 x7) s2)) -∗ K ⟨⟩))
      ⊢ wp frame (wpE (defs₀ (F := F)) 𝒱₀ c none) E (cc4__pass2_kernel i arg1 harg1 arg2 harg2 arg3 harg3 arg4 harg4 arg5 harg5 arg6 harg6 arg7 harg7 arg8 harg8 arg9 harg9 arg10 harg10 arg11 harg11 arg12 harg12) K := by
  simp only [cc4__pass2_kernel_eq_skeleton]; unfold cc4__pass2_kernel_skel
  simp only [k4_part1_eq_skeleton]; unfold k4_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, ⟨%f12, %hf12, H12⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  obtain rfl := harg11.eq_unread hf11; obtain rfl := harg12.eq_unread hf12
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    sl_unfold_run_names
    rw [read_writes_unit_zero _ _ off00, readAt_unit_unread harg1 off00, readAt_unit_unread harg2 off00, readAt_unit_unread harg3 off00, readAt_unit_unread harg4 off00, readAt_unit_unread harg5 off00, readAt_unit_unread harg6 off00, readAt_unit_unread harg7 off00]
  isplitl [H9]
  · iexists _; isplitr
    swap; · iexact H9
    ipureintro
    sl_unfold_run_names
    rw [read_writes_unit_zero _ _ off00, View.readCov_cons_toLoadRect, readAt_unit_unread harg1 off00, readAt_unit_unread harg2 off00, readAt_unit_unread harg3 off00, readAt_unit_unread harg4 off00, readAt_unit_unread harg5 off00, readAt_unit_unread harg6 off00, readAt_unit_unread harg7 off00, readAt_unit_unread harg11 off00]
  isplitl [H10]
  · iexists _; isplitr
    swap; · iexact H10
    ipureintro
    sl_unfold_run_names
    rw [read_writes_unit_zero _ _ off00, View.readCov_cons_toLoadRect, readAt_unit_unread harg1 off00, readAt_unit_unread harg2 off00, readAt_unit_unread harg3 off00, readAt_unit_unread harg4 off00, readAt_unit_unread harg5 off00, readAt_unit_unread harg6 off00, readAt_unit_unread harg7 off00, readAt_unit_unread harg12 off00]
  isplitl [H11]
  · iexists _; isplitr
    swap; · iexact H11
    ipureintro
    sl_unfold_run_names
    rw [read_writes_unit_zero _ _ off00, readAt_unit_unread harg1 off00, readAt_unit_unread harg2 off00, readAt_unit_unread harg3 off00, readAt_unit_unread harg4 off00, readAt_unit_unread harg5 off00, readAt_unit_unread harg6 off00, readAt_unit_unread harg7 off00, readAt_unit_unread harg11 off00]
  · iexists _; isplitr
    swap; · iexact H12
    ipureintro
    sl_unfold_run_names
    rw [read_writes_unit_zero _ _ off00, readAt_unit_unread harg1 off00, readAt_unit_unread harg2 off00, readAt_unit_unread harg3 off00, readAt_unit_unread harg4 off00, readAt_unit_unread harg5 off00, readAt_unit_unread harg6 off00, readAt_unit_unread harg7 off00, readAt_unit_unread harg12 off00]

end Cert.Kernel.Pass

end
-- ==== Proof.Pass2DatW.lean ====
import proofs.«152416_j10892037062711_1_alg».proof.Proof.Gen.Kernel.Launch
import proofs.«152416_j10892037062711_1_alg».proof.Proof.Gen.Kernel.Skeleton
import proofs.«152416_j10892037062711_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«152416_j10892037062711_1_alg».proof.Proof.Pass2BodyW

set_option maxRecDepth 16384

noncomputable section

namespace Cert.Kernel.Pass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]
variable {Ix : Type} [DecidableEq Ix] {U : Type} [URA U] {Lvl : Type} [Preorder Lvl]

local notation "𝕄" => MT nD τ sig Ix (Elt F) ℕ U Lvl

/-! ## Region 1: the proof data over an arbitrary entry valuation -/

section Region1

variable (W : Dev nD → Valuation τ sig (Elt F))

/-- The entry valuation read at a TensorCore reference of core `c`. -/
abbrev VA1 (c : Dev nD) (b : Ref sig .tc) : Buf (Elt F) ((c : Thread nD τ).loc b) := W c (Proc.devRef .tc b)

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (VA1 W c (Pipeline.arrRef spec1 w))

/-- The image of block `t` (normalised by the statistics rows, rectified, multiplied by the weights, the bias added): what the
    body stores into the big output window there. -/
def img1 (c : Dev nD) (t : Fin cfg1.N) : Vec F S10000x64 .f32 :=
  (k1_pay5 (iblk1 W c 0 t) (iblk1 W c 2 t) (iblk1 W c 3 t) (iblk1 W c 1 t) (iblk1 W c 4 t) (iblk1 W c 5 t) (iblk1 W c 6 t))

/-- THE ACCUMULATION. The two scratch rows before point `n`: zero rows before the first point; after point `n` the rows
    before it plus the column sums of block `n`'s image and of its square. -/
def acc1 (c : Dev nD) : (n : ℕ) → n ≤ cfg1.N → Vec F S1x64 .f32 × Vec F S1x64 .f32
  | 0, _ => (k1_pay3, k1_pay4)
  | n + 1, hn =>
    (k1_pay1 (img1 W c ⟨n, Nat.lt_of_succ_le hn⟩) (acc1 c n (Nat.le_of_succ_le hn)).1,
     k1_pay2 (img1 W c ⟨n, Nat.lt_of_succ_le hn⟩) (acc1 c n (Nat.le_of_succ_le hn)).2)

theorem acc1_zero (c : Dev nD) (h : 0 ≤ cfg1.N) : acc1 W c 0 h = (k1_pay3, k1_pay4) := rfl

theorem acc1_succ (c : Dev nD) (n : ℕ) (hn : n + 1 ≤ cfg1.N) :
    acc1 W c (n + 1) hn =
      (k1_pay1 (img1 W c ⟨n, Nat.lt_of_succ_le hn⟩) (acc1 W c n (Nat.le_of_succ_le hn)).1,
       k1_pay2 (img1 W c ⟨n, Nat.lt_of_succ_le hn⟩) (acc1 W c n (Nat.le_of_succ_le hn)).2) := rfl

/-! ### The conditions over the grid, and where the small output windows are idle -/

/-- The first conditional is taken at the first point only. -/
theorem hcond1_1 : ∀ t : Fin cfg1.N, cond1_1 (grid1.coords t) ↔ t.val = 0 :=
  (by decide +kernel : ∀ t : Fin grid1.N, cond1_1 (grid1.coords t) ↔ t.val = 0)
/-- The second conditional is taken at the last point only. -/
theorem hcond1_2 : ∀ t : Fin cfg1.N, cond1_2 (grid1.coords t) ↔ t.val = 9 :=
  (by decide +kernel : ∀ t : Fin grid1.N, cond1_2 (grid1.coords t) ↔ t.val = 9)

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
theorem live1_4 : ∀ t : Fin cfg1.N, cfg1.idle 4 (grid1.coords t) = false := by decide +kernel
theorem live1_5 : ∀ t : Fin cfg1.N, cfg1.idle 5 (grid1.coords t) = false := by decide +kernel
theorem live1_6 : ∀ t : Fin cfg1.N, cfg1.idle 6 (grid1.coords t) = false := by decide +kernel
theorem live1_7 : ∀ t : Fin cfg1.N, cfg1.idle 7 (grid1.coords t) = false := by decide +kernel
/-- Away from the last point the two small output windows are idle and not written back. -/
theorem idle1_8 : ∀ t : Fin cfg1.N, ¬cond1_2 (grid1.coords t) → cfg1.idle 8 (grid1.coords t) = true := by decide +kernel
theorem idle1_9 : ∀ t : Fin cfg1.N, ¬cond1_2 (grid1.coords t) → cfg1.idle 9 (grid1.coords t) = true := by decide +kernel
theorem noFlush1_8 : ∀ t : Fin cfg1.N, ¬cond1_2 (grid1.coords t) → (cfg1.win 8).flush t = false := by decide +kernel
theorem noFlush1_9 : ∀ t : Fin cfg1.N, ¬cond1_2 (grid1.coords t) → (cfg1.win 9).flush t = false := by decide +kernel
/-- At the last point they are live. -/
theorem live1_8 : ∀ t : Fin cfg1.N, cond1_2 (grid1.coords t) → cfg1.idle 8 (grid1.coords t) = false := by decide +kernel
theorem live1_9 : ∀ t : Fin cfg1.N, cond1_2 (grid1.coords t) → cfg1.idle 9 (grid1.coords t) = false := by decide +kernel

/-! ### The staging and scratch memrefs -/

abbrev ms1_0 (t : Fin cfg1.N) : Memref sig .tc .vmem S10000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S64x64 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x64 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S10000x64 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x64 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x64 .f32 := win1_9.stage (cfg1.slots t 9)
abbrev hs1_9 (t : Fin cfg1.N) : (ms1_9 t).IsWhole := hstage1_9 ((cfg1.slots t 9).cast nbuf1_9)
/-- The two scratch rows: whole scoped buffers of the kernel's own, passed beside the windows. -/
abbrev scM1_0 : Memref sig .tc .vmem S1x64 .f32 := Memref.whole cc1_scratch0
abbrev scM1_1 : Memref sig .tc .vmem S1x64 .f32 := Memref.whole cc1_scratch1

/-- The scoped rest with the two scratch rows as memrefs owned at some contents. -/
theorem scopedRest1_owns (c : Dev nD) :
    (Pipeline.scopedRest (Ix := Ix) (Name := ℕ) (U := U) (Lvl := Lvl) (Val := Elt F) spec1 c : sProp 𝕄)
      = iprop(iprop((∃ d, owns (c : Thread nD τ) scM1_0 fullShare d) ∗ (∃ d, owns (c : Thread nD τ) scM1_1 fullShare d))
          ∗ Pipeline.scopedRestBut (Ix := Ix) (Name := ℕ) (U := U) (Lvl := Lvl) (Val := Elt F) spec1 c [cc1_scratch0, cc1_scratch1]) := by
  rw [scopedRest1_split]; simp only [scM1_0, scM1_1, owns_whole]; try rfl

/-! ### The invariant -/

/-- The region invariant before position `n`: before the first point the scoped rest (the scratch rows at anything); afterwards
    the two scratch rows at the accumulation so far, beside the rest of the scoped rest. -/
def PhiS1 (c : Dev nD) : (n : ℕ) → n ≤ cfg1.N → sProp 𝕄
  | 0, _ => Pipeline.scopedRest (Ix := Ix) (Name := ℕ) (U := U) (Lvl := Lvl) (Val := Elt F) spec1 c
  | n + 1, hn => iprop(iprop(owns (c : Thread nD τ) scM1_0 fullShare (acc1 W c (n + 1) hn).1 ∗ owns (c : Thread nD τ) scM1_1 fullShare (acc1 W c (n + 1) hn).2)
      ∗ Pipeline.scopedRestBut (Ix := Ix) (Name := ℕ) (U := U) (Lvl := Lvl) (Val := Elt F) spec1 c [cc1_scratch0, cc1_scratch1])

/-! ### The proof data -/

/-- The proof data of region 1 on core `c`: the arrays as the region finds them; after the body at point `t` each input's buffer
    at its block, the big output's at the block's image, the two small outputs' at the accumulation through `t`; the invariant
    `PhiS1`; nothing owed; full shares. -/
def dat1 (c : Dev nD) : Dat τ (Elt F) Ix ℕ U Lvl cfg1 c where
  A w := VA1 W c (Pipeline.arrRef spec1 w)
  after w t := match w with
    | ⟨0, _⟩ => iblk1 W c 0 t
    | ⟨1, _⟩ => iblk1 W c 1 t
    | ⟨2, _⟩ => iblk1 W c 2 t
    | ⟨3, _⟩ => iblk1 W c 3 t
    | ⟨4, _⟩ => iblk1 W c 4 t
    | ⟨5, _⟩ => iblk1 W c 5 t
    | ⟨6, _⟩ => iblk1 W c 6 t
    | ⟨7, _⟩ => img1 W c t
    | ⟨8, _⟩ => (acc1 W c (t.val + 1) t.isLt).1
    | ⟨9, _⟩ => (acc1 W c (t.val + 1) t.isLt).2
  Φ t := PhiS1 W c t.val (Nat.le_of_lt_succ t.isLt)
  q _ := fullShare
  owed _ := 0

end Region1

section Region1_b

variable (W : Dev nD → Valuation τ sig (Elt F))

/-- The proof data's arrays are the entry contents. -/
theorem A1_eq (c : Dev nD) (w : Fin cfg1.W) : (dat1 (Ix := Ix) (U := U) (Lvl := Lvl) W c).A w = VA1 W c (Pipeline.arrRef spec1 w) := by
  dsimp only [dat1]

/-- What the body leaves, window by window. -/
theorem after1_0 (c : Dev nD) (t : Fin cfg1.N) : (dat1 (Ix := Ix) (U := U) (Lvl := Lvl) W c).after 0 t = iblk1 W c 0 t := by dsimp only [dat1]
theorem after1_1 (c : Dev nD) (t : Fin cfg1.N) : (dat1 (Ix := Ix) (U := U) (Lvl := Lvl) W c).after 1 t = iblk1 W c 1 t := by dsimp only [dat1]
theorem after1_2 (c : Dev nD) (t : Fin cfg1.N) : (dat1 (Ix := Ix) (U := U) (Lvl := Lvl) W c).after 2 t = iblk1 W c 2 t := by dsimp only [dat1]
theorem after1_3 (c : Dev nD) (t : Fin cfg1.N) : (dat1 (Ix := Ix) (U := U) (Lvl := Lvl) W c).after 3 t = iblk1 W c 3 t := by dsimp only [dat1]
theorem after1_4 (c : Dev nD) (t : Fin cfg1.N) : (dat1 (Ix := Ix) (U := U) (Lvl := Lvl) W c).after 4 t = iblk1 W c 4 t := by dsimp only [dat1]
theorem after1_5 (c : Dev nD) (t : Fin cfg1.N) : (dat1 (Ix := Ix) (U := U) (Lvl := Lvl) W c).after 5 t = iblk1 W c 5 t := by dsimp only [dat1]
theorem after1_6 (c : Dev nD) (t : Fin cfg1.N) : (dat1 (Ix := Ix) (U := U) (Lvl := Lvl) W c).after 6 t = iblk1 W c 6 t := by dsimp only [dat1]
theorem after1_7 (c : Dev nD) (t : Fin cfg1.N) : (dat1 (Ix := Ix) (U := U) (Lvl := Lvl) W c).after 7 t = img1 W c t := by dsimp only [dat1]
theorem after1_8 (c : Dev nD) (t : Fin cfg1.N) : (dat1 (Ix := Ix) (U := U) (Lvl := Lvl) W c).after 8 t = (acc1 W c (t.val + 1) t.isLt).1 := by dsimp only [dat1]
theorem after1_9 (c : Dev nD) (t : Fin cfg1.N) : (dat1 (Ix := Ix) (U := U) (Lvl := Lvl) W c).after 9 t = (acc1 W c (t.val + 1) t.isLt).2 := by dsimp only [dat1]

/-- Input window 0's current staging buffer holds its block at every point, fetched there or not. -/
theorem before1_0 (c : Dev nD) (t : Fin cfg1.N) (d) : (dat1 (Ix := Ix) (U := U) (Lvl := Lvl) W c).before 0 t d = iblk1 W c 0 t :=
  ((dat1 (Ix := Ix) (U := U) (Lvl := Lvl) W c).before_in_eq_fetched 0 rfl (fun _ => rfl) (fun _ _ _ => rfl)
      (fun t => by rw [after1_0]; unfold Dat.blockOf iblk1; rw [A1_eq]; try rfl) t d).trans
    (by unfold Dat.fetched Dat.blockOf iblk1; rw [A1_eq]; try rfl)
/-- Input window 1's current staging buffer holds its block at every point, fetched there or not. -/
theorem before1_1 (c : Dev nD) (t : Fin cfg1.N) (d) : (dat1 (Ix := Ix) (U := U) (Lvl := Lvl) W c).before 1 t d = iblk1 W c 1 t :=
  ((dat1 (Ix := Ix) (U := U) (Lvl := Lvl) W c).before_in_eq_fetched 1 rfl (fun _ => rfl) (fun _ _ _ => rfl)
      (fun t => by rw [after1_1]; unfold Dat.blockOf iblk1; rw [A1_eq]; try rfl) t d).trans
    (by unfold Dat.fetched Dat.blockOf iblk1; rw [A1_eq]; try rfl)
/-- Input window 2's current staging buffer holds its block at every point, fetched there or not. -/
theorem before1_2 (c : Dev nD) (t : Fin cfg1.N) (d) : (dat1 (Ix := Ix) (U := U) (Lvl := Lvl) W c).before 2 t d = iblk1 W c 2 t :=
  ((dat1 (Ix := Ix) (U := U) (Lvl := Lvl) W c).before_in_eq_fetched 2 rfl (fun _ => rfl) (fun _ _ _ => rfl)
      (fun t => by rw [after1_2]; unfold Dat.blockOf iblk1; rw [A1_eq]; try rfl) t d).trans
    (by unfold Dat.fetched Dat.blockOf iblk1; rw [A1_eq]; try rfl)
/-- Input window 3's current staging buffer holds its block at every point, fetched there or not. -/
theorem before1_3 (c : Dev nD) (t : Fin cfg1.N) (d) : (dat1 (Ix := Ix) (U := U) (Lvl := Lvl) W c).before 3 t d = iblk1 W c 3 t :=
  ((dat1 (Ix := Ix) (U := U) (Lvl := Lvl) W c).before_in_eq_fetched 3 rfl (fun _ => rfl) (fun _ _ _ => rfl)
      (fun t => by rw [after1_3]; unfold Dat.blockOf iblk1; rw [A1_eq]; try rfl) t d).trans
    (by unfold Dat.fetched Dat.blockOf iblk1; rw [A1_eq]; try rfl)
/-- Input window 4's current staging buffer holds its block at every point, fetched there or not. -/
theorem before1_4 (c : Dev nD) (t : Fin cfg1.N) (d) : (dat1 (Ix := Ix) (U := U) (Lvl := Lvl) W c).before 4 t d = iblk1 W c 4 t :=
  ((dat1 (Ix := Ix) (U := U) (Lvl := Lvl) W c).before_in_eq_fetched 4 rfl (fun _ => rfl) (fun _ _ _ => rfl)
      (fun t => by rw [after1_4]; unfold Dat.blockOf iblk1; rw [A1_eq]; try rfl) t d).trans
    (by unfold Dat.fetched Dat.blockOf iblk1; rw [A1_eq]; try rfl)
/-- Input window 5's current staging buffer holds its block at every point, fetched there or not. -/
theorem before1_5 (c : Dev nD) (t : Fin cfg1.N) (d) : (dat1 (Ix := Ix) (U := U) (Lvl := Lvl) W c).before 5 t d = iblk1 W c 5 t :=
  ((dat1 (Ix := Ix) (U := U) (Lvl := Lvl) W c).before_in_eq_fetched 5 rfl (fun _ => rfl) (fun _ _ _ => rfl)
      (fun t => by rw [after1_5]; unfold Dat.blockOf iblk1; rw [A1_eq]; try rfl) t d).trans
    (by unfold Dat.fetched Dat.blockOf iblk1; rw [A1_eq]; try rfl)
/-- Input window 6's current staging buffer holds its block at every point, fetched there or not. -/
theorem before1_6 (c : Dev nD) (t : Fin cfg1.N) (d) : (dat1 (Ix := Ix) (U := U) (Lvl := Lvl) W c).before 6 t d = iblk1 W c 6 t :=
  ((dat1 (Ix := Ix) (U := U) (Lvl := Lvl) W c).before_in_eq_fetched 6 rfl (fun _ => rfl) (fun _ _ _ => rfl)
      (fun t => by rw [after1_6]; unfold Dat.blockOf iblk1; rw [A1_eq]; try rfl) t d).trans
    (by unfold Dat.fetched Dat.blockOf iblk1; rw [A1_eq]; try rfl)

/-- The invariant at a point's start, restated at the point's number. -/
theorem Phi1_castSucc (c : Dev nD) (t : Fin cfg1.N) : (dat1 (Ix := Ix) (U := U) (Lvl := Lvl) W c).Φ t.castSucc = PhiS1 W c t.val (Nat.le_of_lt t.isLt) := by
  dsimp only [dat1]; simp only [Fin.coe_castSucc]

/-! ### The body obligation -/

/-- What the body is called with at point `t`, the windows one by one, -/
def bodyPre1 (ι : Ix) (c : Dev nD) (t : Fin cfg1.N) : sProp 𝕄 :=
  iprop((dat1 (Ix := Ix) (U := U) (Lvl := Lvl) W c).Φ t.castSucc ∗ (dat1 (Ix := Ix) (U := U) (Lvl := Lvl) W c).owesAt ι t.castSucc
    ∗ (∃ d, owns (c : Thread nD τ) (ms1_0 t) fullShare ((dat1 (Ix := Ix) (U := U) (Lvl := Lvl) W c).before 0 t d))
    ∗ (∃ d, owns (c : Thread nD τ) (ms1_1 t) fullShare ((dat1 (Ix := Ix) (U := U) (Lvl := Lvl) W c).before 1 t d))
    ∗ (∃ d, owns (c : Thread nD τ) (ms1_2 t) fullShare ((dat1 (Ix := Ix) (U := U) (Lvl := Lvl) W c).before 2 t d))
    ∗ (∃ d, owns (c : Thread nD τ) (ms1_3 t) fullShare ((dat1 (Ix := Ix) (U := U) (Lvl := Lvl) W c).before 3 t d))
    ∗ (∃ d, owns (c : Thread nD τ) (ms1_4 t) fullShare ((dat1 (Ix := Ix) (U := U) (Lvl := Lvl) W c).before 4 t d))
    ∗ (∃ d, owns (c : Thread nD τ) (ms1_5 t) fullShare ((dat1 (Ix := Ix) (U := U) (Lvl := Lvl) W c).before 5 t d))
    ∗ (∃ d, owns (c : Thread nD τ) (ms1_6 t) fullShare ((dat1 (Ix := Ix) (U := U) (Lvl := Lvl) W c).before 6 t d))
    ∗ (∃ d, owns (c : Thread nD τ) (ms1_7 t) fullShare ((dat1 (Ix := Ix) (U := U) (Lvl := Lvl) W c).before 7 t d))
    ∗ (∃ d, owns (c : Thread nD τ) (ms1_8 t) fullShare ((dat1 (Ix := Ix) (U := U) (Lvl := Lvl) W c).before 8 t d))
    ∗ (∃ d, owns (c : Thread nD τ) (ms1_9 t) fullShare ((dat1 (Ix := Ix) (U := U) (Lvl := Lvl) W c).before 9 t d)))

/-- and what it returns. -/
def bodyPost1 (ι : Ix) (c : Dev nD) (t : Fin cfg1.N) : sProp 𝕄 :=
  iprop((dat1 (Ix := Ix) (U := U) (Lvl := Lvl) W c).Φ t.succ ∗ (dat1 (Ix := Ix) (U := U) (Lvl := Lvl) W c).owesAt ι t.succ
    ∗ (dat1 (Ix := Ix) (U := U) (Lvl := Lvl) W c).leavesExact 0 t
    ∗ (dat1 (Ix := Ix) (U := U) (Lvl := Lvl) W c).leavesExact 1 t
    ∗ (dat1 (Ix := Ix) (U := U) (Lvl := Lvl) W c).leavesExact 2 t
    ∗ (dat1 (Ix := Ix) (U := U) (Lvl := Lvl) W c).leavesExact 3 t
    ∗ (dat1 (Ix := Ix) (U := U) (Lvl := Lvl) W c).leavesExact 4 t
    ∗ (dat1 (Ix := Ix) (U := U) (Lvl := Lvl) W c).leavesExact 5 t
    ∗ (dat1 (Ix := Ix) (U := U) (Lvl := Lvl) W c).leavesExact 6 t
    ∗ (dat1 (Ix := Ix) (U := U) (Lvl := Lvl) W c).leavesExact 7 t
    ∗ (dat1 (Ix := Ix) (U := U) (Lvl := Lvl) W c).leavesExact 8 t
    ∗ (dat1 (Ix := Ix) (U := U) (Lvl := Lvl) W c).leavesExact 9 t)

set_option maxHeartbeats 4000000 in
/-- The body at any point: the inputs' memrefs hold their blocks; the point's number says which of the three cases it is in; the
    invariant hands the body the scratch rows at the accumulation so far (at anything at the first point) and takes them back
    one block further; at the last point the small output windows receive the rows. -/
theorem sound_body1 (𝒱₀ : Variants) (ι : Ix) (c : Dev nD) (t : Fin cfg1.N) :
    (bodyPre1 (U := U) (Lvl := Lvl) W ι c t : sProp 𝕄) ⊢ wp frame (wpE (defs₀ (F := F)) 𝒱₀ c none) Set.univ (bodyAt1 t) (fun _ => bodyPost1 (U := U) (Lvl := Lvl) W ι c t) := by
  obtain ⟨n, hn⟩ := t
  have hN : n < 10 := lt_of_lt_of_eq hn (show cfg1.N = 10 from N_1)
  unfold bodyPre1 bodyPost1 bodyAt1
  simp only [before1_0, before1_1, before1_2, before1_3, before1_4, before1_5, before1_6]
  rw [show (dat1 (Ix := Ix) (U := U) (Lvl := Lvl) W c).owesAt ι (Fin.succ ⟨n, hn⟩) = (dat1 (Ix := Ix) (U := U) (Lvl := Lvl) W c).owesAt ι (Fin.castSucc ⟨n, hn⟩) from rfl]
  rw [show (dat1 (Ix := Ix) (U := U) (Lvl := Lvl) W c).Φ (Fin.succ ⟨n, hn⟩) = PhiS1 W c (n + 1) hn from rfl, Phi1_castSucc]
  rw [show (dat1 (Ix := Ix) (U := U) (Lvl := Lvl) W c).leavesExact 0 ⟨n, hn⟩ = owns (c : Thread nD τ) (ms1_0 ⟨n, hn⟩) fullShare ((dat1 (Ix := Ix) (U := U) (Lvl := Lvl) W c).after 0 ⟨n, hn⟩) from by
    unfold Dat.leavesExact; rw [live1_0 ⟨n, hn⟩], after1_0]
  rw [show (dat1 (Ix := Ix) (U := U) (Lvl := Lvl) W c).leavesExact 1 ⟨n, hn⟩ = owns (c : Thread nD τ) (ms1_1 ⟨n, hn⟩) fullShare ((dat1 (Ix := Ix) (U := U) (Lvl := Lvl) W c).after 1 ⟨n, hn⟩) from by
    unfold Dat.leavesExact; rw [live1_1 ⟨n, hn⟩], after1_1]
  rw [show (dat1 (Ix := Ix) (U := U) (Lvl := Lvl) W c).leavesExact 2 ⟨n, hn⟩ = owns (c : Thread nD τ) (ms1_2 ⟨n, hn⟩) fullShare ((dat1 (Ix := Ix) (U := U) (Lvl := Lvl) W c).after 2 ⟨n, hn⟩) from by
    unfold Dat.leavesExact; rw [live1_2 ⟨n, hn⟩], after1_2]
  rw [show (dat1 (Ix := Ix) (U := U) (Lvl := Lvl) W c).leavesExact 3 ⟨n, hn⟩ = owns (c : Thread nD τ) (ms1_3 ⟨n, hn⟩) fullShare ((dat1 (Ix := Ix) (U := U) (Lvl := Lvl) W c).after 3 ⟨n, hn⟩) from by
    unfold Dat.leavesExact; rw [live1_3 ⟨n, hn⟩], after1_3]
  rw [show (dat1 (Ix := Ix) (U := U) (Lvl := Lvl) W c).leavesExact 4 ⟨n, hn⟩ = owns (c : Thread nD τ) (ms1_4 ⟨n, hn⟩) fullShare ((dat1 (Ix := Ix) (U := U) (Lvl := Lvl) W c).after 4 ⟨n, hn⟩) from by
    unfold Dat.leavesExact; rw [live1_4 ⟨n, hn⟩], after1_4]
  rw [show (dat1 (Ix := Ix) (U := U) (Lvl := Lvl) W c).leavesExact 5 ⟨n, hn⟩ = owns (c : Thread nD τ) (ms1_5 ⟨n, hn⟩) fullShare ((dat1 (Ix := Ix) (U := U) (Lvl := Lvl) W c).after 5 ⟨n, hn⟩) from by
    unfold Dat.leavesExact; rw [live1_5 ⟨n, hn⟩], after1_5]
  rw [show (dat1 (Ix := Ix) (U := U) (Lvl := Lvl) W c).leavesExact 6 ⟨n, hn⟩ = owns (c : Thread nD τ) (ms1_6 ⟨n, hn⟩) fullShare ((dat1 (Ix := Ix) (U := U) (Lvl := Lvl) W c).after 6 ⟨n, hn⟩) from by
    unfold Dat.leavesExact; rw [live1_6 ⟨n, hn⟩], after1_6]
  rw [show (dat1 (Ix := Ix) (U := U) (Lvl := Lvl) W c).leavesExact 7 ⟨n, hn⟩ = owns (c : Thread nD τ) (ms1_7 ⟨n, hn⟩) fullShare ((dat1 (Ix := Ix) (U := U) (Lvl := Lvl) W c).after 7 ⟨n, hn⟩) from by
    unfold Dat.leavesExact; rw [live1_7 ⟨n, hn⟩], after1_7]
  rcases n with _ | n
  · -- the first point
    have hc1 : cond1_1 (grid1.coords ⟨0, hn⟩) := (hcond1_1 ⟨0, hn⟩).mpr rfl
    have hc2 : ¬cond1_2 (grid1.coords ⟨0, hn⟩) := fun h => (fun h => by (try dsimp only at h); omega) ((hcond1_2 ⟨0, hn⟩).mp h)
    rw [Dat.leavesExact_idle (dat1 (Ix := Ix) (U := U) (Lvl := Lvl) W c) 8 ⟨0, hn⟩ (idle1_8 _ hc2) (noFlush1_8 _ hc2), Dat.leavesExact_idle (dat1 (Ix := Ix) (U := U) (Lvl := Lvl) W c) 9 ⟨0, hn⟩ (idle1_9 _ hc2) (noFlush1_9 _ hc2)]
    rw [show PhiS1 W c (0 + 1) hn = iprop(iprop(owns (c : Thread nD τ) scM1_0 fullShare (acc1 W c (0 + 1) hn).1 ∗ owns (c : Thread nD τ) scM1_1 fullShare (acc1 W c (0 + 1) hn).2)
      ∗ Pipeline.scopedRestBut (Ix := Ix) (Name := ℕ) (U := U) (Lvl := Lvl) (Val := Elt F) spec1 c [cc1_scratch0, cc1_scratch1]) from rfl, acc1_succ, acc1_zero]
    rw [show PhiS1 (Ix := Ix) (U := U) (Lvl := Lvl) W c (Fin.val (⟨0, hn⟩ : Fin cfg1.N)) (Nat.le_of_lt hn) = Pipeline.scopedRest (Ix := Ix) (Name := ℕ) (U := U) (Lvl := Lvl) (Val := Elt F) spec1 c from rfl, scopedRest1_owns]
    unfold img1
    iintro ⟨⟨⟨HS0, HS1⟩, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
    iapply (body1_first 𝒱₀ c (grid1.coords ⟨0, hn⟩) _ _ _ _ _ _ _ _ _ _ _ _ _ _ _ _ _ _ _ _ _ _ _ _ hc1 hc2 (iblk1 W c 0 ⟨0, hn⟩) (iblk1 W c 1 ⟨0, hn⟩) (iblk1 W c 2 ⟨0, hn⟩) (iblk1 W c 3 ⟨0, hn⟩) (iblk1 W c 4 ⟨0, hn⟩) (iblk1 W c 5 ⟨0, hn⟩) (iblk1 W c 6 ⟨0, hn⟩) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hrest]
    · isplitr [Hrest]
      · isplitl [HS0]; · iexact HS0
        iexact HS1
      iexact Hrest
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [show PhiS1 W c (n + 1 + 1) hn = iprop(iprop(owns (c : Thread nD τ) scM1_0 fullShare (acc1 W c (n + 1 + 1) hn).1 ∗ owns (c : Thread nD τ) scM1_1 fullShare (acc1 W c (n + 1 + 1) hn).2)
      ∗ Pipeline.scopedRestBut (Ix := Ix) (Name := ℕ) (U := U) (Lvl := Lvl) (Val := Elt F) spec1 c [cc1_scratch0, cc1_scratch1]) from rfl, acc1_succ]
    rw [show PhiS1 (Ix := Ix) (U := U) (Lvl := Lvl) W c (Fin.val (⟨n + 1, hn⟩ : Fin cfg1.N)) (Nat.le_of_lt hn) = iprop(iprop(owns (c : Thread nD τ) scM1_0 fullShare (acc1 W c (n + 1) (Nat.le_of_lt hn)).1 ∗ owns (c : Thread nD τ) scM1_1 fullShare (acc1 W c (n + 1) (Nat.le_of_lt hn)).2)
      ∗ Pipeline.scopedRestBut (Ix := Ix) (Name := ℕ) (U := U) (Lvl := Lvl) (Val := Elt F) spec1 c [cc1_scratch0, cc1_scratch1]) from rfl]
    have hc1 : ¬cond1_1 (grid1.coords ⟨n + 1, hn⟩) := fun h => (fun h => by (try dsimp only at h); omega) ((hcond1_1 ⟨n + 1, hn⟩).mp h)
    by_cases h9 : n + 1 = 9
    · -- the last point
      have hc2 : cond1_2 (grid1.coords ⟨n + 1, hn⟩) := (hcond1_2 ⟨n + 1, hn⟩).mpr h9
      rw [show (dat1 (Ix := Ix) (U := U) (Lvl := Lvl) W c).leavesExact 8 ⟨n + 1, hn⟩ = owns (c : Thread nD τ) (ms1_8 ⟨n + 1, hn⟩) fullShare ((dat1 (Ix := Ix) (U := U) (Lvl := Lvl) W c).after 8 ⟨n + 1, hn⟩) from by
        unfold Dat.leavesExact; rw [live1_8 ⟨n + 1, hn⟩ hc2], after1_8]
      rw [show (dat1 (Ix := Ix) (U := U) (Lvl := Lvl) W c).leavesExact 9 ⟨n + 1, hn⟩ = owns (c : Thread nD τ) (ms1_9 ⟨n + 1, hn⟩) fullShare ((dat1 (Ix := Ix) (U := U) (Lvl := Lvl) W c).after 9 ⟨n + 1, hn⟩) from by
        unfold Dat.leavesExact; rw [live1_9 ⟨n + 1, hn⟩ hc2], after1_9]
      rw [acc1_succ W c (n + 1) hn]
      unfold img1
      iintro ⟨⟨⟨HS0, HS1⟩, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (body1_last 𝒱₀ c (grid1.coords ⟨n + 1, hn⟩) _ _ _ _ _ _ _ _ _ _ _ _ _ _ _ _ _ _ _ _ _ _ _ _ hc1 hc2 (iblk1 W c 0 ⟨n + 1, hn⟩) (iblk1 W c 1 ⟨n + 1, hn⟩) (iblk1 W c 2 ⟨n + 1, hn⟩) (iblk1 W c 3 ⟨n + 1, hn⟩) (iblk1 W c 4 ⟨n + 1, hn⟩) (iblk1 W c 5 ⟨n + 1, hn⟩) (iblk1 W c 6 ⟨n + 1, hn⟩) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS0]; · iexact HS0
      isplitl [HS1]; · iexact HS1
      iintro ⟨H0, H1, H2, H3, H4, H5, H6, H7, H8, H9, HS0, HS1⟩
      isplitl [HS0 HS1 Hrest]
      · isplitr [Hrest]
        · isplitl [HS0]; · iexact HS0
          iexact HS1
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · -- a middle point
      have hc2 : ¬cond1_2 (grid1.coords ⟨n + 1, hn⟩) := fun h => h9 ((hcond1_2 ⟨n + 1, hn⟩).mp h)
      rw [Dat.leavesExact_idle (dat1 (Ix := Ix) (U := U) (Lvl := Lvl) W c) 8 ⟨n + 1, hn⟩ (idle1_8 _ hc2) (noFlush1_8 _ hc2), Dat.leavesExact_idle (dat1 (Ix := Ix) (U := U) (Lvl := Lvl) W c) 9 ⟨n + 1, hn⟩ (idle1_9 _ hc2) (noFlush1_9 _ hc2)]
      unfold img1
      iintro ⟨⟨⟨HS0, HS1⟩, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
      iapply (body1_mid 𝒱₀ c (grid1.coords ⟨n + 1, hn⟩) _ _ _ _ _ _ _ _ _ _ _ _ _ _ _ _ _ _ _ _ _ _ _ _ hc1 hc2 (iblk1 W c 0 ⟨n + 1, hn⟩) (iblk1 W c 1 ⟨n + 1, hn⟩) (iblk1 W c 2 ⟨n + 1, hn⟩) (iblk1 W c 3 ⟨n + 1, hn⟩) (iblk1 W c 4 ⟨n + 1, hn⟩) (iblk1 W c 5 ⟨n + 1, hn⟩) (iblk1 W c 6 ⟨n + 1, hn⟩) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨H0, H1, H2, H3, H4, H5, H6, H7, HS0, HS1⟩
      isplitl [HS0 HS1 Hrest]
      · isplitr [Hrest]
        · isplitl [HS0]; · iexact HS0
          iexact HS1
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

/-- The library's body obligation, at every point. -/
theorem body_obligation1 (𝒱₀ : Variants) (ι : Ix) (c : Dev nD) : BodyObligation (dat1 (Ix := Ix) (U := U) (Lvl := Lvl) W c) (defs₀ (F := F)) 𝒱₀ ι Set.univ := fun t => by
  rw [bigSep_W1, bigSep_W1]
  exact sound_body1 (U := U) (Lvl := Lvl) W 𝒱₀ ι c t

end Region1_b

/-! ## Region 4: the proof data over an arbitrary entry valuation -/

section Region4

variable (W : Dev nD → Valuation τ sig (Elt F))

/-- The entry valuation read at a TensorCore reference of core `c`. -/
abbrev VA4 (c : Dev nD) (b : Ref sig .tc) : Buf (Elt F) ((c : Thread nD τ).loc b) := W c (Proc.devRef .tc b)

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (VA4 W c (Pipeline.arrRef spec4 w))

/-- The image of block `t` (normalised by the statistics rows, rectified, multiplied by the weights, the bias added): what the
    body stores into the big output window there. -/
def img4 (c : Dev nD) (t : Fin cfg4.N) : Vec F S10000x64 .f32 :=
  (k4_pay5 (iblk4 W c 0 t) (iblk4 W c 2 t) (iblk4 W c 3 t) (iblk4 W c 1 t) (iblk4 W c 4 t) (iblk4 W c 5 t) (iblk4 W c 6 t))

/-- THE ACCUMULATION. The two scratch rows before point `n`: zero rows before the first point; after point `n` the rows
    before it plus the column sums of block `n`'s image and of its square. -/
def acc4 (c : Dev nD) : (n : ℕ) → n ≤ cfg4.N → Vec F S1x64 .f32 × Vec F S1x64 .f32
  | 0, _ => (k4_pay3, k4_pay4)
  | n + 1, hn =>
    (k4_pay1 (img4 W c ⟨n, Nat.lt_of_succ_le hn⟩) (acc4 c n (Nat.le_of_succ_le hn)).1,
     k4_pay2 (img4 W c ⟨n, Nat.lt_of_succ_le hn⟩) (acc4 c n (Nat.le_of_succ_le hn)).2)

theorem acc4_zero (c : Dev nD) (h : 0 ≤ cfg4.N) : acc4 W c 0 h = (k4_pay3, k4_pay4) := rfl

theorem acc4_succ (c : Dev nD) (n : ℕ) (hn : n + 1 ≤ cfg4.N) :
    acc4 W c (n + 1) hn =
      (k4_pay1 (img4 W c ⟨n, Nat.lt_of_succ_le hn⟩) (acc4 W c n (Nat.le_of_succ_le hn)).1,
       k4_pay2 (img4 W c ⟨n, Nat.lt_of_succ_le hn⟩) (acc4 W c n (Nat.le_of_succ_le hn)).2) := rfl

/-! ### The conditions over the grid, and where the small output windows are idle -/

/-- The first conditional is taken at the first point only. -/
theorem hcond4_1 : ∀ t : Fin cfg4.N, cond4_1 (grid4.coords t) ↔ t.val = 0 :=
  (by decide +kernel : ∀ t : Fin grid4.N, cond4_1 (grid4.coords t) ↔ t.val = 0)
/-- The second conditional is taken at the last point only. -/
theorem hcond4_2 : ∀ t : Fin cfg4.N, cond4_2 (grid4.coords t) ↔ t.val = 9 :=
  (by decide +kernel : ∀ t : Fin grid4.N, cond4_2 (grid4.coords t) ↔ t.val = 9)

theorem live4_0 : ∀ t : Fin cfg4.N, cfg4.idle 0 (grid4.coords t) = false := by decide +kernel
theorem live4_1 : ∀ t : Fin cfg4.N, cfg4.idle 1 (grid4.coords t) = false := by decide +kernel
theorem live4_2 : ∀ t : Fin cfg4.N, cfg4.idle 2 (grid4.coords t) = false := by decide +kernel
theorem live4_3 : ∀ t : Fin cfg4.N, cfg4.idle 3 (grid4.coords t) = false := by decide +kernel
theorem live4_4 : ∀ t : Fin cfg4.N, cfg4.idle 4 (grid4.coords t) = false := by decide +kernel
theorem live4_5 : ∀ t : Fin cfg4.N, cfg4.idle 5 (grid4.coords t) = false := by decide +kernel
theorem live4_6 : ∀ t : Fin cfg4.N, cfg4.idle 6 (grid4.coords t) = false := by decide +kernel
theorem live4_7 : ∀ t : Fin cfg4.N, cfg4.idle 7 (grid4.coords t) = false := by decide +kernel
/-- Away from the last point the two small output windows are idle and not written back. -/
theorem idle4_8 : ∀ t : Fin cfg4.N, ¬cond4_2 (grid4.coords t) → cfg4.idle 8 (grid4.coords t) = true := by decide +kernel
theorem idle4_9 : ∀ t : Fin cfg4.N, ¬cond4_2 (grid4.coords t) → cfg4.idle 9 (grid4.coords t) = true := by decide +kernel
theorem noFlush4_8 : ∀ t : Fin cfg4.N, ¬cond4_2 (grid4.coords t) → (cfg4.win 8).flush t = false := by decide +kernel
theorem noFlush4_9 : ∀ t : Fin cfg4.N, ¬cond4_2 (grid4.coords t) → (cfg4.win 9).flush t = false := by decide +kernel
/-- At the last point they are live. -/
theorem live4_8 : ∀ t : Fin cfg4.N, cond4_2 (grid4.coords t) → cfg4.idle 8 (grid4.coords t) = false := by decide +kernel
theorem live4_9 : ∀ t : Fin cfg4.N, cond4_2 (grid4.coords t) → cfg4.idle 9 (grid4.coords t) = false := by decide +kernel

/-! ### The staging and scratch memrefs -/

abbrev ms4_0 (t : Fin cfg4.N) : Memref sig .tc .vmem S10000x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x64 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x64 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x64 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x64 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S64x64 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1x64 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S10000x64 .f32 := win4_7.stage (cfg4.slots t 7)
abbrev hs4_7 (t : Fin cfg4.N) : (ms4_7 t).IsWhole := hstage4_7 ((cfg4.slots t 7).cast nbuf4_7)
abbrev ms4_8 (t : Fin cfg4.N) : Memref sig .tc .vmem S1x64 .f32 := win4_8.stage (cfg4.slots t 8)
abbrev hs4_8 (t : Fin cfg4.N) : (ms4_8 t).IsWhole := hstage4_8 ((cfg4.slots t 8).cast nbuf4_8)
abbrev ms4_9 (t : Fin cfg4.N) : Memref sig .tc .vmem S1x64 .f32 := win4_9.stage (cfg4.slots t 9)
abbrev hs4_9 (t : Fin cfg4.N) : (ms4_9 t).IsWhole := hstage4_9 ((cfg4.slots t 9).cast nbuf4_9)
/-- The two scratch rows: whole scoped buffers of the kernel's own, passed beside the windows. -/
abbrev scM4_0 : Memref sig .tc .vmem S1x64 .f32 := Memref.whole cc4_scratch0
abbrev scM4_1 : Memref sig .tc .vmem S1x64 .f32 := Memref.whole cc4_scratch1

/-- The scoped rest with the two scratch rows as memrefs owned at some contents. -/
theorem scopedRest4_owns (c : Dev nD) :
    (Pipeline.scopedRest (Ix := Ix) (Name := ℕ) (U := U) (Lvl := Lvl) (Val := Elt F) spec4 c : sProp 𝕄)
      = iprop(iprop((∃ d, owns (c : Thread nD τ) scM4_0 fullShare d) ∗ (∃ d, owns (c : Thread nD τ) scM4_1 fullShare d))
          ∗ Pipeline.scopedRestBut (Ix := Ix) (Name := ℕ) (U := U) (Lvl := Lvl) (Val := Elt F) spec4 c [cc4_scratch0, cc4_scratch1]) := by
  rw [scopedRest4_split]; simp only [scM4_0, scM4_1, owns_whole]; try rfl

/-! ### The invariant -/

/-- The region invariant before position `n`: before the first point the scoped rest (the scratch rows at anything); afterwards
    the two scratch rows at the accumulation so far, beside the rest of the scoped rest. -/
def PhiS4 (c : Dev nD) : (n : ℕ) → n ≤ cfg4.N → sProp 𝕄
  | 0, _ => Pipeline.scopedRest (Ix := Ix) (Name := ℕ) (U := U) (Lvl := Lvl) (Val := Elt F) spec4 c
  | n + 1, hn => iprop(iprop(owns (c : Thread nD τ) scM4_0 fullShare (acc4 W c (n + 1) hn).1 ∗ owns (c : Thread nD τ) scM4_1 fullShare (acc4 W c (n + 1) hn).2)
      ∗ Pipeline.scopedRestBut (Ix := Ix) (Name := ℕ) (U := U) (Lvl := Lvl) (Val := Elt F) spec4 c [cc4_scratch0, cc4_scratch1])

/-! ### The proof data -/

/-- The proof data of region 4 on core `c`: the arrays as the region finds them; after the body at point `t` each input's buffer
    at its block, the big output's at the block's image, the two small outputs' at the accumulation through `t`; the invariant
    `PhiS4`; nothing owed; full shares. -/
def dat4 (c : Dev nD) : Dat τ (Elt F) Ix ℕ U Lvl cfg4 c where
  A w := VA4 W c (Pipeline.arrRef spec4 w)
  after w t := match w with
    | ⟨0, _⟩ => iblk4 W c 0 t
    | ⟨1, _⟩ => iblk4 W c 1 t
    | ⟨2, _⟩ => iblk4 W c 2 t
    | ⟨3, _⟩ => iblk4 W c 3 t
    | ⟨4, _⟩ => iblk4 W c 4 t
    | ⟨5, _⟩ => iblk4 W c 5 t
    | ⟨6, _⟩ => iblk4 W c 6 t
    | ⟨7, _⟩ => img4 W c t
    | ⟨8, _⟩ => (acc4 W c (t.val + 1) t.isLt).1
    | ⟨9, _⟩ => (acc4 W c (t.val + 1) t.isLt).2
  Φ t := PhiS4 W c t.val (Nat.le_of_lt_succ t.isLt)
  q _ := fullShare
  owed _ := 0

end Region4

section Region4_b

variable (W : Dev nD → Valuation τ sig (Elt F))

/-- The proof data's arrays are the entry contents. -/
theorem A4_eq (c : Dev nD) (w : Fin cfg4.W) : (dat4 (Ix := Ix) (U := U) (Lvl := Lvl) W c).A w = VA4 W c (Pipeline.arrRef spec4 w) := by
  dsimp only [dat4]

/-- What the body leaves, window by window. -/
theorem after4_0 (c : Dev nD) (t : Fin cfg4.N) : (dat4 (Ix := Ix) (U := U) (Lvl := Lvl) W c).after 0 t = iblk4 W c 0 t := by dsimp only [dat4]
theorem after4_1 (c : Dev nD) (t : Fin cfg4.N) : (dat4 (Ix := Ix) (U := U) (Lvl := Lvl) W c).after 1 t = iblk4 W c 1 t := by dsimp only [dat4]
theorem after4_2 (c : Dev nD) (t : Fin cfg4.N) : (dat4 (Ix := Ix) (U := U) (Lvl := Lvl) W c).after 2 t = iblk4 W c 2 t := by dsimp only [dat4]
theorem after4_3 (c : Dev nD) (t : Fin cfg4.N) : (dat4 (Ix := Ix) (U := U) (Lvl := Lvl) W c).after 3 t = iblk4 W c 3 t := by dsimp only [dat4]
theorem after4_4 (c : Dev nD) (t : Fin cfg4.N) : (dat4 (Ix := Ix) (U := U) (Lvl := Lvl) W c).after 4 t = iblk4 W c 4 t := by dsimp only [dat4]
theorem after4_5 (c : Dev nD) (t : Fin cfg4.N) : (dat4 (Ix := Ix) (U := U) (Lvl := Lvl) W c).after 5 t = iblk4 W c 5 t := by dsimp only [dat4]
theorem after4_6 (c : Dev nD) (t : Fin cfg4.N) : (dat4 (Ix := Ix) (U := U) (Lvl := Lvl) W c).after 6 t = iblk4 W c 6 t := by dsimp only [dat4]
theorem after4_7 (c : Dev nD) (t : Fin cfg4.N) : (dat4 (Ix := Ix) (U := U) (Lvl := Lvl) W c).after 7 t = img4 W c t := by dsimp only [dat4]
theorem after4_8 (c : Dev nD) (t : Fin cfg4.N) : (dat4 (Ix := Ix) (U := U) (Lvl := Lvl) W c).after 8 t = (acc4 W c (t.val + 1) t.isLt).1 := by dsimp only [dat4]
theorem after4_9 (c : Dev nD) (t : Fin cfg4.N) : (dat4 (Ix := Ix) (U := U) (Lvl := Lvl) W c).after 9 t = (acc4 W c (t.val + 1) t.isLt).2 := by dsimp only [dat4]

/-- Input window 0's current staging buffer holds its block at every point, fetched there or not. -/
theorem before4_0 (c : Dev nD) (t : Fin cfg4.N) (d) : (dat4 (Ix := Ix) (U := U) (Lvl := Lvl) W c).before 0 t d = iblk4 W c 0 t :=
  ((dat4 (Ix := Ix) (U := U) (Lvl := Lvl) W c).before_in_eq_fetched 0 rfl (fun _ => rfl) (fun _ _ _ => rfl)
      (fun t => by rw [after4_0]; unfold Dat.blockOf iblk4; rw [A4_eq]; try rfl) t d).trans
    (by unfold Dat.fetched Dat.blockOf iblk4; rw [A4_eq]; try rfl)
/-- Input window 1's current staging buffer holds its block at every point, fetched there or not. -/
theorem before4_1 (c : Dev nD) (t : Fin cfg4.N) (d) : (dat4 (Ix := Ix) (U := U) (Lvl := Lvl) W c).before 1 t d = iblk4 W c 1 t :=
  ((dat4 (Ix := Ix) (U := U) (Lvl := Lvl) W c).before_in_eq_fetched 1 rfl (fun _ => rfl) (fun _ _ _ => rfl)
      (fun t => by rw [after4_1]; unfold Dat.blockOf iblk4; rw [A4_eq]; try rfl) t d).trans
    (by unfold Dat.fetched Dat.blockOf iblk4; rw [A4_eq]; try rfl)
/-- Input window 2's current staging buffer holds its block at every point, fetched there or not. -/
theorem before4_2 (c : Dev nD) (t : Fin cfg4.N) (d) : (dat4 (Ix := Ix) (U := U) (Lvl := Lvl) W c).before 2 t d = iblk4 W c 2 t :=
  ((dat4 (Ix := Ix) (U := U) (Lvl := Lvl) W c).before_in_eq_fetched 2 rfl (fun _ => rfl) (fun _ _ _ => rfl)
      (fun t => by rw [after4_2]; unfold Dat.blockOf iblk4; rw [A4_eq]; try rfl) t d).trans
    (by unfold Dat.fetched Dat.blockOf iblk4; rw [A4_eq]; try rfl)
/-- Input window 3's current staging buffer holds its block at every point, fetched there or not. -/
theorem before4_3 (c : Dev nD) (t : Fin cfg4.N) (d) : (dat4 (Ix := Ix) (U := U) (Lvl := Lvl) W c).before 3 t d = iblk4 W c 3 t :=
  ((dat4 (Ix := Ix) (U := U) (Lvl := Lvl) W c).before_in_eq_fetched 3 rfl (fun _ => rfl) (fun _ _ _ => rfl)
      (fun t => by rw [after4_3]; unfold Dat.blockOf iblk4; rw [A4_eq]; try rfl) t d).trans
    (by unfold Dat.fetched Dat.blockOf iblk4; rw [A4_eq]; try rfl)
/-- Input window 4's current staging buffer holds its block at every point, fetched there or not. -/
theorem before4_4 (c : Dev nD) (t : Fin cfg4.N) (d) : (dat4 (Ix := Ix) (U := U) (Lvl := Lvl) W c).before 4 t d = iblk4 W c 4 t :=
  ((dat4 (Ix := Ix) (U := U) (Lvl := Lvl) W c).before_in_eq_fetched 4 rfl (fun _ => rfl) (fun _ _ _ => rfl)
      (fun t => by rw [after4_4]; unfold Dat.blockOf iblk4; rw [A4_eq]; try rfl) t d).trans
    (by unfold Dat.fetched Dat.blockOf iblk4; rw [A4_eq]; try rfl)
/-- Input window 5's current staging buffer holds its block at every point, fetched there or not. -/
theorem before4_5 (c : Dev nD) (t : Fin cfg4.N) (d) : (dat4 (Ix := Ix) (U := U) (Lvl := Lvl) W c).before 5 t d = iblk4 W c 5 t :=
  ((dat4 (Ix := Ix) (U := U) (Lvl := Lvl) W c).before_in_eq_fetched 5 rfl (fun _ => rfl) (fun _ _ _ => rfl)
      (fun t => by rw [after4_5]; unfold Dat.blockOf iblk4; rw [A4_eq]; try rfl) t d).trans
    (by unfold Dat.fetched Dat.blockOf iblk4; rw [A4_eq]; try rfl)
/-- Input window 6's current staging buffer holds its block at every point, fetched there or not. -/
theorem before4_6 (c : Dev nD) (t : Fin cfg4.N) (d) : (dat4 (Ix := Ix) (U := U) (Lvl := Lvl) W c).before 6 t d = iblk4 W c 6 t :=
  ((dat4 (Ix := Ix) (U := U) (Lvl := Lvl) W c).before_in_eq_fetched 6 rfl (fun _ => rfl) (fun _ _ _ => rfl)
      (fun t => by rw [after4_6]; unfold Dat.blockOf iblk4; rw [A4_eq]; try rfl) t d).trans
    (by unfold Dat.fetched Dat.blockOf iblk4; rw [A4_eq]; try rfl)

/-- The invariant at a point's start, restated at the point's number. -/
theorem Phi4_castSucc (c : Dev nD) (t : Fin cfg4.N) : (dat4 (Ix := Ix) (U := U) (Lvl := Lvl) W c).Φ t.castSucc = PhiS4 W c t.val (Nat.le_of_lt t.isLt) := by
  dsimp only [dat4]; simp only [Fin.coe_castSucc]

/-! ### The body obligation -/

/-- What the body is called with at point `t`, the windows one by one, -/
def bodyPre4 (ι : Ix) (c : Dev nD) (t : Fin cfg4.N) : sProp 𝕄 :=
  iprop((dat4 (Ix := Ix) (U := U) (Lvl := Lvl) W c).Φ t.castSucc ∗ (dat4 (Ix := Ix) (U := U) (Lvl := Lvl) W c).owesAt ι t.castSucc
    ∗ (∃ d, owns (c : Thread nD τ) (ms4_0 t) fullShare ((dat4 (Ix := Ix) (U := U) (Lvl := Lvl) W c).before 0 t d))
    ∗ (∃ d, owns (c : Thread nD τ) (ms4_1 t) fullShare ((dat4 (Ix := Ix) (U := U) (Lvl := Lvl) W c).before 1 t d))
    ∗ (∃ d, owns (c : Thread nD τ) (ms4_2 t) fullShare ((dat4 (Ix := Ix) (U := U) (Lvl := Lvl) W c).before 2 t d))
    ∗ (∃ d, owns (c : Thread nD τ) (ms4_3 t) fullShare ((dat4 (Ix := Ix) (U := U) (Lvl := Lvl) W c).before 3 t d))
    ∗ (∃ d, owns (c : Thread nD τ) (ms4_4 t) fullShare ((dat4 (Ix := Ix) (U := U) (Lvl := Lvl) W c).before 4 t d))
    ∗ (∃ d, owns (c : Thread nD τ) (ms4_5 t) fullShare ((dat4 (Ix := Ix) (U := U) (Lvl := Lvl) W c).before 5 t d))
    ∗ (∃ d, owns (c : Thread nD τ) (ms4_6 t) fullShare ((dat4 (Ix := Ix) (U := U) (Lvl := Lvl) W c).before 6 t d))
    ∗ (∃ d, owns (c : Thread nD τ) (ms4_7 t) fullShare ((dat4 (Ix := Ix) (U := U) (Lvl := Lvl) W c).before 7 t d))
    ∗ (∃ d, owns (c : Thread nD τ) (ms4_8 t) fullShare ((dat4 (Ix := Ix) (U := U) (Lvl := Lvl) W c).before 8 t d))
    ∗ (∃ d, owns (c : Thread nD τ) (ms4_9 t) fullShare ((dat4 (Ix := Ix) (U := U) (Lvl := Lvl) W c).before 9 t d)))

/-- and what it returns. -/
def bodyPost4 (ι : Ix) (c : Dev nD) (t : Fin cfg4.N) : sProp 𝕄 :=
  iprop((dat4 (Ix := Ix) (U := U) (Lvl := Lvl) W c).Φ t.succ ∗ (dat4 (Ix := Ix) (U := U) (Lvl := Lvl) W c).owesAt ι t.succ
    ∗ (dat4 (Ix := Ix) (U := U) (Lvl := Lvl) W c).leavesExact 0 t
    ∗ (dat4 (Ix := Ix) (U := U) (Lvl := Lvl) W c).leavesExact 1 t
    ∗ (dat4 (Ix := Ix) (U := U) (Lvl := Lvl) W c).leavesExact 2 t
    ∗ (dat4 (Ix := Ix) (U := U) (Lvl := Lvl) W c).leavesExact 3 t
    ∗ (dat4 (Ix := Ix) (U := U) (Lvl := Lvl) W c).leavesExact 4 t
    ∗ (dat4 (Ix := Ix) (U := U) (Lvl := Lvl) W c).leavesExact 5 t
    ∗ (dat4 (Ix := Ix) (U := U) (Lvl := Lvl) W c).leavesExact 6 t
    ∗ (dat4 (Ix := Ix) (U := U) (Lvl := Lvl) W c).leavesExact 7 t
    ∗ (dat4 (Ix := Ix) (U := U) (Lvl := Lvl) W c).leavesExact 8 t
    ∗ (dat4 (Ix := Ix) (U := U) (Lvl := Lvl) W c).leavesExact 9 t)

set_option maxHeartbeats 4000000 in
/-- The body at any point: the inputs' memrefs hold their blocks; the point's number says which of the three cases it is in; the
    invariant hands the body the scratch rows at the accumulation so far (at anything at the first point) and takes them back
    one block further; at the last point the small output windows receive the rows. -/
theorem sound_body4 (𝒱₀ : Variants) (ι : Ix) (c : Dev nD) (t : Fin cfg4.N) :
    (bodyPre4 (U := U) (Lvl := Lvl) W ι c t : sProp 𝕄) ⊢ wp frame (wpE (defs₀ (F := F)) 𝒱₀ c none) Set.univ (bodyAt4 t) (fun _ => bodyPost4 (U := U) (Lvl := Lvl) W ι c t) := by
  obtain ⟨n, hn⟩ := t
  have hN : n < 10 := lt_of_lt_of_eq hn (show cfg4.N = 10 from N_4)
  unfold bodyPre4 bodyPost4 bodyAt4
  simp only [before4_0, before4_1, before4_2, before4_3, before4_4, before4_5, before4_6]
  rw [show (dat4 (Ix := Ix) (U := U) (Lvl := Lvl) W c).owesAt ι (Fin.succ ⟨n, hn⟩) = (dat4 (Ix := Ix) (U := U) (Lvl := Lvl) W c).owesAt ι (Fin.castSucc ⟨n, hn⟩) from rfl]
  rw [show (dat4 (Ix := Ix) (U := U) (Lvl := Lvl) W c).Φ (Fin.succ ⟨n, hn⟩) = PhiS4 W c (n + 1) hn from rfl, Phi4_castSucc]
  rw [show (dat4 (Ix := Ix) (U := U) (Lvl := Lvl) W c).leavesExact 0 ⟨n, hn⟩ = owns (c : Thread nD τ) (ms4_0 ⟨n, hn⟩) fullShare ((dat4 (Ix := Ix) (U := U) (Lvl := Lvl) W c).after 0 ⟨n, hn⟩) from by
    unfold Dat.leavesExact; rw [live4_0 ⟨n, hn⟩], after4_0]
  rw [show (dat4 (Ix := Ix) (U := U) (Lvl := Lvl) W c).leavesExact 1 ⟨n, hn⟩ = owns (c : Thread nD τ) (ms4_1 ⟨n, hn⟩) fullShare ((dat4 (Ix := Ix) (U := U) (Lvl := Lvl) W c).after 1 ⟨n, hn⟩) from by
    unfold Dat.leavesExact; rw [live4_1 ⟨n, hn⟩], after4_1]
  rw [show (dat4 (Ix := Ix) (U := U) (Lvl := Lvl) W c).leavesExact 2 ⟨n, hn⟩ = owns (c : Thread nD τ) (ms4_2 ⟨n, hn⟩) fullShare ((dat4 (Ix := Ix) (U := U) (Lvl := Lvl) W c).after 2 ⟨n, hn⟩) from by
    unfold Dat.leavesExact; rw [live4_2 ⟨n, hn⟩], after4_2]
  rw [show (dat4 (Ix := Ix) (U := U) (Lvl := Lvl) W c).leavesExact 3 ⟨n, hn⟩ = owns (c : Thread nD τ) (ms4_3 ⟨n, hn⟩) fullShare ((dat4 (Ix := Ix) (U := U) (Lvl := Lvl) W c).after 3 ⟨n, hn⟩) from by
    unfold Dat.leavesExact; rw [live4_3 ⟨n, hn⟩], after4_3]
  rw [show (dat4 (Ix := Ix) (U := U) (Lvl := Lvl) W c).leavesExact 4 ⟨n, hn⟩ = owns (c : Thread nD τ) (ms4_4 ⟨n, hn⟩) fullShare ((dat4 (Ix := Ix) (U := U) (Lvl := Lvl) W c).after 4 ⟨n, hn⟩) from by
    unfold Dat.leavesExact; rw [live4_4 ⟨n, hn⟩], after4_4]
  rw [show (dat4 (Ix := Ix) (U := U) (Lvl := Lvl) W c).leavesExact 5 ⟨n, hn⟩ = owns (c : Thread nD τ) (ms4_5 ⟨n, hn⟩) fullShare ((dat4 (Ix := Ix) (U := U) (Lvl := Lvl) W c).after 5 ⟨n, hn⟩) from by
    unfold Dat.leavesExact; rw [live4_5 ⟨n, hn⟩], after4_5]
  rw [show (dat4 (Ix := Ix) (U := U) (Lvl := Lvl) W c).leavesExact 6 ⟨n, hn⟩ = owns (c : Thread nD τ) (ms4_6 ⟨n, hn⟩) fullShare ((dat4 (Ix := Ix) (U := U) (Lvl := Lvl) W c).after 6 ⟨n, hn⟩) from by
    unfold Dat.leavesExact; rw [live4_6 ⟨n, hn⟩], after4_6]
  rw [show (dat4 (Ix := Ix) (U := U) (Lvl := Lvl) W c).leavesExact 7 ⟨n, hn⟩ = owns (c : Thread nD τ) (ms4_7 ⟨n, hn⟩) fullShare ((dat4 (Ix := Ix) (U := U) (Lvl := Lvl) W c).after 7 ⟨n, hn⟩) from by
    unfold Dat.leavesExact; rw [live4_7 ⟨n, hn⟩], after4_7]
  rcases n with _ | n
  · -- the first point
    have hc1 : cond4_1 (grid4.coords ⟨0, hn⟩) := (hcond4_1 ⟨0, hn⟩).mpr rfl
    have hc2 : ¬cond4_2 (grid4.coords ⟨0, hn⟩) := fun h => (fun h => by (try dsimp only at h); omega) ((hcond4_2 ⟨0, hn⟩).mp h)
    rw [Dat.leavesExact_idle (dat4 (Ix := Ix) (U := U) (Lvl := Lvl) W c) 8 ⟨0, hn⟩ (idle4_8 _ hc2) (noFlush4_8 _ hc2), Dat.leavesExact_idle (dat4 (Ix := Ix) (U := U) (Lvl := Lvl) W c) 9 ⟨0, hn⟩ (idle4_9 _ hc2) (noFlush4_9 _ hc2)]
    rw [show PhiS4 W c (0 + 1) hn = iprop(iprop(owns (c : Thread nD τ) scM4_0 fullShare (acc4 W c (0 + 1) hn).1 ∗ owns (c : Thread nD τ) scM4_1 fullShare (acc4 W c (0 + 1) hn).2)
      ∗ Pipeline.scopedRestBut (Ix := Ix) (Name := ℕ) (U := U) (Lvl := Lvl) (Val := Elt F) spec4 c [cc4_scratch0, cc4_scratch1]) from rfl, acc4_succ, acc4_zero]
    rw [show PhiS4 (Ix := Ix) (U := U) (Lvl := Lvl) W c (Fin.val (⟨0, hn⟩ : Fin cfg4.N)) (Nat.le_of_lt hn) = Pipeline.scopedRest (Ix := Ix) (Name := ℕ) (U := U) (Lvl := Lvl) (Val := Elt F) spec4 c from rfl, scopedRest4_owns]
    unfold img4
    iintro ⟨⟨⟨HS0, HS1⟩, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
    iapply (body4_first 𝒱₀ c (grid4.coords ⟨0, hn⟩) _ _ _ _ _ _ _ _ _ _ _ _ _ _ _ _ _ _ _ _ _ _ _ _ hc1 hc2 (iblk4 W c 0 ⟨0, hn⟩) (iblk4 W c 1 ⟨0, hn⟩) (iblk4 W c 2 ⟨0, hn⟩) (iblk4 W c 3 ⟨0, hn⟩) (iblk4 W c 4 ⟨0, hn⟩) (iblk4 W c 5 ⟨0, hn⟩) (iblk4 W c 6 ⟨0, hn⟩) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hrest]
    · isplitr [Hrest]
      · isplitl [HS0]; · iexact HS0
        iexact HS1
      iexact Hrest
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [show PhiS4 W c (n + 1 + 1) hn = iprop(iprop(owns (c : Thread nD τ) scM4_0 fullShare (acc4 W c (n + 1 + 1) hn).1 ∗ owns (c : Thread nD τ) scM4_1 fullShare (acc4 W c (n + 1 + 1) hn).2)
      ∗ Pipeline.scopedRestBut (Ix := Ix) (Name := ℕ) (U := U) (Lvl := Lvl) (Val := Elt F) spec4 c [cc4_scratch0, cc4_scratch1]) from rfl, acc4_succ]
    rw [show PhiS4 (Ix := Ix) (U := U) (Lvl := Lvl) W c (Fin.val (⟨n + 1, hn⟩ : Fin cfg4.N)) (Nat.le_of_lt hn) = iprop(iprop(owns (c : Thread nD τ) scM4_0 fullShare (acc4 W c (n + 1) (Nat.le_of_lt hn)).1 ∗ owns (c : Thread nD τ) scM4_1 fullShare (acc4 W c (n + 1) (Nat.le_of_lt hn)).2)
      ∗ Pipeline.scopedRestBut (Ix := Ix) (Name := ℕ) (U := U) (Lvl := Lvl) (Val := Elt F) spec4 c [cc4_scratch0, cc4_scratch1]) from rfl]
    have hc1 : ¬cond4_1 (grid4.coords ⟨n + 1, hn⟩) := fun h => (fun h => by (try dsimp only at h); omega) ((hcond4_1 ⟨n + 1, hn⟩).mp h)
    by_cases h9 : n + 1 = 9
    · -- the last point
      have hc2 : cond4_2 (grid4.coords ⟨n + 1, hn⟩) := (hcond4_2 ⟨n + 1, hn⟩).mpr h9
      rw [show (dat4 (Ix := Ix) (U := U) (Lvl := Lvl) W c).leavesExact 8 ⟨n + 1, hn⟩ = owns (c : Thread nD τ) (ms4_8 ⟨n + 1, hn⟩) fullShare ((dat4 (Ix := Ix) (U := U) (Lvl := Lvl) W c).after 8 ⟨n + 1, hn⟩) from by
        unfold Dat.leavesExact; rw [live4_8 ⟨n + 1, hn⟩ hc2], after4_8]
      rw [show (dat4 (Ix := Ix) (U := U) (Lvl := Lvl) W c).leavesExact 9 ⟨n + 1, hn⟩ = owns (c : Thread nD τ) (ms4_9 ⟨n + 1, hn⟩) fullShare ((dat4 (Ix := Ix) (U := U) (Lvl := Lvl) W c).after 9 ⟨n + 1, hn⟩) from by
        unfold Dat.leavesExact; rw [live4_9 ⟨n + 1, hn⟩ hc2], after4_9]
      rw [acc4_succ W c (n + 1) hn]
      unfold img4
      iintro ⟨⟨⟨HS0, HS1⟩, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (body4_last 𝒱₀ c (grid4.coords ⟨n + 1, hn⟩) _ _ _ _ _ _ _ _ _ _ _ _ _ _ _ _ _ _ _ _ _ _ _ _ hc1 hc2 (iblk4 W c 0 ⟨n + 1, hn⟩) (iblk4 W c 1 ⟨n + 1, hn⟩) (iblk4 W c 2 ⟨n + 1, hn⟩) (iblk4 W c 3 ⟨n + 1, hn⟩) (iblk4 W c 4 ⟨n + 1, hn⟩) (iblk4 W c 5 ⟨n + 1, hn⟩) (iblk4 W c 6 ⟨n + 1, hn⟩) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS0]; · iexact HS0
      isplitl [HS1]; · iexact HS1
      iintro ⟨H0, H1, H2, H3, H4, H5, H6, H7, H8, H9, HS0, HS1⟩
      isplitl [HS0 HS1 Hrest]
      · isplitr [Hrest]
        · isplitl [HS0]; · iexact HS0
          iexact HS1
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · -- a middle point
      have hc2 : ¬cond4_2 (grid4.coords ⟨n + 1, hn⟩) := fun h => h9 ((hcond4_2 ⟨n + 1, hn⟩).mp h)
      rw [Dat.leavesExact_idle (dat4 (Ix := Ix) (U := U) (Lvl := Lvl) W c) 8 ⟨n + 1, hn⟩ (idle4_8 _ hc2) (noFlush4_8 _ hc2), Dat.leavesExact_idle (dat4 (Ix := Ix) (U := U) (Lvl := Lvl) W c) 9 ⟨n + 1, hn⟩ (idle4_9 _ hc2) (noFlush4_9 _ hc2)]
      unfold img4
      iintro ⟨⟨⟨HS0, HS1⟩, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
      iapply (body4_mid 𝒱₀ c (grid4.coords ⟨n + 1, hn⟩) _ _ _ _ _ _ _ _ _ _ _ _ _ _ _ _ _ _ _ _ _ _ _ _ hc1 hc2 (iblk4 W c 0 ⟨n + 1, hn⟩) (iblk4 W c 1 ⟨n + 1, hn⟩) (iblk4 W c 2 ⟨n + 1, hn⟩) (iblk4 W c 3 ⟨n + 1, hn⟩) (iblk4 W c 4 ⟨n + 1, hn⟩) (iblk4 W c 5 ⟨n + 1, hn⟩) (iblk4 W c 6 ⟨n + 1, hn⟩) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨H0, H1, H2, H3, H4, H5, H6, H7, HS0, HS1⟩
      isplitl [HS0 HS1 Hrest]
      · isplitr [Hrest]
        · isplitl [HS0]; · iexact HS0
          iexact HS1
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

/-- The library's body obligation, at every point. -/
theorem body_obligation4 (𝒱₀ : Variants) (ι : Ix) (c : Dev nD) : BodyObligation (dat4 (Ix := Ix) (U := U) (Lvl := Lvl) W c) (defs₀ (F := F)) 𝒱₀ ι Set.univ := fun t => by
  rw [bigSep_W4, bigSep_W4]
  exact sound_body4 (U := U) (Lvl := Lvl) W 𝒱₀ ι c t

end Region4_b

end Cert.Kernel.Pass

end
-- ==== Proof.Pass2RegionW.lean ====
import proofs.«152416_j10892037062711_1_alg».proof.Proof.Gen.Kernel.Launch
import proofs.«152416_j10892037062711_1_alg».proof.Proof.Gen.Kernel.Skeleton
import proofs.«152416_j10892037062711_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«152416_j10892037062711_1_alg».proof.Proof.Pass2DatW
import proofs.«152416_j10892037062711_1_alg».proof.Proof.Pass1RegionW

set_option maxRecDepth 16384

noncomputable section

namespace Cert.Kernel.Pass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)
open Cert.Kernel.Gen

variable {F : FTy → Type} [FloatOps F]
variable {Ix : Type} [DecidableEq Ix] {U : Type} [URA U] {Lvl : Type} [Preorder Lvl]

local notation "𝕄" => MT nD τ sig Ix (Elt F) ℕ U Lvl

/-! ## Region 1 as a segment -/

section Region1_c

variable (W Wout : Dev nD → Valuation τ sig (Elt F))
variable (pdats : (p : Fin 6) → (c : Dev nD) → Dat τ (Elt F) Ix ℕ U Lvl (cfgs p) c)
variable (ι : Ix) (𝒱₀ : Variants) (L : GSem nD τ sig → Finset Ix) (lv : GSem nD τ sig → Ix → Lvl)

/-- After any point but the first the invariant holds the scratch rows at the accumulation. -/
theorem PhiS_pos1 (c : Dev nD) (n : ℕ) (h : n ≤ cfg1.N) (hz : n ≠ 0) :
    PhiS1 (Ix := Ix) (U := U) (Lvl := Lvl) W c n h
      = iprop(iprop(owns (c : Thread nD τ) scM1_0 fullShare (acc1 W c n h).1 ∗ owns (c : Thread nD τ) scM1_1 fullShare (acc1 W c n h).2)
        ∗ Pipeline.scopedRestBut (Ix := Ix) (Name := ℕ) (U := U) (Lvl := Lvl) (Val := Elt F) spec1 c [cc1_scratch0, cc1_scratch1]) := by
  cases n with
  | zero => exact absurd rfl hz
  | succ n => rfl

-- the library's entry and exit lemmas are stated over the family's configuration at the pipeline's index: unifying it with
-- the region's own takes unfolding plain definitions in a metavariable's type
set_option backward.isDefEq.respectTransparency.types false in
set_option maxHeartbeats 4000000 in
/-- REGION 1: entered from the unscoped buffers held at `W c` beside the rest state `Rst c` (the core owing nothing, and a rest `G c`), left with them held at `Wout c` — any valuation that
    has the region's arrays at their final contents and agrees with `W c` elsewhere — beside `Rst c`. The windows' arrays go into
    the pipeline; every other unscoped buffer and `G c` bypass the region; the invariant takes the scoped rest and gives it back. -/
def R1 (Rst G : Dev nD → sProp 𝕄)
    (hRin : ∀ c : Dev nD, Rst c ⊢ iprop((∃ Wd, owes (c : Thread nD τ) (0 : CellTallies nD τ sig Ix) Wd) ∗ G c))
    (hRout : ∀ c : Dev nD, iprop((∃ Wd, owes (c : Thread nD τ) (0 : CellTallies nD τ sig Ix) Wd) ∗ G c) ⊢ Rst c)
    (h0 : ∀ c, pdats 1 c = dat1 W c)
    (hWarr : ∀ c w, (dat1 (Ix := Ix) (U := U) (Lvl := Lvl) W c).arrAt w cfg1.N = VA1 Wout c (Pipeline.arrRef spec1 w))
    (hWrest : ∀ c b, b ∉ Finset.univ.image (Pipeline.arrRef spec1) → VA1 Wout c b = VA1 W c b) :
    RegionSeg (pcfgs (F := F)) adm pdats ι defs₀ 𝒱₀ L lv 1 where
  win := launch1.win.to₀
  block_pos := launch1.block_pos
  stage_whole := launch1.stage_whole
  K := PEmpty
  osem k := k.elim
  ho := Pipeline.OwnSemFacts.none _
  hbody c := by rw [h0 c]; exact (body_obligation1 W 𝒱₀ ι c).loose
  hwaits := Pipeline.hwaits_of_owed_zero _ _ _ _ L lv 1 fun c t => by rw [h0 c]; rfl
  pre c := iprop(StableHlo.held (c : Thread nD τ) (Pipeline.ucRefs τ sig) (W c) ∗ Rst c)
  post c := iprop(StableHlo.held (c : Thread nD τ) (Pipeline.ucRefs τ sig) (Wout c) ∗ Rst c)
  X _ := iprop(emp)
  Y _ := iprop(emp)
  Z c := iprop(Pipeline.unscopedRest (Ix := Ix) (Name := ℕ) (U := U) (Lvl := Lvl) spec1 c (VA1 W c) ∗ G c)
  hentry c := by
    rw [show StableHlo.held (c : Thread nD τ) (Pipeline.ucRefs τ sig) (W c) = unscopedBufs (Ix := Ix) (Name := ℕ) (U := U) (Lvl := Lvl) c (VA1 W c) from (Pipeline.unscopedBufs_held c (W c)).symm,
      Pipeline.ownSems0_none]
    have hsplit := Pipeline.arrays_of_unscopedBufs (p := 1) (pcfgs (F := F)) adm pdats launch1.win launch1.arr_whole c
      ((pdats 1 c).share_full fun w => by rw [h0 c]; rfl) (VA1 W c) (fun w => by rw [h0 c]; exact A1_eq W c w)
    have hr := hRin c
    iintro ⟨⟨Hub, HR⟩, -, -⟩
    ihave HR2 := hr $$ HR
    icases HR2 with ⟨HO, HG⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owesAt_of_owes (pdats 1 c) ι 0 (by rw [h0 c]; rfl) (by rw [h0 c]; rfl)); iexact HO
    isplitr; · iempintro
    isplitl [Hrest]; · iexact Hrest
    iexact HG
  hin c := by
    rw [h0 c, show (dat1 (Ix := Ix) (U := U) (Lvl := Lvl) W c).Φ 0 = Pipeline.scopedRest (Ix := Ix) (Name := ℕ) (U := U) (Lvl := Lvl) (Val := Elt F) spec1 c from rfl]
    iintro ⟨-, -, Hr⟩; iexact Hr
  hout c := by
    rw [h0 c, Pipeline.ownSems0_none]
    change PhiS1 (Ix := Ix) (U := U) (Lvl := Lvl) W c cfg1.N (Nat.le_refl _)
      ⊢ iprop(emp ∗ emp ∗ Pipeline.scopedRest (Ix := Ix) (Name := ℕ) (U := U) (Lvl := Lvl) (Val := Elt F) spec1 c)
    rw [PhiS_pos1 W c _ _ (by have : cfg1.N = 10 := N_1; omega), scopedRest1_owns]
    iintro ⟨⟨HS0, HS1⟩, Hrest⟩
    isplitr; · iempintro
    isplitr; · iempintro
    isplitr [Hrest]
    · isplitl [HS0]; · iexists _; iexact HS0
      iexists _; iexact HS1
    iexact Hrest
  hexit c := by
    have hjoin := Pipeline.unscopedBufs_of_arrays (pcfgs (F := F)) adm (p := 1) launch1.win launch1.arr_whole c pdats
      ((pdats 1 c).share_full fun w => by rw [h0 c]; rfl) (VA1 W c) (VA1 Wout c) (fun w => (pdats 1 c).arrAt w cfg1.N)
      (fun w => by rw [h0 c]; exact hWarr c w) (hWrest c)
    rw [show StableHlo.held (c : Thread nD τ) (Pipeline.ucRefs τ sig) (Wout c) = unscopedBufs (Ix := Ix) (Name := ℕ) (U := U) (Lvl := Lvl) c (VA1 Wout c) from (Pipeline.unscopedBufs_held c (Wout c)).symm]
    iintro ⟨Ha, HO, -, ⟨Hrest, HG⟩⟩
    imodintro
    isplitl [Ha Hrest]
    · iapply hjoin
      isplitl [Ha]; · iexact Ha
      iexact Hrest
    iapply (hRout c)
    isplitl [HO]; · iapply (owes_of_owesAt (pdats 1 c) ι _ (by rw [h0 c]; rfl)); iexact HO
    iexact HG

end Region1_c

/-! ## Region 4 as a segment -/

section Region4_c

variable (W Wout : Dev nD → Valuation τ sig (Elt F))
variable (pdats : (p : Fin 6) → (c : Dev nD) → Dat τ (Elt F) Ix ℕ U Lvl (cfgs p) c)
variable (ι : Ix) (𝒱₀ : Variants) (L : GSem nD τ sig → Finset Ix) (lv : GSem nD τ sig → Ix → Lvl)

/-- After any point but the first the invariant holds the scratch rows at the accumulation. -/
theorem PhiS_pos4 (c : Dev nD) (n : ℕ) (h : n ≤ cfg4.N) (hz : n ≠ 0) :
    PhiS4 (Ix := Ix) (U := U) (Lvl := Lvl) W c n h
      = iprop(iprop(owns (c : Thread nD τ) scM4_0 fullShare (acc4 W c n h).1 ∗ owns (c : Thread nD τ) scM4_1 fullShare (acc4 W c n h).2)
        ∗ Pipeline.scopedRestBut (Ix := Ix) (Name := ℕ) (U := U) (Lvl := Lvl) (Val := Elt F) spec4 c [cc4_scratch0, cc4_scratch1]) := by
  cases n with
  | zero => exact absurd rfl hz
  | succ n => rfl

-- the library's entry and exit lemmas are stated over the family's configuration at the pipeline's index: unifying it with
-- the region's own takes unfolding plain definitions in a metavariable's type
set_option backward.isDefEq.respectTransparency.types false in
set_option maxHeartbeats 4000000 in
/-- REGION 4: entered from the unscoped buffers held at `W c` beside the rest state `Rst c` (the core owing nothing, and a rest `G c`), left with them held at `Wout c` — any valuation that
    has the region's arrays at their final contents and agrees with `W c` elsewhere — beside `Rst c`. The windows' arrays go into
    the pipeline; every other unscoped buffer and `G c` bypass the region; the invariant takes the scoped rest and gives it back. -/
def R4 (Rst G : Dev nD → sProp 𝕄)
    (hRin : ∀ c : Dev nD, Rst c ⊢ iprop((∃ Wd, owes (c : Thread nD τ) (0 : CellTallies nD τ sig Ix) Wd) ∗ G c))
    (hRout : ∀ c : Dev nD, iprop((∃ Wd, owes (c : Thread nD τ) (0 : CellTallies nD τ sig Ix) Wd) ∗ G c) ⊢ Rst c)
    (h0 : ∀ c, pdats 4 c = dat4 W c)
    (hWarr : ∀ c w, (dat4 (Ix := Ix) (U := U) (Lvl := Lvl) W c).arrAt w cfg4.N = VA4 Wout c (Pipeline.arrRef spec4 w))
    (hWrest : ∀ c b, b ∉ Finset.univ.image (Pipeline.arrRef spec4) → VA4 Wout c b = VA4 W c b) :
    RegionSeg (pcfgs (F := F)) adm pdats ι defs₀ 𝒱₀ L lv 4 where
  win := launch4.win.to₀
  block_pos := launch4.block_pos
  stage_whole := launch4.stage_whole
  K := PEmpty
  osem k := k.elim
  ho := Pipeline.OwnSemFacts.none _
  hbody c := by rw [h0 c]; exact (body_obligation4 W 𝒱₀ ι c).loose
  hwaits := Pipeline.hwaits_of_owed_zero _ _ _ _ L lv 4 fun c t => by rw [h0 c]; rfl
  pre c := iprop(StableHlo.held (c : Thread nD τ) (Pipeline.ucRefs τ sig) (W c) ∗ Rst c)
  post c := iprop(StableHlo.held (c : Thread nD τ) (Pipeline.ucRefs τ sig) (Wout c) ∗ Rst c)
  X _ := iprop(emp)
  Y _ := iprop(emp)
  Z c := iprop(Pipeline.unscopedRest (Ix := Ix) (Name := ℕ) (U := U) (Lvl := Lvl) spec4 c (VA4 W c) ∗ G c)
  hentry c := by
    rw [show StableHlo.held (c : Thread nD τ) (Pipeline.ucRefs τ sig) (W c) = unscopedBufs (Ix := Ix) (Name := ℕ) (U := U) (Lvl := Lvl) c (VA4 W c) from (Pipeline.unscopedBufs_held c (W c)).symm,
      Pipeline.ownSems0_none]
    have hsplit := Pipeline.arrays_of_unscopedBufs (p := 4) (pcfgs (F := F)) adm pdats launch4.win launch4.arr_whole c
      ((pdats 4 c).share_full fun w => by rw [h0 c]; rfl) (VA4 W c) (fun w => by rw [h0 c]; exact A4_eq W c w)
    have hr := hRin c
    iintro ⟨⟨Hub, HR⟩, -, -⟩
    ihave HR2 := hr $$ HR
    icases HR2 with ⟨HO, HG⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owesAt_of_owes (pdats 4 c) ι 0 (by rw [h0 c]; rfl) (by rw [h0 c]; rfl)); iexact HO
    isplitr; · iempintro
    isplitl [Hrest]; · iexact Hrest
    iexact HG
  hin c := by
    rw [h0 c, show (dat4 (Ix := Ix) (U := U) (Lvl := Lvl) W c).Φ 0 = Pipeline.scopedRest (Ix := Ix) (Name := ℕ) (U := U) (Lvl := Lvl) (Val := Elt F) spec4 c from rfl]
    iintro ⟨-, -, Hr⟩; iexact Hr
  hout c := by
    rw [h0 c, Pipeline.ownSems0_none]
    change PhiS4 (Ix := Ix) (U := U) (Lvl := Lvl) W c cfg4.N (Nat.le_refl _)
      ⊢ iprop(emp ∗ emp ∗ Pipeline.scopedRest (Ix := Ix) (Name := ℕ) (U := U) (Lvl := Lvl) (Val := Elt F) spec4 c)
    rw [PhiS_pos4 W c _ _ (by have : cfg4.N = 10 := N_4; omega), scopedRest4_owns]
    iintro ⟨⟨HS0, HS1⟩, Hrest⟩
    isplitr; · iempintro
    isplitr; · iempintro
    isplitr [Hrest]
    · isplitl [HS0]; · iexists _; iexact HS0
      iexists _; iexact HS1
    iexact Hrest
  hexit c := by
    have hjoin := Pipeline.unscopedBufs_of_arrays (pcfgs (F := F)) adm (p := 4) launch4.win launch4.arr_whole c pdats
      ((pdats 4 c).share_full fun w => by rw [h0 c]; rfl) (VA4 W c) (VA4 Wout c) (fun w => (pdats 4 c).arrAt w cfg4.N)
      (fun w => by rw [h0 c]; exact hWarr c w) (hWrest c)
    rw [show StableHlo.held (c : Thread nD τ) (Pipeline.ucRefs τ sig) (Wout c) = unscopedBufs (Ix := Ix) (Name := ℕ) (U := U) (Lvl := Lvl) c (VA4 Wout c) from (Pipeline.unscopedBufs_held c (Wout c)).symm]
    iintro ⟨Ha, HO, -, ⟨Hrest, HG⟩⟩
    imodintro
    isplitl [Ha Hrest]
    · iapply hjoin
      isplitl [Ha]; · iexact Ha
      iexact Hrest
    iapply (hRout c)
    isplitl [HO]; · iapply (owes_of_owesAt (pdats 4 c) ι _ (by rw [h0 c]; rfl)); iexact HO
    iexact HG

end Region4_c

end Cert.Kernel.Pass

end
-- ==== Proof.FrameW.lean ====
/- The frame of `Kernel` with no hypothesis left: the six regions' records over the stage-by-stage contents and proof data,
   so that every weakly fair execution of @main terminates, every argument ends as launched, and the result's buffer
   holds the last valuation of the chain. -/
import proofs.«152416_j10892037062711_1_alg».proof.Proof.FrameAssemblyW
import proofs.«152416_j10892037062711_1_alg».proof.Proof.StageArraysW
import proofs.«152416_j10892037062711_1_alg».proof.Proof.Pass1RegionW
import proofs.«152416_j10892037062711_1_alg».proof.Proof.Pass2RegionW

set_option maxRecDepth 16384

noncomputable section

namespace Cert.Kernel.Assembly

open Cert.Kernel.Gen Cert.Kernel.Pass3 Cert.Kernel.Stages
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

/-- The four accumulating regions' proof data as functions of the entry contents, at the plain user algebra. -/
abbrev D0 : (Dev nD → Valuation τ sig (Elt F)) → (c : Dev nD) → Dat τ (Elt F) Unit ℕ (UR sig nD τ) ℕ cfg0 c :=
  fun W c => Pass.dat0 (Ix := Unit) (U := UR sig nD τ) (Lvl := ℕ) W c
abbrev D1 : (Dev nD → Valuation τ sig (Elt F)) → (c : Dev nD) → Dat τ (Elt F) Unit ℕ (UR sig nD τ) ℕ cfg1 c :=
  fun W c => Pass.dat1 (Ix := Unit) (U := UR sig nD τ) (Lvl := ℕ) W c
abbrev D3 : (Dev nD → Valuation τ sig (Elt F)) → (c : Dev nD) → Dat τ (Elt F) Unit ℕ (UR sig nD τ) ℕ cfg3 c :=
  fun W c => Pass.dat3 (Ix := Unit) (U := UR sig nD τ) (Lvl := ℕ) W c
abbrev D4 : (Dev nD → Valuation τ sig (Elt F)) → (c : Dev nD) → Dat τ (Elt F) Unit ℕ (UR sig nD τ) ℕ cfg4 c :=
  fun W c => Pass.dat4 (Ix := Unit) (U := UR sig nD τ) (Lvl := ℕ) W c

variable (m : (ℓ : Loc nD τ sig) → Buf (Elt F) ℓ)

/-- What the regions leave and every pipeline's proof data, along @main. -/
abbrev OUTS : Outs (F := F) := Stages.outs m D0 D1 D3 D4
abbrev PD : (p : Fin 6) → (c : Dev nD) → Dat τ (Elt F) Unit ℕ (UR sig nD τ) ℕ (cfgs p) c := Stages.pdats m D0 D1 D3 D4

/-- The generator register at some state: the part of the rest state an accumulating region carries past its pipeline. -/
abbrev Gp (c : Dev nD) : sProp 𝕄 := iprop(∃ r, prngReg c r)
theorem hRin (c : Dev nD) : R (F := F) c ⊢ iprop((∃ Wd, owes (c : Thread nD τ) (0 : CellTallies nD τ sig Unit) Wd) ∗ Gp (F := F) c) := by
  iintro ⟨Hp, Ho⟩
  isplitl [Ho]; · iexact Ho
  iexact Hp
theorem hRout (c : Dev nD) : iprop((∃ Wd, owes (c : Thread nD τ) (0 : CellTallies nD τ sig Unit) Wd) ∗ Gp (F := F) c) ⊢ R (F := F) c := by
  iintro ⟨Ho, Hp⟩
  isplitl [Hp]; · iexact Hp
  iexact Ho

set_option backward.isDefEq.respectTransparency.types false in
/-- Region 0's record over the chain's valuations before and after it. -/
def reg0 : RegionSeg (pcfgs (F := F)) adm (PD m) () defs₀ Variants.none L₀ lv₀ 0 :=
  Pass.R0 (V1 m) (V2 m (OUTS m)) (PD m) () Variants.none L₀ lv₀ (fun c => R (F := F) c) (fun c => Gp (F := F) c) hRin hRout
    (fun _ => rfl)
    (fun c w => Stages.hWarr0 m (OUTS m) (fun c => D0 (V1 m) c) (fun c w => Pass.A0_eq (V1 m) c w)
      (fun c w => Stages.outs2_arr m D0 D1 D3 D4 c w) c w)
    (fun c b hb => Stages.hWrest0 m (OUTS m) c b hb)

set_option backward.isDefEq.respectTransparency.types false in
/-- Region 1's record over the chain's valuations before and after it. -/
def reg1 : RegionSeg (pcfgs (F := F)) adm (PD m) () defs₀ Variants.none L₀ lv₀ 1 :=
  Pass.R1 (V3 m (OUTS m)) (V4 m (OUTS m)) (PD m) () Variants.none L₀ lv₀ (fun c => R (F := F) c) (fun c => Gp (F := F) c) hRin hRout
    (fun _ => rfl)
    (fun c w => Stages.hWarr1 m (OUTS m) (fun c => D1 (V3 m (OUTS m)) c) (fun c w => Pass.A1_eq (V3 m (OUTS m)) c w)
      (fun c w => Stages.outs4_arr m D0 D1 D3 D4 c w) c w)
    (fun c b hb => Stages.hWrest1 m (OUTS m) c b hb)

set_option backward.isDefEq.respectTransparency.types false in
/-- Region 3's record over the chain's valuations before and after it. -/
def reg3 : RegionSeg (pcfgs (F := F)) adm (PD m) () defs₀ Variants.none L₀ lv₀ 3 :=
  Pass.R3 (V7 m (OUTS m)) (V8 m (OUTS m)) (PD m) () Variants.none L₀ lv₀ (fun c => R (F := F) c) (fun c => Gp (F := F) c) hRin hRout
    (fun _ => rfl)
    (fun c w => Stages.hWarr3 m (OUTS m) (fun c => D3 (V7 m (OUTS m)) c) (fun c w => Pass.A3_eq (V7 m (OUTS m)) c w)
      (fun c w => Stages.outs8_arr m D0 D1 D3 D4 c w) c w)
    (fun c b hb => Stages.hWrest3 m (OUTS m) c b hb)

set_option backward.isDefEq.respectTransparency.types false in
/-- Region 4's record over the chain's valuations before and after it. -/
def reg4 : RegionSeg (pcfgs (F := F)) adm (PD m) () defs₀ Variants.none L₀ lv₀ 4 :=
  Pass.R4 (V9 m (OUTS m)) (V10 m (OUTS m)) (PD m) () Variants.none L₀ lv₀ (fun c => R (F := F) c) (fun c => Gp (F := F) c) hRin hRout
    (fun _ => rfl)
    (fun c w => Stages.hWarr4 m (OUTS m) (fun c => D4 (V9 m (OUTS m)) c) (fun c w => Pass.A4_eq (V9 m (OUTS m)) c w)
      (fun c w => Stages.outs10_arr m D0 D1 D3 D4 c w) c w)
    (fun c b hb => Stages.hWrest4 m (OUTS m) c b hb)

variable (ρ : Dev nD → PrngReg)

/-- THE RUN: every unscoped buffer ends at the last valuation of the chain. -/
theorem run : θ_run defs (onTc (τ := τ) (main (F := F))) ⟨m, fun _ => 0, ρ⟩ (fun r => ∀ c : Dev nD,
      ∀ b ∈ Pipeline.ucRefs τ sig, r.2.mem ((c.tc : Thread nD τ).1, b) = V13 m (OUTS m) c b) :=
  run_of_regions m ρ (OUTS m) (PD m) (fun _ => rfl) (fun _ => rfl) (Stages.houts6 m D0 D1 D3 D4) (Stages.houts12 m D0 D1 D3 D4)
    (reg0 m) (fun _ => .rfl) (fun _ => .rfl) (reg1 m) (fun _ => .rfl) (fun _ => .rfl)
    (reg3 m) (fun _ => .rfl) (fun _ => .rfl) (reg4 m) (fun _ => .rfl) (fun _ => .rfl)

/-- THE FRAME with the result named. -/
theorem result : θ_run defs (onTc (τ := τ) (main (F := F))) ⟨m, fun _ => 0, ρ⟩ (fun r => ∀ c : Dev nD,
      (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)
        ∧ r.2.mem ((c.tc : Thread nD τ).loc main_arg15) = m ((c.tc : Thread nD τ).loc main_arg15)
        ∧ r.2.mem ((c.tc : Thread nD τ).loc main_arg16) = m ((c.tc : Thread nD τ).loc main_arg16)
        ∧ r.2.mem ((c.tc : Thread nD τ).loc main_arg17) = m ((c.tc : Thread nD τ).loc main_arg17)
        ∧ r.2.mem ((c.tc : Thread nD τ).loc main_arg18) = m ((c.tc : Thread nD τ).loc main_arg18)
        ∧ r.2.mem ((c.tc : Thread nD τ).loc main_arg19) = m ((c.tc : Thread nD τ).loc main_arg19)
        ∧ r.2.mem ((c.tc : Thread nD τ).loc main_arg20) = m ((c.tc : Thread nD τ).loc main_arg20)
        ∧ r.2.mem ((c.tc : Thread nD τ).loc main_arg21) = m ((c.tc : Thread nD τ).loc main_arg21)
        ∧ r.2.mem ((c.tc : Thread nD τ).loc main_arg22) = m ((c.tc : Thread nD τ).loc main_arg22)
        ∧ r.2.mem ((c.tc : Thread nD τ).loc main_arg23) = m ((c.tc : Thread nD τ).loc main_arg23)
        ∧ r.2.mem ((c.tc : Thread nD τ).loc main_arg24) = m ((c.tc : Thread nD τ).loc main_arg24))
      ∧ r.2.mem ((c.tc : Thread nD τ).loc main_v90) = V13 m (OUTS m) c main_v90) :=
  (θ_run defs _ _).mono (fun r h c => post_of_all m (OUTS m) r.2 c (h c)) (run m ρ)

/-- THE FRAME: every weakly fair execution of @main terminates and every argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun r h c => (post_of_all m (OUTS m) r.2 c (h c)).1) (run m ρ)

end Cert.Kernel.Assembly

end
-- ==== Proof.RefKeep.lean ====
/- One inclusion, shared by the three windows of the reference's straight line: the singleton of a listed
   reference's device buffer lies in the finite set of the list's device buffers. It is what "this operation
   writes only a buffer of the list" comes to, an operation's written set being the singleton of its result. -/
import Idealize.ShloMosaic.Lib.StableHlo.Run

namespace Cert.ReferenceIdeal.RefRun

open Idealize.ShloMosaic Idealize.ShloMosaic.StableHlo

variable {τ : Topo} {sig : RefSig}

/-- A listed reference's device buffer, alone, is a subset of the list's device buffers. -/
theorem singleton_devRef_sub {W : List (Ref sig .tc)} (y : Ref sig .tc) (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

end Cert.ReferenceIdeal.RefRun
-- ==== Proof.RefOps0.lean ====
/- The reference's @main, statements of its window 0 as a straight line of host operations: the edge lists split and wrapped, the first layer's gather and scatter-add over the edges, its first linear map, the column mean and variance of that map's output (the variance's operations at the first variance call's buffers), the normalisation and the rectifier, the second linear map and its column mean and variance (at the second variance call's buffers), and the centring.
   A call of a module-local function stands as the callee's operations, in order, over that call's buffers
   (a typed reference per value of the callee's body); the window is that line by unfolding. -/
import proofs.«152416_j10892037062711_1_alg».proof.Proof.Gen.ReferenceIdeal
import Idealize.ShloMosaic.Lib.StableHlo.Run
import proofs.«152416_j10892037062711_1_alg».proof.Proof.RefKeep

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 104 of the 265, in program order. -/
abbrev ops0 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst (constant S_ .f32 0x00000000#32),
    unary main_cst main_v11 (broadcastInDim S100000x64 ![] bcast_S_S100000x64 : (⟨S_, .f32⟩ : BufTy).Contents (Elt F) → (⟨S100000x64, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_arg0 main_v13 main_v14 (addf : (⟨S100000x64, .f32⟩ : BufTy).Contents (Elt F) → (⟨S100000x64, .f32⟩ : BufTy).Contents (Elt F) → (⟨S100000x64, .f32⟩ : BufTy).Contents (Elt F)),
    binary main_v14 main_arg3 main_v15 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg4 main_v16 (broadcastInDim S1x64 ![1] bcast_S64_S1x64_1 : (⟨S64, .f32⟩ : BufTy).Contents (Elt F) → (⟨S1x64, .f32⟩ : BufTy).Contents (Elt F)),
    unary main_v16 main_v17 (broadcastInDim S100000x64 ![0, 1] bcast_S1x64_S100000x64_0_1 : (⟨S1x64, .f32⟩ : BufTy).Contents (Elt F) → (⟨S100000x64, .f32⟩ : BufTy).Contents (Elt F)),
    binary main_v15 main_v17 main_v18 (addf : (⟨S100000x64, .f32⟩ : BufTy).Contents (Elt F) → (⟨S100000x64, .f32⟩ : BufTy).Contents (Elt F) → (⟨S100000x64, .f32⟩ : BufTy).Contents (Elt F)),
    nullary main_cst_1 (constant S_ .f32 0x00000000#32),
    binary main_v18 main_cst_1 main_v19 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_2 (constant S_ .f32 0x47C35000#32),
    unary main_cst_2 main_v20 (broadcastInDim S64 ![] bcast_S_S64 : (⟨S_, .f32⟩ : BufTy).Contents (Elt F) → (⟨S64, .f32⟩ : BufTy).Contents (Elt F)),
    binary main_v19 main_v20 main_v21 (Host.divf : (⟨S64, .f32⟩ : BufTy).Contents (Elt F) → (⟨S64, .f32⟩ : BufTy).Contents (Elt F) → (⟨S64, .f32⟩ : BufTy).Contents (Elt F)),
    nullary main_c_3 (constantI S_ 32 0#32),
    TRef.nullary main_call0.cst (constant S_ .f32 0x00000000#32),
    TRef.binary (.of main_v18 : TRef sig ⟨S100000x64, .f32⟩) main_call0.cst main_call0.v0 (fun x v => Host.reduceAdd x v reducesTo_S100000x64_S64_d0 h_S_),
    TRef.unary main_call0.v0 main_call0.v1 (broadcastInDim S1x64 ![1] bcast_S64_S1x64_1),
    TRef.nullary main_call0.cst_0 (constant S_ .f32 0x47C35000#32),
    TRef.unary main_call0.cst_0 main_call0.v2 (broadcastInDim S1x64 ![] bcast_S_S1x64),
    TRef.binary main_call0.v1 main_call0.v2 main_call0.v3 Host.divf,
    TRef.unary main_call0.v3 main_call0.v4 (broadcastInDim S100000x64 ![0, 1] bcast_S1x64_S100000x64_0_1),
    TRef.binary (.of main_v18 : TRef sig ⟨S100000x64, .f32⟩) main_call0.v4 main_call0.v5 subf,
    TRef.binary main_call0.v5 main_call0.v5 main_call0.v6 mulf,
    TRef.unary (.of main_c_3 : TRef sig ⟨S_, .i32⟩) main_call0.v7 (sitofp .f32),
    TRef.nullary main_call0.cst_1 (constant S_ .f32 0x47C35000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S100000x64_S64_d0 h_S_),
    TRef.unary main_call0.v8 main_call0.v10 (broadcastInDim S64 ![] bcast_S_S64),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S64 ![] bcast_S_S64),
    TRef.ternary main_call0.v12 main_call0.v11 main_call0.call0.v1 main_call0.call0.v2 (fun p a b => select (broadcastInDim S64 ![] bcast_S_S64 p) a b),
    unary main_v21 main_v23 (broadcastInDim S1x64 ![1] bcast_S64_S1x64_1 : (⟨S64, .f32⟩ : BufTy).Contents (Elt F) → (⟨S1x64, .f32⟩ : BufTy).Contents (Elt F)),
    unary main_v23 main_v24 (broadcastInDim S100000x64 ![0, 1] bcast_S1x64_S100000x64_0_1 : (⟨S1x64, .f32⟩ : BufTy).Contents (Elt F) → (⟨S100000x64, .f32⟩ : BufTy).Contents (Elt F)),
    binary main_v18 main_v24 main_v25 (subf : (⟨S100000x64, .f32⟩ : BufTy).Contents (Elt F) → (⟨S100000x64, .f32⟩ : BufTy).Contents (Elt F) → (⟨S100000x64, .f32⟩ : BufTy).Contents (Elt F)),
    unary main_arg5 main_v26 (broadcastInDim S1x64 ![1] bcast_S64_S1x64_1 : (⟨S64, .f32⟩ : BufTy).Contents (Elt F) → (⟨S1x64, .f32⟩ : BufTy).Contents (Elt F)),
    unary main_v26 main_v27 (broadcastInDim S100000x64 ![0, 1] bcast_S1x64_S100000x64_0_1 : (⟨S1x64, .f32⟩ : BufTy).Contents (Elt F) → (⟨S100000x64, .f32⟩ : BufTy).Contents (Elt F)),
    binary main_v27 main_v25 main_v28 (mulf : (⟨S100000x64, .f32⟩ : BufTy).Contents (Elt F) → (⟨S100000x64, .f32⟩ : BufTy).Contents (Elt F) → (⟨S100000x64, .f32⟩ : BufTy).Contents (Elt F)),
    nullary main_cst_4 (constant S_ .f32 0x3727C5AC#32),
    unary main_cst_4 main_v29 (broadcastInDim S64 ![] bcast_S_S64 : (⟨S_, .f32⟩ : BufTy).Contents (Elt F) → (⟨S64, .f32⟩ : BufTy).Contents (Elt F)),
    binary main_v22 main_v29 main_v30 (addf : (⟨S64, .f32⟩ : BufTy).Contents (Elt F) → (⟨S64, .f32⟩ : BufTy).Contents (Elt F) → (⟨S64, .f32⟩ : BufTy).Contents (Elt F)),
    unary main_v30 main_v31 (Host.rsqrt : (⟨S64, .f32⟩ : BufTy).Contents (Elt F) → (⟨S64, .f32⟩ : BufTy).Contents (Elt F)),
    unary main_v31 main_v32 (broadcastInDim S1x64 ![1] bcast_S64_S1x64_1 : (⟨S64, .f32⟩ : BufTy).Contents (Elt F) → (⟨S1x64, .f32⟩ : BufTy).Contents (Elt F)),
    unary main_v32 main_v33 (broadcastInDim S100000x64 ![0, 1] bcast_S1x64_S100000x64_0_1 : (⟨S1x64, .f32⟩ : BufTy).Contents (Elt F) → (⟨S100000x64, .f32⟩ : BufTy).Contents (Elt F)),
    binary main_v28 main_v33 main_v34 (mulf : (⟨S100000x64, .f32⟩ : BufTy).Contents (Elt F) → (⟨S100000x64, .f32⟩ : BufTy).Contents (Elt F) → (⟨S100000x64, .f32⟩ : BufTy).Contents (Elt F)),
    unary main_arg6 main_v35 (broadcastInDim S1x64 ![1] bcast_S64_S1x64_1 : (⟨S64, .f32⟩ : BufTy).Contents (Elt F) → (⟨S1x64, .f32⟩ : BufTy).Contents (Elt F)),
    unary main_v35 main_v36 (broadcastInDim S100000x64 ![0, 1] bcast_S1x64_S100000x64_0_1 : (⟨S1x64, .f32⟩ : BufTy).Contents (Elt F) → (⟨S100000x64, .f32⟩ : BufTy).Contents (Elt F)),
    binary main_v34 main_v36 main_v37 (addf : (⟨S100000x64, .f32⟩ : BufTy).Contents (Elt F) → (⟨S100000x64, .f32⟩ : BufTy).Contents (Elt F) → (⟨S100000x64, .f32⟩ : BufTy).Contents (Elt F)),
    TRef.nullary main_call1.cst (constant S_ .f32 0x00000000#32),
    TRef.unary main_call1.cst main_call1.v0 (broadcastInDim S100000x64 ![] bcast_S_S100000x64),
    TRef.binary (.of main_v37 : TRef sig ⟨S100000x64, .f32⟩) main_call1.v0 main_call1.v1 maximumf,
    binary main_v38 main_arg7 main_v39 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg8 main_v40 (broadcastInDim S1x64 ![1] bcast_S64_S1x64_1 : (⟨S64, .f32⟩ : BufTy).Contents (Elt F) → (⟨S1x64, .f32⟩ : BufTy).Contents (Elt F)),
    unary main_v40 main_v41 (broadcastInDim S100000x64 ![0, 1] bcast_S1x64_S100000x64_0_1 : (⟨S1x64, .f32⟩ : BufTy).Contents (Elt F) → (⟨S100000x64, .f32⟩ : BufTy).Contents (Elt F)),
    binary main_v39 main_v41 main_v42 (addf : (⟨S100000x64, .f32⟩ : BufTy).Contents (Elt F) → (⟨S100000x64, .f32⟩ : BufTy).Contents (Elt F) → (⟨S100000x64, .f32⟩ : BufTy).Contents (Elt F)),
    nullary main_cst_5 (constant S_ .f32 0x00000000#32),
    binary main_v42 main_cst_5 main_v43 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_6 (constant S_ .f32 0x47C35000#32),
    unary main_cst_6 main_v44 (broadcastInDim S64 ![] bcast_S_S64 : (⟨S_, .f32⟩ : BufTy).Contents (Elt F) → (⟨S64, .f32⟩ : BufTy).Contents (Elt F)),
    binary main_v43 main_v44 main_v45 (Host.divf : (⟨S64, .f32⟩ : BufTy).Contents (Elt F) → (⟨S64, .f32⟩ : BufTy).Contents (Elt F) → (⟨S64, .f32⟩ : BufTy).Contents (Elt F)),
    nullary main_c_7 (constantI S_ 32 0#32),
    TRef.nullary main_call2.cst (constant S_ .f32 0x00000000#32),
    TRef.binary (.of main_v42 : TRef sig ⟨S100000x64, .f32⟩) main_call2.cst main_call2.v0 (fun x v => Host.reduceAdd x v reducesTo_S100000x64_S64_d0 h_S_),
    TRef.unary main_call2.v0 main_call2.v1 (broadcastInDim S1x64 ![1] bcast_S64_S1x64_1),
    TRef.nullary main_call2.cst_0 (constant S_ .f32 0x47C35000#32),
    TRef.unary main_call2.cst_0 main_call2.v2 (broadcastInDim S1x64 ![] bcast_S_S1x64),
    TRef.binary main_call2.v1 main_call2.v2 main_call2.v3 Host.divf,
    TRef.unary main_call2.v3 main_call2.v4 (broadcastInDim S100000x64 ![0, 1] bcast_S1x64_S100000x64_0_1),
    TRef.binary (.of main_v42 : TRef sig ⟨S100000x64, .f32⟩) main_call2.v4 main_call2.v5 subf,
    TRef.binary main_call2.v5 main_call2.v5 main_call2.v6 mulf,
    TRef.unary (.of main_c_7 : TRef sig ⟨S_, .i32⟩) main_call2.v7 (sitofp .f32),
    TRef.nullary main_call2.cst_1 (constant S_ .f32 0x47C35000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S100000x64_S64_d0 h_S_),
    TRef.unary main_call2.v8 main_call2.v10 (broadcastInDim S64 ![] bcast_S_S64),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S64 ![] bcast_S_S64),
    TRef.ternary main_call2.v12 main_call2.v11 main_call2.call0.v1 main_call2.call0.v2 (fun p a b => select (broadcastInDim S64 ![] bcast_S_S64 p) a b),
    unary main_v45 main_v47 (broadcastInDim S1x64 ![1] bcast_S64_S1x64_1 : (⟨S64, .f32⟩ : BufTy).Contents (Elt F) → (⟨S1x64, .f32⟩ : BufTy).Contents (Elt F)),
    unary main_v47 main_v48 (broadcastInDim S100000x64 ![0, 1] bcast_S1x64_S100000x64_0_1 : (⟨S1x64, .f32⟩ : BufTy).Contents (Elt F) → (⟨S100000x64, .f32⟩ : BufTy).Contents (Elt F)),
    binary main_v42 main_v48 main_v49 (subf : (⟨S100000x64, .f32⟩ : BufTy).Contents (Elt F) → (⟨S100000x64, .f32⟩ : BufTy).Contents (Elt F) → (⟨S100000x64, .f32⟩ : BufTy).Contents (Elt F)) ]

set_option maxRecDepth 8192 in
/-- The window is that line: the called functions unfolded at their calls, both sides are one chain of
    operation steps once sequencing is reassociated. -/
theorem main_part0_eq (c : Dev nD) : main_part0 (F := F) c = seq ops0 := by
  simp only [main_part0, fn_var.body, fn_where.body, fn_relu.body, seq, bind_assoc, pure_bind]
  all_goals rfl

set_option maxRecDepth 8192 in
/-- Every operation of the line touches TensorCore references only. -/
theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., binary_bufs_sub ..,
    binary_bufs_sub .., unary_bufs_sub .., unary_bufs_sub .., binary_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub ..⟩

/-- The references the line's operations write, in order: each operation's result, and nothing else. -/
abbrev ops0_W : List (Ref sig .tc) :=
  [main_v0, main_v1, main_v2, main_v3, main_c, main_v4, main_v5, main_c_0,
   main_v6, main_v7, main_v8, main_v9, main_v10, main_cst, main_v11, main_v12,
   main_v13, main_v14, main_v15, main_v16, main_v17, main_v18, main_cst_1, main_v19,
   main_cst_2, main_v20, main_v21, main_c_3, main_call0.cst.ref, main_call0.v0.ref, main_call0.v1.ref, main_call0.cst_0.ref,
   main_call0.v2.ref, main_call0.v3.ref, main_call0.v4.ref, main_call0.v5.ref, main_call0.v6.ref, main_call0.v7.ref, main_call0.cst_1.ref, main_call0.v8.ref,
   main_call0.cst_2.ref, main_call0.v9.ref, main_call0.v10.ref, main_call0.v11.ref, main_call0.cst_3.ref, main_call0.v12.ref, main_call0.cst_4.ref, main_call0.call0.v0.ref,
   main_call0.call0.v1.ref, main_call0.call0.v2.ref, main_v23, main_v24, main_v25, main_v26, main_v27, main_v28,
   main_cst_4, main_v29, main_v30, main_v31, main_v32, main_v33, main_v34, main_v35,
   main_v36, main_v37, main_call1.cst.ref, main_call1.v0.ref, main_call1.v1.ref, main_v39, main_v40, main_v41,
   main_v42, main_cst_5, main_v43, main_cst_6, main_v44, main_v45, main_c_7, main_call2.cst.ref,
   main_call2.v0.ref, main_call2.v1.ref, main_call2.cst_0.ref, main_call2.v2.ref, main_call2.v3.ref, main_call2.v4.ref, main_call2.v5.ref, main_call2.v6.ref,
   main_call2.v7.ref, main_call2.cst_1.ref, main_call2.v8.ref, main_call2.cst_2.ref, main_call2.v9.ref, main_call2.v10.ref, main_call2.v11.ref, main_call2.cst_3.ref,
   main_call2.v12.ref, main_call2.cst_4.ref, main_call2.call0.v0.ref, main_call2.call0.v1.ref, main_call2.call0.v2.ref, main_v47, main_v48, main_v49]

set_option maxRecDepth 8192 in
/-- Each operation writes only a reference of that list (its own result). -/
theorem ops0_writes : (ops0 : List (HloOp τ sig (Elt F))).Forall fun op =>
    op.writes ⊆ (ops0_W.map (Proc.devRef (τ := τ) .tc)).toFinset :=
  ⟨singleton_devRef_sub main_v0 (by decide), singleton_devRef_sub main_v1 (by decide), singleton_devRef_sub main_v2 (by decide),
    singleton_devRef_sub main_v3 (by decide), singleton_devRef_sub main_c (by decide), singleton_devRef_sub main_v4 (by decide),
    singleton_devRef_sub main_v5 (by decide), singleton_devRef_sub main_c_0 (by decide), singleton_devRef_sub main_v6 (by decide),
    singleton_devRef_sub main_v7 (by decide), singleton_devRef_sub main_v8 (by decide), singleton_devRef_sub main_v9 (by decide),
    singleton_devRef_sub main_v10 (by decide), singleton_devRef_sub main_cst (by decide), singleton_devRef_sub main_v11 (by decide),
    singleton_devRef_sub main_v12 (by decide), singleton_devRef_sub main_v13 (by decide), singleton_devRef_sub main_v14 (by decide),
    singleton_devRef_sub main_v15 (by decide), singleton_devRef_sub main_v16 (by decide), singleton_devRef_sub main_v17 (by decide),
    singleton_devRef_sub main_v18 (by decide), singleton_devRef_sub main_cst_1 (by decide), singleton_devRef_sub main_v19 (by decide),
    singleton_devRef_sub main_cst_2 (by decide), singleton_devRef_sub main_v20 (by decide), singleton_devRef_sub main_v21 (by decide),
    singleton_devRef_sub main_c_3 (by decide), singleton_devRef_sub (main_call0.cst.ref) (by decide), singleton_devRef_sub (main_call0.v0.ref) (by decide),
    singleton_devRef_sub (main_call0.v1.ref) (by decide), singleton_devRef_sub (main_call0.cst_0.ref) (by decide), singleton_devRef_sub (main_call0.v2.ref) (by decide),
    singleton_devRef_sub (main_call0.v3.ref) (by decide), singleton_devRef_sub (main_call0.v4.ref) (by decide), singleton_devRef_sub (main_call0.v5.ref) (by decide),
    singleton_devRef_sub (main_call0.v6.ref) (by decide), singleton_devRef_sub (main_call0.v7.ref) (by decide), singleton_devRef_sub (main_call0.cst_1.ref) (by decide),
    singleton_devRef_sub (main_call0.v8.ref) (by decide), singleton_devRef_sub (main_call0.cst_2.ref) (by decide), singleton_devRef_sub (main_call0.v9.ref) (by decide),
    singleton_devRef_sub (main_call0.v10.ref) (by decide), singleton_devRef_sub (main_call0.v11.ref) (by decide), singleton_devRef_sub (main_call0.cst_3.ref) (by decide),
    singleton_devRef_sub (main_call0.v12.ref) (by decide), singleton_devRef_sub (main_call0.cst_4.ref) (by decide), singleton_devRef_sub (main_call0.call0.v0.ref) (by decide),
    singleton_devRef_sub (main_call0.call0.v1.ref) (by decide), singleton_devRef_sub (main_call0.call0.v2.ref) (by decide), singleton_devRef_sub main_v23 (by decide),
    singleton_devRef_sub main_v24 (by decide), singleton_devRef_sub main_v25 (by decide), singleton_devRef_sub main_v26 (by decide),
    singleton_devRef_sub main_v27 (by decide), singleton_devRef_sub main_v28 (by decide), singleton_devRef_sub main_cst_4 (by decide),
    singleton_devRef_sub main_v29 (by decide), singleton_devRef_sub main_v30 (by decide), singleton_devRef_sub main_v31 (by decide),
    singleton_devRef_sub main_v32 (by decide), singleton_devRef_sub main_v33 (by decide), singleton_devRef_sub main_v34 (by decide),
    singleton_devRef_sub main_v35 (by decide), singleton_devRef_sub main_v36 (by decide), singleton_devRef_sub main_v37 (by decide),
    singleton_devRef_sub (main_call1.cst.ref) (by decide), singleton_devRef_sub (main_call1.v0.ref) (by decide), singleton_devRef_sub (main_call1.v1.ref) (by decide),
    singleton_devRef_sub main_v39 (by decide), singleton_devRef_sub main_v40 (by decide), singleton_devRef_sub main_v41 (by decide),
    singleton_devRef_sub main_v42 (by decide), singleton_devRef_sub main_cst_5 (by decide), singleton_devRef_sub main_v43 (by decide),
    singleton_devRef_sub main_cst_6 (by decide), singleton_devRef_sub main_v44 (by decide), singleton_devRef_sub main_v45 (by decide),
    singleton_devRef_sub main_c_7 (by decide), singleton_devRef_sub (main_call2.cst.ref) (by decide), singleton_devRef_sub (main_call2.v0.ref) (by decide),
    singleton_devRef_sub (main_call2.v1.ref) (by decide), singleton_devRef_sub (main_call2.cst_0.ref) (by decide), singleton_devRef_sub (main_call2.v2.ref) (by decide),
    singleton_devRef_sub (main_call2.v3.ref) (by decide), singleton_devRef_sub (main_call2.v4.ref) (by decide), singleton_devRef_sub (main_call2.v5.ref) (by decide),
    singleton_devRef_sub (main_call2.v6.ref) (by decide), singleton_devRef_sub (main_call2.v7.ref) (by decide), singleton_devRef_sub (main_call2.cst_1.ref) (by decide),
    singleton_devRef_sub (main_call2.v8.ref) (by decide), singleton_devRef_sub (main_call2.cst_2.ref) (by decide), singleton_devRef_sub (main_call2.v9.ref) (by decide),
    singleton_devRef_sub (main_call2.v10.ref) (by decide), singleton_devRef_sub (main_call2.v11.ref) (by decide), singleton_devRef_sub (main_call2.cst_3.ref) (by decide),
    singleton_devRef_sub (main_call2.v12.ref) (by decide), singleton_devRef_sub (main_call2.cst_4.ref) (by decide), singleton_devRef_sub (main_call2.call0.v0.ref) (by decide),
    singleton_devRef_sub (main_call2.call0.v1.ref) (by decide), singleton_devRef_sub (main_call2.call0.v2.ref) (by decide), singleton_devRef_sub main_v47 (by decide),
    singleton_devRef_sub main_v48 (by decide), singleton_devRef_sub main_v49 (by decide)⟩

set_option maxRecDepth 8192 in
/-- Every operation determines its results: none allocates a buffer of unchosen contents. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl⟩

end Cert.ReferenceIdeal.RefRun

end
-- ==== Proof.RefOps1.lean ====
/- The reference's @main, statements of its window 1 as a straight line of host operations: the rest of the first layer's second normalisation and its rectifier, the second layer's gather and scatter-add, its first linear map with the column mean and variance, the normalisation, the rectifier, and the second linear map.
   A call of a module-local function stands as the callee's operations, in order, over that call's buffers
   (a typed reference per value of the callee's body); the window is that line by unfolding. -/
import proofs.«152416_j10892037062711_1_alg».proof.Proof.Gen.ReferenceIdeal
import Idealize.ShloMosaic.Lib.StableHlo.Run
import proofs.«152416_j10892037062711_1_alg».proof.Proof.RefKeep

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 105 … 189 of the 265, in program order. -/
abbrev ops1 : List (HloOp τ sig (Elt F)) :=
  [ unary main_arg9 main_v50 (broadcastInDim S1x64 ![1] bcast_S64_S1x64_1 : (⟨S64, .f32⟩ : BufTy).Contents (Elt F) → (⟨S1x64, .f32⟩ : BufTy).Contents (Elt F)),
    unary main_v50 main_v51 (broadcastInDim S100000x64 ![0, 1] bcast_S1x64_S100000x64_0_1 : (⟨S1x64, .f32⟩ : BufTy).Contents (Elt F) → (⟨S100000x64, .f32⟩ : BufTy).Contents (Elt F)),
    binary main_v51 main_v49 main_v52 (mulf : (⟨S100000x64, .f32⟩ : BufTy).Contents (Elt F) → (⟨S100000x64, .f32⟩ : BufTy).Contents (Elt F) → (⟨S100000x64, .f32⟩ : BufTy).Contents (Elt F)),
    nullary main_cst_8 (constant S_ .f32 0x3727C5AC#32),
    unary main_cst_8 main_v53 (broadcastInDim S64 ![] bcast_S_S64 : (⟨S_, .f32⟩ : BufTy).Contents (Elt F) → (⟨S64, .f32⟩ : BufTy).Contents (Elt F)),
    binary main_v46 main_v53 main_v54 (addf : (⟨S64, .f32⟩ : BufTy).Contents (Elt F) → (⟨S64, .f32⟩ : BufTy).Contents (Elt F) → (⟨S64, .f32⟩ : BufTy).Contents (Elt F)),
    unary main_v54 main_v55 (Host.rsqrt : (⟨S64, .f32⟩ : BufTy).Contents (Elt F) → (⟨S64, .f32⟩ : BufTy).Contents (Elt F)),
    unary main_v55 main_v56 (broadcastInDim S1x64 ![1] bcast_S64_S1x64_1 : (⟨S64, .f32⟩ : BufTy).Contents (Elt F) → (⟨S1x64, .f32⟩ : BufTy).Contents (Elt F)),
    unary main_v56 main_v57 (broadcastInDim S100000x64 ![0, 1] bcast_S1x64_S100000x64_0_1 : (⟨S1x64, .f32⟩ : BufTy).Contents (Elt F) → (⟨S100000x64, .f32⟩ : BufTy).Contents (Elt F)),
    binary main_v52 main_v57 main_v58 (mulf : (⟨S100000x64, .f32⟩ : BufTy).Contents (Elt F) → (⟨S100000x64, .f32⟩ : BufTy).Contents (Elt F) → (⟨S100000x64, .f32⟩ : BufTy).Contents (Elt F)),
    unary main_arg10 main_v59 (broadcastInDim S1x64 ![1] bcast_S64_S1x64_1 : (⟨S64, .f32⟩ : BufTy).Contents (Elt F) → (⟨S1x64, .f32⟩ : BufTy).Contents (Elt F)),
    unary main_v59 main_v60 (broadcastInDim S100000x64 ![0, 1] bcast_S1x64_S100000x64_0_1 : (⟨S1x64, .f32⟩ : BufTy).Contents (Elt F) → (⟨S100000x64, .f32⟩ : BufTy).Contents (Elt F)),
    binary main_v58 main_v60 main_v61 (addf : (⟨S100000x64, .f32⟩ : BufTy).Contents (Elt F) → (⟨S100000x64, .f32⟩ : BufTy).Contents (Elt F) → (⟨S100000x64, .f32⟩ : BufTy).Contents (Elt F)),
    TRef.nullary main_call3.cst (constant S_ .f32 0x00000000#32),
    TRef.unary main_call3.cst main_call3.v0 (broadcastInDim S100000x64 ![] bcast_S_S100000x64),
    TRef.binary (.of main_v61 : TRef sig ⟨S100000x64, .f32⟩) main_call3.v0 main_call3.v1 maximumf,
    nullary main_c_9 (constantI S_ 32 0#32),
    unary main_c_9 main_v63 (broadcastInDim S1600000 ![] bcast_S_S1600000 : (⟨S_, .i32⟩ : BufTy).Contents (Elt F) → (⟨S1600000, .i32⟩ : BufTy).Contents (Elt F)),
    binary main_v1 main_v63 main_v64 (cmpi .slt : (⟨S1600000, .i32⟩ : BufTy).Contents (Elt F) → (⟨S1600000, .i32⟩ : BufTy).Contents (Elt F) → (⟨S1600000, .i1⟩ : BufTy).Contents (Elt F)),
    nullary main_c_10 (constantI S_ 32 100000#32),
    unary main_c_10 main_v65 (broadcastInDim S1600000 ![] bcast_S_S1600000 : (⟨S_, .i32⟩ : BufTy).Contents (Elt F) → (⟨S1600000, .i32⟩ : BufTy).Contents (Elt F)),
    binary main_v1 main_v65 main_v66 (addi : (⟨S1600000, .i32⟩ : BufTy).Contents (Elt F) → (⟨S1600000, .i32⟩ : BufTy).Contents (Elt F) → (⟨S1600000, .i32⟩ : BufTy).Contents (Elt F)),
    ternary main_v64 main_v66 main_v1 main_v67 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v67 main_v68 (broadcastInDim S1600000x1 ![0] bcast_S1600000_S1600000x1_0 : (⟨S1600000, .i32⟩ : BufTy).Contents (Elt F) → (⟨S1600000x1, .i32⟩ : BufTy).Contents (Elt F)),
    binary main_v62 main_v68 main_v69 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_11 (constant S_ .f32 0x00000000#32),
    unary main_cst_11 main_v70 (broadcastInDim S100000x64 ![] bcast_S_S100000x64 : (⟨S_, .f32⟩ : BufTy).Contents (Elt F) → (⟨S100000x64, .f32⟩ : BufTy).Contents (Elt F)),
    unary main_v3 main_v71 (broadcastInDim S1600000x1 ![0] bcast_S1600000_S1600000x1_0 : (⟨S1600000, .i32⟩ : BufTy).Contents (Elt F) → (⟨S1600000x1, .i32⟩ : BufTy).Contents (Elt F)),
    ternary main_v70 main_v71 main_v69 main_v72 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v62 main_v72 main_v73 (addf : (⟨S100000x64, .f32⟩ : BufTy).Contents (Elt F) → (⟨S100000x64, .f32⟩ : BufTy).Contents (Elt F) → (⟨S100000x64, .f32⟩ : BufTy).Contents (Elt F)),
    binary main_v73 main_arg11 main_v74 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg12 main_v75 (broadcastInDim S1x64 ![1] bcast_S64_S1x64_1 : (⟨S64, .f32⟩ : BufTy).Contents (Elt F) → (⟨S1x64, .f32⟩ : BufTy).Contents (Elt F)),
    unary main_v75 main_v76 (broadcastInDim S100000x64 ![0, 1] bcast_S1x64_S100000x64_0_1 : (⟨S1x64, .f32⟩ : BufTy).Contents (Elt F) → (⟨S100000x64, .f32⟩ : BufTy).Contents (Elt F)),
    binary main_v74 main_v76 main_v77 (addf : (⟨S100000x64, .f32⟩ : BufTy).Contents (Elt F) → (⟨S100000x64, .f32⟩ : BufTy).Contents (Elt F) → (⟨S100000x64, .f32⟩ : BufTy).Contents (Elt F)),
    nullary main_cst_12 (constant S_ .f32 0x00000000#32),
    binary main_v77 main_cst_12 main_v78 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_13 (constant S_ .f32 0x47C35000#32),
    unary main_cst_13 main_v79 (broadcastInDim S64 ![] bcast_S_S64 : (⟨S_, .f32⟩ : BufTy).Contents (Elt F) → (⟨S64, .f32⟩ : BufTy).Contents (Elt F)),
    binary main_v78 main_v79 main_v80 (Host.divf : (⟨S64, .f32⟩ : BufTy).Contents (Elt F) → (⟨S64, .f32⟩ : BufTy).Contents (Elt F) → (⟨S64, .f32⟩ : BufTy).Contents (Elt F)),
    nullary main_c_14 (constantI S_ 32 0#32),
    TRef.nullary main_call4.cst (constant S_ .f32 0x00000000#32),
    TRef.binary (.of main_v77 : TRef sig ⟨S100000x64, .f32⟩) main_call4.cst main_call4.v0 (fun x v => Host.reduceAdd x v reducesTo_S100000x64_S64_d0 h_S_),
    TRef.unary main_call4.v0 main_call4.v1 (broadcastInDim S1x64 ![1] bcast_S64_S1x64_1),
    TRef.nullary main_call4.cst_0 (constant S_ .f32 0x47C35000#32),
    TRef.unary main_call4.cst_0 main_call4.v2 (broadcastInDim S1x64 ![] bcast_S_S1x64),
    TRef.binary main_call4.v1 main_call4.v2 main_call4.v3 Host.divf,
    TRef.unary main_call4.v3 main_call4.v4 (broadcastInDim S100000x64 ![0, 1] bcast_S1x64_S100000x64_0_1),
    TRef.binary (.of main_v77 : TRef sig ⟨S100000x64, .f32⟩) main_call4.v4 main_call4.v5 subf,
    TRef.binary main_call4.v5 main_call4.v5 main_call4.v6 mulf,
    TRef.unary (.of main_c_14 : TRef sig ⟨S_, .i32⟩) main_call4.v7 (sitofp .f32),
    TRef.nullary main_call4.cst_1 (constant S_ .f32 0x47C35000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S100000x64_S64_d0 h_S_),
    TRef.unary main_call4.v8 main_call4.v10 (broadcastInDim S64 ![] bcast_S_S64),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S64 ![] bcast_S_S64),
    TRef.ternary main_call4.v12 main_call4.v11 main_call4.call0.v1 main_call4.call0.v2 (fun p a b => select (broadcastInDim S64 ![] bcast_S_S64 p) a b),
    unary main_v80 main_v82 (broadcastInDim S1x64 ![1] bcast_S64_S1x64_1 : (⟨S64, .f32⟩ : BufTy).Contents (Elt F) → (⟨S1x64, .f32⟩ : BufTy).Contents (Elt F)),
    unary main_v82 main_v83 (broadcastInDim S100000x64 ![0, 1] bcast_S1x64_S100000x64_0_1 : (⟨S1x64, .f32⟩ : BufTy).Contents (Elt F) → (⟨S100000x64, .f32⟩ : BufTy).Contents (Elt F)),
    binary main_v77 main_v83 main_v84 (subf : (⟨S100000x64, .f32⟩ : BufTy).Contents (Elt F) → (⟨S100000x64, .f32⟩ : BufTy).Contents (Elt F) → (⟨S100000x64, .f32⟩ : BufTy).Contents (Elt F)),
    unary main_arg13 main_v85 (broadcastInDim S1x64 ![1] bcast_S64_S1x64_1 : (⟨S64, .f32⟩ : BufTy).Contents (Elt F) → (⟨S1x64, .f32⟩ : BufTy).Contents (Elt F)),
    unary main_v85 main_v86 (broadcastInDim S100000x64 ![0, 1] bcast_S1x64_S100000x64_0_1 : (⟨S1x64, .f32⟩ : BufTy).Contents (Elt F) → (⟨S100000x64, .f32⟩ : BufTy).Contents (Elt F)),
    binary main_v86 main_v84 main_v87 (mulf : (⟨S100000x64, .f32⟩ : BufTy).Contents (Elt F) → (⟨S100000x64, .f32⟩ : BufTy).Contents (Elt F) → (⟨S100000x64, .f32⟩ : BufTy).Contents (Elt F)),
    nullary main_cst_15 (constant S_ .f32 0x3727C5AC#32),
    unary main_cst_15 main_v88 (broadcastInDim S64 ![] bcast_S_S64 : (⟨S_, .f32⟩ : BufTy).Contents (Elt F) → (⟨S64, .f32⟩ : BufTy).Contents (Elt F)),
    binary main_v81 main_v88 main_v89 (addf : (⟨S64, .f32⟩ : BufTy).Contents (Elt F) → (⟨S64, .f32⟩ : BufTy).Contents (Elt F) → (⟨S64, .f32⟩ : BufTy).Contents (Elt F)),
    unary main_v89 main_v90 (Host.rsqrt : (⟨S64, .f32⟩ : BufTy).Contents (Elt F) → (⟨S64, .f32⟩ : BufTy).Contents (Elt F)),
    unary main_v90 main_v91 (broadcastInDim S1x64 ![1] bcast_S64_S1x64_1 : (⟨S64, .f32⟩ : BufTy).Contents (Elt F) → (⟨S1x64, .f32⟩ : BufTy).Contents (Elt F)),
    unary main_v91 main_v92 (broadcastInDim S100000x64 ![0, 1] bcast_S1x64_S100000x64_0_1 : (⟨S1x64, .f32⟩ : BufTy).Contents (Elt F) → (⟨S100000x64, .f32⟩ : BufTy).Contents (Elt F)),
    binary main_v87 main_v92 main_v93 (mulf : (⟨S100000x64, .f32⟩ : BufTy).Contents (Elt F) → (⟨S100000x64, .f32⟩ : BufTy).Contents (Elt F) → (⟨S100000x64, .f32⟩ : BufTy).Contents (Elt F)),
    unary main_arg14 main_v94 (broadcastInDim S1x64 ![1] bcast_S64_S1x64_1 : (⟨S64, .f32⟩ : BufTy).Contents (Elt F) → (⟨S1x64, .f32⟩ : BufTy).Contents (Elt F)),
    unary main_v94 main_v95 (broadcastInDim S100000x64 ![0, 1] bcast_S1x64_S100000x64_0_1 : (⟨S1x64, .f32⟩ : BufTy).Contents (Elt F) → (⟨S100000x64, .f32⟩ : BufTy).Contents (Elt F)),
    binary main_v93 main_v95 main_v96 (addf : (⟨S100000x64, .f32⟩ : BufTy).Contents (Elt F) → (⟨S100000x64, .f32⟩ : BufTy).Contents (Elt F) → (⟨S100000x64, .f32⟩ : BufTy).Contents (Elt F)),
    TRef.nullary main_call5.cst (constant S_ .f32 0x00000000#32),
    TRef.unary main_call5.cst main_call5.v0 (broadcastInDim S100000x64 ![] bcast_S_S100000x64),
    TRef.binary (.of main_v96 : TRef sig ⟨S100000x64, .f32⟩) main_call5.v0 main_call5.v1 maximumf,
    binary main_v97 main_arg15 main_v98 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg16 main_v99 (broadcastInDim S1x64 ![1] bcast_S64_S1x64_1 : (⟨S64, .f32⟩ : BufTy).Contents (Elt F) → (⟨S1x64, .f32⟩ : BufTy).Contents (Elt F)),
    unary main_v99 main_v100 (broadcastInDim S100000x64 ![0, 1] bcast_S1x64_S100000x64_0_1 : (⟨S1x64, .f32⟩ : BufTy).Contents (Elt F) → (⟨S100000x64, .f32⟩ : BufTy).Contents (Elt F)),
    binary main_v98 main_v100 main_v101 (addf : (⟨S100000x64, .f32⟩ : BufTy).Contents (Elt F) → (⟨S100000x64, .f32⟩ : BufTy).Contents (Elt F) → (⟨S100000x64, .f32⟩ : BufTy).Contents (Elt F)) ]

set_option maxRecDepth 8192 in
/-- The window is that line: the called functions unfolded at their calls, both sides are one chain of
    operation steps once sequencing is reassociated. -/
theorem main_part1_eq (c : Dev nD) : main_part1 (F := F) c = seq ops1 := by
  simp only [main_part1, fn_var.body, fn_where.body, fn_relu.body, seq, bind_assoc, pure_bind]
  all_goals rfl

set_option maxRecDepth 8192 in
/-- Every operation of the line touches TensorCore references only. -/
theorem ops1_sub : (ops1 : List (HloOp τ sig (Elt F))).Forall fun op => op.bufs ⊆ tcRefs τ sig :=
  ⟨unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., binary_bufs_sub ..,
    binary_bufs_sub .., unary_bufs_sub .., unary_bufs_sub .., binary_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub ..⟩

/-- The references the line's operations write, in order: each operation's result, and nothing else. -/
abbrev ops1_W : List (Ref sig .tc) :=
  [main_v50, main_v51, main_v52, main_cst_8, main_v53, main_v54, main_v55, main_v56,
   main_v57, main_v58, main_v59, main_v60, main_v61, main_call3.cst.ref, main_call3.v0.ref, main_call3.v1.ref,
   main_c_9, main_v63, main_v64, main_c_10, main_v65, main_v66, main_v67, main_v68,
   main_v69, main_cst_11, main_v70, main_v71, main_v72, main_v73, main_v74, main_v75,
   main_v76, main_v77, main_cst_12, main_v78, main_cst_13, main_v79, main_v80, main_c_14,
   main_call4.cst.ref, main_call4.v0.ref, main_call4.v1.ref, main_call4.cst_0.ref, main_call4.v2.ref, main_call4.v3.ref, main_call4.v4.ref, main_call4.v5.ref,
   main_call4.v6.ref, main_call4.v7.ref, main_call4.cst_1.ref, main_call4.v8.ref, main_call4.cst_2.ref, main_call4.v9.ref, main_call4.v10.ref, main_call4.v11.ref,
   main_call4.cst_3.ref, main_call4.v12.ref, main_call4.cst_4.ref, main_call4.call0.v0.ref, main_call4.call0.v1.ref, main_call4.call0.v2.ref, main_v82, main_v83,
   main_v84, main_v85, main_v86, main_v87, main_cst_15, main_v88, main_v89, main_v90,
   main_v91, main_v92, main_v93, main_v94, main_v95, main_v96, main_call5.cst.ref, main_call5.v0.ref,
   main_call5.v1.ref, main_v98, main_v99, main_v100, main_v101]

set_option maxRecDepth 8192 in
/-- Each operation writes only a reference of that list (its own result). -/
theorem ops1_writes : (ops1 : List (HloOp τ sig (Elt F))).Forall fun op =>
    op.writes ⊆ (ops1_W.map (Proc.devRef (τ := τ) .tc)).toFinset :=
  ⟨singleton_devRef_sub main_v50 (by decide), singleton_devRef_sub main_v51 (by decide), singleton_devRef_sub main_v52 (by decide),
    singleton_devRef_sub main_cst_8 (by decide), singleton_devRef_sub main_v53 (by decide), singleton_devRef_sub main_v54 (by decide),
    singleton_devRef_sub main_v55 (by decide), singleton_devRef_sub main_v56 (by decide), singleton_devRef_sub main_v57 (by decide),
    singleton_devRef_sub main_v58 (by decide), singleton_devRef_sub main_v59 (by decide), singleton_devRef_sub main_v60 (by decide),
    singleton_devRef_sub main_v61 (by decide), singleton_devRef_sub (main_call3.cst.ref) (by decide), singleton_devRef_sub (main_call3.v0.ref) (by decide),
    singleton_devRef_sub (main_call3.v1.ref) (by decide), singleton_devRef_sub main_c_9 (by decide), singleton_devRef_sub main_v63 (by decide),
    singleton_devRef_sub main_v64 (by decide), singleton_devRef_sub main_c_10 (by decide), singleton_devRef_sub main_v65 (by decide),
    singleton_devRef_sub main_v66 (by decide), singleton_devRef_sub main_v67 (by decide), singleton_devRef_sub main_v68 (by decide),
    singleton_devRef_sub main_v69 (by decide), singleton_devRef_sub main_cst_11 (by decide), singleton_devRef_sub main_v70 (by decide),
    singleton_devRef_sub main_v71 (by decide), singleton_devRef_sub main_v72 (by decide), singleton_devRef_sub main_v73 (by decide),
    singleton_devRef_sub main_v74 (by decide), singleton_devRef_sub main_v75 (by decide), singleton_devRef_sub main_v76 (by decide),
    singleton_devRef_sub main_v77 (by decide), singleton_devRef_sub main_cst_12 (by decide), singleton_devRef_sub main_v78 (by decide),
    singleton_devRef_sub main_cst_13 (by decide), singleton_devRef_sub main_v79 (by decide), singleton_devRef_sub main_v80 (by decide),
    singleton_devRef_sub main_c_14 (by decide), singleton_devRef_sub (main_call4.cst.ref) (by decide), singleton_devRef_sub (main_call4.v0.ref) (by decide),
    singleton_devRef_sub (main_call4.v1.ref) (by decide), singleton_devRef_sub (main_call4.cst_0.ref) (by decide), singleton_devRef_sub (main_call4.v2.ref) (by decide),
    singleton_devRef_sub (main_call4.v3.ref) (by decide), singleton_devRef_sub (main_call4.v4.ref) (by decide), singleton_devRef_sub (main_call4.v5.ref) (by decide),
    singleton_devRef_sub (main_call4.v6.ref) (by decide), singleton_devRef_sub (main_call4.v7.ref) (by decide), singleton_devRef_sub (main_call4.cst_1.ref) (by decide),
    singleton_devRef_sub (main_call4.v8.ref) (by decide), singleton_devRef_sub (main_call4.cst_2.ref) (by decide), singleton_devRef_sub (main_call4.v9.ref) (by decide),
    singleton_devRef_sub (main_call4.v10.ref) (by decide), singleton_devRef_sub (main_call4.v11.ref) (by decide), singleton_devRef_sub (main_call4.cst_3.ref) (by decide),
    singleton_devRef_sub (main_call4.v12.ref) (by decide), singleton_devRef_sub (main_call4.cst_4.ref) (by decide), singleton_devRef_sub (main_call4.call0.v0.ref) (by decide),
    singleton_devRef_sub (main_call4.call0.v1.ref) (by decide), singleton_devRef_sub (main_call4.call0.v2.ref) (by decide), singleton_devRef_sub main_v82 (by decide),
    singleton_devRef_sub main_v83 (by decide), singleton_devRef_sub main_v84 (by decide), singleton_devRef_sub main_v85 (by decide),
    singleton_devRef_sub main_v86 (by decide), singleton_devRef_sub main_v87 (by decide), singleton_devRef_sub main_cst_15 (by decide),
    singleton_devRef_sub main_v88 (by decide), singleton_devRef_sub main_v89 (by decide), singleton_devRef_sub main_v90 (by decide),
    singleton_devRef_sub main_v91 (by decide), singleton_devRef_sub main_v92 (by decide), singleton_devRef_sub main_v93 (by decide),
    singleton_devRef_sub main_v94 (by decide), singleton_devRef_sub main_v95 (by decide), singleton_devRef_sub main_v96 (by decide),
    singleton_devRef_sub (main_call5.cst.ref) (by decide), singleton_devRef_sub (main_call5.v0.ref) (by decide), singleton_devRef_sub (main_call5.v1.ref) (by decide),
    singleton_devRef_sub main_v98 (by decide), singleton_devRef_sub main_v99 (by decide), singleton_devRef_sub main_v100 (by decide),
    singleton_devRef_sub main_v101 (by decide)⟩

set_option maxRecDepth 8192 in
/-- Every operation determines its results: none allocates a buffer of unchosen contents. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl⟩

end Cert.ReferenceIdeal.RefRun

end
-- ==== Proof.RefOps2.lean ====
/- The reference's @main, statements of its window 2 as a straight line of host operations: the second layer's last column mean and variance, the normalisation and the rectifier, then the three segment sums by graph and the three read-out products with their biases, summed.
   A call of a module-local function stands as the callee's operations, in order, over that call's buffers
   (a typed reference per value of the callee's body); the window is that line by unfolding. -/
import proofs.«152416_j10892037062711_1_alg».proof.Proof.Gen.ReferenceIdeal
import Idealize.ShloMosaic.Lib.StableHlo.Run
import proofs.«152416_j10892037062711_1_alg».proof.Proof.RefKeep

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 190 … 265 of the 265, in program order. -/
abbrev ops2 : List (HloOp τ sig (Elt F)) :=
  [ nullary main_cst_16 (constant S_ .f32 0x00000000#32),
    binary main_v101 main_cst_16 main_v102 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_17 (constant S_ .f32 0x47C35000#32),
    unary main_cst_17 main_v103 (broadcastInDim S64 ![] bcast_S_S64 : (⟨S_, .f32⟩ : BufTy).Contents (Elt F) → (⟨S64, .f32⟩ : BufTy).Contents (Elt F)),
    binary main_v102 main_v103 main_v104 (Host.divf : (⟨S64, .f32⟩ : BufTy).Contents (Elt F) → (⟨S64, .f32⟩ : BufTy).Contents (Elt F) → (⟨S64, .f32⟩ : BufTy).Contents (Elt F)),
    nullary main_c_18 (constantI S_ 32 0#32),
    TRef.nullary main_call6.cst (constant S_ .f32 0x00000000#32),
    TRef.binary (.of main_v101 : TRef sig ⟨S100000x64, .f32⟩) main_call6.cst main_call6.v0 (fun x v => Host.reduceAdd x v reducesTo_S100000x64_S64_d0 h_S_),
    TRef.unary main_call6.v0 main_call6.v1 (broadcastInDim S1x64 ![1] bcast_S64_S1x64_1),
    TRef.nullary main_call6.cst_0 (constant S_ .f32 0x47C35000#32),
    TRef.unary main_call6.cst_0 main_call6.v2 (broadcastInDim S1x64 ![] bcast_S_S1x64),
    TRef.binary main_call6.v1 main_call6.v2 main_call6.v3 Host.divf,
    TRef.unary main_call6.v3 main_call6.v4 (broadcastInDim S100000x64 ![0, 1] bcast_S1x64_S100000x64_0_1),
    TRef.binary (.of main_v101 : TRef sig ⟨S100000x64, .f32⟩) main_call6.v4 main_call6.v5 subf,
    TRef.binary main_call6.v5 main_call6.v5 main_call6.v6 mulf,
    TRef.unary (.of main_c_18 : TRef sig ⟨S_, .i32⟩) main_call6.v7 (sitofp .f32),
    TRef.nullary main_call6.cst_1 (constant S_ .f32 0x47C35000#32),
    TRef.binary main_call6.cst_1 main_call6.v7 main_call6.v8 subf,
    TRef.nullary main_call6.cst_2 (constant S_ .f32 0x00000000#32),
    TRef.binary main_call6.v6 main_call6.cst_2 main_call6.v9 (fun x v => Host.reduceAdd x v reducesTo_S100000x64_S64_d0 h_S_),
    TRef.unary main_call6.v8 main_call6.v10 (broadcastInDim S64 ![] bcast_S_S64),
    TRef.binary main_call6.v9 main_call6.v10 main_call6.v11 Host.divf,
    TRef.nullary main_call6.cst_3 (constant S_ .f32 0x00000000#32),
    TRef.binary main_call6.v8 main_call6.cst_3 main_call6.v12 (cmpf .ogt),
    TRef.nullary main_call6.cst_4 (constant S_ .f32 0x7FC00000#32),
    TRef.unary main_call6.cst_4 main_call6.call0.v0 id,
    TRef.unary main_call6.call0.v0 main_call6.call0.v1 (broadcastInDim S64 ![] bcast_S_S64),
    TRef.ternary main_call6.v12 main_call6.v11 main_call6.call0.v1 main_call6.call0.v2 (fun p a b => select (broadcastInDim S64 ![] bcast_S_S64 p) a b),
    unary main_v104 main_v106 (broadcastInDim S1x64 ![1] bcast_S64_S1x64_1 : (⟨S64, .f32⟩ : BufTy).Contents (Elt F) → (⟨S1x64, .f32⟩ : BufTy).Contents (Elt F)),
    unary main_v106 main_v107 (broadcastInDim S100000x64 ![0, 1] bcast_S1x64_S100000x64_0_1 : (⟨S1x64, .f32⟩ : BufTy).Contents (Elt F) → (⟨S100000x64, .f32⟩ : BufTy).Contents (Elt F)),
    binary main_v101 main_v107 main_v108 (subf : (⟨S100000x64, .f32⟩ : BufTy).Contents (Elt F) → (⟨S100000x64, .f32⟩ : BufTy).Contents (Elt F) → (⟨S100000x64, .f32⟩ : BufTy).Contents (Elt F)),
    unary main_arg17 main_v109 (broadcastInDim S1x64 ![1] bcast_S64_S1x64_1 : (⟨S64, .f32⟩ : BufTy).Contents (Elt F) → (⟨S1x64, .f32⟩ : BufTy).Contents (Elt F)),
    unary main_v109 main_v110 (broadcastInDim S100000x64 ![0, 1] bcast_S1x64_S100000x64_0_1 : (⟨S1x64, .f32⟩ : BufTy).Contents (Elt F) → (⟨S100000x64, .f32⟩ : BufTy).Contents (Elt F)),
    binary main_v110 main_v108 main_v111 (mulf : (⟨S100000x64, .f32⟩ : BufTy).Contents (Elt F) → (⟨S100000x64, .f32⟩ : BufTy).Contents (Elt F) → (⟨S100000x64, .f32⟩ : BufTy).Contents (Elt F)),
    nullary main_cst_19 (constant S_ .f32 0x3727C5AC#32),
    unary main_cst_19 main_v112 (broadcastInDim S64 ![] bcast_S_S64 : (⟨S_, .f32⟩ : BufTy).Contents (Elt F) → (⟨S64, .f32⟩ : BufTy).Contents (Elt F)),
    binary main_v105 main_v112 main_v113 (addf : (⟨S64, .f32⟩ : BufTy).Contents (Elt F) → (⟨S64, .f32⟩ : BufTy).Contents (Elt F) → (⟨S64, .f32⟩ : BufTy).Contents (Elt F)),
    unary main_v113 main_v114 (Host.rsqrt : (⟨S64, .f32⟩ : BufTy).Contents (Elt F) → (⟨S64, .f32⟩ : BufTy).Contents (Elt F)),
    unary main_v114 main_v115 (broadcastInDim S1x64 ![1] bcast_S64_S1x64_1 : (⟨S64, .f32⟩ : BufTy).Contents (Elt F) → (⟨S1x64, .f32⟩ : BufTy).Contents (Elt F)),
    unary main_v115 main_v116 (broadcastInDim S100000x64 ![0, 1] bcast_S1x64_S100000x64_0_1 : (⟨S1x64, .f32⟩ : BufTy).Contents (Elt F) → (⟨S100000x64, .f32⟩ : BufTy).Contents (Elt F)),
    binary main_v111 main_v116 main_v117 (mulf : (⟨S100000x64, .f32⟩ : BufTy).Contents (Elt F) → (⟨S100000x64, .f32⟩ : BufTy).Contents (Elt F) → (⟨S100000x64, .f32⟩ : BufTy).Contents (Elt F)),
    unary main_arg18 main_v118 (broadcastInDim S1x64 ![1] bcast_S64_S1x64_1 : (⟨S64, .f32⟩ : BufTy).Contents (Elt F) → (⟨S1x64, .f32⟩ : BufTy).Contents (Elt F)),
    unary main_v118 main_v119 (broadcastInDim S100000x64 ![0, 1] bcast_S1x64_S100000x64_0_1 : (⟨S1x64, .f32⟩ : BufTy).Contents (Elt F) → (⟨S100000x64, .f32⟩ : BufTy).Contents (Elt F)),
    binary main_v117 main_v119 main_v120 (addf : (⟨S100000x64, .f32⟩ : BufTy).Contents (Elt F) → (⟨S100000x64, .f32⟩ : BufTy).Contents (Elt F) → (⟨S100000x64, .f32⟩ : BufTy).Contents (Elt F)),
    TRef.nullary main_call7.cst (constant S_ .f32 0x00000000#32),
    TRef.unary main_call7.cst main_call7.v0 (broadcastInDim S100000x64 ![] bcast_S_S100000x64),
    TRef.binary (.of main_v120 : TRef sig ⟨S100000x64, .f32⟩) main_call7.v0 main_call7.v1 maximumf,
    nullary main_cst_20 (constant S_ .f32 0x00000000#32),
    unary main_cst_20 main_v122 (broadcastInDim S1000x10 ![] bcast_S_S1000x10 : (⟨S_, .f32⟩ : BufTy).Contents (Elt F) → (⟨S1000x10, .f32⟩ : BufTy).Contents (Elt F)),
    nullary main_cst_21 (constant S_ .f32 0x00000000#32),
    unary main_cst_21 main_v123 (broadcastInDim S1000x64 ![] bcast_S_S1000x64 : (⟨S_, .f32⟩ : BufTy).Contents (Elt F) → (⟨S1000x64, .f32⟩ : BufTy).Contents (Elt F)),
    unary main_arg2 main_v124 (broadcastInDim S100000x1 ![0] bcast_S100000_S100000x1_0 : (⟨S100000, .i32⟩ : BufTy).Contents (Elt F) → (⟨S100000x1, .i32⟩ : BufTy).Contents (Elt F)),
    ternary main_v123 main_v124 main_arg0 main_v125 ((fun x i u => Host.scatterAdd scatter_S1000x64_S100000x1_S100000x64_1_0_0_1 x i u) : (⟨S1000x64, .f32⟩ : BufTy).Contents (Elt F) → (⟨S100000x1, .i32⟩ : BufTy).Contents (Elt F) → (⟨S100000x64, .f32⟩ : BufTy).Contents (Elt F) → (⟨S1000x64, .f32⟩ : BufTy).Contents (Elt F)),
    binary main_v125 main_arg19 main_v126 ((fun l r => Host.dotGeneral dot_S1000x64_S64x10_S1000x10_1_0_0_1_n_n none l r) : (⟨S1000x64, .f32⟩ : BufTy).Contents (Elt F) → (⟨S64x10, .f32⟩ : BufTy).Contents (Elt F) → (⟨S1000x10, .f32⟩ : BufTy).Contents (Elt F)),
    binary main_v122 main_v126 main_v127 (addf : (⟨S1000x10, .f32⟩ : BufTy).Contents (Elt F) → (⟨S1000x10, .f32⟩ : BufTy).Contents (Elt F) → (⟨S1000x10, .f32⟩ : BufTy).Contents (Elt F)),
    unary main_arg20 main_v128 (broadcastInDim S1x10 ![1] bcast_S10_S1x10_1 : (⟨S10, .f32⟩ : BufTy).Contents (Elt F) → (⟨S1x10, .f32⟩ : BufTy).Contents (Elt F)),
    unary main_v128 main_v129 (broadcastInDim S1000x10 ![0, 1] bcast_S1x10_S1000x10_0_1 : (⟨S1x10, .f32⟩ : BufTy).Contents (Elt F) → (⟨S1000x10, .f32⟩ : BufTy).Contents (Elt F)),
    binary main_v127 main_v129 main_v130 (addf : (⟨S1000x10, .f32⟩ : BufTy).Contents (Elt F) → (⟨S1000x10, .f32⟩ : BufTy).Contents (Elt F) → (⟨S1000x10, .f32⟩ : BufTy).Contents (Elt F)),
    nullary main_cst_22 (constant S_ .f32 0x00000000#32),
    unary main_cst_22 main_v131 (broadcastInDim S1000x64 ![] bcast_S_S1000x64 : (⟨S_, .f32⟩ : BufTy).Contents (Elt F) → (⟨S1000x64, .f32⟩ : BufTy).Contents (Elt F)),
    unary main_arg2 main_v132 (broadcastInDim S100000x1 ![0] bcast_S100000_S100000x1_0 : (⟨S100000, .i32⟩ : BufTy).Contents (Elt F) → (⟨S100000x1, .i32⟩ : BufTy).Contents (Elt F)),
    ternary main_v131 main_v132 main_v62 main_v133 ((fun x i u => Host.scatterAdd scatter_S1000x64_S100000x1_S100000x64_1_0_0_1 x i u) : (⟨S1000x64, .f32⟩ : BufTy).Contents (Elt F) → (⟨S100000x1, .i32⟩ : BufTy).Contents (Elt F) → (⟨S100000x64, .f32⟩ : BufTy).Contents (Elt F) → (⟨S1000x64, .f32⟩ : BufTy).Contents (Elt F)),
    binary main_v133 main_arg21 main_v134 ((fun l r => Host.dotGeneral dot_S1000x64_S64x10_S1000x10_1_0_0_1_n_n none l r) : (⟨S1000x64, .f32⟩ : BufTy).Contents (Elt F) → (⟨S64x10, .f32⟩ : BufTy).Contents (Elt F) → (⟨S1000x10, .f32⟩ : BufTy).Contents (Elt F)),
    binary main_v130 main_v134 main_v135 (addf : (⟨S1000x10, .f32⟩ : BufTy).Contents (Elt F) → (⟨S1000x10, .f32⟩ : BufTy).Contents (Elt F) → (⟨S1000x10, .f32⟩ : BufTy).Contents (Elt F)),
    unary main_arg22 main_v136 (broadcastInDim S1x10 ![1] bcast_S10_S1x10_1 : (⟨S10, .f32⟩ : BufTy).Contents (Elt F) → (⟨S1x10, .f32⟩ : BufTy).Contents (Elt F)),
    unary main_v136 main_v137 (broadcastInDim S1000x10 ![0, 1] bcast_S1x10_S1000x10_0_1 : (⟨S1x10, .f32⟩ : BufTy).Contents (Elt F) → (⟨S1000x10, .f32⟩ : BufTy).Contents (Elt F)),
    binary main_v135 main_v137 main_v138 (addf : (⟨S1000x10, .f32⟩ : BufTy).Contents (Elt F) → (⟨S1000x10, .f32⟩ : BufTy).Contents (Elt F) → (⟨S1000x10, .f32⟩ : BufTy).Contents (Elt F)),
    nullary main_cst_23 (constant S_ .f32 0x00000000#32),
    unary main_cst_23 main_v139 (broadcastInDim S1000x64 ![] bcast_S_S1000x64 : (⟨S_, .f32⟩ : BufTy).Contents (Elt F) → (⟨S1000x64, .f32⟩ : BufTy).Contents (Elt F)),
    unary main_arg2 main_v140 (broadcastInDim S100000x1 ![0] bcast_S100000_S100000x1_0 : (⟨S100000, .i32⟩ : BufTy).Contents (Elt F) → (⟨S100000x1, .i32⟩ : BufTy).Contents (Elt F)),
    ternary main_v139 main_v140 main_v121 main_v141 ((fun x i u => Host.scatterAdd scatter_S1000x64_S100000x1_S100000x64_1_0_0_1 x i u) : (⟨S1000x64, .f32⟩ : BufTy).Contents (Elt F) → (⟨S100000x1, .i32⟩ : BufTy).Contents (Elt F) → (⟨S100000x64, .f32⟩ : BufTy).Contents (Elt F) → (⟨S1000x64, .f32⟩ : BufTy).Contents (Elt F)),
    binary main_v141 main_arg23 main_v142 ((fun l r => Host.dotGeneral dot_S1000x64_S64x10_S1000x10_1_0_0_1_n_n none l r) : (⟨S1000x64, .f32⟩ : BufTy).Contents (Elt F) → (⟨S64x10, .f32⟩ : BufTy).Contents (Elt F) → (⟨S1000x10, .f32⟩ : BufTy).Contents (Elt F)),
    binary main_v138 main_v142 main_v143 (addf : (⟨S1000x10, .f32⟩ : BufTy).Contents (Elt F) → (⟨S1000x10, .f32⟩ : BufTy).Contents (Elt F) → (⟨S1000x10, .f32⟩ : BufTy).Contents (Elt F)),
    unary main_arg24 main_v144 (broadcastInDim S1x10 ![1] bcast_S10_S1x10_1 : (⟨S10, .f32⟩ : BufTy).Contents (Elt F) → (⟨S1x10, .f32⟩ : BufTy).Contents (Elt F)),
    unary main_v144 main_v145 (broadcastInDim S1000x10 ![0, 1] bcast_S1x10_S1000x10_0_1 : (⟨S1x10, .f32⟩ : BufTy).Contents (Elt F) → (⟨S1000x10, .f32⟩ : BufTy).Contents (Elt F)),
    binary main_v143 main_v145 main_v146 (addf : (⟨S1000x10, .f32⟩ : BufTy).Contents (Elt F) → (⟨S1000x10, .f32⟩ : BufTy).Contents (Elt F) → (⟨S1000x10, .f32⟩ : BufTy).Contents (Elt F)) ]

set_option maxRecDepth 8192 in
/-- The window is that line: the called functions unfolded at their calls, both sides are one chain of
    operation steps once sequencing is reassociated. -/
theorem main_part2_eq (c : Dev nD) : main_part2 (F := F) c = seq ops2 := by
  simp only [main_part2, fn_var.body, fn_where.body, fn_relu.body, seq, bind_assoc, pure_bind]
  all_goals rfl

set_option maxRecDepth 8192 in
/-- Every operation of the line touches TensorCore references only. -/
theorem ops2_sub : (ops2 : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    unary_bufs_sub .., binary_bufs_sub .., nullary_bufs_sub .., unary_bufs_sub .., binary_bufs_sub .., nullary_bufs_sub ..,
    unary_bufs_sub .., nullary_bufs_sub .., unary_bufs_sub .., unary_bufs_sub .., ternary_bufs_sub .., binary_bufs_sub ..,
    binary_bufs_sub .., unary_bufs_sub .., unary_bufs_sub .., binary_bufs_sub .., nullary_bufs_sub .., unary_bufs_sub ..,
    unary_bufs_sub .., ternary_bufs_sub .., binary_bufs_sub .., binary_bufs_sub .., unary_bufs_sub .., unary_bufs_sub ..,
    binary_bufs_sub .., nullary_bufs_sub .., unary_bufs_sub .., unary_bufs_sub .., ternary_bufs_sub .., binary_bufs_sub ..,
    binary_bufs_sub .., unary_bufs_sub .., unary_bufs_sub .., binary_bufs_sub ..⟩

/-- The references the line's operations write, in order: each operation's result, and nothing else. -/
abbrev ops2_W : List (Ref sig .tc) :=
  [main_cst_16, main_v102, main_cst_17, main_v103, main_v104, main_c_18, main_call6.cst.ref, main_call6.v0.ref,
   main_call6.v1.ref, main_call6.cst_0.ref, main_call6.v2.ref, main_call6.v3.ref, main_call6.v4.ref, main_call6.v5.ref, main_call6.v6.ref, main_call6.v7.ref,
   main_call6.cst_1.ref, main_call6.v8.ref, main_call6.cst_2.ref, main_call6.v9.ref, main_call6.v10.ref, main_call6.v11.ref, main_call6.cst_3.ref, main_call6.v12.ref,
   main_call6.cst_4.ref, main_call6.call0.v0.ref, main_call6.call0.v1.ref, main_call6.call0.v2.ref, main_v106, main_v107, main_v108, main_v109,
   main_v110, main_v111, main_cst_19, main_v112, main_v113, main_v114, main_v115, main_v116,
   main_v117, main_v118, main_v119, main_v120, main_call7.cst.ref, main_call7.v0.ref, main_call7.v1.ref, main_cst_20,
   main_v122, main_cst_21, main_v123, main_v124, main_v125, main_v126, main_v127, main_v128,
   main_v129, main_v130, main_cst_22, main_v131, main_v132, main_v133, main_v134, main_v135,
   main_v136, main_v137, main_v138, main_cst_23, main_v139, main_v140, main_v141, main_v142,
   main_v143, main_v144, main_v145, main_v146]

set_option maxRecDepth 8192 in
/-- Each operation writes only a reference of that list (its own result). -/
theorem ops2_writes : (ops2 : List (HloOp τ sig (Elt F))).Forall fun op =>
    op.writes ⊆ (ops2_W.map (Proc.devRef (τ := τ) .tc)).toFinset :=
  ⟨singleton_devRef_sub main_cst_16 (by decide), singleton_devRef_sub main_v102 (by decide), singleton_devRef_sub main_cst_17 (by decide),
    singleton_devRef_sub main_v103 (by decide), singleton_devRef_sub main_v104 (by decide), singleton_devRef_sub main_c_18 (by decide),
    singleton_devRef_sub (main_call6.cst.ref) (by decide), singleton_devRef_sub (main_call6.v0.ref) (by decide), singleton_devRef_sub (main_call6.v1.ref) (by decide),
    singleton_devRef_sub (main_call6.cst_0.ref) (by decide), singleton_devRef_sub (main_call6.v2.ref) (by decide), singleton_devRef_sub (main_call6.v3.ref) (by decide),
    singleton_devRef_sub (main_call6.v4.ref) (by decide), singleton_devRef_sub (main_call6.v5.ref) (by decide), singleton_devRef_sub (main_call6.v6.ref) (by decide),
    singleton_devRef_sub (main_call6.v7.ref) (by decide), singleton_devRef_sub (main_call6.cst_1.ref) (by decide), singleton_devRef_sub (main_call6.v8.ref) (by decide),
    singleton_devRef_sub (main_call6.cst_2.ref) (by decide), singleton_devRef_sub (main_call6.v9.ref) (by decide), singleton_devRef_sub (main_call6.v10.ref) (by decide),
    singleton_devRef_sub (main_call6.v11.ref) (by decide), singleton_devRef_sub (main_call6.cst_3.ref) (by decide), singleton_devRef_sub (main_call6.v12.ref) (by decide),
    singleton_devRef_sub (main_call6.cst_4.ref) (by decide), singleton_devRef_sub (main_call6.call0.v0.ref) (by decide), singleton_devRef_sub (main_call6.call0.v1.ref) (by decide),
    singleton_devRef_sub (main_call6.call0.v2.ref) (by decide), singleton_devRef_sub main_v106 (by decide), singleton_devRef_sub main_v107 (by decide),
    singleton_devRef_sub main_v108 (by decide), singleton_devRef_sub main_v109 (by decide), singleton_devRef_sub main_v110 (by decide),
    singleton_devRef_sub main_v111 (by decide), singleton_devRef_sub main_cst_19 (by decide), singleton_devRef_sub main_v112 (by decide),
    singleton_devRef_sub main_v113 (by decide), singleton_devRef_sub main_v114 (by decide), singleton_devRef_sub main_v115 (by decide),
    singleton_devRef_sub main_v116 (by decide), singleton_devRef_sub main_v117 (by decide), singleton_devRef_sub main_v118 (by decide),
    singleton_devRef_sub main_v119 (by decide), singleton_devRef_sub main_v120 (by decide), singleton_devRef_sub (main_call7.cst.ref) (by decide),
    singleton_devRef_sub (main_call7.v0.ref) (by decide), singleton_devRef_sub (main_call7.v1.ref) (by decide), singleton_devRef_sub main_cst_20 (by decide),
    singleton_devRef_sub main_v122 (by decide), singleton_devRef_sub main_cst_21 (by decide), singleton_devRef_sub main_v123 (by decide),
    singleton_devRef_sub main_v124 (by decide), singleton_devRef_sub main_v125 (by decide), singleton_devRef_sub main_v126 (by decide),
    singleton_devRef_sub main_v127 (by decide), singleton_devRef_sub main_v128 (by decide), singleton_devRef_sub main_v129 (by decide),
    singleton_devRef_sub main_v130 (by decide), singleton_devRef_sub main_cst_22 (by decide), singleton_devRef_sub main_v131 (by decide),
    singleton_devRef_sub main_v132 (by decide), singleton_devRef_sub main_v133 (by decide), singleton_devRef_sub main_v134 (by decide),
    singleton_devRef_sub main_v135 (by decide), singleton_devRef_sub main_v136 (by decide), singleton_devRef_sub main_v137 (by decide),
    singleton_devRef_sub main_v138 (by decide), singleton_devRef_sub main_cst_23 (by decide), singleton_devRef_sub main_v139 (by decide),
    singleton_devRef_sub main_v140 (by decide), singleton_devRef_sub main_v141 (by decide), singleton_devRef_sub main_v142 (by decide),
    singleton_devRef_sub main_v143 (by decide), singleton_devRef_sub main_v144 (by decide), singleton_devRef_sub main_v145 (by decide),
    singleton_devRef_sub main_v146 (by decide)⟩

set_option maxRecDepth 8192 in
/-- Every operation determines its results: none allocates a buffer of unchosen contents. -/
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl⟩

end Cert.ReferenceIdeal.RefRun

end
-- ==== Proof.RefRun.lean ====
/- The reference's run. Its @main is a straight line of 265 host operations — the three windows' lines in a row, a
   called function's operations standing at its call over that call's buffers — so from any memory with zero
   counters every weakly fair execution terminates, the result buffer ends at the fold of the operations over the
   launch contents, and the twenty-five argument buffers, which no operation writes, end as they started. -/
import proofs.«152416_j10892037062711_1_alg».proof.Defs
import proofs.«152416_j10892037062711_1_alg».proof.Proof.Gen.ReferenceIdeal
import proofs.«152416_j10892037062711_1_alg».proof.Proof.Gen.Pre_finite_inputs
import proofs.«152416_j10892037062711_1_alg».proof.Proof.RefOps0
import proofs.«152416_j10892037062711_1_alg».proof.Proof.RefOps1
import proofs.«152416_j10892037062711_1_alg».proof.Proof.RefOps2
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 265 operations, in program order: the three windows' lines in a row. -/
abbrev ops : List (HloOp τ sig (Elt F)) :=
  ops0 ++ (ops1 ++ ops2)

/-- @main is that line: it runs its three windows in order, each its own line, and lines in a row are their
    concatenation run as one. -/
theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only: window by window. -/
theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp ops0_sub op h, List.forall_iff_forall_mem.mp ops1_sub op h,
      List.forall_iff_forall_mem.mp ops2_sub op h]

/-- Every operation determines its results: window by window. -/
theorem ops_fresh : ∀ op ∈ (ops : List (HloOp τ sig (Elt F))), op.fresh = ∅ := fun op h => by
  simp only [ops, List.mem_append] at h
  rcases h with h | h | h
  exacts [List.forall_iff_forall_mem.mp ops0_fresh op h, List.forall_iff_forall_mem.mp ops1_fresh op h,
    List.forall_iff_forall_mem.mp ops2_fresh op h]

/-- The fold over the whole line is the three windows' folds, one after the other. -/
theorem after_ops (V : Valuation τ sig (Elt F)) : after ops V = after ops2 (after ops1 (after ops0 V)) := by
  simp only [ops, after_append]

/-- A reference that no window's operation writes holds after the line what it held before. -/
theorem ops_keep (V : Valuation τ sig (Elt F)) (r : Ref sig .tc) (h0 : r ∉ ops0_W) (h1 : r ∉ ops1_W) (h2 : r ∉ ops2_W) :
    after ops V (Proc.devRef .tc r) = V (Proc.devRef .tc r) := by
  rw [after_ops, after_of_writes_sub ops2 _ ops2_writes h2, after_of_writes_sub ops1 _ ops1_writes h1,
    after_of_writes_sub ops0 _ ops0_writes h0]

/-- On every device, for any float values, from any memory with zero counters: every weakly fair execution of
    @main terminates with the result buffer at the fold of the 265 operations over the launch contents and the
    arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v146) = after ops (fun b => m (c, b)) (Proc.devRef .tc main_v146)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24) :=
  (θ_run defs _ _).mono (fun _ h c => ⟨h c main_v146,
      (h c main_arg0).trans (ops_keep _ main_arg0 (by decide) (by decide) (by decide)),
      (h c main_arg1).trans (ops_keep _ main_arg1 (by decide) (by decide) (by decide)),
      (h c main_arg2).trans (ops_keep _ main_arg2 (by decide) (by decide) (by decide)),
      (h c main_arg3).trans (ops_keep _ main_arg3 (by decide) (by decide) (by decide)),
      (h c main_arg4).trans (ops_keep _ main_arg4 (by decide) (by decide) (by decide)),
      (h c main_arg5).trans (ops_keep _ main_arg5 (by decide) (by decide) (by decide)),
      (h c main_arg6).trans (ops_keep _ main_arg6 (by decide) (by decide) (by decide)),
      (h c main_arg7).trans (ops_keep _ main_arg7 (by decide) (by decide) (by decide)),
      (h c main_arg8).trans (ops_keep _ main_arg8 (by decide) (by decide) (by decide)),
      (h c main_arg9).trans (ops_keep _ main_arg9 (by decide) (by decide) (by decide)),
      (h c main_arg10).trans (ops_keep _ main_arg10 (by decide) (by decide) (by decide)),
      (h c main_arg11).trans (ops_keep _ main_arg11 (by decide) (by decide) (by decide)),
      (h c main_arg12).trans (ops_keep _ main_arg12 (by decide) (by decide) (by decide)),
      (h c main_arg13).trans (ops_keep _ main_arg13 (by decide) (by decide) (by decide)),
      (h c main_arg14).trans (ops_keep _ main_arg14 (by decide) (by decide) (by decide)),
      (h c main_arg15).trans (ops_keep _ main_arg15 (by decide) (by decide) (by decide)),
      (h c main_arg16).trans (ops_keep _ main_arg16 (by decide) (by decide) (by decide)),
      (h c main_arg17).trans (ops_keep _ main_arg17 (by decide) (by decide) (by decide)),
      (h c main_arg18).trans (ops_keep _ main_arg18 (by decide) (by decide) (by decide)),
      (h c main_arg19).trans (ops_keep _ main_arg19 (by decide) (by decide) (by decide)),
      (h c main_arg20).trans (ops_keep _ main_arg20 (by decide) (by decide) (by decide)),
      (h c main_arg21).trans (ops_keep _ main_arg21 (by decide) (by decide) (by decide)),
      (h c main_arg22).trans (ops_keep _ main_arg22 (by decide) (by decide) (by decide)),
      (h c main_arg23).trans (ops_keep _ main_arg23 (by decide) (by decide) (by decide)),
      (h c main_arg24).trans (ops_keep _ main_arg24 (by decide) (by decide) (by decide))⟩)
    (run_seq scopedRefs_eq scopedSems_eq defs main (fun _ => ops) main_eq (fun _ => ops_sub) m ρ (fun _ => ops_fresh))

/-- The reference runs, and its argument arrays end unchanged: the run above, at the exact reals, without its
    first conjunct. -/
theorem frame : Cert.frame_ReferenceIdeal :=
  fun m ρ _ => (θ_run (defs (F := Ideal)) _ _).mono (fun _ h c => (h c).2) (run (F := Ideal) m ρ)

end Cert.ReferenceIdeal.RefRun

end
-- ==== Proof.RefStage.lean ====
/- Reading a straight line of host operations one stretch at a time.

   When each operation of a line writes exactly one buffer, and `W` lists those buffers in order, a buffer that is
   not in `W` keeps its contents through the line. So the contents after the whole line, at a buffer no operation
   from position `k + n` on writes, are the contents after the `n` operations from position `k` run from the state
   `G` reached by the first `k`; and that state still holds, at every buffer no operation from position `k` on
   writes, what the whole line ends with. A stretch's result is thereby a function of the final contents of the
   buffers the stretch reads, whenever nothing later overwrites them. -/
import Idealize.ShloMosaic.Lib.StableHlo.Run
import Idealize.ShloMosaic.Lib.Pipeline.Frame

namespace Cert.LibStage

open Idealize.ShloMosaic Idealize.ShloMosaic.StableHlo

variable {τ : Topo} {sig : RefSig} {Val : EltTy → Type}

/-- `W` lists, in order, the one reference each operation of the line writes. -/
def Writes (ops : List (HloOp τ sig Val)) (W : List (Ref sig .tc)) : Prop :=
  List.Forall₂ (fun op y => op.writes = {Proc.devRef .tc y}) ops W

theorem Writes.drop {ops : List (HloOp τ sig Val)} {W : List (Ref sig .tc)} (h : Writes ops W) (k : Nat) :
    Writes (ops.drop k) (W.drop k) := List.forall₂_drop k h

theorem Writes.append {l₁ l₂ : List (HloOp τ sig Val)} {W₁ W₂ : List (Ref sig .tc)} (h₁ : Writes l₁ W₁)
    (h₂ : Writes l₂ W₂) : Writes (l₁ ++ l₂) (W₁ ++ W₂) := List.rel_append h₁ h₂

/-- A reference the line does not write keeps its contents through it. -/
theorem Writes.keep {ops : List (HloOp τ sig Val)} {W : List (Ref sig .tc)} (h : Writes ops W) {r : Ref sig .tc}
    (hr : r ∉ W) (V : Valuation τ sig Val) : after ops V (Proc.devRef .tc r) = V (Proc.devRef .tc r) := by
  induction h generalizing V with
  | nil => rfl
  | @cons op y ops W hop _ ih =>
    rw [after_cons, ih (fun hm => hr (List.mem_cons_of_mem _ hm)), HloOp.result_of_not_mem]
    rw [hop, Finset.mem_singleton]
    exact devRef_ne_of_ne fun e => hr (e ▸ List.mem_cons_self)

/-- The stretch of `n` operations from position `k`, read inside the whole line: there is a state `G` (the one the
    first `k` operations reach) that agrees with the line's final contents at every reference not written from
    position `k` on, and from which the stretch alone yields the final contents of every reference not written
    after the stretch. -/
theorem seg_read {ops : List (HloOp τ sig Val)} {W : List (Ref sig .tc)} (h : Writes ops W) (k n : Nat)
    (seg : List (HloOp τ sig Val)) (hseg : (ops.drop k).take n = seg) (V : Valuation τ sig Val) :
    ∃ G : Valuation τ sig Val,
      (∀ x : Ref sig .tc, x ∉ W.drop k → after ops V (Proc.devRef .tc x) = G (Proc.devRef .tc x)) ∧
      (∀ y : Ref sig .tc, y ∉ (W.drop k).drop n → after ops V (Proc.devRef .tc y) = after seg G (Proc.devRef .tc y)) := by
  have e₁ : after ops V = after (ops.drop k) (after (ops.take k) V) := by
    conv_lhs => rw [← List.take_append_drop k ops]
    exact after_append _ _ _
  have e₂ : after (ops.drop k) (after (ops.take k) V)
      = after ((ops.drop k).drop n) (after seg (after (ops.take k) V)) := by
    conv_lhs => rw [← List.take_append_drop n (ops.drop k)]
    rw [after_append, hseg]
  refine ⟨after (ops.take k) V, fun x hx => ?_, fun y hy => ?_⟩
  · rw [e₁]; exact (h.drop k).keep hx _
  · rw [e₁, e₂]; exact ((h.drop k).drop n).keep hy _

end Cert.LibStage
-- ==== Proof.RefSegs.lean ====
/- The reference's line of 265 operations cut into its nineteen stretches — per layer an aggregation, then twice
   a linear map, a column mean, a column variance and a normalisation with rectifier; last the read-out — each
   stretch the same operations as the corresponding part of the line, and the list of the references the line
   writes, one per operation and in order. -/
import proofs.«152416_j10892037062711_1_alg».proof.Proof.RefRun
import proofs.«152416_j10892037062711_1_alg».proof.Proof.RefStage

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.LibStage

variable {F : FTy → Type} [FloatOps F]

/-- Operations 1 … 17: the first aggregation: the edge rows split and wrapped, the gather at the sources, the scatter-add at the targets. -/
abbrev sgAgg1 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst (constant S_ .f32 0x00000000#32),
    unary main_cst main_v11 (broadcastInDim S100000x64 ![] bcast_S_S100000x64 : (⟨S_, .f32⟩ : BufTy).Contents (Elt F) → (⟨S100000x64, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]
theorem sgAgg1_eq : ((ops : List (HloOp τ sig (Elt F))).drop 0).take 17 = sgAgg1 := rfl

/-- Operations 18 … 22: the first layer's first linear map of the rows plus their aggregate. -/
abbrev sgAff1 : List (HloOp τ sig (Elt F)) :=
  [ binary main_arg0 main_v13 main_v14 (addf : (⟨S100000x64, .f32⟩ : BufTy).Contents (Elt F) → (⟨S100000x64, .f32⟩ : BufTy).Contents (Elt F) → (⟨S100000x64, .f32⟩ : BufTy).Contents (Elt F)),
    binary main_v14 main_arg3 main_v15 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg4 main_v16 (broadcastInDim S1x64 ![1] bcast_S64_S1x64_1 : (⟨S64, .f32⟩ : BufTy).Contents (Elt F) → (⟨S1x64, .f32⟩ : BufTy).Contents (Elt F)),
    unary main_v16 main_v17 (broadcastInDim S100000x64 ![0, 1] bcast_S1x64_S100000x64_0_1 : (⟨S1x64, .f32⟩ : BufTy).Contents (Elt F) → (⟨S100000x64, .f32⟩ : BufTy).Contents (Elt F)),
    binary main_v15 main_v17 main_v18 (addf : (⟨S100000x64, .f32⟩ : BufTy).Contents (Elt F) → (⟨S100000x64, .f32⟩ : BufTy).Contents (Elt F) → (⟨S100000x64, .f32⟩ : BufTy).Contents (Elt F)) ]
theorem sgAff1_eq : ((ops : List (HloOp τ sig (Elt F))).drop 17).take 5 = sgAff1 := rfl

/-- Operations 23 … 27: its column mean. -/
abbrev sgMean1 : List (HloOp τ sig (Elt F)) :=
  [ nullary main_cst_1 (constant S_ .f32 0x00000000#32),
    binary main_v18 main_cst_1 main_v19 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_2 (constant S_ .f32 0x47C35000#32),
    unary main_cst_2 main_v20 (broadcastInDim S64 ![] bcast_S_S64 : (⟨S_, .f32⟩ : BufTy).Contents (Elt F) → (⟨S64, .f32⟩ : BufTy).Contents (Elt F)),
    binary main_v19 main_v20 main_v21 (Host.divf : (⟨S64, .f32⟩ : BufTy).Contents (Elt F) → (⟨S64, .f32⟩ : BufTy).Contents (Elt F) → (⟨S64, .f32⟩ : BufTy).Contents (Elt F)) ]
theorem sgMean1_eq : ((ops : List (HloOp τ sig (Elt F))).drop 22).take 5 = sgMean1 := rfl

/-- Operations 28 … 50: its column variance (the callee's operations). -/
abbrev sgVar1 : List (HloOp τ sig (Elt F)) :=
  [ nullary main_c_3 (constantI S_ 32 0#32),
    TRef.nullary main_call0.cst (constant S_ .f32 0x00000000#32),
    TRef.binary (.of main_v18 : TRef sig ⟨S100000x64, .f32⟩) main_call0.cst main_call0.v0 (fun x v => Host.reduceAdd x v reducesTo_S100000x64_S64_d0 h_S_),
    TRef.unary main_call0.v0 main_call0.v1 (broadcastInDim S1x64 ![1] bcast_S64_S1x64_1),
    TRef.nullary main_call0.cst_0 (constant S_ .f32 0x47C35000#32),
    TRef.unary main_call0.cst_0 main_call0.v2 (broadcastInDim S1x64 ![] bcast_S_S1x64),
    TRef.binary main_call0.v1 main_call0.v2 main_call0.v3 Host.divf,
    TRef.unary main_call0.v3 main_call0.v4 (broadcastInDim S100000x64 ![0, 1] bcast_S1x64_S100000x64_0_1),
    TRef.binary (.of main_v18 : TRef sig ⟨S100000x64, .f32⟩) main_call0.v4 main_call0.v5 subf,
    TRef.binary main_call0.v5 main_call0.v5 main_call0.v6 mulf,
    TRef.unary (.of main_c_3 : TRef sig ⟨S_, .i32⟩) main_call0.v7 (sitofp .f32),
    TRef.nullary main_call0.cst_1 (constant S_ .f32 0x47C35000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S100000x64_S64_d0 h_S_),
    TRef.unary main_call0.v8 main_call0.v10 (broadcastInDim S64 ![] bcast_S_S64),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S64 ![] bcast_S_S64),
    TRef.ternary main_call0.v12 main_call0.v11 main_call0.call0.v1 main_call0.call0.v2 (fun p a b => select (broadcastInDim S64 ![] bcast_S_S64 p) a b) ]
theorem sgVar1_eq : ((ops : List (HloOp τ sig (Elt F))).drop 27).take 23 = sgVar1 := rfl

/-- Operations 51 … 69: its normalisation and rectifier. -/
abbrev sgBn1 : List (HloOp τ sig (Elt F)) :=
  [ unary main_v21 main_v23 (broadcastInDim S1x64 ![1] bcast_S64_S1x64_1 : (⟨S64, .f32⟩ : BufTy).Contents (Elt F) → (⟨S1x64, .f32⟩ : BufTy).Contents (Elt F)),
    unary main_v23 main_v24 (broadcastInDim S100000x64 ![0, 1] bcast_S1x64_S100000x64_0_1 : (⟨S1x64, .f32⟩ : BufTy).Contents (Elt F) → (⟨S100000x64, .f32⟩ : BufTy).Contents (Elt F)),
    binary main_v18 main_v24 main_v25 (subf : (⟨S100000x64, .f32⟩ : BufTy).Contents (Elt F) → (⟨S100000x64, .f32⟩ : BufTy).Contents (Elt F) → (⟨S100000x64, .f32⟩ : BufTy).Contents (Elt F)),
    unary main_arg5 main_v26 (broadcastInDim S1x64 ![1] bcast_S64_S1x64_1 : (⟨S64, .f32⟩ : BufTy).Contents (Elt F) → (⟨S1x64, .f32⟩ : BufTy).Contents (Elt F)),
    unary main_v26 main_v27 (broadcastInDim S100000x64 ![0, 1] bcast_S1x64_S100000x64_0_1 : (⟨S1x64, .f32⟩ : BufTy).Contents (Elt F) → (⟨S100000x64, .f32⟩ : BufTy).Contents (Elt F)),
    binary main_v27 main_v25 main_v28 (mulf : (⟨S100000x64, .f32⟩ : BufTy).Contents (Elt F) → (⟨S100000x64, .f32⟩ : BufTy).Contents (Elt F) → (⟨S100000x64, .f32⟩ : BufTy).Contents (Elt F)),
    nullary main_cst_4 (constant S_ .f32 0x3727C5AC#32),
    unary main_cst_4 main_v29 (broadcastInDim S64 ![] bcast_S_S64 : (⟨S_, .f32⟩ : BufTy).Contents (Elt F) → (⟨S64, .f32⟩ : BufTy).Contents (Elt F)),
    binary main_v22 main_v29 main_v30 (addf : (⟨S64, .f32⟩ : BufTy).Contents (Elt F) → (⟨S64, .f32⟩ : BufTy).Contents (Elt F) → (⟨S64, .f32⟩ : BufTy).Contents (Elt F)),
    unary main_v30 main_v31 (Host.rsqrt : (⟨S64, .f32⟩ : BufTy).Contents (Elt F) → (⟨S64, .f32⟩ : BufTy).Contents (Elt F)),
    unary main_v31 main_v32 (broadcastInDim S1x64 ![1] bcast_S64_S1x64_1 : (⟨S64, .f32⟩ : BufTy).Contents (Elt F) → (⟨S1x64, .f32⟩ : BufTy).Contents (Elt F)),
    unary main_v32 main_v33 (broadcastInDim S100000x64 ![0, 1] bcast_S1x64_S100000x64_0_1 : (⟨S1x64, .f32⟩ : BufTy).Contents (Elt F) → (⟨S100000x64, .f32⟩ : BufTy).Contents (Elt F)),
    binary main_v28 main_v33 main_v34 (mulf : (⟨S100000x64, .f32⟩ : BufTy).Contents (Elt F) → (⟨S100000x64, .f32⟩ : BufTy).Contents (Elt F) → (⟨S100000x64, .f32⟩ : BufTy).Contents (Elt F)),
    unary main_arg6 main_v35 (broadcastInDim S1x64 ![1] bcast_S64_S1x64_1 : (⟨S64, .f32⟩ : BufTy).Contents (Elt F) → (⟨S1x64, .f32⟩ : BufTy).Contents (Elt F)),
    unary main_v35 main_v36 (broadcastInDim S100000x64 ![0, 1] bcast_S1x64_S100000x64_0_1 : (⟨S1x64, .f32⟩ : BufTy).Contents (Elt F) → (⟨S100000x64, .f32⟩ : BufTy).Contents (Elt F)),
    binary main_v34 main_v36 main_v37 (addf : (⟨S100000x64, .f32⟩ : BufTy).Contents (Elt F) → (⟨S100000x64, .f32⟩ : BufTy).Contents (Elt F) → (⟨S100000x64, .f32⟩ : BufTy).Contents (Elt F)),
    TRef.nullary main_call1.cst (constant S_ .f32 0x00000000#32),
    TRef.unary main_call1.cst main_call1.v0 (broadcastInDim S100000x64 ![] bcast_S_S100000x64),
    TRef.binary (.of main_v37 : TRef sig ⟨S100000x64, .f32⟩) main_call1.v0 main_call1.v1 maximumf ]
theorem sgBn1_eq : ((ops : List (HloOp τ sig (Elt F))).drop 50).take 19 = sgBn1 := rfl

/-- Operations 70 … 73: the first layer's second linear map. -/
abbrev sgAff2 : List (HloOp τ sig (Elt F)) :=
  [ binary main_v38 main_arg7 main_v39 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg8 main_v40 (broadcastInDim S1x64 ![1] bcast_S64_S1x64_1 : (⟨S64, .f32⟩ : BufTy).Contents (Elt F) → (⟨S1x64, .f32⟩ : BufTy).Contents (Elt F)),
    unary main_v40 main_v41 (broadcastInDim S100000x64 ![0, 1] bcast_S1x64_S100000x64_0_1 : (⟨S1x64, .f32⟩ : BufTy).Contents (Elt F) → (⟨S100000x64, .f32⟩ : BufTy).Contents (Elt F)),
    binary main_v39 main_v41 main_v42 (addf : (⟨S100000x64, .f32⟩ : BufTy).Contents (Elt F) → (⟨S100000x64, .f32⟩ : BufTy).Contents (Elt F) → (⟨S100000x64, .f32⟩ : BufTy).Contents (Elt F)) ]
theorem sgAff2_eq : ((ops : List (HloOp τ sig (Elt F))).drop 69).take 4 = sgAff2 := rfl

/-- Operations 74 … 78: its column mean. -/
abbrev sgMean2 : List (HloOp τ sig (Elt F)) :=
  [ nullary main_cst_5 (constant S_ .f32 0x00000000#32),
    binary main_v42 main_cst_5 main_v43 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_6 (constant S_ .f32 0x47C35000#32),
    unary main_cst_6 main_v44 (broadcastInDim S64 ![] bcast_S_S64 : (⟨S_, .f32⟩ : BufTy).Contents (Elt F) → (⟨S64, .f32⟩ : BufTy).Contents (Elt F)),
    binary main_v43 main_v44 main_v45 (Host.divf : (⟨S64, .f32⟩ : BufTy).Contents (Elt F) → (⟨S64, .f32⟩ : BufTy).Contents (Elt F) → (⟨S64, .f32⟩ : BufTy).Contents (Elt F)) ]
theorem sgMean2_eq : ((ops : List (HloOp τ sig (Elt F))).drop 73).take 5 = sgMean2 := rfl

/-- Operations 79 … 101: its column variance. -/
abbrev sgVar2 : List (HloOp τ sig (Elt F)) :=
  [ nullary main_c_7 (constantI S_ 32 0#32),
    TRef.nullary main_call2.cst (constant S_ .f32 0x00000000#32),
    TRef.binary (.of main_v42 : TRef sig ⟨S100000x64, .f32⟩) main_call2.cst main_call2.v0 (fun x v => Host.reduceAdd x v reducesTo_S100000x64_S64_d0 h_S_),
    TRef.unary main_call2.v0 main_call2.v1 (broadcastInDim S1x64 ![1] bcast_S64_S1x64_1),
    TRef.nullary main_call2.cst_0 (constant S_ .f32 0x47C35000#32),
    TRef.unary main_call2.cst_0 main_call2.v2 (broadcastInDim S1x64 ![] bcast_S_S1x64),
    TRef.binary main_call2.v1 main_call2.v2 main_call2.v3 Host.divf,
    TRef.unary main_call2.v3 main_call2.v4 (broadcastInDim S100000x64 ![0, 1] bcast_S1x64_S100000x64_0_1),
    TRef.binary (.of main_v42 : TRef sig ⟨S100000x64, .f32⟩) main_call2.v4 main_call2.v5 subf,
    TRef.binary main_call2.v5 main_call2.v5 main_call2.v6 mulf,
    TRef.unary (.of main_c_7 : TRef sig ⟨S_, .i32⟩) main_call2.v7 (sitofp .f32),
    TRef.nullary main_call2.cst_1 (constant S_ .f32 0x47C35000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S100000x64_S64_d0 h_S_),
    TRef.unary main_call2.v8 main_call2.v10 (broadcastInDim S64 ![] bcast_S_S64),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S64 ![] bcast_S_S64),
    TRef.ternary main_call2.v12 main_call2.v11 main_call2.call0.v1 main_call2.call0.v2 (fun p a b => select (broadcastInDim S64 ![] bcast_S_S64 p) a b) ]
theorem sgVar2_eq : ((ops : List (HloOp τ sig (Elt F))).drop 78).take 23 = sgVar2 := rfl

/-- Operations 102 … 120: its normalisation and rectifier: the first layer's output. -/
abbrev sgBn2 : List (HloOp τ sig (Elt F)) :=
  [ unary main_v45 main_v47 (broadcastInDim S1x64 ![1] bcast_S64_S1x64_1 : (⟨S64, .f32⟩ : BufTy).Contents (Elt F) → (⟨S1x64, .f32⟩ : BufTy).Contents (Elt F)),
    unary main_v47 main_v48 (broadcastInDim S100000x64 ![0, 1] bcast_S1x64_S100000x64_0_1 : (⟨S1x64, .f32⟩ : BufTy).Contents (Elt F) → (⟨S100000x64, .f32⟩ : BufTy).Contents (Elt F)),
    binary main_v42 main_v48 main_v49 (subf : (⟨S100000x64, .f32⟩ : BufTy).Contents (Elt F) → (⟨S100000x64, .f32⟩ : BufTy).Contents (Elt F) → (⟨S100000x64, .f32⟩ : BufTy).Contents (Elt F)),
    unary main_arg9 main_v50 (broadcastInDim S1x64 ![1] bcast_S64_S1x64_1 : (⟨S64, .f32⟩ : BufTy).Contents (Elt F) → (⟨S1x64, .f32⟩ : BufTy).Contents (Elt F)),
    unary main_v50 main_v51 (broadcastInDim S100000x64 ![0, 1] bcast_S1x64_S100000x64_0_1 : (⟨S1x64, .f32⟩ : BufTy).Contents (Elt F) → (⟨S100000x64, .f32⟩ : BufTy).Contents (Elt F)),
    binary main_v51 main_v49 main_v52 (mulf : (⟨S100000x64, .f32⟩ : BufTy).Contents (Elt F) → (⟨S100000x64, .f32⟩ : BufTy).Contents (Elt F) → (⟨S100000x64, .f32⟩ : BufTy).Contents (Elt F)),
    nullary main_cst_8 (constant S_ .f32 0x3727C5AC#32),
    unary main_cst_8 main_v53 (broadcastInDim S64 ![] bcast_S_S64 : (⟨S_, .f32⟩ : BufTy).Contents (Elt F) → (⟨S64, .f32⟩ : BufTy).Contents (Elt F)),
    binary main_v46 main_v53 main_v54 (addf : (⟨S64, .f32⟩ : BufTy).Contents (Elt F) → (⟨S64, .f32⟩ : BufTy).Contents (Elt F) → (⟨S64, .f32⟩ : BufTy).Contents (Elt F)),
    unary main_v54 main_v55 (Host.rsqrt : (⟨S64, .f32⟩ : BufTy).Contents (Elt F) → (⟨S64, .f32⟩ : BufTy).Contents (Elt F)),
    unary main_v55 main_v56 (broadcastInDim S1x64 ![1] bcast_S64_S1x64_1 : (⟨S64, .f32⟩ : BufTy).Contents (Elt F) → (⟨S1x64, .f32⟩ : BufTy).Contents (Elt F)),
    unary main_v56 main_v57 (broadcastInDim S100000x64 ![0, 1] bcast_S1x64_S100000x64_0_1 : (⟨S1x64, .f32⟩ : BufTy).Contents (Elt F) → (⟨S100000x64, .f32⟩ : BufTy).Contents (Elt F)),
    binary main_v52 main_v57 main_v58 (mulf : (⟨S100000x64, .f32⟩ : BufTy).Contents (Elt F) → (⟨S100000x64, .f32⟩ : BufTy).Contents (Elt F) → (⟨S100000x64, .f32⟩ : BufTy).Contents (Elt F)),
    unary main_arg10 main_v59 (broadcastInDim S1x64 ![1] bcast_S64_S1x64_1 : (⟨S64, .f32⟩ : BufTy).Contents (Elt F) → (⟨S1x64, .f32⟩ : BufTy).Contents (Elt F)),
    unary main_v59 main_v60 (broadcastInDim S100000x64 ![0, 1] bcast_S1x64_S100000x64_0_1 : (⟨S1x64, .f32⟩ : BufTy).Contents (Elt F) → (⟨S100000x64, .f32⟩ : BufTy).Contents (Elt F)),
    binary main_v58 main_v60 main_v61 (addf : (⟨S100000x64, .f32⟩ : BufTy).Contents (Elt F) → (⟨S100000x64, .f32⟩ : BufTy).Contents (Elt F) → (⟨S100000x64, .f32⟩ : BufTy).Contents (Elt F)),
    TRef.nullary main_call3.cst (constant S_ .f32 0x00000000#32),
    TRef.unary main_call3.cst main_call3.v0 (broadcastInDim S100000x64 ![] bcast_S_S100000x64),
    TRef.binary (.of main_v61 : TRef sig ⟨S100000x64, .f32⟩) main_call3.v0 main_call3.v1 maximumf ]
theorem sgBn2_eq : ((ops : List (HloOp τ sig (Elt F))).drop 101).take 19 = sgBn2 := rfl

/-- Operations 121 … 133: the second aggregation, of the first layer's output, over the same wrapped edge rows. -/
abbrev sgAgg2 : List (HloOp τ sig (Elt F)) :=
  [ nullary main_c_9 (constantI S_ 32 0#32),
    unary main_c_9 main_v63 (broadcastInDim S1600000 ![] bcast_S_S1600000 : (⟨S_, .i32⟩ : BufTy).Contents (Elt F) → (⟨S1600000, .i32⟩ : BufTy).Contents (Elt F)),
    binary main_v1 main_v63 main_v64 (cmpi .slt : (⟨S1600000, .i32⟩ : BufTy).Contents (Elt F) → (⟨S1600000, .i32⟩ : BufTy).Contents (Elt F) → (⟨S1600000, .i1⟩ : BufTy).Contents (Elt F)),
    nullary main_c_10 (constantI S_ 32 100000#32),
    unary main_c_10 main_v65 (broadcastInDim S1600000 ![] bcast_S_S1600000 : (⟨S_, .i32⟩ : BufTy).Contents (Elt F) → (⟨S1600000, .i32⟩ : BufTy).Contents (Elt F)),
    binary main_v1 main_v65 main_v66 (addi : (⟨S1600000, .i32⟩ : BufTy).Contents (Elt F) → (⟨S1600000, .i32⟩ : BufTy).Contents (Elt F) → (⟨S1600000, .i32⟩ : BufTy).Contents (Elt F)),
    ternary main_v64 main_v66 main_v1 main_v67 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v67 main_v68 (broadcastInDim S1600000x1 ![0] bcast_S1600000_S1600000x1_0 : (⟨S1600000, .i32⟩ : BufTy).Contents (Elt F) → (⟨S1600000x1, .i32⟩ : BufTy).Contents (Elt F)),
    binary main_v62 main_v68 main_v69 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_11 (constant S_ .f32 0x00000000#32),
    unary main_cst_11 main_v70 (broadcastInDim S100000x64 ![] bcast_S_S100000x64 : (⟨S_, .f32⟩ : BufTy).Contents (Elt F) → (⟨S100000x64, .f32⟩ : BufTy).Contents (Elt F)),
    unary main_v3 main_v71 (broadcastInDim S1600000x1 ![0] bcast_S1600000_S1600000x1_0 : (⟨S1600000, .i32⟩ : BufTy).Contents (Elt F) → (⟨S1600000x1, .i32⟩ : BufTy).Contents (Elt F)),
    ternary main_v70 main_v71 main_v69 main_v72 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]
theorem sgAgg2_eq : ((ops : List (HloOp τ sig (Elt F))).drop 120).take 13 = sgAgg2 := rfl

/-- Operations 134 … 138: the second layer's first linear map. -/
abbrev sgAff3 : List (HloOp τ sig (Elt F)) :=
  [ binary main_v62 main_v72 main_v73 (addf : (⟨S100000x64, .f32⟩ : BufTy).Contents (Elt F) → (⟨S100000x64, .f32⟩ : BufTy).Contents (Elt F) → (⟨S100000x64, .f32⟩ : BufTy).Contents (Elt F)),
    binary main_v73 main_arg11 main_v74 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg12 main_v75 (broadcastInDim S1x64 ![1] bcast_S64_S1x64_1 : (⟨S64, .f32⟩ : BufTy).Contents (Elt F) → (⟨S1x64, .f32⟩ : BufTy).Contents (Elt F)),
    unary main_v75 main_v76 (broadcastInDim S100000x64 ![0, 1] bcast_S1x64_S100000x64_0_1 : (⟨S1x64, .f32⟩ : BufTy).Contents (Elt F) → (⟨S100000x64, .f32⟩ : BufTy).Contents (Elt F)),
    binary main_v74 main_v76 main_v77 (addf : (⟨S100000x64, .f32⟩ : BufTy).Contents (Elt F) → (⟨S100000x64, .f32⟩ : BufTy).Contents (Elt F) → (⟨S100000x64, .f32⟩ : BufTy).Contents (Elt F)) ]
theorem sgAff3_eq : ((ops : List (HloOp τ sig (Elt F))).drop 133).take 5 = sgAff3 := rfl

/-- Operations 139 … 143: its column mean. -/
abbrev sgMean3 : List (HloOp τ sig (Elt F)) :=
  [ nullary main_cst_12 (constant S_ .f32 0x00000000#32),
    binary main_v77 main_cst_12 main_v78 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_13 (constant S_ .f32 0x47C35000#32),
    unary main_cst_13 main_v79 (broadcastInDim S64 ![] bcast_S_S64 : (⟨S_, .f32⟩ : BufTy).Contents (Elt F) → (⟨S64, .f32⟩ : BufTy).Contents (Elt F)),
    binary main_v78 main_v79 main_v80 (Host.divf : (⟨S64, .f32⟩ : BufTy).Contents (Elt F) → (⟨S64, .f32⟩ : BufTy).Contents (Elt F) → (⟨S64, .f32⟩ : BufTy).Contents (Elt F)) ]
theorem sgMean3_eq : ((ops : List (HloOp τ sig (Elt F))).drop 138).take 5 = sgMean3 := rfl

/-- Operations 144 … 166: its column variance. -/
abbrev sgVar3 : List (HloOp τ sig (Elt F)) :=
  [ nullary main_c_14 (constantI S_ 32 0#32),
    TRef.nullary main_call4.cst (constant S_ .f32 0x00000000#32),
    TRef.binary (.of main_v77 : TRef sig ⟨S100000x64, .f32⟩) main_call4.cst main_call4.v0 (fun x v => Host.reduceAdd x v reducesTo_S100000x64_S64_d0 h_S_),
    TRef.unary main_call4.v0 main_call4.v1 (broadcastInDim S1x64 ![1] bcast_S64_S1x64_1),
    TRef.nullary main_call4.cst_0 (constant S_ .f32 0x47C35000#32),
    TRef.unary main_call4.cst_0 main_call4.v2 (broadcastInDim S1x64 ![] bcast_S_S1x64),
    TRef.binary main_call4.v1 main_call4.v2 main_call4.v3 Host.divf,
    TRef.unary main_call4.v3 main_call4.v4 (broadcastInDim S100000x64 ![0, 1] bcast_S1x64_S100000x64_0_1),
    TRef.binary (.of main_v77 : TRef sig ⟨S100000x64, .f32⟩) main_call4.v4 main_call4.v5 subf,
    TRef.binary main_call4.v5 main_call4.v5 main_call4.v6 mulf,
    TRef.unary (.of main_c_14 : TRef sig ⟨S_, .i32⟩) main_call4.v7 (sitofp .f32),
    TRef.nullary main_call4.cst_1 (constant S_ .f32 0x47C35000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S100000x64_S64_d0 h_S_),
    TRef.unary main_call4.v8 main_call4.v10 (broadcastInDim S64 ![] bcast_S_S64),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S64 ![] bcast_S_S64),
    TRef.ternary main_call4.v12 main_call4.v11 main_call4.call0.v1 main_call4.call0.v2 (fun p a b => select (broadcastInDim S64 ![] bcast_S_S64 p) a b) ]
theorem sgVar3_eq : ((ops : List (HloOp τ sig (Elt F))).drop 143).take 23 = sgVar3 := rfl

/-- Operations 167 … 185: its normalisation and rectifier. -/
abbrev sgBn3 : List (HloOp τ sig (Elt F)) :=
  [ unary main_v80 main_v82 (broadcastInDim S1x64 ![1] bcast_S64_S1x64_1 : (⟨S64, .f32⟩ : BufTy).Contents (Elt F) → (⟨S1x64, .f32⟩ : BufTy).Contents (Elt F)),
    unary main_v82 main_v83 (broadcastInDim S100000x64 ![0, 1] bcast_S1x64_S100000x64_0_1 : (⟨S1x64, .f32⟩ : BufTy).Contents (Elt F) → (⟨S100000x64, .f32⟩ : BufTy).Contents (Elt F)),
    binary main_v77 main_v83 main_v84 (subf : (⟨S100000x64, .f32⟩ : BufTy).Contents (Elt F) → (⟨S100000x64, .f32⟩ : BufTy).Contents (Elt F) → (⟨S100000x64, .f32⟩ : BufTy).Contents (Elt F)),
    unary main_arg13 main_v85 (broadcastInDim S1x64 ![1] bcast_S64_S1x64_1 : (⟨S64, .f32⟩ : BufTy).Contents (Elt F) → (⟨S1x64, .f32⟩ : BufTy).Contents (Elt F)),
    unary main_v85 main_v86 (broadcastInDim S100000x64 ![0, 1] bcast_S1x64_S100000x64_0_1 : (⟨S1x64, .f32⟩ : BufTy).Contents (Elt F) → (⟨S100000x64, .f32⟩ : BufTy).Contents (Elt F)),
    binary main_v86 main_v84 main_v87 (mulf : (⟨S100000x64, .f32⟩ : BufTy).Contents (Elt F) → (⟨S100000x64, .f32⟩ : BufTy).Contents (Elt F) → (⟨S100000x64, .f32⟩ : BufTy).Contents (Elt F)),
    nullary main_cst_15 (constant S_ .f32 0x3727C5AC#32),
    unary main_cst_15 main_v88 (broadcastInDim S64 ![] bcast_S_S64 : (⟨S_, .f32⟩ : BufTy).Contents (Elt F) → (⟨S64, .f32⟩ : BufTy).Contents (Elt F)),
    binary main_v81 main_v88 main_v89 (addf : (⟨S64, .f32⟩ : BufTy).Contents (Elt F) → (⟨S64, .f32⟩ : BufTy).Contents (Elt F) → (⟨S64, .f32⟩ : BufTy).Contents (Elt F)),
    unary main_v89 main_v90 (Host.rsqrt : (⟨S64, .f32⟩ : BufTy).Contents (Elt F) → (⟨S64, .f32⟩ : BufTy).Contents (Elt F)),
    unary main_v90 main_v91 (broadcastInDim S1x64 ![1] bcast_S64_S1x64_1 : (⟨S64, .f32⟩ : BufTy).Contents (Elt F) → (⟨S1x64, .f32⟩ : BufTy).Contents (Elt F)),
    unary main_v91 main_v92 (broadcastInDim S100000x64 ![0, 1] bcast_S1x64_S100000x64_0_1 : (⟨S1x64, .f32⟩ : BufTy).Contents (Elt F) → (⟨S100000x64, .f32⟩ : BufTy).Contents (Elt F)),
    binary main_v87 main_v92 main_v93 (mulf : (⟨S100000x64, .f32⟩ : BufTy).Contents (Elt F) → (⟨S100000x64, .f32⟩ : BufTy).Contents (Elt F) → (⟨S100000x64, .f32⟩ : BufTy).Contents (Elt F)),
    unary main_arg14 main_v94 (broadcastInDim S1x64 ![1] bcast_S64_S1x64_1 : (⟨S64, .f32⟩ : BufTy).Contents (Elt F) → (⟨S1x64, .f32⟩ : BufTy).Contents (Elt F)),
    unary main_v94 main_v95 (broadcastInDim S100000x64 ![0, 1] bcast_S1x64_S100000x64_0_1 : (⟨S1x64, .f32⟩ : BufTy).Contents (Elt F) → (⟨S100000x64, .f32⟩ : BufTy).Contents (Elt F)),
    binary main_v93 main_v95 main_v96 (addf : (⟨S100000x64, .f32⟩ : BufTy).Contents (Elt F) → (⟨S100000x64, .f32⟩ : BufTy).Contents (Elt F) → (⟨S100000x64, .f32⟩ : BufTy).Contents (Elt F)),
    TRef.nullary main_call5.cst (constant S_ .f32 0x00000000#32),
    TRef.unary main_call5.cst main_call5.v0 (broadcastInDim S100000x64 ![] bcast_S_S100000x64),
    TRef.binary (.of main_v96 : TRef sig ⟨S100000x64, .f32⟩) main_call5.v0 main_call5.v1 maximumf ]
theorem sgBn3_eq : ((ops : List (HloOp τ sig (Elt F))).drop 166).take 19 = sgBn3 := rfl

/-- Operations 186 … 189: the second layer's second linear map. -/
abbrev sgAff4 : List (HloOp τ sig (Elt F)) :=
  [ binary main_v97 main_arg15 main_v98 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg16 main_v99 (broadcastInDim S1x64 ![1] bcast_S64_S1x64_1 : (⟨S64, .f32⟩ : BufTy).Contents (Elt F) → (⟨S1x64, .f32⟩ : BufTy).Contents (Elt F)),
    unary main_v99 main_v100 (broadcastInDim S100000x64 ![0, 1] bcast_S1x64_S100000x64_0_1 : (⟨S1x64, .f32⟩ : BufTy).Contents (Elt F) → (⟨S100000x64, .f32⟩ : BufTy).Contents (Elt F)),
    binary main_v98 main_v100 main_v101 (addf : (⟨S100000x64, .f32⟩ : BufTy).Contents (Elt F) → (⟨S100000x64, .f32⟩ : BufTy).Contents (Elt F) → (⟨S100000x64, .f32⟩ : BufTy).Contents (Elt F)) ]
theorem sgAff4_eq : ((ops : List (HloOp τ sig (Elt F))).drop 185).take 4 = sgAff4 := rfl

/-- Operations 190 … 194: its column mean. -/
abbrev sgMean4 : List (HloOp τ sig (Elt F)) :=
  [ nullary main_cst_16 (constant S_ .f32 0x00000000#32),
    binary main_v101 main_cst_16 main_v102 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_17 (constant S_ .f32 0x47C35000#32),
    unary main_cst_17 main_v103 (broadcastInDim S64 ![] bcast_S_S64 : (⟨S_, .f32⟩ : BufTy).Contents (Elt F) → (⟨S64, .f32⟩ : BufTy).Contents (Elt F)),
    binary main_v102 main_v103 main_v104 (Host.divf : (⟨S64, .f32⟩ : BufTy).Contents (Elt F) → (⟨S64, .f32⟩ : BufTy).Contents (Elt F) → (⟨S64, .f32⟩ : BufTy).Contents (Elt F)) ]
theorem sgMean4_eq : ((ops : List (HloOp τ sig (Elt F))).drop 189).take 5 = sgMean4 := rfl

/-- Operations 195 … 217: its column variance. -/
abbrev sgVar4 : List (HloOp τ sig (Elt F)) :=
  [ nullary main_c_18 (constantI S_ 32 0#32),
    TRef.nullary main_call6.cst (constant S_ .f32 0x00000000#32),
    TRef.binary (.of main_v101 : TRef sig ⟨S100000x64, .f32⟩) main_call6.cst main_call6.v0 (fun x v => Host.reduceAdd x v reducesTo_S100000x64_S64_d0 h_S_),
    TRef.unary main_call6.v0 main_call6.v1 (broadcastInDim S1x64 ![1] bcast_S64_S1x64_1),
    TRef.nullary main_call6.cst_0 (constant S_ .f32 0x47C35000#32),
    TRef.unary main_call6.cst_0 main_call6.v2 (broadcastInDim S1x64 ![] bcast_S_S1x64),
    TRef.binary main_call6.v1 main_call6.v2 main_call6.v3 Host.divf,
    TRef.unary main_call6.v3 main_call6.v4 (broadcastInDim S100000x64 ![0, 1] bcast_S1x64_S100000x64_0_1),
    TRef.binary (.of main_v101 : TRef sig ⟨S100000x64, .f32⟩) main_call6.v4 main_call6.v5 subf,
    TRef.binary main_call6.v5 main_call6.v5 main_call6.v6 mulf,
    TRef.unary (.of main_c_18 : TRef sig ⟨S_, .i32⟩) main_call6.v7 (sitofp .f32),
    TRef.nullary main_call6.cst_1 (constant S_ .f32 0x47C35000#32),
    TRef.binary main_call6.cst_1 main_call6.v7 main_call6.v8 subf,
    TRef.nullary main_call6.cst_2 (constant S_ .f32 0x00000000#32),
    TRef.binary main_call6.v6 main_call6.cst_2 main_call6.v9 (fun x v => Host.reduceAdd x v reducesTo_S100000x64_S64_d0 h_S_),
    TRef.unary main_call6.v8 main_call6.v10 (broadcastInDim S64 ![] bcast_S_S64),
    TRef.binary main_call6.v9 main_call6.v10 main_call6.v11 Host.divf,
    TRef.nullary main_call6.cst_3 (constant S_ .f32 0x00000000#32),
    TRef.binary main_call6.v8 main_call6.cst_3 main_call6.v12 (cmpf .ogt),
    TRef.nullary main_call6.cst_4 (constant S_ .f32 0x7FC00000#32),
    TRef.unary main_call6.cst_4 main_call6.call0.v0 id,
    TRef.unary main_call6.call0.v0 main_call6.call0.v1 (broadcastInDim S64 ![] bcast_S_S64),
    TRef.ternary main_call6.v12 main_call6.v11 main_call6.call0.v1 main_call6.call0.v2 (fun p a b => select (broadcastInDim S64 ![] bcast_S_S64 p) a b) ]
theorem sgVar4_eq : ((ops : List (HloOp τ sig (Elt F))).drop 194).take 23 = sgVar4 := rfl

/-- Operations 218 … 236: its normalisation and rectifier: the second layer's output. -/
abbrev sgBn4 : List (HloOp τ sig (Elt F)) :=
  [ unary main_v104 main_v106 (broadcastInDim S1x64 ![1] bcast_S64_S1x64_1 : (⟨S64, .f32⟩ : BufTy).Contents (Elt F) → (⟨S1x64, .f32⟩ : BufTy).Contents (Elt F)),
    unary main_v106 main_v107 (broadcastInDim S100000x64 ![0, 1] bcast_S1x64_S100000x64_0_1 : (⟨S1x64, .f32⟩ : BufTy).Contents (Elt F) → (⟨S100000x64, .f32⟩ : BufTy).Contents (Elt F)),
    binary main_v101 main_v107 main_v108 (subf : (⟨S100000x64, .f32⟩ : BufTy).Contents (Elt F) → (⟨S100000x64, .f32⟩ : BufTy).Contents (Elt F) → (⟨S100000x64, .f32⟩ : BufTy).Contents (Elt F)),
    unary main_arg17 main_v109 (broadcastInDim S1x64 ![1] bcast_S64_S1x64_1 : (⟨S64, .f32⟩ : BufTy).Contents (Elt F) → (⟨S1x64, .f32⟩ : BufTy).Contents (Elt F)),
    unary main_v109 main_v110 (broadcastInDim S100000x64 ![0, 1] bcast_S1x64_S100000x64_0_1 : (⟨S1x64, .f32⟩ : BufTy).Contents (Elt F) → (⟨S100000x64, .f32⟩ : BufTy).Contents (Elt F)),
    binary main_v110 main_v108 main_v111 (mulf : (⟨S100000x64, .f32⟩ : BufTy).Contents (Elt F) → (⟨S100000x64, .f32⟩ : BufTy).Contents (Elt F) → (⟨S100000x64, .f32⟩ : BufTy).Contents (Elt F)),
    nullary main_cst_19 (constant S_ .f32 0x3727C5AC#32),
    unary main_cst_19 main_v112 (broadcastInDim S64 ![] bcast_S_S64 : (⟨S_, .f32⟩ : BufTy).Contents (Elt F) → (⟨S64, .f32⟩ : BufTy).Contents (Elt F)),
    binary main_v105 main_v112 main_v113 (addf : (⟨S64, .f32⟩ : BufTy).Contents (Elt F) → (⟨S64, .f32⟩ : BufTy).Contents (Elt F) → (⟨S64, .f32⟩ : BufTy).Contents (Elt F)),
    unary main_v113 main_v114 (Host.rsqrt : (⟨S64, .f32⟩ : BufTy).Contents (Elt F) → (⟨S64, .f32⟩ : BufTy).Contents (Elt F)),
    unary main_v114 main_v115 (broadcastInDim S1x64 ![1] bcast_S64_S1x64_1 : (⟨S64, .f32⟩ : BufTy).Contents (Elt F) → (⟨S1x64, .f32⟩ : BufTy).Contents (Elt F)),
    unary main_v115 main_v116 (broadcastInDim S100000x64 ![0, 1] bcast_S1x64_S100000x64_0_1 : (⟨S1x64, .f32⟩ : BufTy).Contents (Elt F) → (⟨S100000x64, .f32⟩ : BufTy).Contents (Elt F)),
    binary main_v111 main_v116 main_v117 (mulf : (⟨S100000x64, .f32⟩ : BufTy).Contents (Elt F) → (⟨S100000x64, .f32⟩ : BufTy).Contents (Elt F) → (⟨S100000x64, .f32⟩ : BufTy).Contents (Elt F)),
    unary main_arg18 main_v118 (broadcastInDim S1x64 ![1] bcast_S64_S1x64_1 : (⟨S64, .f32⟩ : BufTy).Contents (Elt F) → (⟨S1x64, .f32⟩ : BufTy).Contents (Elt F)),
    unary main_v118 main_v119 (broadcastInDim S100000x64 ![0, 1] bcast_S1x64_S100000x64_0_1 : (⟨S1x64, .f32⟩ : BufTy).Contents (Elt F) → (⟨S100000x64, .f32⟩ : BufTy).Contents (Elt F)),
    binary main_v117 main_v119 main_v120 (addf : (⟨S100000x64, .f32⟩ : BufTy).Contents (Elt F) → (⟨S100000x64, .f32⟩ : BufTy).Contents (Elt F) → (⟨S100000x64, .f32⟩ : BufTy).Contents (Elt F)),
    TRef.nullary main_call7.cst (constant S_ .f32 0x00000000#32),
    TRef.unary main_call7.cst main_call7.v0 (broadcastInDim S100000x64 ![] bcast_S_S100000x64),
    TRef.binary (.of main_v120 : TRef sig ⟨S100000x64, .f32⟩) main_call7.v0 main_call7.v1 maximumf ]
theorem sgBn4_eq : ((ops : List (HloOp τ sig (Elt F))).drop 217).take 19 = sgBn4 := rfl

/-- Operations 237 … 265: the read-out: three sums by graph, three products with their biases, added up. -/
abbrev sgTail : List (HloOp τ sig (Elt F)) :=
  [ nullary main_cst_20 (constant S_ .f32 0x00000000#32),
    unary main_cst_20 main_v122 (broadcastInDim S1000x10 ![] bcast_S_S1000x10 : (⟨S_, .f32⟩ : BufTy).Contents (Elt F) → (⟨S1000x10, .f32⟩ : BufTy).Contents (Elt F)),
    nullary main_cst_21 (constant S_ .f32 0x00000000#32),
    unary main_cst_21 main_v123 (broadcastInDim S1000x64 ![] bcast_S_S1000x64 : (⟨S_, .f32⟩ : BufTy).Contents (Elt F) → (⟨S1000x64, .f32⟩ : BufTy).Contents (Elt F)),
    unary main_arg2 main_v124 (broadcastInDim S100000x1 ![0] bcast_S100000_S100000x1_0 : (⟨S100000, .i32⟩ : BufTy).Contents (Elt F) → (⟨S100000x1, .i32⟩ : BufTy).Contents (Elt F)),
    ternary main_v123 main_v124 main_arg0 main_v125 ((fun x i u => Host.scatterAdd scatter_S1000x64_S100000x1_S100000x64_1_0_0_1 x i u) : (⟨S1000x64, .f32⟩ : BufTy).Contents (Elt F) → (⟨S100000x1, .i32⟩ : BufTy).Contents (Elt F) → (⟨S100000x64, .f32⟩ : BufTy).Contents (Elt F) → (⟨S1000x64, .f32⟩ : BufTy).Contents (Elt F)),
    binary main_v125 main_arg19 main_v126 ((fun l r => Host.dotGeneral dot_S1000x64_S64x10_S1000x10_1_0_0_1_n_n none l r) : (⟨S1000x64, .f32⟩ : BufTy).Contents (Elt F) → (⟨S64x10, .f32⟩ : BufTy).Contents (Elt F) → (⟨S1000x10, .f32⟩ : BufTy).Contents (Elt F)),
    binary main_v122 main_v126 main_v127 (addf : (⟨S1000x10, .f32⟩ : BufTy).Contents (Elt F) → (⟨S1000x10, .f32⟩ : BufTy).Contents (Elt F) → (⟨S1000x10, .f32⟩ : BufTy).Contents (Elt F)),
    unary main_arg20 main_v128 (broadcastInDim S1x10 ![1] bcast_S10_S1x10_1 : (⟨S10, .f32⟩ : BufTy).Contents (Elt F) → (⟨S1x10, .f32⟩ : BufTy).Contents (Elt F)),
    unary main_v128 main_v129 (broadcastInDim S1000x10 ![0, 1] bcast_S1x10_S1000x10_0_1 : (⟨S1x10, .f32⟩ : BufTy).Contents (Elt F) → (⟨S1000x10, .f32⟩ : BufTy).Contents (Elt F)),
    binary main_v127 main_v129 main_v130 (addf : (⟨S1000x10, .f32⟩ : BufTy).Contents (Elt F) → (⟨S1000x10, .f32⟩ : BufTy).Contents (Elt F) → (⟨S1000x10, .f32⟩ : BufTy).Contents (Elt F)),
    nullary main_cst_22 (constant S_ .f32 0x00000000#32),
    unary main_cst_22 main_v131 (broadcastInDim S1000x64 ![] bcast_S_S1000x64 : (⟨S_, .f32⟩ : BufTy).Contents (Elt F) → (⟨S1000x64, .f32⟩ : BufTy).Contents (Elt F)),
    unary main_arg2 main_v132 (broadcastInDim S100000x1 ![0] bcast_S100000_S100000x1_0 : (⟨S100000, .i32⟩ : BufTy).Contents (Elt F) → (⟨S100000x1, .i32⟩ : BufTy).Contents (Elt F)),
    ternary main_v131 main_v132 main_v62 main_v133 ((fun x i u => Host.scatterAdd scatter_S1000x64_S100000x1_S100000x64_1_0_0_1 x i u) : (⟨S1000x64, .f32⟩ : BufTy).Contents (Elt F) → (⟨S100000x1, .i32⟩ : BufTy).Contents (Elt F) → (⟨S100000x64, .f32⟩ : BufTy).Contents (Elt F) → (⟨S1000x64, .f32⟩ : BufTy).Contents (Elt F)),
    binary main_v133 main_arg21 main_v134 ((fun l r => Host.dotGeneral dot_S1000x64_S64x10_S1000x10_1_0_0_1_n_n none l r) : (⟨S1000x64, .f32⟩ : BufTy).Contents (Elt F) → (⟨S64x10, .f32⟩ : BufTy).Contents (Elt F) → (⟨S1000x10, .f32⟩ : BufTy).Contents (Elt F)),
    binary main_v130 main_v134 main_v135 (addf : (⟨S1000x10, .f32⟩ : BufTy).Contents (Elt F) → (⟨S1000x10, .f32⟩ : BufTy).Contents (Elt F) → (⟨S1000x10, .f32⟩ : BufTy).Contents (Elt F)),
    unary main_arg22 main_v136 (broadcastInDim S1x10 ![1] bcast_S10_S1x10_1 : (⟨S10, .f32⟩ : BufTy).Contents (Elt F) → (⟨S1x10, .f32⟩ : BufTy).Contents (Elt F)),
    unary main_v136 main_v137 (broadcastInDim S1000x10 ![0, 1] bcast_S1x10_S1000x10_0_1 : (⟨S1x10, .f32⟩ : BufTy).Contents (Elt F) → (⟨S1000x10, .f32⟩ : BufTy).Contents (Elt F)),
    binary main_v135 main_v137 main_v138 (addf : (⟨S1000x10, .f32⟩ : BufTy).Contents (Elt F) → (⟨S1000x10, .f32⟩ : BufTy).Contents (Elt F) → (⟨S1000x10, .f32⟩ : BufTy).Contents (Elt F)),
    nullary main_cst_23 (constant S_ .f32 0x00000000#32),
    unary main_cst_23 main_v139 (broadcastInDim S1000x64 ![] bcast_S_S1000x64 : (⟨S_, .f32⟩ : BufTy).Contents (Elt F) → (⟨S1000x64, .f32⟩ : BufTy).Contents (Elt F)),
    unary main_arg2 main_v140 (broadcastInDim S100000x1 ![0] bcast_S100000_S100000x1_0 : (⟨S100000, .i32⟩ : BufTy).Contents (Elt F) → (⟨S100000x1, .i32⟩ : BufTy).Contents (Elt F)),
    ternary main_v139 main_v140 main_v121 main_v141 ((fun x i u => Host.scatterAdd scatter_S1000x64_S100000x1_S100000x64_1_0_0_1 x i u) : (⟨S1000x64, .f32⟩ : BufTy).Contents (Elt F) → (⟨S100000x1, .i32⟩ : BufTy).Contents (Elt F) → (⟨S100000x64, .f32⟩ : BufTy).Contents (Elt F) → (⟨S1000x64, .f32⟩ : BufTy).Contents (Elt F)),
    binary main_v141 main_arg23 main_v142 ((fun l r => Host.dotGeneral dot_S1000x64_S64x10_S1000x10_1_0_0_1_n_n none l r) : (⟨S1000x64, .f32⟩ : BufTy).Contents (Elt F) → (⟨S64x10, .f32⟩ : BufTy).Contents (Elt F) → (⟨S1000x10, .f32⟩ : BufTy).Contents (Elt F)),
    binary main_v138 main_v142 main_v143 (addf : (⟨S1000x10, .f32⟩ : BufTy).Contents (Elt F) → (⟨S1000x10, .f32⟩ : BufTy).Contents (Elt F) → (⟨S1000x10, .f32⟩ : BufTy).Contents (Elt F)),
    unary main_arg24 main_v144 (broadcastInDim S1x10 ![1] bcast_S10_S1x10_1 : (⟨S10, .f32⟩ : BufTy).Contents (Elt F) → (⟨S1x10, .f32⟩ : BufTy).Contents (Elt F)),
    unary main_v144 main_v145 (broadcastInDim S1000x10 ![0, 1] bcast_S1x10_S1000x10_0_1 : (⟨S1x10, .f32⟩ : BufTy).Contents (Elt F) → (⟨S1000x10, .f32⟩ : BufTy).Contents (Elt F)),
    binary main_v143 main_v145 main_v146 (addf : (⟨S1000x10, .f32⟩ : BufTy).Contents (Elt F) → (⟨S1000x10, .f32⟩ : BufTy).Contents (Elt F) → (⟨S1000x10, .f32⟩ : BufTy).Contents (Elt F)) ]
theorem sgTail_eq : ((ops : List (HloOp τ sig (Elt F))).drop 236).take 29 = sgTail := rfl

/-- The references the whole line writes, in order. -/
abbrev opsW : List (Ref sig .tc) := ops0_W ++ (ops1_W ++ ops2_W)

set_option maxRecDepth 8192 in
theorem ops0_writesL : Writes (ops0 : List (HloOp τ sig (Elt F))) ops0_W := by
  unfold Writes
  repeat (first | exact List.Forall₂.nil | refine List.Forall₂.cons rfl ?_)
set_option maxRecDepth 8192 in
theorem ops1_writesL : Writes (ops1 : List (HloOp τ sig (Elt F))) ops1_W := by
  unfold Writes
  repeat (first | exact List.Forall₂.nil | refine List.Forall₂.cons rfl ?_)
set_option maxRecDepth 8192 in
theorem ops2_writesL : Writes (ops2 : List (HloOp τ sig (Elt F))) ops2_W := by
  unfold Writes
  repeat (first | exact List.Forall₂.nil | refine List.Forall₂.cons rfl ?_)

/-- Operation by operation, the line writes exactly the references of that list. -/
theorem ops_writesL : Writes (ops : List (HloOp τ sig (Elt F))) opsW :=
  ops0_writesL.append (ops1_writesL.append ops2_writesL)

end Cert.ReferenceIdeal.RefRun

end
-- ==== Proof.RefValue.lean ====
/- The reference's result as functions of its arguments' contents, at the exact reals.

   The line of 265 operations is read stretch by stretch: the contents it ends with at a stretch's result are that
   stretch's composed function of the contents it ends with at the buffers the stretch reads. The aggregation and
   the read-out are kept as two closed functions (`aggOf`, `tailOf`): nothing below looks inside them. -/
import proofs.«152416_j10892037062711_1_alg».proof.Proof.RefSegs
import Idealize.ShloMosaic.PureOps.Ideal
import Idealize.ShloMosaic.Lib.ValueIdx

noncomputable section

namespace Cert.ReferenceIdeal.RefValue

open Cert.ReferenceIdeal Cert.ReferenceIdeal.Gen Cert.ReferenceIdeal.RefRun Idealize.ShloMosaic Idealize.ShloMosaic.TcCoe
  Idealize.SL.Sem Idealize.ShloMosaic.StableHlo Cert.LibStage

/-! ## The aggregation over the edges -/

/-- The edge array's row `r` (0: sources, 1: targets) as a flat vector. -/
def edgeRow0 (ei : S2x1600000.Idx → BitVec 32) : S1600000.Idx → BitVec 32 :=
  shapeCast S1600000 (extractStridedSlice S1x1600000 ![0, 0] ei slices_S2x1600000_S1x1600000_0_0) shapeCasts_S1x1600000_S1600000
@[inherit_doc edgeRow0]
def edgeRow1 (ei : S2x1600000.Idx → BitVec 32) : S1600000.Idx → BitVec 32 :=
  shapeCast S1600000 (extractStridedSlice S1x1600000 ![1, 0] ei slices_S2x1600000_S1x1600000_1_0) shapeCasts_S1x1600000_S1600000

/-- From the two flat edge rows: into each node, the sum of the rows of `x` at the sources (a negative source
    counted from the end) of the edges that point to it. -/
def aggRows (x : S100000x64.Idx → EReal) (src dst : S1600000.Idx → BitVec 32) : S100000x64.Idx → EReal :=
  Host.scatterAdd (F := Ideal) (φ := .f32) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (Host.gather gather_S100000x64_S1600000x1_S1600000x64_1_0_n_n_0_1_164 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The aggregation as one function of the node rows and the edge array. -/
def aggOf (x : S100000x64.Idx → EReal) (ei : S2x1600000.Idx → BitVec 32) : S100000x64.Idx → EReal :=
  aggRows x (edgeRow0 ei) (edgeRow1 ei)

/-- An argument's final contents are its launch contents. -/
theorem arg_keep (V : Valuation τ sig (Elt Ideal)) (r : Ref sig .tc) (h0 : r ∉ ops0_W) (h1 : r ∉ ops1_W) (h2 : r ∉ ops2_W) :
    after ops V (Proc.devRef .tc r) = V (Proc.devRef .tc r) := ops_keep V r h0 h1 h2

/-- The two flat edge rows, as the line leaves them. -/
theorem rows_eq (V : Valuation τ sig (Elt Ideal)) :
    after ops V (Proc.devRef .tc main_v1) = edgeRow0 (V (Proc.devRef .tc main_arg1))
    ∧ after ops V (Proc.devRef .tc main_v3) = edgeRow1 (V (Proc.devRef .tc main_arg1)) := by
  obtain ⟨G, hin, hout⟩ := seg_read ops_writesL 0 17 sgAgg1 sgAgg1_eq V
  have e1 : G (Proc.devRef .tc main_arg1) = V (Proc.devRef .tc main_arg1) :=
    (hin main_arg1 (by decide)).symm.trans (arg_keep V main_arg1 (by decide) (by decide) (by decide))
  rw [hout main_v1 (by decide), hout main_v3 (by decide), ← e1]
  constructor
  · after_results
    rfl
  · after_results
    rfl

/-- The first aggregation: of the node rows given. -/
theorem agg1_eq (V : Valuation τ sig (Elt Ideal)) :
    after ops V (Proc.devRef .tc main_v13) = aggOf (V (Proc.devRef .tc main_arg0)) (V (Proc.devRef .tc main_arg1)) := by
  obtain ⟨G, hin, hout⟩ := seg_read ops_writesL 0 17 sgAgg1 sgAgg1_eq V
  have e0 : G (Proc.devRef .tc main_arg0) = V (Proc.devRef .tc main_arg0) :=
    (hin main_arg0 (by decide)).symm.trans (arg_keep V main_arg0 (by decide) (by decide) (by decide))
  have e1 : G (Proc.devRef .tc main_arg1) = V (Proc.devRef .tc main_arg1) :=
    (hin main_arg1 (by decide)).symm.trans (arg_keep V main_arg1 (by decide) (by decide) (by decide))
  rw [hout main_v13 (by decide), ← e0, ← e1]
  after_results
  rfl

/-- The second aggregation: the same function, of the first layer's output. -/
theorem agg2_eq (V : Valuation τ sig (Elt Ideal)) :
    after ops V (Proc.devRef .tc main_v72) = aggOf (after ops V (Proc.devRef .tc main_v62)) (V (Proc.devRef .tc main_arg1)) := by
  obtain ⟨G, hin, hout⟩ := seg_read ops_writesL 120 13 sgAgg2 sgAgg2_eq V
  have hr := rows_eq V
  rw [hout main_v72 (by decide), aggOf, ← hr.1, ← hr.2, hin main_v62 (by decide), hin main_v1 (by decide),
    hin main_v3 (by decide)]
  after_results
  rfl

end Cert.ReferenceIdeal.RefValue

end
-- ==== Proof.RefTail.lean ====
/- The reference's result buffer as the read-out function of the input rows and the two layers' outputs. -/
import proofs.«152416_j10892037062711_1_alg».proof.Proof.RefValue

set_option pp.maxSteps 5000
set_option pp.deepTerms false

noncomputable section

namespace Cert.ReferenceIdeal.RefValue

open Cert.ReferenceIdeal Cert.ReferenceIdeal.Gen Cert.ReferenceIdeal.RefRun Idealize.ShloMosaic Idealize.ShloMosaic.TcCoe
  Idealize.SL.Sem Idealize.ShloMosaic.StableHlo Cert.LibStage

/-! ## The read-out -/

/-- The rows of `h` summed by graph. -/
def poolOf (h : S100000x64.Idx → EReal) (batch : S100000.Idx → BitVec 32) : S1000x64.Idx → EReal :=
  Host.scatterAdd (F := Ideal) (φ := .f32) scatter_S1000x64_S100000x1_S100000x64_1_0_0_1
    (broadcastInDim S1000x64 ![] bcast_S_S1000x64 (constant (F := Ideal) S_ .f32 0x00000000#32))
    (broadcastInDim S100000x1 ![0] bcast_S100000_S100000x1_0 batch) h
/-- A pooled array times a read-out matrix. -/
def readOf (p : S1000x64.Idx → EReal) (w : S64x10.Idx → EReal) : S1000x10.Idx → EReal :=
  Host.dotGeneral (F := Ideal) (φ₁ := .f32) (φ₂ := .f32) dot_S1000x64_S64x10_S1000x10_1_0_0_1_n_n none p w
/-- A read-out bias spread over the graphs. -/
def biasOf (b : S10.Idx → EReal) : S1000x10.Idx → EReal :=
  broadcastInDim S1000x10 ![0, 1] bcast_S1x10_S1000x10_0_1 (broadcastInDim S1x10 ![1] bcast_S10_S1x10_1 b)

/-- The read-out as one function: from zero, for the input rows and each layer's output in turn, add the pooled
    rows times that read-out matrix, then its bias. -/
def tailOf (x h1 h2 : S100000x64.Idx → EReal) (batch : S100000.Idx → BitVec 32)
    (l0w : S64x10.Idx → EReal) (l0b : S10.Idx → EReal) (l1w : S64x10.Idx → EReal) (l1b : S10.Idx → EReal)
    (l2w : S64x10.Idx → EReal) (l2b : S10.Idx → EReal) : S1000x10.Idx → EReal :=
  addf (F := Ideal) (φ := .f32)
    (addf (F := Ideal) (φ := .f32)
      (addf (F := Ideal) (φ := .f32)
        (addf (F := Ideal) (φ := .f32)
          (addf (F := Ideal) (φ := .f32)
            (addf (F := Ideal) (φ := .f32)
              (broadcastInDim S1000x10 ![] bcast_S_S1000x10 (constant (F := Ideal) S_ .f32 0x00000000#32))
              (readOf (poolOf x batch) l0w))
            (biasOf l0b))
          (readOf (poolOf h1 batch) l1w))
        (biasOf l1b))
      (readOf (poolOf h2 batch) l2w))
    (biasOf l2b)

set_option maxHeartbeats 4000000 in
/-- The result buffer: the read-out of the input rows and the two layers' outputs. -/
theorem result_eq (V : Valuation τ sig (Elt Ideal)) :
    after ops V (Proc.devRef .tc main_v146)
      = tailOf (V (Proc.devRef .tc main_arg0)) (after ops V (Proc.devRef .tc main_v62)) (after ops V (Proc.devRef .tc main_v121))
          (V (Proc.devRef .tc main_arg2)) (V (Proc.devRef .tc main_arg19)) (V (Proc.devRef .tc main_arg20)) (V (Proc.devRef .tc main_arg21)) (V (Proc.devRef .tc main_arg22)) (V (Proc.devRef .tc main_arg23)) (V (Proc.devRef .tc main_arg24)) := by
  obtain ⟨G, hin, hout⟩ := seg_read ops_writesL 236 29 sgTail sgTail_eq V
  have e0 : G (Proc.devRef .tc main_arg0) = V (Proc.devRef .tc main_arg0) :=
    (hin main_arg0 (by decide)).symm.trans (arg_keep V main_arg0 (by decide) (by decide) (by decide))
  have e_main_arg2 : G (Proc.devRef .tc main_arg2) = V (Proc.devRef .tc main_arg2) :=
    (hin main_arg2 (by decide)).symm.trans (arg_keep V main_arg2 (by decide) (by decide) (by decide))
  have e_main_arg19 : G (Proc.devRef .tc main_arg19) = V (Proc.devRef .tc main_arg19) :=
    (hin main_arg19 (by decide)).symm.trans (arg_keep V main_arg19 (by decide) (by decide) (by decide))
  have e_main_arg20 : G (Proc.devRef .tc main_arg20) = V (Proc.devRef .tc main_arg20) :=
    (hin main_arg20 (by decide)).symm.trans (arg_keep V main_arg20 (by decide) (by decide) (by decide))
  have e_main_arg21 : G (Proc.devRef .tc main_arg21) = V (Proc.devRef .tc main_arg21) :=
    (hin main_arg21 (by decide)).symm.trans (arg_keep V main_arg21 (by decide) (by decide) (by decide))
  have e_main_arg22 : G (Proc.devRef .tc main_arg22) = V (Proc.devRef .tc main_arg22) :=
    (hin main_arg22 (by decide)).symm.trans (arg_keep V main_arg22 (by decide) (by decide) (by decide))
  have e_main_arg23 : G (Proc.devRef .tc main_arg23) = V (Proc.devRef .tc main_arg23) :=
    (hin main_arg23 (by decide)).symm.trans (arg_keep V main_arg23 (by decide) (by decide) (by decide))
  have e_main_arg24 : G (Proc.devRef .tc main_arg24) = V (Proc.devRef .tc main_arg24) :=
    (hin main_arg24 (by decide)).symm.trans (arg_keep V main_arg24 (by decide) (by decide) (by decide))
  rw [hout main_v146 (by decide), hin main_v62 (by decide), hin main_v121 (by decide), ← e0,
    ← e_main_arg2, ← e_main_arg19, ← e_main_arg20, ← e_main_arg21, ← e_main_arg22, ← e_main_arg23, ← e_main_arg24]
  after_results_simp
  rfl

end Cert.ReferenceIdeal.RefValue

end
-- ==== Proof.KTail.lean ====
/- The result of `KernelIdeal`'s @main through its last host stretch: the read-out of the input rows and the two layers'
   outputs — from zero, for each of the three in turn, the rows summed by graph times a read-out matrix, plus a bias. -/
import proofs.«152416_j10892037062711_1_alg».proof.Proof.Gen.KernelIdeal.Regions
import proofs.«152416_j10892037062711_1_alg».proof.Proof.RefTail

set_option maxRecDepth 16384

noncomputable section

namespace Cert.KernelIdeal.KTail

open Cert.KernelIdeal Cert.KernelIdeal.Gen
open Idealize.ShloMosaic Idealize.ShloMosaic.TcCoe Idealize.SL.Sem Idealize.ShloMosaic.StableHlo

set_option maxHeartbeats 4000000 in
/-- What the last host stretch leaves in the result's buffer, from any contents before it: the read-out of the contents
    at the input rows, at the two layers' outputs, at the graph assignment and at the three read-outs' matrices and biases. -/
theorem tail_after (W : Valuation τ sig (Elt Ideal)) :
    StableHlo.after (hostOps6 (F := Ideal)) W (Proc.devRef .tc main_v90)
      = Cert.ReferenceIdeal.RefValue.tailOf (W (Proc.devRef .tc main_arg0)) (W (Proc.devRef .tc main_v34)) (W (Proc.devRef .tc main_v65))
          (W (Proc.devRef .tc main_arg2)) (W (Proc.devRef .tc main_arg19)) (W (Proc.devRef .tc main_arg20)) (W (Proc.devRef .tc main_arg21)) (W (Proc.devRef .tc main_arg22)) (W (Proc.devRef .tc main_arg23)) (W (Proc.devRef .tc main_arg24)) := by
  after_results_simp
  rfl

variable (m : (ℓ : Loc nD τ sig) → Buf (Elt Ideal) ℓ) (outs : Outs (F := Ideal))

/-- A buffer no host stretch writes and no region may change holds its launch contents before the last host stretch. -/
theorem V12_launch (c : Dev nD) (r : Ref sig .tc)
    (h1 : r ∉ hostOps0_W)
    (h2 : r ∉ ([main_v20_0, main_v20_1, main_v20_2] : List (Ref sig .tc)))
    (h3 : r ∉ hostOps1_W)
    (h4 : r ∉ ([main_v27_0, main_v27_1, main_v27_2] : List (Ref sig .tc)))
    (h5 : r ∉ hostOps2_W)
    (h6 : r ∉ ([main_v34] : List (Ref sig .tc)))
    (h7 : r ∉ hostOps3_W)
    (h8 : r ∉ ([main_v51_0, main_v51_1, main_v51_2] : List (Ref sig .tc)))
    (h9 : r ∉ hostOps4_W)
    (h10 : r ∉ ([main_v58_0, main_v58_1, main_v58_2] : List (Ref sig .tc)))
    (h11 : r ∉ hostOps5_W)
    (h12 : r ∉ ([main_v65] : List (Ref sig .tc))) :
    V12 m outs c r = m ((c : Thread nD τ).loc r) :=
  (V12_of m outs c r h12).trans <| (V11_of m outs c r h11).trans <| (V10_of m outs c r h10).trans <| (V9_of m outs c r h9).trans <| (V8_of m outs c r h8).trans <| (V7_of m outs c r h7).trans <| (V6_of m outs c r h6).trans <| (V5_of m outs c r h5).trans <| (V4_of m outs c r h4).trans <| (V3_of m outs c r h3).trans <| (V2_of m outs c r h2).trans <| (V1_of m c r h1).trans <| rfl

/-- The second layer's output is what the last region leaves; -/
theorem V12_v65 (c : Dev nD) : V12 m outs c main_v65 = outs 12 main_v65 c := Function.update_self _ _ _
/-- the first layer's, what the third region leaves: nothing between writes it. -/
theorem V12_v34 (c : Dev nD) : V12 m outs c main_v34 = outs 6 main_v34 c :=
  (V12_of m outs c main_v34 (by decide)).trans <| (V11_of m outs c main_v34 (by decide)).trans <| (V10_of m outs c main_v34 (by decide)).trans <|
    (V9_of m outs c main_v34 (by decide)).trans <| (V8_of m outs c main_v34 (by decide)).trans <| (V7_of m outs c main_v34 (by decide)).trans <|
    Function.update_self _ _ _

/-- THE RESULT through the host tail: the read-out of the launch's input rows and of what the third and the sixth region
    leave, at the launch's graph assignment, read-out matrices and biases. -/
theorem result_tail (c : Dev nD) :
    V13 m outs c main_v90
      = Cert.ReferenceIdeal.RefValue.tailOf (m ((c : Thread nD τ).loc main_arg0)) (outs 6 main_v34 c) (outs 12 main_v65 c)
          (m ((c : Thread nD τ).loc main_arg2)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  rw [show V13 m outs c main_v90 = StableHlo.after (hostOps6 (F := Ideal)) (V12 m outs c) (Proc.devRef .tc main_v90) from rfl, tail_after,
    show V12 m outs c (Proc.devRef .tc main_v34) = outs 6 main_v34 c from V12_v34 m outs c,
    show V12 m outs c (Proc.devRef .tc main_v65) = outs 12 main_v65 c from V12_v65 m outs c,
    show V12 m outs c (Proc.devRef .tc main_arg0) = m ((c : Thread nD τ).loc main_arg0) from V12_launch m outs c main_arg0 (by decide) (by decide) (by decide) (by decide) (by decide) (by decide) (by decide) (by decide) (by decide) (by decide) (by decide) (by decide),
    show V12 m outs c (Proc.devRef .tc main_arg2) = m ((c : Thread nD τ).loc main_arg2) from V12_launch m outs c main_arg2 (by decide) (by decide) (by decide) (by decide) (by decide) (by decide) (by decide) (by decide) (by decide) (by decide) (by decide) (by decide),
    show V12 m outs c (Proc.devRef .tc main_arg19) = m ((c : Thread nD τ).loc main_arg19) from V12_launch m outs c main_arg19 (by decide) (by decide) (by decide) (by decide) (by decide) (by decide) (by decide) (by decide) (by decide) (by decide) (by decide) (by decide),
    show V12 m outs c (Proc.devRef .tc main_arg20) = m ((c : Thread nD τ).loc main_arg20) from V12_launch m outs c main_arg20 (by decide) (by decide) (by decide) (by decide) (by decide) (by decide) (by decide) (by decide) (by decide) (by decide) (by decide) (by decide),
    show V12 m outs c (Proc.devRef .tc main_arg21) = m ((c : Thread nD τ).loc main_arg21) from V12_launch m outs c main_arg21 (by decide) (by decide) (by decide) (by decide) (by decide) (by decide) (by decide) (by decide) (by decide) (by decide) (by decide) (by decide),
    show V12 m outs c (Proc.devRef .tc main_arg22) = m ((c : Thread nD τ).loc main_arg22) from V12_launch m outs c main_arg22 (by decide) (by decide) (by decide) (by decide) (by decide) (by decide) (by decide) (by decide) (by decide) (by decide) (by decide) (by decide),
    show V12 m outs c (Proc.devRef .tc main_arg23) = m ((c : Thread nD τ).loc main_arg23) from V12_launch m outs c main_arg23 (by decide) (by decide) (by decide) (by decide) (by decide) (by decide) (by decide) (by decide) (by decide) (by decide) (by decide) (by decide),
    show V12 m outs c (Proc.devRef .tc main_arg24) = m ((c : Thread nD τ).loc main_arg24) from V12_launch m outs c main_arg24 (by decide) (by decide) (by decide) (by decide) (by decide) (by decide) (by decide) (by decide) (by decide) (by decide) (by decide) (by decide)]

end Cert.KernelIdeal.KTail

end
-- ==== Proof.KResult.lean ====
/- Both programs' results at the exact reals as ONE read-out function: the kernel's, of the launch's input rows and of what its
   third and sixth regions leave; the reference's, of its input rows and of what its line of operations leaves at the
   two layers' outputs. Each beside the arguments, unchanged. -/
import proofs.«152416_j10892037062711_1_alg».proof.Proof.Frame
import proofs.«152416_j10892037062711_1_alg».proof.Proof.KTail
import proofs.«152416_j10892037062711_1_alg».proof.Proof.RefTail

set_option maxRecDepth 16384

noncomputable section

namespace Cert.KernelIdeal.KResult

open Idealize.ShloMosaic Idealize.ShloMosaic.TcCoe Idealize.SL.Sem
open Cert.KernelIdeal

/-- The kernel: every weakly fair execution terminates, the result's buffer holds the read-out, the arguments end as launched. -/
theorem kernel_result (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v90)
        = Cert.ReferenceIdeal.RefValue.tailOf (m ((c.tc : Thread Cert.KernelIdeal.nD Cert.KernelIdeal.τ).loc Cert.KernelIdeal.main_arg0)) (Assembly.OUTS m 6 Cert.KernelIdeal.main_v34 c) (Assembly.OUTS m 12 Cert.KernelIdeal.main_v65 c)
          (m ((c.tc : Thread Cert.KernelIdeal.nD Cert.KernelIdeal.τ).loc Cert.KernelIdeal.main_arg2)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)) :=
  (θ_run (Cert.KernelIdeal.defs (F := Ideal)) _ _).mono (fun r h c => ⟨(h c).2.trans (KTail.result_tail m (Assembly.OUTS m) c), (h c).1⟩)
    (Assembly.result (F := Ideal) m ρ)

/-- The reference: likewise, the two layers' outputs being what its line of operations leaves there. -/
theorem reference_result (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v146)
        = Cert.ReferenceIdeal.RefValue.tailOf (m' ((c.tc : Thread Cert.ReferenceIdeal.nD Cert.ReferenceIdeal.τ).loc Cert.ReferenceIdeal.main_arg0)) (StableHlo.after (Cert.ReferenceIdeal.RefRun.ops (F := Ideal)) (fun b => m' (c, b)) (Proc.devRef .tc Cert.ReferenceIdeal.main_v62)) (StableHlo.after (Cert.ReferenceIdeal.RefRun.ops (F := Ideal)) (fun b => m' (c, b)) (Proc.devRef .tc Cert.ReferenceIdeal.main_v121))
          (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)) :=
  (θ_run (Cert.ReferenceIdeal.defs (F := Ideal)) _ _).mono (fun r h c => ⟨(h c).1.trans (Cert.ReferenceIdeal.RefValue.result_eq (fun b => m' (c, b))), (h c).2⟩)
    (Cert.ReferenceIdeal.RefRun.run (F := Ideal) m' ρ')

end Cert.KernelIdeal.KResult

end
-- ==== Proof.LibPlainMatmul.lean ====
/-
  Two families of small facts about arrays read at coordinates, over literal rank-2 and rank-3 shapes of any sizes.

  * A plain rows-by-columns matrix product — the left operand contracted on its columns, the right on its rows, no
    batch axis — into the zero accumulator, over the extended reals: at `(p, q)` it is the sum over the shared axis
    of the products of row `p` of the left operand and column `q` of the right. A product record of any program
    with these dimension numbers unifies with `plainDims` by unfolding, so the lemma applies to it through
    `refine (matmul_zero_plain _ _ _ p q).trans ?_`.
  * Unit axes added by a shape cast (`[a, c] → [a, 1, c]`, `[c] → [1, 1, c]`) and broadcasts along one or two unit
    axes (`[a, 1, c]`, `[1, b, c]`, `[1, 1, c] → [a, b, c]`), each read at explicit coordinates: a unit axis
    contributes nothing to the row-major position, and a broadcast reads its operand at coordinate zero of the
    axes it spreads.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibPlainMatmul

open Idealize.ShloMosaic Idealize.ShloMosaic.ValueIdx
open scoped BigOperators

/-! ## A rows-by-columns product into the zero accumulator -/

/-- The dimension numbers of a plain m × k by k × n product: the left operand contracted on its columns, the right on
    its rows, no batch axis. -/
abbrev plainDims {m k n : Nat} (wf : DotDims.WF (⟨2, ![m, k]⟩ : Shape) ⟨2, ![k, n]⟩ ⟨2, ![m, n]⟩ [1] [0] [0] [1] [] []) :
    DotDims ⟨2, ![m, k]⟩ ⟨2, ![k, n]⟩ ⟨2, ![m, n]⟩ := ⟨[1], [0], [0], [1], [], [], wf⟩

section PlainDims
variable {m k n : Nat} (wf : DotDims.WF (⟨2, ![m, k]⟩ : Shape) ⟨2, ![k, n]⟩ ⟨2, ![m, n]⟩ [1] [0] [0] [1] [] [])

/-- The left operand is read in the result's row … -/
theorem plain_lhs_row (j : (⟨2, ![m, n]⟩ : Shape).Idx) (c : (plainDims wf).contr.Idx) :
    ((plainDims wf).lhsIdx j c 0).val = (j 0).val := by
  unfold DotDims.lhsIdx
  rw [dif_neg (show ¬(0 : Fin (⟨2, ![m, k]⟩ : Shape).rank) ∈ (plainDims wf).lhsBatch from List.not_mem_nil),
    dif_pos (show (0 : Fin (⟨2, ![m, k]⟩ : Shape).rank) ∈ (plainDims wf).lhsNonContracting from List.mem_singleton.mpr rfl)]
  rfl

/-- … and the right operand in the result's column. -/
theorem plain_rhs_col (j : (⟨2, ![m, n]⟩ : Shape).Idx) (c : (plainDims wf).contr.Idx) :
    ((plainDims wf).rhsIdx j c 1).val = (j 1).val := by
  unfold DotDims.rhsIdx
  rw [dif_neg (show ¬(1 : Fin (⟨2, ![k, n]⟩ : Shape).rank) ∈ (plainDims wf).rhsBatch from List.not_mem_nil),
    dif_pos (show (1 : Fin (⟨2, ![k, n]⟩ : Shape).rank) ∈ (plainDims wf).rhsNonContracting from List.mem_singleton.mpr rfl)]
  rfl

/-- Such a product into the zero accumulator reads, at (p, q), the sum over the shared axis of the products of row p
    of the left operand and column q of the right. -/
theorem matmul_zero_plain {φ₁ φ₂ : FTy} (l : FVec Ideal ⟨2, ![m, k]⟩ φ₁) (r : FVec Ideal ⟨2, ![k, n]⟩ φ₂)
    (p : Fin m) (q : Fin n) :
    FloatOps.matmul (plainDims wf) none l r (constant (F := Ideal) ⟨2, ![m, n]⟩ .f32 0x00000000#32) (ix2 p q)
      = ∑ c : Fin k, l (ix2 p c) * r (ix2 c q) := by
  rw [Ideal.matmul_constant_zero_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end PlainDims

/-! ## Unit axes added, and broadcasts along an axis, read at coordinates -/

section Layout
variable {α : Type}

/-- An [a, c] array cast to [a, 1, c] reads, at (p, z, s), the operand at (p, s). -/
theorem shapeCast_ac_a1c_apply {a c : ℕ} (x : (⟨2, ![a, c]⟩ : Shape).Idx → α)
    (h : (⟨2, ![a, c]⟩ : Shape).ShapeCasts ⟨3, ![a, 1, c]⟩) (p : Fin a) (z : Fin 1) (s : Fin c) :
    shapeCast ⟨3, ![a, 1, c]⟩ x h (ix3 p z s) = x (ix2 p s) :=
  shapeCast_apply x h _ _ (by
    have hz : z.val = 0 := by omega
    rw [Shape.rowMajor_val_three, Shape.rowMajor_val_two]
    show p.val * c + s.val = (p.val * 1 + z.val) * c + s.val
    rw [hz, Nat.mul_one, Nat.add_zero])

/-- A [c] array cast to [1, 1, c] reads, at (y, z, s), the operand at s. -/
theorem shapeCast_c_11c_apply {c : ℕ} (x : (⟨1, ![c]⟩ : Shape).Idx → α)
    (h : (⟨1, ![c]⟩ : Shape).ShapeCasts ⟨3, ![1, 1, c]⟩) (y z : Fin 1) (s : Fin c) :
    shapeCast ⟨3, ![1, 1, c]⟩ x h (ix3 y z s) = x (ix1 s) :=
  shapeCast_apply x h _ _ (by
    have hy : y.val = 0 := by omega
    have hz : z.val = 0 := by omega
    rw [Shape.rowMajor_val_three, Shape.rowMajor_val_one]
    show s.val = (y.val * 1 + z.val) * c + s.val
    simp only [hy, hz, Nat.zero_mul, Nat.zero_add, Nat.mul_one])

/-- An [a, 1, c] array broadcast to [a, b, c] reads, at (p, q, s), the operand at (p, 0, s). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (s : Fin c) :
    broadcastTo ⟨3, ![a, b, c]⟩ x h (ix3 p q s) = x (ix3 p (0 : Fin 1) s) := by
  refine broadcastTo_apply x h (ix3 p q s) (ix3 p (0 : Fin 1) s) fun ax => ?_
  match ax with
  | ⟨0, _⟩ =>
    show p.val = if a = 1 then 0 else p.val
    split
    · have := p.isLt; omega
    · rfl
  | ⟨1, _⟩ => rfl
  | ⟨2, _⟩ =>
    show s.val = if c = 1 then 0 else s.val
    split
    · have := s.isLt; omega
    · rfl

/-- A [1, b, c] array broadcast to [a, b, c] reads, at (p, q, s), the operand at (0, q, s). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (s : Fin c) :
    broadcastTo ⟨3, ![a, b, c]⟩ x h (ix3 p q s) = x (ix3 (0 : Fin 1) q s) := by
  refine broadcastTo_apply x h (ix3 p q s) (ix3 (0 : Fin 1) q s) fun ax => ?_
  match ax with
  | ⟨0, _⟩ => rfl
  | ⟨1, _⟩ =>
    show q.val = if b = 1 then 0 else q.val
    split
    · have := q.isLt; omega
    · rfl
  | ⟨2, _⟩ =>
    show s.val = if c = 1 then 0 else s.val
    split
    · have := s.isLt; omega
    · rfl

/-- A [1, 1, c] array broadcast to [a, b, c] reads, at (p, q, s), the operand at (0, 0, s). -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (s : Fin c) :
    broadcastTo ⟨3, ![a, b, c]⟩ x h (ix3 p q s) = x (ix3 (0 : Fin 1) (0 : Fin 1) s) := by
  refine broadcastTo_apply x h (ix3 p q s) (ix3 (0 : Fin 1) (0 : Fin 1) s) fun ax => ?_
  match ax with
  | ⟨0, _⟩ => rfl
  | ⟨1, _⟩ => rfl
  | ⟨2, _⟩ =>
    show s.val = if c = 1 then 0 else s.val
    split
    · have := s.isLt; omega
    · rfl

end Layout

end Cert.LibPlainMatmul

end
-- ==== Proof.KPay.lean ====
/-
  What the three kernels' bodies compute on one block of 10000 rows, entry by entry, over the extended reals.

  First pass: the block of `a = (h + agg)·w₁ + b₁` (the bf16 roundings on the way into the product are the identity
  here, and the product into a zero accumulator is the plain sum over the 64 shared coordinates), and the two running
  column sums: the old row plus the block's column sum of `a`, of `a·a`. Second pass: the block of
  `c = max (g·(a − mean)·rsqrt(var + ε) + β) 0 · w₂ + b₂` and the same two running sums of `c`. Third pass:
  `max (g·(c − mean)·rsqrt(var + ε) + β) 0`. A row operand `[1, 64]` is read at `(0, j)`.
-/
import proofs.«152416_j10892037062711_1_alg».proof.Proof.Gen.KernelIdeal.Skeleton
import proofs.«152416_j10892037062711_1_alg».proof.Proof.LibPlainMatmul

noncomputable section

namespace Cert.KernelIdeal.KPay

open Idealize.ShloMosaic Idealize.ShloMosaic.ValueIdx Cert.KernelIdeal Cert.KernelIdeal.Gen Cert.LibPlainMatmul
open scoped BigOperators

/-! ## The dense map of the first pass: `(h + agg)·w₁ + b₁` on a block of rows, and its two column sums -/

theorem lift_eq (h : Shape.Reduces S10000x64 [0] S64) (j : Fin 64) (r : Fin 10000) :
    h.lift (ix1 j) r = ix2 r j :=
  funext fun a => Fin.ext (by match a with | ⟨0, _⟩ => rfl | ⟨1, _⟩ => rfl)

/-- A block's column sum kept as a one-row matrix: at column `j` the sum over the block's rows. -/
theorem colsum_apply (x : FVec Ideal S10000x64 .f32) (h : Shape.Reduces S10000x64 [0] S64) (hφ : FKind.Formats .f32)
    (hacc : (0x00000000#32 : BitVec 32) = FKind.add.neutral .f32 hφ) (hc : S64.ShapeCasts S1x64) (j : Fin 64) :
    shapeCast S1x64 (multiReduction .add [0] S64 x 0x00000000#32 h hφ hacc) hc (ix2 (0 : Fin 1) j)
      = ∑ r : Fin 10000, x (ix2 r j) := by
  rw [shapeCast_a_1a_apply]
  refine (Ideal.multiReduction_add_single x _ h hφ hacc (ix1 j)).trans ?_
  exact Finset.sum_congr rfl fun r _ => congrArg x (lift_eq h j r)

/-- Row `r`, column `j` of the block the first pass stores: `∑ₖ (h r k + agg r k)·w₁ k j + b₁ j`. -/
theorem pay3_apply (v3 v4 : Vec Ideal S10000x64 .f32) (v8 : Vec Ideal S64x64 .f32) (v11 : Vec Ideal S1x64 .f32) (r : Fin 10000) (j : Fin 64) :
    k0_pay3 (F := Ideal) v3 v4 v8 v11 (ix2 r j)
      = (∑ k : Fin 64, (v3 (ix2 r k) + v4 (ix2 r k)) * v8 (ix2 k j)) + v11 (ix2 (0 : Fin 1) j) := by
  unfold k0_pay3
  rw [addf_apply]
  refine congrArg₂ (· + ·) ?_ ?_
  · refine (matmul_zero_plain _ _ _ r j).trans ?_
    refine Finset.sum_congr rfl fun k _ => ?_
    rw [truncf_apply, truncf_apply, addf_apply, shapeCast_self]
  · rw [broadcastTo_1b_ab_apply, shapeCast_self]

/-- The running column sum after a block: what it held plus the block's column sum. -/
theorem pay4_apply (v3 v4 : Vec Ideal S10000x64 .f32) (v8 : Vec Ideal S64x64 .f32) (v11 v16 : Vec Ideal S1x64 .f32) (j : Fin 64) :
    k0_pay4 (F := Ideal) v3 v4 v8 v11 v16 (ix2 (0 : Fin 1) j)
      = v16 (ix2 (0 : Fin 1) j) + ∑ r : Fin 10000, k0_pay3 (F := Ideal) v3 v4 v8 v11 (ix2 r j) := by
  unfold k0_pay4
  rw [shapeCast_self, addf_apply]
  exact congrArg (v16 (ix2 (0 : Fin 1) j) + ·) (colsum_apply _ _ _ _ _ j)

/-- The running column sum of squares after a block. -/
theorem pay5_apply (v3 v4 : Vec Ideal S10000x64 .f32) (v8 : Vec Ideal S64x64 .f32) (v11 v23 : Vec Ideal S1x64 .f32) (j : Fin 64) :
    k0_pay5 (F := Ideal) v3 v4 v8 v11 v23 (ix2 (0 : Fin 1) j)
      = v23 (ix2 (0 : Fin 1) j) + ∑ r : Fin 10000, k0_pay3 (F := Ideal) v3 v4 v8 v11 (ix2 r j) * k0_pay3 (F := Ideal) v3 v4 v8 v11 (ix2 r j) := by
  unfold k0_pay5
  rw [shapeCast_self, addf_apply]
  exact congrArg (v23 (ix2 (0 : Fin 1) j) + ·) ((colsum_apply _ _ _ _ _ j).trans (Finset.sum_congr rfl fun r _ => mulf_apply _ _ _))

/-- The two accumulators start at zero. -/
theorem pay1_apply (i : S1x64.Idx) : k0_pay1 (F := Ideal) i = 0 := by
  unfold k0_pay1; rw [shapeCast_self, broadcast_apply]; exact Ideal.ofBits_zero_f32
theorem pay2_apply (i : S1x64.Idx) : k0_pay2 (F := Ideal) i = 0 := by
  unfold k0_pay2; rw [shapeCast_self, broadcast_apply]; exact Ideal.ofBits_zero_f32

/-! ## The second pass: normalise, positive part, `·w₂ + b₂`, and its two column sums -/

/-- The literal the normalisation adds to the variance. -/
abbrev epsBits : BitVec 32 := 0x3727C5AC#32

/-- Row `r`, column `j` of the block the second pass stores. The operands, in the body's order: the block of `a`,
    the variance row, the scale row, the mean row, the shift row, `w₂`, `b₂`. -/
theorem k1pay5_apply (v3 : Vec Ideal S10000x64 .f32) (v5 v10 v12 v20 : Vec Ideal S1x64 .f32) (v27 : Vec Ideal S64x64 .f32) (v30 : Vec Ideal S1x64 .f32)
    (r : Fin 10000) (j : Fin 64) :
    k1_pay5 (F := Ideal) v3 v5 v10 v12 v20 v27 v30 (ix2 r j)
      = (∑ k : Fin 64, max (v10 (ix2 (0 : Fin 1) k) * (v3 (ix2 r k) - v12 (ix2 (0 : Fin 1) k))
            * Ideal.rsqrt (v5 (ix2 (0 : Fin 1) k) + Ideal.ofBits .f32 epsBits) + v20 (ix2 (0 : Fin 1) k)) 0 * v27 (ix2 k j))
          + v30 (ix2 (0 : Fin 1) j) := by
  unfold k1_pay5
  rw [addf_apply]
  refine congrArg₂ (· + ·) ?_ ?_
  · refine (matmul_zero_plain _ _ _ r j).trans ?_
    refine Finset.sum_congr rfl fun k _ => ?_
    simp only [truncf_apply, maximumf_apply, addf_apply, mulf_apply, subf_apply, broadcastTo_1b_ab_apply, shapeCast_self, broadcast_apply]
    rw [show (FloatOps.ofBits (F := Ideal) .f32 0#32) = 0 from Ideal.ofBits_zero_f32]
    rfl
  · rw [broadcastTo_1b_ab_apply, shapeCast_self]

theorem k1pay1_apply (v33 : FVec Ideal S10000x64 .f32) (v35 : Vec Ideal S1x64 .f32) (j : Fin 64) :
    k1_pay1 (F := Ideal) v33 v35 (ix2 (0 : Fin 1) j) = v35 (ix2 (0 : Fin 1) j) + ∑ r : Fin 10000, v33 (ix2 r j) := by
  unfold k1_pay1
  rw [shapeCast_self, addf_apply]
  exact congrArg (v35 (ix2 (0 : Fin 1) j) + ·) (colsum_apply _ _ _ _ _ j)

theorem k1pay2_apply (v33 : FVec Ideal S10000x64 .f32) (v42 : Vec Ideal S1x64 .f32) (j : Fin 64) :
    k1_pay2 (F := Ideal) v33 v42 (ix2 (0 : Fin 1) j) = v42 (ix2 (0 : Fin 1) j) + ∑ r : Fin 10000, v33 (ix2 r j) * v33 (ix2 r j) := by
  unfold k1_pay2
  rw [shapeCast_self, addf_apply]
  exact congrArg (v42 (ix2 (0 : Fin 1) j) + ·) ((colsum_apply _ _ _ _ _ j).trans (Finset.sum_congr rfl fun r _ => mulf_apply _ _ _))

theorem k1pay3_apply (i : S1x64.Idx) : k1_pay3 (F := Ideal) i = 0 := by
  unfold k1_pay3; rw [shapeCast_self, broadcast_apply]; exact Ideal.ofBits_zero_f32
theorem k1pay4_apply (i : S1x64.Idx) : k1_pay4 (F := Ideal) i = 0 := by
  unfold k1_pay4; rw [shapeCast_self, broadcast_apply]; exact Ideal.ofBits_zero_f32

/-! ## The third pass: normalise and take the positive part, entry by entry -/

/-- The operands, in the body's order: the block of `c`, the variance row, the scale row, the mean row, the shift row. -/
theorem k2pay1_apply (v0 : Vec Ideal S10000x64 .f32) (v2 v7 v9 v17 : Vec Ideal S1x64 .f32) (r : Fin 10000) (j : Fin 64) :
    k2_pay1 (F := Ideal) v0 v2 v7 v9 v17 (ix2 r j)
      = max (v7 (ix2 (0 : Fin 1) j) * (v0 (ix2 r j) - v9 (ix2 (0 : Fin 1) j))
            * Ideal.rsqrt (v2 (ix2 (0 : Fin 1) j) + Ideal.ofBits .f32 epsBits) + v17 (ix2 (0 : Fin 1) j)) 0 := by
  unfold k2_pay1
  simp only [maximumf_apply, addf_apply, mulf_apply, subf_apply, broadcastTo_1b_ab_apply, shapeCast_self, broadcast_apply]
  rw [show (FloatOps.ofBits (F := Ideal) .f32 0#32) = 0 from Ideal.ofBits_zero_f32]
  rfl

/-! ## The second layer's three kernels are the first layer's, word for word -/

theorem k3_pay1_eq : @k3_pay1 = @k0_pay1 := rfl
theorem k3_pay2_eq : @k3_pay2 = @k0_pay2 := rfl

/-- The second layer's first pass reads its block of `h` through an identity cast; its stored block is the same function. -/
theorem k3pay3_apply (v3 v5 : Vec Ideal S10000x64 .f32) (v9 : Vec Ideal S64x64 .f32) (v12 : Vec Ideal S1x64 .f32) (r : Fin 10000) (j : Fin 64) :
    k3_pay3 (F := Ideal) v3 v5 v9 v12 (ix2 r j)
      = (∑ k : Fin 64, (v3 (ix2 r k) + v5 (ix2 r k)) * v9 (ix2 k j)) + v12 (ix2 (0 : Fin 1) j) := by
  unfold k3_pay3
  rw [addf_apply]
  refine congrArg₂ (· + ·) ?_ ?_
  · refine (matmul_zero_plain _ _ _ r j).trans ?_
    refine Finset.sum_congr rfl fun k _ => ?_
    rw [truncf_apply, truncf_apply, addf_apply, shapeCast_self, shapeCast_self]
  · rw [broadcastTo_1b_ab_apply, shapeCast_self]

theorem k3pay4_apply (v3 v5 : Vec Ideal S10000x64 .f32) (v9 : Vec Ideal S64x64 .f32) (v12 v17 : Vec Ideal S1x64 .f32) (j : Fin 64) :
    k3_pay4 (F := Ideal) v3 v5 v9 v12 v17 (ix2 (0 : Fin 1) j)
      = v17 (ix2 (0 : Fin 1) j) + ∑ r : Fin 10000, k3_pay3 (F := Ideal) v3 v5 v9 v12 (ix2 r j) := by
  unfold k3_pay4
  rw [shapeCast_self, addf_apply]
  exact congrArg (v17 (ix2 (0 : Fin 1) j) + ·) (colsum_apply _ _ _ _ _ j)

theorem k3pay5_apply (v3 v5 : Vec Ideal S10000x64 .f32) (v9 : Vec Ideal S64x64 .f32) (v12 v24 : Vec Ideal S1x64 .f32) (j : Fin 64) :
    k3_pay5 (F := Ideal) v3 v5 v9 v12 v24 (ix2 (0 : Fin 1) j)
      = v24 (ix2 (0 : Fin 1) j) + ∑ r : Fin 10000, k3_pay3 (F := Ideal) v3 v5 v9 v12 (ix2 r j) * k3_pay3 (F := Ideal) v3 v5 v9 v12 (ix2 r j) := by
  unfold k3_pay5
  rw [shapeCast_self, addf_apply]
  exact congrArg (v24 (ix2 (0 : Fin 1) j) + ·) ((colsum_apply _ _ _ _ _ j).trans (Finset.sum_congr rfl fun r _ => mulf_apply _ _ _))
theorem k4_pay1_eq : @k4_pay1 = @k1_pay1 := rfl
theorem k4_pay2_eq : @k4_pay2 = @k1_pay2 := rfl
theorem k4_pay3_eq : @k4_pay3 = @k1_pay3 := rfl
theorem k4_pay4_eq : @k4_pay4 = @k1_pay4 := rfl
theorem k4_pay5_eq : @k4_pay5 = @k1_pay5 := rfl
theorem k5_pay1_eq : @k5_pay1 = @k2_pay1 := rfl

end Cert.KernelIdeal.KPay

end
-- ==== Proof.LibBatchStats.lean ====
/-
  Batch statistics on the extended reals: the two ways of computing a column's variance agree on finite data.

  For a finite family of REAL numbers read as extended reals, with `N` the (nonzero) real number of entries:
  * a sum of coerced reals is the coerced sum (`coe_sum`);
  * "mean of the squares minus the square of the mean" equals "mean of the squared deviations from the mean"
    (`var_two_ways`), both spelt with the exact quotient `Ideal.div · N` — the identity is the binomial expansion
    ∑(aᵢ − μ)² = ∑aᵢ² − 2μ∑aᵢ + Nμ² with μ = (∑aᵢ)/N, which needs every entry finite (it distributes a product
    over a sum) and is why it is stated over reals;
  * a sum accumulated tile by tile (`T` tiles of `B` entries, the accumulator starting at zero) is the sum over
    all `T·B` entries, in any commutative additive monoid (`accTiles_eq_sum`) — no finiteness is needed for
    that: it only regroups a sum.
-/
import Idealize.ShloMosaic.PureOps.Ideal
import Mathlib.Algebra.BigOperators.Fin
import Mathlib.Data.EReal.Operations

noncomputable section

namespace BatchStats

open Idealize.ShloMosaic
open scoped BigOperators

/-- A finite sum of reals, read in the extended reals, is the sum of the entries read there. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The binomial expansion behind the variance identity, over the reals: with `μ = (∑ a)/N` and `N` the number of
    entries, `(∑ a²)/N − μ² = (∑ (a − μ)²)/N`. -/
theorem var_two_ways_real {ι : Type*} [Fintype ι] (a : ι → ℝ) (N : ℝ) (hN : N ≠ 0)
    (hc : (Fintype.card ι : ℝ) = N) :
    (∑ i, a i * a i) * (1 / N) - ((∑ i, a i) * (1 / N)) * ((∑ i, a i) * (1 / N))
      = (∑ i, (a i - (∑ k, a k) * (1 / N)) * (a i - (∑ k, a k) * (1 / N))) * (1 / N) := by
  set S := ∑ k, a k with hS
  have hexp : (∑ i, (a i - S * (1 / N)) * (a i - S * (1 / N)))
      = (∑ i, a i * a i) - 2 * (S * (1 / N)) * S + N * ((S * (1 / N)) * (S * (1 / N))) := by
    have : ∀ i, (a i - S * (1 / N)) * (a i - S * (1 / N))
        = a i * a i - 2 * (S * (1 / N)) * a i + (S * (1 / N)) * (S * (1 / N)) := fun i => by ring
    simp only [this, Finset.sum_add_distrib, Finset.sum_sub_distrib, ← Finset.mul_sum, Finset.sum_const,
      Finset.card_univ, nsmul_eq_mul, hc, ← hS]
    ring
  rw [hexp]
  field_simp
  ring

/-- The variance identity on the extended reals, for finite data: the exact quotient by the real `N` (the number
    of entries) of the sum of squares, minus the square of the quotient of the sum, is the quotient of the sum of
    squared deviations from that mean. -/
theorem var_two_ways {ι : Type*} [Fintype ι] (a : ι → ℝ) (N : ℝ) (hN : N ≠ 0)
    (hc : (Fintype.card ι : ℝ) = N) :
    Ideal.div (∑ i, (a i : EReal) * (a i : EReal)) (N : EReal)
        - Ideal.div (∑ i, (a i : EReal)) (N : EReal) * Ideal.div (∑ i, (a i : EReal)) (N : EReal)
      = Ideal.div (∑ i, ((a i : EReal) - Ideal.div (∑ k, (a k : EReal)) (N : EReal))
          * ((a i : EReal) - Ideal.div (∑ k, (a k : EReal)) (N : EReal))) (N : EReal) := by
  simp only [Ideal.div_coe hN, ← coe_sum, ← EReal.coe_mul, ← EReal.coe_sub]
  exact congrArg _ (var_two_ways_real a N hN hc)

/-- The mean of finite data is finite: the exact quotient of the coerced sum is the coerced real mean. -/
theorem mean_coe {ι : Type*} [Fintype ι] (a : ι → ℝ) (N : ℝ) (hN : N ≠ 0) :
    Ideal.div (∑ i, (a i : EReal)) (N : EReal) = (((∑ i, a i) * (1 / N) : ℝ) : EReal) := by
  simp only [Ideal.div_coe hN, ← coe_sum, ← EReal.coe_mul]

/-- The mean of the squared deviations is a NONNEGATIVE real. -/
theorem var_coe_nonneg {ι : Type*} [Fintype ι] (a : ι → ℝ) (N : ℝ) (hN : 0 < N) :
    ∃ v : ℝ, 0 ≤ v ∧
      Ideal.div (∑ i, ((a i : EReal) - Ideal.div (∑ k, (a k : EReal)) (N : EReal))
          * ((a i : EReal) - Ideal.div (∑ k, (a k : EReal)) (N : EReal))) (N : EReal) = (v : EReal) := by
  refine ⟨(∑ i, (a i - (∑ k, a k) * (1 / N)) * (a i - (∑ k, a k) * (1 / N))) * (1 / N), ?_, ?_⟩
  · exact mul_nonneg (Finset.sum_nonneg fun i _ => mul_self_nonneg _) (by positivity)
  · simp only [Ideal.div_coe hN.ne', ← coe_sum, ← EReal.coe_mul, ← EReal.coe_sub]

/-- An accumulator that starts at zero and at tile `t` adds the sum of that tile's `B` entries. -/
def accTiles {M : Type*} [AddCommMonoid M] (B : ℕ) (f : ℕ → M) : ℕ → M
  | 0 => 0
  | t + 1 => accTiles B f t + ∑ r : Fin B, f (t * B + r.val)

@[simp] theorem accTiles_zero {M : Type*} [AddCommMonoid M] (B : ℕ) (f : ℕ → M) : accTiles B f 0 = 0 := rfl
theorem accTiles_succ {M : Type*} [AddCommMonoid M] (B : ℕ) (f : ℕ → M) (t : ℕ) :
    accTiles B f (t + 1) = accTiles B f t + ∑ r : Fin B, f (t * B + r.val) := rfl

/-- After `T` tiles the accumulator holds the sum of the first `T·B` entries. -/
theorem accTiles_eq_sum_range {M : Type*} [AddCommMonoid M] (B : ℕ) (f : ℕ → M) (T : ℕ) :
    accTiles B f T = ∑ i ∈ Finset.range (T * B), f i := by
  induction T with
  | zero => simp
  | succ t ih =>
    rw [accTiles_succ, ih, Nat.succ_mul, Finset.sum_range_add, ← Finset.sum_range (fun x => f (t * B + x))]

/-- The same over `Fin (T·B)`. -/
theorem accTiles_eq_sum {M : Type*} [AddCommMonoid M] (B : ℕ) (f : ℕ → M) (T : ℕ) :
    accTiles B f T = ∑ i : Fin (T * B), f i.val := by
  rw [accTiles_eq_sum_range, Finset.sum_range]

end BatchStats

end
-- ==== Proof.Pass1Value.lean ====
/-
  What the two first-pass regions leave in their three output arrays, as functions of the arrays they read.

  The big output: block `t` holds rows `t·10000 … t·10000 + 9999` of `A1 = (h + agg)·w₁ + b₁`, and the ten blocks cover the
  array. The two one-row outputs are written back once, at the last point, from the two rows the body keeps between
  points: zero before the first point, and after each point the row before it plus that block's column sums of `A1`
  and of `A1·A1` — after ten blocks the sums over all 100000 rows (a sum regrouped tile by tile).
-/
import proofs.«152416_j10892037062711_1_alg».proof.Proof.Pass1Dat
import proofs.«152416_j10892037062711_1_alg».proof.Proof.KPay
import proofs.«152416_j10892037062711_1_alg».proof.Proof.LibBatchStats
import Idealize.ShloMosaic.Lib.Pipeline.Value

noncomputable section

namespace Cert.KernelIdeal.Pass1V

open Cert.KernelIdeal Cert.KernelIdeal.Gen Cert.KernelIdeal.Pass Cert.KernelIdeal.KPay
open Idealize.ShloMosaic Idealize.ShloMosaic.TcCoe Idealize.ShloMosaic.ValueIdx
open Idealize.ShloMosaic.Pipeline (Dat)
open scoped BigOperators

variable (W : Dev nD → Valuation τ sig (Elt Ideal))

/-- `(h + agg)·w + b` at row `i 0`, column `i 1`; the bias is a one-row matrix. -/
def A1 (h agg : S100000x64.Idx → EReal) (w : S64x64.Idx → EReal) (b : S1x64.Idx → EReal) : S100000x64.Idx → EReal :=
  fun i => (∑ k : Fin 64, (h (ix2 (i 0) k) + agg (ix2 (i 0) k)) * w (ix2 k (i 1))) + b (ix2 (0 : Fin 1) (i 1))

theorem k3pay1_apply (i : S1x64.Idx) : k3_pay1 (F := Ideal) i = 0 := pay1_apply i
theorem k3pay2_apply (i : S1x64.Idx) : k3_pay2 (F := Ideal) i = 0 := pay2_apply i

/-- Column `j` of an array as a sequence of extended reals (zero past the last row). -/
def colOf (x : S100000x64.Idx → EReal) (j : Fin 64) : ℕ → EReal :=
  fun n => if h : n < 100000 then x (ix2 (⟨n, h⟩ : Fin 100000) j) else 0

theorem colOf_lt (x : S100000x64.Idx → EReal) (j : Fin 64) (n : ℕ) (h : n < 100000) :
    colOf x j n = x (ix2 (⟨n, h⟩ : Fin 100000) j) := dif_pos h

/-- The total of a column over the `10·10000` rows, as the tile-by-tile accumulation. -/
theorem accTiles_colOf (x : S100000x64.Idx → EReal) (j : Fin 64) :
    BatchStats.accTiles 10000 (colOf x j) 10 = ∑ i : Fin 100000, x (ix2 i j) := by
  rw [BatchStats.accTiles_eq_sum]
  exact Finset.sum_congr rfl fun i _ => colOf_lt x j i.val i.isLt

/-! ## Region 0 -/

theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

theorem row_lt0 (t : Fin cfg0.N) (r : Fin 10000) : t.val * 10000 + r.val < 100000 := by
  have := t.isLt; have hN : cfg0.N = 10 := N_0; have := r.isLt; omega

set_option maxHeartbeats 2000000 in
/-- Row `r` of the block stored at point `t` is row `t·10000 + r` of `A1` of the arrays the region reads. -/
theorem img0_apply (c : Dev nD) (t : Fin cfg0.N) (r : Fin 10000) (j : Fin 64) :
    img0 W c t (ix2 r j)
      = A1 (VA0 W c main_arg0) (VA0 W c main_v13) (VA0 W c main_arg3) (VA0 W c main_v14) (ix2 ⟨t.val * 10000 + r.val, row_lt0 t r⟩ j) := by
  unfold img0
  obtain ⟨e00, e01, e10, e11, e20, e21, e30, e31, e40, e41, e50, e51, e60, e61⟩ := idx_facts0 t
  rw [pay3_apply]
  unfold A1
  refine congrArg₂ (· + ·) (Finset.sum_congr rfl fun k _ => congrArg₂ (· * ·) (congrArg₂ (· + ·) ?_ ?_) ?_) ?_
  · show VA0 W c main_arg0 (((cfg0.win 0).blk t).view.emb (ix2 r k)) = _
    refine congrArg _ (funext fun a => Fin.ext ?_)
    match a with
    | ⟨0, _⟩ => show win0_0.index t (0 : Fin 2) * 10000 + 1 * r.val = t.val * 10000 + r.val; omega
    | ⟨1, _⟩ => show win0_0.index t (1 : Fin 2) * 64 + 1 * k.val = k.val; omega
  · show VA0 W c main_v13 (((cfg0.win 1).blk t).view.emb (ix2 r k)) = _
    refine congrArg _ (funext fun a => Fin.ext ?_)
    match a with
    | ⟨0, _⟩ => show win0_1.index t (0 : Fin 2) * 10000 + 1 * r.val = t.val * 10000 + r.val; omega
    | ⟨1, _⟩ => show win0_1.index t (1 : Fin 2) * 64 + 1 * k.val = k.val; omega
  · show VA0 W c main_arg3 (((cfg0.win 2).blk t).view.emb (ix2 k j)) = _
    refine congrArg _ (funext fun a => Fin.ext ?_)
    match a with
    | ⟨0, _⟩ => show win0_2.index t (0 : Fin 2) * 64 + 1 * k.val = k.val; omega
    | ⟨1, _⟩ => show win0_2.index t (1 : Fin 2) * 64 + 1 * j.val = j.val; omega
  · show VA0 W c main_v14 (((cfg0.win 3).blk t).view.emb (ix2 (0 : Fin 1) j)) = _
    refine congrArg _ (funext fun a => Fin.ext ?_)
    match a with
    | ⟨0, _⟩ => show win0_3.index t (0 : Fin 2) * 1 + 1 * 0 = 0; omega
    | ⟨1, _⟩ => show win0_3.index t (1 : Fin 2) * 64 + 1 * j.val = j.val; omega

set_option maxHeartbeats 1000000 in
theorem flushed0_4_eq (c : Dev nD) (t : Fin cfg0.N) :
    (dat0 (Ix := Unit) (U := UR sig nD τ) (Lvl := ℕ) W c).flushed 4 t = ((cfg0.win 4).blk t).view.read (Elt Ideal)
      (A1 (VA0 W c main_arg0) (VA0 W c main_v13) (VA0 W c main_arg3) (VA0 W c main_v14)) := by
  show (cfg0.win 4).cut (grid0.coords t) ((dat0 (Ix := Unit) (U := UR sig nD τ) (Lvl := ℕ) W c).after 4 t) = _
  rw [after0_4]
  obtain ⟨e00, e01, e10, e11, e20, e21, e30, e31, e40, e41, e50, e51, e60, e61⟩ := idx_facts0 t
  funext y
  obtain ⟨r, j, rfl⟩ : ∃ (r : Fin 10000) (j : Fin 64), y = ix2 r j := ⟨y 0, y 1, eq_ix2 y⟩
  show img0 W c t (ix2 r j)
    = A1 (VA0 W c main_arg0) (VA0 W c main_v13) (VA0 W c main_arg3) (VA0 W c main_v14) (((cfg0.win 4).blk t).view.emb (ix2 r j))
  rw [img0_apply]
  refine congrArg _ (funext fun a => Fin.ext ?_)
  match a with
  | ⟨0, _⟩ => show t.val * 10000 + r.val = win0_4.index t (0 : Fin 2) * 10000 + 1 * r.val; omega
  | ⟨1, _⟩ => show j.val = win0_4.index t (1 : Fin 2) * 64 + 1 * j.val; omega

set_option maxHeartbeats 1000000 in
theorem mem_blk0_4 (t : Fin cfg0.N) (i : S100000x64.Idx) :
    i ∈ ((cfg0.win 4).blk t).view.set ↔ ∀ a : Fin 2, win0_4.index t a * S10000x64.size a ≤ (i a).val ∧ (i a).val < win0_4.index t a * S10000x64.size a + S10000x64.size a := by
  show i ∈ ((View.whole main_v20_0).slice (win0_4.rect t)).set ↔ _
  rw [View.set_slice_whole, Rect.mem_set_unit]
  exact Iff.rfl

set_option maxHeartbeats 1000000 in
theorem cover0_4 (i : S100000x64.Idx) : ∃ t : Fin cfg0.N, (cfg0.win 4).flush t = true ∧ i ∈ ((cfg0.win 4).blk t).view.set := by
  have hi0 : (i 0).val < 100000 := (i 0).isLt
  have hi1 : (i 1).val < 64 := (i 1).isLt
  have hN : cfg0.N = 10 := N_0
  refine ⟨⟨(i 0).val / 10000, by rw [hN]; omega⟩, flush0_4 _, ?_⟩
  rw [mem_blk0_4]
  obtain ⟨e00, e01, e10, e11, e20, e21, e30, e31, e40, e41, e50, e51, e60, e61⟩ := idx_facts0 ⟨(i 0).val / 10000, by rw [hN]; omega⟩
  intro a
  match a with
  | ⟨0, _⟩ =>
    show win0_4.index _ (0 : Fin 2) * 10000 ≤ (i 0).val ∧ (i 0).val < win0_4.index _ (0 : Fin 2) * 10000 + 10000
    rw [e40]; show (i 0).val / 10000 * 10000 ≤ (i 0).val ∧ (i 0).val < (i 0).val / 10000 * 10000 + 10000; omega
  | ⟨1, _⟩ =>
    show win0_4.index _ (1 : Fin 2) * 64 ≤ (i 1).val ∧ (i 1).val < win0_4.index _ (1 : Fin 2) * 64 + 64
    rw [e41]; omega

/-- The big output array the region leaves. -/
theorem final0_4 (c : Dev nD) : (dat0 (Ix := Unit) (U := UR sig nD τ) (Lvl := ℕ) W c).arrAt 4 cfg0.N
    = A1 (VA0 W c main_arg0) (VA0 W c main_v13) (VA0 W c main_arg3) (VA0 W c main_v14) :=
  (dat0 (Ix := Unit) (U := UR sig nD τ) (Lvl := ℕ) W c).arrAt_eq_of_cover 4 _ (fun t _ => flushed0_4_eq W c t) cover0_4

set_option maxHeartbeats 1000000 in
/-- The two running rows before point `n`, at column `j`: the accumulation over the first `n` blocks of column `j` of
    `A1`, and of its square. -/
theorem acc0_apply (c : Dev nD) (j : Fin 64) : ∀ (n : ℕ) (hn : n ≤ cfg0.N),
    (acc0 W c n hn).1 (ix2 (0 : Fin 1) j)
        = BatchStats.accTiles 10000 (colOf (A1 (VA0 W c main_arg0) (VA0 W c main_v13) (VA0 W c main_arg3) (VA0 W c main_v14)) j) n
      ∧ (acc0 W c n hn).2 (ix2 (0 : Fin 1) j)
        = BatchStats.accTiles 10000 (colOf (fun i => A1 (VA0 W c main_arg0) (VA0 W c main_v13) (VA0 W c main_arg3) (VA0 W c main_v14) i
            * A1 (VA0 W c main_arg0) (VA0 W c main_v13) (VA0 W c main_arg3) (VA0 W c main_v14) i) j) n
  | 0, hn => by
    rw [acc0_zero]
    exact ⟨pay1_apply (ix2 (0 : Fin 1) j), pay2_apply (ix2 (0 : Fin 1) j)⟩
  | n + 1, hn => by
    obtain ⟨ih1, ih2⟩ := acc0_apply c j n (Nat.le_of_succ_le hn)
    have hN : cfg0.N = 10 := N_0
    have hrow : ∀ r : Fin 10000, n * 10000 + r.val < 100000 := fun r => by have := r.isLt; omega
    have himg : ∀ r : Fin 10000, k0_pay3 (F := Ideal) (iblk0 W c 0 ⟨n, Nat.lt_of_succ_le hn⟩) (iblk0 W c 1 ⟨n, Nat.lt_of_succ_le hn⟩)
          (iblk0 W c 2 ⟨n, Nat.lt_of_succ_le hn⟩) (iblk0 W c 3 ⟨n, Nat.lt_of_succ_le hn⟩) (ix2 r j)
        = A1 (VA0 W c main_arg0) (VA0 W c main_v13) (VA0 W c main_arg3) (VA0 W c main_v14) (ix2 (⟨n * 10000 + r.val, hrow r⟩ : Fin 100000) j) :=
      fun r => img0_apply W c ⟨n, Nat.lt_of_succ_le hn⟩ r j
    rw [acc0_succ]
    refine ⟨?_, ?_⟩
    · show k0_pay4 (F := Ideal) _ _ _ _ (acc0 W c n (Nat.le_of_succ_le hn)).1 (ix2 (0 : Fin 1) j) = _
      rw [pay4_apply, ih1, BatchStats.accTiles_succ]
      refine congrArg _ (Finset.sum_congr rfl fun r _ => ?_)
      rw [himg r, colOf_lt _ _ _ (hrow r)]
    · show k0_pay5 (F := Ideal) _ _ _ _ (acc0 W c n (Nat.le_of_succ_le hn)).2 (ix2 (0 : Fin 1) j) = _
      rw [pay5_apply, ih2, BatchStats.accTiles_succ]
      refine congrArg _ (Finset.sum_congr rfl fun r _ => ?_)
      rw [himg r, colOf_lt _ _ _ (hrow r)]

theorem flush0_5_last (t : Fin cfg0.N) (h : (cfg0.win 5).flush t = true) : t.val = 9 := by
  have h1 := (flush0_5 t).mp h; have h2 := t.isLt; have h3 : cfg0.N = 10 := N_0; omega
theorem flush0_6_last (t : Fin cfg0.N) (h : (cfg0.win 6).flush t = true) : t.val = 9 := by
  have h1 := (flush0_6 t).mp h; have h2 := t.isLt; have h3 : cfg0.N = 10 := N_0; omega

theorem ten_le0 : 10 ≤ cfg0.N := by have h : cfg0.N = 10 := N_0; omega
def tLast0 : Fin cfg0.N := ⟨9, by have h : cfg0.N = 10 := N_0; omega⟩

set_option maxHeartbeats 1000000 in
/-- The row of column sums the region leaves: the accumulation through the last point, written back there. -/
theorem final0_5 (c : Dev nD) : (dat0 (Ix := Unit) (U := UR sig nD τ) (Lvl := ℕ) W c).arrAt 5 cfg0.N = (acc0 W c 10 ten_le0).1 := by
  refine (dat0 (Ix := Unit) (U := UR sig nD τ) (Lvl := ℕ) W c).arrAt_eq_of_cover 5 _ (fun t hf => ?_) (fun i => ⟨tLast0, (flush0_5 tLast0).mpr rfl, ?_⟩)
  · have ht := flush0_5_last t hf
    obtain ⟨tv, htl⟩ := t
    simp only at ht
    subst ht
    obtain ⟨e00, e01, e10, e11, e20, e21, e30, e31, e40, e41, e50, e51, e60, e61⟩ := idx_facts0 ⟨9, htl⟩
    show (cfg0.win 5).cut (grid0.coords ⟨9, htl⟩) ((dat0 (Ix := Unit) (U := UR sig nD τ) (Lvl := ℕ) W c).after 5 ⟨9, htl⟩) = _
    rw [after0_5]
    funext y
    show (acc0 W c 10 _).1 y = (acc0 W c 10 ten_le0).1 (((cfg0.win 5).blk ⟨9, htl⟩).view.emb y)
    refine congrArg _ (funext fun a => Fin.ext ?_)
    match a with
    | ⟨0, _⟩ => show (y 0).val = win0_5.index ⟨9, htl⟩ (0 : Fin 2) * 1 + 1 * (y 0).val; omega
    | ⟨1, _⟩ => show (y 1).val = win0_5.index ⟨9, htl⟩ (1 : Fin 2) * 64 + 1 * (y 1).val; omega
  · obtain ⟨e00, e01, e10, e11, e20, e21, e30, e31, e40, e41, e50, e51, e60, e61⟩ := idx_facts0 tLast0
    show i ∈ ((View.whole main_v20_1).slice (win0_5.rect tLast0)).set
    rw [View.set_slice_whole, Rect.mem_set_unit]
    intro a
    have hi0 : (i 0).val < 1 := (i 0).isLt
    have hi1 : (i 1).val < 64 := (i 1).isLt
    match a with
    | ⟨0, _⟩ => show win0_5.index tLast0 (0 : Fin 2) * 1 ≤ (i 0).val ∧ (i 0).val < win0_5.index tLast0 (0 : Fin 2) * 1 + 1; omega
    | ⟨1, _⟩ => show win0_5.index tLast0 (1 : Fin 2) * 64 ≤ (i 1).val ∧ (i 1).val < win0_5.index tLast0 (1 : Fin 2) * 64 + 64; omega

set_option maxHeartbeats 1000000 in
/-- The row of column sums of squares the region leaves. -/
theorem final0_6 (c : Dev nD) : (dat0 (Ix := Unit) (U := UR sig nD τ) (Lvl := ℕ) W c).arrAt 6 cfg0.N = (acc0 W c 10 ten_le0).2 := by
  refine (dat0 (Ix := Unit) (U := UR sig nD τ) (Lvl := ℕ) W c).arrAt_eq_of_cover 6 _ (fun t hf => ?_) (fun i => ⟨tLast0, (flush0_6 tLast0).mpr rfl, ?_⟩)
  · have ht := flush0_6_last t hf
    obtain ⟨tv, htl⟩ := t
    simp only at ht
    subst ht
    obtain ⟨e00, e01, e10, e11, e20, e21, e30, e31, e40, e41, e50, e51, e60, e61⟩ := idx_facts0 ⟨9, htl⟩
    show (cfg0.win 6).cut (grid0.coords ⟨9, htl⟩) ((dat0 (Ix := Unit) (U := UR sig nD τ) (Lvl := ℕ) W c).after 6 ⟨9, htl⟩) = _
    rw [after0_6]
    funext y
    show (acc0 W c 10 _).2 y = (acc0 W c 10 ten_le0).2 (((cfg0.win 6).blk ⟨9, htl⟩).view.emb y)
    refine congrArg _ (funext fun a => Fin.ext ?_)
    match a with
    | ⟨0, _⟩ => show (y 0).val = win0_6.index ⟨9, htl⟩ (0 : Fin 2) * 1 + 1 * (y 0).val; omega
    | ⟨1, _⟩ => show (y 1).val = win0_6.index ⟨9, htl⟩ (1 : Fin 2) * 64 + 1 * (y 1).val; omega
  · obtain ⟨e00, e01, e10, e11, e20, e21, e30, e31, e40, e41, e50, e51, e60, e61⟩ := idx_facts0 tLast0
    show i ∈ ((View.whole main_v20_2).slice (win0_6.rect tLast0)).set
    rw [View.set_slice_whole, Rect.mem_set_unit]
    intro a
    have hi0 : (i 0).val < 1 := (i 0).isLt
    have hi1 : (i 1).val < 64 := (i 1).isLt
    match a with
    | ⟨0, _⟩ => show win0_6.index tLast0 (0 : Fin 2) * 1 ≤ (i 0).val ∧ (i 0).val < win0_6.index tLast0 (0 : Fin 2) * 1 + 1; omega
    | ⟨1, _⟩ => show win0_6.index tLast0 (1 : Fin 2) * 64 ≤ (i 1).val ∧ (i 1).val < win0_6.index tLast0 (1 : Fin 2) * 64 + 64; omega

/-! ## Region 3 -/

theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0 :=
  (by decide +kernel : ∀ t : Fin grid3.N, _)

theorem row_lt3 (t : Fin cfg3.N) (r : Fin 10000) : t.val * 10000 + r.val < 100000 := by
  have := t.isLt; have hN : cfg3.N = 10 := N_3; have := r.isLt; omega

set_option maxHeartbeats 2000000 in
/-- Row `r` of the block stored at point `t` is row `t·10000 + r` of `A1` of the arrays the region reads. -/
theorem img3_apply (c : Dev nD) (t : Fin cfg3.N) (r : Fin 10000) (j : Fin 64) :
    img3 W c t (ix2 r j)
      = A1 (VA3 W c main_v34) (VA3 W c main_v44) (VA3 W c main_arg11) (VA3 W c main_v45) (ix2 ⟨t.val * 10000 + r.val, row_lt3 t r⟩ j) := by
  unfold img3
  obtain ⟨e00, e01, e10, e11, e20, e21, e30, e31, e40, e41, e50, e51, e60, e61⟩ := idx_facts3 t
  rw [k3pay3_apply]
  unfold A1
  refine congrArg₂ (· + ·) (Finset.sum_congr rfl fun k _ => congrArg₂ (· * ·) (congrArg₂ (· + ·) ?_ ?_) ?_) ?_
  · show VA3 W c main_v34 (((cfg3.win 0).blk t).view.emb (ix2 r k)) = _
    refine congrArg _ (funext fun a => Fin.ext ?_)
    match a with
    | ⟨0, _⟩ => show win3_0.index t (0 : Fin 2) * 10000 + 1 * r.val = t.val * 10000 + r.val; omega
    | ⟨1, _⟩ => show win3_0.index t (1 : Fin 2) * 64 + 1 * k.val = k.val; omega
  · show VA3 W c main_v44 (((cfg3.win 1).blk t).view.emb (ix2 r k)) = _
    refine congrArg _ (funext fun a => Fin.ext ?_)
    match a with
    | ⟨0, _⟩ => show win3_1.index t (0 : Fin 2) * 10000 + 1 * r.val = t.val * 10000 + r.val; omega
    | ⟨1, _⟩ => show win3_1.index t (1 : Fin 2) * 64 + 1 * k.val = k.val; omega
  · show VA3 W c main_arg11 (((cfg3.win 2).blk t).view.emb (ix2 k j)) = _
    refine congrArg _ (funext fun a => Fin.ext ?_)
    match a with
    | ⟨0, _⟩ => show win3_2.index t (0 : Fin 2) * 64 + 1 * k.val = k.val; omega
    | ⟨1, _⟩ => show win3_2.index t (1 : Fin 2) * 64 + 1 * j.val = j.val; omega
  · show VA3 W c main_v45 (((cfg3.win 3).blk t).view.emb (ix2 (0 : Fin 1) j)) = _
    refine congrArg _ (funext fun a => Fin.ext ?_)
    match a with
    | ⟨0, _⟩ => show win3_3.index t (0 : Fin 2) * 1 + 1 * 0 = 0; omega
    | ⟨1, _⟩ => show win3_3.index t (1 : Fin 2) * 64 + 1 * j.val = j.val; omega

set_option maxHeartbeats 1000000 in
theorem flushed3_4_eq (c : Dev nD) (t : Fin cfg3.N) :
    (dat3 (Ix := Unit) (U := UR sig nD τ) (Lvl := ℕ) W c).flushed 4 t = ((cfg3.win 4).blk t).view.read (Elt Ideal)
      (A1 (VA3 W c main_v34) (VA3 W c main_v44) (VA3 W c main_arg11) (VA3 W c main_v45)) := by
  show (cfg3.win 4).cut (grid3.coords t) ((dat3 (Ix := Unit) (U := UR sig nD τ) (Lvl := ℕ) W c).after 4 t) = _
  rw [after3_4]
  obtain ⟨e00, e01, e10, e11, e20, e21, e30, e31, e40, e41, e50, e51, e60, e61⟩ := idx_facts3 t
  funext y
  obtain ⟨r, j, rfl⟩ : ∃ (r : Fin 10000) (j : Fin 64), y = ix2 r j := ⟨y 0, y 1, eq_ix2 y⟩
  show img3 W c t (ix2 r j)
    = A1 (VA3 W c main_v34) (VA3 W c main_v44) (VA3 W c main_arg11) (VA3 W c main_v45) (((cfg3.win 4).blk t).view.emb (ix2 r j))
  rw [img3_apply]
  refine congrArg _ (funext fun a => Fin.ext ?_)
  match a with
  | ⟨0, _⟩ => show t.val * 10000 + r.val = win3_4.index t (0 : Fin 2) * 10000 + 1 * r.val; omega
  | ⟨1, _⟩ => show j.val = win3_4.index t (1 : Fin 2) * 64 + 1 * j.val; omega

set_option maxHeartbeats 1000000 in
theorem mem_blk3_4 (t : Fin cfg3.N) (i : S100000x64.Idx) :
    i ∈ ((cfg3.win 4).blk t).view.set ↔ ∀ a : Fin 2, win3_4.index t a * S10000x64.size a ≤ (i a).val ∧ (i a).val < win3_4.index t a * S10000x64.size a + S10000x64.size a := by
  show i ∈ ((View.whole main_v51_0).slice (win3_4.rect t)).set ↔ _
  rw [View.set_slice_whole, Rect.mem_set_unit]
  exact Iff.rfl

set_option maxHeartbeats 1000000 in
theorem cover3_4 (i : S100000x64.Idx) : ∃ t : Fin cfg3.N, (cfg3.win 4).flush t = true ∧ i ∈ ((cfg3.win 4).blk t).view.set := by
  have hi0 : (i 0).val < 100000 := (i 0).isLt
  have hi1 : (i 1).val < 64 := (i 1).isLt
  have hN : cfg3.N = 10 := N_3
  refine ⟨⟨(i 0).val / 10000, by rw [hN]; omega⟩, flush3_4 _, ?_⟩
  rw [mem_blk3_4]
  obtain ⟨e00, e01, e10, e11, e20, e21, e30, e31, e40, e41, e50, e51, e60, e61⟩ := idx_facts3 ⟨(i 0).val / 10000, by rw [hN]; omega⟩
  intro a
  match a with
  | ⟨0, _⟩ =>
    show win3_4.index _ (0 : Fin 2) * 10000 ≤ (i 0).val ∧ (i 0).val < win3_4.index _ (0 : Fin 2) * 10000 + 10000
    rw [e40]; show (i 0).val / 10000 * 10000 ≤ (i 0).val ∧ (i 0).val < (i 0).val / 10000 * 10000 + 10000; omega
  | ⟨1, _⟩ =>
    show win3_4.index _ (1 : Fin 2) * 64 ≤ (i 1).val ∧ (i 1).val < win3_4.index _ (1 : Fin 2) * 64 + 64
    rw [e41]; omega

/-- The big output array the region leaves. -/
theorem final3_4 (c : Dev nD) : (dat3 (Ix := Unit) (U := UR sig nD τ) (Lvl := ℕ) W c).arrAt 4 cfg3.N
    = A1 (VA3 W c main_v34) (VA3 W c main_v44) (VA3 W c main_arg11) (VA3 W c main_v45) :=
  (dat3 (Ix := Unit) (U := UR sig nD τ) (Lvl := ℕ) W c).arrAt_eq_of_cover 4 _ (fun t _ => flushed3_4_eq W c t) cover3_4

set_option maxHeartbeats 1000000 in
/-- The two running rows before point `n`, at column `j`: the accumulation over the first `n` blocks of column `j` of
    `A1`, and of its square. -/
theorem acc3_apply (c : Dev nD) (j : Fin 64) : ∀ (n : ℕ) (hn : n ≤ cfg3.N),
    (acc3 W c n hn).1 (ix2 (0 : Fin 1) j)
        = BatchStats.accTiles 10000 (colOf (A1 (VA3 W c main_v34) (VA3 W c main_v44) (VA3 W c main_arg11) (VA3 W c main_v45)) j) n
      ∧ (acc3 W c n hn).2 (ix2 (0 : Fin 1) j)
        = BatchStats.accTiles 10000 (colOf (fun i => A1 (VA3 W c main_v34) (VA3 W c main_v44) (VA3 W c main_arg11) (VA3 W c main_v45) i
            * A1 (VA3 W c main_v34) (VA3 W c main_v44) (VA3 W c main_arg11) (VA3 W c main_v45) i) j) n
  | 0, hn => by
    rw [acc3_zero]
    exact ⟨k3pay1_apply (ix2 (0 : Fin 1) j), k3pay2_apply (ix2 (0 : Fin 1) j)⟩
  | n + 1, hn => by
    obtain ⟨ih1, ih2⟩ := acc3_apply c j n (Nat.le_of_succ_le hn)
    have hN : cfg3.N = 10 := N_3
    have hrow : ∀ r : Fin 10000, n * 10000 + r.val < 100000 := fun r => by have := r.isLt; omega
    have himg : ∀ r : Fin 10000, k3_pay3 (F := Ideal) (iblk3 W c 0 ⟨n, Nat.lt_of_succ_le hn⟩) (iblk3 W c 1 ⟨n, Nat.lt_of_succ_le hn⟩)
          (iblk3 W c 2 ⟨n, Nat.lt_of_succ_le hn⟩) (iblk3 W c 3 ⟨n, Nat.lt_of_succ_le hn⟩) (ix2 r j)
        = A1 (VA3 W c main_v34) (VA3 W c main_v44) (VA3 W c main_arg11) (VA3 W c main_v45) (ix2 (⟨n * 10000 + r.val, hrow r⟩ : Fin 100000) j) :=
      fun r => img3_apply W c ⟨n, Nat.lt_of_succ_le hn⟩ r j
    rw [acc3_succ]
    refine ⟨?_, ?_⟩
    · show k3_pay4 (F := Ideal) _ _ _ _ (acc3 W c n (Nat.le_of_succ_le hn)).1 (ix2 (0 : Fin 1) j) = _
      rw [k3pay4_apply, ih1, BatchStats.accTiles_succ]
      refine congrArg _ (Finset.sum_congr rfl fun r _ => ?_)
      rw [himg r, colOf_lt _ _ _ (hrow r)]
    · show k3_pay5 (F := Ideal) _ _ _ _ (acc3 W c n (Nat.le_of_succ_le hn)).2 (ix2 (0 : Fin 1) j) = _
      rw [k3pay5_apply, ih2, BatchStats.accTiles_succ]
      refine congrArg _ (Finset.sum_congr rfl fun r _ => ?_)
      rw [himg r, colOf_lt _ _ _ (hrow r)]

theorem flush3_5_last (t : Fin cfg3.N) (h : (cfg3.win 5).flush t = true) : t.val = 9 := by
  have h1 := (flush3_5 t).mp h; have h2 := t.isLt; have h3 : cfg3.N = 10 := N_3; omega
theorem flush3_6_last (t : Fin cfg3.N) (h : (cfg3.win 6).flush t = true) : t.val = 9 := by
  have h1 := (flush3_6 t).mp h; have h2 := t.isLt; have h3 : cfg3.N = 10 := N_3; omega

theorem ten_le3 : 10 ≤ cfg3.N := by have h : cfg3.N = 10 := N_3; omega
def tLast3 : Fin cfg3.N := ⟨9, by have h : cfg3.N = 10 := N_3; omega⟩

set_option maxHeartbeats 1000000 in
/-- The row of column sums the region leaves: the accumulation through the last point, written back there. -/
theorem final3_5 (c : Dev nD) : (dat3 (Ix := Unit) (U := UR sig nD τ) (Lvl := ℕ) W c).arrAt 5 cfg3.N = (acc3 W c 10 ten_le3).1 := by
  refine (dat3 (Ix := Unit) (U := UR sig nD τ) (Lvl := ℕ) W c).arrAt_eq_of_cover 5 _ (fun t hf => ?_) (fun i => ⟨tLast3, (flush3_5 tLast3).mpr rfl, ?_⟩)
  · have ht := flush3_5_last t hf
    obtain ⟨tv, htl⟩ := t
    simp only at ht
    subst ht
    obtain ⟨e00, e01, e10, e11, e20, e21, e30, e31, e40, e41, e50, e51, e60, e61⟩ := idx_facts3 ⟨9, htl⟩
    show (cfg3.win 5).cut (grid3.coords ⟨9, htl⟩) ((dat3 (Ix := Unit) (U := UR sig nD τ) (Lvl := ℕ) W c).after 5 ⟨9, htl⟩) = _
    rw [after3_5]
    funext y
    show (acc3 W c 10 _).1 y = (acc3 W c 10 ten_le3).1 (((cfg3.win 5).blk ⟨9, htl⟩).view.emb y)
    refine congrArg _ (funext fun a => Fin.ext ?_)
    match a with
    | ⟨0, _⟩ => show (y 0).val = win3_5.index ⟨9, htl⟩ (0 : Fin 2) * 1 + 1 * (y 0).val; omega
    | ⟨1, _⟩ => show (y 1).val = win3_5.index ⟨9, htl⟩ (1 : Fin 2) * 64 + 1 * (y 1).val; omega
  · obtain ⟨e00, e01, e10, e11, e20, e21, e30, e31, e40, e41, e50, e51, e60, e61⟩ := idx_facts3 tLast3
    show i ∈ ((View.whole main_v51_1).slice (win3_5.rect tLast3)).set
    rw [View.set_slice_whole, Rect.mem_set_unit]
    intro a
    have hi0 : (i 0).val < 1 := (i 0).isLt
    have hi1 : (i 1).val < 64 := (i 1).isLt
    match a with
    | ⟨0, _⟩ => show win3_5.index tLast3 (0 : Fin 2) * 1 ≤ (i 0).val ∧ (i 0).val < win3_5.index tLast3 (0 : Fin 2) * 1 + 1; omega
    | ⟨1, _⟩ => show win3_5.index tLast3 (1 : Fin 2) * 64 ≤ (i 1).val ∧ (i 1).val < win3_5.index tLast3 (1 : Fin 2) * 64 + 64; omega

set_option maxHeartbeats 1000000 in
/-- The row of column sums of squares the region leaves. -/
theorem final3_6 (c : Dev nD) : (dat3 (Ix := Unit) (U := UR sig nD τ) (Lvl := ℕ) W c).arrAt 6 cfg3.N = (acc3 W c 10 ten_le3).2 := by
  refine (dat3 (Ix := Unit) (U := UR sig nD τ) (Lvl := ℕ) W c).arrAt_eq_of_cover 6 _ (fun t hf => ?_) (fun i => ⟨tLast3, (flush3_6 tLast3).mpr rfl, ?_⟩)
  · have ht := flush3_6_last t hf
    obtain ⟨tv, htl⟩ := t
    simp only at ht
    subst ht
    obtain ⟨e00, e01, e10, e11, e20, e21, e30, e31, e40, e41, e50, e51, e60, e61⟩ := idx_facts3 ⟨9, htl⟩
    show (cfg3.win 6).cut (grid3.coords ⟨9, htl⟩) ((dat3 (Ix := Unit) (U := UR sig nD τ) (Lvl := ℕ) W c).after 6 ⟨9, htl⟩) = _
    rw [after3_6]
    funext y
    show (acc3 W c 10 _).2 y = (acc3 W c 10 ten_le3).2 (((cfg3.win 6).blk ⟨9, htl⟩).view.emb y)
    refine congrArg _ (funext fun a => Fin.ext ?_)
    match a with
    | ⟨0, _⟩ => show (y 0).val = win3_6.index ⟨9, htl⟩ (0 : Fin 2) * 1 + 1 * (y 0).val; omega
    | ⟨1, _⟩ => show (y 1).val = win3_6.index ⟨9, htl⟩ (1 : Fin 2) * 64 + 1 * (y 1).val; omega
  · obtain ⟨e00, e01, e10, e11, e20, e21, e30, e31, e40, e41, e50, e51, e60, e61⟩ := idx_facts3 tLast3
    show i ∈ ((View.whole main_v51_2).slice (win3_6.rect tLast3)).set
    rw [View.set_slice_whole, Rect.mem_set_unit]
    intro a
    have hi0 : (i 0).val < 1 := (i 0).isLt
    have hi1 : (i 1).val < 64 := (i 1).isLt
    match a with
    | ⟨0, _⟩ => show win3_6.index tLast3 (0 : Fin 2) * 1 ≤ (i 0).val ∧ (i 0).val < win3_6.index tLast3 (0 : Fin 2) * 1 + 1; omega
    | ⟨1, _⟩ => show win3_6.index tLast3 (1 : Fin 2) * 64 ≤ (i 1).val ∧ (i 1).val < win3_6.index tLast3 (1 : Fin 2) * 64 + 64; omega

end Cert.KernelIdeal.Pass1V

end
-- ==== Proof.Pass3Value.lean ====
/-
  What the two pointwise regions leave in their output arrays, as one function of the arrays they read.

  The region runs the third pass on ten blocks of 10000 rows. Block `t` of the output is the pass's entry-by-entry map
  of block `t` of the input and of the four parameter rows (every point reads the same rows), and row `r` of the array
  lies in block `r / 10000`, so the ten blocks cover the array: it ends holding
  `max (g·(x − mean)·rsqrt(var + ε) + β) 0` at every entry.
-/
import proofs.«152416_j10892037062711_1_alg».proof.Proof.Pass3Body
import proofs.«152416_j10892037062711_1_alg».proof.Proof.KPay
import Idealize.ShloMosaic.Lib.Pipeline.Value

noncomputable section

namespace Cert.KernelIdeal.Pass3V

open Cert.KernelIdeal Cert.KernelIdeal.Gen Cert.KernelIdeal.Pass3 Cert.KernelIdeal.KPay
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

set_option maxHeartbeats 1000000 in
/-- Normalise, scale, shift and take the positive part, entry by entry: row `i 0`, column `i 1`. -/
def G3 (x : S100000x64.Idx → EReal) (mean var g b : S1x64.Idx → EReal) : S100000x64.Idx → EReal :=
  fun i => max (g (ix2 (0 : Fin 1) (i 1)) * (x i - mean (ix2 (0 : Fin 1) (i 1)))
      * Ideal.rsqrt (var (ix2 (0 : Fin 1) (i 1)) + Ideal.ofBits .f32 epsBits) + b (ix2 (0 : Fin 1) (i 1))) 0

/-- The second layer's third pass is the first layer's, word for word. -/
theorem k5pay1_apply (v0 : Vec Ideal S10000x64 .f32) (v2 v7 v9 v17 : Vec Ideal S1x64 .f32) (r : Fin 10000) (j : Fin 64) :
    k5_pay1 (F := Ideal) v0 v2 v7 v9 v17 (ix2 r j)
      = max (v7 (ix2 (0 : Fin 1) j) * (v0 (ix2 r j) - v9 (ix2 (0 : Fin 1) j))
            * Ideal.rsqrt (v2 (ix2 (0 : Fin 1) j) + Ideal.ofBits .f32 epsBits) + v17 (ix2 (0 : Fin 1) j)) 0 :=
  k2pay1_apply v0 v2 v7 v9 v17 r j

/-! ## Region 2 -/

theorem idx_facts2 : ∀ t : Fin cfg2.N, win2_0.index t (0 : Fin 2) = win2_5.index t (0 : Fin 2)
    ∧ win2_0.index t (1 : Fin 2) = 0 ∧ win2_5.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val :=
  (by decide +kernel : ∀ t : Fin grid2.N, _)

set_option maxHeartbeats 2000000 in
theorem flushed2_eq (c : Dev nD) (t : Fin cfg2.N) :
    (dat2 V c).flushed 5 t = ((cfg2.win 5).blk t).view.read (Elt Ideal)
      (G3 (V c main_v27_0) (V c main_v29) (V c main_v33) (V c main_v18) (V c main_v19)) := by
  show (cfg2.win 5).cut (grid2.coords t) ((dat2 V c).after 5 t) = _
  rw [after2_5]
  unfold out2_5
  rw [View.canon_unit_zero hz]
  simp only [View.ld_unit_zero (S := S10000x64) hz, View.ld_unit_zero (S := S1x64) hz]
  obtain ⟨e0, e01, e51, e10, e11, e20, e21, e30, e31, e40, e41, e5⟩ := idx_facts2 t
  funext y
  obtain ⟨r, j, rfl⟩ : ∃ (r : Fin 10000) (j : Fin 64), y = ix2 r j := ⟨y 0, y 1, eq_ix2 y⟩
  show k2_pay1 (F := Ideal) (iblk2 V c 0 t) (iblk2 V c 2 t) (iblk2 V c 3 t) (iblk2 V c 1 t) (iblk2 V c 4 t) (ix2 r j)
    = G3 (V c main_v27_0) (V c main_v29) (V c main_v33) (V c main_v18) (V c main_v19) (((cfg2.win 5).blk t).view.emb (ix2 r j))
  rw [k2pay1_apply]
  have h0 : ((cfg2.win 0).blk t).view.emb (ix2 r j) = ((cfg2.win 5).blk t).view.emb (ix2 r j) := by
    funext a; apply Fin.ext
    match a with
    | ⟨0, _⟩ => show win2_0.index t (0 : Fin 2) * 10000 + 1 * r.val = win2_5.index t (0 : Fin 2) * 10000 + 1 * r.val; omega
    | ⟨1, _⟩ => show win2_0.index t (1 : Fin 2) * 64 + 1 * j.val = win2_5.index t (1 : Fin 2) * 64 + 1 * j.val; omega
  have hcol : (((cfg2.win 5).blk t).view.emb (ix2 r j) 1).val = j.val := by
    show win2_5.index t (1 : Fin 2) * 64 + 1 * j.val = j.val; omega
  have hb : iblk2 V c 0 t (ix2 r j) = V c main_v27_0 (((cfg2.win 5).blk t).view.emb (ix2 r j)) := by
    show V c main_v27_0 (((cfg2.win 0).blk t).view.emb (ix2 r j)) = _
    rw [h0]
  have hr1 : iblk2 V c 1 t (ix2 (0 : Fin 1) j) = V c main_v29 (ix2 (0 : Fin 1) ((((cfg2.win 5).blk t).view.emb (ix2 r j)) 1)) := by
    show V c main_v29 (((cfg2.win 1).blk t).view.emb (ix2 (0 : Fin 1) j)) = _
    refine congrArg _ (funext fun a => Fin.ext ?_)
    match a with
    | ⟨0, _⟩ => show win2_1.index t (0 : Fin 2) * 1 + 1 * 0 = 0; omega
    | ⟨1, _⟩ => show win2_1.index t (1 : Fin 2) * 64 + 1 * j.val = ((((cfg2.win 5).blk t).view.emb (ix2 r j)) 1).val; rw [hcol]; omega
  have hr2 : iblk2 V c 2 t (ix2 (0 : Fin 1) j) = V c main_v33 (ix2 (0 : Fin 1) ((((cfg2.win 5).blk t).view.emb (ix2 r j)) 1)) := by
    show V c main_v33 (((cfg2.win 2).blk t).view.emb (ix2 (0 : Fin 1) j)) = _
    refine congrArg _ (funext fun a => Fin.ext ?_)
    match a with
    | ⟨0, _⟩ => show win2_2.index t (0 : Fin 2) * 1 + 1 * 0 = 0; omega
    | ⟨1, _⟩ => show win2_2.index t (1 : Fin 2) * 64 + 1 * j.val = ((((cfg2.win 5).blk t).view.emb (ix2 r j)) 1).val; rw [hcol]; omega
  have hr3 : iblk2 V c 3 t (ix2 (0 : Fin 1) j) = V c main_v18 (ix2 (0 : Fin 1) ((((cfg2.win 5).blk t).view.emb (ix2 r j)) 1)) := by
    show V c main_v18 (((cfg2.win 3).blk t).view.emb (ix2 (0 : Fin 1) j)) = _
    refine congrArg _ (funext fun a => Fin.ext ?_)
    match a with
    | ⟨0, _⟩ => show win2_3.index t (0 : Fin 2) * 1 + 1 * 0 = 0; omega
    | ⟨1, _⟩ => show win2_3.index t (1 : Fin 2) * 64 + 1 * j.val = ((((cfg2.win 5).blk t).view.emb (ix2 r j)) 1).val; rw [hcol]; omega
  have hr4 : iblk2 V c 4 t (ix2 (0 : Fin 1) j) = V c main_v19 (ix2 (0 : Fin 1) ((((cfg2.win 5).blk t).view.emb (ix2 r j)) 1)) := by
    show V c main_v19 (((cfg2.win 4).blk t).view.emb (ix2 (0 : Fin 1) j)) = _
    refine congrArg _ (funext fun a => Fin.ext ?_)
    match a with
    | ⟨0, _⟩ => show win2_4.index t (0 : Fin 2) * 1 + 1 * 0 = 0; omega
    | ⟨1, _⟩ => show win2_4.index t (1 : Fin 2) * 64 + 1 * j.val = ((((cfg2.win 5).blk t).view.emb (ix2 r j)) 1).val; rw [hcol]; omega
  unfold G3
  rw [hb, hr1, hr2, hr3, hr4]

/-- An index of the array is in point `t`'s block iff each coordinate is in the block's range on its axis. -/
theorem mem_blk2 (t : Fin cfg2.N) (i : S100000x64.Idx) :
    i ∈ ((cfg2.win 5).blk t).view.set ↔ ∀ a : Fin 2, win2_5.index t a * S10000x64.size a ≤ (i a).val ∧ (i a).val < win2_5.index t a * S10000x64.size a + S10000x64.size a := by
  show i ∈ ((View.whole main_v34).slice (win2_5.rect t)).set ↔ _
  rw [View.set_slice_whole, Rect.mem_set_unit]
  exact Iff.rfl

/-- Row `i 0` lies in the block of point `(i 0) / 10000`. -/
theorem cover2 (i : S100000x64.Idx) : ∃ t : Fin cfg2.N, (cfg2.win 5).flush t = true ∧ i ∈ ((cfg2.win 5).blk t).view.set := by
  have hi0 : (i 0).val < 100000 := (i 0).isLt
  have hi1 : (i 1).val < 64 := (i 1).isLt
  have hN : cfg2.N = 10 := N_2
  refine ⟨⟨(i 0).val / 10000, by rw [hN]; omega⟩, flush2_5 _, ?_⟩
  rw [mem_blk2]
  obtain ⟨e0, e01, e51, e10, e11, e20, e21, e30, e31, e40, e41, e5⟩ := idx_facts2 ⟨(i 0).val / 10000, by rw [hN]; omega⟩
  intro a
  match a with
  | ⟨0, _⟩ =>
    show win2_5.index _ (0 : Fin 2) * 10000 ≤ (i 0).val ∧ (i 0).val < win2_5.index _ (0 : Fin 2) * 10000 + 10000
    rw [e5]; show (i 0).val / 10000 * 10000 ≤ (i 0).val ∧ (i 0).val < (i 0).val / 10000 * 10000 + 10000; omega
  | ⟨1, _⟩ =>
    show win2_5.index _ (1 : Fin 2) * 64 ≤ (i 1).val ∧ (i 1).val < win2_5.index _ (1 : Fin 2) * 64 + 64
    rw [e51]; omega

/-- The array the region leaves: the normalised rows of the array it read. -/
theorem final2 (c : Dev nD) : (dat2 V c).arrAt 5 cfg2.N
    = G3 (V c main_v27_0) (V c main_v29) (V c main_v33) (V c main_v18) (V c main_v19) :=
  (dat2 V c).arrAt_eq_of_cover 5 _ (fun t _ => flushed2_eq V c t) cover2

/-! ## Region 5 -/

theorem idx_facts5 : ∀ t : Fin cfg5.N, win5_0.index t (0 : Fin 2) = win5_5.index t (0 : Fin 2)
    ∧ win5_0.index t (1 : Fin 2) = 0 ∧ win5_5.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val :=
  (by decide +kernel : ∀ t : Fin grid5.N, _)

set_option maxHeartbeats 2000000 in
theorem flushed5_eq (c : Dev nD) (t : Fin cfg5.N) :
    (dat5 V c).flushed 5 t = ((cfg5.win 5).blk t).view.read (Elt Ideal)
      (G3 (V c main_v58_0) (V c main_v60) (V c main_v64) (V c main_v49) (V c main_v50)) := by
  show (cfg5.win 5).cut (grid5.coords t) ((dat5 V c).after 5 t) = _
  rw [after5_5]
  unfold out5_5
  rw [View.canon_unit_zero hz]
  simp only [View.ld_unit_zero (S := S10000x64) hz, View.ld_unit_zero (S := S1x64) hz]
  obtain ⟨e0, e01, e51, e10, e11, e20, e21, e30, e31, e40, e41, e5⟩ := idx_facts5 t
  funext y
  obtain ⟨r, j, rfl⟩ : ∃ (r : Fin 10000) (j : Fin 64), y = ix2 r j := ⟨y 0, y 1, eq_ix2 y⟩
  show k5_pay1 (F := Ideal) (iblk5 V c 0 t) (iblk5 V c 2 t) (iblk5 V c 3 t) (iblk5 V c 1 t) (iblk5 V c 4 t) (ix2 r j)
    = G3 (V c main_v58_0) (V c main_v60) (V c main_v64) (V c main_v49) (V c main_v50) (((cfg5.win 5).blk t).view.emb (ix2 r j))
  rw [k5pay1_apply]
  have h0 : ((cfg5.win 0).blk t).view.emb (ix2 r j) = ((cfg5.win 5).blk t).view.emb (ix2 r j) := by
    funext a; apply Fin.ext
    match a with
    | ⟨0, _⟩ => show win5_0.index t (0 : Fin 2) * 10000 + 1 * r.val = win5_5.index t (0 : Fin 2) * 10000 + 1 * r.val; omega
    | ⟨1, _⟩ => show win5_0.index t (1 : Fin 2) * 64 + 1 * j.val = win5_5.index t (1 : Fin 2) * 64 + 1 * j.val; omega
  have hcol : (((cfg5.win 5).blk t).view.emb (ix2 r j) 1).val = j.val := by
    show win5_5.index t (1 : Fin 2) * 64 + 1 * j.val = j.val; omega
  have hb : iblk5 V c 0 t (ix2 r j) = V c main_v58_0 (((cfg5.win 5).blk t).view.emb (ix2 r j)) := by
    show V c main_v58_0 (((cfg5.win 0).blk t).view.emb (ix2 r j)) = _
    rw [h0]
  have hr1 : iblk5 V c 1 t (ix2 (0 : Fin 1) j) = V c main_v60 (ix2 (0 : Fin 1) ((((cfg5.win 5).blk t).view.emb (ix2 r j)) 1)) := by
    show V c main_v60 (((cfg5.win 1).blk t).view.emb (ix2 (0 : Fin 1) j)) = _
    refine congrArg _ (funext fun a => Fin.ext ?_)
    match a with
    | ⟨0, _⟩ => show win5_1.index t (0 : Fin 2) * 1 + 1 * 0 = 0; omega
    | ⟨1, _⟩ => show win5_1.index t (1 : Fin 2) * 64 + 1 * j.val = ((((cfg5.win 5).blk t).view.emb (ix2 r j)) 1).val; rw [hcol]; omega
  have hr2 : iblk5 V c 2 t (ix2 (0 : Fin 1) j) = V c main_v64 (ix2 (0 : Fin 1) ((((cfg5.win 5).blk t).view.emb (ix2 r j)) 1)) := by
    show V c main_v64 (((cfg5.win 2).blk t).view.emb (ix2 (0 : Fin 1) j)) = _
    refine congrArg _ (funext fun a => Fin.ext ?_)
    match a with
    | ⟨0, _⟩ => show win5_2.index t (0 : Fin 2) * 1 + 1 * 0 = 0; omega
    | ⟨1, _⟩ => show win5_2.index t (1 : Fin 2) * 64 + 1 * j.val = ((((cfg5.win 5).blk t).view.emb (ix2 r j)) 1).val; rw [hcol]; omega
  have hr3 : iblk5 V c 3 t (ix2 (0 : Fin 1) j) = V c main_v49 (ix2 (0 : Fin 1) ((((cfg5.win 5).blk t).view.emb (ix2 r j)) 1)) := by
    show V c main_v49 (((cfg5.win 3).blk t).view.emb (ix2 (0 : Fin 1) j)) = _
    refine congrArg _ (funext fun a => Fin.ext ?_)
    match a with
    | ⟨0, _⟩ => show win5_3.index t (0 : Fin 2) * 1 + 1 * 0 = 0; omega
    | ⟨1, _⟩ => show win5_3.index t (1 : Fin 2) * 64 + 1 * j.val = ((((cfg5.win 5).blk t).view.emb (ix2 r j)) 1).val; rw [hcol]; omega
  have hr4 : iblk5 V c 4 t (ix2 (0 : Fin 1) j) = V c main_v50 (ix2 (0 : Fin 1) ((((cfg5.win 5).blk t).view.emb (ix2 r j)) 1)) := by
    show V c main_v50 (((cfg5.win 4).blk t).view.emb (ix2 (0 : Fin 1) j)) = _
    refine congrArg _ (funext fun a => Fin.ext ?_)
    match a with
    | ⟨0, _⟩ => show win5_4.index t (0 : Fin 2) * 1 + 1 * 0 = 0; omega
    | ⟨1, _⟩ => show win5_4.index t (1 : Fin 2) * 64 + 1 * j.val = ((((cfg5.win 5).blk t).view.emb (ix2 r j)) 1).val; rw [hcol]; omega
  unfold G3
  rw [hb, hr1, hr2, hr3, hr4]

/-- An index of the array is in point `t`'s block iff each coordinate is in the block's range on its axis. -/
theorem mem_blk5 (t : Fin cfg5.N) (i : S100000x64.Idx) :
    i ∈ ((cfg5.win 5).blk t).view.set ↔ ∀ a : Fin 2, win5_5.index t a * S10000x64.size a ≤ (i a).val ∧ (i a).val < win5_5.index t a * S10000x64.size a + S10000x64.size a := by
  show i ∈ ((View.whole main_v65).slice (win5_5.rect t)).set ↔ _
  rw [View.set_slice_whole, Rect.mem_set_unit]
  exact Iff.rfl

set_option maxHeartbeats 1000000 in
/-- Row `i 0` lies in the block of point `(i 0) / 10000`. -/
theorem cover5 (i : S100000x64.Idx) : ∃ t : Fin cfg5.N, (cfg5.win 5).flush t = true ∧ i ∈ ((cfg5.win 5).blk t).view.set := by
  have hi0 : (i 0).val < 100000 := (i 0).isLt
  have hi1 : (i 1).val < 64 := (i 1).isLt
  have hN : cfg5.N = 10 := N_5
  refine ⟨⟨(i 0).val / 10000, by rw [hN]; omega⟩, flush5_5 _, ?_⟩
  rw [mem_blk5]
  obtain ⟨e0, e01, e51, e10, e11, e20, e21, e30, e31, e40, e41, e5⟩ := idx_facts5 ⟨(i 0).val / 10000, by rw [hN]; omega⟩
  intro a
  match a with
  | ⟨0, _⟩ =>
    show win5_5.index _ (0 : Fin 2) * 10000 ≤ (i 0).val ∧ (i 0).val < win5_5.index _ (0 : Fin 2) * 10000 + 10000
    rw [e5]; show (i 0).val / 10000 * 10000 ≤ (i 0).val ∧ (i 0).val < (i 0).val / 10000 * 10000 + 10000; omega
  | ⟨1, _⟩ =>
    show win5_5.index _ (1 : Fin 2) * 64 ≤ (i 1).val ∧ (i 1).val < win5_5.index _ (1 : Fin 2) * 64 + 64
    rw [e51]; omega

/-- The array the region leaves: the normalised rows of the array it read. -/
theorem final5 (c : Dev nD) : (dat5 V c).arrAt 5 cfg5.N
    = G3 (V c main_v58_0) (V c main_v60) (V c main_v64) (V c main_v49) (V c main_v50) :=
  (dat5 V c).arrAt_eq_of_cover 5 _ (fun t _ => flushed5_eq V c t) cover5

end Cert.KernelIdeal.Pass3V

end
-- ==== Proof.Spec.lean ====
/-
  One graph-convolution layer with batch normalisation, as functions of index on the extended reals, in the two
  spellings the two programs use, and their equality on finite data.

  Rows are indexed by a finite type `ι` with `N` elements (the nodes), columns by `κ` (the features).
  * `affine z w b` is `z·w + b` (the product accumulated onto zero);
  * `colMean`, `colVarK` ("mean of squares minus squared mean": what the tiled kernel computes from its two
    accumulated column sums) and `colVarR` ("mean of squared deviations": what the plain program computes);
  * `bnRelu` is `max (g·(a − mean)·rsqrt(var + ε) + b) 0`.
  On finite data `colVarK = colVarR` (`BatchStats.var_two_ways`), the variance is a nonnegative real, so with `ε`
  a positive real the reciprocal square root is a real and every value of the layer stays finite; hence the two
  spellings of a whole layer agree and the next layer again sees finite data.
-/
import proofs.«152416_j10892037062711_1_alg».proof.Proof.LibBatchStats

noncomputable section

namespace GinSpec

open Idealize.ShloMosaic
open scoped BigOperators

/-- An extended real that is a real number. -/
def IsFin (x : EReal) : Prop := ∃ r : ℝ, x = (r : EReal)

theorem IsFin.coe (r : ℝ) : IsFin (r : EReal) := ⟨r, rfl⟩
theorem IsFin.zero : IsFin (0 : EReal) := ⟨0, rfl⟩
theorem IsFin.add {x y : EReal} (hx : IsFin x) (hy : IsFin y) : IsFin (x + y) := by
  obtain ⟨a, rfl⟩ := hx; obtain ⟨b, rfl⟩ := hy; exact ⟨a + b, (EReal.coe_add a b).symm⟩
theorem IsFin.sub {x y : EReal} (hx : IsFin x) (hy : IsFin y) : IsFin (x - y) := by
  obtain ⟨a, rfl⟩ := hx; obtain ⟨b, rfl⟩ := hy; exact ⟨a - b, (EReal.coe_sub a b).symm⟩
theorem IsFin.mul {x y : EReal} (hx : IsFin x) (hy : IsFin y) : IsFin (x * y) := by
  obtain ⟨a, rfl⟩ := hx; obtain ⟨b, rfl⟩ := hy; exact ⟨a * b, (EReal.coe_mul a b).symm⟩
theorem IsFin.max {x y : EReal} (hx : IsFin x) (hy : IsFin y) : IsFin (max x y) := by
  rcases max_choice x y with h | h <;> rw [h] <;> assumption
theorem IsFin.sum {α : Type*} (s : Finset α) (f : α → EReal) (h : ∀ i ∈ s, IsFin (f i)) : IsFin (∑ i ∈ s, f i) := by
  classical
  induction s using Finset.induction_on with
  | empty => simpa using IsFin.zero
  | insert a s ha ih =>
    rw [Finset.sum_insert ha]
    exact (h a (Finset.mem_insert_self a s)).add (ih fun i hi => h i (Finset.mem_insert_of_mem hi))
theorem IsFin.div_coe {x : EReal} (hx : IsFin x) {N : ℝ} (hN : N ≠ 0) : IsFin (Ideal.div x (N : EReal)) := by
  rw [Ideal.div_coe hN]; exact hx.mul (IsFin.coe _)
/-- The reciprocal square root of a positive real is a real. -/
theorem IsFin.rsqrt_pos {v : ℝ} (hv : 0 < v) : IsFin (Ideal.rsqrt (v : EReal)) := by
  rw [Ideal.rsqrt_coe, if_neg (not_lt.mpr hv.le), if_neg hv.ne']; exact IsFin.coe _

variable {ι κ : Type*} [Fintype ι] [Fintype κ]

/-- `z·w + b`, the product accumulated onto zero. -/
def affine (z : ι → κ → EReal) (w : κ → κ → EReal) (b : κ → EReal) : ι → κ → EReal :=
  fun i j => (0 + ∑ k, z i k * w k j) + b j

theorem affine_fin {z : ι → κ → EReal} {w : κ → κ → EReal} {b : κ → EReal}
    (hz : ∀ i k, IsFin (z i k)) (hw : ∀ k j, IsFin (w k j)) (hb : ∀ j, IsFin (b j)) (i : ι) (j : κ) :
    IsFin (affine z w b i j) :=
  ((IsFin.zero).add (IsFin.sum _ _ fun k _ => (hz i k).mul (hw k j))).add (hb j)

/-- The column mean: the exact quotient of the column sum by `N`. -/
def colMean (N : EReal) (a : ι → κ → EReal) (j : κ) : EReal := Ideal.div (∑ i, a i j) N
/-- Mean of the squares minus the square of the mean. -/
def colVarK (N : EReal) (a : ι → κ → EReal) (j : κ) : EReal :=
  Ideal.div (∑ i, a i j * a i j) N - colMean N a j * colMean N a j
/-- Mean of the squared deviations from the mean. -/
def colVarR (N : EReal) (a : ι → κ → EReal) (j : κ) : EReal :=
  Ideal.div (∑ i, (a i j - colMean N a j) * (a i j - colMean N a j)) N

theorem colMean_fin {a : ι → κ → EReal} (ha : ∀ i j, IsFin (a i j)) {N : ℝ} (hN : N ≠ 0) (j : κ) :
    IsFin (colMean (N : EReal) a j) :=
  (IsFin.sum _ _ fun i _ => ha i j).div_coe hN

/-- On finite data with `N` rows the two variances agree. -/
theorem colVarK_eq_colVarR {a : ι → κ → EReal} (ha : ∀ i j, IsFin (a i j)) {N : ℝ} (hN : N ≠ 0)
    (hc : (Fintype.card ι : ℝ) = N) : colVarK (N : EReal) a = colVarR (N : EReal) a := by
  funext j
  choose r hr using fun i => ha i j
  simp only [colVarK, colVarR, colMean, hr]
  exact BatchStats.var_two_ways r N hN hc

/-- The variance of finite data is a nonnegative real. -/
theorem colVarR_nonneg {a : ι → κ → EReal} (ha : ∀ i j, IsFin (a i j)) {N : ℝ} (hN : 0 < N) (j : κ) :
    ∃ v : ℝ, 0 ≤ v ∧ colVarR (N : EReal) a j = (v : EReal) := by
  choose r hr using fun i => ha i j
  simp only [colVarR, colMean, hr]
  exact BatchStats.var_coe_nonneg r N hN

/-- Batch normalisation followed by the positive part. -/
def bnRelu (eps : EReal) (a : ι → κ → EReal) (mean var g b : κ → EReal) : ι → κ → EReal :=
  fun i j => max (g j * (a i j - mean j) * Ideal.rsqrt (var j + eps) + b j) 0

theorem bnRelu_fin {e : ℝ} (he : 0 < e) {a : ι → κ → EReal} {mean var g b : κ → EReal}
    (ha : ∀ i j, IsFin (a i j)) (hm : ∀ j, IsFin (mean j)) (hv : ∀ j, ∃ v : ℝ, 0 ≤ v ∧ var j = (v : EReal))
    (hg : ∀ j, IsFin (g j)) (hb : ∀ j, IsFin (b j)) (i : ι) (j : κ) :
    IsFin (bnRelu (e : EReal) a mean var g b i j) := by
  obtain ⟨v, hv0, hvj⟩ := hv j
  have hrs : IsFin (Ideal.rsqrt (var j + (e : EReal))) := by
    rw [hvj, ← EReal.coe_add]; exact IsFin.rsqrt_pos (by linarith)
  exact ((((hg j).mul ((ha i j).sub (hm j))).mul hrs).add (hb j)).max IsFin.zero

/-- A layer's dense part in the tiled program's spelling: both normalisations use `colVarK`. -/
def layerK (N eps : EReal) (z : ι → κ → EReal) (w1 : κ → κ → EReal) (b1 g1 be1 : κ → EReal)
    (w2 : κ → κ → EReal) (b2 g2 be2 : κ → EReal) : ι → κ → EReal :=
  let a := affine z w1 b1
  let c := affine (bnRelu eps a (colMean N a) (colVarK N a) g1 be1) w2 b2
  bnRelu eps c (colMean N c) (colVarK N c) g2 be2

/-- The same in the plain program's spelling: both normalisations use `colVarR`. -/
def layerR (N eps : EReal) (z : ι → κ → EReal) (w1 : κ → κ → EReal) (b1 g1 be1 : κ → EReal)
    (w2 : κ → κ → EReal) (b2 g2 be2 : κ → EReal) : ι → κ → EReal :=
  let a := affine z w1 b1
  let c := affine (bnRelu eps a (colMean N a) (colVarR N a) g1 be1) w2 b2
  bnRelu eps c (colMean N c) (colVarR N c) g2 be2

section layer
variable {N e : ℝ} (hN : 0 < N) (hc : (Fintype.card ι : ℝ) = N) (he : 0 < e)
  {z : ι → κ → EReal} {w1 w2 : κ → κ → EReal} {b1 g1 be1 b2 g2 be2 : κ → EReal}
  (hz : ∀ i k, IsFin (z i k)) (hw1 : ∀ k j, IsFin (w1 k j)) (hb1 : ∀ j, IsFin (b1 j)) (hg1 : ∀ j, IsFin (g1 j))
  (hbe1 : ∀ j, IsFin (be1 j)) (hw2 : ∀ k j, IsFin (w2 k j)) (hb2 : ∀ j, IsFin (b2 j)) (hg2 : ∀ j, IsFin (g2 j))
  (hbe2 : ∀ j, IsFin (be2 j))
include hN hc he hz hw1 hb1 hg1 hbe1 hw2 hb2 hg2 hbe2

/-- On finite data the two spellings of a layer agree. -/
theorem layerK_eq_layerR :
    layerK (N : EReal) (e : EReal) z w1 b1 g1 be1 w2 b2 g2 be2 = layerR (N : EReal) (e : EReal) z w1 b1 g1 be1 w2 b2 g2 be2 := by
  have ha := affine_fin hz hw1 hb1
  have hva := colVarK_eq_colVarR ha hN.ne' hc
  have hp := bnRelu_fin he ha (colMean_fin ha hN.ne') (colVarR_nonneg ha hN) hg1 hbe1
  have hcf := affine_fin hp hw2 hb2
  have hvc := colVarK_eq_colVarR hcf hN.ne' hc
  simp only [layerK, layerR, hva, hvc]

/-- A layer of finite data is finite. -/
theorem layerR_fin (i : ι) (j : κ) : IsFin (layerR (N : EReal) (e : EReal) z w1 b1 g1 be1 w2 b2 g2 be2 i j) := by
  have ha := affine_fin hz hw1 hb1
  have hp := bnRelu_fin he ha (colMean_fin ha hN.ne') (colVarR_nonneg ha hN) hg1 hbe1
  have hcf := affine_fin hp hw2 hb2
  exact bnRelu_fin he hcf (colMean_fin hcf hN.ne') (colVarR_nonneg hcf hN) hg2 hbe2 i j

end layer

end GinSpec

end
-- ==== Proof.KFuns.lean ====
/-
  The second pass as a function of whole arrays: row `i 0`, column `i 1` of
  `max (g·(a − mean)·rsqrt(var + ε) + β) 0 · w + b`, the parameter rows read at `(0, k)`.
-/
import proofs.«152416_j10892037062711_1_alg».proof.Proof.KPay

noncomputable section

namespace Cert.KernelIdeal.KFuns

open Cert.KernelIdeal Cert.KernelIdeal.KPay
open Idealize.ShloMosaic Idealize.ShloMosaic.ValueIdx
open scoped BigOperators

/-- The second pass as a function of whole arrays: normalise `a`, positive part, `·w + b`. -/
def C2 (a : S100000x64.Idx → EReal) (mean var g be : S1x64.Idx → EReal) (w : S64x64.Idx → EReal) (b : S1x64.Idx → EReal) :
    S100000x64.Idx → EReal :=
  fun i => (∑ k : Fin 64, max (g (ix2 (0 : Fin 1) k) * (a (ix2 (i 0) k) - mean (ix2 (0 : Fin 1) k))
      * Ideal.rsqrt (var (ix2 (0 : Fin 1) k) + Ideal.ofBits .f32 epsBits) + be (ix2 (0 : Fin 1) k)) 0 * w (ix2 k (i 1)))
    + b (ix2 (0 : Fin 1) (i 1))

end Cert.KernelIdeal.KFuns

end
-- ==== Proof.KLayer.lean ====
/-
  One layer as the tiled program computes it is `GinSpec.layerK`.

  The three passes' whole-array functions (`A1`, `C2`, `G3`), read at coordinates, are the affine map, the normalised
  positive part followed by the affine map, and the normalised positive part; with each mean the column sum divided
  by `N` and each variance the column sum of squares divided by `N` minus the squared mean, their composition is the
  layer in the spelling that uses `colVarK`.
-/
import proofs.«152416_j10892037062711_1_alg».proof.Proof.Pass1Value
import proofs.«152416_j10892037062711_1_alg».proof.Proof.Pass3Value
import proofs.«152416_j10892037062711_1_alg».proof.Proof.Spec
import proofs.«152416_j10892037062711_1_alg».proof.Proof.KFuns

noncomputable section

namespace Cert.KernelIdeal.KLayer

open Cert.KernelIdeal Cert.KernelIdeal.KPay Cert.KernelIdeal.KFuns Cert.KernelIdeal.Pass1V Cert.KernelIdeal.Pass3V
open Idealize.ShloMosaic Idealize.ShloMosaic.ValueIdx
open scoped BigOperators

variable (X AGG : S100000x64.Idx → EReal) (W1 W2 : S64x64.Idx → EReal) (b1 g1 be1 b2 g2 be2 : S1x64.Idx → EReal) (N : EReal)

/-- The rows of a one-row matrix, the entries of a square matrix and of a tall matrix as functions of coordinates. -/
abbrev rowF (v : S1x64.Idx → EReal) : Fin 64 → EReal := fun j => v (ix2 (0 : Fin 1) j)
abbrev sqF (w : S64x64.Idx → EReal) : Fin 64 → Fin 64 → EReal := fun k j => w (ix2 k j)
abbrev matF (x : S100000x64.Idx → EReal) : Fin 100000 → Fin 64 → EReal := fun i k => x (ix2 i k)

theorem A1_eq_affine : matF (A1 X AGG W1 b1) = GinSpec.affine (fun i k => X (ix2 i k) + AGG (ix2 i k)) (sqF W1) (rowF b1) := by
  funext i j
  simp only [matF, A1, GinSpec.affine, sqF, rowF, zero_add]

theorem C2_eq_affine (a : S100000x64.Idx → EReal) (mean var : S1x64.Idx → EReal) :
    matF (C2 a mean var g1 be1 W2 b2)
      = GinSpec.affine (GinSpec.bnRelu (Ideal.ofBits .f32 epsBits) (matF a) (rowF mean) (rowF var) (rowF g1) (rowF be1)) (sqF W2) (rowF b2) := by
  funext i j
  simp only [matF, C2, GinSpec.affine, GinSpec.bnRelu, sqF, rowF, zero_add]

theorem G3_eq_bnRelu (c : S100000x64.Idx → EReal) (mean var : S1x64.Idx → EReal) :
    matF (G3 c mean var g2 be2) = GinSpec.bnRelu (Ideal.ofBits .f32 epsBits) (matF c) (rowF mean) (rowF var) (rowF g2) (rowF be2) := by
  funext i j
  simp only [matF, G3, GinSpec.bnRelu, rowF]

/-- The whole layer as the tiled program computes it — the two column sums of each dense map divided by `N`, the
    variance as the mean of squares minus the squared mean — is `GinSpec.layerK`. -/
theorem layer_eq (s1 s2 mean var t1 t2 meanc varc : S1x64.Idx → EReal)
    (hs1 : ∀ j : Fin 64, s1 (ix2 (0 : Fin 1) j) = ∑ i : Fin 100000, A1 X AGG W1 b1 (ix2 i j))
    (hs2 : ∀ j : Fin 64, s2 (ix2 (0 : Fin 1) j) = ∑ i : Fin 100000, A1 X AGG W1 b1 (ix2 i j) * A1 X AGG W1 b1 (ix2 i j))
    (hmean : ∀ j : Fin 64, mean (ix2 (0 : Fin 1) j) = Ideal.div (s1 (ix2 (0 : Fin 1) j)) N)
    (hvar : ∀ j : Fin 64, var (ix2 (0 : Fin 1) j) = Ideal.div (s2 (ix2 (0 : Fin 1) j)) N - mean (ix2 (0 : Fin 1) j) * mean (ix2 (0 : Fin 1) j))
    (ht1 : ∀ j : Fin 64, t1 (ix2 (0 : Fin 1) j) = ∑ i : Fin 100000, C2 (A1 X AGG W1 b1) mean var g1 be1 W2 b2 (ix2 i j))
    (ht2 : ∀ j : Fin 64, t2 (ix2 (0 : Fin 1) j) = ∑ i : Fin 100000, C2 (A1 X AGG W1 b1) mean var g1 be1 W2 b2 (ix2 i j) * C2 (A1 X AGG W1 b1) mean var g1 be1 W2 b2 (ix2 i j))
    (hmeanc : ∀ j : Fin 64, meanc (ix2 (0 : Fin 1) j) = Ideal.div (t1 (ix2 (0 : Fin 1) j)) N)
    (hvarc : ∀ j : Fin 64, varc (ix2 (0 : Fin 1) j) = Ideal.div (t2 (ix2 (0 : Fin 1) j)) N - meanc (ix2 (0 : Fin 1) j) * meanc (ix2 (0 : Fin 1) j)) :
    matF (G3 (C2 (A1 X AGG W1 b1) mean var g1 be1 W2 b2) meanc varc g2 be2)
      = GinSpec.layerK N (Ideal.ofBits .f32 epsBits) (fun i k => X (ix2 i k) + AGG (ix2 i k)) (sqF W1) (rowF b1) (rowF g1) (rowF be1)
          (sqF W2) (rowF b2) (rowF g2) (rowF be2) := by
  have hm : rowF mean = GinSpec.colMean N (matF (A1 X AGG W1 b1)) := funext fun j => by
    simp only [rowF, GinSpec.colMean, matF, hmean j, hs1 j]
  have hv : rowF var = GinSpec.colVarK N (matF (A1 X AGG W1 b1)) := funext fun j => by
    have := congrFun hm j
    simp only [rowF] at this
    simp only [rowF, GinSpec.colVarK, matF, hvar j, hs2 j, this]
  have hmc : rowF meanc = GinSpec.colMean N (matF (C2 (A1 X AGG W1 b1) mean var g1 be1 W2 b2)) := funext fun j => by
    simp only [rowF, GinSpec.colMean, matF, hmeanc j, ht1 j]
  have hvc : rowF varc = GinSpec.colVarK N (matF (C2 (A1 X AGG W1 b1) mean var g1 be1 W2 b2)) := funext fun j => by
    have := congrFun hmc j
    simp only [rowF] at this
    simp only [rowF, GinSpec.colVarK, matF, hvarc j, ht2 j, this]
  rw [G3_eq_bnRelu, hmc, hvc, C2_eq_affine, hm, hv, A1_eq_affine]
  rfl

end Cert.KernelIdeal.KLayer

end
-- ==== Proof.KChain.lean ====
/-
  The tiled program's two layers, each from what its three regions leave to `GinSpec.layerK`.

  Between the regions the host only divides the two column sums by the number of rows and forms
  "mean of squares minus squared mean"; the parameter rows a region reads are the ones the first host stretch of the
  layer wrote, untouched since. With each region's arrays given as functions of the arrays it reads (the hypotheses
  `H0 … H6`), the array the third pass leaves is the layer of the arrays the first pass reads.
-/
import proofs.«152416_j10892037062711_1_alg».proof.Proof.Gen.KernelIdeal.Regions
import proofs.«152416_j10892037062711_1_alg».proof.Proof.StageArrays
import proofs.«152416_j10892037062711_1_alg».proof.Proof.KLayer
import Idealize.ShloMosaic.Lib.StableHlo.Run

noncomputable section

namespace Cert.KernelIdeal.KChain

open Cert.KernelIdeal Cert.KernelIdeal.Gen Cert.KernelIdeal.Stages Cert.KernelIdeal.KPay Cert.KernelIdeal.KFuns Cert.KernelIdeal.Pass1V Cert.KernelIdeal.Pass3V Cert.KernelIdeal.KLayer
open Idealize.ShloMosaic Idealize.ShloMosaic.TcCoe Idealize.ShloMosaic.StableHlo Idealize.ShloMosaic.ValueIdx
open scoped BigOperators

variable (m : (ℓ : Loc nD τ sig) → Buf (Elt Ideal) ℓ) (outs : Outs (F := Ideal)) (c : Dev nD)

/-- The number of rows, as both programs spell it. -/
abbrev NBits : BitVec 32 := 0x47C35000#32

/-- A parameter vector `[64]` recast as one row `[1, 64]`. -/
abbrev rowOf (v : S64.Idx → EReal) : S1x64.Idx → EReal := shapeCast S1x64 v shapeCasts_S64_S1x64

theorem rowOf_apply (v : S64.Idx → EReal) (j : Fin 64) : rowOf v (ix2 (0 : Fin 1) j) = v (ix1 j) :=
  shapeCast_a_1a_apply v _ 0 j

/-! ## What the first host stretch leaves -/

theorem V1_arg0 : (V1 m c main_arg0 : S100000x64.Idx → EReal) = m ((c : Thread nD τ).loc main_arg0) := V1_of m c main_arg0 (by decide)
theorem V1_arg3 : (V1 m c main_arg3 : S64x64.Idx → EReal) = m ((c : Thread nD τ).loc main_arg3) := V1_of m c main_arg3 (by decide)
theorem V1_v14 : (V1 m c main_v14 : S1x64.Idx → EReal) = rowOf (m ((c : Thread nD τ).loc main_arg4)) := by
  dsimp only [V1, hostOps0]; after_results; rfl
theorem V1_v15 : (V1 m c main_v15 : S1x64.Idx → EReal) = rowOf (m ((c : Thread nD τ).loc main_arg5)) := by
  dsimp only [V1, hostOps0]; after_results; rfl

/-! ## Layer 1: from the arrays the first pass reads to the array the third pass leaves -/

section Layer1

/-- Between the first pass and the second the host divides the two column sums by the number of rows. -/
theorem main_v22_eq : (V3 m outs c main_v22 : S1x64.Idx → EReal)
    = Host.divf (F := Ideal) (V2 m outs c main_v20_1) (broadcastInDim S1x64 ![] bcast_S_S1x64 (constant (F := Ideal) S_ .f32 NBits)) := by
  dsimp only [V3, hostOps1]; after_results
theorem main_v26_eq : (V3 m outs c main_v26 : S1x64.Idx → EReal)
    = subf (F := Ideal) (Host.divf (F := Ideal) (V2 m outs c main_v20_2) (broadcastInDim S1x64 ![] bcast_S_S1x64 (constant (F := Ideal) S_ .f32 NBits)))
        (mulf (F := Ideal) (V3 m outs c main_v22) (V3 m outs c main_v22)) := by
  rw [main_v22_eq]; dsimp only [V3, hostOps1]; after_results
theorem main_v29_eq : (V5 m outs c main_v29 : S1x64.Idx → EReal)
    = Host.divf (F := Ideal) (V4 m outs c main_v27_1) (broadcastInDim S1x64 ![] bcast_S_S1x64 (constant (F := Ideal) S_ .f32 NBits)) := by
  dsimp only [V5, hostOps2]; after_results
theorem main_v33_eq : (V5 m outs c main_v33 : S1x64.Idx → EReal)
    = subf (F := Ideal) (Host.divf (F := Ideal) (V4 m outs c main_v27_2) (broadcastInDim S1x64 ![] bcast_S_S1x64 (constant (F := Ideal) S_ .f32 NBits)))
        (mulf (F := Ideal) (V5 m outs c main_v29) (V5 m outs c main_v29)) := by
  rw [main_v29_eq]; dsimp only [V5, hostOps2]; after_results

set_option maxHeartbeats 2000000 in
/-- Layer 1 as the tiled program computes it, from what its three regions leave (`H0 … H6`: each region's arrays as
    functions of the arrays it reads) and what the host does between them, is `GinSpec.layerK` of the arrays the first
    pass reads. -/
theorem layer1
    (H0 : (outs 2 main_v20_0 c : S100000x64.Idx → EReal) = A1 (V1 m c main_arg0) (V1 m c main_v13) (V1 m c main_arg3) (V1 m c main_v14))
    (H1 : ∀ j : Fin 64, rowF (outs 2 main_v20_1 c) j = ∑ i : Fin 100000, matF (outs 2 main_v20_0 c) i j)
    (H2 : ∀ j : Fin 64, rowF (outs 2 main_v20_2 c) j
        = ∑ i : Fin 100000, matF (outs 2 main_v20_0 c) i j * matF (outs 2 main_v20_0 c) i j)
    (H3 : (outs 4 main_v27_0 c : S100000x64.Idx → EReal)
        = C2 (V3 m outs c main_v20_0) (V3 m outs c main_v22) (V3 m outs c main_v26) (V3 m outs c main_v15) (V3 m outs c main_v16) (V3 m outs c main_arg7) (V3 m outs c main_v17))
    (H4 : ∀ j : Fin 64, rowF (outs 4 main_v27_1 c) j = ∑ i : Fin 100000, matF (outs 4 main_v27_0 c) i j)
    (H5 : ∀ j : Fin 64, rowF (outs 4 main_v27_2 c) j
        = ∑ i : Fin 100000, matF (outs 4 main_v27_0 c) i j * matF (outs 4 main_v27_0 c) i j)
    (H6 : (outs 6 main_v34 c : S100000x64.Idx → EReal)
        = G3 (V5 m outs c main_v27_0) (V5 m outs c main_v29) (V5 m outs c main_v33) (V5 m outs c main_v18) (V5 m outs c main_v19)) :
    matF (outs 6 main_v34 c) = GinSpec.layerK (Ideal.ofBits .f32 NBits) (Ideal.ofBits .f32 epsBits)
        (fun i k => matF (V1 m c main_arg0) i k + matF (V1 m c main_v13) i k)
        (sqF (V1 m c main_arg3)) (rowF (V1 m c main_v14)) (rowF (V1 m c main_v15)) (rowF (V1 m c main_v16))
        (sqF (V1 m c main_arg7)) (rowF (V1 m c main_v17)) (rowF (V1 m c main_v18)) (rowF (V1 m c main_v19)) := by
  have ea0 : V3 m outs c main_v20_0 = outs 2 main_v20_0 c := (V3_of m outs c main_v20_0 (by decide)).trans (V2_at0 m outs c)
  have eg1 : V3 m outs c main_v15 = V1 m c main_v15 := (V3_of m outs c main_v15 (by decide)).trans (V2_of m outs c main_v15 (by decide))
  have ebe1 : V3 m outs c main_v16 = V1 m c main_v16 := (V3_of m outs c main_v16 (by decide)).trans (V2_of m outs c main_v16 (by decide))
  have eW2 : V3 m outs c main_arg7 = V1 m c main_arg7 := (V3_of m outs c main_arg7 (by decide)).trans (V2_of m outs c main_arg7 (by decide))
  have eb2 : V3 m outs c main_v17 = V1 m c main_v17 := (V3_of m outs c main_v17 (by decide)).trans (V2_of m outs c main_v17 (by decide))
  have ec0 : V5 m outs c main_v27_0 = outs 4 main_v27_0 c := (V5_of m outs c main_v27_0 (by decide)).trans (V4_at0 m outs c)
  have eg2 : V5 m outs c main_v18 = V1 m c main_v18 := (V5_of m outs c main_v18 (by decide)).trans ((V4_of m outs c main_v18 (by decide)).trans ((V3_of m outs c main_v18 (by decide)).trans (V2_of m outs c main_v18 (by decide))))
  have ebe2 : V5 m outs c main_v19 = V1 m c main_v19 := (V5_of m outs c main_v19 (by decide)).trans ((V4_of m outs c main_v19 (by decide)).trans ((V3_of m outs c main_v19 (by decide)).trans (V2_of m outs c main_v19 (by decide))))
  rw [H6, ec0, H3, ea0, H0, eg1, ebe1, eW2, eb2, eg2, ebe2]
  refine layer_eq _ _ _ _ _ _ _ _ _ _ (Ideal.ofBits .f32 NBits) (V2 m outs c main_v20_1) (V2 m outs c main_v20_2) (V3 m outs c main_v22) (V3 m outs c main_v26)
    (V4 m outs c main_v27_1) (V4 m outs c main_v27_2) (V5 m outs c main_v29) (V5 m outs c main_v33) ?_ ?_ ?_ ?_ ?_ ?_ ?_ ?_
  · intro j; rw [V2_at1]; refine (H1 j).trans ?_; rw [H0]
  · intro j; rw [V2_at2]; refine (H2 j).trans ?_; rw [H0]
  · intro j; rw [main_v22_eq]; rfl
  · intro j; rw [main_v26_eq]; rfl
  · intro j; rw [V4_at1]; refine (H4 j).trans ?_; rw [H3, ea0, H0, eg1, ebe1, eW2, eb2]
  · intro j; rw [V4_at2]; refine (H5 j).trans ?_; rw [H3, ea0, H0, eg1, ebe1, eW2, eb2]
  · intro j; rw [main_v29_eq]; rfl
  · intro j; rw [main_v33_eq]; rfl

end Layer1

/-! ## Layer 2: from the arrays the first pass reads to the array the third pass leaves -/

section Layer2

/-- Between the first pass and the second the host divides the two column sums by the number of rows. -/
theorem main_v53_eq : (V9 m outs c main_v53 : S1x64.Idx → EReal)
    = Host.divf (F := Ideal) (V8 m outs c main_v51_1) (broadcastInDim S1x64 ![] bcast_S_S1x64 (constant (F := Ideal) S_ .f32 NBits)) := by
  dsimp only [V9, hostOps4]; after_results
theorem main_v57_eq : (V9 m outs c main_v57 : S1x64.Idx → EReal)
    = subf (F := Ideal) (Host.divf (F := Ideal) (V8 m outs c main_v51_2) (broadcastInDim S1x64 ![] bcast_S_S1x64 (constant (F := Ideal) S_ .f32 NBits)))
        (mulf (F := Ideal) (V9 m outs c main_v53) (V9 m outs c main_v53)) := by
  rw [main_v53_eq]; dsimp only [V9, hostOps4]; after_results
theorem main_v60_eq : (V11 m outs c main_v60 : S1x64.Idx → EReal)
    = Host.divf (F := Ideal) (V10 m outs c main_v58_1) (broadcastInDim S1x64 ![] bcast_S_S1x64 (constant (F := Ideal) S_ .f32 NBits)) := by
  dsimp only [V11, hostOps5]; after_results
theorem main_v64_eq : (V11 m outs c main_v64 : S1x64.Idx → EReal)
    = subf (F := Ideal) (Host.divf (F := Ideal) (V10 m outs c main_v58_2) (broadcastInDim S1x64 ![] bcast_S_S1x64 (constant (F := Ideal) S_ .f32 NBits)))
        (mulf (F := Ideal) (V11 m outs c main_v60) (V11 m outs c main_v60)) := by
  rw [main_v60_eq]; dsimp only [V11, hostOps5]; after_results

set_option maxHeartbeats 2000000 in
/-- Layer 2 as the tiled program computes it, from what its three regions leave (`H0 … H6`: each region's arrays as
    functions of the arrays it reads) and what the host does between them, is `GinSpec.layerK` of the arrays the first
    pass reads. -/
theorem layer2
    (H0 : (outs 8 main_v51_0 c : S100000x64.Idx → EReal) = A1 (V7 m outs c main_v34) (V7 m outs c main_v44) (V7 m outs c main_arg11) (V7 m outs c main_v45))
    (H1 : ∀ j : Fin 64, rowF (outs 8 main_v51_1 c) j = ∑ i : Fin 100000, matF (outs 8 main_v51_0 c) i j)
    (H2 : ∀ j : Fin 64, rowF (outs 8 main_v51_2 c) j
        = ∑ i : Fin 100000, matF (outs 8 main_v51_0 c) i j * matF (outs 8 main_v51_0 c) i j)
    (H3 : (outs 10 main_v58_0 c : S100000x64.Idx → EReal)
        = C2 (V9 m outs c main_v51_0) (V9 m outs c main_v53) (V9 m outs c main_v57) (V9 m outs c main_v46) (V9 m outs c main_v47) (V9 m outs c main_arg15) (V9 m outs c main_v48))
    (H4 : ∀ j : Fin 64, rowF (outs 10 main_v58_1 c) j = ∑ i : Fin 100000, matF (outs 10 main_v58_0 c) i j)
    (H5 : ∀ j : Fin 64, rowF (outs 10 main_v58_2 c) j
        = ∑ i : Fin 100000, matF (outs 10 main_v58_0 c) i j * matF (outs 10 main_v58_0 c) i j)
    (H6 : (outs 12 main_v65 c : S100000x64.Idx → EReal)
        = G3 (V11 m outs c main_v58_0) (V11 m outs c main_v60) (V11 m outs c main_v64) (V11 m outs c main_v49) (V11 m outs c main_v50)) :
    matF (outs 12 main_v65 c) = GinSpec.layerK (Ideal.ofBits .f32 NBits) (Ideal.ofBits .f32 epsBits)
        (fun i k => matF (V7 m outs c main_v34) i k + matF (V7 m outs c main_v44) i k)
        (sqF (V7 m outs c main_arg11)) (rowF (V7 m outs c main_v45)) (rowF (V7 m outs c main_v46)) (rowF (V7 m outs c main_v47))
        (sqF (V7 m outs c main_arg15)) (rowF (V7 m outs c main_v48)) (rowF (V7 m outs c main_v49)) (rowF (V7 m outs c main_v50)) := by
  have ea0 : V9 m outs c main_v51_0 = outs 8 main_v51_0 c := (V9_of m outs c main_v51_0 (by decide)).trans (V8_at0 m outs c)
  have eg1 : V9 m outs c main_v46 = V7 m outs c main_v46 := (V9_of m outs c main_v46 (by decide)).trans (V8_of m outs c main_v46 (by decide))
  have ebe1 : V9 m outs c main_v47 = V7 m outs c main_v47 := (V9_of m outs c main_v47 (by decide)).trans (V8_of m outs c main_v47 (by decide))
  have eW2 : V9 m outs c main_arg15 = V7 m outs c main_arg15 := (V9_of m outs c main_arg15 (by decide)).trans (V8_of m outs c main_arg15 (by decide))
  have eb2 : V9 m outs c main_v48 = V7 m outs c main_v48 := (V9_of m outs c main_v48 (by decide)).trans (V8_of m outs c main_v48 (by decide))
  have ec0 : V11 m outs c main_v58_0 = outs 10 main_v58_0 c := (V11_of m outs c main_v58_0 (by decide)).trans (V10_at0 m outs c)
  have eg2 : V11 m outs c main_v49 = V7 m outs c main_v49 := (V11_of m outs c main_v49 (by decide)).trans ((V10_of m outs c main_v49 (by decide)).trans ((V9_of m outs c main_v49 (by decide)).trans (V8_of m outs c main_v49 (by decide))))
  have ebe2 : V11 m outs c main_v50 = V7 m outs c main_v50 := (V11_of m outs c main_v50 (by decide)).trans ((V10_of m outs c main_v50 (by decide)).trans ((V9_of m outs c main_v50 (by decide)).trans (V8_of m outs c main_v50 (by decide))))
  rw [H6, ec0, H3, ea0, H0, eg1, ebe1, eW2, eb2, eg2, ebe2]
  refine layer_eq _ _ _ _ _ _ _ _ _ _ (Ideal.ofBits .f32 NBits) (V8 m outs c main_v51_1) (V8 m outs c main_v51_2) (V9 m outs c main_v53) (V9 m outs c main_v57)
    (V10 m outs c main_v58_1) (V10 m outs c main_v58_2) (V11 m outs c main_v60) (V11 m outs c main_v64) ?_ ?_ ?_ ?_ ?_ ?_ ?_ ?_
  · intro j; rw [V8_at1]; refine (H1 j).trans ?_; rw [H0]
  · intro j; rw [V8_at2]; refine (H2 j).trans ?_; rw [H0]
  · intro j; rw [main_v53_eq]; rfl
  · intro j; rw [main_v57_eq]; rfl
  · intro j; rw [V10_at1]; refine (H4 j).trans ?_; rw [H3, ea0, H0, eg1, ebe1, eW2, eb2]
  · intro j; rw [V10_at2]; refine (H5 j).trans ?_; rw [H3, ea0, H0, eg1, ebe1, eW2, eb2]
  · intro j; rw [main_v60_eq]; rfl
  · intro j; rw [main_v64_eq]; rfl

end Layer2

end Cert.KernelIdeal.KChain

end
-- ==== Proof.Pass2Value.lean ====
/-
  What the two second-pass regions leave in their three output arrays, as functions of the arrays they read.

  The big output: block `t` holds rows `t·10000 … t·10000 + 9999` of `C2` (normalise the block of `a` by the statistics
  rows, positive part, `·w₂ + b₂`), and the ten blocks cover the array. The two one-row outputs are written back once,
  at the last point, from the two rows the body keeps between points: the column sums of `C2` and of `C2·C2` over all
  100000 rows, accumulated block by block.
-/
import proofs.«152416_j10892037062711_1_alg».proof.Proof.Pass2Dat
import proofs.«152416_j10892037062711_1_alg».proof.Proof.Pass1Value
import proofs.«152416_j10892037062711_1_alg».proof.Proof.KFuns
import Idealize.ShloMosaic.Lib.Pipeline.Value

noncomputable section

namespace Cert.KernelIdeal.Pass2V

open Cert.KernelIdeal Cert.KernelIdeal.Gen Cert.KernelIdeal.Pass Cert.KernelIdeal.KPay Cert.KernelIdeal.KFuns
open Cert.KernelIdeal.Pass1V (colOf colOf_lt accTiles_colOf)
open Idealize.ShloMosaic Idealize.ShloMosaic.TcCoe Idealize.ShloMosaic.ValueIdx
open Idealize.ShloMosaic.Pipeline (Dat)
open scoped BigOperators

variable (W : Dev nD → Valuation τ sig (Elt Ideal))

/-- The second layer's second pass is the first layer's, word for word. -/
theorem k4pay5_apply (v3 : Vec Ideal S10000x64 .f32) (v5 v10 v12 v20 : Vec Ideal S1x64 .f32) (v27 : Vec Ideal S64x64 .f32) (v30 : Vec Ideal S1x64 .f32)
    (r : Fin 10000) (j : Fin 64) :
    k4_pay5 (F := Ideal) v3 v5 v10 v12 v20 v27 v30 (ix2 r j)
      = (∑ k : Fin 64, max (v10 (ix2 (0 : Fin 1) k) * (v3 (ix2 r k) - v12 (ix2 (0 : Fin 1) k))
            * Ideal.rsqrt (v5 (ix2 (0 : Fin 1) k) + Ideal.ofBits .f32 epsBits) + v20 (ix2 (0 : Fin 1) k)) 0 * v27 (ix2 k j))
          + v30 (ix2 (0 : Fin 1) j) := k1pay5_apply v3 v5 v10 v12 v20 v27 v30 r j
theorem k4pay1_apply (v33 : FVec Ideal S10000x64 .f32) (v35 : Vec Ideal S1x64 .f32) (j : Fin 64) :
    k4_pay1 (F := Ideal) v33 v35 (ix2 (0 : Fin 1) j) = v35 (ix2 (0 : Fin 1) j) + ∑ r : Fin 10000, v33 (ix2 r j) := k1pay1_apply v33 v35 j
theorem k4pay2_apply (v33 : FVec Ideal S10000x64 .f32) (v42 : Vec Ideal S1x64 .f32) (j : Fin 64) :
    k4_pay2 (F := Ideal) v33 v42 (ix2 (0 : Fin 1) j) = v42 (ix2 (0 : Fin 1) j) + ∑ r : Fin 10000, v33 (ix2 r j) * v33 (ix2 r j) := k1pay2_apply v33 v42 j
theorem k4pay3_apply (i : S1x64.Idx) : k4_pay3 (F := Ideal) i = 0 := k1pay3_apply i
theorem k4pay4_apply (i : S1x64.Idx) : k4_pay4 (F := Ideal) i = 0 := k1pay4_apply i

/-! ## Region 1 -/

theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0 :=
  (by decide +kernel : ∀ t : Fin grid1.N, _)

theorem row_lt1 (t : Fin cfg1.N) (r : Fin 10000) : t.val * 10000 + r.val < 100000 := by
  have := t.isLt; have hN : cfg1.N = 10 := N_1; have := r.isLt; omega

set_option maxHeartbeats 4000000 in
/-- Row `r` of the block stored at point `t` is row `t·10000 + r` of `C2` of the arrays the region reads. -/
theorem img1_apply (c : Dev nD) (t : Fin cfg1.N) (r : Fin 10000) (j : Fin 64) :
    img1 W c t (ix2 r j) = C2 (VA1 W c main_v20_0) (VA1 W c main_v22) (VA1 W c main_v26) (VA1 W c main_v15) (VA1 W c main_v16) (VA1 W c main_arg7) (VA1 W c main_v17) (ix2 ⟨t.val * 10000 + r.val, row_lt1 t r⟩ j) := by
  unfold img1
  obtain ⟨e00, e01, e10, e11, e20, e21, e30, e31, e40, e41, e50, e51, e60, e61, e70, e71, e80, e81, e90, e91⟩ := idx_facts1 t
  rw [k1pay5_apply]
  have h0 : ∀ k : Fin 64, iblk1 W c 0 t (ix2 r k) = VA1 W c main_v20_0 (ix2 (⟨t.val * 10000 + r.val, row_lt1 t r⟩ : Fin 100000) k) := fun k => by
    show VA1 W c main_v20_0 (((cfg1.win 0).blk t).view.emb (ix2 r k)) = _
    refine congrArg _ (funext fun a => Fin.ext ?_)
    match a with
    | ⟨0, _⟩ => show win1_0.index t (0 : Fin 2) * 10000 + 1 * r.val = t.val * 10000 + r.val; omega
    | ⟨1, _⟩ => show win1_0.index t (1 : Fin 2) * 64 + 1 * k.val = k.val; omega
  have hr1 : ∀ k : Fin 64, iblk1 W c 1 t (ix2 (0 : Fin 1) k) = VA1 W c main_v22 (ix2 (0 : Fin 1) k) := fun k => by
    show VA1 W c main_v22 (((cfg1.win 1).blk t).view.emb (ix2 (0 : Fin 1) k)) = _
    refine congrArg _ (funext fun a => Fin.ext ?_)
    match a with
    | ⟨0, _⟩ => show win1_1.index t (0 : Fin 2) * 1 + 1 * 0 = 0; omega
    | ⟨1, _⟩ => show win1_1.index t (1 : Fin 2) * 64 + 1 * k.val = k.val; omega
  have hr2 : ∀ k : Fin 64, iblk1 W c 2 t (ix2 (0 : Fin 1) k) = VA1 W c main_v26 (ix2 (0 : Fin 1) k) := fun k => by
    show VA1 W c main_v26 (((cfg1.win 2).blk t).view.emb (ix2 (0 : Fin 1) k)) = _
    refine congrArg _ (funext fun a => Fin.ext ?_)
    match a with
    | ⟨0, _⟩ => show win1_2.index t (0 : Fin 2) * 1 + 1 * 0 = 0; omega
    | ⟨1, _⟩ => show win1_2.index t (1 : Fin 2) * 64 + 1 * k.val = k.val; omega
  have hr3 : ∀ k : Fin 64, iblk1 W c 3 t (ix2 (0 : Fin 1) k) = VA1 W c main_v15 (ix2 (0 : Fin 1) k) := fun k => by
    show VA1 W c main_v15 (((cfg1.win 3).blk t).view.emb (ix2 (0 : Fin 1) k)) = _
    refine congrArg _ (funext fun a => Fin.ext ?_)
    match a with
    | ⟨0, _⟩ => show win1_3.index t (0 : Fin 2) * 1 + 1 * 0 = 0; omega
    | ⟨1, _⟩ => show win1_3.index t (1 : Fin 2) * 64 + 1 * k.val = k.val; omega
  have hr4 : ∀ k : Fin 64, iblk1 W c 4 t (ix2 (0 : Fin 1) k) = VA1 W c main_v16 (ix2 (0 : Fin 1) k) := fun k => by
    show VA1 W c main_v16 (((cfg1.win 4).blk t).view.emb (ix2 (0 : Fin 1) k)) = _
    refine congrArg _ (funext fun a => Fin.ext ?_)
    match a with
    | ⟨0, _⟩ => show win1_4.index t (0 : Fin 2) * 1 + 1 * 0 = 0; omega
    | ⟨1, _⟩ => show win1_4.index t (1 : Fin 2) * 64 + 1 * k.val = k.val; omega
  have hr6 : ∀ k : Fin 64, iblk1 W c 6 t (ix2 (0 : Fin 1) k) = VA1 W c main_v17 (ix2 (0 : Fin 1) k) := fun k => by
    show VA1 W c main_v17 (((cfg1.win 6).blk t).view.emb (ix2 (0 : Fin 1) k)) = _
    refine congrArg _ (funext fun a => Fin.ext ?_)
    match a with
    | ⟨0, _⟩ => show win1_6.index t (0 : Fin 2) * 1 + 1 * 0 = 0; omega
    | ⟨1, _⟩ => show win1_6.index t (1 : Fin 2) * 64 + 1 * k.val = k.val; omega
  have h5 : ∀ k : Fin 64, iblk1 W c 5 t (ix2 k j) = VA1 W c main_arg7 (ix2 k j) := fun k => by
    show VA1 W c main_arg7 (((cfg1.win 5).blk t).view.emb (ix2 k j)) = _
    refine congrArg _ (funext fun a => Fin.ext ?_)
    match a with
    | ⟨0, _⟩ => show win1_5.index t (0 : Fin 2) * 64 + 1 * k.val = k.val; omega
    | ⟨1, _⟩ => show win1_5.index t (1 : Fin 2) * 64 + 1 * j.val = j.val; omega
  unfold C2
  rw [hr6 j]
  refine congrArg (· + _) (Finset.sum_congr rfl fun k _ => ?_)
  rw [h0 k, hr1 k, hr2 k, hr3 k, hr4 k, h5 k]

set_option maxHeartbeats 1000000 in
theorem flushed1_7_eq (c : Dev nD) (t : Fin cfg1.N) :
    (dat1 (Ix := Unit) (U := UR sig nD τ) (Lvl := ℕ) W c).flushed 7 t = ((cfg1.win 7).blk t).view.read (Elt Ideal) (C2 (VA1 W c main_v20_0) (VA1 W c main_v22) (VA1 W c main_v26) (VA1 W c main_v15) (VA1 W c main_v16) (VA1 W c main_arg7) (VA1 W c main_v17)) := by
  show (cfg1.win 7).cut (grid1.coords t) ((dat1 (Ix := Unit) (U := UR sig nD τ) (Lvl := ℕ) W c).after 7 t) = _
  rw [after1_7]
  obtain ⟨e00, e01, e10, e11, e20, e21, e30, e31, e40, e41, e50, e51, e60, e61, e70, e71, e80, e81, e90, e91⟩ := idx_facts1 t
  funext y
  obtain ⟨r, j, rfl⟩ : ∃ (r : Fin 10000) (j : Fin 64), y = ix2 r j := ⟨y 0, y 1, eq_ix2 y⟩
  show img1 W c t (ix2 r j) = C2 (VA1 W c main_v20_0) (VA1 W c main_v22) (VA1 W c main_v26) (VA1 W c main_v15) (VA1 W c main_v16) (VA1 W c main_arg7) (VA1 W c main_v17) (((cfg1.win 7).blk t).view.emb (ix2 r j))
  rw [img1_apply]
  refine congrArg _ (funext fun a => Fin.ext ?_)
  match a with
  | ⟨0, _⟩ => show t.val * 10000 + r.val = win1_7.index t (0 : Fin 2) * 10000 + 1 * r.val; omega
  | ⟨1, _⟩ => show j.val = win1_7.index t (1 : Fin 2) * 64 + 1 * j.val; omega

set_option maxHeartbeats 1000000 in
theorem mem_blk1_7 (t : Fin cfg1.N) (i : S100000x64.Idx) :
    i ∈ ((cfg1.win 7).blk t).view.set ↔ ∀ a : Fin 2, win1_7.index t a * S10000x64.size a ≤ (i a).val ∧ (i a).val < win1_7.index t a * S10000x64.size a + S10000x64.size a := by
  show i ∈ ((View.whole main_v27_0).slice (win1_7.rect t)).set ↔ _
  rw [View.set_slice_whole, Rect.mem_set_unit]
  exact Iff.rfl

set_option maxHeartbeats 1000000 in
theorem cover1_7 (i : S100000x64.Idx) : ∃ t : Fin cfg1.N, (cfg1.win 7).flush t = true ∧ i ∈ ((cfg1.win 7).blk t).view.set := by
  have hi0 : (i 0).val < 100000 := (i 0).isLt
  have hi1 : (i 1).val < 64 := (i 1).isLt
  have hN : cfg1.N = 10 := N_1
  refine ⟨⟨(i 0).val / 10000, by rw [hN]; omega⟩, flush1_7 _, ?_⟩
  rw [mem_blk1_7]
  obtain ⟨e00, e01, e10, e11, e20, e21, e30, e31, e40, e41, e50, e51, e60, e61, e70, e71, e80, e81, e90, e91⟩ := idx_facts1 ⟨(i 0).val / 10000, by rw [hN]; omega⟩
  intro a
  match a with
  | ⟨0, _⟩ =>
    show win1_7.index _ (0 : Fin 2) * 10000 ≤ (i 0).val ∧ (i 0).val < win1_7.index _ (0 : Fin 2) * 10000 + 10000
    rw [e70]; show (i 0).val / 10000 * 10000 ≤ (i 0).val ∧ (i 0).val < (i 0).val / 10000 * 10000 + 10000; omega
  | ⟨1, _⟩ =>
    show win1_7.index _ (1 : Fin 2) * 64 ≤ (i 1).val ∧ (i 1).val < win1_7.index _ (1 : Fin 2) * 64 + 64
    rw [e71]; omega

/-- The big output array the region leaves. -/
theorem final1_7 (c : Dev nD) : (dat1 (Ix := Unit) (U := UR sig nD τ) (Lvl := ℕ) W c).arrAt 7 cfg1.N = C2 (VA1 W c main_v20_0) (VA1 W c main_v22) (VA1 W c main_v26) (VA1 W c main_v15) (VA1 W c main_v16) (VA1 W c main_arg7) (VA1 W c main_v17) :=
  (dat1 (Ix := Unit) (U := UR sig nD τ) (Lvl := ℕ) W c).arrAt_eq_of_cover 7 _ (fun t _ => flushed1_7_eq W c t) cover1_7

set_option maxHeartbeats 1000000 in
/-- The two running rows before point `n`, at column `j`: the accumulation over the first `n` blocks of column `j` of
    `C2`, and of its square. -/
theorem acc1_apply (c : Dev nD) (j : Fin 64) : ∀ (n : ℕ) (hn : n ≤ cfg1.N),
    (acc1 W c n hn).1 (ix2 (0 : Fin 1) j) = BatchStats.accTiles 10000 (colOf (C2 (VA1 W c main_v20_0) (VA1 W c main_v22) (VA1 W c main_v26) (VA1 W c main_v15) (VA1 W c main_v16) (VA1 W c main_arg7) (VA1 W c main_v17)) j) n
      ∧ (acc1 W c n hn).2 (ix2 (0 : Fin 1) j)
        = BatchStats.accTiles 10000 (colOf (fun i => C2 (VA1 W c main_v20_0) (VA1 W c main_v22) (VA1 W c main_v26) (VA1 W c main_v15) (VA1 W c main_v16) (VA1 W c main_arg7) (VA1 W c main_v17) i * C2 (VA1 W c main_v20_0) (VA1 W c main_v22) (VA1 W c main_v26) (VA1 W c main_v15) (VA1 W c main_v16) (VA1 W c main_arg7) (VA1 W c main_v17) i) j) n
  | 0, hn => by
    rw [acc1_zero]
    exact ⟨k1pay3_apply (ix2 (0 : Fin 1) j), k1pay4_apply (ix2 (0 : Fin 1) j)⟩
  | n + 1, hn => by
    obtain ⟨ih1, ih2⟩ := acc1_apply c j n (Nat.le_of_succ_le hn)
    have hN : cfg1.N = 10 := N_1
    have hrow : ∀ r : Fin 10000, n * 10000 + r.val < 100000 := fun r => by have := r.isLt; omega
    have himg : ∀ r : Fin 10000, img1 W c ⟨n, Nat.lt_of_succ_le hn⟩ (ix2 r j)
        = C2 (VA1 W c main_v20_0) (VA1 W c main_v22) (VA1 W c main_v26) (VA1 W c main_v15) (VA1 W c main_v16) (VA1 W c main_arg7) (VA1 W c main_v17) (ix2 (⟨n * 10000 + r.val, hrow r⟩ : Fin 100000) j) :=
      fun r => img1_apply W c ⟨n, Nat.lt_of_succ_le hn⟩ r j
    rw [acc1_succ]
    refine ⟨?_, ?_⟩
    · show k1_pay1 (F := Ideal) _ (acc1 W c n (Nat.le_of_succ_le hn)).1 (ix2 (0 : Fin 1) j) = _
      rw [k1pay1_apply, ih1, BatchStats.accTiles_succ]
      refine congrArg _ (Finset.sum_congr rfl fun r _ => ?_)
      rw [himg r, colOf_lt _ _ _ (hrow r)]
    · show k1_pay2 (F := Ideal) _ (acc1 W c n (Nat.le_of_succ_le hn)).2 (ix2 (0 : Fin 1) j) = _
      rw [k1pay2_apply, ih2, BatchStats.accTiles_succ]
      refine congrArg _ (Finset.sum_congr rfl fun r _ => ?_)
      rw [himg r, colOf_lt _ _ _ (hrow r)]

theorem flush1_8_last (t : Fin cfg1.N) (h : (cfg1.win 8).flush t = true) : t.val = 9 := by
  have h1 := (flush1_8 t).mp h; have h2 := t.isLt; have h3 : cfg1.N = 10 := N_1; omega
theorem flush1_9_last (t : Fin cfg1.N) (h : (cfg1.win 9).flush t = true) : t.val = 9 := by
  have h1 := (flush1_9 t).mp h; have h2 := t.isLt; have h3 : cfg1.N = 10 := N_1; omega

theorem ten_le1 : 10 ≤ cfg1.N := by have h : cfg1.N = 10 := N_1; omega
def tLast1 : Fin cfg1.N := ⟨9, by have h : cfg1.N = 10 := N_1; omega⟩

set_option maxHeartbeats 1000000 in
theorem final1_8 (c : Dev nD) : (dat1 (Ix := Unit) (U := UR sig nD τ) (Lvl := ℕ) W c).arrAt 8 cfg1.N = (acc1 W c 10 ten_le1).1 := by
  refine (dat1 (Ix := Unit) (U := UR sig nD τ) (Lvl := ℕ) W c).arrAt_eq_of_cover 8 _ (fun t hf => ?_) (fun i => ⟨tLast1, (flush1_8 tLast1).mpr rfl, ?_⟩)
  · have ht := flush1_8_last t hf
    obtain ⟨tv, htl⟩ := t
    simp only at ht
    subst ht
    obtain ⟨e00, e01, e10, e11, e20, e21, e30, e31, e40, e41, e50, e51, e60, e61, e70, e71, e80, e81, e90, e91⟩ := idx_facts1 ⟨9, htl⟩
    show (cfg1.win 8).cut (grid1.coords ⟨9, htl⟩) ((dat1 (Ix := Unit) (U := UR sig nD τ) (Lvl := ℕ) W c).after 8 ⟨9, htl⟩) = _
    rw [after1_8]
    funext y
    show (acc1 W c 10 _).1 y = (acc1 W c 10 ten_le1).1 (((cfg1.win 8).blk ⟨9, htl⟩).view.emb y)
    refine congrArg _ (funext fun a => Fin.ext ?_)
    match a with
    | ⟨0, _⟩ => show (y 0).val = win1_8.index ⟨9, htl⟩ (0 : Fin 2) * 1 + 1 * (y 0).val; omega
    | ⟨1, _⟩ => show (y 1).val = win1_8.index ⟨9, htl⟩ (1 : Fin 2) * 64 + 1 * (y 1).val; omega
  · obtain ⟨e00, e01, e10, e11, e20, e21, e30, e31, e40, e41, e50, e51, e60, e61, e70, e71, e80, e81, e90, e91⟩ := idx_facts1 tLast1
    show i ∈ ((View.whole main_v27_1).slice (win1_8.rect tLast1)).set
    rw [View.set_slice_whole, Rect.mem_set_unit]
    intro a
    have hi0 : (i 0).val < 1 := (i 0).isLt
    have hi1 : (i 1).val < 64 := (i 1).isLt
    match a with
    | ⟨0, _⟩ => show win1_8.index tLast1 (0 : Fin 2) * 1 ≤ (i 0).val ∧ (i 0).val < win1_8.index tLast1 (0 : Fin 2) * 1 + 1; omega
    | ⟨1, _⟩ => show win1_8.index tLast1 (1 : Fin 2) * 64 ≤ (i 1).val ∧ (i 1).val < win1_8.index tLast1 (1 : Fin 2) * 64 + 64; omega

set_option maxHeartbeats 1000000 in
theorem final1_9 (c : Dev nD) : (dat1 (Ix := Unit) (U := UR sig nD τ) (Lvl := ℕ) W c).arrAt 9 cfg1.N = (acc1 W c 10 ten_le1).2 := by
  refine (dat1 (Ix := Unit) (U := UR sig nD τ) (Lvl := ℕ) W c).arrAt_eq_of_cover 9 _ (fun t hf => ?_) (fun i => ⟨tLast1, (flush1_9 tLast1).mpr rfl, ?_⟩)
  · have ht := flush1_9_last t hf
    obtain ⟨tv, htl⟩ := t
    simp only at ht
    subst ht
    obtain ⟨e00, e01, e10, e11, e20, e21, e30, e31, e40, e41, e50, e51, e60, e61, e70, e71, e80, e81, e90, e91⟩ := idx_facts1 ⟨9, htl⟩
    show (cfg1.win 9).cut (grid1.coords ⟨9, htl⟩) ((dat1 (Ix := Unit) (U := UR sig nD τ) (Lvl := ℕ) W c).after 9 ⟨9, htl⟩) = _
    rw [after1_9]
    funext y
    show (acc1 W c 10 _).2 y = (acc1 W c 10 ten_le1).2 (((cfg1.win 9).blk ⟨9, htl⟩).view.emb y)
    refine congrArg _ (funext fun a => Fin.ext ?_)
    match a with
    | ⟨0, _⟩ => show (y 0).val = win1_9.index ⟨9, htl⟩ (0 : Fin 2) * 1 + 1 * (y 0).val; omega
    | ⟨1, _⟩ => show (y 1).val = win1_9.index ⟨9, htl⟩ (1 : Fin 2) * 64 + 1 * (y 1).val; omega
  · obtain ⟨e00, e01, e10, e11, e20, e21, e30, e31, e40, e41, e50, e51, e60, e61, e70, e71, e80, e81, e90, e91⟩ := idx_facts1 tLast1
    show i ∈ ((View.whole main_v27_2).slice (win1_9.rect tLast1)).set
    rw [View.set_slice_whole, Rect.mem_set_unit]
    intro a
    have hi0 : (i 0).val < 1 := (i 0).isLt
    have hi1 : (i 1).val < 64 := (i 1).isLt
    match a with
    | ⟨0, _⟩ => show win1_9.index tLast1 (0 : Fin 2) * 1 ≤ (i 0).val ∧ (i 0).val < win1_9.index tLast1 (0 : Fin 2) * 1 + 1; omega
    | ⟨1, _⟩ => show win1_9.index tLast1 (1 : Fin 2) * 64 ≤ (i 1).val ∧ (i 1).val < win1_9.index tLast1 (1 : Fin 2) * 64 + 64; omega

/-! ## Region 4 -/

theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0
    ∧ win4_8.index t (0 : Fin 2) = 0 ∧ win4_8.index t (1 : Fin 2) = 0
    ∧ win4_9.index t (0 : Fin 2) = 0 ∧ win4_9.index t (1 : Fin 2) = 0 :=
  (by decide +kernel : ∀ t : Fin grid4.N, _)

theorem row_lt4 (t : Fin cfg4.N) (r : Fin 10000) : t.val * 10000 + r.val < 100000 := by
  have := t.isLt; have hN : cfg4.N = 10 := N_4; have := r.isLt; omega

set_option maxHeartbeats 4000000 in
/-- Row `r` of the block stored at point `t` is row `t·10000 + r` of `C2` of the arrays the region reads. -/
theorem img4_apply (c : Dev nD) (t : Fin cfg4.N) (r : Fin 10000) (j : Fin 64) :
    img4 W c t (ix2 r j) = C2 (VA4 W c main_v51_0) (VA4 W c main_v53) (VA4 W c main_v57) (VA4 W c main_v46) (VA4 W c main_v47) (VA4 W c main_arg15) (VA4 W c main_v48) (ix2 ⟨t.val * 10000 + r.val, row_lt4 t r⟩ j) := by
  unfold img4
  obtain ⟨e00, e01, e10, e11, e20, e21, e30, e31, e40, e41, e50, e51, e60, e61, e70, e71, e80, e81, e90, e91⟩ := idx_facts4 t
  rw [k4pay5_apply]
  have h0 : ∀ k : Fin 64, iblk4 W c 0 t (ix2 r k) = VA4 W c main_v51_0 (ix2 (⟨t.val * 10000 + r.val, row_lt4 t r⟩ : Fin 100000) k) := fun k => by
    show VA4 W c main_v51_0 (((cfg4.win 0).blk t).view.emb (ix2 r k)) = _
    refine congrArg _ (funext fun a => Fin.ext ?_)
    match a with
    | ⟨0, _⟩ => show win4_0.index t (0 : Fin 2) * 10000 + 1 * r.val = t.val * 10000 + r.val; omega
    | ⟨1, _⟩ => show win4_0.index t (1 : Fin 2) * 64 + 1 * k.val = k.val; omega
  have hr1 : ∀ k : Fin 64, iblk4 W c 1 t (ix2 (0 : Fin 1) k) = VA4 W c main_v53 (ix2 (0 : Fin 1) k) := fun k => by
    show VA4 W c main_v53 (((cfg4.win 1).blk t).view.emb (ix2 (0 : Fin 1) k)) = _
    refine congrArg _ (funext fun a => Fin.ext ?_)
    match a with
    | ⟨0, _⟩ => show win4_1.index t (0 : Fin 2) * 1 + 1 * 0 = 0; omega
    | ⟨1, _⟩ => show win4_1.index t (1 : Fin 2) * 64 + 1 * k.val = k.val; omega
  have hr2 : ∀ k : Fin 64, iblk4 W c 2 t (ix2 (0 : Fin 1) k) = VA4 W c main_v57 (ix2 (0 : Fin 1) k) := fun k => by
    show VA4 W c main_v57 (((cfg4.win 2).blk t).view.emb (ix2 (0 : Fin 1) k)) = _
    refine congrArg _ (funext fun a => Fin.ext ?_)
    match a with
    | ⟨0, _⟩ => show win4_2.index t (0 : Fin 2) * 1 + 1 * 0 = 0; omega
    | ⟨1, _⟩ => show win4_2.index t (1 : Fin 2) * 64 + 1 * k.val = k.val; omega
  have hr3 : ∀ k : Fin 64, iblk4 W c 3 t (ix2 (0 : Fin 1) k) = VA4 W c main_v46 (ix2 (0 : Fin 1) k) := fun k => by
    show VA4 W c main_v46 (((cfg4.win 3).blk t).view.emb (ix2 (0 : Fin 1) k)) = _
    refine congrArg _ (funext fun a => Fin.ext ?_)
    match a with
    | ⟨0, _⟩ => show win4_3.index t (0 : Fin 2) * 1 + 1 * 0 = 0; omega
    | ⟨1, _⟩ => show win4_3.index t (1 : Fin 2) * 64 + 1 * k.val = k.val; omega
  have hr4 : ∀ k : Fin 64, iblk4 W c 4 t (ix2 (0 : Fin 1) k) = VA4 W c main_v47 (ix2 (0 : Fin 1) k) := fun k => by
    show VA4 W c main_v47 (((cfg4.win 4).blk t).view.emb (ix2 (0 : Fin 1) k)) = _
    refine congrArg _ (funext fun a => Fin.ext ?_)
    match a with
    | ⟨0, _⟩ => show win4_4.index t (0 : Fin 2) * 1 + 1 * 0 = 0; omega
    | ⟨1, _⟩ => show win4_4.index t (1 : Fin 2) * 64 + 1 * k.val = k.val; omega
  have hr6 : ∀ k : Fin 64, iblk4 W c 6 t (ix2 (0 : Fin 1) k) = VA4 W c main_v48 (ix2 (0 : Fin 1) k) := fun k => by
    show VA4 W c main_v48 (((cfg4.win 6).blk t).view.emb (ix2 (0 : Fin 1) k)) = _
    refine congrArg _ (funext fun a => Fin.ext ?_)
    match a with
    | ⟨0, _⟩ => show win4_6.index t (0 : Fin 2) * 1 + 1 * 0 = 0; omega
    | ⟨1, _⟩ => show win4_6.index t (1 : Fin 2) * 64 + 1 * k.val = k.val; omega
  have h5 : ∀ k : Fin 64, iblk4 W c 5 t (ix2 k j) = VA4 W c main_arg15 (ix2 k j) := fun k => by
    show VA4 W c main_arg15 (((cfg4.win 5).blk t).view.emb (ix2 k j)) = _
    refine congrArg _ (funext fun a => Fin.ext ?_)
    match a with
    | ⟨0, _⟩ => show win4_5.index t (0 : Fin 2) * 64 + 1 * k.val = k.val; omega
    | ⟨1, _⟩ => show win4_5.index t (1 : Fin 2) * 64 + 1 * j.val = j.val; omega
  unfold C2
  rw [hr6 j]
  refine congrArg (· + _) (Finset.sum_congr rfl fun k _ => ?_)
  rw [h0 k, hr1 k, hr2 k, hr3 k, hr4 k, h5 k]

set_option maxHeartbeats 1000000 in
theorem flushed4_7_eq (c : Dev nD) (t : Fin cfg4.N) :
    (dat4 (Ix := Unit) (U := UR sig nD τ) (Lvl := ℕ) W c).flushed 7 t = ((cfg4.win 7).blk t).view.read (Elt Ideal) (C2 (VA4 W c main_v51_0) (VA4 W c main_v53) (VA4 W c main_v57) (VA4 W c main_v46) (VA4 W c main_v47) (VA4 W c main_arg15) (VA4 W c main_v48)) := by
  show (cfg4.win 7).cut (grid4.coords t) ((dat4 (Ix := Unit) (U := UR sig nD τ) (Lvl := ℕ) W c).after 7 t) = _
  rw [after4_7]
  obtain ⟨e00, e01, e10, e11, e20, e21, e30, e31, e40, e41, e50, e51, e60, e61, e70, e71, e80, e81, e90, e91⟩ := idx_facts4 t
  funext y
  obtain ⟨r, j, rfl⟩ : ∃ (r : Fin 10000) (j : Fin 64), y = ix2 r j := ⟨y 0, y 1, eq_ix2 y⟩
  show img4 W c t (ix2 r j) = C2 (VA4 W c main_v51_0) (VA4 W c main_v53) (VA4 W c main_v57) (VA4 W c main_v46) (VA4 W c main_v47) (VA4 W c main_arg15) (VA4 W c main_v48) (((cfg4.win 7).blk t).view.emb (ix2 r j))
  rw [img4_apply]
  refine congrArg _ (funext fun a => Fin.ext ?_)
  match a with
  | ⟨0, _⟩ => show t.val * 10000 + r.val = win4_7.index t (0 : Fin 2) * 10000 + 1 * r.val; omega
  | ⟨1, _⟩ => show j.val = win4_7.index t (1 : Fin 2) * 64 + 1 * j.val; omega

set_option maxHeartbeats 1000000 in
theorem mem_blk4_7 (t : Fin cfg4.N) (i : S100000x64.Idx) :
    i ∈ ((cfg4.win 7).blk t).view.set ↔ ∀ a : Fin 2, win4_7.index t a * S10000x64.size a ≤ (i a).val ∧ (i a).val < win4_7.index t a * S10000x64.size a + S10000x64.size a := by
  show i ∈ ((View.whole main_v58_0).slice (win4_7.rect t)).set ↔ _
  rw [View.set_slice_whole, Rect.mem_set_unit]
  exact Iff.rfl

set_option maxHeartbeats 1000000 in
theorem cover4_7 (i : S100000x64.Idx) : ∃ t : Fin cfg4.N, (cfg4.win 7).flush t = true ∧ i ∈ ((cfg4.win 7).blk t).view.set := by
  have hi0 : (i 0).val < 100000 := (i 0).isLt
  have hi1 : (i 1).val < 64 := (i 1).isLt
  have hN : cfg4.N = 10 := N_4
  refine ⟨⟨(i 0).val / 10000, by rw [hN]; omega⟩, flush4_7 _, ?_⟩
  rw [mem_blk4_7]
  obtain ⟨e00, e01, e10, e11, e20, e21, e30, e31, e40, e41, e50, e51, e60, e61, e70, e71, e80, e81, e90, e91⟩ := idx_facts4 ⟨(i 0).val / 10000, by rw [hN]; omega⟩
  intro a
  match a with
  | ⟨0, _⟩ =>
    show win4_7.index _ (0 : Fin 2) * 10000 ≤ (i 0).val ∧ (i 0).val < win4_7.index _ (0 : Fin 2) * 10000 + 10000
    rw [e70]; show (i 0).val / 10000 * 10000 ≤ (i 0).val ∧ (i 0).val < (i 0).val / 10000 * 10000 + 10000; omega
  | ⟨1, _⟩ =>
    show win4_7.index _ (1 : Fin 2) * 64 ≤ (i 1).val ∧ (i 1).val < win4_7.index _ (1 : Fin 2) * 64 + 64
    rw [e71]; omega

/-- The big output array the region leaves. -/
theorem final4_7 (c : Dev nD) : (dat4 (Ix := Unit) (U := UR sig nD τ) (Lvl := ℕ) W c).arrAt 7 cfg4.N = C2 (VA4 W c main_v51_0) (VA4 W c main_v53) (VA4 W c main_v57) (VA4 W c main_v46) (VA4 W c main_v47) (VA4 W c main_arg15) (VA4 W c main_v48) :=
  (dat4 (Ix := Unit) (U := UR sig nD τ) (Lvl := ℕ) W c).arrAt_eq_of_cover 7 _ (fun t _ => flushed4_7_eq W c t) cover4_7

set_option maxHeartbeats 1000000 in
/-- The two running rows before point `n`, at column `j`: the accumulation over the first `n` blocks of column `j` of
    `C2`, and of its square. -/
theorem acc4_apply (c : Dev nD) (j : Fin 64) : ∀ (n : ℕ) (hn : n ≤ cfg4.N),
    (acc4 W c n hn).1 (ix2 (0 : Fin 1) j) = BatchStats.accTiles 10000 (colOf (C2 (VA4 W c main_v51_0) (VA4 W c main_v53) (VA4 W c main_v57) (VA4 W c main_v46) (VA4 W c main_v47) (VA4 W c main_arg15) (VA4 W c main_v48)) j) n
      ∧ (acc4 W c n hn).2 (ix2 (0 : Fin 1) j)
        = BatchStats.accTiles 10000 (colOf (fun i => C2 (VA4 W c main_v51_0) (VA4 W c main_v53) (VA4 W c main_v57) (VA4 W c main_v46) (VA4 W c main_v47) (VA4 W c main_arg15) (VA4 W c main_v48) i * C2 (VA4 W c main_v51_0) (VA4 W c main_v53) (VA4 W c main_v57) (VA4 W c main_v46) (VA4 W c main_v47) (VA4 W c main_arg15) (VA4 W c main_v48) i) j) n
  | 0, hn => by
    rw [acc4_zero]
    exact ⟨k4pay3_apply (ix2 (0 : Fin 1) j), k4pay4_apply (ix2 (0 : Fin 1) j)⟩
  | n + 1, hn => by
    obtain ⟨ih1, ih2⟩ := acc4_apply c j n (Nat.le_of_succ_le hn)
    have hN : cfg4.N = 10 := N_4
    have hrow : ∀ r : Fin 10000, n * 10000 + r.val < 100000 := fun r => by have := r.isLt; omega
    have himg : ∀ r : Fin 10000, img4 W c ⟨n, Nat.lt_of_succ_le hn⟩ (ix2 r j)
        = C2 (VA4 W c main_v51_0) (VA4 W c main_v53) (VA4 W c main_v57) (VA4 W c main_v46) (VA4 W c main_v47) (VA4 W c main_arg15) (VA4 W c main_v48) (ix2 (⟨n * 10000 + r.val, hrow r⟩ : Fin 100000) j) :=
      fun r => img4_apply W c ⟨n, Nat.lt_of_succ_le hn⟩ r j
    rw [acc4_succ]
    refine ⟨?_, ?_⟩
    · show k4_pay1 (F := Ideal) _ (acc4 W c n (Nat.le_of_succ_le hn)).1 (ix2 (0 : Fin 1) j) = _
      rw [k4pay1_apply, ih1, BatchStats.accTiles_succ]
      refine congrArg _ (Finset.sum_congr rfl fun r _ => ?_)
      rw [himg r, colOf_lt _ _ _ (hrow r)]
    · show k4_pay2 (F := Ideal) _ (acc4 W c n (Nat.le_of_succ_le hn)).2 (ix2 (0 : Fin 1) j) = _
      rw [k4pay2_apply, ih2, BatchStats.accTiles_succ]
      refine congrArg _ (Finset.sum_congr rfl fun r _ => ?_)
      rw [himg r, colOf_lt _ _ _ (hrow r)]

theorem flush4_8_last (t : Fin cfg4.N) (h : (cfg4.win 8).flush t = true) : t.val = 9 := by
  have h1 := (flush4_8 t).mp h; have h2 := t.isLt; have h3 : cfg4.N = 10 := N_4; omega
theorem flush4_9_last (t : Fin cfg4.N) (h : (cfg4.win 9).flush t = true) : t.val = 9 := by
  have h1 := (flush4_9 t).mp h; have h2 := t.isLt; have h3 : cfg4.N = 10 := N_4; omega

theorem ten_le4 : 10 ≤ cfg4.N := by have h : cfg4.N = 10 := N_4; omega
def tLast4 : Fin cfg4.N := ⟨9, by have h : cfg4.N = 10 := N_4; omega⟩

set_option maxHeartbeats 1000000 in
theorem final4_8 (c : Dev nD) : (dat4 (Ix := Unit) (U := UR sig nD τ) (Lvl := ℕ) W c).arrAt 8 cfg4.N = (acc4 W c 10 ten_le4).1 := by
  refine (dat4 (Ix := Unit) (U := UR sig nD τ) (Lvl := ℕ) W c).arrAt_eq_of_cover 8 _ (fun t hf => ?_) (fun i => ⟨tLast4, (flush4_8 tLast4).mpr rfl, ?_⟩)
  · have ht := flush4_8_last t hf
    obtain ⟨tv, htl⟩ := t
    simp only at ht
    subst ht
    obtain ⟨e00, e01, e10, e11, e20, e21, e30, e31, e40, e41, e50, e51, e60, e61, e70, e71, e80, e81, e90, e91⟩ := idx_facts4 ⟨9, htl⟩
    show (cfg4.win 8).cut (grid4.coords ⟨9, htl⟩) ((dat4 (Ix := Unit) (U := UR sig nD τ) (Lvl := ℕ) W c).after 8 ⟨9, htl⟩) = _
    rw [after4_8]
    funext y
    show (acc4 W c 10 _).1 y = (acc4 W c 10 ten_le4).1 (((cfg4.win 8).blk ⟨9, htl⟩).view.emb y)
    refine congrArg _ (funext fun a => Fin.ext ?_)
    match a with
    | ⟨0, _⟩ => show (y 0).val = win4_8.index ⟨9, htl⟩ (0 : Fin 2) * 1 + 1 * (y 0).val; omega
    | ⟨1, _⟩ => show (y 1).val = win4_8.index ⟨9, htl⟩ (1 : Fin 2) * 64 + 1 * (y 1).val; omega
  · obtain ⟨e00, e01, e10, e11, e20, e21, e30, e31, e40, e41, e50, e51, e60, e61, e70, e71, e80, e81, e90, e91⟩ := idx_facts4 tLast4
    show i ∈ ((View.whole main_v58_1).slice (win4_8.rect tLast4)).set
    rw [View.set_slice_whole, Rect.mem_set_unit]
    intro a
    have hi0 : (i 0).val < 1 := (i 0).isLt
    have hi1 : (i 1).val < 64 := (i 1).isLt
    match a with
    | ⟨0, _⟩ => show win4_8.index tLast4 (0 : Fin 2) * 1 ≤ (i 0).val ∧ (i 0).val < win4_8.index tLast4 (0 : Fin 2) * 1 + 1; omega
    | ⟨1, _⟩ => show win4_8.index tLast4 (1 : Fin 2) * 64 ≤ (i 1).val ∧ (i 1).val < win4_8.index tLast4 (1 : Fin 2) * 64 + 64; omega

set_option maxHeartbeats 1000000 in
theorem final4_9 (c : Dev nD) : (dat4 (Ix := Unit) (U := UR sig nD τ) (Lvl := ℕ) W c).arrAt 9 cfg4.N = (acc4 W c 10 ten_le4).2 := by
  refine (dat4 (Ix := Unit) (U := UR sig nD τ) (Lvl := ℕ) W c).arrAt_eq_of_cover 9 _ (fun t hf => ?_) (fun i => ⟨tLast4, (flush4_9 tLast4).mpr rfl, ?_⟩)
  · have ht := flush4_9_last t hf
    obtain ⟨tv, htl⟩ := t
    simp only at ht
    subst ht
    obtain ⟨e00, e01, e10, e11, e20, e21, e30, e31, e40, e41, e50, e51, e60, e61, e70, e71, e80, e81, e90, e91⟩ := idx_facts4 ⟨9, htl⟩
    show (cfg4.win 9).cut (grid4.coords ⟨9, htl⟩) ((dat4 (Ix := Unit) (U := UR sig nD τ) (Lvl := ℕ) W c).after 9 ⟨9, htl⟩) = _
    rw [after4_9]
    funext y
    show (acc4 W c 10 _).2 y = (acc4 W c 10 ten_le4).2 (((cfg4.win 9).blk ⟨9, htl⟩).view.emb y)
    refine congrArg _ (funext fun a => Fin.ext ?_)
    match a with
    | ⟨0, _⟩ => show (y 0).val = win4_9.index ⟨9, htl⟩ (0 : Fin 2) * 1 + 1 * (y 0).val; omega
    | ⟨1, _⟩ => show (y 1).val = win4_9.index ⟨9, htl⟩ (1 : Fin 2) * 64 + 1 * (y 1).val; omega
  · obtain ⟨e00, e01, e10, e11, e20, e21, e30, e31, e40, e41, e50, e51, e60, e61, e70, e71, e80, e81, e90, e91⟩ := idx_facts4 tLast4
    show i ∈ ((View.whole main_v58_2).slice (win4_9.rect tLast4)).set
    rw [View.set_slice_whole, Rect.mem_set_unit]
    intro a
    have hi0 : (i 0).val < 1 := (i 0).isLt
    have hi1 : (i 1).val < 64 := (i 1).isLt
    match a with
    | ⟨0, _⟩ => show win4_9.index tLast4 (0 : Fin 2) * 1 ≤ (i 0).val ∧ (i 0).val < win4_9.index tLast4 (0 : Fin 2) * 1 + 1; omega
    | ⟨1, _⟩ => show win4_9.index tLast4 (1 : Fin 2) * 64 ≤ (i 1).val ∧ (i 1).val < win4_9.index tLast4 (1 : Fin 2) * 64 + 64; omega

end Cert.KernelIdeal.Pass2V

end
-- ==== Proof.KInst.lean ====
/-
  The two layers' theorems at the contents the program's six regions really leave: each region's arrays are what its
  write-backs leave from the contents it is entered at, so the hypotheses of the layer theorems are the regions' value
  lemmas read at those contents.
-/
import proofs.«152416_j10892037062711_1_alg».proof.Proof.Frame
import proofs.«152416_j10892037062711_1_alg».proof.Proof.KChain
import proofs.«152416_j10892037062711_1_alg».proof.Proof.Pass2Value

set_option maxRecDepth 16384

noncomputable section

namespace Cert.KernelIdeal.KInst

open Cert.KernelIdeal Cert.KernelIdeal.Gen Cert.KernelIdeal.Stages Cert.KernelIdeal.Assembly Cert.KernelIdeal.Pass3
open Cert.KernelIdeal.KPay Cert.KernelIdeal.KFuns Cert.KernelIdeal.Pass1V Cert.KernelIdeal.Pass2V Cert.KernelIdeal.Pass3V Cert.KernelIdeal.KLayer Cert.KernelIdeal.KChain
open Idealize.ShloMosaic Idealize.ShloMosaic.TcCoe Idealize.ShloMosaic.ValueIdx
open scoped BigOperators

variable (m : (ℓ : Loc nD τ sig) → Buf (Elt Ideal) ℓ) (c : Dev nD)

/-! ## Layer 1 -/

theorem o2_0 : (OUTS m 2 main_v20_0 c : S100000x64.Idx → EReal) = A1 (V1 m c main_arg0) (V1 m c main_v13) (V1 m c main_arg3) (V1 m c main_v14) :=
  (Stages.outs2_arr m D0 D1 D3 D4 c 4).trans (final0_4 (V1 m) c)
theorem o2_1 : (OUTS m 2 main_v20_1 c : S1x64.Idx → EReal) = (Pass.acc0 (V1 m) c 10 ten_le0).1 :=
  (Stages.outs2_arr m D0 D1 D3 D4 c 5).trans (final0_5 (V1 m) c)
theorem o2_2 : (OUTS m 2 main_v20_2 c : S1x64.Idx → EReal) = (Pass.acc0 (V1 m) c 10 ten_le0).2 :=
  (Stages.outs2_arr m D0 D1 D3 D4 c 6).trans (final0_6 (V1 m) c)
theorem o4_0 : (OUTS m 4 main_v27_0 c : S100000x64.Idx → EReal) = C2 (V3 m (OUTS m) c main_v20_0) (V3 m (OUTS m) c main_v22) (V3 m (OUTS m) c main_v26) (V3 m (OUTS m) c main_v15) (V3 m (OUTS m) c main_v16) (V3 m (OUTS m) c main_arg7) (V3 m (OUTS m) c main_v17) :=
  (Stages.outs4_arr m D0 D1 D3 D4 c 7).trans (final1_7 (V3 m (OUTS m)) c)
theorem o4_1 : (OUTS m 4 main_v27_1 c : S1x64.Idx → EReal) = (Pass.acc1 (V3 m (OUTS m)) c 10 ten_le1).1 :=
  (Stages.outs4_arr m D0 D1 D3 D4 c 8).trans (final1_8 (V3 m (OUTS m)) c)
theorem o4_2 : (OUTS m 4 main_v27_2 c : S1x64.Idx → EReal) = (Pass.acc1 (V3 m (OUTS m)) c 10 ten_le1).2 :=
  (Stages.outs4_arr m D0 D1 D3 D4 c 9).trans (final1_9 (V3 m (OUTS m)) c)
theorem o6 : (OUTS m 6 main_v34 c : S100000x64.Idx → EReal)
    = G3 (V5 m (OUTS m) c main_v27_0) (V5 m (OUTS m) c main_v29) (V5 m (OUTS m) c main_v33) (V5 m (OUTS m) c main_v18) (V5 m (OUTS m) c main_v19) :=
  (Stages.outs6_arr m D0 D1 D3 D4 c 5).trans (final2 (Vin2 m (OUTS m)) c)

/-- The array the third pass of layer 1 leaves is `GinSpec.layerK` of the arrays its first pass reads. -/
theorem layer1K : matF (OUTS m 6 main_v34 c) = GinSpec.layerK (Ideal.ofBits .f32 NBits) (Ideal.ofBits .f32 epsBits)
        (fun i k => matF (V1 m c main_arg0) i k + matF (V1 m c main_v13) i k)
        (sqF (V1 m c main_arg3)) (rowF (V1 m c main_v14)) (rowF (V1 m c main_v15)) (rowF (V1 m c main_v16))
        (sqF (V1 m c main_arg7)) (rowF (V1 m c main_v17)) (rowF (V1 m c main_v18)) (rowF (V1 m c main_v19)) := by
  refine layer1 m (OUTS m) c (o2_0 m c) (fun j => ?_) (fun j => ?_) (o4_0 m c) (fun j => ?_) (fun j => ?_) (o6 m c)
  · show (OUTS m 2 main_v20_1 c : S1x64.Idx → EReal) (ix2 (0 : Fin 1) j) = _
    rw [o2_1, (acc0_apply (V1 m) c j 10 ten_le0).1, accTiles_colOf, o2_0]
  · show (OUTS m 2 main_v20_2 c : S1x64.Idx → EReal) (ix2 (0 : Fin 1) j) = _
    rw [o2_2, (acc0_apply (V1 m) c j 10 ten_le0).2, accTiles_colOf, o2_0]
  · show (OUTS m 4 main_v27_1 c : S1x64.Idx → EReal) (ix2 (0 : Fin 1) j) = _
    rw [o4_1, (acc1_apply (V3 m (OUTS m)) c j 10 ten_le1).1, accTiles_colOf, o4_0]
  · show (OUTS m 4 main_v27_2 c : S1x64.Idx → EReal) (ix2 (0 : Fin 1) j) = _
    rw [o4_2, (acc1_apply (V3 m (OUTS m)) c j 10 ten_le1).2, accTiles_colOf, o4_0]

/-! ## Layer 2 -/

theorem o8_0 : (OUTS m 8 main_v51_0 c : S100000x64.Idx → EReal) = A1 (V7 m (OUTS m) c main_v34) (V7 m (OUTS m) c main_v44) (V7 m (OUTS m) c main_arg11) (V7 m (OUTS m) c main_v45) :=
  (Stages.outs8_arr m D0 D1 D3 D4 c 4).trans (final3_4 (V7 m (OUTS m)) c)
theorem o8_1 : (OUTS m 8 main_v51_1 c : S1x64.Idx → EReal) = (Pass.acc3 (V7 m (OUTS m)) c 10 ten_le3).1 :=
  (Stages.outs8_arr m D0 D1 D3 D4 c 5).trans (final3_5 (V7 m (OUTS m)) c)
theorem o8_2 : (OUTS m 8 main_v51_2 c : S1x64.Idx → EReal) = (Pass.acc3 (V7 m (OUTS m)) c 10 ten_le3).2 :=
  (Stages.outs8_arr m D0 D1 D3 D4 c 6).trans (final3_6 (V7 m (OUTS m)) c)
theorem o10_0 : (OUTS m 10 main_v58_0 c : S100000x64.Idx → EReal) = C2 (V9 m (OUTS m) c main_v51_0) (V9 m (OUTS m) c main_v53) (V9 m (OUTS m) c main_v57) (V9 m (OUTS m) c main_v46) (V9 m (OUTS m) c main_v47) (V9 m (OUTS m) c main_arg15) (V9 m (OUTS m) c main_v48) :=
  (Stages.outs10_arr m D0 D1 D3 D4 c 7).trans (final4_7 (V9 m (OUTS m)) c)
theorem o10_1 : (OUTS m 10 main_v58_1 c : S1x64.Idx → EReal) = (Pass.acc4 (V9 m (OUTS m)) c 10 ten_le4).1 :=
  (Stages.outs10_arr m D0 D1 D3 D4 c 8).trans (final4_8 (V9 m (OUTS m)) c)
theorem o10_2 : (OUTS m 10 main_v58_2 c : S1x64.Idx → EReal) = (Pass.acc4 (V9 m (OUTS m)) c 10 ten_le4).2 :=
  (Stages.outs10_arr m D0 D1 D3 D4 c 9).trans (final4_9 (V9 m (OUTS m)) c)
theorem o12 : (OUTS m 12 main_v65 c : S100000x64.Idx → EReal)
    = G3 (V11 m (OUTS m) c main_v58_0) (V11 m (OUTS m) c main_v60) (V11 m (OUTS m) c main_v64) (V11 m (OUTS m) c main_v49) (V11 m (OUTS m) c main_v50) :=
  (Stages.outs12_arr m D0 D1 D3 D4 c 5).trans (final5 (Vin5 m (OUTS m)) c)

/-- The array the third pass of layer 2 leaves is `GinSpec.layerK` of the arrays its first pass reads. -/
theorem layer2K : matF (OUTS m 12 main_v65 c) = GinSpec.layerK (Ideal.ofBits .f32 NBits) (Ideal.ofBits .f32 epsBits)
        (fun i k => matF (V7 m (OUTS m) c main_v34) i k + matF (V7 m (OUTS m) c main_v44) i k)
        (sqF (V7 m (OUTS m) c main_arg11)) (rowF (V7 m (OUTS m) c main_v45)) (rowF (V7 m (OUTS m) c main_v46)) (rowF (V7 m (OUTS m) c main_v47))
        (sqF (V7 m (OUTS m) c main_arg15)) (rowF (V7 m (OUTS m) c main_v48)) (rowF (V7 m (OUTS m) c main_v49)) (rowF (V7 m (OUTS m) c main_v50)) := by
  refine layer2 m (OUTS m) c (o8_0 m c) (fun j => ?_) (fun j => ?_) (o10_0 m c) (fun j => ?_) (fun j => ?_) (o12 m c)
  · show (OUTS m 8 main_v51_1 c : S1x64.Idx → EReal) (ix2 (0 : Fin 1) j) = _
    rw [o8_1, (acc3_apply (V7 m (OUTS m)) c j 10 ten_le3).1, accTiles_colOf, o8_0]
  · show (OUTS m 8 main_v51_2 c : S1x64.Idx → EReal) (ix2 (0 : Fin 1) j) = _
    rw [o8_2, (acc3_apply (V7 m (OUTS m)) c j 10 ten_le3).2, accTiles_colOf, o8_0]
  · show (OUTS m 10 main_v58_1 c : S1x64.Idx → EReal) (ix2 (0 : Fin 1) j) = _
    rw [o10_1, (acc4_apply (V9 m (OUTS m)) c j 10 ten_le4).1, accTiles_colOf, o10_0]
  · show (OUTS m 10 main_v58_2 c : S1x64.Idx → EReal) (ix2 (0 : Fin 1) j) = _
    rw [o10_2, (acc4_apply (V9 m (OUTS m)) c j 10 ten_le4).2, accTiles_colOf, o10_0]

end Cert.KernelIdeal.KInst

end
-- ==== Proof.KParams.lean ====
/- What the two long host stretches leave in the buffers the regions read, at the exact reals: the aggregation over the edges
   (the same function of the node rows and the edge array as the reference's), and the parameter vectors recast as rows. -/
import proofs.«152416_j10892037062711_1_alg».proof.Proof.Gen.KernelIdeal.Regions
import proofs.«152416_j10892037062711_1_alg».proof.Proof.StageArrays
import proofs.«152416_j10892037062711_1_alg».proof.Proof.RefValue
import Idealize.ShloMosaic.Lib.StableHlo.Run

noncomputable section

namespace Cert.KernelIdeal.KParams

open Cert.KernelIdeal Cert.KernelIdeal.Gen
open Idealize.ShloMosaic Idealize.ShloMosaic.TcCoe Idealize.ShloMosaic.StableHlo

/-! ## Layer 1: what the first host stretch leaves -/

section Layer1

variable (m : (ℓ : Loc nD τ sig) → Buf (Elt Ideal) ℓ) (c : Dev nD)

/-- The two flat edge rows. -/
theorem V1_v1 : (V1 m c main_v1 : S1600000.Idx → BitVec 32) = Cert.ReferenceIdeal.RefValue.edgeRow0 (m ((c : Thread nD τ).loc main_arg1)) := by
  dsimp only [V1, hostOps0]; after_results; rfl
theorem V1_v3 : (V1 m c main_v3 : S1600000.Idx → BitVec 32) = Cert.ReferenceIdeal.RefValue.edgeRow1 (m ((c : Thread nD τ).loc main_arg1)) := by
  dsimp only [V1, hostOps0]; after_results; rfl

set_option maxHeartbeats 2000000 in
/-- The first aggregation: of the node rows given, over the edge array. -/
theorem V1_v13 : (V1 m c main_v13 : S100000x64.Idx → EReal)
    = Cert.ReferenceIdeal.RefValue.aggOf (m ((c : Thread nD τ).loc main_arg0)) (m ((c : Thread nD τ).loc main_arg1)) := by
  dsimp only [V1, hostOps0]; after_results_simp
  rfl

/-- The second pass's weights are as launched. -/
theorem V1_arg7 : (V1 m c main_arg7 : S64x64.Idx → EReal) = (m ((c : Thread nD τ).loc main_arg7)) := V1_of m c main_arg7 (by decide)

/-- The second and third passes' parameter vectors, recast as rows. -/
theorem V1_v16 : (V1 m c main_v16 : S1x64.Idx → EReal) = shapeCast S1x64 (m ((c : Thread nD τ).loc main_arg6)) shapeCasts_S64_S1x64 := by
  dsimp only [V1, hostOps0]; after_results; rfl
theorem V1_v17 : (V1 m c main_v17 : S1x64.Idx → EReal) = shapeCast S1x64 (m ((c : Thread nD τ).loc main_arg8)) shapeCasts_S64_S1x64 := by
  dsimp only [V1, hostOps0]; after_results; rfl
theorem V1_v18 : (V1 m c main_v18 : S1x64.Idx → EReal) = shapeCast S1x64 (m ((c : Thread nD τ).loc main_arg9)) shapeCasts_S64_S1x64 := by
  dsimp only [V1, hostOps0]; after_results; rfl
theorem V1_v19 : (V1 m c main_v19 : S1x64.Idx → EReal) = shapeCast S1x64 (m ((c : Thread nD τ).loc main_arg10)) shapeCasts_S64_S1x64 := by
  dsimp only [V1, hostOps0]; after_results; rfl

end Layer1

/-! ## Layer 2: what the fourth host stretch leaves -/

section Layer2

variable (m : (ℓ : Loc nD τ sig) → Buf (Elt Ideal) ℓ) (outs : Outs (F := Ideal)) (c : Dev nD)

/-- A buffer that neither the first three host stretches nor the first three regions write holds its launch contents when the
    fourth stretch begins. -/
theorem V6_keep (r : Ref sig .tc) (h0 : r ∉ hostOps0_W) (h2 : r ∉ ([main_v20_0, main_v20_1, main_v20_2] : List (Ref sig .tc)))
    (h3 : r ∉ hostOps1_W) (h4 : r ∉ ([main_v27_0, main_v27_1, main_v27_2] : List (Ref sig .tc))) (h5 : r ∉ hostOps2_W)
    (h6 : r ∉ ([main_v34] : List (Ref sig .tc))) : V6 m outs c r = m ((c : Thread nD τ).loc r) :=
  (V6_of m outs c r h6).trans ((V5_of m outs c r h5).trans ((V4_of m outs c r h4).trans ((V3_of m outs c r h3).trans
    ((V2_of m outs c r h2).trans (V1_of m c r h0)))))

/-- A buffer the first stretch wrote and nothing since holds, when the fourth stretch begins, what the first left. -/
theorem V6_from_V1 (r : Ref sig .tc) (h2 : r ∉ ([main_v20_0, main_v20_1, main_v20_2] : List (Ref sig .tc)))
    (h3 : r ∉ hostOps1_W) (h4 : r ∉ ([main_v27_0, main_v27_1, main_v27_2] : List (Ref sig .tc))) (h5 : r ∉ hostOps2_W)
    (h6 : r ∉ ([main_v34] : List (Ref sig .tc))) : V6 m outs c r = V1 m c r :=
  (V6_of m outs c r h6).trans ((V5_of m outs c r h5).trans ((V4_of m outs c r h4).trans ((V3_of m outs c r h3).trans
    (V2_of m outs c r h2))))

/-- The first layer's output is what the third region left. -/
theorem V6_v34 : V6 m outs c main_v34 = outs 6 main_v34 c := Function.update_self _ _ _
theorem V7_v34 : (V7 m outs c main_v34 : S100000x64.Idx → EReal) = outs 6 main_v34 c :=
  (V7_of m outs c main_v34 (by decide)).trans (V6_v34 m outs c)

set_option maxHeartbeats 2000000 in
/-- The second aggregation: the same function, of the first layer's output. -/
theorem V7_v44 : (V7 m outs c main_v44 : S100000x64.Idx → EReal)
    = Cert.ReferenceIdeal.RefValue.aggOf (outs 6 main_v34 c) (m ((c : Thread nD τ).loc main_arg1)) := by
  dsimp only [V7, hostOps3]; after_results_simp
  rw [V6_v34, V6_from_V1 m outs c main_v1 (by decide) (by decide) (by decide) (by decide) (by decide),
    V6_from_V1 m outs c main_v3 (by decide) (by decide) (by decide) (by decide) (by decide), V1_v1, V1_v3]
  rfl

/-- The fifth pass's weights are as launched. -/
theorem V7_arg11 : (V7 m outs c main_arg11 : S64x64.Idx → EReal) = (m ((c : Thread nD τ).loc main_arg11)) :=
  (V7_of m outs c main_arg11 (by decide)).trans (V6_keep m outs c main_arg11 (by decide) (by decide) (by decide) (by decide) (by decide) (by decide))
theorem V7_arg15 : (V7 m outs c main_arg15 : S64x64.Idx → EReal) = (m ((c : Thread nD τ).loc main_arg15)) :=
  (V7_of m outs c main_arg15 (by decide)).trans (V6_keep m outs c main_arg15 (by decide) (by decide) (by decide) (by decide) (by decide) (by decide))

/-- The second layer's parameter vectors, recast as rows. -/
theorem V7_v45 : (V7 m outs c main_v45 : S1x64.Idx → EReal) = shapeCast S1x64 (m ((c : Thread nD τ).loc main_arg12)) shapeCasts_S64_S1x64 := by
  dsimp only [V7, hostOps3]; after_results
  rw [V6_keep m outs c main_arg12 (by decide) (by decide) (by decide) (by decide) (by decide) (by decide)]; rfl
theorem V7_v46 : (V7 m outs c main_v46 : S1x64.Idx → EReal) = shapeCast S1x64 (m ((c : Thread nD τ).loc main_arg13)) shapeCasts_S64_S1x64 := by
  dsimp only [V7, hostOps3]; after_results
  rw [V6_keep m outs c main_arg13 (by decide) (by decide) (by decide) (by decide) (by decide) (by decide)]; rfl
theorem V7_v47 : (V7 m outs c main_v47 : S1x64.Idx → EReal) = shapeCast S1x64 (m ((c : Thread nD τ).loc main_arg14)) shapeCasts_S64_S1x64 := by
  dsimp only [V7, hostOps3]; after_results
  rw [V6_keep m outs c main_arg14 (by decide) (by decide) (by decide) (by decide) (by decide) (by decide)]; rfl
theorem V7_v48 : (V7 m outs c main_v48 : S1x64.Idx → EReal) = shapeCast S1x64 (m ((c : Thread nD τ).loc main_arg16)) shapeCasts_S64_S1x64 := by
  dsimp only [V7, hostOps3]; after_results
  rw [V6_keep m outs c main_arg16 (by decide) (by decide) (by decide) (by decide) (by decide) (by decide)]; rfl
theorem V7_v49 : (V7 m outs c main_v49 : S1x64.Idx → EReal) = shapeCast S1x64 (m ((c : Thread nD τ).loc main_arg17)) shapeCasts_S64_S1x64 := by
  dsimp only [V7, hostOps3]; after_results
  rw [V6_keep m outs c main_arg17 (by decide) (by decide) (by decide) (by decide) (by decide) (by decide)]; rfl
theorem V7_v50 : (V7 m outs c main_v50 : S1x64.Idx → EReal) = shapeCast S1x64 (m ((c : Thread nD τ).loc main_arg18)) shapeCasts_S64_S1x64 := by
  dsimp only [V7, hostOps3]; after_results
  rw [V6_keep m outs c main_arg18 (by decide) (by decide) (by decide) (by decide) (by decide) (by decide)]; rfl

end Layer2

end Cert.KernelIdeal.KParams

end
-- ==== Proof.Consts.lean ====
/-
  The float literals the two programs spell, as the extended reals they denote: `1.0e5` (the number of rows) is the
  real 100000, and the literal added to a variance is a positive real (the f32 nearest to 1e-5: 10995116 · 2⁻⁴⁰).
-/
import Idealize.ShloMosaic.PureOps.Ideal

noncomputable section

namespace Cert.Consts

open Idealize.ShloMosaic

theorem ofBits_zero : Ideal.ofBits .f32 0x00000000#32 = 0 := by
  simp [Ideal.ofBits, Ideal.ieee]

/-- `1.0e5` denotes the real 100000. -/
theorem ofBits_1e5 : Ideal.ofBits .f32 0x47C35000#32 = ((100000 : ℝ) : EReal) := by
  simp [Ideal.ofBits, Ideal.ieee, -EReal.coe_mul]; norm_num

/-- The literal added to a variance denotes a positive real. -/
theorem ofBits_eps : ∃ e : ℝ, 0 < e ∧ Ideal.ofBits .f32 0x3727C5AC#32 = (e : EReal) := by
  refine ⟨10995116 * (2 : ℝ) ^ (-40 : ℤ), by positivity, ?_⟩
  simp [Ideal.ofBits, Ideal.ieee, -EReal.coe_mul]

end Cert.Consts

end
-- ==== Proof.LibHostDot.lean ====
/-
  A plain rows-by-columns matrix product computed by the host, read at coordinates, over the extended reals.

  The left operand is contracted on its columns and the right on its rows, with no batch axis. At (p, q) the product
  is the sum over the shared axis of the products of row p of the left operand and column q of the right: nothing
  is rounded and no order of summation is left in it.
-/
import proofs.«152416_j10892037062711_1_alg».proof.Proof.LibPlainMatmul

noncomputable section

namespace Cert.LibHostDot

open Idealize.ShloMosaic Idealize.ShloMosaic.ValueIdx Cert.LibPlainMatmul
open scoped BigOperators

/-- A plain m × k by k × n host product reads, at (p, q), the sum over the shared axis of the products of row p of the
    left operand and column q of the right. -/
theorem dotGeneral_plain {m k n : Nat}
    (wf : DotDims.WF (⟨2, ![m, k]⟩ : Shape) ⟨2, ![k, n]⟩ ⟨2, ![m, n]⟩ [1] [0] [0] [1] [] [])
    {φ₁ φ₂ : FTy} (sched : HostSchedule) (l : FVec Ideal ⟨2, ![m, k]⟩ φ₁) (r : FVec Ideal ⟨2, ![k, n]⟩ φ₂)
    (p : Fin m) (q : Fin n) :
    FloatOps.dotGeneral (plainDims wf) none sched l r (ix2 p q) = ∑ c : Fin k, l (ix2 p c) * r (ix2 c q) := by
  rw [Ideal.dotGeneral_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end Cert.LibHostDot

end
-- ==== Proof.RefPure.lean ====
/- The dense part of a layer as composed array functions, and what they are coordinate by coordinate: a linear map
   is `z·w + b` accumulated onto zero, a column mean the exact quotient of the column sum, the variance the mean of
   the squared deviations (its divisor `1.0e5 − 0` is `1.0e5`, which is positive, so the guarded value is the
   quotient itself), and the normalisation followed by the rectifier the positive part of the scaled, shifted
   deviation. -/
import proofs.«152416_j10892037062711_1_alg».proof.Proof.Gen.ReferenceIdeal
import proofs.«152416_j10892037062711_1_alg».proof.Proof.Spec
import proofs.«152416_j10892037062711_1_alg».proof.Proof.Consts
import proofs.«152416_j10892037062711_1_alg».proof.Proof.LibHostDot
import Idealize.ShloMosaic.Lib.ValueIdx
import Idealize.ShloMosaic.Lib.Pipeline.Value
import Idealize.ShloMosaic.PureOps.Ideal.Laws

set_option pp.maxSteps 5000
set_option pp.deepTerms false

noncomputable section

namespace Cert.ReferenceIdeal.RefValue

open Cert.ReferenceIdeal Cert.ReferenceIdeal.Gen Idealize.ShloMosaic Idealize.ShloMosaic.ValueIdx
open scoped BigOperators

/-- The number of rows and the variance's additive constant, as the programs spell them. -/
abbrev nRows : EReal := Ideal.ofBits .f32 0x47C35000#32
@[inherit_doc nRows]
abbrev epsC : EReal := Ideal.ofBits .f32 0x3727C5AC#32

/-! ## The composed array functions -/

/-- A vector of 64 spread over the rows. -/
def rowB (b : S64.Idx → EReal) : S100000x64.Idx → EReal :=
  broadcastInDim S100000x64 ![0, 1] bcast_S1x64_S100000x64_0_1 (broadcastInDim S1x64 ![1] bcast_S64_S1x64_1 b)

/-- `z·w + b`. -/
def affT (z : S100000x64.Idx → EReal) (w : S64x64.Idx → EReal) (b : S64.Idx → EReal) : S100000x64.Idx → EReal :=
  addf (F := Ideal) (φ := .f32)
    (Host.dotGeneral (F := Ideal) (φ₁ := .f32) (φ₂ := .f32) dot_S100000x64_S64x64_S100000x64_1_0_0_1_n_n none z w) (rowB b)

/-- The column sums, from zero. -/
def colSumT (a : S100000x64.Idx → EReal) : S64.Idx → EReal :=
  Host.reduceAdd (F := Ideal) (φ := .f32) a (constant (F := Ideal) S_ .f32 0x00000000#32) reducesTo_S100000x64_S64_d0 h_S_

/-- The column means. -/
def meanT (a : S100000x64.Idx → EReal) : S64.Idx → EReal :=
  Host.divf (F := Ideal) (φ := .f32) (colSumT a) (broadcastInDim S64 ![] bcast_S_S64 (constant (F := Ideal) S_ .f32 0x47C35000#32))

/-- The variance's divisor: `1.0e5` minus the correction `0` converted from an integer. -/
def varDiv : S_.Idx → EReal :=
  subf (F := Ideal) (φ := .f32) (constant (F := Ideal) S_ .f32 0x47C35000#32) (sitofp (F := Ideal) .f32 (constantI S_ 32 0#32))

/-- The column variances, as the called function composes them. -/
def varT (a : S100000x64.Idx → EReal) : S64.Idx → EReal :=
  let d := subf (F := Ideal) (φ := .f32) a
    (broadcastInDim S100000x64 ![0, 1] bcast_S1x64_S100000x64_0_1
      (Host.divf (F := Ideal) (φ := .f32) (broadcastInDim S1x64 ![1] bcast_S64_S1x64_1 (colSumT a))
        (broadcastInDim S1x64 ![] bcast_S_S1x64 (constant (F := Ideal) S_ .f32 0x47C35000#32))))
  select (broadcastInDim S64 ![] bcast_S_S64 (cmpf (F := Ideal) (φ := .f32) .ogt varDiv (constant (F := Ideal) S_ .f32 0x00000000#32)))
    (Host.divf (F := Ideal) (φ := .f32) (colSumT (mulf (F := Ideal) (φ := .f32) d d)) (broadcastInDim S64 ![] bcast_S_S64 varDiv))
    (broadcastInDim S64 ![] bcast_S_S64 (id (constant (F := Ideal) S_ .f32 0x7FC00000#32)))

/-- Normalise with the given column statistics, scale, shift, and take the positive part. -/
def bnReluT (a : S100000x64.Idx → EReal) (mean var g be : S64.Idx → EReal) : S100000x64.Idx → EReal :=
  maximumf (F := Ideal) (φ := .f32)
    (addf (F := Ideal) (φ := .f32)
      (mulf (F := Ideal) (φ := .f32)
        (mulf (F := Ideal) (φ := .f32) (rowB g) (subf (F := Ideal) (φ := .f32) a (rowB mean)))
        (rowB (Host.rsqrt (F := Ideal) (φ := .f32)
          (addf (F := Ideal) (φ := .f32) var (broadcastInDim S64 ![] bcast_S_S64 (constant (F := Ideal) S_ .f32 0x3727C5AC#32))))))
      (rowB be))
    (broadcastInDim S100000x64 ![] bcast_S_S100000x64 (constant (F := Ideal) S_ .f32 0x00000000#32))

/-- A layer's dense part: two linear maps, each followed by its normalisation and rectifier. -/
def layerT (z : S100000x64.Idx → EReal) (w1 : S64x64.Idx → EReal) (b1 g1 be1 : S64.Idx → EReal)
    (w2 : S64x64.Idx → EReal) (b2 g2 be2 : S64.Idx → EReal) : S100000x64.Idx → EReal :=
  let a := affT z w1 b1
  let c := affT (bnReluT a (meanT a) (varT a) g1 be1) w2 b2
  bnReluT c (meanT c) (varT c) g2 be2

/-! ## Coordinates -/

/-- An array of rows by its two coordinates, a vector by its one. -/
abbrev co2 {m n : Nat} (x : (⟨2, ![m, n]⟩ : Shape).Idx → EReal) : Fin m → Fin n → EReal := fun i k => x (ix2 i k)
@[inherit_doc co2]
abbrev co1 {n : Nat} (x : (⟨1, ![n]⟩ : Shape).Idx → EReal) : Fin n → EReal := fun j => x (ix1 j)

theorem rowB_apply (b : S64.Idx → EReal) (i : Fin 100000) (j : Fin 64) : rowB b (ix2 i j) = b (ix1 j) := by
  unfold rowB
  rw [broadcastInDim_apply _ _ _ _ (ix2 (0 : Fin 1) j) (by intro a; fin_cases a <;> rfl),
    broadcastInDim_apply _ _ _ _ (ix1 j) (by intro a; fin_cases a; rfl)]

theorem affT_apply (z : S100000x64.Idx → EReal) (w : S64x64.Idx → EReal) (b : S64.Idx → EReal) (i : Fin 100000) (j : Fin 64) :
    affT z w b (ix2 i j) = GinSpec.affine (co2 z) (co2 w) (co1 b) i j := by
  unfold affT GinSpec.affine
  rw [addf_apply, rowB_apply, zero_add]
  congr 1
  exact Cert.LibHostDot.dotGeneral_plain dot_S100000x64_S64x64_S100000x64_1_0_0_1_n_n_wf _ z w i j

theorem colSumT_apply (a : S100000x64.Idx → EReal) (j : Fin 64) : colSumT a (ix1 j) = ∑ i : Fin 100000, a (ix2 i j) := by
  have hR : S100000x64.Reduces [0] S64 := by decide
  show Ideal.hostReduceAdd reducesTo_S100000x64_S64_d0 a (Ideal.ofBits .f32 0x00000000#32) (ix1 j) = _
  rw [Ideal.hostReduceAdd_single reducesTo_S100000x64_S64_d0 hR, Ideal.ofBits_zero_f32, zero_add]
  refine Finset.sum_congr rfl fun k _ => congrArg a ?_
  funext d
  match d with
  | ⟨0, _⟩ => exact Fin.ext rfl
  | ⟨1, _⟩ => exact Fin.ext rfl

theorem meanT_apply (a : S100000x64.Idx → EReal) (j : Fin 64) : meanT a (ix1 j) = GinSpec.colMean nRows (co2 a) j := by
  show Ideal.div (colSumT a (ix1 j)) nRows = Ideal.div (∑ i, co2 a i j) nRows
  rw [colSumT_apply]

theorem varDiv_apply (i : S_.Idx) : varDiv i = nRows := by
  show nRows - (((0#32 : BitVec 32).toInt : ℝ) : EReal) = nRows
  have h0 : (((0#32 : BitVec 32).toInt : ℝ) : EReal) = 0 := by simp
  rw [h0, sub_zero]

theorem nRows_pos : (0 : EReal) < nRows := by
  rw [show nRows = ((100000 : ℝ) : EReal) from Cert.Consts.ofBits_1e5]
  exact_mod_cast (by norm_num : (0 : ℝ) < 100000)

theorem varT_apply (a : S100000x64.Idx → EReal) (j : Fin 64) : varT a (ix1 j) = GinSpec.colVarR nRows (co2 a) j := by
  unfold varT
  simp only []
  rw [select_apply]
  have hc : broadcastInDim S64 ![] bcast_S_S64
      (cmpf (F := Ideal) (φ := .f32) .ogt varDiv (constant (F := Ideal) S_ .f32 0x00000000#32)) (ix1 j) = 1#1 := by
    show Ideal.cmp .ogt (varDiv _) (Ideal.ofBits .f32 0x00000000#32) = 1#1
    rw [varDiv_apply, Ideal.ofBits_zero_f32]
    simp [Ideal.cmp, nRows_pos]
  rw [hc, select_one]
  show Ideal.div (colSumT _ (ix1 j)) (varDiv _) = _
  rw [varDiv_apply, colSumT_apply]
  unfold GinSpec.colVarR
  refine congrArg (fun s => Ideal.div s nRows) (Finset.sum_congr rfl fun i _ => ?_)
  have hm : broadcastInDim S100000x64 ![0, 1] bcast_S1x64_S100000x64_0_1
      (Host.divf (F := Ideal) (φ := .f32) (broadcastInDim S1x64 ![1] bcast_S64_S1x64_1 (colSumT a))
        (broadcastInDim S1x64 ![] bcast_S_S1x64 (constant (F := Ideal) S_ .f32 0x47C35000#32))) (ix2 i j)
      = GinSpec.colMean nRows (co2 a) j := by
    rw [broadcastInDim_apply _ _ _ _ (ix2 (0 : Fin 1) j) (by intro a; fin_cases a <;> rfl)]
    show Ideal.div (broadcastInDim S1x64 ![1] bcast_S64_S1x64_1 (colSumT a) (ix2 (0 : Fin 1) j)) nRows = _
    rw [broadcastInDim_apply _ _ _ _ (ix1 j) (by intro a; fin_cases a; rfl), colSumT_apply]
    rfl
  rw [mulf_apply, subf_apply, hm]

theorem bnReluT_apply (a : S100000x64.Idx → EReal) (mean var g be : S64.Idx → EReal) (i : Fin 100000) (j : Fin 64) :
    bnReluT a mean var g be (ix2 i j) = GinSpec.bnRelu epsC (co2 a) (co1 mean) (co1 var) (co1 g) (co1 be) i j := by
  unfold bnReluT GinSpec.bnRelu
  rw [maximumf_apply, addf_apply, mulf_apply, mulf_apply, subf_apply, rowB_apply, rowB_apply, rowB_apply, rowB_apply]
  show max _ (Ideal.ofBits .f32 0x00000000#32) = _
  rw [Ideal.ofBits_zero_f32]
  rfl

/-! ## A layer, coordinate by coordinate -/

theorem co2_affT (z : S100000x64.Idx → EReal) (w : S64x64.Idx → EReal) (b : S64.Idx → EReal) :
    co2 (affT z w b) = GinSpec.affine (co2 z) (co2 w) (co1 b) := funext fun i => funext fun j => affT_apply z w b i j
theorem co1_meanT (a : S100000x64.Idx → EReal) : co1 (meanT a) = GinSpec.colMean nRows (co2 a) := funext fun j => meanT_apply a j
theorem co1_varT (a : S100000x64.Idx → EReal) : co1 (varT a) = GinSpec.colVarR nRows (co2 a) := funext fun j => varT_apply a j
theorem co2_bnReluT (a : S100000x64.Idx → EReal) (mean var g be : S64.Idx → EReal) :
    co2 (bnReluT a mean var g be) = GinSpec.bnRelu epsC (co2 a) (co1 mean) (co1 var) (co1 g) (co1 be) :=
  funext fun i => funext fun j => bnReluT_apply a mean var g be i j

/-- A layer's dense part, read by coordinates, is the layer of the specification in the plain program's spelling. -/
theorem co2_layerT (z : S100000x64.Idx → EReal) (w1 : S64x64.Idx → EReal) (b1 g1 be1 : S64.Idx → EReal)
    (w2 : S64x64.Idx → EReal) (b2 g2 be2 : S64.Idx → EReal) :
    co2 (layerT z w1 b1 g1 be1 w2 b2 g2 be2)
      = GinSpec.layerR nRows epsC (co2 z) (co2 w1) (co1 b1) (co1 g1) (co1 be1) (co2 w2) (co1 b2) (co1 g2) (co1 be2) := by
  unfold layerT GinSpec.layerR
  simp only [co2_bnReluT, co1_meanT, co1_varT, co2_affT]

end Cert.ReferenceIdeal.RefValue

end
-- ==== Proof.RefLayers.lean ====
/- The two layers' outputs, as the line leaves them: each is the layer's dense part (`layerT`) of the rows plus
   their aggregate, hence, coordinate by coordinate, the layer of the specification in the plain program's spelling. -/
import proofs.«152416_j10892037062711_1_alg».proof.Proof.RefValue
import proofs.«152416_j10892037062711_1_alg».proof.Proof.RefPure

set_option pp.maxSteps 5000
set_option pp.deepTerms false

noncomputable section

namespace Cert.ReferenceIdeal.RefValue

open Cert.ReferenceIdeal Cert.ReferenceIdeal.Gen Cert.ReferenceIdeal.RefRun Idealize.ShloMosaic Idealize.ShloMosaic.TcCoe
  Idealize.SL.Sem Idealize.ShloMosaic.StableHlo Cert.LibStage Idealize.ShloMosaic.ValueIdx

/-! ## Stretch by stretch: each result as the stretch's function of the final contents it reads -/

set_option maxHeartbeats 2000000 in
/-- Layer 1: the first linear map, of the rows plus their aggregate. -/
theorem aff1a_eq (V : Valuation τ sig (Elt Ideal)) :
    after ops V (Proc.devRef .tc main_v18) = affT (addf (F := Ideal) (φ := .f32) (after ops V (Proc.devRef .tc main_arg0)) (after ops V (Proc.devRef .tc main_v13))) (after ops V (Proc.devRef .tc main_arg3)) (after ops V (Proc.devRef .tc main_arg4)) := by
  obtain ⟨G, hin, hout⟩ := seg_read ops_writesL 17 5 sgAff1 sgAff1_eq V
  rw [hout main_v18 (by decide), hin main_arg0 (by decide), hin main_v13 (by decide), hin main_arg3 (by decide), hin main_arg4 (by decide)]
  after_results
  rfl

set_option maxHeartbeats 2000000 in
/-- Layer 1: its column means. -/
theorem mean1a_eq (V : Valuation τ sig (Elt Ideal)) :
    after ops V (Proc.devRef .tc main_v21) = meanT (after ops V (Proc.devRef .tc main_v18)) := by
  obtain ⟨G, hin, hout⟩ := seg_read ops_writesL 22 5 sgMean1 sgMean1_eq V
  rw [hout main_v21 (by decide), hin main_v18 (by decide)]
  after_results
  rfl

set_option maxHeartbeats 2000000 in
/-- Layer 1: its column variances. -/
theorem var1a_eq (V : Valuation τ sig (Elt Ideal)) :
    after ops V (Proc.devRef .tc main_v22) = varT (after ops V (Proc.devRef .tc main_v18)) := by
  obtain ⟨G, hin, hout⟩ := seg_read ops_writesL 27 23 sgVar1 sgVar1_eq V
  rw [hout main_v22 (by decide), hin main_v18 (by decide)]
  after_results_simp
  rfl

set_option maxHeartbeats 2000000 in
/-- Layer 1: its normalisation and rectifier. -/
theorem bn1a_eq (V : Valuation τ sig (Elt Ideal)) :
    after ops V (Proc.devRef .tc main_v38) = bnReluT (after ops V (Proc.devRef .tc main_v18)) (after ops V (Proc.devRef .tc main_v21)) (after ops V (Proc.devRef .tc main_v22)) (after ops V (Proc.devRef .tc main_arg5)) (after ops V (Proc.devRef .tc main_arg6)) := by
  obtain ⟨G, hin, hout⟩ := seg_read ops_writesL 50 19 sgBn1 sgBn1_eq V
  rw [hout main_v38 (by decide), hin main_v18 (by decide), hin main_v21 (by decide), hin main_v22 (by decide), hin main_arg5 (by decide), hin main_arg6 (by decide)]
  after_results_simp
  rfl

set_option maxHeartbeats 2000000 in
/-- Layer 1: the second linear map. -/
theorem aff1b_eq (V : Valuation τ sig (Elt Ideal)) :
    after ops V (Proc.devRef .tc main_v42) = affT (after ops V (Proc.devRef .tc main_v38)) (after ops V (Proc.devRef .tc main_arg7)) (after ops V (Proc.devRef .tc main_arg8)) := by
  obtain ⟨G, hin, hout⟩ := seg_read ops_writesL 69 4 sgAff2 sgAff2_eq V
  rw [hout main_v42 (by decide), hin main_v38 (by decide), hin main_arg7 (by decide), hin main_arg8 (by decide)]
  after_results
  rfl

set_option maxHeartbeats 2000000 in
/-- Layer 1: its column means. -/
theorem mean1b_eq (V : Valuation τ sig (Elt Ideal)) :
    after ops V (Proc.devRef .tc main_v45) = meanT (after ops V (Proc.devRef .tc main_v42)) := by
  obtain ⟨G, hin, hout⟩ := seg_read ops_writesL 73 5 sgMean2 sgMean2_eq V
  rw [hout main_v45 (by decide), hin main_v42 (by decide)]
  after_results
  rfl

set_option maxHeartbeats 2000000 in
/-- Layer 1: its column variances. -/
theorem var1b_eq (V : Valuation τ sig (Elt Ideal)) :
    after ops V (Proc.devRef .tc main_v46) = varT (after ops V (Proc.devRef .tc main_v42)) := by
  obtain ⟨G, hin, hout⟩ := seg_read ops_writesL 78 23 sgVar2 sgVar2_eq V
  rw [hout main_v46 (by decide), hin main_v42 (by decide)]
  after_results_simp
  rfl

set_option maxHeartbeats 2000000 in
/-- Layer 1: its normalisation and rectifier — the layer's output. -/
theorem bn1b_eq (V : Valuation τ sig (Elt Ideal)) :
    after ops V (Proc.devRef .tc main_v62) = bnReluT (after ops V (Proc.devRef .tc main_v42)) (after ops V (Proc.devRef .tc main_v45)) (after ops V (Proc.devRef .tc main_v46)) (after ops V (Proc.devRef .tc main_arg9)) (after ops V (Proc.devRef .tc main_arg10)) := by
  obtain ⟨G, hin, hout⟩ := seg_read ops_writesL 101 19 sgBn2 sgBn2_eq V
  rw [hout main_v62 (by decide), hin main_v42 (by decide), hin main_v45 (by decide), hin main_v46 (by decide), hin main_arg9 (by decide), hin main_arg10 (by decide)]
  after_results_simp
  rfl

set_option maxHeartbeats 2000000 in
/-- Layer 2: the first linear map, of the rows plus their aggregate. -/
theorem aff2a_eq (V : Valuation τ sig (Elt Ideal)) :
    after ops V (Proc.devRef .tc main_v77) = affT (addf (F := Ideal) (φ := .f32) (after ops V (Proc.devRef .tc main_v62)) (after ops V (Proc.devRef .tc main_v72))) (after ops V (Proc.devRef .tc main_arg11)) (after ops V (Proc.devRef .tc main_arg12)) := by
  obtain ⟨G, hin, hout⟩ := seg_read ops_writesL 133 5 sgAff3 sgAff3_eq V
  rw [hout main_v77 (by decide), hin main_v62 (by decide), hin main_v72 (by decide), hin main_arg11 (by decide), hin main_arg12 (by decide)]
  after_results
  rfl

set_option maxHeartbeats 2000000 in
/-- Layer 2: its column means. -/
theorem mean2a_eq (V : Valuation τ sig (Elt Ideal)) :
    after ops V (Proc.devRef .tc main_v80) = meanT (after ops V (Proc.devRef .tc main_v77)) := by
  obtain ⟨G, hin, hout⟩ := seg_read ops_writesL 138 5 sgMean3 sgMean3_eq V
  rw [hout main_v80 (by decide), hin main_v77 (by decide)]
  after_results
  rfl

set_option maxHeartbeats 2000000 in
/-- Layer 2: its column variances. -/
theorem var2a_eq (V : Valuation τ sig (Elt Ideal)) :
    after ops V (Proc.devRef .tc main_v81) = varT (after ops V (Proc.devRef .tc main_v77)) := by
  obtain ⟨G, hin, hout⟩ := seg_read ops_writesL 143 23 sgVar3 sgVar3_eq V
  rw [hout main_v81 (by decide), hin main_v77 (by decide)]
  after_results_simp
  rfl

set_option maxHeartbeats 2000000 in
/-- Layer 2: its normalisation and rectifier. -/
theorem bn2a_eq (V : Valuation τ sig (Elt Ideal)) :
    after ops V (Proc.devRef .tc main_v97) = bnReluT (after ops V (Proc.devRef .tc main_v77)) (after ops V (Proc.devRef .tc main_v80)) (after ops V (Proc.devRef .tc main_v81)) (after ops V (Proc.devRef .tc main_arg13)) (after ops V (Proc.devRef .tc main_arg14)) := by
  obtain ⟨G, hin, hout⟩ := seg_read ops_writesL 166 19 sgBn3 sgBn3_eq V
  rw [hout main_v97 (by decide), hin main_v77 (by decide), hin main_v80 (by decide), hin main_v81 (by decide), hin main_arg13 (by decide), hin main_arg14 (by decide)]
  after_results_simp
  rfl

set_option maxHeartbeats 2000000 in
/-- Layer 2: the second linear map. -/
theorem aff2b_eq (V : Valuation τ sig (Elt Ideal)) :
    after ops V (Proc.devRef .tc main_v101) = affT (after ops V (Proc.devRef .tc main_v97)) (after ops V (Proc.devRef .tc main_arg15)) (after ops V (Proc.devRef .tc main_arg16)) := by
  obtain ⟨G, hin, hout⟩ := seg_read ops_writesL 185 4 sgAff4 sgAff4_eq V
  rw [hout main_v101 (by decide), hin main_v97 (by decide), hin main_arg15 (by decide), hin main_arg16 (by decide)]
  after_results
  rfl

set_option maxHeartbeats 2000000 in
/-- Layer 2: its column means. -/
theorem mean2b_eq (V : Valuation τ sig (Elt Ideal)) :
    after ops V (Proc.devRef .tc main_v104) = meanT (after ops V (Proc.devRef .tc main_v101)) := by
  obtain ⟨G, hin, hout⟩ := seg_read ops_writesL 189 5 sgMean4 sgMean4_eq V
  rw [hout main_v104 (by decide), hin main_v101 (by decide)]
  after_results
  rfl

set_option maxHeartbeats 2000000 in
/-- Layer 2: its column variances. -/
theorem var2b_eq (V : Valuation τ sig (Elt Ideal)) :
    after ops V (Proc.devRef .tc main_v105) = varT (after ops V (Proc.devRef .tc main_v101)) := by
  obtain ⟨G, hin, hout⟩ := seg_read ops_writesL 194 23 sgVar4 sgVar4_eq V
  rw [hout main_v105 (by decide), hin main_v101 (by decide)]
  after_results_simp
  rfl

set_option maxHeartbeats 2000000 in
/-- Layer 2: its normalisation and rectifier — the layer's output. -/
theorem bn2b_eq (V : Valuation τ sig (Elt Ideal)) :
    after ops V (Proc.devRef .tc main_v121) = bnReluT (after ops V (Proc.devRef .tc main_v101)) (after ops V (Proc.devRef .tc main_v104)) (after ops V (Proc.devRef .tc main_v105)) (after ops V (Proc.devRef .tc main_arg17)) (after ops V (Proc.devRef .tc main_arg18)) := by
  obtain ⟨G, hin, hout⟩ := seg_read ops_writesL 217 19 sgBn4 sgBn4_eq V
  rw [hout main_v121 (by decide), hin main_v101 (by decide), hin main_v104 (by decide), hin main_v105 (by decide), hin main_arg17 (by decide), hin main_arg18 (by decide)]
  after_results_simp
  rfl

/-! ## The layers -/

/-- The first layer's output: the dense part of the input rows plus their aggregate. -/
theorem h1_eq (V : Valuation τ sig (Elt Ideal)) :
    after ops V (Proc.devRef .tc main_v62)
      = layerT (addf (F := Ideal) (φ := .f32) (V (Proc.devRef .tc main_arg0)) (aggOf (V (Proc.devRef .tc main_arg0)) (V (Proc.devRef .tc main_arg1))))
          (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  rw [bn1b_eq, var1b_eq, mean1b_eq, aff1b_eq, bn1a_eq, var1a_eq, mean1a_eq, aff1a_eq, agg1_eq,
    arg_keep V main_arg0 (by decide) (by decide) (by decide),
    arg_keep V main_arg3 (by decide) (by decide) (by decide),
    arg_keep V main_arg4 (by decide) (by decide) (by decide),
    arg_keep V main_arg5 (by decide) (by decide) (by decide),
    arg_keep V main_arg6 (by decide) (by decide) (by decide),
    arg_keep V main_arg7 (by decide) (by decide) (by decide),
    arg_keep V main_arg8 (by decide) (by decide) (by decide),
    arg_keep V main_arg9 (by decide) (by decide) (by decide),
    arg_keep V main_arg10 (by decide) (by decide) (by decide)]
  rfl

/-- The second layer's output: the same dense part, of the first layer's output plus its aggregate. -/
theorem h2_eq (V : Valuation τ sig (Elt Ideal)) :
    after ops V (Proc.devRef .tc main_v121)
      = layerT (addf (F := Ideal) (φ := .f32) (after ops V (Proc.devRef .tc main_v62)) (aggOf (after ops V (Proc.devRef .tc main_v62)) (V (Proc.devRef .tc main_arg1))))
          (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) := by
  rw [bn2b_eq, var2b_eq, mean2b_eq, aff2b_eq, bn2a_eq, var2a_eq, mean2a_eq, aff2a_eq, agg2_eq,
    arg_keep V main_arg11 (by decide) (by decide) (by decide),
    arg_keep V main_arg12 (by decide) (by decide) (by decide),
    arg_keep V main_arg13 (by decide) (by decide) (by decide),
    arg_keep V main_arg14 (by decide) (by decide) (by decide),
    arg_keep V main_arg15 (by decide) (by decide) (by decide),
    arg_keep V main_arg16 (by decide) (by decide) (by decide),
    arg_keep V main_arg17 (by decide) (by decide) (by decide),
    arg_keep V main_arg18 (by decide) (by decide) (by decide)]
  rfl

/-! ## Coordinate by coordinate

`co2 x i k` is `x (ix2 i k)` and `co1 b j` is `b (ix1 j)` (abbreviations); the rows a layer starts from are, entry by
entry, the sum of the two arrays added: `co2 (addf x y) i k = x (ix2 i k) + y (ix2 i k)` by `rfl`. -/

/-- The first layer's output at row `i`, column `j`: the specification's layer, in the plain program's spelling, of the input rows plus their aggregate. -/
theorem h1_apply (V : Valuation τ sig (Elt Ideal)) (i : Fin 100000) (j : Fin 64) :
    co2 (after ops V (Proc.devRef .tc main_v62)) i j
      = GinSpec.layerR nRows epsC
          (co2 (addf (F := Ideal) (φ := .f32) (V (Proc.devRef .tc main_arg0)) (aggOf (V (Proc.devRef .tc main_arg0)) (V (Proc.devRef .tc main_arg1)))))
          (co2 (V (Proc.devRef .tc main_arg3))) (co1 (V (Proc.devRef .tc main_arg4))) (co1 (V (Proc.devRef .tc main_arg5))) (co1 (V (Proc.devRef .tc main_arg6)))
          (co2 (V (Proc.devRef .tc main_arg7))) (co1 (V (Proc.devRef .tc main_arg8))) (co1 (V (Proc.devRef .tc main_arg9))) (co1 (V (Proc.devRef .tc main_arg10))) i j := by
  rw [h1_eq]
  exact congrFun (congrFun (co2_layerT _ _ _ _ _ _ _ _ _) i) j

/-- The second layer's output at row `i`, column `j`: the same, of the first layer's output array plus its aggregate. -/
theorem h2_apply (V : Valuation τ sig (Elt Ideal)) (i : Fin 100000) (j : Fin 64) :
    co2 (after ops V (Proc.devRef .tc main_v121)) i j
      = GinSpec.layerR nRows epsC
          (co2 (addf (F := Ideal) (φ := .f32) (after ops V (Proc.devRef .tc main_v62)) (aggOf (after ops V (Proc.devRef .tc main_v62)) (V (Proc.devRef .tc main_arg1)))))
          (co2 (V (Proc.devRef .tc main_arg11))) (co1 (V (Proc.devRef .tc main_arg12))) (co1 (V (Proc.devRef .tc main_arg13))) (co1 (V (Proc.devRef .tc main_arg14)))
          (co2 (V (Proc.devRef .tc main_arg15))) (co1 (V (Proc.devRef .tc main_arg16))) (co1 (V (Proc.devRef .tc main_arg17))) (co1 (V (Proc.devRef .tc main_arg18))) i j := by
  rw [h2_eq]
  exact congrFun (congrFun (co2_layerT _ _ _ _ _ _ _ _ _) i) j

/-- The rows a layer starts from, entry by entry. -/
theorem co2_addf (x y : S100000x64.Idx → EReal) (i : Fin 100000) (k : Fin 64) :
    co2 (addf (F := Ideal) (φ := .f32) x y) i k = x (ix2 i k) + y (ix2 i k) := rfl

end Cert.ReferenceIdeal.RefValue

end
-- ==== Proof.RefAggFin.lean ====
/- The aggregation of finite rows is finite: at the exact reals a scatter-add is, at each entry, the operand's entry
   plus a finite sum of update entries; here the operand is the zero array and an update entry is a gathered entry,
   that is, an entry of the rows. The two facts are stated at any shapes and only applied at the program's. -/
import proofs.«152416_j10892037062711_1_alg».proof.Proof.RefValue
import proofs.«152416_j10892037062711_1_alg».proof.Proof.Spec
import Idealize.ShloMosaic.PureOps.Ideal.Laws

noncomputable section

namespace Cert.ReferenceIdeal.RefValue

open Cert.ReferenceIdeal Cert.ReferenceIdeal.Gen Idealize.ShloMosaic

/-- A scatter-add of finite updates onto a finite operand is finite, at any shapes. -/
theorem hostScatterAdd_fin {s si su : Shape} (d : ScatterDims s si su) {w : Nat} (x0 : s.Idx → EReal) (idx : IVec si w)
    (upd : su.Idx → EReal) (h0 : ∀ i, GinSpec.IsFin (x0 i)) (hu : ∀ j, GinSpec.IsFin (upd j)) (i : s.Idx) :
    GinSpec.IsFin (Ideal.hostScatterAdd d x0 idx upd i) := by
  unfold Ideal.hostScatterAdd
  exact (h0 i).add (GinSpec.IsFin.sum _ _ fun j _ => hu j)

/-- The same for the host operation at the exact reals, which is that sum. -/
theorem scatterAdd_fin {s si su : Shape} (d : ScatterDims s si su) {w : Nat} (x0 : s.Idx → EReal) (idx : IVec si w)
    (upd : su.Idx → EReal) (h0 : ∀ i, GinSpec.IsFin (x0 i)) (hu : ∀ j, GinSpec.IsFin (upd j)) (i : s.Idx) :
    GinSpec.IsFin (Host.scatterAdd (F := Ideal) (φ := .f32) d x0 idx upd i) :=
  hostScatterAdd_fin d x0 idx upd h0 hu i

/-- A gather of finite rows is finite, at any shapes: each entry is an entry of the rows. -/
theorem gather_fin {s si t : Shape} {w : Nat} (d : GatherDims s si t) (x : s.Idx → EReal) (idx : IVec si w)
    (hx : ∀ i, GinSpec.IsFin (x i)) (j : t.Idx) : GinSpec.IsFin (Host.gather d x idx j) := by
  unfold Host.gather
  exact hx _

/-- The zero scalar spread over any shape is finite. -/
theorem zeroSplat_fin {t : Shape} (h : S_.BroadcastsInDim t (![] : Fin 0 → Fin t.rank)) (i : t.Idx) :
    GinSpec.IsFin (broadcastInDim t ![] h (constant (F := Ideal) S_ .f32 0x00000000#32) i) := by
  show GinSpec.IsFin (Ideal.ofBits .f32 0x00000000#32)
  rw [Ideal.ofBits_zero_f32]
  exact GinSpec.IsFin.zero

theorem aggRows_fin (x : S100000x64.Idx → EReal) (src dst : S1600000.Idx → BitVec 32) (hx : ∀ i, GinSpec.IsFin (x i))
    (i : S100000x64.Idx) : GinSpec.IsFin (aggRows x src dst i) :=
  scatterAdd_fin _ _ _ _ (fun i' => zeroSplat_fin _ i') (fun j => gather_fin _ _ _ hx j) i

/-- The aggregate of finite rows is finite. -/
theorem aggOf_fin (x : S100000x64.Idx → EReal) (ei : S2x1600000.Idx → BitVec 32) (hx : ∀ i, GinSpec.IsFin (x i)) :
    ∀ i, GinSpec.IsFin (aggOf x ei i) :=
  fun i => aggRows_fin x (edgeRow0 ei) (edgeRow1 ei) hx i

end Cert.ReferenceIdeal.RefValue

end
-- ==== Proof.PreFinite.lean ====
/- From the precondition that every floating-point argument is finite — printed as one conjunction of "all entries have
   absolute value below +∞" — to: every entry of every floating-point argument is a real number. -/
import proofs.«152416_j10892037062711_1_alg».proof.Defs
import proofs.«152416_j10892037062711_1_alg».proof.Proof.Spec
import proofs.«152416_j10892037062711_1_alg».proof.Proof.Gen.Pre_finite_inputs
import Idealize.ShloMosaic.Lib.ReduceAll
import Idealize.ShloMosaic.Lib.ValueIdx

noncomputable section

namespace Cert.KernelIdeal.PreFinite

open Idealize.ShloMosaic Idealize.SL.Sem
open Cert.KernelIdeal

instance : Subsingleton Cert.Pre_finite_inputs.S_.Idx := ⟨fun a b => funext fun d => d.elim0⟩

/-- The pattern the comparison is made against is +∞. -/
theorem inf_bits : Ideal.ofBits .f32 0x7F800000#32 = (⊤ : EReal) := by
  simp [Ideal.ofBits, Ideal.ieee]

/-- An extended real whose absolute value is below +∞ is a real. -/
theorem isFin_of_abs_lt (x : EReal) (h : Ideal.cmp .olt (max x (-x)) (Ideal.ofBits .f32 0x7F800000#32) = 1#1) : GinSpec.IsFin x := by
  rw [inf_bits] at h
  have hlt : max x (-x) < ⊤ := by
    by_contra hn
    have h0 : Ideal.cmp .olt (max x (-x)) ⊤ = 0#1 := by simp [Ideal.cmp, hn]
    rw [h0] at h
    exact absurd h (by decide)
  induction x using EReal.rec with
  | bot => simp at hlt
  | coe r => exact ⟨r, rfl⟩
  | top => simp at hlt

/-- One array: if "all entries have absolute value below +∞" came out true, every entry is a real. -/
theorem allFin {S : Shape} (x : FVec Ideal S .f32) (hb : Cert.Pre_finite_inputs.S_.BroadcastsInDim S (![] : Fin 0 → Fin S.rank))
    {axes : List (Fin S.rank)} (hr : S.ReducesTo axes Cert.Pre_finite_inputs.S_) (hu : 0 < Cert.Pre_finite_inputs.S_.numel) (j : Cert.Pre_finite_inputs.S_.Idx)
    (e : Host.reduce IntOp.andi (cmpf .olt (Host.absf x) (broadcastInDim S ![] hb (constant Cert.Pre_finite_inputs.S_ .f32 0x7F800000#32)))
          (constantI Cert.Pre_finite_inputs.S_ 1 1#1) hr hu j = 1#1) (i : S.Idx) : GinSpec.IsFin (x i) :=
  isFin_of_abs_lt (x i) (Host.reduce_andi_all _ _ hr hu j e i)

/-- Every entry of every floating-point argument is a real, on every core. -/
theorem finite_args [Cert.Pre_finite_inputs.Facts] (m : (ℓ : Loc nD τ sig) → Buf (Elt Ideal) ℓ) (h : Cert.Pre_KernelIdeal m) (c : Dev nD) :
    (∀ i : S100000x64.Idx, GinSpec.IsFin ((m ((c.tc : Thread nD τ).loc main_arg0) : FVec Ideal S100000x64 .f32) i))
      ∧ (∀ i : S64x64.Idx, GinSpec.IsFin ((m ((c.tc : Thread nD τ).loc main_arg3) : FVec Ideal S64x64 .f32) i))
      ∧ (∀ i : S64.Idx, GinSpec.IsFin ((m ((c.tc : Thread nD τ).loc main_arg4) : FVec Ideal S64 .f32) i))
      ∧ (∀ i : S64.Idx, GinSpec.IsFin ((m ((c.tc : Thread nD τ).loc main_arg5) : FVec Ideal S64 .f32) i))
      ∧ (∀ i : S64.Idx, GinSpec.IsFin ((m ((c.tc : Thread nD τ).loc main_arg6) : FVec Ideal S64 .f32) i))
      ∧ (∀ i : S64x64.Idx, GinSpec.IsFin ((m ((c.tc : Thread nD τ).loc main_arg7) : FVec Ideal S64x64 .f32) i))
      ∧ (∀ i : S64.Idx, GinSpec.IsFin ((m ((c.tc : Thread nD τ).loc main_arg8) : FVec Ideal S64 .f32) i))
      ∧ (∀ i : S64.Idx, GinSpec.IsFin ((m ((c.tc : Thread nD τ).loc main_arg9) : FVec Ideal S64 .f32) i))
      ∧ (∀ i : S64.Idx, GinSpec.IsFin ((m ((c.tc : Thread nD τ).loc main_arg10) : FVec Ideal S64 .f32) i))
      ∧ (∀ i : S64x64.Idx, GinSpec.IsFin ((m ((c.tc : Thread nD τ).loc main_arg11) : FVec Ideal S64x64 .f32) i))
      ∧ (∀ i : S64.Idx, GinSpec.IsFin ((m ((c.tc : Thread nD τ).loc main_arg12) : FVec Ideal S64 .f32) i))
      ∧ (∀ i : S64.Idx, GinSpec.IsFin ((m ((c.tc : Thread nD τ).loc main_arg13) : FVec Ideal S64 .f32) i))
      ∧ (∀ i : S64.Idx, GinSpec.IsFin ((m ((c.tc : Thread nD τ).loc main_arg14) : FVec Ideal S64 .f32) i))
      ∧ (∀ i : S64x64.Idx, GinSpec.IsFin ((m ((c.tc : Thread nD τ).loc main_arg15) : FVec Ideal S64x64 .f32) i))
      ∧ (∀ i : S64.Idx, GinSpec.IsFin ((m ((c.tc : Thread nD τ).loc main_arg16) : FVec Ideal S64 .f32) i))
      ∧ (∀ i : S64.Idx, GinSpec.IsFin ((m ((c.tc : Thread nD τ).loc main_arg17) : FVec Ideal S64 .f32) i))
      ∧ (∀ i : S64.Idx, GinSpec.IsFin ((m ((c.tc : Thread nD τ).loc main_arg18) : FVec Ideal S64 .f32) i))
      ∧ (∀ i : S64x10.Idx, GinSpec.IsFin ((m ((c.tc : Thread nD τ).loc main_arg19) : FVec Ideal S64x10 .f32) i))
      ∧ (∀ i : S10.Idx, GinSpec.IsFin ((m ((c.tc : Thread nD τ).loc main_arg20) : FVec Ideal S10 .f32) i))
      ∧ (∀ i : S64x10.Idx, GinSpec.IsFin ((m ((c.tc : Thread nD τ).loc main_arg21) : FVec Ideal S64x10 .f32) i))
      ∧ (∀ i : S10.Idx, GinSpec.IsFin ((m ((c.tc : Thread nD τ).loc main_arg22) : FVec Ideal S10 .f32) i))
      ∧ (∀ i : S64x10.Idx, GinSpec.IsFin ((m ((c.tc : Thread nD τ).loc main_arg23) : FVec Ideal S64x10 .f32) i))
      ∧ (∀ i : S10.Idx, GinSpec.IsFin ((m ((c.tc : Thread nD τ).loc main_arg24) : FVec Ideal S10 .f32) i)) := by
  have e := congrFun (h c) ValueIdx.ix0
  dsimp only [Cert.Pre_finite_inputs.fn, Cert.Pre_finite_inputs.fn_part1, Cert.Pre_finite_inputs.fn_part2, Cert.Pre_finite_inputs.fn_part3,
    Cert.Pre_finite_inputs.fn_part4, Cert.Pre_finite_inputs.fn_part5, Cert.Pre_finite_inputs.fn_part6] at e
  obtain ⟨e, h24⟩ := IntOp.andi_eq_one.1 e
  obtain ⟨e, h23⟩ := IntOp.andi_eq_one.1 e
  obtain ⟨e, h22⟩ := IntOp.andi_eq_one.1 e
  obtain ⟨e, h21⟩ := IntOp.andi_eq_one.1 e
  obtain ⟨e, h20⟩ := IntOp.andi_eq_one.1 e
  obtain ⟨e, h19⟩ := IntOp.andi_eq_one.1 e
  obtain ⟨e, h18⟩ := IntOp.andi_eq_one.1 e
  obtain ⟨e, h17⟩ := IntOp.andi_eq_one.1 e
  obtain ⟨e, h16⟩ := IntOp.andi_eq_one.1 e
  obtain ⟨e, h15⟩ := IntOp.andi_eq_one.1 e
  obtain ⟨e, h14⟩ := IntOp.andi_eq_one.1 e
  obtain ⟨e, h13⟩ := IntOp.andi_eq_one.1 e
  obtain ⟨e, h12⟩ := IntOp.andi_eq_one.1 e
  obtain ⟨e, h11⟩ := IntOp.andi_eq_one.1 e
  obtain ⟨e, h10⟩ := IntOp.andi_eq_one.1 e
  obtain ⟨e, h9⟩ := IntOp.andi_eq_one.1 e
  obtain ⟨e, h8⟩ := IntOp.andi_eq_one.1 e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨h0, h3⟩ := IntOp.andi_eq_one.1 e
  exact ⟨allFin _ _ _ _ _ h0, allFin _ _ _ _ _ h3, allFin _ _ _ _ _ h4, allFin _ _ _ _ _ h5, allFin _ _ _ _ _ h6, allFin _ _ _ _ _ h7, allFin _ _ _ _ _ h8, allFin _ _ _ _ _ h9, allFin _ _ _ _ _ h10, allFin _ _ _ _ _ h11, allFin _ _ _ _ _ h12, allFin _ _ _ _ _ h13, allFin _ _ _ _ _ h14, allFin _ _ _ _ _ h15, allFin _ _ _ _ _ h16, allFin _ _ _ _ _ h17, allFin _ _ _ _ _ h18, allFin _ _ _ _ _ h19, allFin _ _ _ _ _ h20, allFin _ _ _ _ _ h21, allFin _ _ _ _ _ h22, allFin _ _ _ _ _ h23, allFin _ _ _ _ _ h24⟩

end Cert.KernelIdeal.PreFinite

end
-- ==== Proof.Bridge.lean ====
/-
  The bridge between the two programs' layers.

  For finite arguments on which the two memories agree: the array the tiled program's third pass leaves after layer 1
  is `GinSpec.layerK` of the input rows plus their aggregate (the kernel side's chain), which on finite data is
  `GinSpec.layerR` of the same (the variance identity), which is what the plain program's first layer holds. The first
  layer's output is then finite, the second layer reads it in both programs, and the same three steps give the second
  layer. The aggregation over the edges is the same closed function on both sides and is never opened; it only has to
  send finite rows to finite rows.
-/
import proofs.«152416_j10892037062711_1_alg».proof.Proof.KInst
import proofs.«152416_j10892037062711_1_alg».proof.Proof.KParams
import proofs.«152416_j10892037062711_1_alg».proof.Proof.RefLayers
import proofs.«152416_j10892037062711_1_alg».proof.Proof.RefAggFin
import proofs.«152416_j10892037062711_1_alg».proof.Proof.PreFinite
import proofs.«152416_j10892037062711_1_alg».proof.Proof.Consts

set_option maxRecDepth 16384

noncomputable section

namespace Cert.KernelIdeal.Bridge

open Cert.KernelIdeal Cert.KernelIdeal.Gen Cert.KernelIdeal.Assembly Cert.KernelIdeal.KChain Cert.KernelIdeal.KLayer Cert.KernelIdeal.KPay Cert.KernelIdeal.KInst
open Idealize.ShloMosaic Idealize.ShloMosaic.TcCoe Idealize.ShloMosaic.ValueIdx Idealize.ShloMosaic.StableHlo
open Cert.ReferenceIdeal.RefValue (aggOf co1 co2 nRows epsC)
open GinSpec (IsFin)

/-- Two node arrays that agree at every (row, column) are equal. -/
theorem mat_ext (x y : S100000x64.Idx → EReal) (h : ∀ (i : Fin 100000) (j : Fin 64), x (ix2 i j) = y (ix2 i j)) : x = y :=
  funext fun q => (congrArg x (eq_ix2 q)).trans ((h (q 0) (q 1)).trans (congrArg y (eq_ix2 q)).symm)

theorem card_rows : (Fintype.card (Fin 100000) : ℝ) = 100000 := by simp

/-- On finite data the two spellings of a layer agree at the two literals the programs spell (the number of rows and the
    variance's offset), and the layer is finite. -/
theorem spec_bridge {z : Fin 100000 → Fin 64 → EReal} {w1 w2 : Fin 64 → Fin 64 → EReal} {b1 g1 be1 b2 g2 be2 : Fin 64 → EReal}
    (hz : ∀ i k, IsFin (z i k)) (hw1 : ∀ k j, IsFin (w1 k j)) (hb1 : ∀ j, IsFin (b1 j)) (hg1 : ∀ j, IsFin (g1 j))
    (hbe1 : ∀ j, IsFin (be1 j)) (hw2 : ∀ k j, IsFin (w2 k j)) (hb2 : ∀ j, IsFin (b2 j)) (hg2 : ∀ j, IsFin (g2 j))
    (hbe2 : ∀ j, IsFin (be2 j)) :
    GinSpec.layerK (Ideal.ofBits .f32 NBits) (Ideal.ofBits .f32 epsBits) z w1 b1 g1 be1 w2 b2 g2 be2
        = GinSpec.layerR nRows epsC z w1 b1 g1 be1 w2 b2 g2 be2
      ∧ ∀ i j, IsFin (GinSpec.layerR nRows epsC z w1 b1 g1 be1 w2 b2 g2 be2 i j) := by
  obtain ⟨e, he, heq⟩ := Cert.Consts.ofBits_eps
  have hN : Ideal.ofBits .f32 NBits = ((100000 : ℝ) : EReal) := Cert.Consts.ofBits_1e5
  show GinSpec.layerK (Ideal.ofBits .f32 NBits) (Ideal.ofBits .f32 0x3727C5AC#32) z w1 b1 g1 be1 w2 b2 g2 be2
        = GinSpec.layerR (Ideal.ofBits .f32 NBits) (Ideal.ofBits .f32 0x3727C5AC#32) z w1 b1 g1 be1 w2 b2 g2 be2
      ∧ ∀ i j, IsFin (GinSpec.layerR (Ideal.ofBits .f32 NBits) (Ideal.ofBits .f32 0x3727C5AC#32) z w1 b1 g1 be1 w2 b2 g2 be2 i j)
  rw [hN, heq]
  exact ⟨GinSpec.layerK_eq_layerR (by norm_num) card_rows he hz hw1 hb1 hg1 hbe1 hw2 hb2 hg2 hbe2,
    GinSpec.layerR_fin (by norm_num) card_rows he hz hw1 hb1 hg1 hbe1 hw2 hb2 hg2 hbe2⟩

theorem rowF_rowOf (B : S64.Idx → EReal) : rowF (rowOf B) = co1 B := funext fun j => rowOf_apply B j
theorem rowF_shapeCast (B : S64.Idx → EReal) : rowF (shapeCast S1x64 B shapeCasts_S64_S1x64) = co1 B := rowF_rowOf B

section Main

variable (m : (ℓ : Loc nD τ sig) → Buf (Elt Ideal) ℓ) (c : Dev nD)
variable (V' : Valuation Cert.ReferenceIdeal.τ Cert.ReferenceIdeal.sig (Elt Ideal))

set_option maxHeartbeats 4000000 in
/-- The two layer outputs of the tiled program are the plain program's, given finite arguments and agreement on them. -/
theorem layers_agree_core
    (hagg : ∀ (x : S100000x64.Idx → EReal) (ei : S2x1600000.Idx → BitVec 32), (∀ i, IsFin (x i)) → ∀ i, IsFin (aggOf x ei i))
    (f0 : ∀ i : S100000x64.Idx, IsFin ((m ((c.tc : Thread nD τ).loc main_arg0) : S100000x64.Idx → EReal) i))
    (f3 : ∀ i : S64x64.Idx, IsFin ((m ((c.tc : Thread nD τ).loc main_arg3) : S64x64.Idx → EReal) i))
    (f4 : ∀ i : S64.Idx, IsFin ((m ((c.tc : Thread nD τ).loc main_arg4) : S64.Idx → EReal) i))
    (f5 : ∀ i : S64.Idx, IsFin ((m ((c.tc : Thread nD τ).loc main_arg5) : S64.Idx → EReal) i))
    (f6 : ∀ i : S64.Idx, IsFin ((m ((c.tc : Thread nD τ).loc main_arg6) : S64.Idx → EReal) i))
    (f7 : ∀ i : S64x64.Idx, IsFin ((m ((c.tc : Thread nD τ).loc main_arg7) : S64x64.Idx → EReal) i))
    (f8 : ∀ i : S64.Idx, IsFin ((m ((c.tc : Thread nD τ).loc main_arg8) : S64.Idx → EReal) i))
    (f9 : ∀ i : S64.Idx, IsFin ((m ((c.tc : Thread nD τ).loc main_arg9) : S64.Idx → EReal) i))
    (f10 : ∀ i : S64.Idx, IsFin ((m ((c.tc : Thread nD τ).loc main_arg10) : S64.Idx → EReal) i))
    (f11 : ∀ i : S64x64.Idx, IsFin ((m ((c.tc : Thread nD τ).loc main_arg11) : S64x64.Idx → EReal) i))
    (f12 : ∀ i : S64.Idx, IsFin ((m ((c.tc : Thread nD τ).loc main_arg12) : S64.Idx → EReal) i))
    (f13 : ∀ i : S64.Idx, IsFin ((m ((c.tc : Thread nD τ).loc main_arg13) : S64.Idx → EReal) i))
    (f14 : ∀ i : S64.Idx, IsFin ((m ((c.tc : Thread nD τ).loc main_arg14) : S64.Idx → EReal) i))
    (f15 : ∀ i : S64x64.Idx, IsFin ((m ((c.tc : Thread nD τ).loc main_arg15) : S64x64.Idx → EReal) i))
    (f16 : ∀ i : S64.Idx, IsFin ((m ((c.tc : Thread nD τ).loc main_arg16) : S64.Idx → EReal) i))
    (f17 : ∀ i : S64.Idx, IsFin ((m ((c.tc : Thread nD τ).loc main_arg17) : S64.Idx → EReal) i))
    (f18 : ∀ i : S64.Idx, IsFin ((m ((c.tc : Thread nD τ).loc main_arg18) : S64.Idx → EReal) i))
    (e0 : V' (Proc.devRef .tc Cert.ReferenceIdeal.main_arg0) = m ((c.tc : Thread nD τ).loc main_arg0))
    (e1 : V' (Proc.devRef .tc Cert.ReferenceIdeal.main_arg1) = m ((c.tc : Thread nD τ).loc main_arg1))
    (e3 : V' (Proc.devRef .tc Cert.ReferenceIdeal.main_arg3) = m ((c.tc : Thread nD τ).loc main_arg3))
    (e4 : V' (Proc.devRef .tc Cert.ReferenceIdeal.main_arg4) = m ((c.tc : Thread nD τ).loc main_arg4))
    (e5 : V' (Proc.devRef .tc Cert.ReferenceIdeal.main_arg5) = m ((c.tc : Thread nD τ).loc main_arg5))
    (e6 : V' (Proc.devRef .tc Cert.ReferenceIdeal.main_arg6) = m ((c.tc : Thread nD τ).loc main_arg6))
    (e7 : V' (Proc.devRef .tc Cert.ReferenceIdeal.main_arg7) = m ((c.tc : Thread nD τ).loc main_arg7))
    (e8 : V' (Proc.devRef .tc Cert.ReferenceIdeal.main_arg8) = m ((c.tc : Thread nD τ).loc main_arg8))
    (e9 : V' (Proc.devRef .tc Cert.ReferenceIdeal.main_arg9) = m ((c.tc : Thread nD τ).loc main_arg9))
    (e10 : V' (Proc.devRef .tc Cert.ReferenceIdeal.main_arg10) = m ((c.tc : Thread nD τ).loc main_arg10))
    (e11 : V' (Proc.devRef .tc Cert.ReferenceIdeal.main_arg11) = m ((c.tc : Thread nD τ).loc main_arg11))
    (e12 : V' (Proc.devRef .tc Cert.ReferenceIdeal.main_arg12) = m ((c.tc : Thread nD τ).loc main_arg12))
    (e13 : V' (Proc.devRef .tc Cert.ReferenceIdeal.main_arg13) = m ((c.tc : Thread nD τ).loc main_arg13))
    (e14 : V' (Proc.devRef .tc Cert.ReferenceIdeal.main_arg14) = m ((c.tc : Thread nD τ).loc main_arg14))
    (e15 : V' (Proc.devRef .tc Cert.ReferenceIdeal.main_arg15) = m ((c.tc : Thread nD τ).loc main_arg15))
    (e16 : V' (Proc.devRef .tc Cert.ReferenceIdeal.main_arg16) = m ((c.tc : Thread nD τ).loc main_arg16))
    (e17 : V' (Proc.devRef .tc Cert.ReferenceIdeal.main_arg17) = m ((c.tc : Thread nD τ).loc main_arg17))
    (e18 : V' (Proc.devRef .tc Cert.ReferenceIdeal.main_arg18) = m ((c.tc : Thread nD τ).loc main_arg18)) :
    (OUTS m 6 main_v34 c : S100000x64.Idx → EReal) = after Cert.ReferenceIdeal.RefRun.ops V' (Proc.devRef .tc Cert.ReferenceIdeal.main_v62)
      ∧ (OUTS m 12 main_v65 c : S100000x64.Idx → EReal) = after Cert.ReferenceIdeal.RefRun.ops V' (Proc.devRef .tc Cert.ReferenceIdeal.main_v121) := by
  -- finiteness of the rows as coordinate functions
  have r1 : ∀ {B : S64.Idx → EReal}, (∀ i, IsFin (B i)) → ∀ j, IsFin (co1 B j) := fun h j => h _
  have r2 : ∀ {W : S64x64.Idx → EReal}, (∀ i, IsFin (W i)) → ∀ k j, IsFin (co2 W k j) := fun h k j => h _
  -- layer 1
  have hz1 : ∀ (i : Fin 100000) (k : Fin 64), IsFin (matF (m ((c.tc : Thread nD τ).loc main_arg0)) i k
      + matF (aggOf (m ((c.tc : Thread nD τ).loc main_arg0)) (m ((c.tc : Thread nD τ).loc main_arg1))) i k) :=
    fun i k => (f0 _).add (hagg _ _ f0 _)
  have hS1 := spec_bridge hz1 (r2 f3) (r1 f4) (r1 f5) (r1 f6) (r2 f7) (r1 f8) (r1 f9) (r1 f10)
  have h1 : (OUTS m 6 main_v34 c : S100000x64.Idx → EReal)
      = after Cert.ReferenceIdeal.RefRun.ops V' (Proc.devRef .tc Cert.ReferenceIdeal.main_v62) := by
    refine mat_ext _ _ fun i j => ?_
    have hK := congrFun (congrFun (layer1K m c) i) j
    rw [V1_arg0, KParams.V1_v13, V1_arg3, V1_v14, V1_v15, KParams.V1_v16, KParams.V1_arg7, KParams.V1_v17, KParams.V1_v18,
      KParams.V1_v19] at hK
    have hR := Cert.ReferenceIdeal.RefValue.h1_apply V' i j
    rw [e0, e1, e3, e4, e5, e6, e7, e8, e9, e10] at hR
    refine hK.trans (Eq.trans ?_ hR.symm)
    simp only [rowF_rowOf]
    have hr6 : rowF (shapeCast S1x64 (m ((c.tc : Thread nD τ).loc main_arg6)) shapeCasts_S64_S1x64) = co1 (m ((c.tc : Thread nD τ).loc main_arg6)) := rowF_shapeCast _
    have hr8 : rowF (shapeCast S1x64 (m ((c.tc : Thread nD τ).loc main_arg8)) shapeCasts_S64_S1x64) = co1 (m ((c.tc : Thread nD τ).loc main_arg8)) := rowF_shapeCast _
    have hr9 : rowF (shapeCast S1x64 (m ((c.tc : Thread nD τ).loc main_arg9)) shapeCasts_S64_S1x64) = co1 (m ((c.tc : Thread nD τ).loc main_arg9)) := rowF_shapeCast _
    have hr10 : rowF (shapeCast S1x64 (m ((c.tc : Thread nD τ).loc main_arg10)) shapeCasts_S64_S1x64) = co1 (m ((c.tc : Thread nD τ).loc main_arg10)) := rowF_shapeCast _
    rw [hr6, hr8, hr9, hr10]
    exact congrFun (congrFun hS1.1 i) j
  refine ⟨h1, ?_⟩
  -- the first layer's output is finite
  have hH1 : ∀ (i : Fin 100000) (k : Fin 64), IsFin (matF (OUTS m 6 main_v34 c) i k) := by
    intro i k
    have hR := Cert.ReferenceIdeal.RefValue.h1_apply V' i k
    rw [e0, e1, e3, e4, e5, e6, e7, e8, e9, e10] at hR
    show IsFin ((OUTS m 6 main_v34 c : S100000x64.Idx → EReal) (ix2 i k))
    rw [h1]
    show IsFin (co2 (after Cert.ReferenceIdeal.RefRun.ops V' (Proc.devRef .tc Cert.ReferenceIdeal.main_v62)) i k)
    rw [hR]
    exact hS1.2 i k
  have fH1 : ∀ q : S100000x64.Idx, IsFin ((OUTS m 6 main_v34 c : S100000x64.Idx → EReal) q) := fun q =>
    (congrArg (OUTS m 6 main_v34 c : S100000x64.Idx → EReal) (eq_ix2 q)) ▸ hH1 (q 0) (q 1)
  -- layer 2
  have hz2 : ∀ (i : Fin 100000) (k : Fin 64), IsFin (matF (OUTS m 6 main_v34 c) i k
      + matF (aggOf (OUTS m 6 main_v34 c) (m ((c.tc : Thread nD τ).loc main_arg1))) i k) :=
    fun i k => (hH1 i k).add (hagg _ _ fH1 _)
  have hS2 := spec_bridge hz2 (r2 f11) (r1 f12) (r1 f13) (r1 f14) (r2 f15) (r1 f16) (r1 f17) (r1 f18)
  refine mat_ext _ _ fun i j => ?_
  have hK := congrFun (congrFun (layer2K m c) i) j
  rw [KParams.V7_v34, KParams.V7_v44, KParams.V7_arg11, KParams.V7_v45, KParams.V7_v46, KParams.V7_v47, KParams.V7_arg15,
    KParams.V7_v48, KParams.V7_v49, KParams.V7_v50] at hK
  have hR := Cert.ReferenceIdeal.RefValue.h2_apply V' i j
  rw [← h1, e1, e11, e12, e13, e14, e15, e16, e17, e18] at hR
  refine hK.trans (Eq.trans ?_ hR.symm)
  have hr12 : rowF (shapeCast S1x64 (m ((c.tc : Thread nD τ).loc main_arg12)) shapeCasts_S64_S1x64) = co1 (m ((c.tc : Thread nD τ).loc main_arg12)) := rowF_shapeCast _
  have hr13 : rowF (shapeCast S1x64 (m ((c.tc : Thread nD τ).loc main_arg13)) shapeCasts_S64_S1x64) = co1 (m ((c.tc : Thread nD τ).loc main_arg13)) := rowF_shapeCast _
  have hr14 : rowF (shapeCast S1x64 (m ((c.tc : Thread nD τ).loc main_arg14)) shapeCasts_S64_S1x64) = co1 (m ((c.tc : Thread nD τ).loc main_arg14)) := rowF_shapeCast _
  have hr16 : rowF (shapeCast S1x64 (m ((c.tc : Thread nD τ).loc main_arg16)) shapeCasts_S64_S1x64) = co1 (m ((c.tc : Thread nD τ).loc main_arg16)) := rowF_shapeCast _
  have hr17 : rowF (shapeCast S1x64 (m ((c.tc : Thread nD τ).loc main_arg17)) shapeCasts_S64_S1x64) = co1 (m ((c.tc : Thread nD τ).loc main_arg17)) := rowF_shapeCast _
  have hr18 : rowF (shapeCast S1x64 (m ((c.tc : Thread nD τ).loc main_arg18)) shapeCasts_S64_S1x64) = co1 (m ((c.tc : Thread nD τ).loc main_arg18)) := rowF_shapeCast _
  rw [hr12, hr13, hr14, hr16, hr17, hr18]
  exact congrFun (congrFun hS2.1 i) j

/-- The two layer outputs of the tiled program are the plain program's, from the precondition (every float argument
    finite) and the two memories' agreement on the arguments. -/
theorem layers_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
        m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
        ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
        ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
        ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
        ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
        ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
        ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
        ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
        ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
        ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
        ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
        ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
        ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
        ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
        ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
        ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
        ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
        ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
        ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
        ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
        ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
        ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
        ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
        ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
        ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24))
    (c : Dev Cert.KernelIdeal.nD) :
    Cert.KernelIdeal.Assembly.OUTS m 6 Cert.KernelIdeal.main_v34 c
        = StableHlo.after (Cert.ReferenceIdeal.RefRun.ops (F := Ideal)) (fun b => m' (c, b)) (Proc.devRef .tc Cert.ReferenceIdeal.main_v62)
      ∧ Cert.KernelIdeal.Assembly.OUTS m 12 Cert.KernelIdeal.main_v65 c
        = StableHlo.after (Cert.ReferenceIdeal.RefRun.ops (F := Ideal)) (fun b => m' (c, b)) (Proc.devRef .tc Cert.ReferenceIdeal.main_v121) := by
  obtain ⟨f0, f3, f4, f5, f6, f7, f8, f9, f10, f11, f12, f13, f14, f15, f16, f17, f18, f19, f20, f21, f22, f23, f24⟩ := Cert.KernelIdeal.PreFinite.finite_args m hpre c
  obtain ⟨a0, a1, a2, a3, a4, a5, a6, a7, a8, a9, a10, a11, a12, a13, a14, a15, a16, a17, a18, a19, a20, a21, a22, a23, a24⟩ := hagree c
  exact layers_agree_core m c (fun b => m' (c, b)) Cert.ReferenceIdeal.RefValue.aggOf_fin
    f0 f3 f4 f5 f6 f7 f8 f9 f10 f11 f12 f13 f14 f15 f16 f17 f18
    a0 a1 a3 a4 a5 a6 a7 a8 a9 a10 a11 a12 a13 a14 a15 a16 a17 a18

end Main

end Cert.KernelIdeal.Bridge

end
-- ==== Proof.lean ====
/-
  The certificate of a two-layer graph isomorphism network: a program that runs each layer's dense part as three
  tiled passes over ten blocks of 10000 node rows, against the plain program.

  Each layer aggregates the node rows over the edges (a gather and a scatter-add, the same closed function in both
  programs), then applies `z·w₁ + b₁`, a batch normalisation with positive part, `·w₂ + b₂`, and a second batch
  normalisation with positive part. The tiled program computes each normalisation's statistics from two column sums
  it accumulates block by block in two rows kept between the grid's points — the sum and the sum of squares — and
  takes the variance as "mean of squares minus squared mean"; the plain program takes the mean of the squared
  deviations from the mean. On the extended reals the roundings into the products are the identity, a product into a
  zero accumulator and a sum regrouped tile by tile are the plain sums, and for FINITE data the two variances agree
  (the binomial expansion ∑(a − μ)² = ∑a² − 2μ∑a + Nμ², which distributes a product over a sum and is the one place
  the precondition is used); the variance is then a nonnegative real, the offset added to it a positive real, so the
  reciprocal square root is a real and every layer's output is again finite. Both programs end with the same
  read-out (three pooled sums by graph, three products, the biases), one closed function of the input rows and the
  two layers' outputs.

  The frames: each of the six regions of the tiled program is run at every grid point (first point: the two rows are
  zeroed; last point: they are copied to the two small outputs), with proof data naming what every window's buffer
  holds after the body, and the regions are chained along @main with the host operations between them; the word-level
  program has the same proof at its own instance. The plain program is a line of host operations, run in order.
-/
import proofs.«152416_j10892037062711_1_alg».proof.Defs
import proofs.«152416_j10892037062711_1_alg».proof.Proof.Gen.Kernel
import proofs.«152416_j10892037062711_1_alg».proof.Proof.Gen.KernelIdeal
import proofs.«152416_j10892037062711_1_alg».proof.Proof.Gen.ReferenceIdeal
import proofs.«152416_j10892037062711_1_alg».proof.Proof.Gen.Pre_finite_inputs
import proofs.«152416_j10892037062711_1_alg».proof.Proof.Frame
import proofs.«152416_j10892037062711_1_alg».proof.Proof.FrameW
import proofs.«152416_j10892037062711_1_alg».proof.Proof.KResult
import proofs.«152416_j10892037062711_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The two idealized programs end with equal results: the tiled program's result is the read-out of the input rows and
    the two layer outputs its regions leave, the plain program's the same read-out of its own two layer outputs, and the
    layer outputs agree (`Bridge.layers_agree`) as do the arguments. -/
theorem algebraic : Cert.algebraic_KernelIdeal_ReferenceIdeal := fun m g m' g' hpre hagree =>
  ⟨fun c => Cert.ReferenceIdeal.RefValue.tailOf (m ((c.tc : Thread Cert.KernelIdeal.nD Cert.KernelIdeal.τ).loc Cert.KernelIdeal.main_arg0)) (Cert.KernelIdeal.Assembly.OUTS m 6 Cert.KernelIdeal.main_v34 c) (Cert.KernelIdeal.Assembly.OUTS m 12 Cert.KernelIdeal.main_v65 c)
      (m ((c.tc : Thread Cert.KernelIdeal.nD Cert.KernelIdeal.τ).loc Cert.KernelIdeal.main_arg2)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)),
    Cert.KernelIdeal.KResult.kernel_result m g,
    (θ_run (Cert.ReferenceIdeal.defs (F := Ideal)) _ _).mono (fun r h c => ⟨by
        rw [(h c).1, ← (Cert.KernelIdeal.Bridge.layers_agree m m' hpre hagree c).1, ← (Cert.KernelIdeal.Bridge.layers_agree m m' hpre hagree c).2,
          (hagree c).1, (hagree c).2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2.1, (hagree c).2.2.2.2.2.2.2.2.2.2.2.2.2.2.2.2.2.2.2.2.2.2.1, (hagree c).2.2.2.2.2.2.2.2.2.2.2.2.2.2.2.2.2.2.2.2.2.2.2.1, (hagree c).2.2.2.2.2.2.2.2.2.2.2.2.2.2.2.2.2.2.2.2.2.2.2.2],
      (h c).2⟩) (Cert.KernelIdeal.KResult.reference_result m' g')⟩

/-- The claim: the three frames, the (empty) idealization ledger, and the equality of results. -/
theorem claim : Cert.Claim := ⟨Cert.Kernel.Gen.facts, Cert.KernelIdeal.Gen.facts, Cert.ReferenceIdeal.Gen.facts, Cert.Pre_finite_inputs.Gen.facts,
  fun m ρ _ => Cert.Kernel.Assembly.frame (F := Bits) m ρ,
  fun m ρ _ => Cert.KernelIdeal.Assembly.frame (F := Ideal) m ρ,
  Cert.ReferenceIdeal.RefRun.frame,
  trivial,
  algebraic⟩

end Cert.Proof

end
